-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S4x64 .f32) (main_arg6 : FVec F S4x64 .f32) (main_arg7 : FVec F S64x64 .f32) (main_arg8 : FVec F S64 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg5
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S4x64 .f32 := Host.absf main_arg6
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1000000 32) (main_arg2 : FVec F S128x64 .f32) (main_arg3 : FVec F S64 .f32) (main_arg4 : FVec F S4x64x64 .f32) (main_arg5 : FVec F S4x64 .f32) (main_arg6 : FVec F S4x64 .f32) (main_arg7 : FVec F S64x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg4
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg5 main_arg6 main_arg7 main_arg8 main_v13 main_v16
-- ==== Kernel.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S1x64 : Shape := ⟨2, ![1, 64]⟩
abbrev S100000x64 : Shape := ⟨2, ![100000, 64]⟩
abbrev S10000x128 : Shape := ⟨2, ![10000, 128]⟩
abbrev S10000x64 : Shape := ⟨2, ![10000, 64]⟩
abbrev S1000000x64 : Shape := ⟨2, ![1000000, 64]⟩
abbrev S1x64x64 : Shape := ⟨3, ![1, 64, 64]⟩

abbrev nBuf : Space → Nat
  | .hbm => 201
  | .vmem => 96
  | .smem => 0
  | _ => 0

abbrev hbmTy0_0 (i : Nat) : BufTy := match i % 128 with
  | 0 => ⟨S100000x128, .f32⟩
  | 1 => ⟨S2x1000000, .i32⟩
  | 2 => ⟨S128x64, .f32⟩
  | 3 => ⟨S64, .f32⟩
  | 4 => ⟨S4x64x64, .f32⟩
  | 5 => ⟨S4x64, .f32⟩
  | 6 => ⟨S4x64, .f32⟩
  | 7 => ⟨S64x64, .f32⟩
  | 8 => ⟨S64, .f32⟩
  | 9 => ⟨S1x1000000, .i32⟩
  | 10 => ⟨S1000000, .i32⟩
  | 11 => ⟨S1x1000000, .i32⟩
  | 12 => ⟨S1000000, .i32⟩
  | 13 => ⟨S_, .f32⟩
  | 14 => ⟨S1000000, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .f32⟩
  | 52 => ⟨S1000000, .f32⟩
  | 53 => ⟨S1x64, .f32⟩
  | 54 => ⟨S100000x64, .f32⟩
  | 55 => ⟨S_, .i32⟩
  | 56 => ⟨S1000000, .i32⟩
  | 57 => ⟨S1000000, .i1⟩
  | 58 => ⟨S_, .i32⟩
  | 59 => ⟨S1000000, .i32⟩
  | 60 => ⟨S1000000, .i32⟩
  | 61 => ⟨S1000000, .i32⟩
  | 62 => ⟨S1000000x1, .i32⟩
  | 63 => ⟨S1000000x64, .f32⟩
  | 64 => ⟨S1000000x1, .f32⟩
  | 65 => ⟨S1000000x64, .f32⟩
  | 66 => ⟨S1000000x64, .f32⟩
  | 67 => ⟨S_, .f32⟩
  | 68 => ⟨S100000x64, .f32⟩
  | 69 => ⟨S1000000x1, .i32⟩
  | 70 => ⟨S100000x64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S1x64, .f32⟩
  | 77 => ⟨S64, .f32⟩
  | 78 => ⟨S1x64, .f32⟩
  | 79 => ⟨S100000x64, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S_, .f32⟩
  | 86 => ⟨S1x64, .f32⟩
  | 87 => ⟨S1x64, .f32⟩
  | 88 => ⟨S1x64, .f32⟩
  | 89 => ⟨S1x64, .f32⟩
  | 90 => ⟨S100000x64, .f32⟩
  | 91 => ⟨S_, .i32⟩
  | 92 => ⟨S1000000, .i32⟩
  | 93 => ⟨S1000000, .i1⟩
  | 94 => ⟨S_, .i32⟩
  | 95 => ⟨S1000000, .i32⟩
  | 96 => ⟨S1000000, .i32⟩
  | 97 => ⟨S1000000, .i32⟩
  | 98 => ⟨S1000000x1, .i32⟩
  | 99 => ⟨S1000000x64, .f32⟩
  | 100 => ⟨S1000000x1, .f32⟩
  | 101 => ⟨S1000000x64, .f32⟩
  | 102 => ⟨S1000000x64, .f32⟩
  | 103 => ⟨S_, .f32⟩
  | 104 => ⟨S100000x64, .f32⟩
  | 105 => ⟨S1000000x1, .i32⟩
  | 106 => ⟨S100000x64, .f32⟩
  | 107 => ⟨S1x64x64, .f32⟩
  | 108 => ⟨S64x64, .f32⟩
  | 109 => ⟨S1x64, .f32⟩
  | 110 => ⟨S64, .f32⟩
  | 111 => ⟨S1x64, .f32⟩
  | 112 => ⟨S1x64, .f32⟩
  | 113 => ⟨S64, .f32⟩
  | 114 => ⟨S1x64, .f32⟩
  | 115 => ⟨S100000x64, .f32⟩
  | 116 => ⟨S1x64, .f32⟩
  | 117 => ⟨S1x64, .f32⟩
  | 118 => ⟨S_, .f32⟩
  | 119 => ⟨S1x64, .f32⟩
  | 120 => ⟨S1x64, .f32⟩
  | 121 => ⟨S_, .f32⟩
  | 122 => ⟨S1x64, .f32⟩
  | 123 => ⟨S1x64, .f32⟩
  | 124 => ⟨S1x64, .f32⟩
  | 125 => ⟨S1x64, .f32⟩
  | 126 => ⟨S100000x64, .f32⟩
  | 127 => ⟨S_, .i32⟩
  | _ => ⟨S100000x128, .f32⟩

abbrev hbmTy0_1 (i : Nat) : BufTy := match i % 128 with
  | 0 => ⟨S1000000, .i32⟩
  | 1 => ⟨S1000000, .i1⟩
  | 2 => ⟨S_, .i32⟩
  | 3 => ⟨S1000000, .i32⟩
  | 4 => ⟨S1000000, .i32⟩
  | 5 => ⟨S1000000, .i32⟩
  | 6 => ⟨S1000000x1, .i32⟩
  | 7 => ⟨S1000000x64, .f32⟩
  | 8 => ⟨S1000000x1, .f32⟩
  | 9 => ⟨S1000000x64, .f32⟩
  | 10 => ⟨S1000000x64, .f32⟩
  | 11 => ⟨S_, .f32⟩
  | 12 => ⟨S100000x64, .f32⟩
  | 13 => ⟨S1000000x1, .i32⟩
  | 14 => ⟨S100000x64, .f32⟩
  | 15 => ⟨S1x64x64, .f32⟩
  | 16 => ⟨S64x64, .f32⟩
  | 17 => ⟨S1x64, .f32⟩
  | 18 => ⟨S64, .f32⟩
  | 19 => ⟨S1x64, .f32⟩
  | 20 => ⟨S1x64, .f32⟩
  | 21 => ⟨S64, .f32⟩
  | 22 => ⟨S1x64, .f32⟩
  | 23 => ⟨S100000x64, .f32⟩
  | 24 => ⟨S1x64, .f32⟩
  | 25 => ⟨S1x64, .f32⟩
  | 26 => ⟨S_, .f32⟩
  | 27 => ⟨S1x64, .f32⟩
  | 28 => ⟨S1x64, .f32⟩
  | 29 => ⟨S_, .f32⟩
  | 30 => ⟨S1x64, .f32⟩
  | 31 => ⟨S1x64, .f32⟩
  | 32 => ⟨S1x64, .f32⟩
  | 33 => ⟨S1x64, .f32⟩
  | 34 => ⟨S100000x64, .f32⟩
  | 35 => ⟨S_, .i32⟩
  | 36 => ⟨S1000000, .i32⟩
  | 37 => ⟨S1000000, .i1⟩
  | 38 => ⟨S_, .i32⟩
  | 39 => ⟨S1000000, .i32⟩
  | 40 => ⟨S1000000, .i32⟩
  | 41 => ⟨S1000000, .i32⟩
  | 42 => ⟨S1000000x1, .i32⟩
  | 43 => ⟨S1000000x64, .f32⟩
  | 44 => ⟨S1000000x1, .f32⟩
  | 45 => ⟨S1000000x64, .f32⟩
  | 46 => ⟨S1000000x64, .f32⟩
  | 47 => ⟨S_, .f32⟩
  | 48 => ⟨S100000x64, .f32⟩
  | 49 => ⟨S1000000x1, .i32⟩
  | 50 => ⟨S100000x64, .f32⟩
  | 51 => ⟨S1x64x64, .f32⟩
  | 52 => ⟨S64x64, .f32⟩
  | 53 => ⟨S1x64, .f32⟩
  | 54 => ⟨S64, .f32⟩
  | 55 => ⟨S1x64, .f32⟩
  | 56 => ⟨S1x64, .f32⟩
  | 57 => ⟨S64, .f32⟩
  | 58 => ⟨S1x64, .f32⟩
  | 59 => ⟨S100000x64, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S_, .f32⟩
  | 66 => ⟨S1x64, .f32⟩
  | 67 => ⟨S1x64, .f32⟩
  | 68 => ⟨S1x64, .f32⟩
  | 69 => ⟨S1x64, .f32⟩
  | 70 => ⟨S100000x64, .f32⟩
  | 71 => ⟨S1x64, .f32⟩
  | 72 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S64x64, .f32⟩
  | .local _ .vmem, ⟨32, _⟩ => ⟨S10000x64, .f32⟩
  | .local _ .vmem, ⟨33, _⟩ => ⟨S10000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S10000x64, .f32⟩
  | .local _ .vmem, ⟨47, _⟩ => ⟨S10000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S64x64, .f32⟩
  | .local _ .vmem, ⟨53, _⟩ => ⟨S10000x64, .f32⟩
  | .local _ .vmem, ⟨54, _⟩ => ⟨S10000x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S1x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S1x64, .f32⟩
  | .local _ .vmem, ⟨64, _⟩ => ⟨S1x64, .f32⟩
  | .local _ .vmem, ⟨65, _⟩ => ⟨S1x64, .f32⟩
  | .local _ .vmem, ⟨66, _⟩ => ⟨S1x64, .f32⟩
  | .local _ .vmem, ⟨67, _⟩ => ⟨S10000x64, .f32⟩
  | .local _ .vmem, ⟨68, _⟩ => ⟨S10000x64, .f32⟩
  | .local _ .vmem, ⟨69, _⟩ => ⟨S10000x64, .f32⟩
  | .local _ .vmem, ⟨70, _⟩ => ⟨S10000x64, .f32⟩
  | .local _ .vmem, ⟨71, _⟩ => ⟨S10000x64, .f32⟩
  | .local _ .vmem, ⟨72, _⟩ => ⟨S10000x64, .f32⟩
  | .local _ .vmem, ⟨73, _⟩ => ⟨S64x64, .f32⟩
  | .local _ .vmem, ⟨74, _⟩ => ⟨S10000x64, .f32⟩
  | .local _ .vmem, ⟨75, _⟩ => ⟨S10000x64, .f32⟩
  | .local _ .vmem, ⟨76, _⟩ => ⟨S1x64, .f32⟩
  | .local _ .vmem, ⟨77, _⟩ => ⟨S1x64, .f32⟩
  | .local _ .vmem, ⟨78, _⟩ => ⟨S1x64, .f32⟩
  | .local _ .vmem, ⟨79, _⟩ => ⟨S1x64, .f32⟩
  | .local _ .vmem, ⟨80, _⟩ => ⟨S10000x64, .f32⟩
  | .local _ .vmem, ⟨81, _⟩ => ⟨S10000x64, .f32⟩
  | .local _ .vmem, ⟨82, _⟩ => ⟨S10000x64, .f32⟩
  | .local _ .vmem, ⟨83, _⟩ => ⟨S10000x64, .f32⟩
  | .local _ .vmem, ⟨84, _⟩ => ⟨S1x64, .f32⟩
  | .local _ .vmem, ⟨85, _⟩ => ⟨S1x64, .f32⟩
  | .local _ .vmem, ⟨86, _⟩ => ⟨S1x64, .f32⟩
  | .local _ .vmem, ⟨87, _⟩ => ⟨S1x64, .f32⟩
  | .local _ .vmem, ⟨88, _⟩ => ⟨S10000x64, .f32⟩
  | .local _ .vmem, ⟨89, _⟩ => ⟨S10000x64, .f32⟩
  | .local _ .vmem, ⟨90, _⟩ => ⟨S10000x64, .f32⟩
  | .local _ .vmem, ⟨91, _⟩ => ⟨S10000x64, .f32⟩
  | .local _ .vmem, ⟨92, _⟩ => ⟨S64x64, .f32⟩
  | .local _ .vmem, ⟨93, _⟩ => ⟨S1x64, .f32⟩
  | .local _ .vmem, ⟨94, _⟩ => ⟨S10000x64, .f32⟩
  | .local _ .vmem, ⟨95, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 88 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | _ => false

abbrev sig : RefSig :=
  ofTc nBuf bufTy 0 88 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_8 : Ref sig .tc := ⟨.hbm, 55, rfl⟩
abbrev main_v32 : Ref sig .tc := ⟨.hbm, 56, rfl⟩
abbrev main_v33 : Ref sig .tc := ⟨.hbm, 57, rfl⟩
abbrev main_c_9 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53_0 : Ref sig .tc := ⟨.hbm, 79, rfl⟩
abbrev main_v53_1 : Ref sig .tc := ⟨.hbm, 80, rfl⟩
abbrev main_v53_2 : Ref sig .tc := ⟨.hbm, 81, rfl⟩
abbrev main_cst_11 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82_0 : Ref sig .tc := ⟨.hbm, 115, rfl⟩
abbrev main_v82_1 : Ref sig .tc := ⟨.hbm, 116, rfl⟩
abbrev main_v82_2 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_c_18 : Ref sig .tc := ⟨.hbm, 127, rfl⟩
abbrev main_v90 : Ref sig .tc := ⟨.hbm, 128, rfl⟩
abbrev main_v91 : Ref sig .tc := ⟨.hbm, 129, rfl⟩
abbrev main_c_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_20 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111_0 : Ref sig .tc := ⟨.hbm, 151, rfl⟩
abbrev main_v111_1 : Ref sig .tc := ⟨.hbm, 152, rfl⟩
abbrev main_v111_2 : Ref sig .tc := ⟨.hbm, 153, rfl⟩
abbrev main_cst_21 : Ref sig .tc := ⟨.hbm, 154, rfl⟩
abbrev main_v112 : Ref sig .tc := ⟨.hbm, 155, rfl⟩
abbrev main_v113 : Ref sig .tc := ⟨.hbm, 156, rfl⟩
abbrev main_cst_22 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_23 : Ref sig .tc := ⟨.hbm, 163, rfl⟩
abbrev main_v119 : Ref sig .tc := ⟨.hbm, 164, rfl⟩
abbrev main_v120 : Ref sig .tc := ⟨.hbm, 165, rfl⟩
abbrev main_c_24 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_25 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140_0 : Ref sig .tc := ⟨.hbm, 187, rfl⟩
abbrev main_v140_1 : Ref sig .tc := ⟨.hbm, 188, rfl⟩
abbrev main_v140_2 : Ref sig .tc := ⟨.hbm, 189, rfl⟩
abbrev main_cst_26 : Ref sig .tc := ⟨.hbm, 190, rfl⟩
abbrev main_v141 : Ref sig .tc := ⟨.hbm, 191, rfl⟩
abbrev main_v142 : Ref sig .tc := ⟨.hbm, 192, rfl⟩
abbrev main_cst_27 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_scratch0 : Ref sig .tc := ⟨.vmem, 36, rfl⟩
abbrev cc3_scratch1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg6_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg3_1 : Ref sig .tc := ⟨.vmem, 54, rfl⟩
abbrev cc5_stg4_0 : Ref sig .tc := ⟨.vmem, 55, rfl⟩
abbrev cc5_stg5_0 : Ref sig .tc := ⟨.vmem, 56, rfl⟩
abbrev cc5_scratch0 : Ref sig .tc := ⟨.vmem, 57, rfl⟩
abbrev cc5_scratch1 : Ref sig .tc := ⟨.vmem, 58, rfl⟩
abbrev cc6_stg0_0 : Ref sig .tc := ⟨.vmem, 59, rfl⟩
abbrev cc6_stg0_1 : Ref sig .tc := ⟨.vmem, 60, rfl⟩
abbrev cc6_stg1_0 : Ref sig .tc := ⟨.vmem, 61, rfl⟩
abbrev cc6_stg1_1 : Ref sig .tc := ⟨.vmem, 62, rfl⟩
abbrev cc6_stg2_0 : Ref sig .tc := ⟨.vmem, 63, rfl⟩
abbrev cc6_stg3_0 : Ref sig .tc := ⟨.vmem, 64, rfl⟩
abbrev cc6_stg4_0 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg6_1 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg3_1 : Ref sig .tc := ⟨.vmem, 75, rfl⟩
abbrev cc7_stg4_0 : Ref sig .tc := ⟨.vmem, 76, rfl⟩
abbrev cc7_stg5_0 : Ref sig .tc := ⟨.vmem, 77, rfl⟩
abbrev cc7_scratch0 : Ref sig .tc := ⟨.vmem, 78, rfl⟩
abbrev cc7_scratch1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg5_0 : Ref sig .tc := ⟨.vmem, 87, rfl⟩
abbrev cc8_stg6_0 : Ref sig .tc := ⟨.vmem, 88, rfl⟩
abbrev cc8_stg6_1 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg2_0 : Ref sig .tc := ⟨.vmem, 93, rfl⟩
abbrev cc9_stg3_0 : Ref sig .tc := ⟨.vmem, 94, rfl⟩
abbrev cc9_stg3_1 : Ref sig .tc := ⟨.vmem, 95, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem5_0 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem5_0 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem6_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem3_0 : DmaSem sig := 49
abbrev cc5_sem3_1 : DmaSem sig := 50
abbrev cc5_sem4_0 : DmaSem sig := 51
abbrev cc5_sem5_0 : DmaSem sig := 52
abbrev cc6_sem0_0 : DmaSem sig := 53
abbrev cc6_sem0_1 : DmaSem sig := 54
abbrev cc6_sem1_0 : DmaSem sig := 55
abbrev cc6_sem1_1 : DmaSem sig := 56
abbrev cc6_sem2_0 : DmaSem sig := 57
abbrev cc6_sem3_0 : DmaSem sig := 58
abbrev cc6_sem4_0 : DmaSem sig := 59
abbrev cc6_sem5_0 : DmaSem sig := 60
abbrev cc6_sem6_0 : DmaSem sig := 61
abbrev cc6_sem6_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem3_0 : DmaSem sig := 68
abbrev cc7_sem3_1 : DmaSem sig := 69
abbrev cc7_sem4_0 : DmaSem sig := 70
abbrev cc7_sem5_0 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem3_0 : DmaSem sig := 77
abbrev cc8_sem4_0 : DmaSem sig := 78
abbrev cc8_sem5_0 : DmaSem sig := 79
abbrev cc8_sem6_0 : DmaSem sig := 80
abbrev cc8_sem6_1 : DmaSem sig := 81
abbrev cc9_sem0_0 : DmaSem sig := 82
abbrev cc9_sem0_1 : DmaSem sig := 83
abbrev cc9_sem1_0 : DmaSem sig := 84
abbrev cc9_sem2_0 : DmaSem sig := 85
abbrev cc9_sem3_0 : DmaSem sig := 86
abbrev cc9_sem3_1 : DmaSem sig := 87

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S10000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S10000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S10000x64 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S10000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S10000x64_S64 : S10000x64.Reduces [0] S64
  bcast_S_S1x64 : S_.BroadcastsInDim S1x64 (![] : Fin 0 → Fin S1x64.rank)
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S10000x128_S128x64_S10000x64_1_0_0_1_n_n_wf : DotDims.WF S10000x128 S128x64 S10000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x64.size a ≤ S100000x64.size a
  hwx2_6 : ∀ i : grid2.Coords, EltTy.bits .f32 = 32 ∨ (Rect.block (s := S100000x64) S10000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x64.size a ≤ S100000x64.size a
  hwx4_6 : ∀ i : grid4.Coords, EltTy.bits .f32 = 32 ∨ (Rect.block (s := S100000x64) S10000x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .f32 = 32 ∨ (Rect.block (s := S100000x64) S10000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S10000x64.size a ≤ S100000x64.size a
  hwx6_6 : ∀ i : grid6.Coords, EltTy.bits .f32 = 32 ∨ (Rect.block (s := S100000x64) S10000x64.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x64.size a ≤ S100000x64.size a
  hwx7_1 : ∀ i : grid7.Coords, EltTy.bits .f32 = 32 ∨ (Rect.block (s := S100000x64) S10000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x64.size a ≤ S100000x64.size a
  hwx7_3 : ∀ i : grid7.Coords, EltTy.bits .f32 = 32 ∨ (Rect.block (s := S100000x64) S10000x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x64.size a ≤ S100000x64.size a
  hwx8_0 : ∀ i : grid8.Coords, EltTy.bits .f32 = 32 ∨ (Rect.block (s := S100000x64) S10000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x64.size a ≤ S100000x64.size a
  hwx8_1 : ∀ i : grid8.Coords, EltTy.bits .f32 = 32 ∨ (Rect.block (s := S100000x64) S10000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x64.size a ≤ S1x64.size a
  hwx8_5 : ∀ i : grid8.Coords, EltTy.bits .f32 = 32 ∨ (Rect.block (s := S1x64) S1x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S10000x64.size a ≤ S100000x64.size a
  hwx8_6 : ∀ i : grid8.Coords, EltTy.bits .f32 = 32 ∨ (Rect.block (s := S100000x64) S10000x64.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x64.size a ≤ S100000x64.size a
  hwx9_0 : ∀ i : grid9.Coords, EltTy.bits .f32 = 32 ∨ (Rect.block (s := S100000x64) S10000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S10000x64.size a ≤ S100000x64.size a
  hwx9_3 : ∀ i : grid9.Coords, EltTy.bits .f32 = 32 ∨ (Rect.block (s := S100000x64) S10000x64.size (cc9_transform_3 i) (hinb9_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53_0) S10000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v53_1) S1x64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53_2) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53_0) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v60) S10000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v75) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82_0) S10000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v82_1) S1x64.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82_2) S1x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v82_0) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v84) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v81) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v89) S10000x64.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v102) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v31) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111_0) S10000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v111_1) S1x64.size cc5_transform_4 reads5_4 true true 1 stage5_4 sem5_4
    hrank5 hreads5_4 hinb5_4 nbuf5_4 (Memref.isWhole_whole _) hwx5_4 hstage5_4

abbrev win5_5 : Pipeline.Window sig grid5 :=
  Pipeline.Window.ofSpec (Memref.whole main_v111_2) S1x64.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v111_0) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v89) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v113) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v117) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v107) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v110) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v118) S10000x64.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v131) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v31) S10000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v133) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v140_0) S10000x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v140_1) S1x64.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v140_2) S1x64.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v140_0) S10000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v118) S10000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v142) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v146) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v136) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v139) S1x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v147) S10000x64.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v147) S10000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v148) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v149) S10000x64.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x64 : Shape := ⟨2, ![64, 64]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x64 : Shape := ⟨2, ![100000, 64]⟩
abbrev S1x64 : Shape := ⟨2, ![1, 64]⟩
abbrev S1000000x64 : Shape := ⟨2, ![1000000, 64]⟩
abbrev S1x64x64 : Shape := ⟨3, ![1, 64, 64]⟩

abbrev nBuf : Space → Nat
  | .hbm => 348
  | .vmem => 0
  | .smem => 0
  | _ => 0

abbrev hbmTy0_0 (i : Nat) : BufTy := match i % 128 with
  | 0 => ⟨S100000x128, .f32⟩
  | 1 => ⟨S2x1000000, .i32⟩
  | 2 => ⟨S128x64, .f32⟩
  | 3 => ⟨S64, .f32⟩
  | 4 => ⟨S4x64x64, .f32⟩
  | 5 => ⟨S4x64, .f32⟩
  | 6 => ⟨S4x64, .f32⟩
  | 7 => ⟨S64x64, .f32⟩
  | 8 => ⟨S64, .f32⟩
  | 9 => ⟨S1x1000000, .i32⟩
  | 10 => ⟨S1000000, .i32⟩
  | 11 => ⟨S1x1000000, .i32⟩
  | 12 => ⟨S1000000, .i32⟩
  | 13 => ⟨S_, .f32⟩
  | 14 => ⟨S1000000, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .i1⟩
  | 25 => ⟨S_, .f32⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000, .f32⟩
  | 43 => ⟨S_, .i32⟩
  | 44 => ⟨S1000000, .i32⟩
  | 45 => ⟨S1000000, .i1⟩
  | 46 => ⟨S_, .i32⟩
  | 47 => ⟨S1000000, .i32⟩
  | 48 => ⟨S1000000, .i32⟩
  | 49 => ⟨S1000000, .i32⟩
  | 50 => ⟨S1000000x1, .i32⟩
  | 51 => ⟨S1000000, .f32⟩
  | 52 => ⟨S1000000, .f32⟩
  | 53 => ⟨S100000x64, .f32⟩
  | 54 => ⟨S1x64, .f32⟩
  | 55 => ⟨S100000x64, .f32⟩
  | 56 => ⟨S100000x64, .f32⟩
  | 57 => ⟨S_, .f32⟩
  | 58 => ⟨S100000x64, .f32⟩
  | 59 => ⟨S100000x64, .f32⟩
  | 60 => ⟨S_, .i32⟩
  | 61 => ⟨S1000000, .i32⟩
  | 62 => ⟨S1000000, .i1⟩
  | 63 => ⟨S_, .i32⟩
  | 64 => ⟨S1000000, .i32⟩
  | 65 => ⟨S1000000, .i32⟩
  | 66 => ⟨S1000000, .i32⟩
  | 67 => ⟨S1000000x1, .i32⟩
  | 68 => ⟨S1000000x64, .f32⟩
  | 69 => ⟨S1000000x1, .f32⟩
  | 70 => ⟨S1000000x64, .f32⟩
  | 71 => ⟨S1000000x64, .f32⟩
  | 72 => ⟨S_, .f32⟩
  | 73 => ⟨S100000x64, .f32⟩
  | 74 => ⟨S1000000x1, .i32⟩
  | 75 => ⟨S100000x64, .f32⟩
  | 76 => ⟨S_, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .f32⟩
  | 84 => ⟨S100000x64, .f32⟩
  | 85 => ⟨S100000x64, .f32⟩
  | 86 => ⟨S1x64x64, .f32⟩
  | 87 => ⟨S64x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .f32⟩
  | 94 => ⟨S64, .f32⟩
  | 95 => ⟨S_, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S100000x64, .f32⟩
  | 102 => ⟨S_, .f32⟩
  | 103 => ⟨S64, .f32⟩
  | 104 => ⟨S_, .f32⟩
  | 105 => ⟨S64, .f32⟩
  | 106 => ⟨S64, .f32⟩
  | 107 => ⟨S1x64, .f32⟩
  | 108 => ⟨S100000x64, .f32⟩
  | 109 => ⟨S100000x64, .f32⟩
  | 110 => ⟨S_, .f32⟩
  | 111 => ⟨S64, .f32⟩
  | 112 => ⟨S64, .f32⟩
  | 113 => ⟨S64, .f32⟩
  | 114 => ⟨S1x64, .f32⟩
  | 115 => ⟨S100000x64, .f32⟩
  | 116 => ⟨S100000x64, .f32⟩
  | 117 => ⟨S1x64, .f32⟩
  | 118 => ⟨S64, .f32⟩
  | 119 => ⟨S1x64, .f32⟩
  | 120 => ⟨S100000x64, .f32⟩
  | 121 => ⟨S100000x64, .f32⟩
  | 122 => ⟨S1x64, .f32⟩
  | 123 => ⟨S64, .f32⟩
  | 124 => ⟨S1x64, .f32⟩
  | 125 => ⟨S100000x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S100000x64, .f32⟩
  | 2 => ⟨S100000x64, .f32⟩
  | 3 => ⟨S_, .i32⟩
  | 4 => ⟨S1000000, .i32⟩
  | 5 => ⟨S1000000, .i1⟩
  | 6 => ⟨S_, .i32⟩
  | 7 => ⟨S1000000, .i32⟩
  | 8 => ⟨S1000000, .i32⟩
  | 9 => ⟨S1000000, .i32⟩
  | 10 => ⟨S1000000x1, .i32⟩
  | 11 => ⟨S1000000x64, .f32⟩
  | 12 => ⟨S1000000x1, .f32⟩
  | 13 => ⟨S1000000x64, .f32⟩
  | 14 => ⟨S1000000x64, .f32⟩
  | 15 => ⟨S_, .f32⟩
  | 16 => ⟨S100000x64, .f32⟩
  | 17 => ⟨S1000000x1, .i32⟩
  | 18 => ⟨S100000x64, .f32⟩
  | 19 => ⟨S_, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S100000x64, .f32⟩
  | 26 => ⟨S_, .f32⟩
  | 27 => ⟨S100000x64, .f32⟩
  | 28 => ⟨S100000x64, .f32⟩
  | 29 => ⟨S1x64x64, .f32⟩
  | 30 => ⟨S64x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S_, .f32⟩
  | 37 => ⟨S64, .f32⟩
  | 38 => ⟨S_, .f32⟩
  | 39 => ⟨S64, .f32⟩
  | 40 => ⟨S64, .f32⟩
  | 41 => ⟨S1x64, .f32⟩
  | 42 => ⟨S100000x64, .f32⟩
  | 43 => ⟨S100000x64, .f32⟩
  | 44 => ⟨S100000x64, .f32⟩
  | 45 => ⟨S_, .f32⟩
  | 46 => ⟨S64, .f32⟩
  | 47 => ⟨S_, .f32⟩
  | 48 => ⟨S64, .f32⟩
  | 49 => ⟨S64, .f32⟩
  | 50 => ⟨S1x64, .f32⟩
  | 51 => ⟨S100000x64, .f32⟩
  | 52 => ⟨S100000x64, .f32⟩
  | 53 => ⟨S_, .f32⟩
  | 54 => ⟨S64, .f32⟩
  | 55 => ⟨S64, .f32⟩
  | 56 => ⟨S64, .f32⟩
  | 57 => ⟨S1x64, .f32⟩
  | 58 => ⟨S100000x64, .f32⟩
  | 59 => ⟨S100000x64, .f32⟩
  | 60 => ⟨S1x64, .f32⟩
  | 61 => ⟨S64, .f32⟩
  | 62 => ⟨S1x64, .f32⟩
  | 63 => ⟨S100000x64, .f32⟩
  | 64 => ⟨S100000x64, .f32⟩
  | 65 => ⟨S1x64, .f32⟩
  | 66 => ⟨S64, .f32⟩
  | 67 => ⟨S1x64, .f32⟩
  | 68 => ⟨S100000x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000x64, .f32⟩
  | 83 => ⟨S1000000x1, .f32⟩
  | 84 => ⟨S1000000x64, .f32⟩
  | 85 => ⟨S1000000x64, .f32⟩
  | 86 => ⟨S_, .f32⟩
  | 87 => ⟨S100000x64, .f32⟩
  | 88 => ⟨S1000000x1, .i32⟩
  | 89 => ⟨S100000x64, .f32⟩
  | 90 => ⟨S_, .f32⟩
  | 91 => ⟨S100000x64, .f32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S_, .f32⟩
  | 98 => ⟨S100000x64, .f32⟩
  | 99 => ⟨S100000x64, .f32⟩
  | 100 => ⟨S1x64x64, .f32⟩
  | 101 => ⟨S64x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S_, .f32⟩
  | 108 => ⟨S64, .f32⟩
  | 109 => ⟨S_, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S100000x64, .f32⟩
  | 116 => ⟨S_, .f32⟩
  | 117 => ⟨S64, .f32⟩
  | 118 => ⟨S_, .f32⟩
  | 119 => ⟨S64, .f32⟩
  | 120 => ⟨S64, .f32⟩
  | 121 => ⟨S1x64, .f32⟩
  | 122 => ⟨S100000x64, .f32⟩
  | 123 => ⟨S100000x64, .f32⟩
  | 124 => ⟨S_, .f32⟩
  | 125 => ⟨S64, .f32⟩
  | 126 => ⟨S64, .f32⟩
  | 127 => ⟨S64, .f32⟩
  | _ => ⟨S100000x128, .f32⟩

abbrev hbmTy0_2 (i : Nat) : BufTy := match i % 128 with
  | 0 => ⟨S1x64, .f32⟩
  | 1 => ⟨S100000x64, .f32⟩
  | 2 => ⟨S100000x64, .f32⟩
  | 3 => ⟨S1x64, .f32⟩
  | 4 => ⟨S64, .f32⟩
  | 5 => ⟨S1x64, .f32⟩
  | 6 => ⟨S100000x64, .f32⟩
  | 7 => ⟨S100000x64, .f32⟩
  | 8 => ⟨S1x64, .f32⟩
  | 9 => ⟨S64, .f32⟩
  | 10 => ⟨S1x64, .f32⟩
  | 11 => ⟨S100000x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S_, .i32⟩
  | 18 => ⟨S1000000, .i32⟩
  | 19 => ⟨S1000000, .i1⟩
  | 20 => ⟨S_, .i32⟩
  | 21 => ⟨S1000000, .i32⟩
  | 22 => ⟨S1000000, .i32⟩
  | 23 => ⟨S1000000, .i32⟩
  | 24 => ⟨S1000000x1, .i32⟩
  | 25 => ⟨S1000000x64, .f32⟩
  | 26 => ⟨S1000000x1, .f32⟩
  | 27 => ⟨S1000000x64, .f32⟩
  | 28 => ⟨S1000000x64, .f32⟩
  | 29 => ⟨S_, .f32⟩
  | 30 => ⟨S100000x64, .f32⟩
  | 31 => ⟨S1000000x1, .i32⟩
  | 32 => ⟨S100000x64, .f32⟩
  | 33 => ⟨S_, .f32⟩
  | 34 => ⟨S100000x64, .f32⟩
  | 35 => ⟨S100000x64, .f32⟩
  | 36 => ⟨S_, .f32⟩
  | 37 => ⟨S100000x64, .f32⟩
  | 38 => ⟨S100000x64, .f32⟩
  | 39 => ⟨S100000x64, .f32⟩
  | 40 => ⟨S_, .f32⟩
  | 41 => ⟨S100000x64, .f32⟩
  | 42 => ⟨S100000x64, .f32⟩
  | 43 => ⟨S1x64x64, .f32⟩
  | 44 => ⟨S64x64, .f32⟩
  | 45 => ⟨S100000x64, .f32⟩
  | 46 => ⟨S_, .f32⟩
  | 47 => ⟨S100000x64, .f32⟩
  | 48 => ⟨S100000x64, .f32⟩
  | 49 => ⟨S100000x64, .f32⟩
  | 50 => ⟨S_, .f32⟩
  | 51 => ⟨S64, .f32⟩
  | 52 => ⟨S_, .f32⟩
  | 53 => ⟨S64, .f32⟩
  | 54 => ⟨S64, .f32⟩
  | 55 => ⟨S1x64, .f32⟩
  | 56 => ⟨S100000x64, .f32⟩
  | 57 => ⟨S100000x64, .f32⟩
  | 58 => ⟨S100000x64, .f32⟩
  | 59 => ⟨S_, .f32⟩
  | 60 => ⟨S64, .f32⟩
  | 61 => ⟨S_, .f32⟩
  | 62 => ⟨S64, .f32⟩
  | 63 => ⟨S64, .f32⟩
  | 64 => ⟨S1x64, .f32⟩
  | 65 => ⟨S100000x64, .f32⟩
  | 66 => ⟨S100000x64, .f32⟩
  | 67 => ⟨S_, .f32⟩
  | 68 => ⟨S64, .f32⟩
  | 69 => ⟨S64, .f32⟩
  | 70 => ⟨S64, .f32⟩
  | 71 => ⟨S1x64, .f32⟩
  | 72 => ⟨S100000x64, .f32⟩
  | 73 => ⟨S100000x64, .f32⟩
  | 74 => ⟨S1x64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S64, .f32⟩
  | 81 => ⟨S1x64, .f32⟩
  | 82 => ⟨S100000x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_5 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_c_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call2_cst : Ref sig .tc := ⟨.hbm, 57, rfl⟩
abbrev main_call2_v0 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_11 : Ref sig .tc := ⟨.hbm, 76, rfl⟩
abbrev main_v48 : Ref sig .tc := ⟨.hbm, 77, rfl⟩
abbrev main_v49 : Ref sig .tc := ⟨.hbm, 78, rfl⟩
abbrev main_cst_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_13 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_14 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_15 : Ref sig .tc := ⟨.hbm, 93, rfl⟩
abbrev main_v61 : Ref sig .tc := ⟨.hbm, 94, rfl⟩
abbrev main_cst_16 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_17 : Ref sig .tc := ⟨.hbm, 102, rfl⟩
abbrev main_v68 : Ref sig .tc := ⟨.hbm, 103, rfl⟩
abbrev main_cst_18 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_19 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call3_cst : Ref sig .tc := ⟨.hbm, 128, rfl⟩
abbrev main_call3_v0 : Ref sig .tc := ⟨.hbm, 129, rfl⟩
abbrev main_v91 : Ref sig .tc := ⟨.hbm, 130, rfl⟩
abbrev main_c_20 : Ref sig .tc := ⟨.hbm, 131, rfl⟩
abbrev main_v92 : Ref sig .tc := ⟨.hbm, 132, rfl⟩
abbrev main_v93 : Ref sig .tc := ⟨.hbm, 133, rfl⟩
abbrev main_c_21 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_22 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_cst_23 : Ref sig .tc := ⟨.hbm, 147, rfl⟩
abbrev main_v105 : Ref sig .tc := ⟨.hbm, 148, rfl⟩
abbrev main_v106 : Ref sig .tc := ⟨.hbm, 149, rfl⟩
abbrev main_cst_24 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_cst_25 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_cst_26 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_cst_27 : Ref sig .tc := ⟨.hbm, 164, rfl⟩
abbrev main_v118 : Ref sig .tc := ⟨.hbm, 165, rfl⟩
abbrev main_cst_28 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_29 : Ref sig .tc := ⟨.hbm, 173, rfl⟩
abbrev main_v125 : Ref sig .tc := ⟨.hbm, 174, rfl⟩
abbrev main_cst_30 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_31 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_call4_cst : Ref sig .tc := ⟨.hbm, 199, rfl⟩
abbrev main_call4_v0 : Ref sig .tc := ⟨.hbm, 200, rfl⟩
abbrev main_v148 : Ref sig .tc := ⟨.hbm, 201, rfl⟩
abbrev main_c_32 : Ref sig .tc := ⟨.hbm, 202, rfl⟩
abbrev main_v149 : Ref sig .tc := ⟨.hbm, 203, rfl⟩
abbrev main_v150 : Ref sig .tc := ⟨.hbm, 204, rfl⟩
abbrev main_c_33 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_34 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_cst_35 : Ref sig .tc := ⟨.hbm, 218, rfl⟩
abbrev main_v162 : Ref sig .tc := ⟨.hbm, 219, rfl⟩
abbrev main_v163 : Ref sig .tc := ⟨.hbm, 220, rfl⟩
abbrev main_cst_36 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_37 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_cst_38 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_39 : Ref sig .tc := ⟨.hbm, 235, rfl⟩
abbrev main_v175 : Ref sig .tc := ⟨.hbm, 236, rfl⟩
abbrev main_cst_40 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_v181 : Ref sig .tc := ⟨.hbm, 243, rfl⟩
abbrev main_cst_41 : Ref sig .tc := ⟨.hbm, 244, rfl⟩
abbrev main_v182 : Ref sig .tc := ⟨.hbm, 245, rfl⟩
abbrev main_cst_42 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_cst_43 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_call5_cst : Ref sig .tc := ⟨.hbm, 270, rfl⟩
abbrev main_call5_v0 : Ref sig .tc := ⟨.hbm, 271, rfl⟩
abbrev main_v205 : Ref sig .tc := ⟨.hbm, 272, rfl⟩
abbrev main_c_44 : Ref sig .tc := ⟨.hbm, 273, rfl⟩
abbrev main_v206 : Ref sig .tc := ⟨.hbm, 274, rfl⟩
abbrev main_v207 : Ref sig .tc := ⟨.hbm, 275, rfl⟩
abbrev main_c_45 : Ref sig .tc := ⟨.hbm, 276, rfl⟩
abbrev main_v208 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_cst_46 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_cst_47 : Ref sig .tc := ⟨.hbm, 289, rfl⟩
abbrev main_v219 : Ref sig .tc := ⟨.hbm, 290, rfl⟩
abbrev main_v220 : Ref sig .tc := ⟨.hbm, 291, rfl⟩
abbrev main_cst_48 : Ref sig .tc := ⟨.hbm, 292, rfl⟩
abbrev main_v221 : Ref sig .tc := ⟨.hbm, 293, rfl⟩
abbrev main_v222 : Ref sig .tc := ⟨.hbm, 294, rfl⟩
abbrev main_v223 : Ref sig .tc := ⟨.hbm, 295, rfl⟩
abbrev main_cst_49 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_cst_50 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_cst_51 : Ref sig .tc := ⟨.hbm, 306, rfl⟩
abbrev main_v232 : Ref sig .tc := ⟨.hbm, 307, rfl⟩
abbrev main_cst_52 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_cst_53 : Ref sig .tc := ⟨.hbm, 315, rfl⟩
abbrev main_v239 : Ref sig .tc := ⟨.hbm, 316, rfl⟩
abbrev main_cst_54 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_cst_55 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_v249 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_call6_cst : Ref sig .tc := ⟨.hbm, 341, rfl⟩
abbrev main_call6_v0 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_v265 : Ref sig .tc := ⟨.hbm, 346, rfl⟩
abbrev main_v266 : Ref sig .tc := ⟨.hbm, 347, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S1000000x1_S1000000x64_0_1 : S1000000x1.BroadcastsInDim S1000000x64 (![0, 1] : Fin 2 → Fin S1000000x64.rank)
  slices_S4x64x64_S1x64x64_0_0_0 : S4x64x64.Slices ![0, 0, 0] S1x64x64
  shapeCasts_S1x64x64_S64x64 : S1x64x64.ShapeCasts S64x64
  reducesTo_S100000x64_S64_d0 : S100000x64.ReducesTo [0] S64
  h_S_ : 0 < S_.numel
  bcast_S_S64 : S_.BroadcastsInDim S64 (![] : Fin 0 → Fin S64.rank)
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  dot_S100000x128_S128x64_S100000x64_1_0_0_1_n_n_wf : DotDims.WF S100000x128 S128x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KB.R0.lean ====
/-
  Region 0 of @main (custom_call 0, the kernel `cc0__dense_relu_kernel`), at any float instance: at every grid point the
  body loads its input blocks whole, computes one value from them and stores it whole into the output block. Hence
  the output block after the body is one function of the input blocks (`out0_3`), each input block is left
  as found, and the pipeline's obligation on the body holds at every point.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (when it is not fetched
    its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (when it is not fetched
    its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (when it is not fetched
    its block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-- The output block after the body, as a function of the input blocks: the one store's value. -/
def out0_3 (x0 : Vec F S10000x128 .f32) (x1 : Vec F S128x64 .f32) (x2 : Vec F S1x64 .f32) : Vec F S10000x64 .f32 :=
  View.canon [⟨r0_3, k0_pay1 (View.ld x0 r0_0) (View.ld x1 r0_1) (View.ld x2 r0_2)⟩]

/-- The one store covers the block. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 4000000 in
/-- The body on whole staging memrefs, the inputs' at contents `x` and the output's at anything, runs to the
    continuation with the inputs' as they were and the output's at `out0_3` of them. -/
theorem sound_kernel0 (c : Dev nD) (E : Set ℕ) (i : grid0.Coords) (a0 : Memref sig .tc .vmem S10000x128 .f32) (ha0 : a0.IsWhole) (a1 : Memref sig .tc .vmem S128x64 .f32) (ha1 : a1.IsWhole) (a2 : Memref sig .tc .vmem S1x64 .f32) (ha2 : a2.IsWhole) (a3 : Memref sig .tc .vmem S10000x64 .f32) (ha3 : a3.IsWhole)
    (x0 : Vec F S10000x128 .f32) (x1 : Vec F S128x64 .f32) (x2 : Vec F S1x64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2)) -∗ K ⟨⟩))
      ⊢ wp frame (wpE (defs₀ (F := F)) Variants.none c none) E (cc0__dense_relu_kernel i a0 ha0 a1 ha1 a2 ha2 a3 ha3) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the
    output's at `out0_3` of the input blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KB.R1.lean ====
/-
  Region 1 of @main (custom_call 1, `cc1__gcn_stats_kernel`), at any float instance. The body, at every grid point: at the first point
  only it clears two scratch rows; it then loads the two input blocks and the weights whole, stores the combined block whole,
  adds the block's column sums and column sums of squares to the two scratch rows, and copies the scratch rows whole to
  the two small outputs. The scratch rows are carried from point to point: what the outputs and the scratch hold after
  point `n` is defined by recursion on `n` (`outsAt1`), the first point from cleared rows and every later point from what
  the point before left; the region's invariant after point `n` holds the two scratch rows at those contents.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point is the only one that clears the scratch rows -/

/-- The body's one conditional, from the grid coordinates. -/
abbrev cond1 (i : grid1.Coords) : Prop := (Scalar.cmpi .ne (Scalar.extui (Scalar.cmpi .eq (BitVec.ofNat 32 (i 0).val) 0#32)) 0#32) = 1#1
/-- It holds at the first point only — decided over the grid. -/
theorem hcond1 : ∀ t : Fin cfg1.N, cond1 (grid1.coords t) ↔ t.val = 0 :=
  (by decide +kernel : ∀ t : Fin grid1.N, cond1 (grid1.coords t) ↔ t.val = 0)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

abbrev sc1_0 : Memref sig .tc .vmem S1x64 .f32 := Memref.whole cc1_scratch0
abbrev sc1_1 : Memref sig .tc .vmem S1x64 .f32 := Memref.whole cc1_scratch1
abbrev hst1_0 (t : Fin cfg1.N) : (st1_0 t).IsWhole := hstage1_0 ((cfg1.slots t 0).cast nbuf1_0)
abbrev hst1_1 (t : Fin cfg1.N) : (st1_1 t).IsWhole := hstage1_1 ((cfg1.slots t 1).cast nbuf1_1)
abbrev hst1_2 (t : Fin cfg1.N) : (st1_2 t).IsWhole := hstage1_2 ((cfg1.slots t 2).cast nbuf1_2)
abbrev hst1_3 (t : Fin cfg1.N) : (st1_3 t).IsWhole := hstage1_3 ((cfg1.slots t 3).cast nbuf1_3)
abbrev hst1_4 (t : Fin cfg1.N) : (st1_4 t).IsWhole := hstage1_4 ((cfg1.slots t 4).cast nbuf1_4)
abbrev hst1_5 (t : Fin cfg1.N) : (st1_5 t).IsWhole := hstage1_5 ((cfg1.slots t 5).cast nbuf1_5)

/-- The region's invariant as the launch hands it over: the two scratch rows at some contents, the other scoped buffers
    unopened, the generator register at some state. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [sc1_0, sc1_1, owns_whole]; try rfl

/-! ## The body's run, in its two cases: the stores as pieces, found by running it -/

set_option maxHeartbeats 8000000 in
/-- THE FIRST POINT (the conditional taken): the scratch rows found at anything. -/
noncomputable def kernelRun1_A (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ (∃ d, owns (c : Thread nD τ) s0 fullShare d) ∗ (∃ d, owns (c : Thread nD τ) s1 fullShare d)
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc1__gcn_stats_kernel i a0 ha0 a1 ha1 a2 ha2 a3 ha3 a4 ha4 a5 ha5 s0 hs0 s1 hs1) K } := by
  refine ⟨?_, ?_, ?_, ?_, ?_, fun E K => ?run⟩
  case run =>
    simp only [cc1__gcn_stats_kernel_eq_skeleton]; unfold cc1__gcn_stats_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %g0, -, S0⟩, ⟨%e1, %g1, -, S1⟩, Hk⟩
    obtain rfl := ha0.eq_unread hf0; obtain rfl := ha1.eq_unread hf1; obtain rfl := ha2.eq_unread hf2
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

set_option maxHeartbeats 8000000 in
/-- EVERY LATER POINT (the conditional not taken): the scratch rows found at what the point before left, `p0` and `p1`. -/
noncomputable def kernelRun1_B (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ owns (c : Thread nD τ) s0 fullShare p0 ∗ owns (c : Thread nD τ) s1 fullShare p1
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc1__gcn_stats_kernel i a0 ha0 a1 ha1 a2 ha2 a3 ha3 a4 ha4 a5 ha5 s0 hs0 s1 hs1) K } := by
  refine ⟨?_, ?_, ?_, ?_, ?_, fun E K => ?run⟩
  case run =>
    simp only [cc1__gcn_stats_kernel_eq_skeleton]; unfold cc1__gcn_stats_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, Hk⟩
    obtain rfl := ha0.eq_unread hf0; obtain rfl := ha1.eq_unread hf1; obtain rfl := ha2.eq_unread hf2
    obtain rfl := hs0.eq_unread hg0; obtain rfl := hs1.eq_unread hg1
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

/-! ## Each buffer's stores tile it -/

theorem cover1_A_L3 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S10000x64.Idx) :
    ∃ pc ∈ (kernelRun1_A c i a0 ha0 a1 ha1 a2 ha2 a3 ha3 a4 ha4 a5 ha5 s0 hs0 s1 hs1 hc x0 x1 x2).1, y ∈ pc.1.set :=
  View.cover_of_tiledL (kernelRun1_A c i a0 ha0 a1 ha1 a2 ha2 a3 ha3 a4 ha4 a5 ha5 s0 hs0 s1 hs1 hc x0 x1 x2).1 S10000x64.size (by sl_kernel_rfl) y
theorem cover1_A_L4 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S1x64.Idx) :
    ∃ pc ∈ (kernelRun1_A c i a0 ha0 a1 ha1 a2 ha2 a3 ha3 a4 ha4 a5 ha5 s0 hs0 s1 hs1 hc x0 x1 x2).2.1, y ∈ pc.1.set :=
  View.cover_of_tiledL (kernelRun1_A c i a0 ha0 a1 ha1 a2 ha2 a3 ha3 a4 ha4 a5 ha5 s0 hs0 s1 hs1 hc x0 x1 x2).2.1 S1x64.size (by sl_kernel_rfl) y
theorem cover1_A_L5 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S1x64.Idx) :
    ∃ pc ∈ (kernelRun1_A c i a0 ha0 a1 ha1 a2 ha2 a3 ha3 a4 ha4 a5 ha5 s0 hs0 s1 hs1 hc x0 x1 x2).2.2.1, y ∈ pc.1.set :=
  View.cover_of_tiledL (kernelRun1_A c i a0 ha0 a1 ha1 a2 ha2 a3 ha3 a4 ha4 a5 ha5 s0 hs0 s1 hs1 hc x0 x1 x2).2.2.1 S1x64.size (by sl_kernel_rfl) y
theorem cover1_A_LS0 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S1x64.Idx) :
    ∃ pc ∈ (kernelRun1_A c i a0 ha0 a1 ha1 a2 ha2 a3 ha3 a4 ha4 a5 ha5 s0 hs0 s1 hs1 hc x0 x1 x2).2.2.2.1, y ∈ pc.1.set :=
  View.cover_of_tiledL (kernelRun1_A c i a0 ha0 a1 ha1 a2 ha2 a3 ha3 a4 ha4 a5 ha5 s0 hs0 s1 hs1 hc x0 x1 x2).2.2.2.1 S1x64.size (by sl_kernel_rfl) y
theorem cover1_A_LS1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S1x64.Idx) :
    ∃ pc ∈ (kernelRun1_A c i a0 ha0 a1 ha1 a2 ha2 a3 ha3 a4 ha4 a5 ha5 s0 hs0 s1 hs1 hc x0 x1 x2).2.2.2.2.1, y ∈ pc.1.set :=
  View.cover_of_tiledL (kernelRun1_A c i a0 ha0 a1 ha1 a2 ha2 a3 ha3 a4 ha4 a5 ha5 s0 hs0 s1 hs1 hc x0 x1 x2).2.2.2.2.1 S1x64.size (by sl_kernel_rfl) y
theorem cover1_B_L3 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S10000x64.Idx) :
    ∃ pc ∈ (kernelRun1_B c i a0 ha0 a1 ha1 a2 ha2 a3 ha3 a4 ha4 a5 ha5 s0 hs0 s1 hs1 hc x0 x1 x2 p0 p1).1, y ∈ pc.1.set :=
  View.cover_of_tiledL (kernelRun1_B c i a0 ha0 a1 ha1 a2 ha2 a3 ha3 a4 ha4 a5 ha5 s0 hs0 s1 hs1 hc x0 x1 x2 p0 p1).1 S10000x64.size (by sl_kernel_rfl) y
theorem cover1_B_L4 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S1x64.Idx) :
    ∃ pc ∈ (kernelRun1_B c i a0 ha0 a1 ha1 a2 ha2 a3 ha3 a4 ha4 a5 ha5 s0 hs0 s1 hs1 hc x0 x1 x2 p0 p1).2.1, y ∈ pc.1.set :=
  View.cover_of_tiledL (kernelRun1_B c i a0 ha0 a1 ha1 a2 ha2 a3 ha3 a4 ha4 a5 ha5 s0 hs0 s1 hs1 hc x0 x1 x2 p0 p1).2.1 S1x64.size (by sl_kernel_rfl) y
theorem cover1_B_L5 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S1x64.Idx) :
    ∃ pc ∈ (kernelRun1_B c i a0 ha0 a1 ha1 a2 ha2 a3 ha3 a4 ha4 a5 ha5 s0 hs0 s1 hs1 hc x0 x1 x2 p0 p1).2.2.1, y ∈ pc.1.set :=
  View.cover_of_tiledL (kernelRun1_B c i a0 ha0 a1 ha1 a2 ha2 a3 ha3 a4 ha4 a5 ha5 s0 hs0 s1 hs1 hc x0 x1 x2 p0 p1).2.2.1 S1x64.size (by sl_kernel_rfl) y
theorem cover1_B_LS0 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S1x64.Idx) :
    ∃ pc ∈ (kernelRun1_B c i a0 ha0 a1 ha1 a2 ha2 a3 ha3 a4 ha4 a5 ha5 s0 hs0 s1 hs1 hc x0 x1 x2 p0 p1).2.2.2.1, y ∈ pc.1.set :=
  View.cover_of_tiledL (kernelRun1_B c i a0 ha0 a1 ha1 a2 ha2 a3 ha3 a4 ha4 a5 ha5 s0 hs0 s1 hs1 hc x0 x1 x2 p0 p1).2.2.2.1 S1x64.size (by sl_kernel_rfl) y
theorem cover1_B_LS1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S1x64.Idx) :
    ∃ pc ∈ (kernelRun1_B c i a0 ha0 a1 ha1 a2 ha2 a3 ha3 a4 ha4 a5 ha5 s0 hs0 s1 hs1 hc x0 x1 x2 p0 p1).2.2.2.2.1, y ∈ pc.1.set :=
  View.cover_of_tiledL (kernelRun1_B c i a0 ha0 a1 ha1 a2 ha2 a3 ha3 a4 ha4 a5 ha5 s0 hs0 s1 hs1 hc x0 x1 x2 p0 p1).2.2.2.2.1 S1x64.size (by sl_kernel_rfl) y

/-- What the first point leaves: the three outputs, then the two scratch rows. -/
def resA1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) : (Vec F S10000x64 .f32 × Vec F S1x64 .f32 × Vec F S1x64 .f32) × (Vec F S1x64 .f32 × Vec F S1x64 .f32) :=
  ((View.canon (kernelRun1_A c i a0 ha0 a1 ha1 a2 ha2 a3 ha3 a4 ha4 a5 ha5 s0 hs0 s1 hs1 hc x0 x1 x2).1, View.canon (kernelRun1_A c i a0 ha0 a1 ha1 a2 ha2 a3 ha3 a4 ha4 a5 ha5 s0 hs0 s1 hs1 hc x0 x1 x2).2.1, View.canon (kernelRun1_A c i a0 ha0 a1 ha1 a2 ha2 a3 ha3 a4 ha4 a5 ha5 s0 hs0 s1 hs1 hc x0 x1 x2).2.2.1), (View.canon (kernelRun1_A c i a0 ha0 a1 ha1 a2 ha2 a3 ha3 a4 ha4 a5 ha5 s0 hs0 s1 hs1 hc x0 x1 x2).2.2.2.1, View.canon (kernelRun1_A c i a0 ha0 a1 ha1 a2 ha2 a3 ha3 a4 ha4 a5 ha5 s0 hs0 s1 hs1 hc x0 x1 x2).2.2.2.2.1))
/-- What a later point leaves, from the scratch rows `p0`, `p1` it finds. -/
def resB1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) : (Vec F S10000x64 .f32 × Vec F S1x64 .f32 × Vec F S1x64 .f32) × (Vec F S1x64 .f32 × Vec F S1x64 .f32) :=
  ((View.canon (kernelRun1_B c i a0 ha0 a1 ha1 a2 ha2 a3 ha3 a4 ha4 a5 ha5 s0 hs0 s1 hs1 hc x0 x1 x2 p0 p1).1, View.canon (kernelRun1_B c i a0 ha0 a1 ha1 a2 ha2 a3 ha3 a4 ha4 a5 ha5 s0 hs0 s1 hs1 hc x0 x1 x2 p0 p1).2.1, View.canon (kernelRun1_B c i a0 ha0 a1 ha1 a2 ha2 a3 ha3 a4 ha4 a5 ha5 s0 hs0 s1 hs1 hc x0 x1 x2 p0 p1).2.2.1), (View.canon (kernelRun1_B c i a0 ha0 a1 ha1 a2 ha2 a3 ha3 a4 ha4 a5 ha5 s0 hs0 s1 hs1 hc x0 x1 x2 p0 p1).2.2.2.1, View.canon (kernelRun1_B c i a0 ha0 a1 ha1 a2 ha2 a3 ha3 a4 ha4 a5 ha5 s0 hs0 s1 hs1 hc x0 x1 x2 p0 p1).2.2.2.2.1))

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the outputs and the scratch rows hold after each point -/

/-- THE ACCUMULATION: after point 0 what the first case leaves; after point `n + 1` what the other case leaves from the
    scratch rows as point `n` left them. -/
def outsAt1 (c : Dev nD) : (n : ℕ) → n < cfg1.N → (Vec F S10000x64 .f32 × Vec F S1x64 .f32 × Vec F S1x64 .f32) × (Vec F S1x64 .f32 × Vec F S1x64 .f32)
  | 0, hn => resA1 c (grid1.coords ⟨0, hn⟩) (st1_0 ⟨0, hn⟩) (hst1_0 ⟨0, hn⟩) (st1_1 ⟨0, hn⟩) (hst1_1 ⟨0, hn⟩) (st1_2 ⟨0, hn⟩) (hst1_2 ⟨0, hn⟩) (st1_3 ⟨0, hn⟩) (hst1_3 ⟨0, hn⟩) (st1_4 ⟨0, hn⟩) (hst1_4 ⟨0, hn⟩) (st1_5 ⟨0, hn⟩) (hst1_5 ⟨0, hn⟩) sc1_0 (Memref.isWhole_whole _) sc1_1 (Memref.isWhole_whole _) ((hcond1 ⟨0, hn⟩).mpr rfl) (iblk1 V c 0 ⟨0, hn⟩) (iblk1 V c 1 ⟨0, hn⟩) (iblk1 V c 2 ⟨0, hn⟩)
  | n + 1, hn => resB1 c (grid1.coords ⟨n + 1, hn⟩) (st1_0 ⟨n + 1, hn⟩) (hst1_0 ⟨n + 1, hn⟩) (st1_1 ⟨n + 1, hn⟩) (hst1_1 ⟨n + 1, hn⟩) (st1_2 ⟨n + 1, hn⟩) (hst1_2 ⟨n + 1, hn⟩) (st1_3 ⟨n + 1, hn⟩) (hst1_3 ⟨n + 1, hn⟩) (st1_4 ⟨n + 1, hn⟩) (hst1_4 ⟨n + 1, hn⟩) (st1_5 ⟨n + 1, hn⟩) (hst1_5 ⟨n + 1, hn⟩) sc1_0 (Memref.isWhole_whole _) sc1_1 (Memref.isWhole_whole _) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2

theorem outsAt1_A (c : Dev nD) (t : Fin cfg1.N) (hz : t.val = 0) :
    outsAt1 V c t.val t.isLt = resA1 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t) := by
  obtain ⟨n, hn⟩ := t
  cases n with
  | zero => rfl
  | succ n => exact absurd hz (Nat.succ_ne_zero n)

theorem outsAt1_B (c : Dev nD) (t : Fin cfg1.N) (hz : ¬t.val = 0) :
    outsAt1 V c t.val t.isLt = resB1 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd rfl hz
  | succ n => rfl

/-- The region's invariant before position `n`: before the first point the launch's; afterwards the two scratch rows at what
    the point before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) sc1_0 fullShare ((outsAt1 V c n hn).2.1) ∗ owns (c : Thread nD τ) sc1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) sc1_0 fullShare ((outsAt1 V c n hn).2.1) ∗ owns (c : Thread nD τ) sc1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r)) := rfl
theorem PhiS1_pos (c : Dev nD) (n : ℕ) (h : n ≤ cfg1.N) (hz : n ≠ 0) :
    PhiS1 V c n h = iprop(iprop(iprop(owns (c : Thread nD τ) sc1_0 fullShare ((outsAt1 V c (n - 1) (by omega)).2.1) ∗ owns (c : Thread nD τ) sc1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1.1
    | ⟨4, _⟩ => (outsAt1 V c t.val t.isLt).1.2.1
    | ⟨5, _⟩ => (outsAt1 V c t.val t.isLt).1.2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1.1 := by dsimp only [dat1]
theorem after1_4 (c : Dev nD) (t : Fin cfg1.N) : (dat1 V c).after 4 t = (outsAt1 V c t.val t.isLt).1.2.1 := by dsimp only [dat1]
theorem after1_5 (c : Dev nD) (t : Fin cfg1.N) : (dat1 V c).after 5 t = (outsAt1 V c t.val t.isLt).1.2.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : ((dat1 V c).leavesExact 0 t : sProp 𝕄) = owns (c : Thread nD τ) (st1_0 t) fullShare ((dat1 V c).after 0 t) := by
  unfold Dat.leavesExact; rw [liveAt1_0 t]
theorem leaves1_1 (c : Dev nD) (t : Fin cfg1.N) : ((dat1 V c).leavesExact 1 t : sProp 𝕄) = owns (c : Thread nD τ) (st1_1 t) fullShare ((dat1 V c).after 1 t) := by
  unfold Dat.leavesExact; rw [liveAt1_1 t]
theorem leaves1_2 (c : Dev nD) (t : Fin cfg1.N) : ((dat1 V c).leavesExact 2 t : sProp 𝕄) = owns (c : Thread nD τ) (st1_2 t) fullShare ((dat1 V c).after 2 t) := by
  unfold Dat.leavesExact; rw [liveAt1_2 t]
theorem leaves1_3 (c : Dev nD) (t : Fin cfg1.N) : ((dat1 V c).leavesExact 3 t : sProp 𝕄) = owns (c : Thread nD τ) (st1_3 t) fullShare ((dat1 V c).after 3 t) := by
  unfold Dat.leavesExact; rw [liveAt1_3 t]
theorem leaves1_4 (c : Dev nD) (t : Fin cfg1.N) : ((dat1 V c).leavesExact 4 t : sProp 𝕄) = owns (c : Thread nD τ) (st1_4 t) fullShare ((dat1 V c).after 4 t) := by
  unfold Dat.leavesExact; rw [liveAt1_4 t]
theorem leaves1_5 (c : Dev nD) (t : Fin cfg1.N) : ((dat1 V c).leavesExact 5 t : sProp 𝕄) = owns (c : Thread nD τ) (st1_5 t) fullShare ((dat1 V c).after 5 t) := by
  unfold Dat.leavesExact; rw [liveAt1_5 t]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5,
    after1_0, after1_1, after1_2, after1_3, after1_4, after1_5]
  by_cases hz : t.val = 0
  · rw [outsAt1_A V c t hz]
    unfold resA1; (try dsimp only)
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover1_A_LS0 c _ _ _ _ _ _ _ _ _ _ _ _ _ _ _ _ _ _ _ _ _)
          · unfold owns; iexists _; isplitr
            swap; · iexact HS1
            ipureintro; exact View.read_writes_eq_canon _ _ _ (cover1_A_LS1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover1_A_L3 c _ _ _ _ _ _ _ _ _ _ _ _ _ _ _ _ _ _ _ _ _)
    isplitl [H4]
    · unfold owns; iexists _; isplitr
      swap; · iexact H4
      ipureintro; exact View.read_writes_eq_canon _ _ _ (cover1_A_L4 c _ _ _ _ _ _ _ _ _ _ _ _ _ _ _ _ _ _ _ _ _)
    · unfold owns; iexists _; isplitr
      swap; · iexact H5
      ipureintro; exact View.read_writes_eq_canon _ _ _ (cover1_A_L5 c _ _ _ _ _ _ _ _ _ _ _ _ _ _ _ _ _ _ _ _ _)
  · rw [outsAt1_B V c t hz]
    unfold resB1; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover1_B_LS0 c _ _ _ _ _ _ _ _ _ _ _ _ _ _ _ _ _ _ _ _ _ _ _)
          · unfold owns; iexists _; isplitr
            swap; · iexact HS1
            ipureintro; exact View.read_writes_eq_canon _ _ _ (cover1_B_LS1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover1_B_L3 c _ _ _ _ _ _ _ _ _ _ _ _ _ _ _ _ _ _ _ _ _ _ _)
    isplitl [H4]
    · unfold owns; iexists _; isplitr
      swap; · iexact H4
      ipureintro; exact View.read_writes_eq_canon _ _ _ (cover1_B_L4 c _ _ _ _ _ _ _ _ _ _ _ _ _ _ _ _ _ _ _ _ _ _ _)
    · unfold owns; iexists _; isplitr
      swap; · iexact H5
      ipureintro; exact View.read_writes_eq_canon _ _ _ (cover1_B_L5 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the scratch rows' contents are forgotten. -/
theorem hout1 (c : Dev nD) : (dat1 V c).Φ (Fin.last cfg1.N) ⊢ (Pipeline.ΦA spec1 c : sProp 𝕄) := by
  have hN : cfg1.N = 10 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.KB.R2.lean ====
/-
  Region 2 of @main (custom_call 2, the kernel `cc2__gcn_normalize_kernel`), at any float instance: at every grid point the
  body loads its input blocks whole, computes one value from them and stores it whole into the output block. Hence
  the output block after the body is one function of the input blocks (`out2_6`), each input block is left
  as found, and the pipeline's obligation on the body holds at every point.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (when it is not fetched
    its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (when it is not fetched
    its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (when it is not fetched
    its block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (when it is not fetched
    its block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (when it is not fetched
    its block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not (when it is not fetched
    its block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole block -/

abbrev r2_0 : Rect S10000x64 := Rect.unit (s := S10000x64) ![0, 0] S10000x64.size inb_S10000x64_S10000x64_0_0
abbrev r2_1 : Rect S10000x64 := Rect.unit (s := S10000x64) ![0, 0] S10000x64.size inb_S10000x64_S10000x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S1x64 := Rect.unit (s := S1x64) ![0, 0] S1x64.size inb_S1x64_S1x64_0_0
abbrev r2_6 : Rect S10000x64 := Rect.unit (s := S10000x64) ![0, 0] S10000x64.size inb_S10000x64_S10000x64_0_0

/-- The output block after the body, as a function of the input blocks: the one store's value. -/
def out2_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r2_6, k2_pay1 (View.ld x0 r2_0) (View.ld x2 r2_2) (View.ld x3 r2_3) (View.ld x4 r2_4) (View.ld x5 r2_5) (View.ld x1 r2_1)⟩]

/-- The one store covers the block. -/
theorem cover2_6 (p0 : Vec F S10000x64 .f32) (y : S10000x64.Idx) :
    ∃ pc ∈ ([⟨r2_6, p0⟩] : List (View.Piece (Elt F) S10000x64 .f32)), y ∈ pc.1.set :=
  View.cover_of_tiled [⟨r2_6, p0⟩] S10000x64.size (by rfl) y

/-! ## The body's triple -/

set_option maxHeartbeats 4000000 in
/-- The body on whole staging memrefs, the inputs' at contents `x` and the output's at anything, runs to the
    continuation with the inputs' as they were and the output's at `out2_6` of them. -/
theorem sound_kernel2 (c : Dev nD) (E : Set ℕ) (i : grid2.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out2_6 x0 x1 x2 x3 x4 x5)) -∗ K ⟨⟩))
      ⊢ wp frame (wpE (defs₀ (F := F)) Variants.none c none) E (cc2__gcn_normalize_kernel i a0 ha0 a1 ha1 a2 ha2 a3 ha3 a4 ha4 a5 ha5 a6 ha6) K := by
  simp only [cc2__gcn_normalize_kernel_eq_skeleton]; unfold cc2__gcn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them; after the body at point `t` each input's buffer at its block and the
    output's at `out2_6` of the input blocks; the invariant is the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.KB.R3.lean ====
/-
  Region 3 of @main (custom_call 3, `cc3__gcn_stats_kernel`), at any float instance. The body, at every grid point: at the first point
  only it clears two scratch rows; it then loads the two input blocks and the weights whole, stores the combined block whole,
  adds the block's column sums and column sums of squares to the two scratch rows, and copies the scratch rows whole to
  the two small outputs. The scratch rows are carried from point to point: what the outputs and the scratch hold after
  point `n` is defined by recursion on `n` (`outsAt3`), the first point from cleared rows and every later point from what
  the point before left; the region's invariant after point `n` holds the two scratch rows at those contents.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point is the only one that clears the scratch rows -/

/-- The body's one conditional, from the grid coordinates. -/
abbrev cond3 (i : grid3.Coords) : Prop := (Scalar.cmpi .ne (Scalar.extui (Scalar.cmpi .eq (BitVec.ofNat 32 (i 0).val) 0#32)) 0#32) = 1#1
/-- It holds at the first point only — decided over the grid. -/
theorem hcond3 : ∀ t : Fin cfg3.N, cond3 (grid3.coords t) ↔ t.val = 0 :=
  (by decide +kernel : ∀ t : Fin grid3.N, cond3 (grid3.coords t) ↔ t.val = 0)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

abbrev sc3_0 : Memref sig .tc .vmem S1x64 .f32 := Memref.whole cc3_scratch0
abbrev sc3_1 : Memref sig .tc .vmem S1x64 .f32 := Memref.whole cc3_scratch1
abbrev hst3_0 (t : Fin cfg3.N) : (st3_0 t).IsWhole := hstage3_0 ((cfg3.slots t 0).cast nbuf3_0)
abbrev hst3_1 (t : Fin cfg3.N) : (st3_1 t).IsWhole := hstage3_1 ((cfg3.slots t 1).cast nbuf3_1)
abbrev hst3_2 (t : Fin cfg3.N) : (st3_2 t).IsWhole := hstage3_2 ((cfg3.slots t 2).cast nbuf3_2)
abbrev hst3_3 (t : Fin cfg3.N) : (st3_3 t).IsWhole := hstage3_3 ((cfg3.slots t 3).cast nbuf3_3)
abbrev hst3_4 (t : Fin cfg3.N) : (st3_4 t).IsWhole := hstage3_4 ((cfg3.slots t 4).cast nbuf3_4)
abbrev hst3_5 (t : Fin cfg3.N) : (st3_5 t).IsWhole := hstage3_5 ((cfg3.slots t 5).cast nbuf3_5)

/-- The region's invariant as the launch hands it over: the two scratch rows at some contents, the other scoped buffers
    unopened, the generator register at some state. -/
theorem PhiA3_eq (c : Dev nD) :
    (Pipeline.ΦA spec3 c : sProp 𝕄)
      = iprop(iprop(iprop((∃ d, owns (c : Thread nD τ) sc3_0 fullShare d) ∗ (∃ d, owns (c : Thread nD τ) sc3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [sc3_0, sc3_1, owns_whole]; try rfl

/-! ## The body's run, in its two cases: the stores as pieces, found by running it -/

set_option maxHeartbeats 8000000 in
/-- THE FIRST POINT (the conditional taken): the scratch rows found at anything. -/
noncomputable def kernelRun3_A (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ (∃ d, owns (c : Thread nD τ) s0 fullShare d) ∗ (∃ d, owns (c : Thread nD τ) s1 fullShare d)
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc3__gcn_stats_kernel i a0 ha0 a1 ha1 a2 ha2 a3 ha3 a4 ha4 a5 ha5 s0 hs0 s1 hs1) K } := by
  refine ⟨?_, ?_, ?_, ?_, ?_, fun E K => ?run⟩
  case run =>
    simp only [cc3__gcn_stats_kernel_eq_skeleton]; unfold cc3__gcn_stats_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %g0, -, S0⟩, ⟨%e1, %g1, -, S1⟩, Hk⟩
    obtain rfl := ha0.eq_unread hf0; obtain rfl := ha1.eq_unread hf1; obtain rfl := ha2.eq_unread hf2
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

set_option maxHeartbeats 8000000 in
/-- EVERY LATER POINT (the conditional not taken): the scratch rows found at what the point before left, `p0` and `p1`. -/
noncomputable def kernelRun3_B (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ owns (c : Thread nD τ) s0 fullShare p0 ∗ owns (c : Thread nD τ) s1 fullShare p1
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc3__gcn_stats_kernel i a0 ha0 a1 ha1 a2 ha2 a3 ha3 a4 ha4 a5 ha5 s0 hs0 s1 hs1) K } := by
  refine ⟨?_, ?_, ?_, ?_, ?_, fun E K => ?run⟩
  case run =>
    simp only [cc3__gcn_stats_kernel_eq_skeleton]; unfold cc3__gcn_stats_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, Hk⟩
    obtain rfl := ha0.eq_unread hf0; obtain rfl := ha1.eq_unread hf1; obtain rfl := ha2.eq_unread hf2
    obtain rfl := hs0.eq_unread hg0; obtain rfl := hs1.eq_unread hg1
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

/-! ## Each buffer's stores tile it -/

theorem cover3_A_L3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S10000x64.Idx) :
    ∃ pc ∈ (kernelRun3_A c i a0 ha0 a1 ha1 a2 ha2 a3 ha3 a4 ha4 a5 ha5 s0 hs0 s1 hs1 hc x0 x1 x2).1, y ∈ pc.1.set :=
  View.cover_of_tiledL (kernelRun3_A c i a0 ha0 a1 ha1 a2 ha2 a3 ha3 a4 ha4 a5 ha5 s0 hs0 s1 hs1 hc x0 x1 x2).1 S10000x64.size (by sl_kernel_rfl) y
theorem cover3_A_L4 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S1x64.Idx) :
    ∃ pc ∈ (kernelRun3_A c i a0 ha0 a1 ha1 a2 ha2 a3 ha3 a4 ha4 a5 ha5 s0 hs0 s1 hs1 hc x0 x1 x2).2.1, y ∈ pc.1.set :=
  View.cover_of_tiledL (kernelRun3_A c i a0 ha0 a1 ha1 a2 ha2 a3 ha3 a4 ha4 a5 ha5 s0 hs0 s1 hs1 hc x0 x1 x2).2.1 S1x64.size (by sl_kernel_rfl) y
theorem cover3_A_L5 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S1x64.Idx) :
    ∃ pc ∈ (kernelRun3_A c i a0 ha0 a1 ha1 a2 ha2 a3 ha3 a4 ha4 a5 ha5 s0 hs0 s1 hs1 hc x0 x1 x2).2.2.1, y ∈ pc.1.set :=
  View.cover_of_tiledL (kernelRun3_A c i a0 ha0 a1 ha1 a2 ha2 a3 ha3 a4 ha4 a5 ha5 s0 hs0 s1 hs1 hc x0 x1 x2).2.2.1 S1x64.size (by sl_kernel_rfl) y
theorem cover3_A_LS0 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S1x64.Idx) :
    ∃ pc ∈ (kernelRun3_A c i a0 ha0 a1 ha1 a2 ha2 a3 ha3 a4 ha4 a5 ha5 s0 hs0 s1 hs1 hc x0 x1 x2).2.2.2.1, y ∈ pc.1.set :=
  View.cover_of_tiledL (kernelRun3_A c i a0 ha0 a1 ha1 a2 ha2 a3 ha3 a4 ha4 a5 ha5 s0 hs0 s1 hs1 hc x0 x1 x2).2.2.2.1 S1x64.size (by sl_kernel_rfl) y
theorem cover3_A_LS1 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S1x64.Idx) :
    ∃ pc ∈ (kernelRun3_A c i a0 ha0 a1 ha1 a2 ha2 a3 ha3 a4 ha4 a5 ha5 s0 hs0 s1 hs1 hc x0 x1 x2).2.2.2.2.1, y ∈ pc.1.set :=
  View.cover_of_tiledL (kernelRun3_A c i a0 ha0 a1 ha1 a2 ha2 a3 ha3 a4 ha4 a5 ha5 s0 hs0 s1 hs1 hc x0 x1 x2).2.2.2.2.1 S1x64.size (by sl_kernel_rfl) y
theorem cover3_B_L3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S10000x64.Idx) :
    ∃ pc ∈ (kernelRun3_B c i a0 ha0 a1 ha1 a2 ha2 a3 ha3 a4 ha4 a5 ha5 s0 hs0 s1 hs1 hc x0 x1 x2 p0 p1).1, y ∈ pc.1.set :=
  View.cover_of_tiledL (kernelRun3_B c i a0 ha0 a1 ha1 a2 ha2 a3 ha3 a4 ha4 a5 ha5 s0 hs0 s1 hs1 hc x0 x1 x2 p0 p1).1 S10000x64.size (by sl_kernel_rfl) y
theorem cover3_B_L4 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S1x64.Idx) :
    ∃ pc ∈ (kernelRun3_B c i a0 ha0 a1 ha1 a2 ha2 a3 ha3 a4 ha4 a5 ha5 s0 hs0 s1 hs1 hc x0 x1 x2 p0 p1).2.1, y ∈ pc.1.set :=
  View.cover_of_tiledL (kernelRun3_B c i a0 ha0 a1 ha1 a2 ha2 a3 ha3 a4 ha4 a5 ha5 s0 hs0 s1 hs1 hc x0 x1 x2 p0 p1).2.1 S1x64.size (by sl_kernel_rfl) y
theorem cover3_B_L5 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S1x64.Idx) :
    ∃ pc ∈ (kernelRun3_B c i a0 ha0 a1 ha1 a2 ha2 a3 ha3 a4 ha4 a5 ha5 s0 hs0 s1 hs1 hc x0 x1 x2 p0 p1).2.2.1, y ∈ pc.1.set :=
  View.cover_of_tiledL (kernelRun3_B c i a0 ha0 a1 ha1 a2 ha2 a3 ha3 a4 ha4 a5 ha5 s0 hs0 s1 hs1 hc x0 x1 x2 p0 p1).2.2.1 S1x64.size (by sl_kernel_rfl) y
theorem cover3_B_LS0 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S1x64.Idx) :
    ∃ pc ∈ (kernelRun3_B c i a0 ha0 a1 ha1 a2 ha2 a3 ha3 a4 ha4 a5 ha5 s0 hs0 s1 hs1 hc x0 x1 x2 p0 p1).2.2.2.1, y ∈ pc.1.set :=
  View.cover_of_tiledL (kernelRun3_B c i a0 ha0 a1 ha1 a2 ha2 a3 ha3 a4 ha4 a5 ha5 s0 hs0 s1 hs1 hc x0 x1 x2 p0 p1).2.2.2.1 S1x64.size (by sl_kernel_rfl) y
theorem cover3_B_LS1 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S1x64.Idx) :
    ∃ pc ∈ (kernelRun3_B c i a0 ha0 a1 ha1 a2 ha2 a3 ha3 a4 ha4 a5 ha5 s0 hs0 s1 hs1 hc x0 x1 x2 p0 p1).2.2.2.2.1, y ∈ pc.1.set :=
  View.cover_of_tiledL (kernelRun3_B c i a0 ha0 a1 ha1 a2 ha2 a3 ha3 a4 ha4 a5 ha5 s0 hs0 s1 hs1 hc x0 x1 x2 p0 p1).2.2.2.2.1 S1x64.size (by sl_kernel_rfl) y

/-- What the first point leaves: the three outputs, then the two scratch rows. -/
def resA3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) : (Vec F S10000x64 .f32 × Vec F S1x64 .f32 × Vec F S1x64 .f32) × (Vec F S1x64 .f32 × Vec F S1x64 .f32) :=
  ((View.canon (kernelRun3_A c i a0 ha0 a1 ha1 a2 ha2 a3 ha3 a4 ha4 a5 ha5 s0 hs0 s1 hs1 hc x0 x1 x2).1, View.canon (kernelRun3_A c i a0 ha0 a1 ha1 a2 ha2 a3 ha3 a4 ha4 a5 ha5 s0 hs0 s1 hs1 hc x0 x1 x2).2.1, View.canon (kernelRun3_A c i a0 ha0 a1 ha1 a2 ha2 a3 ha3 a4 ha4 a5 ha5 s0 hs0 s1 hs1 hc x0 x1 x2).2.2.1), (View.canon (kernelRun3_A c i a0 ha0 a1 ha1 a2 ha2 a3 ha3 a4 ha4 a5 ha5 s0 hs0 s1 hs1 hc x0 x1 x2).2.2.2.1, View.canon (kernelRun3_A c i a0 ha0 a1 ha1 a2 ha2 a3 ha3 a4 ha4 a5 ha5 s0 hs0 s1 hs1 hc x0 x1 x2).2.2.2.2.1))
/-- What a later point leaves, from the scratch rows `p0`, `p1` it finds. -/
def resB3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) : (Vec F S10000x64 .f32 × Vec F S1x64 .f32 × Vec F S1x64 .f32) × (Vec F S1x64 .f32 × Vec F S1x64 .f32) :=
  ((View.canon (kernelRun3_B c i a0 ha0 a1 ha1 a2 ha2 a3 ha3 a4 ha4 a5 ha5 s0 hs0 s1 hs1 hc x0 x1 x2 p0 p1).1, View.canon (kernelRun3_B c i a0 ha0 a1 ha1 a2 ha2 a3 ha3 a4 ha4 a5 ha5 s0 hs0 s1 hs1 hc x0 x1 x2 p0 p1).2.1, View.canon (kernelRun3_B c i a0 ha0 a1 ha1 a2 ha2 a3 ha3 a4 ha4 a5 ha5 s0 hs0 s1 hs1 hc x0 x1 x2 p0 p1).2.2.1), (View.canon (kernelRun3_B c i a0 ha0 a1 ha1 a2 ha2 a3 ha3 a4 ha4 a5 ha5 s0 hs0 s1 hs1 hc x0 x1 x2 p0 p1).2.2.2.1, View.canon (kernelRun3_B c i a0 ha0 a1 ha1 a2 ha2 a3 ha3 a4 ha4 a5 ha5 s0 hs0 s1 hs1 hc x0 x1 x2 p0 p1).2.2.2.2.1))

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the outputs and the scratch rows hold after each point -/

/-- THE ACCUMULATION: after point 0 what the first case leaves; after point `n + 1` what the other case leaves from the
    scratch rows as point `n` left them. -/
def outsAt3 (c : Dev nD) : (n : ℕ) → n < cfg3.N → (Vec F S10000x64 .f32 × Vec F S1x64 .f32 × Vec F S1x64 .f32) × (Vec F S1x64 .f32 × Vec F S1x64 .f32)
  | 0, hn => resA3 c (grid3.coords ⟨0, hn⟩) (st3_0 ⟨0, hn⟩) (hst3_0 ⟨0, hn⟩) (st3_1 ⟨0, hn⟩) (hst3_1 ⟨0, hn⟩) (st3_2 ⟨0, hn⟩) (hst3_2 ⟨0, hn⟩) (st3_3 ⟨0, hn⟩) (hst3_3 ⟨0, hn⟩) (st3_4 ⟨0, hn⟩) (hst3_4 ⟨0, hn⟩) (st3_5 ⟨0, hn⟩) (hst3_5 ⟨0, hn⟩) sc3_0 (Memref.isWhole_whole _) sc3_1 (Memref.isWhole_whole _) ((hcond3 ⟨0, hn⟩).mpr rfl) (iblk3 V c 0 ⟨0, hn⟩) (iblk3 V c 1 ⟨0, hn⟩) (iblk3 V c 2 ⟨0, hn⟩)
  | n + 1, hn => resB3 c (grid3.coords ⟨n + 1, hn⟩) (st3_0 ⟨n + 1, hn⟩) (hst3_0 ⟨n + 1, hn⟩) (st3_1 ⟨n + 1, hn⟩) (hst3_1 ⟨n + 1, hn⟩) (st3_2 ⟨n + 1, hn⟩) (hst3_2 ⟨n + 1, hn⟩) (st3_3 ⟨n + 1, hn⟩) (hst3_3 ⟨n + 1, hn⟩) (st3_4 ⟨n + 1, hn⟩) (hst3_4 ⟨n + 1, hn⟩) (st3_5 ⟨n + 1, hn⟩) (hst3_5 ⟨n + 1, hn⟩) sc3_0 (Memref.isWhole_whole _) sc3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2

theorem outsAt3_A (c : Dev nD) (t : Fin cfg3.N) (hz : t.val = 0) :
    outsAt3 V c t.val t.isLt = resA3 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t) := by
  obtain ⟨n, hn⟩ := t
  cases n with
  | zero => rfl
  | succ n => exact absurd hz (Nat.succ_ne_zero n)

theorem outsAt3_B (c : Dev nD) (t : Fin cfg3.N) (hz : ¬t.val = 0) :
    outsAt3 V c t.val t.isLt = resB3 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd rfl hz
  | succ n => rfl

/-- The region's invariant before position `n`: before the first point the launch's; afterwards the two scratch rows at what
    the point before left, the other scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) sc3_0 fullShare ((outsAt3 V c n hn).2.1) ∗ owns (c : Thread nD τ) sc3_1 fullShare ((outsAt3 V c n hn).2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) sc3_0 fullShare ((outsAt3 V c n hn).2.1) ∗ owns (c : Thread nD τ) sc3_1 fullShare ((outsAt3 V c n hn).2.2))
      ∗ Pipeline.scopedRestBut (Ix := Unit) (Name := ℕ) (U := UR sig nD τ) (Lvl := ℕ) (Val := Elt F) spec3 c [cc3_scratch0, cc3_scratch1]) ∗ (∃ r, prngReg c r)) := rfl
theorem PhiS3_pos (c : Dev nD) (n : ℕ) (h : n ≤ cfg3.N) (hz : n ≠ 0) :
    PhiS3 V c n h = iprop(iprop(iprop(owns (c : Thread nD τ) sc3_0 fullShare ((outsAt3 V c (n - 1) (by omega)).2.1) ∗ owns (c : Thread nD τ) sc3_1 fullShare ((outsAt3 V c (n - 1) (by omega)).2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1.1
    | ⟨4, _⟩ => (outsAt3 V c t.val t.isLt).1.2.1
    | ⟨5, _⟩ => (outsAt3 V c t.val t.isLt).1.2.2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1.1 := by dsimp only [dat3]
theorem after3_4 (c : Dev nD) (t : Fin cfg3.N) : (dat3 V c).after 4 t = (outsAt3 V c t.val t.isLt).1.2.1 := by dsimp only [dat3]
theorem after3_5 (c : Dev nD) (t : Fin cfg3.N) : (dat3 V c).after 5 t = (outsAt3 V c t.val t.isLt).1.2.2 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

theorem leaves3_0 (c : Dev nD) (t : Fin cfg3.N) : ((dat3 V c).leavesExact 0 t : sProp 𝕄) = owns (c : Thread nD τ) (st3_0 t) fullShare ((dat3 V c).after 0 t) := by
  unfold Dat.leavesExact; rw [liveAt3_0 t]
theorem leaves3_1 (c : Dev nD) (t : Fin cfg3.N) : ((dat3 V c).leavesExact 1 t : sProp 𝕄) = owns (c : Thread nD τ) (st3_1 t) fullShare ((dat3 V c).after 1 t) := by
  unfold Dat.leavesExact; rw [liveAt3_1 t]
theorem leaves3_2 (c : Dev nD) (t : Fin cfg3.N) : ((dat3 V c).leavesExact 2 t : sProp 𝕄) = owns (c : Thread nD τ) (st3_2 t) fullShare ((dat3 V c).after 2 t) := by
  unfold Dat.leavesExact; rw [liveAt3_2 t]
theorem leaves3_3 (c : Dev nD) (t : Fin cfg3.N) : ((dat3 V c).leavesExact 3 t : sProp 𝕄) = owns (c : Thread nD τ) (st3_3 t) fullShare ((dat3 V c).after 3 t) := by
  unfold Dat.leavesExact; rw [liveAt3_3 t]
theorem leaves3_4 (c : Dev nD) (t : Fin cfg3.N) : ((dat3 V c).leavesExact 4 t : sProp 𝕄) = owns (c : Thread nD τ) (st3_4 t) fullShare ((dat3 V c).after 4 t) := by
  unfold Dat.leavesExact; rw [liveAt3_4 t]
theorem leaves3_5 (c : Dev nD) (t : Fin cfg3.N) : ((dat3 V c).leavesExact 5 t : sProp 𝕄) = owns (c : Thread nD τ) (st3_5 t) fullShare ((dat3 V c).after 5 t) := by
  unfold Dat.leavesExact; rw [liveAt3_5 t]

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5,
    after3_0, after3_1, after3_2, after3_3, after3_4, after3_5]
  by_cases hz : t.val = 0
  · rw [outsAt3_A V c t hz]
    unfold resA3; (try dsimp only)
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover3_A_LS0 c _ _ _ _ _ _ _ _ _ _ _ _ _ _ _ _ _ _ _ _ _)
          · unfold owns; iexists _; isplitr
            swap; · iexact HS1
            ipureintro; exact View.read_writes_eq_canon _ _ _ (cover3_A_LS1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover3_A_L3 c _ _ _ _ _ _ _ _ _ _ _ _ _ _ _ _ _ _ _ _ _)
    isplitl [H4]
    · unfold owns; iexists _; isplitr
      swap; · iexact H4
      ipureintro; exact View.read_writes_eq_canon _ _ _ (cover3_A_L4 c _ _ _ _ _ _ _ _ _ _ _ _ _ _ _ _ _ _ _ _ _)
    · unfold owns; iexists _; isplitr
      swap; · iexact H5
      ipureintro; exact View.read_writes_eq_canon _ _ _ (cover3_A_L5 c _ _ _ _ _ _ _ _ _ _ _ _ _ _ _ _ _ _ _ _ _)
  · rw [outsAt3_B V c t hz]
    unfold resB3; (try dsimp only)
    rw [PhiS3_castSucc V c t, PhiS3_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun3_B c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover3_B_LS0 c _ _ _ _ _ _ _ _ _ _ _ _ _ _ _ _ _ _ _ _ _ _ _)
          · unfold owns; iexists _; isplitr
            swap; · iexact HS1
            ipureintro; exact View.read_writes_eq_canon _ _ _ (cover3_B_LS1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover3_B_L3 c _ _ _ _ _ _ _ _ _ _ _ _ _ _ _ _ _ _ _ _ _ _ _)
    isplitl [H4]
    · unfold owns; iexists _; isplitr
      swap; · iexact H4
      ipureintro; exact View.read_writes_eq_canon _ _ _ (cover3_B_L4 c _ _ _ _ _ _ _ _ _ _ _ _ _ _ _ _ _ _ _ _ _ _ _)
    · unfold owns; iexists _; isplitr
      swap; · iexact H5
      ipureintro; exact View.read_writes_eq_canon _ _ _ (cover3_B_L5 c _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the launch's back: the scratch rows' contents are forgotten. -/
theorem hout3 (c : Dev nD) : (dat3 V c).Φ (Fin.last cfg3.N) ⊢ (Pipeline.ΦA spec3 c : sProp 𝕄) := by
  have hN : cfg3.N = 10 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega), PhiA3_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.KB.R4.lean ====
/-
  Region 4 of @main (custom_call 4, the kernel `cc4__gcn_normalize_kernel`), at any float instance: at every grid point the
  body loads its input blocks whole, computes one value from them and stores it whole into the output block. Hence
  the output block after the body is one function of the input blocks (`out4_6`), each input block is left
  as found, and the pipeline's obligation on the body holds at every point.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (when it is not fetched
    its block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (when it is not fetched
    its block index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not (when it is not fetched
    its block index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not (when it is not fetched
    its block index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not (when it is not fetched
    its block index has not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not (when it is not fetched
    its block index has not moved). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take the whole block -/

abbrev r4_0 : Rect S10000x64 := Rect.unit (s := S10000x64) ![0, 0] S10000x64.size inb_S10000x64_S10000x64_0_0
abbrev r4_1 : Rect S10000x64 := Rect.unit (s := S10000x64) ![0, 0] S10000x64.size inb_S10000x64_S10000x64_0_0
abbrev r4_2 : Rect S1x64 := Rect.unit (s := S1x64) ![0, 0] S1x64.size inb_S1x64_S1x64_0_0
abbrev r4_3 : Rect S1x64 := Rect.unit (s := S1x64) ![0, 0] S1x64.size inb_S1x64_S1x64_0_0
abbrev r4_4 : Rect S1x64 := Rect.unit (s := S1x64) ![0, 0] S1x64.size inb_S1x64_S1x64_0_0
abbrev r4_5 : Rect S1x64 := Rect.unit (s := S1x64) ![0, 0] S1x64.size inb_S1x64_S1x64_0_0
abbrev r4_6 : Rect S10000x64 := Rect.unit (s := S10000x64) ![0, 0] S10000x64.size inb_S10000x64_S10000x64_0_0

/-- The output block after the body, as a function of the input blocks: the one store's value. -/
def out4_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r4_6, k4_pay1 (View.ld x0 r4_0) (View.ld x2 r4_2) (View.ld x3 r4_3) (View.ld x4 r4_4) (View.ld x5 r4_5) (View.ld x1 r4_1)⟩]

/-- The one store covers the block. -/
theorem cover4_6 (p0 : Vec F S10000x64 .f32) (y : S10000x64.Idx) :
    ∃ pc ∈ ([⟨r4_6, p0⟩] : List (View.Piece (Elt F) S10000x64 .f32)), y ∈ pc.1.set :=
  View.cover_of_tiled [⟨r4_6, p0⟩] S10000x64.size (by rfl) y

/-! ## The body's triple -/

set_option maxHeartbeats 4000000 in
/-- The body on whole staging memrefs, the inputs' at contents `x` and the output's at anything, runs to the
    continuation with the inputs' as they were and the output's at `out4_6` of them. -/
theorem sound_kernel4 (c : Dev nD) (E : Set ℕ) (i : grid4.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out4_6 x0 x1 x2 x3 x4 x5)) -∗ K ⟨⟩))
      ⊢ wp frame (wpE (defs₀ (F := F)) Variants.none c none) E (cc4__gcn_normalize_kernel i a0 ha0 a1 ha1 a2 ha2 a3 ha3 a4 ha4 a5 ha5 a6 ha6) K := by
  simp only [cc4__gcn_normalize_kernel_eq_skeleton]; unfold cc4__gcn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The arrays as the region finds them; after the body at point `t` each input's buffer at its block and the
    output's at `out4_6` of the input blocks; the invariant is the scoped rest and the generator register,
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end

end Cert.Kernel.Hand

end
-- ==== Proof.KB.R5.lean ====
/-
  Region 5 of @main (custom_call 5, `cc5__gcn_stats_kernel`), at any float instance. The body, at every grid point: at the first point
  only it clears two scratch rows; it then loads the two input blocks and the weights whole, stores the combined block whole,
  adds the block's column sums and column sums of squares to the two scratch rows, and copies the scratch rows whole to
  the two small outputs. The scratch rows are carried from point to point: what the outputs and the scratch hold after
  point `n` is defined by recursion on `n` (`outsAt5`), the first point from cleared rows and every later point from what
  the point before left; the region's invariant after point `n` holds the two scratch rows at those contents.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point is the only one that clears the scratch rows -/

/-- The body's one conditional, from the grid coordinates. -/
abbrev cond5 (i : grid5.Coords) : Prop := (Scalar.cmpi .ne (Scalar.extui (Scalar.cmpi .eq (BitVec.ofNat 32 (i 0).val) 0#32)) 0#32) = 1#1
/-- It holds at the first point only — decided over the grid. -/
theorem hcond5 : ∀ t : Fin cfg5.N, cond5 (grid5.coords t) ↔ t.val = 0 :=
  (by decide +kernel : ∀ t : Fin grid5.N, cond5 (grid5.coords t) ↔ t.val = 0)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
theorem liveAt5_5 : ∀ t : Fin cfg5.N, cfg5.idle 5 (grid5.coords t) = false := by decide +kernel

abbrev sc5_0 : Memref sig .tc .vmem S1x64 .f32 := Memref.whole cc5_scratch0
abbrev sc5_1 : Memref sig .tc .vmem S1x64 .f32 := Memref.whole cc5_scratch1
abbrev hst5_0 (t : Fin cfg5.N) : (st5_0 t).IsWhole := hstage5_0 ((cfg5.slots t 0).cast nbuf5_0)
abbrev hst5_1 (t : Fin cfg5.N) : (st5_1 t).IsWhole := hstage5_1 ((cfg5.slots t 1).cast nbuf5_1)
abbrev hst5_2 (t : Fin cfg5.N) : (st5_2 t).IsWhole := hstage5_2 ((cfg5.slots t 2).cast nbuf5_2)
abbrev hst5_3 (t : Fin cfg5.N) : (st5_3 t).IsWhole := hstage5_3 ((cfg5.slots t 3).cast nbuf5_3)
abbrev hst5_4 (t : Fin cfg5.N) : (st5_4 t).IsWhole := hstage5_4 ((cfg5.slots t 4).cast nbuf5_4)
abbrev hst5_5 (t : Fin cfg5.N) : (st5_5 t).IsWhole := hstage5_5 ((cfg5.slots t 5).cast nbuf5_5)

/-- The region's invariant as the launch hands it over: the two scratch rows at some contents, the other scoped buffers
    unopened, the generator register at some state. -/
theorem PhiA5_eq (c : Dev nD) :
    (Pipeline.ΦA spec5 c : sProp 𝕄)
      = iprop(iprop(iprop((∃ d, owns (c : Thread nD τ) sc5_0 fullShare d) ∗ (∃ d, owns (c : Thread nD τ) sc5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [sc5_0, sc5_1, owns_whole]; try rfl

/-! ## The body's run, in its two cases: the stores as pieces, found by running it -/

set_option maxHeartbeats 8000000 in
/-- THE FIRST POINT (the conditional taken): the scratch rows found at anything. -/
noncomputable def kernelRun5_A (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ (∃ d, owns (c : Thread nD τ) s0 fullShare d) ∗ (∃ d, owns (c : Thread nD τ) s1 fullShare d)
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc5__gcn_stats_kernel i a0 ha0 a1 ha1 a2 ha2 a3 ha3 a4 ha4 a5 ha5 s0 hs0 s1 hs1) K } := by
  refine ⟨?_, ?_, ?_, ?_, ?_, fun E K => ?run⟩
  case run =>
    simp only [cc5__gcn_stats_kernel_eq_skeleton]; unfold cc5__gcn_stats_kernel_skel
    simp only [k5_part1_eq_skeleton]; unfold k5_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %g0, -, S0⟩, ⟨%e1, %g1, -, S1⟩, Hk⟩
    obtain rfl := ha0.eq_unread hf0; obtain rfl := ha1.eq_unread hf1; obtain rfl := ha2.eq_unread hf2
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

set_option maxHeartbeats 8000000 in
/-- EVERY LATER POINT (the conditional not taken): the scratch rows found at what the point before left, `p0` and `p1`. -/
noncomputable def kernelRun5_B (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ owns (c : Thread nD τ) s0 fullShare p0 ∗ owns (c : Thread nD τ) s1 fullShare p1
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc5__gcn_stats_kernel i a0 ha0 a1 ha1 a2 ha2 a3 ha3 a4 ha4 a5 ha5 s0 hs0 s1 hs1) K } := by
  refine ⟨?_, ?_, ?_, ?_, ?_, fun E K => ?run⟩
  case run =>
    simp only [cc5__gcn_stats_kernel_eq_skeleton]; unfold cc5__gcn_stats_kernel_skel
    simp only [k5_part1_eq_skeleton]; unfold k5_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, Hk⟩
    obtain rfl := ha0.eq_unread hf0; obtain rfl := ha1.eq_unread hf1; obtain rfl := ha2.eq_unread hf2
    obtain rfl := hs0.eq_unread hg0; obtain rfl := hs1.eq_unread hg1
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

/-! ## Each buffer's stores tile it -/

theorem cover5_A_L3 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S10000x64.Idx) :
    ∃ pc ∈ (kernelRun5_A c i a0 ha0 a1 ha1 a2 ha2 a3 ha3 a4 ha4 a5 ha5 s0 hs0 s1 hs1 hc x0 x1 x2).1, y ∈ pc.1.set :=
  View.cover_of_tiledL (kernelRun5_A c i a0 ha0 a1 ha1 a2 ha2 a3 ha3 a4 ha4 a5 ha5 s0 hs0 s1 hs1 hc x0 x1 x2).1 S10000x64.size (by sl_kernel_rfl) y
theorem cover5_A_L4 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S1x64.Idx) :
    ∃ pc ∈ (kernelRun5_A c i a0 ha0 a1 ha1 a2 ha2 a3 ha3 a4 ha4 a5 ha5 s0 hs0 s1 hs1 hc x0 x1 x2).2.1, y ∈ pc.1.set :=
  View.cover_of_tiledL (kernelRun5_A c i a0 ha0 a1 ha1 a2 ha2 a3 ha3 a4 ha4 a5 ha5 s0 hs0 s1 hs1 hc x0 x1 x2).2.1 S1x64.size (by sl_kernel_rfl) y
theorem cover5_A_L5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S1x64.Idx) :
    ∃ pc ∈ (kernelRun5_A c i a0 ha0 a1 ha1 a2 ha2 a3 ha3 a4 ha4 a5 ha5 s0 hs0 s1 hs1 hc x0 x1 x2).2.2.1, y ∈ pc.1.set :=
  View.cover_of_tiledL (kernelRun5_A c i a0 ha0 a1 ha1 a2 ha2 a3 ha3 a4 ha4 a5 ha5 s0 hs0 s1 hs1 hc x0 x1 x2).2.2.1 S1x64.size (by sl_kernel_rfl) y
theorem cover5_A_LS0 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S1x64.Idx) :
    ∃ pc ∈ (kernelRun5_A c i a0 ha0 a1 ha1 a2 ha2 a3 ha3 a4 ha4 a5 ha5 s0 hs0 s1 hs1 hc x0 x1 x2).2.2.2.1, y ∈ pc.1.set :=
  View.cover_of_tiledL (kernelRun5_A c i a0 ha0 a1 ha1 a2 ha2 a3 ha3 a4 ha4 a5 ha5 s0 hs0 s1 hs1 hc x0 x1 x2).2.2.2.1 S1x64.size (by sl_kernel_rfl) y
theorem cover5_A_LS1 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S1x64.Idx) :
    ∃ pc ∈ (kernelRun5_A c i a0 ha0 a1 ha1 a2 ha2 a3 ha3 a4 ha4 a5 ha5 s0 hs0 s1 hs1 hc x0 x1 x2).2.2.2.2.1, y ∈ pc.1.set :=
  View.cover_of_tiledL (kernelRun5_A c i a0 ha0 a1 ha1 a2 ha2 a3 ha3 a4 ha4 a5 ha5 s0 hs0 s1 hs1 hc x0 x1 x2).2.2.2.2.1 S1x64.size (by sl_kernel_rfl) y
theorem cover5_B_L3 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S10000x64.Idx) :
    ∃ pc ∈ (kernelRun5_B c i a0 ha0 a1 ha1 a2 ha2 a3 ha3 a4 ha4 a5 ha5 s0 hs0 s1 hs1 hc x0 x1 x2 p0 p1).1, y ∈ pc.1.set :=
  View.cover_of_tiledL (kernelRun5_B c i a0 ha0 a1 ha1 a2 ha2 a3 ha3 a4 ha4 a5 ha5 s0 hs0 s1 hs1 hc x0 x1 x2 p0 p1).1 S10000x64.size (by sl_kernel_rfl) y
theorem cover5_B_L4 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S1x64.Idx) :
    ∃ pc ∈ (kernelRun5_B c i a0 ha0 a1 ha1 a2 ha2 a3 ha3 a4 ha4 a5 ha5 s0 hs0 s1 hs1 hc x0 x1 x2 p0 p1).2.1, y ∈ pc.1.set :=
  View.cover_of_tiledL (kernelRun5_B c i a0 ha0 a1 ha1 a2 ha2 a3 ha3 a4 ha4 a5 ha5 s0 hs0 s1 hs1 hc x0 x1 x2 p0 p1).2.1 S1x64.size (by sl_kernel_rfl) y
theorem cover5_B_L5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S1x64.Idx) :
    ∃ pc ∈ (kernelRun5_B c i a0 ha0 a1 ha1 a2 ha2 a3 ha3 a4 ha4 a5 ha5 s0 hs0 s1 hs1 hc x0 x1 x2 p0 p1).2.2.1, y ∈ pc.1.set :=
  View.cover_of_tiledL (kernelRun5_B c i a0 ha0 a1 ha1 a2 ha2 a3 ha3 a4 ha4 a5 ha5 s0 hs0 s1 hs1 hc x0 x1 x2 p0 p1).2.2.1 S1x64.size (by sl_kernel_rfl) y
theorem cover5_B_LS0 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S1x64.Idx) :
    ∃ pc ∈ (kernelRun5_B c i a0 ha0 a1 ha1 a2 ha2 a3 ha3 a4 ha4 a5 ha5 s0 hs0 s1 hs1 hc x0 x1 x2 p0 p1).2.2.2.1, y ∈ pc.1.set :=
  View.cover_of_tiledL (kernelRun5_B c i a0 ha0 a1 ha1 a2 ha2 a3 ha3 a4 ha4 a5 ha5 s0 hs0 s1 hs1 hc x0 x1 x2 p0 p1).2.2.2.1 S1x64.size (by sl_kernel_rfl) y
theorem cover5_B_LS1 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S1x64.Idx) :
    ∃ pc ∈ (kernelRun5_B c i a0 ha0 a1 ha1 a2 ha2 a3 ha3 a4 ha4 a5 ha5 s0 hs0 s1 hs1 hc x0 x1 x2 p0 p1).2.2.2.2.1, y ∈ pc.1.set :=
  View.cover_of_tiledL (kernelRun5_B c i a0 ha0 a1 ha1 a2 ha2 a3 ha3 a4 ha4 a5 ha5 s0 hs0 s1 hs1 hc x0 x1 x2 p0 p1).2.2.2.2.1 S1x64.size (by sl_kernel_rfl) y

/-- What the first point leaves: the three outputs, then the two scratch rows. -/
def resA5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) : (Vec F S10000x64 .f32 × Vec F S1x64 .f32 × Vec F S1x64 .f32) × (Vec F S1x64 .f32 × Vec F S1x64 .f32) :=
  ((View.canon (kernelRun5_A c i a0 ha0 a1 ha1 a2 ha2 a3 ha3 a4 ha4 a5 ha5 s0 hs0 s1 hs1 hc x0 x1 x2).1, View.canon (kernelRun5_A c i a0 ha0 a1 ha1 a2 ha2 a3 ha3 a4 ha4 a5 ha5 s0 hs0 s1 hs1 hc x0 x1 x2).2.1, View.canon (kernelRun5_A c i a0 ha0 a1 ha1 a2 ha2 a3 ha3 a4 ha4 a5 ha5 s0 hs0 s1 hs1 hc x0 x1 x2).2.2.1), (View.canon (kernelRun5_A c i a0 ha0 a1 ha1 a2 ha2 a3 ha3 a4 ha4 a5 ha5 s0 hs0 s1 hs1 hc x0 x1 x2).2.2.2.1, View.canon (kernelRun5_A c i a0 ha0 a1 ha1 a2 ha2 a3 ha3 a4 ha4 a5 ha5 s0 hs0 s1 hs1 hc x0 x1 x2).2.2.2.2.1))
/-- What a later point leaves, from the scratch rows `p0`, `p1` it finds. -/
def resB5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) : (Vec F S10000x64 .f32 × Vec F S1x64 .f32 × Vec F S1x64 .f32) × (Vec F S1x64 .f32 × Vec F S1x64 .f32) :=
  ((View.canon (kernelRun5_B c i a0 ha0 a1 ha1 a2 ha2 a3 ha3 a4 ha4 a5 ha5 s0 hs0 s1 hs1 hc x0 x1 x2 p0 p1).1, View.canon (kernelRun5_B c i a0 ha0 a1 ha1 a2 ha2 a3 ha3 a4 ha4 a5 ha5 s0 hs0 s1 hs1 hc x0 x1 x2 p0 p1).2.1, View.canon (kernelRun5_B c i a0 ha0 a1 ha1 a2 ha2 a3 ha3 a4 ha4 a5 ha5 s0 hs0 s1 hs1 hc x0 x1 x2 p0 p1).2.2.1), (View.canon (kernelRun5_B c i a0 ha0 a1 ha1 a2 ha2 a3 ha3 a4 ha4 a5 ha5 s0 hs0 s1 hs1 hc x0 x1 x2 p0 p1).2.2.2.1, View.canon (kernelRun5_B c i a0 ha0 a1 ha1 a2 ha2 a3 ha3 a4 ha4 a5 ha5 s0 hs0 s1 hs1 hc x0 x1 x2 p0 p1).2.2.2.2.1))

section
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What the outputs and the scratch rows hold after each point -/

/-- THE ACCUMULATION: after point 0 what the first case leaves; after point `n + 1` what the other case leaves from the
    scratch rows as point `n` left them. -/
def outsAt5 (c : Dev nD) : (n : ℕ) → n < cfg5.N → (Vec F S10000x64 .f32 × Vec F S1x64 .f32 × Vec F S1x64 .f32) × (Vec F S1x64 .f32 × Vec F S1x64 .f32)
  | 0, hn => resA5 c (grid5.coords ⟨0, hn⟩) (st5_0 ⟨0, hn⟩) (hst5_0 ⟨0, hn⟩) (st5_1 ⟨0, hn⟩) (hst5_1 ⟨0, hn⟩) (st5_2 ⟨0, hn⟩) (hst5_2 ⟨0, hn⟩) (st5_3 ⟨0, hn⟩) (hst5_3 ⟨0, hn⟩) (st5_4 ⟨0, hn⟩) (hst5_4 ⟨0, hn⟩) (st5_5 ⟨0, hn⟩) (hst5_5 ⟨0, hn⟩) sc5_0 (Memref.isWhole_whole _) sc5_1 (Memref.isWhole_whole _) ((hcond5 ⟨0, hn⟩).mpr rfl) (iblk5 V c 0 ⟨0, hn⟩) (iblk5 V c 1 ⟨0, hn⟩) (iblk5 V c 2 ⟨0, hn⟩)
  | n + 1, hn => resB5 c (grid5.coords ⟨n + 1, hn⟩) (st5_0 ⟨n + 1, hn⟩) (hst5_0 ⟨n + 1, hn⟩) (st5_1 ⟨n + 1, hn⟩) (hst5_1 ⟨n + 1, hn⟩) (st5_2 ⟨n + 1, hn⟩) (hst5_2 ⟨n + 1, hn⟩) (st5_3 ⟨n + 1, hn⟩) (hst5_3 ⟨n + 1, hn⟩) (st5_4 ⟨n + 1, hn⟩) (hst5_4 ⟨n + 1, hn⟩) (st5_5 ⟨n + 1, hn⟩) (hst5_5 ⟨n + 1, hn⟩) sc5_0 (Memref.isWhole_whole _) sc5_1 (Memref.isWhole_whole _) (fun h => Nat.succ_ne_zero n ((hcond5 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2.1 (outsAt5 c n (Nat.lt_of_succ_lt hn)).2.2

theorem outsAt5_A (c : Dev nD) (t : Fin cfg5.N) (hz : t.val = 0) :
    outsAt5 V c t.val t.isLt = resA5 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t) := by
  obtain ⟨n, hn⟩ := t
  cases n with
  | zero => rfl
  | succ n => exact absurd hz (Nat.succ_ne_zero n)

theorem outsAt5_B (c : Dev nD) (t : Fin cfg5.N) (hz : ¬t.val = 0) :
    outsAt5 V c t.val t.isLt = resB5 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2 := by
  obtain ⟨n, hn⟩ := t
  cases n with
  | zero => exact absurd rfl hz
  | succ n => rfl

/-- The region's invariant before position `n`: before the first point the launch's; afterwards the two scratch rows at what
    the point before left, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) sc5_0 fullShare ((outsAt5 V c n hn).2.1) ∗ owns (c : Thread nD τ) sc5_1 fullShare ((outsAt5 V c n hn).2.2))
      ∗ Pipeline.scopedRestBut (Ix := Unit) (Name := ℕ) (U := UR sig nD τ) (Lvl := ℕ) (Val := Elt F) spec5 c [cc5_scratch0, cc5_scratch1]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) sc5_0 fullShare ((outsAt5 V c n hn).2.1) ∗ owns (c : Thread nD τ) sc5_1 fullShare ((outsAt5 V c n hn).2.2))
      ∗ Pipeline.scopedRestBut (Ix := Unit) (Name := ℕ) (U := UR sig nD τ) (Lvl := ℕ) (Val := Elt F) spec5 c [cc5_scratch0, cc5_scratch1]) ∗ (∃ r, prngReg c r)) := rfl
theorem PhiS5_pos (c : Dev nD) (n : ℕ) (h : n ≤ cfg5.N) (hz : n ≠ 0) :
    PhiS5 V c n h = iprop(iprop(iprop(owns (c : Thread nD τ) sc5_0 fullShare ((outsAt5 V c (n - 1) (by omega)).2.1) ∗ owns (c : Thread nD τ) sc5_1 fullShare ((outsAt5 V c (n - 1) (by omega)).2.2))
      ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1.1
    | ⟨4, _⟩ => (outsAt5 V c t.val t.isLt).1.2.1
    | ⟨5, _⟩ => (outsAt5 V c t.val t.isLt).1.2.2
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1.1 := by dsimp only [dat5]
theorem after5_4 (c : Dev nD) (t : Fin cfg5.N) : (dat5 V c).after 4 t = (outsAt5 V c t.val t.isLt).1.2.1 := by dsimp only [dat5]
theorem after5_5 (c : Dev nD) (t : Fin cfg5.N) : (dat5 V c).after 5 t = (outsAt5 V c t.val t.isLt).1.2.2 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

theorem leaves5_0 (c : Dev nD) (t : Fin cfg5.N) : ((dat5 V c).leavesExact 0 t : sProp 𝕄) = owns (c : Thread nD τ) (st5_0 t) fullShare ((dat5 V c).after 0 t) := by
  unfold Dat.leavesExact; rw [liveAt5_0 t]
theorem leaves5_1 (c : Dev nD) (t : Fin cfg5.N) : ((dat5 V c).leavesExact 1 t : sProp 𝕄) = owns (c : Thread nD τ) (st5_1 t) fullShare ((dat5 V c).after 1 t) := by
  unfold Dat.leavesExact; rw [liveAt5_1 t]
theorem leaves5_2 (c : Dev nD) (t : Fin cfg5.N) : ((dat5 V c).leavesExact 2 t : sProp 𝕄) = owns (c : Thread nD τ) (st5_2 t) fullShare ((dat5 V c).after 2 t) := by
  unfold Dat.leavesExact; rw [liveAt5_2 t]
theorem leaves5_3 (c : Dev nD) (t : Fin cfg5.N) : ((dat5 V c).leavesExact 3 t : sProp 𝕄) = owns (c : Thread nD τ) (st5_3 t) fullShare ((dat5 V c).after 3 t) := by
  unfold Dat.leavesExact; rw [liveAt5_3 t]
theorem leaves5_4 (c : Dev nD) (t : Fin cfg5.N) : ((dat5 V c).leavesExact 4 t : sProp 𝕄) = owns (c : Thread nD τ) (st5_4 t) fullShare ((dat5 V c).after 4 t) := by
  unfold Dat.leavesExact; rw [liveAt5_4 t]
theorem leaves5_5 (c : Dev nD) (t : Fin cfg5.N) : ((dat5 V c).leavesExact 5 t : sProp 𝕄) = owns (c : Thread nD τ) (st5_5 t) fullShare ((dat5 V c).after 5 t) := by
  unfold Dat.leavesExact; rw [liveAt5_5 t]

set_option maxHeartbeats 8000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3, leaves5_4, leaves5_5,
    after5_0, after5_1, after5_2, after5_3, after5_4, after5_5]
  by_cases hz : t.val = 0
  · rw [outsAt5_A V c t hz]
    unfold resA5; (try dsimp only)
    rw [PhiS5_castSucc V c t, PhiS5_zero V c _ _ hz, PhiA5_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun5_A c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover5_A_LS0 c _ _ _ _ _ _ _ _ _ _ _ _ _ _ _ _ _ _ _ _ _)
          · unfold owns; iexists _; isplitr
            swap; · iexact HS1
            ipureintro; exact View.read_writes_eq_canon _ _ _ (cover5_A_LS1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover5_A_L3 c _ _ _ _ _ _ _ _ _ _ _ _ _ _ _ _ _ _ _ _ _)
    isplitl [H4]
    · unfold owns; iexists _; isplitr
      swap; · iexact H4
      ipureintro; exact View.read_writes_eq_canon _ _ _ (cover5_A_L4 c _ _ _ _ _ _ _ _ _ _ _ _ _ _ _ _ _ _ _ _ _)
    · unfold owns; iexists _; isplitr
      swap; · iexact H5
      ipureintro; exact View.read_writes_eq_canon _ _ _ (cover5_A_L5 c _ _ _ _ _ _ _ _ _ _ _ _ _ _ _ _ _ _ _ _ _)
  · rw [outsAt5_B V c t hz]
    unfold resB5; (try dsimp only)
    rw [PhiS5_castSucc V c t, PhiS5_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun5_B c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover5_B_LS0 c _ _ _ _ _ _ _ _ _ _ _ _ _ _ _ _ _ _ _ _ _ _ _)
          · unfold owns; iexists _; isplitr
            swap; · iexact HS1
            ipureintro; exact View.read_writes_eq_canon _ _ _ (cover5_B_LS1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover5_B_L3 c _ _ _ _ _ _ _ _ _ _ _ _ _ _ _ _ _ _ _ _ _ _ _)
    isplitl [H4]
    · unfold owns; iexists _; isplitr
      swap; · iexact H4
      ipureintro; exact View.read_writes_eq_canon _ _ _ (cover5_B_L4 c _ _ _ _ _ _ _ _ _ _ _ _ _ _ _ _ _ _ _ _ _ _ _)
    · unfold owns; iexists _; isplitr
      swap; · iexact H5
      ipureintro; exact View.read_writes_eq_canon _ _ _ (cover5_B_L5 c _ _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the launch's back: the scratch rows' contents are forgotten. -/
theorem hout5 (c : Dev nD) : (dat5 V c).Φ (Fin.last cfg5.N) ⊢ (Pipeline.ΦA spec5 c : sProp 𝕄) := by
  have hN : cfg5.N = 10 := N_5
  rw [show (dat5 V c).Φ (Fin.last cfg5.N) = PhiS5 V c (Fin.last cfg5.N).val (Nat.le_of_lt_succ (Fin.last cfg5.N).isLt) from rfl,
    PhiS5_pos V c _ _ (by rw [Fin.val_last]; omega), PhiA5_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.KB.R6.lean ====
/-
  Region 6 of @main (custom_call 6, the kernel `cc6__gcn_normalize_kernel`), at any float instance: at every grid point the
  body loads its input blocks whole, computes one value from them and stores it whole into the output block. Hence
  the output block after the body is one function of the input blocks (`out6_6`), each input block is left
  as found, and the pipeline's obligation on the body holds at every point.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not (when it is not fetched
    its block index has not moved). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not (when it is not fetched
    its block index has not moved). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not (when it is not fetched
    its block index has not moved). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not (when it is not fetched
    its block index has not moved). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not (when it is not fetched
    its block index has not moved). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's staging buffer holds its block at every point, fetched there or not (when it is not fetched
    its block index has not moved). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take the whole block -/

abbrev r6_0 : Rect S10000x64 := Rect.unit (s := S10000x64) ![0, 0] S10000x64.size inb_S10000x64_S10000x64_0_0
abbrev r6_1 : Rect S10000x64 := Rect.unit (s := S10000x64) ![0, 0] S10000x64.size inb_S10000x64_S10000x64_0_0
abbrev r6_2 : Rect S1x64 := Rect.unit (s := S1x64) ![0, 0] S1x64.size inb_S1x64_S1x64_0_0
abbrev r6_3 : Rect S1x64 := Rect.unit (s := S1x64) ![0, 0] S1x64.size inb_S1x64_S1x64_0_0
abbrev r6_4 : Rect S1x64 := Rect.unit (s := S1x64) ![0, 0] S1x64.size inb_S1x64_S1x64_0_0
abbrev r6_5 : Rect S1x64 := Rect.unit (s := S1x64) ![0, 0] S1x64.size inb_S1x64_S1x64_0_0
abbrev r6_6 : Rect S10000x64 := Rect.unit (s := S10000x64) ![0, 0] S10000x64.size inb_S10000x64_S10000x64_0_0

/-- The output block after the body, as a function of the input blocks: the one store's value. -/
def out6_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r6_6, k6_pay1 (View.ld x0 r6_0) (View.ld x2 r6_2) (View.ld x3 r6_3) (View.ld x4 r6_4) (View.ld x5 r6_5) (View.ld x1 r6_1)⟩]

/-- The one store covers the block. -/
theorem cover6_6 (p0 : Vec F S10000x64 .f32) (y : S10000x64.Idx) :
    ∃ pc ∈ ([⟨r6_6, p0⟩] : List (View.Piece (Elt F) S10000x64 .f32)), y ∈ pc.1.set :=
  View.cover_of_tiled [⟨r6_6, p0⟩] S10000x64.size (by rfl) y

/-! ## The body's triple -/

set_option maxHeartbeats 4000000 in
/-- The body on whole staging memrefs, the inputs' at contents `x` and the output's at anything, runs to the
    continuation with the inputs' as they were and the output's at `out6_6` of them. -/
theorem sound_kernel6 (c : Dev nD) (E : Set ℕ) (i : grid6.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6_6 x0 x1 x2 x3 x4 x5)) -∗ K ⟨⟩))
      ⊢ wp frame (wpE (defs₀ (F := F)) Variants.none c none) E (cc6__gcn_normalize_kernel i a0 ha0 a1 ha1 a2 ha2 a3 ha3 a4 ha4 a5 ha5 a6 ha6) K := by
  simp only [cc6__gcn_normalize_kernel_eq_skeleton]; unfold cc6__gcn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The arrays as the region finds them; after the body at point `t` each input's buffer at its block and the
    output's at `out6_6` of the input blocks; the invariant is the scoped rest and the generator register,
    untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end

end Cert.Kernel.Hand

end
-- ==== Proof.KB.R7.lean ====
/-
  Region 7 of @main (custom_call 7, `cc7__gcn_stats_kernel`), at any float instance. The body, at every grid point: at the first point
  only it clears two scratch rows; it then loads the two input blocks and the weights whole, stores the combined block whole,
  adds the block's column sums and column sums of squares to the two scratch rows, and copies the scratch rows whole to
  the two small outputs. The scratch rows are carried from point to point: what the outputs and the scratch hold after
  point `n` is defined by recursion on `n` (`outsAt7`), the first point from cleared rows and every later point from what
  the point before left; the region's invariant after point `n` holds the two scratch rows at those contents.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point is the only one that clears the scratch rows -/

/-- The body's one conditional, from the grid coordinates. -/
abbrev cond7 (i : grid7.Coords) : Prop := (Scalar.cmpi .ne (Scalar.extui (Scalar.cmpi .eq (BitVec.ofNat 32 (i 0).val) 0#32)) 0#32) = 1#1
/-- It holds at the first point only — decided over the grid. -/
theorem hcond7 : ∀ t : Fin cfg7.N, cond7 (grid7.coords t) ↔ t.val = 0 :=
  (by decide +kernel : ∀ t : Fin grid7.N, cond7 (grid7.coords t) ↔ t.val = 0)

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem liveAt7_5 : ∀ t : Fin cfg7.N, cfg7.idle 5 (grid7.coords t) = false := by decide +kernel

abbrev sc7_0 : Memref sig .tc .vmem S1x64 .f32 := Memref.whole cc7_scratch0
abbrev sc7_1 : Memref sig .tc .vmem S1x64 .f32 := Memref.whole cc7_scratch1
abbrev hst7_0 (t : Fin cfg7.N) : (st7_0 t).IsWhole := hstage7_0 ((cfg7.slots t 0).cast nbuf7_0)
abbrev hst7_1 (t : Fin cfg7.N) : (st7_1 t).IsWhole := hstage7_1 ((cfg7.slots t 1).cast nbuf7_1)
abbrev hst7_2 (t : Fin cfg7.N) : (st7_2 t).IsWhole := hstage7_2 ((cfg7.slots t 2).cast nbuf7_2)
abbrev hst7_3 (t : Fin cfg7.N) : (st7_3 t).IsWhole := hstage7_3 ((cfg7.slots t 3).cast nbuf7_3)
abbrev hst7_4 (t : Fin cfg7.N) : (st7_4 t).IsWhole := hstage7_4 ((cfg7.slots t 4).cast nbuf7_4)
abbrev hst7_5 (t : Fin cfg7.N) : (st7_5 t).IsWhole := hstage7_5 ((cfg7.slots t 5).cast nbuf7_5)

/-- The region's invariant as the launch hands it over: the two scratch rows at some contents, the other scoped buffers
    unopened, the generator register at some state. -/
theorem PhiA7_eq (c : Dev nD) :
    (Pipeline.ΦA spec7 c : sProp 𝕄)
      = iprop(iprop(iprop((∃ d, owns (c : Thread nD τ) sc7_0 fullShare d) ∗ (∃ d, owns (c : Thread nD τ) sc7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [sc7_0, sc7_1, owns_whole]; try rfl

/-! ## The body's run, in its two cases: the stores as pieces, found by running it -/

set_option maxHeartbeats 8000000 in
/-- THE FIRST POINT (the conditional taken): the scratch rows found at anything. -/
noncomputable def kernelRun7_A (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ (∃ d, owns (c : Thread nD τ) s0 fullShare d) ∗ (∃ d, owns (c : Thread nD τ) s1 fullShare d)
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc7__gcn_stats_kernel i a0 ha0 a1 ha1 a2 ha2 a3 ha3 a4 ha4 a5 ha5 s0 hs0 s1 hs1) K } := by
  refine ⟨?_, ?_, ?_, ?_, ?_, fun E K => ?run⟩
  case run =>
    simp only [cc7__gcn_stats_kernel_eq_skeleton]; unfold cc7__gcn_stats_kernel_skel
    simp only [k7_part1_eq_skeleton]; unfold k7_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %g0, -, S0⟩, ⟨%e1, %g1, -, S1⟩, Hk⟩
    obtain rfl := ha0.eq_unread hf0; obtain rfl := ha1.eq_unread hf1; obtain rfl := ha2.eq_unread hf2
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

set_option maxHeartbeats 8000000 in
/-- EVERY LATER POINT (the conditional not taken): the scratch rows found at what the point before left, `p0` and `p1`. -/
noncomputable def kernelRun7_B (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ owns (c : Thread nD τ) s0 fullShare p0 ∗ owns (c : Thread nD τ) s1 fullShare p1
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc7__gcn_stats_kernel i a0 ha0 a1 ha1 a2 ha2 a3 ha3 a4 ha4 a5 ha5 s0 hs0 s1 hs1) K } := by
  refine ⟨?_, ?_, ?_, ?_, ?_, fun E K => ?run⟩
  case run =>
    simp only [cc7__gcn_stats_kernel_eq_skeleton]; unfold cc7__gcn_stats_kernel_skel
    simp only [k7_part1_eq_skeleton]; unfold k7_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, Hk⟩
    obtain rfl := ha0.eq_unread hf0; obtain rfl := ha1.eq_unread hf1; obtain rfl := ha2.eq_unread hf2
    obtain rfl := hs0.eq_unread hg0; obtain rfl := hs1.eq_unread hg1
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

/-! ## Each buffer's stores tile it -/

theorem cover7_A_L3 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S10000x64.Idx) :
    ∃ pc ∈ (kernelRun7_A c i a0 ha0 a1 ha1 a2 ha2 a3 ha3 a4 ha4 a5 ha5 s0 hs0 s1 hs1 hc x0 x1 x2).1, y ∈ pc.1.set :=
  View.cover_of_tiledL (kernelRun7_A c i a0 ha0 a1 ha1 a2 ha2 a3 ha3 a4 ha4 a5 ha5 s0 hs0 s1 hs1 hc x0 x1 x2).1 S10000x64.size (by sl_kernel_rfl) y
theorem cover7_A_L4 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S1x64.Idx) :
    ∃ pc ∈ (kernelRun7_A c i a0 ha0 a1 ha1 a2 ha2 a3 ha3 a4 ha4 a5 ha5 s0 hs0 s1 hs1 hc x0 x1 x2).2.1, y ∈ pc.1.set :=
  View.cover_of_tiledL (kernelRun7_A c i a0 ha0 a1 ha1 a2 ha2 a3 ha3 a4 ha4 a5 ha5 s0 hs0 s1 hs1 hc x0 x1 x2).2.1 S1x64.size (by sl_kernel_rfl) y
theorem cover7_A_L5 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S1x64.Idx) :
    ∃ pc ∈ (kernelRun7_A c i a0 ha0 a1 ha1 a2 ha2 a3 ha3 a4 ha4 a5 ha5 s0 hs0 s1 hs1 hc x0 x1 x2).2.2.1, y ∈ pc.1.set :=
  View.cover_of_tiledL (kernelRun7_A c i a0 ha0 a1 ha1 a2 ha2 a3 ha3 a4 ha4 a5 ha5 s0 hs0 s1 hs1 hc x0 x1 x2).2.2.1 S1x64.size (by sl_kernel_rfl) y
theorem cover7_A_LS0 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S1x64.Idx) :
    ∃ pc ∈ (kernelRun7_A c i a0 ha0 a1 ha1 a2 ha2 a3 ha3 a4 ha4 a5 ha5 s0 hs0 s1 hs1 hc x0 x1 x2).2.2.2.1, y ∈ pc.1.set :=
  View.cover_of_tiledL (kernelRun7_A c i a0 ha0 a1 ha1 a2 ha2 a3 ha3 a4 ha4 a5 ha5 s0 hs0 s1 hs1 hc x0 x1 x2).2.2.2.1 S1x64.size (by sl_kernel_rfl) y
theorem cover7_A_LS1 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S1x64.Idx) :
    ∃ pc ∈ (kernelRun7_A c i a0 ha0 a1 ha1 a2 ha2 a3 ha3 a4 ha4 a5 ha5 s0 hs0 s1 hs1 hc x0 x1 x2).2.2.2.2.1, y ∈ pc.1.set :=
  View.cover_of_tiledL (kernelRun7_A c i a0 ha0 a1 ha1 a2 ha2 a3 ha3 a4 ha4 a5 ha5 s0 hs0 s1 hs1 hc x0 x1 x2).2.2.2.2.1 S1x64.size (by sl_kernel_rfl) y
theorem cover7_B_L3 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S10000x64.Idx) :
    ∃ pc ∈ (kernelRun7_B c i a0 ha0 a1 ha1 a2 ha2 a3 ha3 a4 ha4 a5 ha5 s0 hs0 s1 hs1 hc x0 x1 x2 p0 p1).1, y ∈ pc.1.set :=
  View.cover_of_tiledL (kernelRun7_B c i a0 ha0 a1 ha1 a2 ha2 a3 ha3 a4 ha4 a5 ha5 s0 hs0 s1 hs1 hc x0 x1 x2 p0 p1).1 S10000x64.size (by sl_kernel_rfl) y
theorem cover7_B_L4 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S1x64.Idx) :
    ∃ pc ∈ (kernelRun7_B c i a0 ha0 a1 ha1 a2 ha2 a3 ha3 a4 ha4 a5 ha5 s0 hs0 s1 hs1 hc x0 x1 x2 p0 p1).2.1, y ∈ pc.1.set :=
  View.cover_of_tiledL (kernelRun7_B c i a0 ha0 a1 ha1 a2 ha2 a3 ha3 a4 ha4 a5 ha5 s0 hs0 s1 hs1 hc x0 x1 x2 p0 p1).2.1 S1x64.size (by sl_kernel_rfl) y
theorem cover7_B_L5 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S1x64.Idx) :
    ∃ pc ∈ (kernelRun7_B c i a0 ha0 a1 ha1 a2 ha2 a3 ha3 a4 ha4 a5 ha5 s0 hs0 s1 hs1 hc x0 x1 x2 p0 p1).2.2.1, y ∈ pc.1.set :=
  View.cover_of_tiledL (kernelRun7_B c i a0 ha0 a1 ha1 a2 ha2 a3 ha3 a4 ha4 a5 ha5 s0 hs0 s1 hs1 hc x0 x1 x2 p0 p1).2.2.1 S1x64.size (by sl_kernel_rfl) y
theorem cover7_B_LS0 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S1x64.Idx) :
    ∃ pc ∈ (kernelRun7_B c i a0 ha0 a1 ha1 a2 ha2 a3 ha3 a4 ha4 a5 ha5 s0 hs0 s1 hs1 hc x0 x1 x2 p0 p1).2.2.2.1, y ∈ pc.1.set :=
  View.cover_of_tiledL (kernelRun7_B c i a0 ha0 a1 ha1 a2 ha2 a3 ha3 a4 ha4 a5 ha5 s0 hs0 s1 hs1 hc x0 x1 x2 p0 p1).2.2.2.1 S1x64.size (by sl_kernel_rfl) y
theorem cover7_B_LS1 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S1x64.Idx) :
    ∃ pc ∈ (kernelRun7_B c i a0 ha0 a1 ha1 a2 ha2 a3 ha3 a4 ha4 a5 ha5 s0 hs0 s1 hs1 hc x0 x1 x2 p0 p1).2.2.2.2.1, y ∈ pc.1.set :=
  View.cover_of_tiledL (kernelRun7_B c i a0 ha0 a1 ha1 a2 ha2 a3 ha3 a4 ha4 a5 ha5 s0 hs0 s1 hs1 hc x0 x1 x2 p0 p1).2.2.2.2.1 S1x64.size (by sl_kernel_rfl) y

/-- What the first point leaves: the three outputs, then the two scratch rows. -/
def resA7 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) : (Vec F S10000x64 .f32 × Vec F S1x64 .f32 × Vec F S1x64 .f32) × (Vec F S1x64 .f32 × Vec F S1x64 .f32) :=
  ((View.canon (kernelRun7_A c i a0 ha0 a1 ha1 a2 ha2 a3 ha3 a4 ha4 a5 ha5 s0 hs0 s1 hs1 hc x0 x1 x2).1, View.canon (kernelRun7_A c i a0 ha0 a1 ha1 a2 ha2 a3 ha3 a4 ha4 a5 ha5 s0 hs0 s1 hs1 hc x0 x1 x2).2.1, View.canon (kernelRun7_A c i a0 ha0 a1 ha1 a2 ha2 a3 ha3 a4 ha4 a5 ha5 s0 hs0 s1 hs1 hc x0 x1 x2).2.2.1), (View.canon (kernelRun7_A c i a0 ha0 a1 ha1 a2 ha2 a3 ha3 a4 ha4 a5 ha5 s0 hs0 s1 hs1 hc x0 x1 x2).2.2.2.1, View.canon (kernelRun7_A c i a0 ha0 a1 ha1 a2 ha2 a3 ha3 a4 ha4 a5 ha5 s0 hs0 s1 hs1 hc x0 x1 x2).2.2.2.2.1))
/-- What a later point leaves, from the scratch rows `p0`, `p1` it finds. -/
def resB7 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) : (Vec F S10000x64 .f32 × Vec F S1x64 .f32 × Vec F S1x64 .f32) × (Vec F S1x64 .f32 × Vec F S1x64 .f32) :=
  ((View.canon (kernelRun7_B c i a0 ha0 a1 ha1 a2 ha2 a3 ha3 a4 ha4 a5 ha5 s0 hs0 s1 hs1 hc x0 x1 x2 p0 p1).1, View.canon (kernelRun7_B c i a0 ha0 a1 ha1 a2 ha2 a3 ha3 a4 ha4 a5 ha5 s0 hs0 s1 hs1 hc x0 x1 x2 p0 p1).2.1, View.canon (kernelRun7_B c i a0 ha0 a1 ha1 a2 ha2 a3 ha3 a4 ha4 a5 ha5 s0 hs0 s1 hs1 hc x0 x1 x2 p0 p1).2.2.1), (View.canon (kernelRun7_B c i a0 ha0 a1 ha1 a2 ha2 a3 ha3 a4 ha4 a5 ha5 s0 hs0 s1 hs1 hc x0 x1 x2 p0 p1).2.2.2.1, View.canon (kernelRun7_B c i a0 ha0 a1 ha1 a2 ha2 a3 ha3 a4 ha4 a5 ha5 s0 hs0 s1 hs1 hc x0 x1 x2 p0 p1).2.2.2.2.1))

section
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## What the outputs and the scratch rows hold after each point -/

/-- THE ACCUMULATION: after point 0 what the first case leaves; after point `n + 1` what the other case leaves from the
    scratch rows as point `n` left them. -/
def outsAt7 (c : Dev nD) : (n : ℕ) → n < cfg7.N → (Vec F S10000x64 .f32 × Vec F S1x64 .f32 × Vec F S1x64 .f32) × (Vec F S1x64 .f32 × Vec F S1x64 .f32)
  | 0, hn => resA7 c (grid7.coords ⟨0, hn⟩) (st7_0 ⟨0, hn⟩) (hst7_0 ⟨0, hn⟩) (st7_1 ⟨0, hn⟩) (hst7_1 ⟨0, hn⟩) (st7_2 ⟨0, hn⟩) (hst7_2 ⟨0, hn⟩) (st7_3 ⟨0, hn⟩) (hst7_3 ⟨0, hn⟩) (st7_4 ⟨0, hn⟩) (hst7_4 ⟨0, hn⟩) (st7_5 ⟨0, hn⟩) (hst7_5 ⟨0, hn⟩) sc7_0 (Memref.isWhole_whole _) sc7_1 (Memref.isWhole_whole _) ((hcond7 ⟨0, hn⟩).mpr rfl) (iblk7 V c 0 ⟨0, hn⟩) (iblk7 V c 1 ⟨0, hn⟩) (iblk7 V c 2 ⟨0, hn⟩)
  | n + 1, hn => resB7 c (grid7.coords ⟨n + 1, hn⟩) (st7_0 ⟨n + 1, hn⟩) (hst7_0 ⟨n + 1, hn⟩) (st7_1 ⟨n + 1, hn⟩) (hst7_1 ⟨n + 1, hn⟩) (st7_2 ⟨n + 1, hn⟩) (hst7_2 ⟨n + 1, hn⟩) (st7_3 ⟨n + 1, hn⟩) (hst7_3 ⟨n + 1, hn⟩) (st7_4 ⟨n + 1, hn⟩) (hst7_4 ⟨n + 1, hn⟩) (st7_5 ⟨n + 1, hn⟩) (hst7_5 ⟨n + 1, hn⟩) sc7_0 (Memref.isWhole_whole _) sc7_1 (Memref.isWhole_whole _) (fun h => Nat.succ_ne_zero n ((hcond7 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2

theorem outsAt7_A (c : Dev nD) (t : Fin cfg7.N) (hz : t.val = 0) :
    outsAt7 V c t.val t.isLt = resA7 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t) := by
  obtain ⟨n, hn⟩ := t
  cases n with
  | zero => rfl
  | succ n => exact absurd hz (Nat.succ_ne_zero n)

theorem outsAt7_B (c : Dev nD) (t : Fin cfg7.N) (hz : ¬t.val = 0) :
    outsAt7 V c t.val t.isLt = resB7 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2 := by
  obtain ⟨n, hn⟩ := t
  cases n with
  | zero => exact absurd rfl hz
  | succ n => rfl

/-- The region's invariant before position `n`: before the first point the launch's; afterwards the two scratch rows at what
    the point before left, the other scoped buffers unopened, the generator register at some state. -/
def PhiS7 (c : Dev nD) : (n : ℕ) → n ≤ cfg7.N → sProp 𝕄
  | 0, _ => Pipeline.ΦA spec7 c
  | n + 1, hn => iprop(iprop(iprop(owns (c : Thread nD τ) sc7_0 fullShare ((outsAt7 V c n hn).2.1) ∗ owns (c : Thread nD τ) sc7_1 fullShare ((outsAt7 V c n hn).2.2))
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(iprop(owns (c : Thread nD τ) sc7_0 fullShare ((outsAt7 V c n hn).2.1) ∗ owns (c : Thread nD τ) sc7_1 fullShare ((outsAt7 V c n hn).2.2))
      ∗ Pipeline.scopedRestBut (Ix := Unit) (Name := ℕ) (U := UR sig nD τ) (Lvl := ℕ) (Val := Elt F) spec7 c [cc7_scratch0, cc7_scratch1]) ∗ (∃ r, prngReg c r)) := rfl
theorem PhiS7_pos (c : Dev nD) (n : ℕ) (h : n ≤ cfg7.N) (hz : n ≠ 0) :
    PhiS7 V c n h = iprop(iprop(iprop(owns (c : Thread nD τ) sc7_0 fullShare ((outsAt7 V c (n - 1) (by omega)).2.1) ∗ owns (c : Thread nD τ) sc7_1 fullShare ((outsAt7 V c (n - 1) (by omega)).2.2))
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1.1
    | ⟨4, _⟩ => (outsAt7 V c t.val t.isLt).1.2.1
    | ⟨5, _⟩ => (outsAt7 V c t.val t.isLt).1.2.2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1.1 := by dsimp only [dat7]
theorem after7_4 (c : Dev nD) (t : Fin cfg7.N) : (dat7 V c).after 4 t = (outsAt7 V c t.val t.isLt).1.2.1 := by dsimp only [dat7]
theorem after7_5 (c : Dev nD) (t : Fin cfg7.N) : (dat7 V c).after 5 t = (outsAt7 V c t.val t.isLt).1.2.2 := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

theorem leaves7_0 (c : Dev nD) (t : Fin cfg7.N) : ((dat7 V c).leavesExact 0 t : sProp 𝕄) = owns (c : Thread nD τ) (st7_0 t) fullShare ((dat7 V c).after 0 t) := by
  unfold Dat.leavesExact; rw [liveAt7_0 t]
theorem leaves7_1 (c : Dev nD) (t : Fin cfg7.N) : ((dat7 V c).leavesExact 1 t : sProp 𝕄) = owns (c : Thread nD τ) (st7_1 t) fullShare ((dat7 V c).after 1 t) := by
  unfold Dat.leavesExact; rw [liveAt7_1 t]
theorem leaves7_2 (c : Dev nD) (t : Fin cfg7.N) : ((dat7 V c).leavesExact 2 t : sProp 𝕄) = owns (c : Thread nD τ) (st7_2 t) fullShare ((dat7 V c).after 2 t) := by
  unfold Dat.leavesExact; rw [liveAt7_2 t]
theorem leaves7_3 (c : Dev nD) (t : Fin cfg7.N) : ((dat7 V c).leavesExact 3 t : sProp 𝕄) = owns (c : Thread nD τ) (st7_3 t) fullShare ((dat7 V c).after 3 t) := by
  unfold Dat.leavesExact; rw [liveAt7_3 t]
theorem leaves7_4 (c : Dev nD) (t : Fin cfg7.N) : ((dat7 V c).leavesExact 4 t : sProp 𝕄) = owns (c : Thread nD τ) (st7_4 t) fullShare ((dat7 V c).after 4 t) := by
  unfold Dat.leavesExact; rw [liveAt7_4 t]
theorem leaves7_5 (c : Dev nD) (t : Fin cfg7.N) : ((dat7 V c).leavesExact 5 t : sProp 𝕄) = owns (c : Thread nD τ) (st7_5 t) fullShare ((dat7 V c).after 5 t) := by
  unfold Dat.leavesExact; rw [liveAt7_5 t]

set_option maxHeartbeats 8000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3, leaves7_4, leaves7_5,
    after7_0, after7_1, after7_2, after7_3, after7_4, after7_5]
  by_cases hz : t.val = 0
  · rw [outsAt7_A V c t hz]
    unfold resA7; (try dsimp only)
    rw [PhiS7_castSucc V c t, PhiS7_zero V c _ _ hz, PhiA7_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun7_A c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover7_A_LS0 c _ _ _ _ _ _ _ _ _ _ _ _ _ _ _ _ _ _ _ _ _)
          · unfold owns; iexists _; isplitr
            swap; · iexact HS1
            ipureintro; exact View.read_writes_eq_canon _ _ _ (cover7_A_LS1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover7_A_L3 c _ _ _ _ _ _ _ _ _ _ _ _ _ _ _ _ _ _ _ _ _)
    isplitl [H4]
    · unfold owns; iexists _; isplitr
      swap; · iexact H4
      ipureintro; exact View.read_writes_eq_canon _ _ _ (cover7_A_L4 c _ _ _ _ _ _ _ _ _ _ _ _ _ _ _ _ _ _ _ _ _)
    · unfold owns; iexists _; isplitr
      swap; · iexact H5
      ipureintro; exact View.read_writes_eq_canon _ _ _ (cover7_A_L5 c _ _ _ _ _ _ _ _ _ _ _ _ _ _ _ _ _ _ _ _ _)
  · rw [outsAt7_B V c t hz]
    unfold resB7; (try dsimp only)
    rw [PhiS7_castSucc V c t, PhiS7_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun7_B c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover7_B_LS0 c _ _ _ _ _ _ _ _ _ _ _ _ _ _ _ _ _ _ _ _ _ _ _)
          · unfold owns; iexists _; isplitr
            swap; · iexact HS1
            ipureintro; exact View.read_writes_eq_canon _ _ _ (cover7_B_LS1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover7_B_L3 c _ _ _ _ _ _ _ _ _ _ _ _ _ _ _ _ _ _ _ _ _ _ _)
    isplitl [H4]
    · unfold owns; iexists _; isplitr
      swap; · iexact H4
      ipureintro; exact View.read_writes_eq_canon _ _ _ (cover7_B_L4 c _ _ _ _ _ _ _ _ _ _ _ _ _ _ _ _ _ _ _ _ _ _ _)
    · unfold owns; iexists _; isplitr
      swap; · iexact H5
      ipureintro; exact View.read_writes_eq_canon _ _ _ (cover7_B_L5 c _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the launch's back: the scratch rows' contents are forgotten. -/
theorem hout7 (c : Dev nD) : (dat7 V c).Φ (Fin.last cfg7.N) ⊢ (Pipeline.ΦA spec7 c : sProp 𝕄) := by
  have hN : cfg7.N = 10 := N_7
  rw [show (dat7 V c).Φ (Fin.last cfg7.N) = PhiS7 V c (Fin.last cfg7.N).val (Nat.le_of_lt_succ (Fin.last cfg7.N).isLt) from rfl,
    PhiS7_pos V c _ _ (by rw [Fin.val_last]; omega), PhiA7_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.Kernel.Hand

end
-- ==== Proof.KB.R8.lean ====
/-
  Region 8 of @main (custom_call 8, the kernel `cc8__gcn_normalize_kernel`), at any float instance: at every grid point the
  body loads its input blocks whole, computes one value from them and stores it whole into the output block. Hence
  the output block after the body is one function of the input blocks (`out8_6`), each input block is left
  as found, and the pipeline's obligation on the body holds at every point.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not (when it is not fetched
    its block index has not moved). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not (when it is not fetched
    its block index has not moved). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not (when it is not fetched
    its block index has not moved). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not (when it is not fetched
    its block index has not moved). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not (when it is not fetched
    its block index has not moved). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's staging buffer holds its block at every point, fetched there or not (when it is not fetched
    its block index has not moved). -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the store take the whole block -/

abbrev r8_0 : Rect S10000x64 := Rect.unit (s := S10000x64) ![0, 0] S10000x64.size inb_S10000x64_S10000x64_0_0
abbrev r8_1 : Rect S10000x64 := Rect.unit (s := S10000x64) ![0, 0] S10000x64.size inb_S10000x64_S10000x64_0_0
abbrev r8_2 : Rect S1x64 := Rect.unit (s := S1x64) ![0, 0] S1x64.size inb_S1x64_S1x64_0_0
abbrev r8_3 : Rect S1x64 := Rect.unit (s := S1x64) ![0, 0] S1x64.size inb_S1x64_S1x64_0_0
abbrev r8_4 : Rect S1x64 := Rect.unit (s := S1x64) ![0, 0] S1x64.size inb_S1x64_S1x64_0_0
abbrev r8_5 : Rect S1x64 := Rect.unit (s := S1x64) ![0, 0] S1x64.size inb_S1x64_S1x64_0_0
abbrev r8_6 : Rect S10000x64 := Rect.unit (s := S10000x64) ![0, 0] S10000x64.size inb_S10000x64_S10000x64_0_0

/-- The output block after the body, as a function of the input blocks: the one store's value. -/
def out8_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r8_6, k8_pay1 (View.ld x0 r8_0) (View.ld x2 r8_2) (View.ld x3 r8_3) (View.ld x4 r8_4) (View.ld x5 r8_5) (View.ld x1 r8_1)⟩]

/-- The one store covers the block. -/
theorem cover8_6 (p0 : Vec F S10000x64 .f32) (y : S10000x64.Idx) :
    ∃ pc ∈ ([⟨r8_6, p0⟩] : List (View.Piece (Elt F) S10000x64 .f32)), y ∈ pc.1.set :=
  View.cover_of_tiled [⟨r8_6, p0⟩] S10000x64.size (by rfl) y

/-! ## The body's triple -/

set_option maxHeartbeats 4000000 in
/-- The body on whole staging memrefs, the inputs' at contents `x` and the output's at anything, runs to the
    continuation with the inputs' as they were and the output's at `out8_6` of them. -/
theorem sound_kernel8 (c : Dev nD) (E : Set ℕ) (i : grid8.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out8_6 x0 x1 x2 x3 x4 x5)) -∗ K ⟨⟩))
      ⊢ wp frame (wpE (defs₀ (F := F)) Variants.none c none) E (cc8__gcn_normalize_kernel i a0 ha0 a1 ha1 a2 ha2 a3 ha3 a4 ha4 a5 ha5 a6 ha6) K := by
  simp only [cc8__gcn_normalize_kernel_eq_skeleton]; unfold cc8__gcn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The arrays as the region finds them; after the body at point `t` each input's buffer at its block and the
    output's at `out8_6` of the input blocks; the invariant is the scoped rest and the generator register,
    untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end

end Cert.Kernel.Hand

end
-- ==== Proof.KB.R9.lean ====
/-
  Region 9 of @main (custom_call 9, the kernel `cc9__dense_linear_kernel`), at any float instance: at every grid point the
  body loads its input blocks whole, computes one value from them and stores it whole into the output block. Hence
  the output block after the body is one function of the input blocks (`out9_3`), each input block is left
  as found, and the pipeline's obligation on the body holds at every point.
-/
import proofs.«162064_j1357209666150_1_alg».proof.Proof.Gen.Kernel.Launch
import proofs.«162064_j1357209666150_1_alg».proof.Proof.Gen.Kernel.Skeleton
import proofs.«162064_j1357209666150_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not (when it is not fetched
    its block index has not moved). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not (when it is not fetched
    its block index has not moved). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, fetched there or not (when it is not fetched
    its block index has not moved). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the store take the whole block -/

abbrev r9_0 : Rect S10000x64 := Rect.unit (s := S10000x64) ![0, 0] S10000x64.size inb_S10000x64_S10000x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S10000x64 := Rect.unit (s := S10000x64) ![0, 0] S10000x64.size inb_S10000x64_S10000x64_0_0

/-- The output block after the body, as a function of the input blocks: the one store's value. -/
def out9_3 (x0 : Vec F S10000x64 .f32) (x1 : Vec F S64x64 .f32) (x2 : Vec F S1x64 .f32) : Vec F S10000x64 .f32 :=
  View.canon [⟨r9_3, k9_pay1 (View.ld x0 r9_0) (View.ld x1 r9_1) (View.ld x2 r9_2)⟩]

/-- The one store covers the block. -/
theorem cover9_3 (p0 : Vec F S10000x64 .f32) (y : S10000x64.Idx) :
    ∃ pc ∈ ([⟨r9_3, p0⟩] : List (View.Piece (Elt F) S10000x64 .f32)), y ∈ pc.1.set :=
  View.cover_of_tiled [⟨r9_3, p0⟩] S10000x64.size (by rfl) y

/-! ## The body's triple -/

set_option maxHeartbeats 4000000 in
/-- The body on whole staging memrefs, the inputs' at contents `x` and the output's at anything, runs to the
    continuation with the inputs' as they were and the output's at `out9_3` of them. -/
theorem sound_kernel9 (c : Dev nD) (E : Set ℕ) (i : grid9.Coords) (a0 : Memref sig .tc .vmem S10000x64 .f32) (ha0 : a0.IsWhole) (a1 : Memref sig .tc .vmem S64x64 .f32) (ha1 : a1.IsWhole) (a2 : Memref sig .tc .vmem S1x64 .f32) (ha2 : a2.IsWhole) (a3 : Memref sig .tc .vmem S10000x64 .f32) (ha3 : a3.IsWhole)
    (x0 : Vec F S10000x64 .f32) (x1 : Vec F S64x64 .f32) (x2 : Vec F S1x64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out9_3 x0 x1 x2)) -∗ K ⟨⟩))
      ⊢ wp frame (wpE (defs₀ (F := F)) Variants.none c none) E (cc9__dense_linear_kernel i a0 ha0 a1 ha1 a2 ha2 a3 ha3) K := by
  simp only [cc9__dense_linear_kernel_eq_skeleton]; unfold cc9__dense_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The arrays as the region finds them; after the body at point `t` each input's buffer at its block and the
    output's at `out9_3` of the input blocks; the invariant is the scoped rest and the generator register,
    untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end

end Cert.Kernel.Hand

end
-- ==== Proof.KB.Chain.lean ====
/-
  The contents of core `c`'s unscoped buffers at every boundary between two items of @main: the launch contents, then
  each host stretch applied, then after a region its result arrays at what the pipeline's write-backs leave
  (`Dat.arrAt … N`) and every other buffer as the region found it. Every region's proof data is stated at the contents
  its region is entered from.
-/
import proofs.«162064_j1357209666150_1_alg».proof.Proof.Gen.Kernel.Regions
import proofs.«162064_j1357209666150_1_alg».proof.Proof.KB.R0
import proofs.«162064_j1357209666150_1_alg».proof.Proof.KB.R1
import proofs.«162064_j1357209666150_1_alg».proof.Proof.KB.R2
import proofs.«162064_j1357209666150_1_alg».proof.Proof.KB.R3
import proofs.«162064_j1357209666150_1_alg».proof.Proof.KB.R4
import proofs.«162064_j1357209666150_1_alg».proof.Proof.KB.R5
import proofs.«162064_j1357209666150_1_alg».proof.Proof.KB.R6
import proofs.«162064_j1357209666150_1_alg».proof.Proof.KB.R7
import proofs.«162064_j1357209666150_1_alg».proof.Proof.KB.R8
import proofs.«162064_j1357209666150_1_alg».proof.Proof.KB.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A boundary's contents read at the TensorCore's references. -/
abbrev tcv (W : Dev nD → Valuation τ sig (Elt F)) : (c : Dev nD) → (b : Ref sig .tc) → Buf (Elt F) ((c : Thread nD τ).loc b) := fun c b => W c b

abbrev U5 (c : Dev nD) : Valuation τ sig (Elt F) := V5 m c
/-- Region 0's arrays after its run, every other buffer as it found it. -/
def X6 (c : Dev nD) : Valuation τ sig (Elt F) :=
  Pipeline.withArrays spec0 c (U5 m c) fun w => (dat0 (tcv (U5 m)) c).arrAt w cfg0.N
abbrev U6 (c : Dev nD) : Valuation τ sig (Elt F) := Function.update (U5 m c) main_v31 (X6 m c main_v31)
abbrev U7 (c : Dev nD) : Valuation τ sig (Elt F) := StableHlo.after hostOps1 (U6 m c)
/-- Region 1's arrays after its run, every other buffer as it found it. -/
def X8 (c : Dev nD) : Valuation τ sig (Elt F) :=
  Pipeline.withArrays spec1 c (U7 m c) fun w => (dat1 (tcv (U7 m)) c).arrAt w cfg1.N
abbrev U8 (c : Dev nD) : Valuation τ sig (Elt F) := Function.update (Function.update (Function.update (U7 m c) main_v53_0 (X8 m c main_v53_0)) main_v53_1 (X8 m c main_v53_1)) main_v53_2 (X8 m c main_v53_2)
abbrev U9 (c : Dev nD) : Valuation τ sig (Elt F) := StableHlo.after hostOps2 (U8 m c)
/-- Region 2's arrays after its run, every other buffer as it found it. -/
def X10 (c : Dev nD) : Valuation τ sig (Elt F) :=
  Pipeline.withArrays spec2 c (U9 m c) fun w => (dat2 (tcv (U9 m)) c).arrAt w cfg2.N
abbrev U10 (c : Dev nD) : Valuation τ sig (Elt F) := Function.update (U9 m c) main_v60 (X10 m c main_v60)
abbrev U11 (c : Dev nD) : Valuation τ sig (Elt F) := StableHlo.after hostOps3 (U10 m c)
/-- Region 3's arrays after its run, every other buffer as it found it. -/
def X12 (c : Dev nD) : Valuation τ sig (Elt F) :=
  Pipeline.withArrays spec3 c (U11 m c) fun w => (dat3 (tcv (U11 m)) c).arrAt w cfg3.N
abbrev U12 (c : Dev nD) : Valuation τ sig (Elt F) := Function.update (Function.update (Function.update (U11 m c) main_v82_0 (X12 m c main_v82_0)) main_v82_1 (X12 m c main_v82_1)) main_v82_2 (X12 m c main_v82_2)
abbrev U13 (c : Dev nD) : Valuation τ sig (Elt F) := StableHlo.after hostOps4 (U12 m c)
/-- Region 4's arrays after its run, every other buffer as it found it. -/
def X14 (c : Dev nD) : Valuation τ sig (Elt F) :=
  Pipeline.withArrays spec4 c (U13 m c) fun w => (dat4 (tcv (U13 m)) c).arrAt w cfg4.N
abbrev U14 (c : Dev nD) : Valuation τ sig (Elt F) := Function.update (U13 m c) main_v89 (X14 m c main_v89)
abbrev U15 (c : Dev nD) : Valuation τ sig (Elt F) := StableHlo.after hostOps5 (U14 m c)
/-- Region 5's arrays after its run, every other buffer as it found it. -/
def X16 (c : Dev nD) : Valuation τ sig (Elt F) :=
  Pipeline.withArrays spec5 c (U15 m c) fun w => (dat5 (tcv (U15 m)) c).arrAt w cfg5.N
abbrev U16 (c : Dev nD) : Valuation τ sig (Elt F) := Function.update (Function.update (Function.update (U15 m c) main_v111_0 (X16 m c main_v111_0)) main_v111_1 (X16 m c main_v111_1)) main_v111_2 (X16 m c main_v111_2)
abbrev U17 (c : Dev nD) : Valuation τ sig (Elt F) := StableHlo.after hostOps6 (U16 m c)
/-- Region 6's arrays after its run, every other buffer as it found it. -/
def X18 (c : Dev nD) : Valuation τ sig (Elt F) :=
  Pipeline.withArrays spec6 c (U17 m c) fun w => (dat6 (tcv (U17 m)) c).arrAt w cfg6.N
abbrev U18 (c : Dev nD) : Valuation τ sig (Elt F) := Function.update (U17 m c) main_v118 (X18 m c main_v118)
abbrev U19 (c : Dev nD) : Valuation τ sig (Elt F) := StableHlo.after hostOps7 (U18 m c)
/-- Region 7's arrays after its run, every other buffer as it found it. -/
def X20 (c : Dev nD) : Valuation τ sig (Elt F) :=
  Pipeline.withArrays spec7 c (U19 m c) fun w => (dat7 (tcv (U19 m)) c).arrAt w cfg7.N
abbrev U20 (c : Dev nD) : Valuation τ sig (Elt F) := Function.update (Function.update (Function.update (U19 m c) main_v140_0 (X20 m c main_v140_0)) main_v140_1 (X20 m c main_v140_1)) main_v140_2 (X20 m c main_v140_2)
abbrev U21 (c : Dev nD) : Valuation τ sig (Elt F) := StableHlo.after hostOps8 (U20 m c)
/-- Region 8's arrays after its run, every other buffer as it found it. -/
def X22 (c : Dev nD) : Valuation τ sig (Elt F) :=
  Pipeline.withArrays spec8 c (U21 m c) fun w => (dat8 (tcv (U21 m)) c).arrAt w cfg8.N
abbrev U22 (c : Dev nD) : Valuation τ sig (Elt F) := Function.update (U21 m c) main_v147 (X22 m c main_v147)
abbrev U23 (c : Dev nD) : Valuation τ sig (Elt F) := StableHlo.after hostOps9 (U22 m c)
/-- Region 9's arrays after its run, every other buffer as it found it. -/
def X24 (c : Dev nD) : Valuation τ sig (Elt F) :=
  Pipeline.withArrays spec9 c (U23 m c) fun w => (dat9 (tcv (U23 m)) c).arrAt w cfg9.N
abbrev U24 (c : Dev nD) : Valuation τ sig (Elt F) := Function.update (U23 m c) main_v149 (X24 m c main_v149)

/-- What each region leaves in the buffers it may change. -/
def outs : Outs (F := F) := fun J r c => match J with
  | 6 => X6 m c r
  | 8 => X8 m c r
  | 10 => X10 m c r
  | 12 => X12 m c r
  | 14 => X14 m c r
  | 16 => X16 m c r
  | 18 => X18 m c r
  | 20 => X20 m c r
  | 22 => X22 m c r
  | _ => X24 m c r

theorem eq5 (c : Dev nD) : V5 m c = U5 m c := rfl
theorem eq6 (c : Dev nD) : V6 m (outs m) c = U6 m c := rfl
theorem eq7 (c : Dev nD) : V7 m (outs m) c = U7 m c := rfl
theorem eq8 (c : Dev nD) : V8 m (outs m) c = U8 m c := rfl
theorem eq9 (c : Dev nD) : V9 m (outs m) c = U9 m c := rfl
theorem eq10 (c : Dev nD) : V10 m (outs m) c = U10 m c := rfl
theorem eq11 (c : Dev nD) : V11 m (outs m) c = U11 m c := rfl
theorem eq12 (c : Dev nD) : V12 m (outs m) c = U12 m c := rfl
theorem eq13 (c : Dev nD) : V13 m (outs m) c = U13 m c := rfl
theorem eq14 (c : Dev nD) : V14 m (outs m) c = U14 m c := rfl
theorem eq15 (c : Dev nD) : V15 m (outs m) c = U15 m c := rfl
theorem eq16 (c : Dev nD) : V16 m (outs m) c = U16 m c := rfl
theorem eq17 (c : Dev nD) : V17 m (outs m) c = U17 m c := rfl
theorem eq18 (c : Dev nD) : V18 m (outs m) c = U18 m c := rfl
theorem eq19 (c : Dev nD) : V19 m (outs m) c = U19 m c := rfl
theorem eq20 (c : Dev nD) : V20 m (outs m) c = U20 m c := rfl
theorem eq21 (c : Dev nD) : V21 m (outs m) c = U21 m c := rfl
theorem eq22 (c : Dev nD) : V22 m (outs m) c = U22 m c := rfl
theorem eq23 (c : Dev nD) : V23 m (outs m) c = U23 m c := rfl
theorem eq24 (c : Dev nD) : V24 m (outs m) c = U24 m c := rfl

/-- Every pipeline's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (tcv (U5 m)) c
  | ⟨1, _⟩ => fun c => dat1 (tcv (U7 m)) c
  | ⟨2, _⟩ => fun c => dat2 (tcv (U9 m)) c
  | ⟨3, _⟩ => fun c => dat3 (tcv (U11 m)) c
  | ⟨4, _⟩ => fun c => dat4 (tcv (U13 m)) c
  | ⟨5, _⟩ => fun c => dat5 (tcv (U15 m)) c
  | ⟨6, _⟩ => fun c => dat6 (tcv (U17 m)) c
  | ⟨7, _⟩ => fun c => dat7 (tcv (U19 m)) c
  | ⟨8, _⟩ => fun c => dat8 (tcv (U21 m)) c
  | ⟨9, _⟩ => fun c => dat9 (tcv (U23 m)) c

end Cert.Kernel.Hand

end
-- ==== Proof.KB.Seg0.lean ====
/-
  Region 0 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U6_of (c : Dev nD) (b : Ref sig .tc) (h : b ∉ ([main_v31] : List (Ref sig .tc))) : U6 m c b = U5 m c b :=
  V6_of m (outs m) c b h

/-- The result buffer `main_v31` after the region holds what the pipeline leaves in it. -/
theorem U6_main_v31 (c : Dev nD) : U6 m c main_v31 = X6 m c main_v31 := by
  simp only [U6, Function.update_self]

set_option maxHeartbeats 4000000 in
theorem hF0 (c : Dev nD) (w : Fin cfg0.W) : (dat0 (tcv (U5 m)) c).arrAt w cfg0.N = tcv (U6 m) c (Pipeline.arrRef spec0 w) := by
  match w with
  | ⟨0, _⟩ => exact ((dat0 (tcv (U5 m)) c).arrAt_in 0 rfl _).trans ((A_eq0 (tcv (U5 m)) c 0).trans (U6_of m c _ (by decide)).symm)
  | ⟨1, _⟩ => exact ((dat0 (tcv (U5 m)) c).arrAt_in 1 rfl _).trans ((A_eq0 (tcv (U5 m)) c 1).trans (U6_of m c _ (by decide)).symm)
  | ⟨2, _⟩ => exact ((dat0 (tcv (U5 m)) c).arrAt_in 2 rfl _).trans ((A_eq0 (tcv (U5 m)) c 2).trans (U6_of m c _ (by decide)).symm)
  | ⟨3, _⟩ => exact ((Pipeline.withArrays_arr spec0 launch0.win.arr_inj c _ _ 3).symm.trans (U6_main_v31 m c).symm)

theorem hrest0 (c : Dev nD) : ∀ b, b ∉ Finset.univ.image (Pipeline.arrRef spec0) → tcv (U6 m) c b = tcv (U5 m) c b :=
  fun b hb => U6_of m c b (fun hmem => by

    exact hb (Finset.mem_image.mpr ⟨3, Finset.mem_univ _, (List.mem_singleton.mp hmem).symm⟩))

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (U5 m)) c).loose
  hwaits := Pipeline.hwaits_of_owed_zero _ _ _ _ L lv 0 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec0 c (tcv (U5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcv (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcv (U5 m) c) (tcv (U6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg1.lean ====
/-
  Region 1 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U8_of (c : Dev nD) (b : Ref sig .tc) (h : b ∉ ([main_v53_0, main_v53_1, main_v53_2] : List (Ref sig .tc))) : U8 m c b = U7 m c b :=
  V8_of m (outs m) c b h

/-- The result buffer `main_v53_0` after the region holds what the pipeline leaves in it. -/
theorem U8_main_v53_0 (c : Dev nD) : U8 m c main_v53_0 = X8 m c main_v53_0 := by
  simp only [U8, Function.update_of_ne (StableHlo.devRef_ne_of_ne (by decide) : (Proc.devRef .tc main_v53_0 : DevRef τ sig) ≠ Proc.devRef .tc main_v53_1), Function.update_of_ne (StableHlo.devRef_ne_of_ne (by decide) : (Proc.devRef .tc main_v53_0 : DevRef τ sig) ≠ Proc.devRef .tc main_v53_2), Function.update_self]

/-- The result buffer `main_v53_1` after the region holds what the pipeline leaves in it. -/
theorem U8_main_v53_1 (c : Dev nD) : U8 m c main_v53_1 = X8 m c main_v53_1 := by
  simp only [U8, Function.update_of_ne (StableHlo.devRef_ne_of_ne (by decide) : (Proc.devRef .tc main_v53_1 : DevRef τ sig) ≠ Proc.devRef .tc main_v53_2), Function.update_self]

/-- The result buffer `main_v53_2` after the region holds what the pipeline leaves in it. -/
theorem U8_main_v53_2 (c : Dev nD) : U8 m c main_v53_2 = X8 m c main_v53_2 := by
  simp only [U8, Function.update_self]

set_option maxHeartbeats 4000000 in
theorem hF1 (c : Dev nD) (w : Fin cfg1.W) : (dat1 (tcv (U7 m)) c).arrAt w cfg1.N = tcv (U8 m) c (Pipeline.arrRef spec1 w) := by
  match w with
  | ⟨0, _⟩ => exact ((dat1 (tcv (U7 m)) c).arrAt_in 0 rfl _).trans ((A_eq1 (tcv (U7 m)) c 0).trans (U8_of m c _ (by decide)).symm)
  | ⟨1, _⟩ => exact ((dat1 (tcv (U7 m)) c).arrAt_in 1 rfl _).trans ((A_eq1 (tcv (U7 m)) c 1).trans (U8_of m c _ (by decide)).symm)
  | ⟨2, _⟩ => exact ((dat1 (tcv (U7 m)) c).arrAt_in 2 rfl _).trans ((A_eq1 (tcv (U7 m)) c 2).trans (U8_of m c _ (by decide)).symm)
  | ⟨3, _⟩ => exact ((Pipeline.withArrays_arr spec1 launch1.win.arr_inj c _ _ 3).symm.trans (U8_main_v53_0 m c).symm)
  | ⟨4, _⟩ => exact ((Pipeline.withArrays_arr spec1 launch1.win.arr_inj c _ _ 4).symm.trans (U8_main_v53_1 m c).symm)
  | ⟨5, _⟩ => exact ((Pipeline.withArrays_arr spec1 launch1.win.arr_inj c _ _ 5).symm.trans (U8_main_v53_2 m c).symm)

theorem hrest1 (c : Dev nD) : ∀ b, b ∉ Finset.univ.image (Pipeline.arrRef spec1) → tcv (U8 m) c b = tcv (U7 m) c b :=
  fun b hb => U8_of m c b (fun hmem => by
    rcases List.mem_cons.mp hmem with e | hmem
    · exact hb (Finset.mem_image.mpr ⟨3, Finset.mem_univ _, e.symm⟩)
    rcases List.mem_cons.mp hmem with e | hmem
    · exact hb (Finset.mem_image.mpr ⟨4, Finset.mem_univ _, e.symm⟩)
    exact hb (Finset.mem_image.mpr ⟨5, Finset.mem_univ _, (List.mem_singleton.mp hmem).symm⟩))

set_option backward.isDefEq.respectTransparency.types false in
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (U7 m)) c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (tcv (U7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcv (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (tcv (U7 m)) c); unfold Pipeline.ΦA
    iintro ⟨Hp, -, Hr⟩
    isplitl [Hr]; · iexact Hr
    iexact Hp
  hout c := by
    rw [Pipeline.ownSems0_none]; refine BIBase.Entails.trans (hout1 (tcv (U7 m)) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcv (U7 m) c) (tcv (U8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg2.lean ====
/-
  Region 2 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U10_of (c : Dev nD) (b : Ref sig .tc) (h : b ∉ ([main_v60] : List (Ref sig .tc))) : U10 m c b = U9 m c b :=
  V10_of m (outs m) c b h

/-- The result buffer `main_v60` after the region holds what the pipeline leaves in it. -/
theorem U10_main_v60 (c : Dev nD) : U10 m c main_v60 = X10 m c main_v60 := by
  simp only [U10, Function.update_self]

set_option maxHeartbeats 4000000 in
theorem hF2 (c : Dev nD) (w : Fin cfg2.W) : (dat2 (tcv (U9 m)) c).arrAt w cfg2.N = tcv (U10 m) c (Pipeline.arrRef spec2 w) := by
  match w with
  | ⟨0, _⟩ => exact ((dat2 (tcv (U9 m)) c).arrAt_in 0 rfl _).trans ((A_eq2 (tcv (U9 m)) c 0).trans (U10_of m c _ (by decide)).symm)
  | ⟨1, _⟩ => exact ((dat2 (tcv (U9 m)) c).arrAt_in 1 rfl _).trans ((A_eq2 (tcv (U9 m)) c 1).trans (U10_of m c _ (by decide)).symm)
  | ⟨2, _⟩ => exact ((dat2 (tcv (U9 m)) c).arrAt_in 2 rfl _).trans ((A_eq2 (tcv (U9 m)) c 2).trans (U10_of m c _ (by decide)).symm)
  | ⟨3, _⟩ => exact ((dat2 (tcv (U9 m)) c).arrAt_in 3 rfl _).trans ((A_eq2 (tcv (U9 m)) c 3).trans (U10_of m c _ (by decide)).symm)
  | ⟨4, _⟩ => exact ((dat2 (tcv (U9 m)) c).arrAt_in 4 rfl _).trans ((A_eq2 (tcv (U9 m)) c 4).trans (U10_of m c _ (by decide)).symm)
  | ⟨5, _⟩ => exact ((dat2 (tcv (U9 m)) c).arrAt_in 5 rfl _).trans ((A_eq2 (tcv (U9 m)) c 5).trans (U10_of m c _ (by decide)).symm)
  | ⟨6, _⟩ => exact ((Pipeline.withArrays_arr spec2 launch2.win.arr_inj c _ _ 6).symm.trans (U10_main_v60 m c).symm)

theorem hrest2 (c : Dev nD) : ∀ b, b ∉ Finset.univ.image (Pipeline.arrRef spec2) → tcv (U10 m) c b = tcv (U9 m) c b :=
  fun b hb => U10_of m c b (fun hmem => by

    exact hb (Finset.mem_image.mpr ⟨6, Finset.mem_univ _, (List.mem_singleton.mp hmem).symm⟩))

set_option backward.isDefEq.respectTransparency.types false in
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (U9 m)) c).loose
  hwaits := Pipeline.hwaits_of_owed_zero _ _ _ _ L lv 2 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec2 c (tcv (U9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcv (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcv (U9 m) c) (tcv (U10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg3.lean ====
/-
  Region 3 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U12_of (c : Dev nD) (b : Ref sig .tc) (h : b ∉ ([main_v82_0, main_v82_1, main_v82_2] : List (Ref sig .tc))) : U12 m c b = U11 m c b :=
  V12_of m (outs m) c b h

/-- The result buffer `main_v82_0` after the region holds what the pipeline leaves in it. -/
theorem U12_main_v82_0 (c : Dev nD) : U12 m c main_v82_0 = X12 m c main_v82_0 := by
  simp only [U12, Function.update_of_ne (StableHlo.devRef_ne_of_ne (by decide) : (Proc.devRef .tc main_v82_0 : DevRef τ sig) ≠ Proc.devRef .tc main_v82_1), Function.update_of_ne (StableHlo.devRef_ne_of_ne (by decide) : (Proc.devRef .tc main_v82_0 : DevRef τ sig) ≠ Proc.devRef .tc main_v82_2), Function.update_self]

/-- The result buffer `main_v82_1` after the region holds what the pipeline leaves in it. -/
theorem U12_main_v82_1 (c : Dev nD) : U12 m c main_v82_1 = X12 m c main_v82_1 := by
  simp only [U12, Function.update_of_ne (StableHlo.devRef_ne_of_ne (by decide) : (Proc.devRef .tc main_v82_1 : DevRef τ sig) ≠ Proc.devRef .tc main_v82_2), Function.update_self]

/-- The result buffer `main_v82_2` after the region holds what the pipeline leaves in it. -/
theorem U12_main_v82_2 (c : Dev nD) : U12 m c main_v82_2 = X12 m c main_v82_2 := by
  simp only [U12, Function.update_self]

set_option maxHeartbeats 4000000 in
theorem hF3 (c : Dev nD) (w : Fin cfg3.W) : (dat3 (tcv (U11 m)) c).arrAt w cfg3.N = tcv (U12 m) c (Pipeline.arrRef spec3 w) := by
  match w with
  | ⟨0, _⟩ => exact ((dat3 (tcv (U11 m)) c).arrAt_in 0 rfl _).trans ((A_eq3 (tcv (U11 m)) c 0).trans (U12_of m c _ (by decide)).symm)
  | ⟨1, _⟩ => exact ((dat3 (tcv (U11 m)) c).arrAt_in 1 rfl _).trans ((A_eq3 (tcv (U11 m)) c 1).trans (U12_of m c _ (by decide)).symm)
  | ⟨2, _⟩ => exact ((dat3 (tcv (U11 m)) c).arrAt_in 2 rfl _).trans ((A_eq3 (tcv (U11 m)) c 2).trans (U12_of m c _ (by decide)).symm)
  | ⟨3, _⟩ => exact ((Pipeline.withArrays_arr spec3 launch3.win.arr_inj c _ _ 3).symm.trans (U12_main_v82_0 m c).symm)
  | ⟨4, _⟩ => exact ((Pipeline.withArrays_arr spec3 launch3.win.arr_inj c _ _ 4).symm.trans (U12_main_v82_1 m c).symm)
  | ⟨5, _⟩ => exact ((Pipeline.withArrays_arr spec3 launch3.win.arr_inj c _ _ 5).symm.trans (U12_main_v82_2 m c).symm)

theorem hrest3 (c : Dev nD) : ∀ b, b ∉ Finset.univ.image (Pipeline.arrRef spec3) → tcv (U12 m) c b = tcv (U11 m) c b :=
  fun b hb => U12_of m c b (fun hmem => by
    rcases List.mem_cons.mp hmem with e | hmem
    · exact hb (Finset.mem_image.mpr ⟨3, Finset.mem_univ _, e.symm⟩)
    rcases List.mem_cons.mp hmem with e | hmem
    · exact hb (Finset.mem_image.mpr ⟨4, Finset.mem_univ _, e.symm⟩)
    exact hb (Finset.mem_image.mpr ⟨5, Finset.mem_univ _, (List.mem_singleton.mp hmem).symm⟩))

set_option backward.isDefEq.respectTransparency.types false in
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcv (U11 m)) c).loose
  hwaits := Pipeline.hwaits_of_owed_zero _ _ _ _ L lv 3 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec3 c (tcv (U11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcv (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (tcv (U11 m)) c); unfold Pipeline.ΦA
    iintro ⟨Hp, -, Hr⟩
    isplitl [Hr]; · iexact Hr
    iexact Hp
  hout c := by
    rw [Pipeline.ownSems0_none]; refine BIBase.Entails.trans (hout3 (tcv (U11 m)) c) ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcv (U11 m) c) (tcv (U12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg4.lean ====
/-
  Region 4 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U14_of (c : Dev nD) (b : Ref sig .tc) (h : b ∉ ([main_v89] : List (Ref sig .tc))) : U14 m c b = U13 m c b :=
  V14_of m (outs m) c b h

/-- The result buffer `main_v89` after the region holds what the pipeline leaves in it. -/
theorem U14_main_v89 (c : Dev nD) : U14 m c main_v89 = X14 m c main_v89 := by
  simp only [U14, Function.update_self]

set_option maxHeartbeats 4000000 in
theorem hF4 (c : Dev nD) (w : Fin cfg4.W) : (dat4 (tcv (U13 m)) c).arrAt w cfg4.N = tcv (U14 m) c (Pipeline.arrRef spec4 w) := by
  match w with
  | ⟨0, _⟩ => exact ((dat4 (tcv (U13 m)) c).arrAt_in 0 rfl _).trans ((A_eq4 (tcv (U13 m)) c 0).trans (U14_of m c _ (by decide)).symm)
  | ⟨1, _⟩ => exact ((dat4 (tcv (U13 m)) c).arrAt_in 1 rfl _).trans ((A_eq4 (tcv (U13 m)) c 1).trans (U14_of m c _ (by decide)).symm)
  | ⟨2, _⟩ => exact ((dat4 (tcv (U13 m)) c).arrAt_in 2 rfl _).trans ((A_eq4 (tcv (U13 m)) c 2).trans (U14_of m c _ (by decide)).symm)
  | ⟨3, _⟩ => exact ((dat4 (tcv (U13 m)) c).arrAt_in 3 rfl _).trans ((A_eq4 (tcv (U13 m)) c 3).trans (U14_of m c _ (by decide)).symm)
  | ⟨4, _⟩ => exact ((dat4 (tcv (U13 m)) c).arrAt_in 4 rfl _).trans ((A_eq4 (tcv (U13 m)) c 4).trans (U14_of m c _ (by decide)).symm)
  | ⟨5, _⟩ => exact ((dat4 (tcv (U13 m)) c).arrAt_in 5 rfl _).trans ((A_eq4 (tcv (U13 m)) c 5).trans (U14_of m c _ (by decide)).symm)
  | ⟨6, _⟩ => exact ((Pipeline.withArrays_arr spec4 launch4.win.arr_inj c _ _ 6).symm.trans (U14_main_v89 m c).symm)

theorem hrest4 (c : Dev nD) : ∀ b, b ∉ Finset.univ.image (Pipeline.arrRef spec4) → tcv (U14 m) c b = tcv (U13 m) c b :=
  fun b hb => U14_of m c b (fun hmem => by

    exact hb (Finset.mem_image.mpr ⟨6, Finset.mem_univ _, (List.mem_singleton.mp hmem).symm⟩))

set_option backward.isDefEq.respectTransparency.types false in
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tcv (U13 m)) c).loose
  hwaits := Pipeline.hwaits_of_owed_zero _ _ _ _ L lv 4 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec4 c (tcv (U13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (tcv (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (tcv (U13 m) c) (tcv (U14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg5.lean ====
/-
  Region 5 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U16_of (c : Dev nD) (b : Ref sig .tc) (h : b ∉ ([main_v111_0, main_v111_1, main_v111_2] : List (Ref sig .tc))) : U16 m c b = U15 m c b :=
  V16_of m (outs m) c b h

/-- The result buffer `main_v111_0` after the region holds what the pipeline leaves in it. -/
theorem U16_main_v111_0 (c : Dev nD) : U16 m c main_v111_0 = X16 m c main_v111_0 := by
  simp only [U16, Function.update_of_ne (StableHlo.devRef_ne_of_ne (by decide) : (Proc.devRef .tc main_v111_0 : DevRef τ sig) ≠ Proc.devRef .tc main_v111_1), Function.update_of_ne (StableHlo.devRef_ne_of_ne (by decide) : (Proc.devRef .tc main_v111_0 : DevRef τ sig) ≠ Proc.devRef .tc main_v111_2), Function.update_self]

/-- The result buffer `main_v111_1` after the region holds what the pipeline leaves in it. -/
theorem U16_main_v111_1 (c : Dev nD) : U16 m c main_v111_1 = X16 m c main_v111_1 := by
  simp only [U16, Function.update_of_ne (StableHlo.devRef_ne_of_ne (by decide) : (Proc.devRef .tc main_v111_1 : DevRef τ sig) ≠ Proc.devRef .tc main_v111_2), Function.update_self]

/-- The result buffer `main_v111_2` after the region holds what the pipeline leaves in it. -/
theorem U16_main_v111_2 (c : Dev nD) : U16 m c main_v111_2 = X16 m c main_v111_2 := by
  simp only [U16, Function.update_self]

set_option maxHeartbeats 4000000 in
theorem hF5 (c : Dev nD) (w : Fin cfg5.W) : (dat5 (tcv (U15 m)) c).arrAt w cfg5.N = tcv (U16 m) c (Pipeline.arrRef spec5 w) := by
  match w with
  | ⟨0, _⟩ => exact ((dat5 (tcv (U15 m)) c).arrAt_in 0 rfl _).trans ((A_eq5 (tcv (U15 m)) c 0).trans (U16_of m c _ (by decide)).symm)
  | ⟨1, _⟩ => exact ((dat5 (tcv (U15 m)) c).arrAt_in 1 rfl _).trans ((A_eq5 (tcv (U15 m)) c 1).trans (U16_of m c _ (by decide)).symm)
  | ⟨2, _⟩ => exact ((dat5 (tcv (U15 m)) c).arrAt_in 2 rfl _).trans ((A_eq5 (tcv (U15 m)) c 2).trans (U16_of m c _ (by decide)).symm)
  | ⟨3, _⟩ => exact ((Pipeline.withArrays_arr spec5 launch5.win.arr_inj c _ _ 3).symm.trans (U16_main_v111_0 m c).symm)
  | ⟨4, _⟩ => exact ((Pipeline.withArrays_arr spec5 launch5.win.arr_inj c _ _ 4).symm.trans (U16_main_v111_1 m c).symm)
  | ⟨5, _⟩ => exact ((Pipeline.withArrays_arr spec5 launch5.win.arr_inj c _ _ 5).symm.trans (U16_main_v111_2 m c).symm)

theorem hrest5 (c : Dev nD) : ∀ b, b ∉ Finset.univ.image (Pipeline.arrRef spec5) → tcv (U16 m) c b = tcv (U15 m) c b :=
  fun b hb => U16_of m c b (fun hmem => by
    rcases List.mem_cons.mp hmem with e | hmem
    · exact hb (Finset.mem_image.mpr ⟨3, Finset.mem_univ _, e.symm⟩)
    rcases List.mem_cons.mp hmem with e | hmem
    · exact hb (Finset.mem_image.mpr ⟨4, Finset.mem_univ _, e.symm⟩)
    exact hb (Finset.mem_image.mpr ⟨5, Finset.mem_univ _, (List.mem_singleton.mp hmem).symm⟩))

set_option backward.isDefEq.respectTransparency.types false in
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tcv (U15 m)) c).loose
  hwaits := Pipeline.hwaits_of_owed_zero _ _ _ _ L lv 5 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec5 c (tcv (U15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (tcv (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (tcv (U15 m)) c); unfold Pipeline.ΦA
    iintro ⟨Hp, -, Hr⟩
    isplitl [Hr]; · iexact Hr
    iexact Hp
  hout c := by
    rw [Pipeline.ownSems0_none]; refine BIBase.Entails.trans (hout5 (tcv (U15 m)) c) ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (tcv (U15 m) c) (tcv (U16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg6.lean ====
/-
  Region 6 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U18_of (c : Dev nD) (b : Ref sig .tc) (h : b ∉ ([main_v118] : List (Ref sig .tc))) : U18 m c b = U17 m c b :=
  V18_of m (outs m) c b h

/-- The result buffer `main_v118` after the region holds what the pipeline leaves in it. -/
theorem U18_main_v118 (c : Dev nD) : U18 m c main_v118 = X18 m c main_v118 := by
  simp only [U18, Function.update_self]

set_option maxHeartbeats 4000000 in
theorem hF6 (c : Dev nD) (w : Fin cfg6.W) : (dat6 (tcv (U17 m)) c).arrAt w cfg6.N = tcv (U18 m) c (Pipeline.arrRef spec6 w) := by
  match w with
  | ⟨0, _⟩ => exact ((dat6 (tcv (U17 m)) c).arrAt_in 0 rfl _).trans ((A_eq6 (tcv (U17 m)) c 0).trans (U18_of m c _ (by decide)).symm)
  | ⟨1, _⟩ => exact ((dat6 (tcv (U17 m)) c).arrAt_in 1 rfl _).trans ((A_eq6 (tcv (U17 m)) c 1).trans (U18_of m c _ (by decide)).symm)
  | ⟨2, _⟩ => exact ((dat6 (tcv (U17 m)) c).arrAt_in 2 rfl _).trans ((A_eq6 (tcv (U17 m)) c 2).trans (U18_of m c _ (by decide)).symm)
  | ⟨3, _⟩ => exact ((dat6 (tcv (U17 m)) c).arrAt_in 3 rfl _).trans ((A_eq6 (tcv (U17 m)) c 3).trans (U18_of m c _ (by decide)).symm)
  | ⟨4, _⟩ => exact ((dat6 (tcv (U17 m)) c).arrAt_in 4 rfl _).trans ((A_eq6 (tcv (U17 m)) c 4).trans (U18_of m c _ (by decide)).symm)
  | ⟨5, _⟩ => exact ((dat6 (tcv (U17 m)) c).arrAt_in 5 rfl _).trans ((A_eq6 (tcv (U17 m)) c 5).trans (U18_of m c _ (by decide)).symm)
  | ⟨6, _⟩ => exact ((Pipeline.withArrays_arr spec6 launch6.win.arr_inj c _ _ 6).symm.trans (U18_main_v118 m c).symm)

theorem hrest6 (c : Dev nD) : ∀ b, b ∉ Finset.univ.image (Pipeline.arrRef spec6) → tcv (U18 m) c b = tcv (U17 m) c b :=
  fun b hb => U18_of m c b (fun hmem => by

    exact hb (Finset.mem_image.mpr ⟨6, Finset.mem_univ _, (List.mem_singleton.mp hmem).symm⟩))

set_option backward.isDefEq.respectTransparency.types false in
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tcv (U17 m)) c).loose
  hwaits := Pipeline.hwaits_of_owed_zero _ _ _ _ L lv 6 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec6 c (tcv (U17 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (tcv (U17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (tcv (U17 m) c) (tcv (U18 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg7.lean ====
/-
  Region 7 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U20_of (c : Dev nD) (b : Ref sig .tc) (h : b ∉ ([main_v140_0, main_v140_1, main_v140_2] : List (Ref sig .tc))) : U20 m c b = U19 m c b :=
  V20_of m (outs m) c b h

/-- The result buffer `main_v140_0` after the region holds what the pipeline leaves in it. -/
theorem U20_main_v140_0 (c : Dev nD) : U20 m c main_v140_0 = X20 m c main_v140_0 := by
  simp only [U20, Function.update_of_ne (StableHlo.devRef_ne_of_ne (by decide) : (Proc.devRef .tc main_v140_0 : DevRef τ sig) ≠ Proc.devRef .tc main_v140_1), Function.update_of_ne (StableHlo.devRef_ne_of_ne (by decide) : (Proc.devRef .tc main_v140_0 : DevRef τ sig) ≠ Proc.devRef .tc main_v140_2), Function.update_self]

/-- The result buffer `main_v140_1` after the region holds what the pipeline leaves in it. -/
theorem U20_main_v140_1 (c : Dev nD) : U20 m c main_v140_1 = X20 m c main_v140_1 := by
  simp only [U20, Function.update_of_ne (StableHlo.devRef_ne_of_ne (by decide) : (Proc.devRef .tc main_v140_1 : DevRef τ sig) ≠ Proc.devRef .tc main_v140_2), Function.update_self]

/-- The result buffer `main_v140_2` after the region holds what the pipeline leaves in it. -/
theorem U20_main_v140_2 (c : Dev nD) : U20 m c main_v140_2 = X20 m c main_v140_2 := by
  simp only [U20, Function.update_self]

set_option maxHeartbeats 4000000 in
theorem hF7 (c : Dev nD) (w : Fin cfg7.W) : (dat7 (tcv (U19 m)) c).arrAt w cfg7.N = tcv (U20 m) c (Pipeline.arrRef spec7 w) := by
  match w with
  | ⟨0, _⟩ => exact ((dat7 (tcv (U19 m)) c).arrAt_in 0 rfl _).trans ((A_eq7 (tcv (U19 m)) c 0).trans (U20_of m c _ (by decide)).symm)
  | ⟨1, _⟩ => exact ((dat7 (tcv (U19 m)) c).arrAt_in 1 rfl _).trans ((A_eq7 (tcv (U19 m)) c 1).trans (U20_of m c _ (by decide)).symm)
  | ⟨2, _⟩ => exact ((dat7 (tcv (U19 m)) c).arrAt_in 2 rfl _).trans ((A_eq7 (tcv (U19 m)) c 2).trans (U20_of m c _ (by decide)).symm)
  | ⟨3, _⟩ => exact ((Pipeline.withArrays_arr spec7 launch7.win.arr_inj c _ _ 3).symm.trans (U20_main_v140_0 m c).symm)
  | ⟨4, _⟩ => exact ((Pipeline.withArrays_arr spec7 launch7.win.arr_inj c _ _ 4).symm.trans (U20_main_v140_1 m c).symm)
  | ⟨5, _⟩ => exact ((Pipeline.withArrays_arr spec7 launch7.win.arr_inj c _ _ 5).symm.trans (U20_main_v140_2 m c).symm)

theorem hrest7 (c : Dev nD) : ∀ b, b ∉ Finset.univ.image (Pipeline.arrRef spec7) → tcv (U20 m) c b = tcv (U19 m) c b :=
  fun b hb => U20_of m c b (fun hmem => by
    rcases List.mem_cons.mp hmem with e | hmem
    · exact hb (Finset.mem_image.mpr ⟨3, Finset.mem_univ _, e.symm⟩)
    rcases List.mem_cons.mp hmem with e | hmem
    · exact hb (Finset.mem_image.mpr ⟨4, Finset.mem_univ _, e.symm⟩)
    exact hb (Finset.mem_image.mpr ⟨5, Finset.mem_univ _, (List.mem_singleton.mp hmem).symm⟩))

set_option backward.isDefEq.respectTransparency.types false in
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (tcv (U19 m)) c).loose
  hwaits := Pipeline.hwaits_of_owed_zero _ _ _ _ L lv 7 fun _ _ => rfl
  pre c := iprop(StableHlo.held (c : Thread nD τ) (Pipeline.ucRefs τ sig) (U19 m c) ∗ R c)
  post c := iprop(StableHlo.held (c : Thread nD τ) (Pipeline.ucRefs τ sig) (U20 m c) ∗ R c)
  X c := iprop(∃ r, prngReg c r)
  Y c := iprop(∃ r, prngReg c r)
  Z c := Pipeline.unscopedRest (Ix := Unit) (Name := ℕ) (U := UR sig nD τ) (Lvl := ℕ) spec7 c (tcv (U19 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (tcv (U19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (tcv (U19 m)) c); unfold Pipeline.ΦA
    iintro ⟨Hp, -, Hr⟩
    isplitl [Hr]; · iexact Hr
    iexact Hp
  hout c := by
    rw [Pipeline.ownSems0_none]; refine BIBase.Entails.trans (hout7 (tcv (U19 m)) c) ?_; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (tcv (U19 m) c) (tcv (U20 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg8.lean ====
/-
  Region 8 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U22_of (c : Dev nD) (b : Ref sig .tc) (h : b ∉ ([main_v147] : List (Ref sig .tc))) : U22 m c b = U21 m c b :=
  V22_of m (outs m) c b h

/-- The result buffer `main_v147` after the region holds what the pipeline leaves in it. -/
theorem U22_main_v147 (c : Dev nD) : U22 m c main_v147 = X22 m c main_v147 := by
  simp only [U22, Function.update_self]

set_option maxHeartbeats 4000000 in
theorem hF8 (c : Dev nD) (w : Fin cfg8.W) : (dat8 (tcv (U21 m)) c).arrAt w cfg8.N = tcv (U22 m) c (Pipeline.arrRef spec8 w) := by
  match w with
  | ⟨0, _⟩ => exact ((dat8 (tcv (U21 m)) c).arrAt_in 0 rfl _).trans ((A_eq8 (tcv (U21 m)) c 0).trans (U22_of m c _ (by decide)).symm)
  | ⟨1, _⟩ => exact ((dat8 (tcv (U21 m)) c).arrAt_in 1 rfl _).trans ((A_eq8 (tcv (U21 m)) c 1).trans (U22_of m c _ (by decide)).symm)
  | ⟨2, _⟩ => exact ((dat8 (tcv (U21 m)) c).arrAt_in 2 rfl _).trans ((A_eq8 (tcv (U21 m)) c 2).trans (U22_of m c _ (by decide)).symm)
  | ⟨3, _⟩ => exact ((dat8 (tcv (U21 m)) c).arrAt_in 3 rfl _).trans ((A_eq8 (tcv (U21 m)) c 3).trans (U22_of m c _ (by decide)).symm)
  | ⟨4, _⟩ => exact ((dat8 (tcv (U21 m)) c).arrAt_in 4 rfl _).trans ((A_eq8 (tcv (U21 m)) c 4).trans (U22_of m c _ (by decide)).symm)
  | ⟨5, _⟩ => exact ((dat8 (tcv (U21 m)) c).arrAt_in 5 rfl _).trans ((A_eq8 (tcv (U21 m)) c 5).trans (U22_of m c _ (by decide)).symm)
  | ⟨6, _⟩ => exact ((Pipeline.withArrays_arr spec8 launch8.win.arr_inj c _ _ 6).symm.trans (U22_main_v147 m c).symm)

theorem hrest8 (c : Dev nD) : ∀ b, b ∉ Finset.univ.image (Pipeline.arrRef spec8) → tcv (U22 m) c b = tcv (U21 m) c b :=
  fun b hb => U22_of m c b (fun hmem => by

    exact hb (Finset.mem_image.mpr ⟨6, Finset.mem_univ _, (List.mem_singleton.mp hmem).symm⟩))

set_option backward.isDefEq.respectTransparency.types false in
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (tcv (U21 m)) c).loose
  hwaits := Pipeline.hwaits_of_owed_zero _ _ _ _ L lv 8 fun _ _ => rfl
  pre c := iprop(StableHlo.held (c : Thread nD τ) (Pipeline.ucRefs τ sig) (U21 m c) ∗ R c)
  post c := iprop(StableHlo.held (c : Thread nD τ) (Pipeline.ucRefs τ sig) (U22 m c) ∗ R c)
  X c := iprop(∃ r, prngReg c r)
  Y c := iprop(∃ r, prngReg c r)
  Z c := Pipeline.unscopedRest (Ix := Unit) (Name := ℕ) (U := UR sig nD τ) (Lvl := ℕ) spec8 c (tcv (U21 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (tcv (U21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (tcv (U21 m) c) (tcv (U22 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Seg9.lean ====
/-
  Region 9 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.Kernel.Regions
import proofs.«162064_j1357209666150_1_alg».proof.Proof.KB.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U24_of (c : Dev nD) (b : Ref sig .tc) (h : b ∉ ([main_v149] : List (Ref sig .tc))) : U24 m c b = U23 m c b :=
  V24_of m (outs m) c b h

/-- The result buffer `main_v149` after the region holds what the pipeline leaves in it. -/
theorem U24_main_v149 (c : Dev nD) : U24 m c main_v149 = X24 m c main_v149 := by
  simp only [U24, Function.update_self]

set_option maxHeartbeats 4000000 in
theorem hF9 (c : Dev nD) (w : Fin cfg9.W) : (dat9 (tcv (U23 m)) c).arrAt w cfg9.N = tcv (U24 m) c (Pipeline.arrRef spec9 w) := by
  match w with
  | ⟨0, _⟩ => exact ((dat9 (tcv (U23 m)) c).arrAt_in 0 rfl _).trans ((A_eq9 (tcv (U23 m)) c 0).trans (U24_of m c _ (by decide)).symm)
  | ⟨1, _⟩ => exact ((dat9 (tcv (U23 m)) c).arrAt_in 1 rfl _).trans ((A_eq9 (tcv (U23 m)) c 1).trans (U24_of m c _ (by decide)).symm)
  | ⟨2, _⟩ => exact ((dat9 (tcv (U23 m)) c).arrAt_in 2 rfl _).trans ((A_eq9 (tcv (U23 m)) c 2).trans (U24_of m c _ (by decide)).symm)
  | ⟨3, _⟩ => exact ((Pipeline.withArrays_arr spec9 launch9.win.arr_inj c _ _ 3).symm.trans (U24_main_v149 m c).symm)

theorem hrest9 (c : Dev nD) : ∀ b, b ∉ Finset.univ.image (Pipeline.arrRef spec9) → tcv (U24 m) c b = tcv (U23 m) c b :=
  fun b hb => U24_of m c b (fun hmem => by

    exact hb (Finset.mem_image.mpr ⟨3, Finset.mem_univ _, (List.mem_singleton.mp hmem).symm⟩))

set_option backward.isDefEq.respectTransparency.types false in
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (tcv (U23 m)) c).loose
  hwaits := Pipeline.hwaits_of_owed_zero _ _ _ _ L lv 9 fun _ _ => rfl
  pre c := iprop(StableHlo.held (c : Thread nD τ) (Pipeline.ucRefs τ sig) (U23 m c) ∗ R c)
  post c := iprop(StableHlo.held (c : Thread nD τ) (Pipeline.ucRefs τ sig) (U24 m c) ∗ R c)
  X c := iprop(∃ r, prngReg c r)
  Y c := iprop(∃ r, prngReg c r)
  Z c := Pipeline.unscopedRest (Ix := Unit) (Name := ℕ) (U := UR sig nD τ) (Lvl := ℕ) spec9 c (tcv (U23 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (tcv (U23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (tcv (U23 m) c) (tcv (U24 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KB.Frame.lean ====
/-
  The frame of the whole program, at any float instance: @main is host stretches and ten kernel regions in a row; with each
  region's segment record entered from the boundary contents before it and left at those after it, every weakly fair
  execution ends, faults nowhere, and leaves every argument array as launched (no stretch writes an argument and no
  region may change one).
-/
import proofs.«162064_j1357209666150_1_alg».proof.Proof.Gen.Kernel.Regions
import proofs.«162064_j1357209666150_1_alg».proof.Proof.KB.Seg0
import proofs.«162064_j1357209666150_1_alg».proof.Proof.KB.Seg1
import proofs.«162064_j1357209666150_1_alg».proof.Proof.KB.Seg2
import proofs.«162064_j1357209666150_1_alg».proof.Proof.KB.Seg3
import proofs.«162064_j1357209666150_1_alg».proof.Proof.KB.Seg4
import proofs.«162064_j1357209666150_1_alg».proof.Proof.KB.Seg5
import proofs.«162064_j1357209666150_1_alg».proof.Proof.KB.Seg6
import proofs.«162064_j1357209666150_1_alg».proof.Proof.KB.Seg7
import proofs.«162064_j1357209666150_1_alg».proof.Proof.KB.Seg8
import proofs.«162064_j1357209666150_1_alg».proof.Proof.KB.Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option maxHeartbeats 40000000 in
set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by iintro ⟨-, H⟩; iexact H)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)
    (reg8 m) (fun c => .rfl) (fun c => .rfl)
    (reg9 m) (fun c => .rfl) (fun c => .rfl)

end Cert.Kernel.Hand

end
-- ==== Proof.KI.R0.lean ====
/-
  Region 0 of @main (custom_call 0, the kernel `cc0__dense_relu_kernel`), at any float instance: at every grid point the
  body loads its input blocks whole, computes one value from them and stores it whole into the output block. Hence
  the output block after the body is one function of the input blocks (`out0_3`), each input block is left
  as found, and the pipeline's obligation on the body holds at every point.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not (when it is not fetched
    its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not (when it is not fetched
    its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not (when it is not fetched
    its block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take the whole block -/

abbrev r0_0 : Rect S10000x128 := Rect.unit (s := S10000x128) ![0, 0] S10000x128.size inb_S10000x128_S10000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S10000x64 := Rect.unit (s := S10000x64) ![0, 0] S10000x64.size inb_S10000x64_S10000x64_0_0

/-- The output block after the body, as a function of the input blocks: the one store's value. -/
def out0_3 (x0 : Vec F S10000x128 .f32) (x1 : Vec F S128x64 .f32) (x2 : Vec F S1x64 .f32) : Vec F S10000x64 .f32 :=
  View.canon [⟨r0_3, k0_pay1 (View.ld x0 r0_0) (View.ld x1 r0_1) (View.ld x2 r0_2)⟩]

/-- The one store covers the block. -/
theorem cover0_3 (p0 : Vec F S10000x64 .f32) (y : S10000x64.Idx) :
    ∃ pc ∈ ([⟨r0_3, p0⟩] : List (View.Piece (Elt F) S10000x64 .f32)), y ∈ pc.1.set :=
  View.cover_of_tiled [⟨r0_3, p0⟩] S10000x64.size (by rfl) y

/-! ## The body's triple -/

set_option maxHeartbeats 4000000 in
/-- The body on whole staging memrefs, the inputs' at contents `x` and the output's at anything, runs to the
    continuation with the inputs' as they were and the output's at `out0_3` of them. -/
theorem sound_kernel0 (c : Dev nD) (E : Set ℕ) (i : grid0.Coords) (a0 : Memref sig .tc .vmem S10000x128 .f32) (ha0 : a0.IsWhole) (a1 : Memref sig .tc .vmem S128x64 .f32) (ha1 : a1.IsWhole) (a2 : Memref sig .tc .vmem S1x64 .f32) (ha2 : a2.IsWhole) (a3 : Memref sig .tc .vmem S10000x64 .f32) (ha3 : a3.IsWhole)
    (x0 : Vec F S10000x128 .f32) (x1 : Vec F S128x64 .f32) (x2 : Vec F S1x64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out0_3 x0 x1 x2)) -∗ K ⟨⟩))
      ⊢ wp frame (wpE (defs₀ (F := F)) Variants.none c none) E (cc0__dense_relu_kernel i a0 ha0 a1 ha1 a2 ha2 a3 ha3) K := by
  simp only [cc0__dense_relu_kernel_eq_skeleton]; unfold cc0__dense_relu_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The arrays as the region finds them; after the body at point `t` each input's buffer at its block and the
    output's at `out0_3` of the input blocks; the invariant is the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1.lean ====
/-
  Region 1 of @main (custom_call 1, `cc1__gcn_stats_kernel`), at any float instance. The body, at every grid point: at the first point
  only it clears two scratch rows; it then loads the two input blocks and the weights whole, stores the combined block whole,
  adds the block's column sums and column sums of squares to the two scratch rows, and copies the scratch rows whole to
  the two small outputs. The scratch rows are carried from point to point: what the outputs and the scratch hold after
  point `n` is defined by recursion on `n` (`outsAt1`), the first point from cleared rows and every later point from what
  the point before left; the region's invariant after point `n` holds the two scratch rows at those contents.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point is the only one that clears the scratch rows -/

/-- The body's one conditional, from the grid coordinates. -/
abbrev cond1 (i : grid1.Coords) : Prop := (Scalar.cmpi .ne (Scalar.extui (Scalar.cmpi .eq (BitVec.ofNat 32 (i 0).val) 0#32)) 0#32) = 1#1
/-- It holds at the first point only — decided over the grid. -/
theorem hcond1 : ∀ t : Fin cfg1.N, cond1 (grid1.coords t) ↔ t.val = 0 :=
  (by decide +kernel : ∀ t : Fin grid1.N, cond1 (grid1.coords t) ↔ t.val = 0)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel

abbrev sc1_0 : Memref sig .tc .vmem S1x64 .f32 := Memref.whole cc1_scratch0
abbrev sc1_1 : Memref sig .tc .vmem S1x64 .f32 := Memref.whole cc1_scratch1
abbrev hst1_0 (t : Fin cfg1.N) : (st1_0 t).IsWhole := hstage1_0 ((cfg1.slots t 0).cast nbuf1_0)
abbrev hst1_1 (t : Fin cfg1.N) : (st1_1 t).IsWhole := hstage1_1 ((cfg1.slots t 1).cast nbuf1_1)
abbrev hst1_2 (t : Fin cfg1.N) : (st1_2 t).IsWhole := hstage1_2 ((cfg1.slots t 2).cast nbuf1_2)
abbrev hst1_3 (t : Fin cfg1.N) : (st1_3 t).IsWhole := hstage1_3 ((cfg1.slots t 3).cast nbuf1_3)
abbrev hst1_4 (t : Fin cfg1.N) : (st1_4 t).IsWhole := hstage1_4 ((cfg1.slots t 4).cast nbuf1_4)
abbrev hst1_5 (t : Fin cfg1.N) : (st1_5 t).IsWhole := hstage1_5 ((cfg1.slots t 5).cast nbuf1_5)

/-- The region's invariant as the launch hands it over: the two scratch rows at some contents, the other scoped buffers
    unopened, the generator register at some state. -/
theorem PhiA1_eq (c : Dev nD) :
    (Pipeline.ΦA spec1 c : sProp 𝕄)
      = iprop(iprop(iprop((∃ d, owns (c : Thread nD τ) sc1_0 fullShare d) ∗ (∃ d, owns (c : Thread nD τ) sc1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [sc1_0, sc1_1, owns_whole]; try rfl

/-! ## The body's run, in its two cases: the stores as pieces, found by running it -/

set_option maxHeartbeats 8000000 in
/-- THE FIRST POINT (the conditional taken): the scratch rows found at anything. -/
noncomputable def kernelRun1_A (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ (∃ d, owns (c : Thread nD τ) s0 fullShare d) ∗ (∃ d, owns (c : Thread nD τ) s1 fullShare d)
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc1__gcn_stats_kernel i a0 ha0 a1 ha1 a2 ha2 a3 ha3 a4 ha4 a5 ha5 s0 hs0 s1 hs1) K } := by
  refine ⟨?_, ?_, ?_, ?_, ?_, fun E K => ?run⟩
  case run =>
    simp only [cc1__gcn_stats_kernel_eq_skeleton]; unfold cc1__gcn_stats_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %g0, -, S0⟩, ⟨%e1, %g1, -, S1⟩, Hk⟩
    obtain rfl := ha0.eq_unread hf0; obtain rfl := ha1.eq_unread hf1; obtain rfl := ha2.eq_unread hf2
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

set_option maxHeartbeats 8000000 in
/-- EVERY LATER POINT (the conditional not taken): the scratch rows found at what the point before left, `p0` and `p1`. -/
noncomputable def kernelRun1_B (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ owns (c : Thread nD τ) s0 fullShare p0 ∗ owns (c : Thread nD τ) s1 fullShare p1
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc1__gcn_stats_kernel i a0 ha0 a1 ha1 a2 ha2 a3 ha3 a4 ha4 a5 ha5 s0 hs0 s1 hs1) K } := by
  refine ⟨?_, ?_, ?_, ?_, ?_, fun E K => ?run⟩
  case run =>
    simp only [cc1__gcn_stats_kernel_eq_skeleton]; unfold cc1__gcn_stats_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, Hk⟩
    obtain rfl := ha0.eq_unread hf0; obtain rfl := ha1.eq_unread hf1; obtain rfl := ha2.eq_unread hf2
    obtain rfl := hs0.eq_unread hg0; obtain rfl := hs1.eq_unread hg1
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

/-! ## Each buffer's stores tile it -/

theorem cover1_A_L3 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S10000x64.Idx) :
    ∃ pc ∈ (kernelRun1_A c i a0 ha0 a1 ha1 a2 ha2 a3 ha3 a4 ha4 a5 ha5 s0 hs0 s1 hs1 hc x0 x1 x2).1, y ∈ pc.1.set :=
  View.cover_of_tiledL (kernelRun1_A c i a0 ha0 a1 ha1 a2 ha2 a3 ha3 a4 ha4 a5 ha5 s0 hs0 s1 hs1 hc x0 x1 x2).1 S10000x64.size (by sl_kernel_rfl) y
theorem cover1_A_L4 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S1x64.Idx) :
    ∃ pc ∈ (kernelRun1_A c i a0 ha0 a1 ha1 a2 ha2 a3 ha3 a4 ha4 a5 ha5 s0 hs0 s1 hs1 hc x0 x1 x2).2.1, y ∈ pc.1.set :=
  View.cover_of_tiledL (kernelRun1_A c i a0 ha0 a1 ha1 a2 ha2 a3 ha3 a4 ha4 a5 ha5 s0 hs0 s1 hs1 hc x0 x1 x2).2.1 S1x64.size (by sl_kernel_rfl) y
theorem cover1_A_L5 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S1x64.Idx) :
    ∃ pc ∈ (kernelRun1_A c i a0 ha0 a1 ha1 a2 ha2 a3 ha3 a4 ha4 a5 ha5 s0 hs0 s1 hs1 hc x0 x1 x2).2.2.1, y ∈ pc.1.set :=
  View.cover_of_tiledL (kernelRun1_A c i a0 ha0 a1 ha1 a2 ha2 a3 ha3 a4 ha4 a5 ha5 s0 hs0 s1 hs1 hc x0 x1 x2).2.2.1 S1x64.size (by sl_kernel_rfl) y
theorem cover1_A_LS0 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S1x64.Idx) :
    ∃ pc ∈ (kernelRun1_A c i a0 ha0 a1 ha1 a2 ha2 a3 ha3 a4 ha4 a5 ha5 s0 hs0 s1 hs1 hc x0 x1 x2).2.2.2.1, y ∈ pc.1.set :=
  View.cover_of_tiledL (kernelRun1_A c i a0 ha0 a1 ha1 a2 ha2 a3 ha3 a4 ha4 a5 ha5 s0 hs0 s1 hs1 hc x0 x1 x2).2.2.2.1 S1x64.size (by sl_kernel_rfl) y
theorem cover1_A_LS1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) (y : S1x64.Idx) :
    ∃ pc ∈ (kernelRun1_A c i a0 ha0 a1 ha1 a2 ha2 a3 ha3 a4 ha4 a5 ha5 s0 hs0 s1 hs1 hc x0 x1 x2).2.2.2.2.1, y ∈ pc.1.set :=
  View.cover_of_tiledL (kernelRun1_A c i a0 ha0 a1 ha1 a2 ha2 a3 ha3 a4 ha4 a5 ha5 s0 hs0 s1 hs1 hc x0 x1 x2).2.2.2.2.1 S1x64.size (by sl_kernel_rfl) y
theorem cover1_B_L3 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S10000x64.Idx) :
    ∃ pc ∈ (kernelRun1_B c i a0 ha0 a1 ha1 a2 ha2 a3 ha3 a4 ha4 a5 ha5 s0 hs0 s1 hs1 hc x0 x1 x2 p0 p1).1, y ∈ pc.1.set :=
  View.cover_of_tiledL (kernelRun1_B c i a0 ha0 a1 ha1 a2 ha2 a3 ha3 a4 ha4 a5 ha5 s0 hs0 s1 hs1 hc x0 x1 x2 p0 p1).1 S10000x64.size (by sl_kernel_rfl) y
theorem cover1_B_L4 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S1x64.Idx) :
    ∃ pc ∈ (kernelRun1_B c i a0 ha0 a1 ha1 a2 ha2 a3 ha3 a4 ha4 a5 ha5 s0 hs0 s1 hs1 hc x0 x1 x2 p0 p1).2.1, y ∈ pc.1.set :=
  View.cover_of_tiledL (kernelRun1_B c i a0 ha0 a1 ha1 a2 ha2 a3 ha3 a4 ha4 a5 ha5 s0 hs0 s1 hs1 hc x0 x1 x2 p0 p1).2.1 S1x64.size (by sl_kernel_rfl) y
theorem cover1_B_L5 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S1x64.Idx) :
    ∃ pc ∈ (kernelRun1_B c i a0 ha0 a1 ha1 a2 ha2 a3 ha3 a4 ha4 a5 ha5 s0 hs0 s1 hs1 hc x0 x1 x2 p0 p1).2.2.1, y ∈ pc.1.set :=
  View.cover_of_tiledL (kernelRun1_B c i a0 ha0 a1 ha1 a2 ha2 a3 ha3 a4 ha4 a5 ha5 s0 hs0 s1 hs1 hc x0 x1 x2 p0 p1).2.2.1 S1x64.size (by sl_kernel_rfl) y
theorem cover1_B_LS0 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S1x64.Idx) :
    ∃ pc ∈ (kernelRun1_B c i a0 ha0 a1 ha1 a2 ha2 a3 ha3 a4 ha4 a5 ha5 s0 hs0 s1 hs1 hc x0 x1 x2 p0 p1).2.2.2.1, y ∈ pc.1.set :=
  View.cover_of_tiledL (kernelRun1_B c i a0 ha0 a1 ha1 a2 ha2 a3 ha3 a4 ha4 a5 ha5 s0 hs0 s1 hs1 hc x0 x1 x2 p0 p1).2.2.2.1 S1x64.size (by sl_kernel_rfl) y
theorem cover1_B_LS1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) (y : S1x64.Idx) :
    ∃ pc ∈ (kernelRun1_B c i a0 ha0 a1 ha1 a2 ha2 a3 ha3 a4 ha4 a5 ha5 s0 hs0 s1 hs1 hc x0 x1 x2 p0 p1).2.2.2.2.1, y ∈ pc.1.set :=
  View.cover_of_tiledL (kernelRun1_B c i a0 ha0 a1 ha1 a2 ha2 a3 ha3 a4 ha4 a5 ha5 s0 hs0 s1 hs1 hc x0 x1 x2 p0 p1).2.2.2.2.1 S1x64.size (by sl_kernel_rfl) y

/-- What the first point leaves: the three outputs, then the two scratch rows. -/
def resA1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) : (Vec F S10000x64 .f32 × Vec F S1x64 .f32 × Vec F S1x64 .f32) × (Vec F S1x64 .f32 × Vec F S1x64 .f32) :=
  ((View.canon (kernelRun1_A c i a0 ha0 a1 ha1 a2 ha2 a3 ha3 a4 ha4 a5 ha5 s0 hs0 s1 hs1 hc x0 x1 x2).1, View.canon (kernelRun1_A c i a0 ha0 a1 ha1 a2 ha2 a3 ha3 a4 ha4 a5 ha5 s0 hs0 s1 hs1 hc x0 x1 x2).2.1, View.canon (kernelRun1_A c i a0 ha0 a1 ha1 a2 ha2 a3 ha3 a4 ha4 a5 ha5 s0 hs0 s1 hs1 hc x0 x1 x2).2.2.1), (View.canon (kernelRun1_A c i a0 ha0 a1 ha1 a2 ha2 a3 ha3 a4 ha4 a5 ha5 s0 hs0 s1 hs1 hc x0 x1 x2).2.2.2.1, View.canon (kernelRun1_A c i a0 ha0 a1 ha1 a2 ha2 a3 ha3 a4 ha4 a5 ha5 s0 hs0 s1 hs1 hc x0 x1 x2).2.2.2.2.1))
/-- What a later point leaves, from the scratch rows `p0`, `p1` it finds. -/
def resB1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) : (Vec F S10000x64 .f32 × Vec F S1x64 .f32 × Vec F S1x64 .f32) × (Vec F S1x64 .f32 × Vec F S1x64 .f32) :=
  ((View.canon (kernelRun1_B c i a0 ha0 a1 ha1 a2 ha2 a3 ha3 a4 ha4 a5 ha5 s0 hs0 s1 hs1 hc x0 x1 x2 p0 p1).1, View.canon (kernelRun1_B c i a0 ha0 a1 ha1 a2 ha2 a3 ha3 a4 ha4 a5 ha5 s0 hs0 s1 hs1 hc x0 x1 x2 p0 p1).2.1, View.canon (kernelRun1_B c i a0 ha0 a1 ha1 a2 ha2 a3 ha3 a4 ha4 a5 ha5 s0 hs0 s1 hs1 hc x0 x1 x2 p0 p1).2.2.1), (View.canon (kernelRun1_B c i a0 ha0 a1 ha1 a2 ha2 a3 ha3 a4 ha4 a5 ha5 s0 hs0 s1 hs1 hc x0 x1 x2 p0 p1).2.2.2.1, View.canon (kernelRun1_B c i a0 ha0 a1 ha1 a2 ha2 a3 ha3 a4 ha4 a5 ha5 s0 hs0 s1 hs1 hc x0 x1 x2 p0 p1).2.2.2.2.1))

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What the outputs and the scratch rows hold after each point -/

/-- THE ACCUMULATION: after point 0 what the first case leaves; after point `n + 1` what the other case leaves from the
    scratch rows as point `n` left them. -/
def outsAt1 (c : Dev nD) : (n : ℕ) → n < cfg1.N → (Vec F S10000x64 .f32 × Vec F S1x64 .f32 × Vec F S1x64 .f32) × (Vec F S1x64 .f32 × Vec F S1x64 .f32)
  | 0, hn => resA1 c (grid1.coords ⟨0, hn⟩) (st1_0 ⟨0, hn⟩) (hst1_0 ⟨0, hn⟩) (st1_1 ⟨0, hn⟩) (hst1_1 ⟨0, hn⟩) (st1_2 ⟨0, hn⟩) (hst1_2 ⟨0, hn⟩) (st1_3 ⟨0, hn⟩) (hst1_3 ⟨0, hn⟩) (st1_4 ⟨0, hn⟩) (hst1_4 ⟨0, hn⟩) (st1_5 ⟨0, hn⟩) (hst1_5 ⟨0, hn⟩) sc1_0 (Memref.isWhole_whole _) sc1_1 (Memref.isWhole_whole _) ((hcond1 ⟨0, hn⟩).mpr rfl) (iblk1 V c 0 ⟨0, hn⟩) (iblk1 V c 1 ⟨0, hn⟩) (iblk1 V c 2 ⟨0, hn⟩)
  | n + 1, hn => resB1 c (grid1.coords ⟨n + 1, hn⟩) (st1_0 ⟨n + 1, hn⟩) (hst1_0 ⟨n + 1, hn⟩) (st1_1 ⟨n + 1, hn⟩) (hst1_1 ⟨n + 1, hn⟩) (st1_2 ⟨n + 1, hn⟩) (hst1_2 ⟨n + 1, hn⟩) (st1_3 ⟨n + 1, hn⟩) (hst1_3 ⟨n + 1, hn⟩) (st1_4 ⟨n + 1, hn⟩) (hst1_4 ⟨n + 1, hn⟩) (st1_5 ⟨n + 1, hn⟩) (hst1_5 ⟨n + 1, hn⟩) sc1_0 (Memref.isWhole_whole _) sc1_1 (Memref.isWhole_whole _) (fun h => Nat.succ_ne_zero n ((hcond1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2

theorem outsAt1_A (c : Dev nD) (t : Fin cfg1.N) (hz : t.val = 0) :
    outsAt1 V c t.val t.isLt = resA1 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t) := by
  obtain ⟨n, hn⟩ := t
  cases n with
  | zero => rfl
  | succ n => exact absurd hz (Nat.succ_ne_zero n)

theorem outsAt1_B (c : Dev nD) (t : Fin cfg1.N) (hz : ¬t.val = 0) :
    outsAt1 V c t.val t.isLt = resB1 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2 := by
  obtain ⟨n, hn⟩ := t
  cases n with
  | zero => exact absurd rfl hz
  | succ n => rfl

/-- The region's invariant before position `n`: before the first point the launch's; afterwards the two scratch rows at what
    the point before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) sc1_0 fullShare ((outsAt1 V c n hn).2.1) ∗ owns (c : Thread nD τ) sc1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(iprop(owns (c : Thread nD τ) sc1_0 fullShare ((outsAt1 V c n hn).2.1) ∗ owns (c : Thread nD τ) sc1_1 fullShare ((outsAt1 V c n hn).2.2))
      ∗ Pipeline.scopedRestBut (Ix := Unit) (Name := ℕ) (U := UR sig nD τ) (Lvl := ℕ) (Val := Elt F) spec1 c [cc1_scratch0, cc1_scratch1]) ∗ (∃ r, prngReg c r)) := rfl
theorem PhiS1_pos (c : Dev nD) (n : ℕ) (h : n ≤ cfg1.N) (hz : n ≠ 0) :
    PhiS1 V c n h = iprop(iprop(iprop(owns (c : Thread nD τ) sc1_0 fullShare ((outsAt1 V c (n - 1) (by omega)).2.1) ∗ owns (c : Thread nD τ) sc1_1 fullShare ((outsAt1 V c (n - 1) (by omega)).2.2))
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1.1
    | ⟨4, _⟩ => (outsAt1 V c t.val t.isLt).1.2.1
    | ⟨5, _⟩ => (outsAt1 V c t.val t.isLt).1.2.2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1.1 := by dsimp only [dat1]
theorem after1_4 (c : Dev nD) (t : Fin cfg1.N) : (dat1 V c).after 4 t = (outsAt1 V c t.val t.isLt).1.2.1 := by dsimp only [dat1]
theorem after1_5 (c : Dev nD) (t : Fin cfg1.N) : (dat1 V c).after 5 t = (outsAt1 V c t.val t.isLt).1.2.2 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

theorem leaves1_0 (c : Dev nD) (t : Fin cfg1.N) : ((dat1 V c).leavesExact 0 t : sProp 𝕄) = owns (c : Thread nD τ) (st1_0 t) fullShare ((dat1 V c).after 0 t) := by
  unfold Dat.leavesExact; rw [liveAt1_0 t]
theorem leaves1_1 (c : Dev nD) (t : Fin cfg1.N) : ((dat1 V c).leavesExact 1 t : sProp 𝕄) = owns (c : Thread nD τ) (st1_1 t) fullShare ((dat1 V c).after 1 t) := by
  unfold Dat.leavesExact; rw [liveAt1_1 t]
theorem leaves1_2 (c : Dev nD) (t : Fin cfg1.N) : ((dat1 V c).leavesExact 2 t : sProp 𝕄) = owns (c : Thread nD τ) (st1_2 t) fullShare ((dat1 V c).after 2 t) := by
  unfold Dat.leavesExact; rw [liveAt1_2 t]
theorem leaves1_3 (c : Dev nD) (t : Fin cfg1.N) : ((dat1 V c).leavesExact 3 t : sProp 𝕄) = owns (c : Thread nD τ) (st1_3 t) fullShare ((dat1 V c).after 3 t) := by
  unfold Dat.leavesExact; rw [liveAt1_3 t]
theorem leaves1_4 (c : Dev nD) (t : Fin cfg1.N) : ((dat1 V c).leavesExact 4 t : sProp 𝕄) = owns (c : Thread nD τ) (st1_4 t) fullShare ((dat1 V c).after 4 t) := by
  unfold Dat.leavesExact; rw [liveAt1_4 t]
theorem leaves1_5 (c : Dev nD) (t : Fin cfg1.N) : ((dat1 V c).leavesExact 5 t : sProp 𝕄) = owns (c : Thread nD τ) (st1_5 t) fullShare ((dat1 V c).after 5 t) := by
  unfold Dat.leavesExact; rw [liveAt1_5 t]

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5,
    after1_0, after1_1, after1_2, after1_3, after1_4, after1_5]
  by_cases hz : t.val = 0
  · rw [outsAt1_A V c t hz]
    unfold resA1; (try dsimp only)
    rw [PhiS1_castSucc V c t, PhiS1_zero V c _ _ hz, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover1_A_LS0 c _ _ _ _ _ _ _ _ _ _ _ _ _ _ _ _ _ _ _ _ _)
          · unfold owns; iexists _; isplitr
            swap; · iexact HS1
            ipureintro; exact View.read_writes_eq_canon _ _ _ (cover1_A_LS1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover1_A_L3 c _ _ _ _ _ _ _ _ _ _ _ _ _ _ _ _ _ _ _ _ _)
    isplitl [H4]
    · unfold owns; iexists _; isplitr
      swap; · iexact H4
      ipureintro; exact View.read_writes_eq_canon _ _ _ (cover1_A_L4 c _ _ _ _ _ _ _ _ _ _ _ _ _ _ _ _ _ _ _ _ _)
    · unfold owns; iexists _; isplitr
      swap; · iexact H5
      ipureintro; exact View.read_writes_eq_canon _ _ _ (cover1_A_L5 c _ _ _ _ _ _ _ _ _ _ _ _ _ _ _ _ _ _ _ _ _)
  · rw [outsAt1_B V c t hz]
    unfold resB1; (try dsimp only)
    rw [PhiS1_castSucc V c t, PhiS1_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun1_B c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover1_B_LS0 c _ _ _ _ _ _ _ _ _ _ _ _ _ _ _ _ _ _ _ _ _ _ _)
          · unfold owns; iexists _; isplitr
            swap; · iexact HS1
            ipureintro; exact View.read_writes_eq_canon _ _ _ (cover1_B_LS1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover1_B_L3 c _ _ _ _ _ _ _ _ _ _ _ _ _ _ _ _ _ _ _ _ _ _ _)
    isplitl [H4]
    · unfold owns; iexists _; isplitr
      swap; · iexact H4
      ipureintro; exact View.read_writes_eq_canon _ _ _ (cover1_B_L4 c _ _ _ _ _ _ _ _ _ _ _ _ _ _ _ _ _ _ _ _ _ _ _)
    · unfold owns; iexists _; isplitr
      swap; · iexact H5
      ipureintro; exact View.read_writes_eq_canon _ _ _ (cover1_B_L5 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the scratch rows' contents are forgotten. -/
theorem hout1 (c : Dev nD) : (dat1 V c).Φ (Fin.last cfg1.N) ⊢ (Pipeline.ΦA spec1 c : sProp 𝕄) := by
  have hN : cfg1.N = 10 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KI.R2.lean ====
/-
  Region 2 of @main (custom_call 2, the kernel `cc2__gcn_normalize_kernel`), at any float instance: at every grid point the
  body loads its input blocks whole, computes one value from them and stores it whole into the output block. Hence
  the output block after the body is one function of the input blocks (`out2_6`), each input block is left
  as found, and the pipeline's obligation on the body holds at every point.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not (when it is not fetched
    its block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not (when it is not fetched
    its block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not (when it is not fetched
    its block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not (when it is not fetched
    its block index has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not (when it is not fetched
    its block index has not moved). -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds its block at every point, fetched there or not (when it is not fetched
    its block index has not moved). -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the store take the whole block -/

abbrev r2_0 : Rect S10000x64 := Rect.unit (s := S10000x64) ![0, 0] S10000x64.size inb_S10000x64_S10000x64_0_0
abbrev r2_1 : Rect S10000x64 := Rect.unit (s := S10000x64) ![0, 0] S10000x64.size inb_S10000x64_S10000x64_0_0
abbrev r2_2 : Rect S1x64 := Rect.unit (s := S1x64) ![0, 0] S1x64.size inb_S1x64_S1x64_0_0
abbrev r2_3 : Rect S1x64 := Rect.unit (s := S1x64) ![0, 0] S1x64.size inb_S1x64_S1x64_0_0
abbrev r2_4 : Rect S1x64 := Rect.unit (s := S1x64) ![0, 0] S1x64.size inb_S1x64_S1x64_0_0
abbrev r2_5 : Rect S1x64 := Rect.unit (s := S1x64) ![0, 0] S1x64.size inb_S1x64_S1x64_0_0
abbrev r2_6 : Rect S10000x64 := Rect.unit (s := S10000x64) ![0, 0] S10000x64.size inb_S10000x64_S10000x64_0_0

/-- The output block after the body, as a function of the input blocks: the one store's value. -/
def out2_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r2_6, k2_pay1 (View.ld x0 r2_0) (View.ld x2 r2_2) (View.ld x3 r2_3) (View.ld x4 r2_4) (View.ld x5 r2_5) (View.ld x1 r2_1)⟩]

/-- The one store covers the block. -/
theorem cover2_6 (p0 : Vec F S10000x64 .f32) (y : S10000x64.Idx) :
    ∃ pc ∈ ([⟨r2_6, p0⟩] : List (View.Piece (Elt F) S10000x64 .f32)), y ∈ pc.1.set :=
  View.cover_of_tiled [⟨r2_6, p0⟩] S10000x64.size (by rfl) y

/-! ## The body's triple -/

set_option maxHeartbeats 4000000 in
/-- The body on whole staging memrefs, the inputs' at contents `x` and the output's at anything, runs to the
    continuation with the inputs' as they were and the output's at `out2_6` of them. -/
theorem sound_kernel2 (c : Dev nD) (E : Set ℕ) (i : grid2.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out2_6 x0 x1 x2 x3 x4 x5)) -∗ K ⟨⟩))
      ⊢ wp frame (wpE (defs₀ (F := F)) Variants.none c none) E (cc2__gcn_normalize_kernel i a0 ha0 a1 ha1 a2 ha2 a3 ha3 a4 ha4 a5 ha5 a6 ha6) K := by
  simp only [cc2__gcn_normalize_kernel_eq_skeleton]; unfold cc2__gcn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The pipeline's proof data -/

/-- The arrays as the region finds them; after the body at point `t` each input's buffer at its block and the
    output's at `out2_6` of the input blocks; the invariant is the scoped rest and the generator register,
    untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.R3.lean ====
/-
  Region 3 of @main (custom_call 3, `cc3__gcn_stats_kernel`), at any float instance. The body, at every grid point: at the first point
  only it clears two scratch rows; it then loads the two input blocks and the weights whole, stores the combined block whole,
  adds the block's column sums and column sums of squares to the two scratch rows, and copies the scratch rows whole to
  the two small outputs. The scratch rows are carried from point to point: what the outputs and the scratch hold after
  point `n` is defined by recursion on `n` (`outsAt3`), the first point from cleared rows and every later point from what
  the point before left; the region's invariant after point `n` holds the two scratch rows at those contents.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point is the only one that clears the scratch rows -/

/-- The body's one conditional, from the grid coordinates. -/
abbrev cond3 (i : grid3.Coords) : Prop := (Scalar.cmpi .ne (Scalar.extui (Scalar.cmpi .eq (BitVec.ofNat 32 (i 0).val) 0#32)) 0#32) = 1#1
/-- It holds at the first point only — decided over the grid. -/
theorem hcond3 : ∀ t : Fin cfg3.N, cond3 (grid3.coords t) ↔ t.val = 0 :=
  (by decide +kernel : ∀ t : Fin grid3.N, cond3 (grid3.coords t) ↔ t.val = 0)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
theorem liveAt3_4 : ∀ t : Fin cfg3.N, cfg3.idle 4 (grid3.coords t) = false := by decide +kernel
theorem liveAt3_5 : ∀ t : Fin cfg3.N, cfg3.idle 5 (grid3.coords t) = false := by decide +kernel

abbrev sc3_0 : Memref sig .tc .vmem S1x64 .f32 := Memref.whole cc3_scratch0
abbrev sc3_1 : Memref sig .tc .vmem S1x64 .f32 := Memref.whole cc3_scratch1
abbrev hst3_0 (t : Fin cfg3.N) : (st3_0 t).IsWhole := hstage3_0 ((cfg3.slots t 0).cast nbuf3_0)
abbrev hst3_1 (t : Fin cfg3.N) : (st3_1 t).IsWhole := hstage3_1 ((cfg3.slots t 1).cast nbuf3_1)
abbrev hst3_2 (t : Fin cfg3.N) : (st3_2 t).IsWhole := hstage3_2 ((cfg3.slots t 2).cast nbuf3_2)
abbrev hst3_3 (t : Fin cfg3.N) : (st3_3 t).IsWhole := hstage3_3 ((cfg3.slots t 3).cast nbuf3_3)
abbrev hst3_4 (t : Fin cfg3.N) : (st3_4 t).IsWhole := hstage3_4 ((cfg3.slots t 4).cast nbuf3_4)
abbrev hst3_5 (t : Fin cfg3.N) : (st3_5 t).IsWhole := hstage3_5 ((cfg3.slots t 5).cast nbuf3_5)

/-- The region's invariant as the launch hands it over: the two scratch rows at some contents, the other scoped buffers
    unopened, the generator register at some state. -/
theorem PhiA3_eq (c : Dev nD) :
    (Pipeline.ΦA spec3 c : sProp 𝕄)
      = iprop(iprop(iprop((∃ d, owns (c : Thread nD τ) sc3_0 fullShare d) ∗ (∃ d, owns (c : Thread nD τ) sc3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [sc3_0, sc3_1, owns_whole]; try rfl

/-! ## The body's run, in its two cases: the stores as pieces, found by running it -/

set_option maxHeartbeats 8000000 in
/-- THE FIRST POINT (the conditional taken): the scratch rows found at anything. -/
noncomputable def kernelRun3_A (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ (∃ d, owns (c : Thread nD τ) s0 fullShare d) ∗ (∃ d, owns (c : Thread nD τ) s1 fullShare d)
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc3__gcn_stats_kernel i a0 ha0 a1 ha1 a2 ha2 a3 ha3 a4 ha4 a5 ha5 s0 hs0 s1 hs1) K } := by
  refine ⟨?_, ?_, ?_, ?_, ?_, fun E K => ?run⟩
  case run =>
    simp only [cc3__gcn_stats_kernel_eq_skeleton]; unfold cc3__gcn_stats_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %g0, -, S0⟩, ⟨%e1, %g1, -, S1⟩, Hk⟩
    obtain rfl := ha0.eq_unread hf0; obtain rfl := ha1.eq_unread hf1; obtain rfl := ha2.eq_unread hf2
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

set_option maxHeartbeats 8000000 in
/-- EVERY LATER POINT (the conditional not taken): the scratch rows found at what the point before left, `p0` and `p1`. -/
noncomputable def kernelRun3_B (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ owns (c : Thread nD τ) s0 fullShare p0 ∗ owns (c : Thread nD τ) s1 fullShare p1
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc3__gcn_stats_kernel i a0 ha0 a1 ha1 a2 ha2 a3 ha3 a4 ha4 a5 ha5 s0 hs0 s1 hs1) K } := by
  refine ⟨?_, ?_, ?_, ?_, ?_, fun E K => ?run⟩
  case run =>
    simp only [cc3__gcn_stats_kernel_eq_skeleton]; unfold cc3__gcn_stats_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, Hk⟩
    obtain rfl := ha0.eq_unread hf0; obtain rfl := ha1.eq_unread hf1; obtain rfl := ha2.eq_unread hf2
    obtain rfl := hs0.eq_unread hg0; obtain rfl := hs1.eq_unread hg1
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

/-! ## Each buffer's stores tile it -/

theorem cover3_A_L3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S10000x64.Idx) :
    ∃ pc ∈ (kernelRun3_A c i a0 ha0 a1 ha1 a2 ha2 a3 ha3 a4 ha4 a5 ha5 s0 hs0 s1 hs1 hc x0 x1 x2).1, y ∈ pc.1.set :=
  View.cover_of_tiledL (kernelRun3_A c i a0 ha0 a1 ha1 a2 ha2 a3 ha3 a4 ha4 a5 ha5 s0 hs0 s1 hs1 hc x0 x1 x2).1 S10000x64.size (by sl_kernel_rfl) y
theorem cover3_A_L4 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S1x64.Idx) :
    ∃ pc ∈ (kernelRun3_A c i a0 ha0 a1 ha1 a2 ha2 a3 ha3 a4 ha4 a5 ha5 s0 hs0 s1 hs1 hc x0 x1 x2).2.1, y ∈ pc.1.set :=
  View.cover_of_tiledL (kernelRun3_A c i a0 ha0 a1 ha1 a2 ha2 a3 ha3 a4 ha4 a5 ha5 s0 hs0 s1 hs1 hc x0 x1 x2).2.1 S1x64.size (by sl_kernel_rfl) y
theorem cover3_A_L5 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S1x64.Idx) :
    ∃ pc ∈ (kernelRun3_A c i a0 ha0 a1 ha1 a2 ha2 a3 ha3 a4 ha4 a5 ha5 s0 hs0 s1 hs1 hc x0 x1 x2).2.2.1, y ∈ pc.1.set :=
  View.cover_of_tiledL (kernelRun3_A c i a0 ha0 a1 ha1 a2 ha2 a3 ha3 a4 ha4 a5 ha5 s0 hs0 s1 hs1 hc x0 x1 x2).2.2.1 S1x64.size (by sl_kernel_rfl) y
theorem cover3_A_LS0 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S1x64.Idx) :
    ∃ pc ∈ (kernelRun3_A c i a0 ha0 a1 ha1 a2 ha2 a3 ha3 a4 ha4 a5 ha5 s0 hs0 s1 hs1 hc x0 x1 x2).2.2.2.1, y ∈ pc.1.set :=
  View.cover_of_tiledL (kernelRun3_A c i a0 ha0 a1 ha1 a2 ha2 a3 ha3 a4 ha4 a5 ha5 s0 hs0 s1 hs1 hc x0 x1 x2).2.2.2.1 S1x64.size (by sl_kernel_rfl) y
theorem cover3_A_LS1 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) (y : S1x64.Idx) :
    ∃ pc ∈ (kernelRun3_A c i a0 ha0 a1 ha1 a2 ha2 a3 ha3 a4 ha4 a5 ha5 s0 hs0 s1 hs1 hc x0 x1 x2).2.2.2.2.1, y ∈ pc.1.set :=
  View.cover_of_tiledL (kernelRun3_A c i a0 ha0 a1 ha1 a2 ha2 a3 ha3 a4 ha4 a5 ha5 s0 hs0 s1 hs1 hc x0 x1 x2).2.2.2.2.1 S1x64.size (by sl_kernel_rfl) y
theorem cover3_B_L3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S10000x64.Idx) :
    ∃ pc ∈ (kernelRun3_B c i a0 ha0 a1 ha1 a2 ha2 a3 ha3 a4 ha4 a5 ha5 s0 hs0 s1 hs1 hc x0 x1 x2 p0 p1).1, y ∈ pc.1.set :=
  View.cover_of_tiledL (kernelRun3_B c i a0 ha0 a1 ha1 a2 ha2 a3 ha3 a4 ha4 a5 ha5 s0 hs0 s1 hs1 hc x0 x1 x2 p0 p1).1 S10000x64.size (by sl_kernel_rfl) y
theorem cover3_B_L4 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S1x64.Idx) :
    ∃ pc ∈ (kernelRun3_B c i a0 ha0 a1 ha1 a2 ha2 a3 ha3 a4 ha4 a5 ha5 s0 hs0 s1 hs1 hc x0 x1 x2 p0 p1).2.1, y ∈ pc.1.set :=
  View.cover_of_tiledL (kernelRun3_B c i a0 ha0 a1 ha1 a2 ha2 a3 ha3 a4 ha4 a5 ha5 s0 hs0 s1 hs1 hc x0 x1 x2 p0 p1).2.1 S1x64.size (by sl_kernel_rfl) y
theorem cover3_B_L5 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S1x64.Idx) :
    ∃ pc ∈ (kernelRun3_B c i a0 ha0 a1 ha1 a2 ha2 a3 ha3 a4 ha4 a5 ha5 s0 hs0 s1 hs1 hc x0 x1 x2 p0 p1).2.2.1, y ∈ pc.1.set :=
  View.cover_of_tiledL (kernelRun3_B c i a0 ha0 a1 ha1 a2 ha2 a3 ha3 a4 ha4 a5 ha5 s0 hs0 s1 hs1 hc x0 x1 x2 p0 p1).2.2.1 S1x64.size (by sl_kernel_rfl) y
theorem cover3_B_LS0 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S1x64.Idx) :
    ∃ pc ∈ (kernelRun3_B c i a0 ha0 a1 ha1 a2 ha2 a3 ha3 a4 ha4 a5 ha5 s0 hs0 s1 hs1 hc x0 x1 x2 p0 p1).2.2.2.1, y ∈ pc.1.set :=
  View.cover_of_tiledL (kernelRun3_B c i a0 ha0 a1 ha1 a2 ha2 a3 ha3 a4 ha4 a5 ha5 s0 hs0 s1 hs1 hc x0 x1 x2 p0 p1).2.2.2.1 S1x64.size (by sl_kernel_rfl) y
theorem cover3_B_LS1 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) (y : S1x64.Idx) :
    ∃ pc ∈ (kernelRun3_B c i a0 ha0 a1 ha1 a2 ha2 a3 ha3 a4 ha4 a5 ha5 s0 hs0 s1 hs1 hc x0 x1 x2 p0 p1).2.2.2.2.1, y ∈ pc.1.set :=
  View.cover_of_tiledL (kernelRun3_B c i a0 ha0 a1 ha1 a2 ha2 a3 ha3 a4 ha4 a5 ha5 s0 hs0 s1 hs1 hc x0 x1 x2 p0 p1).2.2.2.2.1 S1x64.size (by sl_kernel_rfl) y

/-- What the first point leaves: the three outputs, then the two scratch rows. -/
def resA3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) : (Vec F S10000x64 .f32 × Vec F S1x64 .f32 × Vec F S1x64 .f32) × (Vec F S1x64 .f32 × Vec F S1x64 .f32) :=
  ((View.canon (kernelRun3_A c i a0 ha0 a1 ha1 a2 ha2 a3 ha3 a4 ha4 a5 ha5 s0 hs0 s1 hs1 hc x0 x1 x2).1, View.canon (kernelRun3_A c i a0 ha0 a1 ha1 a2 ha2 a3 ha3 a4 ha4 a5 ha5 s0 hs0 s1 hs1 hc x0 x1 x2).2.1, View.canon (kernelRun3_A c i a0 ha0 a1 ha1 a2 ha2 a3 ha3 a4 ha4 a5 ha5 s0 hs0 s1 hs1 hc x0 x1 x2).2.2.1), (View.canon (kernelRun3_A c i a0 ha0 a1 ha1 a2 ha2 a3 ha3 a4 ha4 a5 ha5 s0 hs0 s1 hs1 hc x0 x1 x2).2.2.2.1, View.canon (kernelRun3_A c i a0 ha0 a1 ha1 a2 ha2 a3 ha3 a4 ha4 a5 ha5 s0 hs0 s1 hs1 hc x0 x1 x2).2.2.2.2.1))
/-- What a later point leaves, from the scratch rows `p0`, `p1` it finds. -/
def resB3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) : (Vec F S10000x64 .f32 × Vec F S1x64 .f32 × Vec F S1x64 .f32) × (Vec F S1x64 .f32 × Vec F S1x64 .f32) :=
  ((View.canon (kernelRun3_B c i a0 ha0 a1 ha1 a2 ha2 a3 ha3 a4 ha4 a5 ha5 s0 hs0 s1 hs1 hc x0 x1 x2 p0 p1).1, View.canon (kernelRun3_B c i a0 ha0 a1 ha1 a2 ha2 a3 ha3 a4 ha4 a5 ha5 s0 hs0 s1 hs1 hc x0 x1 x2 p0 p1).2.1, View.canon (kernelRun3_B c i a0 ha0 a1 ha1 a2 ha2 a3 ha3 a4 ha4 a5 ha5 s0 hs0 s1 hs1 hc x0 x1 x2 p0 p1).2.2.1), (View.canon (kernelRun3_B c i a0 ha0 a1 ha1 a2 ha2 a3 ha3 a4 ha4 a5 ha5 s0 hs0 s1 hs1 hc x0 x1 x2 p0 p1).2.2.2.1, View.canon (kernelRun3_B c i a0 ha0 a1 ha1 a2 ha2 a3 ha3 a4 ha4 a5 ha5 s0 hs0 s1 hs1 hc x0 x1 x2 p0 p1).2.2.2.2.1))

section
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## What the outputs and the scratch rows hold after each point -/

/-- THE ACCUMULATION: after point 0 what the first case leaves; after point `n + 1` what the other case leaves from the
    scratch rows as point `n` left them. -/
def outsAt3 (c : Dev nD) : (n : ℕ) → n < cfg3.N → (Vec F S10000x64 .f32 × Vec F S1x64 .f32 × Vec F S1x64 .f32) × (Vec F S1x64 .f32 × Vec F S1x64 .f32)
  | 0, hn => resA3 c (grid3.coords ⟨0, hn⟩) (st3_0 ⟨0, hn⟩) (hst3_0 ⟨0, hn⟩) (st3_1 ⟨0, hn⟩) (hst3_1 ⟨0, hn⟩) (st3_2 ⟨0, hn⟩) (hst3_2 ⟨0, hn⟩) (st3_3 ⟨0, hn⟩) (hst3_3 ⟨0, hn⟩) (st3_4 ⟨0, hn⟩) (hst3_4 ⟨0, hn⟩) (st3_5 ⟨0, hn⟩) (hst3_5 ⟨0, hn⟩) sc3_0 (Memref.isWhole_whole _) sc3_1 (Memref.isWhole_whole _) ((hcond3 ⟨0, hn⟩).mpr rfl) (iblk3 V c 0 ⟨0, hn⟩) (iblk3 V c 1 ⟨0, hn⟩) (iblk3 V c 2 ⟨0, hn⟩)
  | n + 1, hn => resB3 c (grid3.coords ⟨n + 1, hn⟩) (st3_0 ⟨n + 1, hn⟩) (hst3_0 ⟨n + 1, hn⟩) (st3_1 ⟨n + 1, hn⟩) (hst3_1 ⟨n + 1, hn⟩) (st3_2 ⟨n + 1, hn⟩) (hst3_2 ⟨n + 1, hn⟩) (st3_3 ⟨n + 1, hn⟩) (hst3_3 ⟨n + 1, hn⟩) (st3_4 ⟨n + 1, hn⟩) (hst3_4 ⟨n + 1, hn⟩) (st3_5 ⟨n + 1, hn⟩) (hst3_5 ⟨n + 1, hn⟩) sc3_0 (Memref.isWhole_whole _) sc3_1 (Memref.isWhole_whole _) (fun h => Nat.succ_ne_zero n ((hcond3 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2

theorem outsAt3_A (c : Dev nD) (t : Fin cfg3.N) (hz : t.val = 0) :
    outsAt3 V c t.val t.isLt = resA3 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t) := by
  obtain ⟨n, hn⟩ := t
  cases n with
  | zero => rfl
  | succ n => exact absurd hz (Nat.succ_ne_zero n)

theorem outsAt3_B (c : Dev nD) (t : Fin cfg3.N) (hz : ¬t.val = 0) :
    outsAt3 V c t.val t.isLt = resB3 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2 := by
  obtain ⟨n, hn⟩ := t
  cases n with
  | zero => exact absurd rfl hz
  | succ n => rfl

/-- The region's invariant before position `n`: before the first point the launch's; afterwards the two scratch rows at what
    the point before left, the other scoped buffers unopened, the generator register at some state. -/
def PhiS3 (c : Dev nD) : (n : ℕ) → n ≤ cfg3.N → sProp 𝕄
  | 0, _ => Pipeline.ΦA spec3 c
  | n + 1, hn => iprop(iprop(iprop(owns (c : Thread nD τ) sc3_0 fullShare ((outsAt3 V c n hn).2.1) ∗ owns (c : Thread nD τ) sc3_1 fullShare ((outsAt3 V c n hn).2.2))
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl
theorem PhiS3_succ (c : Dev nD) (n : ℕ) (hn : n < cfg3.N) :
    PhiS3 V c (n + 1) hn = iprop(iprop(iprop(owns (c : Thread nD τ) sc3_0 fullShare ((outsAt3 V c n hn).2.1) ∗ owns (c : Thread nD τ) sc3_1 fullShare ((outsAt3 V c n hn).2.2))
      ∗ Pipeline.scopedRestBut (Ix := Unit) (Name := ℕ) (U := UR sig nD τ) (Lvl := ℕ) (Val := Elt F) spec3 c [cc3_scratch0, cc3_scratch1]) ∗ (∃ r, prngReg c r)) := rfl
theorem PhiS3_pos (c : Dev nD) (n : ℕ) (h : n ≤ cfg3.N) (hz : n ≠ 0) :
    PhiS3 V c n h = iprop(iprop(iprop(owns (c : Thread nD τ) sc3_0 fullShare ((outsAt3 V c (n - 1) (by omega)).2.1) ∗ owns (c : Thread nD τ) sc3_1 fullShare ((outsAt3 V c (n - 1) (by omega)).2.2))
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1.1
    | ⟨4, _⟩ => (outsAt3 V c t.val t.isLt).1.2.1
    | ⟨5, _⟩ => (outsAt3 V c t.val t.isLt).1.2.2
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1.1 := by dsimp only [dat3]
theorem after3_4 (c : Dev nD) (t : Fin cfg3.N) : (dat3 V c).after 4 t = (outsAt3 V c t.val t.isLt).1.2.1 := by dsimp only [dat3]
theorem after3_5 (c : Dev nD) (t : Fin cfg3.N) : (dat3 V c).after 5 t = (outsAt3 V c t.val t.isLt).1.2.2 := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

theorem leaves3_0 (c : Dev nD) (t : Fin cfg3.N) : ((dat3 V c).leavesExact 0 t : sProp 𝕄) = owns (c : Thread nD τ) (st3_0 t) fullShare ((dat3 V c).after 0 t) := by
  unfold Dat.leavesExact; rw [liveAt3_0 t]
theorem leaves3_1 (c : Dev nD) (t : Fin cfg3.N) : ((dat3 V c).leavesExact 1 t : sProp 𝕄) = owns (c : Thread nD τ) (st3_1 t) fullShare ((dat3 V c).after 1 t) := by
  unfold Dat.leavesExact; rw [liveAt3_1 t]
theorem leaves3_2 (c : Dev nD) (t : Fin cfg3.N) : ((dat3 V c).leavesExact 2 t : sProp 𝕄) = owns (c : Thread nD τ) (st3_2 t) fullShare ((dat3 V c).after 2 t) := by
  unfold Dat.leavesExact; rw [liveAt3_2 t]
theorem leaves3_3 (c : Dev nD) (t : Fin cfg3.N) : ((dat3 V c).leavesExact 3 t : sProp 𝕄) = owns (c : Thread nD τ) (st3_3 t) fullShare ((dat3 V c).after 3 t) := by
  unfold Dat.leavesExact; rw [liveAt3_3 t]
theorem leaves3_4 (c : Dev nD) (t : Fin cfg3.N) : ((dat3 V c).leavesExact 4 t : sProp 𝕄) = owns (c : Thread nD τ) (st3_4 t) fullShare ((dat3 V c).after 4 t) := by
  unfold Dat.leavesExact; rw [liveAt3_4 t]
theorem leaves3_5 (c : Dev nD) (t : Fin cfg3.N) : ((dat3 V c).leavesExact 5 t : sProp 𝕄) = owns (c : Thread nD τ) (st3_5 t) fullShare ((dat3 V c).after 5 t) := by
  unfold Dat.leavesExact; rw [liveAt3_5 t]

set_option maxHeartbeats 8000000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  rw [leaves3_0, leaves3_1, leaves3_2, leaves3_3, leaves3_4, leaves3_5,
    after3_0, after3_1, after3_2, after3_3, after3_4, after3_5]
  by_cases hz : t.val = 0
  · rw [outsAt3_A V c t hz]
    unfold resA3; (try dsimp only)
    rw [PhiS3_castSucc V c t, PhiS3_zero V c _ _ hz, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun3_A c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover3_A_LS0 c _ _ _ _ _ _ _ _ _ _ _ _ _ _ _ _ _ _ _ _ _)
          · unfold owns; iexists _; isplitr
            swap; · iexact HS1
            ipureintro; exact View.read_writes_eq_canon _ _ _ (cover3_A_LS1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover3_A_L3 c _ _ _ _ _ _ _ _ _ _ _ _ _ _ _ _ _ _ _ _ _)
    isplitl [H4]
    · unfold owns; iexists _; isplitr
      swap; · iexact H4
      ipureintro; exact View.read_writes_eq_canon _ _ _ (cover3_A_L4 c _ _ _ _ _ _ _ _ _ _ _ _ _ _ _ _ _ _ _ _ _)
    · unfold owns; iexists _; isplitr
      swap; · iexact H5
      ipureintro; exact View.read_writes_eq_canon _ _ _ (cover3_A_L5 c _ _ _ _ _ _ _ _ _ _ _ _ _ _ _ _ _ _ _ _ _)
  · rw [outsAt3_B V c t hz]
    unfold resB3; (try dsimp only)
    rw [PhiS3_castSucc V c t, PhiS3_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun3_B c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover3_B_LS0 c _ _ _ _ _ _ _ _ _ _ _ _ _ _ _ _ _ _ _ _ _ _ _)
          · unfold owns; iexists _; isplitr
            swap; · iexact HS1
            ipureintro; exact View.read_writes_eq_canon _ _ _ (cover3_B_LS1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover3_B_L3 c _ _ _ _ _ _ _ _ _ _ _ _ _ _ _ _ _ _ _ _ _ _ _)
    isplitl [H4]
    · unfold owns; iexists _; isplitr
      swap; · iexact H4
      ipureintro; exact View.read_writes_eq_canon _ _ _ (cover3_B_L4 c _ _ _ _ _ _ _ _ _ _ _ _ _ _ _ _ _ _ _ _ _ _ _)
    · unfold owns; iexists _; isplitr
      swap; · iexact H5
      ipureintro; exact View.read_writes_eq_canon _ _ _ (cover3_B_L5 c _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the launch's back: the scratch rows' contents are forgotten. -/
theorem hout3 (c : Dev nD) : (dat3 V c).Φ (Fin.last cfg3.N) ⊢ (Pipeline.ΦA spec3 c : sProp 𝕄) := by
  have hN : cfg3.N = 10 := N_3
  rw [show (dat3 V c).Φ (Fin.last cfg3.N) = PhiS3 V c (Fin.last cfg3.N).val (Nat.le_of_lt_succ (Fin.last cfg3.N).isLt) from rfl,
    PhiS3_pos V c _ _ (by rw [Fin.val_last]; omega), PhiA3_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KI.R4.lean ====
/-
  Region 4 of @main (custom_call 4, the kernel `cc4__gcn_normalize_kernel`), at any float instance: at every grid point the
  body loads its input blocks whole, computes one value from them and stores it whole into the output block. Hence
  the output block after the body is one function of the input blocks (`out4_6`), each input block is left
  as found, and the pipeline's obligation on the body holds at every point.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds its block at every point, fetched there or not (when it is not fetched
    its block index has not moved). -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds its block at every point, fetched there or not (when it is not fetched
    its block index has not moved). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds its block at every point, fetched there or not (when it is not fetched
    its block index has not moved). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds its block at every point, fetched there or not (when it is not fetched
    its block index has not moved). -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds its block at every point, fetched there or not (when it is not fetched
    its block index has not moved). -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's staging buffer holds its block at every point, fetched there or not (when it is not fetched
    its block index has not moved). -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: every load and the store take the whole block -/

abbrev r4_0 : Rect S10000x64 := Rect.unit (s := S10000x64) ![0, 0] S10000x64.size inb_S10000x64_S10000x64_0_0
abbrev r4_1 : Rect S10000x64 := Rect.unit (s := S10000x64) ![0, 0] S10000x64.size inb_S10000x64_S10000x64_0_0
abbrev r4_2 : Rect S1x64 := Rect.unit (s := S1x64) ![0, 0] S1x64.size inb_S1x64_S1x64_0_0
abbrev r4_3 : Rect S1x64 := Rect.unit (s := S1x64) ![0, 0] S1x64.size inb_S1x64_S1x64_0_0
abbrev r4_4 : Rect S1x64 := Rect.unit (s := S1x64) ![0, 0] S1x64.size inb_S1x64_S1x64_0_0
abbrev r4_5 : Rect S1x64 := Rect.unit (s := S1x64) ![0, 0] S1x64.size inb_S1x64_S1x64_0_0
abbrev r4_6 : Rect S10000x64 := Rect.unit (s := S10000x64) ![0, 0] S10000x64.size inb_S10000x64_S10000x64_0_0

/-- The output block after the body, as a function of the input blocks: the one store's value. -/
def out4_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r4_6, k4_pay1 (View.ld x0 r4_0) (View.ld x2 r4_2) (View.ld x3 r4_3) (View.ld x4 r4_4) (View.ld x5 r4_5) (View.ld x1 r4_1)⟩]

/-- The one store covers the block. -/
theorem cover4_6 (p0 : Vec F S10000x64 .f32) (y : S10000x64.Idx) :
    ∃ pc ∈ ([⟨r4_6, p0⟩] : List (View.Piece (Elt F) S10000x64 .f32)), y ∈ pc.1.set :=
  View.cover_of_tiled [⟨r4_6, p0⟩] S10000x64.size (by rfl) y

/-! ## The body's triple -/

set_option maxHeartbeats 4000000 in
/-- The body on whole staging memrefs, the inputs' at contents `x` and the output's at anything, runs to the
    continuation with the inputs' as they were and the output's at `out4_6` of them. -/
theorem sound_kernel4 (c : Dev nD) (E : Set ℕ) (i : grid4.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out4_6 x0 x1 x2 x3 x4 x5)) -∗ K ⟨⟩))
      ⊢ wp frame (wpE (defs₀ (F := F)) Variants.none c none) E (cc4__gcn_normalize_kernel i a0 ha0 a1 ha1 a2 ha2 a3 ha3 a4 ha4 a5 ha5 a6 ha6) K := by
  simp only [cc4__gcn_normalize_kernel_eq_skeleton]; unfold cc4__gcn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover4_6 _)

/-! ## The pipeline's proof data -/

/-- The arrays as the region finds them; after the body at point `t` each input's buffer at its block and the
    output's at `out4_6` of the input blocks; the invariant is the scoped rest and the generator register,
    untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = out4_6 (iblk4 V c 0 t) (iblk4 V c 1 t) (iblk4 V c 2 t) (iblk4 V c 3 t) (iblk4 V c 4 t) (iblk4 V c 5 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel4 c Set.univ _ _ _ _ _ _ _ _ _ _ _ _ _ _ _ (iblk4 V c 0 t) (iblk4 V c 1 t) (iblk4 V c 2 t) (iblk4 V c 3 t) (iblk4 V c 4 t) (iblk4 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

end

end Cert.KernelIdeal.Hand

end
-- ==== Proof.KI.R5.lean ====
/-
  Region 5 of @main (custom_call 5, `cc5__gcn_stats_kernel`), at any float instance. The body, at every grid point: at the first point
  only it clears two scratch rows; it then loads the two input blocks and the weights whole, stores the combined block whole,
  adds the block's column sums and column sums of squares to the two scratch rows, and copies the scratch rows whole to
  the two small outputs. The scratch rows are carried from point to point: what the outputs and the scratch hold after
  point `n` is defined by recursion on `n` (`outsAt5`), the first point from cleared rows and every later point from what
  the point before left; the region's invariant after point `n` holds the two scratch rows at those contents.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point is the only one that clears the scratch rows -/

/-- The body's one conditional, from the grid coordinates. -/
abbrev cond5 (i : grid5.Coords) : Prop := (Scalar.cmpi .ne (Scalar.extui (Scalar.cmpi .eq (BitVec.ofNat 32 (i 0).val) 0#32)) 0#32) = 1#1
/-- It holds at the first point only — decided over the grid. -/
theorem hcond5 : ∀ t : Fin cfg5.N, cond5 (grid5.coords t) ↔ t.val = 0 :=
  (by decide +kernel : ∀ t : Fin grid5.N, cond5 (grid5.coords t) ↔ t.val = 0)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
theorem liveAt5_4 : ∀ t : Fin cfg5.N, cfg5.idle 4 (grid5.coords t) = false := by decide +kernel
theorem liveAt5_5 : ∀ t : Fin cfg5.N, cfg5.idle 5 (grid5.coords t) = false := by decide +kernel

abbrev sc5_0 : Memref sig .tc .vmem S1x64 .f32 := Memref.whole cc5_scratch0
abbrev sc5_1 : Memref sig .tc .vmem S1x64 .f32 := Memref.whole cc5_scratch1
abbrev hst5_0 (t : Fin cfg5.N) : (st5_0 t).IsWhole := hstage5_0 ((cfg5.slots t 0).cast nbuf5_0)
abbrev hst5_1 (t : Fin cfg5.N) : (st5_1 t).IsWhole := hstage5_1 ((cfg5.slots t 1).cast nbuf5_1)
abbrev hst5_2 (t : Fin cfg5.N) : (st5_2 t).IsWhole := hstage5_2 ((cfg5.slots t 2).cast nbuf5_2)
abbrev hst5_3 (t : Fin cfg5.N) : (st5_3 t).IsWhole := hstage5_3 ((cfg5.slots t 3).cast nbuf5_3)
abbrev hst5_4 (t : Fin cfg5.N) : (st5_4 t).IsWhole := hstage5_4 ((cfg5.slots t 4).cast nbuf5_4)
abbrev hst5_5 (t : Fin cfg5.N) : (st5_5 t).IsWhole := hstage5_5 ((cfg5.slots t 5).cast nbuf5_5)

/-- The region's invariant as the launch hands it over: the two scratch rows at some contents, the other scoped buffers
    unopened, the generator register at some state. -/
theorem PhiA5_eq (c : Dev nD) :
    (Pipeline.ΦA spec5 c : sProp 𝕄)
      = iprop(iprop(iprop((∃ d, owns (c : Thread nD τ) sc5_0 fullShare d) ∗ (∃ d, owns (c : Thread nD τ) sc5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [sc5_0, sc5_1, owns_whole]; try rfl

/-! ## The body's run, in its two cases: the stores as pieces, found by running it -/

set_option maxHeartbeats 8000000 in
/-- THE FIRST POINT (the conditional taken): the scratch rows found at anything. -/
noncomputable def kernelRun5_A (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ (∃ d, owns (c : Thread nD τ) s0 fullShare d) ∗ (∃ d, owns (c : Thread nD τ) s1 fullShare d)
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc5__gcn_stats_kernel i a0 ha0 a1 ha1 a2 ha2 a3 ha3 a4 ha4 a5 ha5 s0 hs0 s1 hs1) K } := by
  refine ⟨?_, ?_, ?_, ?_, ?_, fun E K => ?run⟩
  case run =>
    simp only [cc5__gcn_stats_kernel_eq_skeleton]; unfold cc5__gcn_stats_kernel_skel
    simp only [k5_part1_eq_skeleton]; unfold k5_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %g0, -, S0⟩, ⟨%e1, %g1, -, S1⟩, Hk⟩
    obtain rfl := ha0.eq_unread hf0; obtain rfl := ha1.eq_unread hf1; obtain rfl := ha2.eq_unread hf2
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

set_option maxHeartbeats 8000000 in
/-- EVERY LATER POINT (the conditional not taken): the scratch rows found at what the point before left, `p0` and `p1`. -/
noncomputable def kernelRun5_B (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ owns (c : Thread nD τ) s0 fullShare p0 ∗ owns (c : Thread nD τ) s1 fullShare p1
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc5__gcn_stats_kernel i a0 ha0 a1 ha1 a2 ha2 a3 ha3 a4 ha4 a5 ha5 s0 hs0 s1 hs1) K } := by
  refine ⟨?_, ?_, ?_, ?_, ?_, fun E K => ?run⟩
  case run =>
    simp only [cc5__gcn_stats_kernel_eq_skeleton]; unfold cc5__gcn_stats_kernel_skel
    simp only [k5_part1_eq_skeleton]; unfold k5_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, Hk⟩
    obtain rfl := ha0.eq_unread hf0; obtain rfl := ha1.eq_unread hf1; obtain rfl := ha2.eq_unread hf2
    obtain rfl := hs0.eq_unread hg0; obtain rfl := hs1.eq_unread hg1
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

/-! ## Each buffer's stores tile it -/

theorem cover5_A_L3 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S10000x64.Idx) :
    ∃ pc ∈ (kernelRun5_A c i a0 ha0 a1 ha1 a2 ha2 a3 ha3 a4 ha4 a5 ha5 s0 hs0 s1 hs1 hc x0 x1 x2).1, y ∈ pc.1.set :=
  View.cover_of_tiledL (kernelRun5_A c i a0 ha0 a1 ha1 a2 ha2 a3 ha3 a4 ha4 a5 ha5 s0 hs0 s1 hs1 hc x0 x1 x2).1 S10000x64.size (by sl_kernel_rfl) y
theorem cover5_A_L4 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S1x64.Idx) :
    ∃ pc ∈ (kernelRun5_A c i a0 ha0 a1 ha1 a2 ha2 a3 ha3 a4 ha4 a5 ha5 s0 hs0 s1 hs1 hc x0 x1 x2).2.1, y ∈ pc.1.set :=
  View.cover_of_tiledL (kernelRun5_A c i a0 ha0 a1 ha1 a2 ha2 a3 ha3 a4 ha4 a5 ha5 s0 hs0 s1 hs1 hc x0 x1 x2).2.1 S1x64.size (by sl_kernel_rfl) y
theorem cover5_A_L5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S1x64.Idx) :
    ∃ pc ∈ (kernelRun5_A c i a0 ha0 a1 ha1 a2 ha2 a3 ha3 a4 ha4 a5 ha5 s0 hs0 s1 hs1 hc x0 x1 x2).2.2.1, y ∈ pc.1.set :=
  View.cover_of_tiledL (kernelRun5_A c i a0 ha0 a1 ha1 a2 ha2 a3 ha3 a4 ha4 a5 ha5 s0 hs0 s1 hs1 hc x0 x1 x2).2.2.1 S1x64.size (by sl_kernel_rfl) y
theorem cover5_A_LS0 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S1x64.Idx) :
    ∃ pc ∈ (kernelRun5_A c i a0 ha0 a1 ha1 a2 ha2 a3 ha3 a4 ha4 a5 ha5 s0 hs0 s1 hs1 hc x0 x1 x2).2.2.2.1, y ∈ pc.1.set :=
  View.cover_of_tiledL (kernelRun5_A c i a0 ha0 a1 ha1 a2 ha2 a3 ha3 a4 ha4 a5 ha5 s0 hs0 s1 hs1 hc x0 x1 x2).2.2.2.1 S1x64.size (by sl_kernel_rfl) y
theorem cover5_A_LS1 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) (y : S1x64.Idx) :
    ∃ pc ∈ (kernelRun5_A c i a0 ha0 a1 ha1 a2 ha2 a3 ha3 a4 ha4 a5 ha5 s0 hs0 s1 hs1 hc x0 x1 x2).2.2.2.2.1, y ∈ pc.1.set :=
  View.cover_of_tiledL (kernelRun5_A c i a0 ha0 a1 ha1 a2 ha2 a3 ha3 a4 ha4 a5 ha5 s0 hs0 s1 hs1 hc x0 x1 x2).2.2.2.2.1 S1x64.size (by sl_kernel_rfl) y
theorem cover5_B_L3 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S10000x64.Idx) :
    ∃ pc ∈ (kernelRun5_B c i a0 ha0 a1 ha1 a2 ha2 a3 ha3 a4 ha4 a5 ha5 s0 hs0 s1 hs1 hc x0 x1 x2 p0 p1).1, y ∈ pc.1.set :=
  View.cover_of_tiledL (kernelRun5_B c i a0 ha0 a1 ha1 a2 ha2 a3 ha3 a4 ha4 a5 ha5 s0 hs0 s1 hs1 hc x0 x1 x2 p0 p1).1 S10000x64.size (by sl_kernel_rfl) y
theorem cover5_B_L4 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S1x64.Idx) :
    ∃ pc ∈ (kernelRun5_B c i a0 ha0 a1 ha1 a2 ha2 a3 ha3 a4 ha4 a5 ha5 s0 hs0 s1 hs1 hc x0 x1 x2 p0 p1).2.1, y ∈ pc.1.set :=
  View.cover_of_tiledL (kernelRun5_B c i a0 ha0 a1 ha1 a2 ha2 a3 ha3 a4 ha4 a5 ha5 s0 hs0 s1 hs1 hc x0 x1 x2 p0 p1).2.1 S1x64.size (by sl_kernel_rfl) y
theorem cover5_B_L5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S1x64.Idx) :
    ∃ pc ∈ (kernelRun5_B c i a0 ha0 a1 ha1 a2 ha2 a3 ha3 a4 ha4 a5 ha5 s0 hs0 s1 hs1 hc x0 x1 x2 p0 p1).2.2.1, y ∈ pc.1.set :=
  View.cover_of_tiledL (kernelRun5_B c i a0 ha0 a1 ha1 a2 ha2 a3 ha3 a4 ha4 a5 ha5 s0 hs0 s1 hs1 hc x0 x1 x2 p0 p1).2.2.1 S1x64.size (by sl_kernel_rfl) y
theorem cover5_B_LS0 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S1x64.Idx) :
    ∃ pc ∈ (kernelRun5_B c i a0 ha0 a1 ha1 a2 ha2 a3 ha3 a4 ha4 a5 ha5 s0 hs0 s1 hs1 hc x0 x1 x2 p0 p1).2.2.2.1, y ∈ pc.1.set :=
  View.cover_of_tiledL (kernelRun5_B c i a0 ha0 a1 ha1 a2 ha2 a3 ha3 a4 ha4 a5 ha5 s0 hs0 s1 hs1 hc x0 x1 x2 p0 p1).2.2.2.1 S1x64.size (by sl_kernel_rfl) y
theorem cover5_B_LS1 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) (y : S1x64.Idx) :
    ∃ pc ∈ (kernelRun5_B c i a0 ha0 a1 ha1 a2 ha2 a3 ha3 a4 ha4 a5 ha5 s0 hs0 s1 hs1 hc x0 x1 x2 p0 p1).2.2.2.2.1, y ∈ pc.1.set :=
  View.cover_of_tiledL (kernelRun5_B c i a0 ha0 a1 ha1 a2 ha2 a3 ha3 a4 ha4 a5 ha5 s0 hs0 s1 hs1 hc x0 x1 x2 p0 p1).2.2.2.2.1 S1x64.size (by sl_kernel_rfl) y

/-- What the first point leaves: the three outputs, then the two scratch rows. -/
def resA5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) : (Vec F S10000x64 .f32 × Vec F S1x64 .f32 × Vec F S1x64 .f32) × (Vec F S1x64 .f32 × Vec F S1x64 .f32) :=
  ((View.canon (kernelRun5_A c i a0 ha0 a1 ha1 a2 ha2 a3 ha3 a4 ha4 a5 ha5 s0 hs0 s1 hs1 hc x0 x1 x2).1, View.canon (kernelRun5_A c i a0 ha0 a1 ha1 a2 ha2 a3 ha3 a4 ha4 a5 ha5 s0 hs0 s1 hs1 hc x0 x1 x2).2.1, View.canon (kernelRun5_A c i a0 ha0 a1 ha1 a2 ha2 a3 ha3 a4 ha4 a5 ha5 s0 hs0 s1 hs1 hc x0 x1 x2).2.2.1), (View.canon (kernelRun5_A c i a0 ha0 a1 ha1 a2 ha2 a3 ha3 a4 ha4 a5 ha5 s0 hs0 s1 hs1 hc x0 x1 x2).2.2.2.1, View.canon (kernelRun5_A c i a0 ha0 a1 ha1 a2 ha2 a3 ha3 a4 ha4 a5 ha5 s0 hs0 s1 hs1 hc x0 x1 x2).2.2.2.2.1))
/-- What a later point leaves, from the scratch rows `p0`, `p1` it finds. -/
def resB5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) : (Vec F S10000x64 .f32 × Vec F S1x64 .f32 × Vec F S1x64 .f32) × (Vec F S1x64 .f32 × Vec F S1x64 .f32) :=
  ((View.canon (kernelRun5_B c i a0 ha0 a1 ha1 a2 ha2 a3 ha3 a4 ha4 a5 ha5 s0 hs0 s1 hs1 hc x0 x1 x2 p0 p1).1, View.canon (kernelRun5_B c i a0 ha0 a1 ha1 a2 ha2 a3 ha3 a4 ha4 a5 ha5 s0 hs0 s1 hs1 hc x0 x1 x2 p0 p1).2.1, View.canon (kernelRun5_B c i a0 ha0 a1 ha1 a2 ha2 a3 ha3 a4 ha4 a5 ha5 s0 hs0 s1 hs1 hc x0 x1 x2 p0 p1).2.2.1), (View.canon (kernelRun5_B c i a0 ha0 a1 ha1 a2 ha2 a3 ha3 a4 ha4 a5 ha5 s0 hs0 s1 hs1 hc x0 x1 x2 p0 p1).2.2.2.1, View.canon (kernelRun5_B c i a0 ha0 a1 ha1 a2 ha2 a3 ha3 a4 ha4 a5 ha5 s0 hs0 s1 hs1 hc x0 x1 x2 p0 p1).2.2.2.2.1))

section
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## What the outputs and the scratch rows hold after each point -/

/-- THE ACCUMULATION: after point 0 what the first case leaves; after point `n + 1` what the other case leaves from the
    scratch rows as point `n` left them. -/
def outsAt5 (c : Dev nD) : (n : ℕ) → n < cfg5.N → (Vec F S10000x64 .f32 × Vec F S1x64 .f32 × Vec F S1x64 .f32) × (Vec F S1x64 .f32 × Vec F S1x64 .f32)
  | 0, hn => resA5 c (grid5.coords ⟨0, hn⟩) (st5_0 ⟨0, hn⟩) (hst5_0 ⟨0, hn⟩) (st5_1 ⟨0, hn⟩) (hst5_1 ⟨0, hn⟩) (st5_2 ⟨0, hn⟩) (hst5_2 ⟨0, hn⟩) (st5_3 ⟨0, hn⟩) (hst5_3 ⟨0, hn⟩) (st5_4 ⟨0, hn⟩) (hst5_4 ⟨0, hn⟩) (st5_5 ⟨0, hn⟩) (hst5_5 ⟨0, hn⟩) sc5_0 (Memref.isWhole_whole _) sc5_1 (Memref.isWhole_whole _) ((hcond5 ⟨0, hn⟩).mpr rfl) (iblk5 V c 0 ⟨0, hn⟩) (iblk5 V c 1 ⟨0, hn⟩) (iblk5 V c 2 ⟨0, hn⟩)
  | n + 1, hn => resB5 c (grid5.coords ⟨n + 1, hn⟩) (st5_0 ⟨n + 1, hn⟩) (hst5_0 ⟨n + 1, hn⟩) (st5_1 ⟨n + 1, hn⟩) (hst5_1 ⟨n + 1, hn⟩) (st5_2 ⟨n + 1, hn⟩) (hst5_2 ⟨n + 1, hn⟩) (st5_3 ⟨n + 1, hn⟩) (hst5_3 ⟨n + 1, hn⟩) (st5_4 ⟨n + 1, hn⟩) (hst5_4 ⟨n + 1, hn⟩) (st5_5 ⟨n + 1, hn⟩) (hst5_5 ⟨n + 1, hn⟩) sc5_0 (Memref.isWhole_whole _) sc5_1 (Memref.isWhole_whole _) (fun h => Nat.succ_ne_zero n ((hcond5 ⟨n + 1, hn⟩).mp h)) (iblk5 V c 0 ⟨n + 1, hn⟩) (iblk5 V c 1 ⟨n + 1, hn⟩) (iblk5 V c 2 ⟨n + 1, hn⟩) (outsAt5 c n (Nat.lt_of_succ_lt hn)).2.1 (outsAt5 c n (Nat.lt_of_succ_lt hn)).2.2

theorem outsAt5_A (c : Dev nD) (t : Fin cfg5.N) (hz : t.val = 0) :
    outsAt5 V c t.val t.isLt = resA5 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t) := by
  obtain ⟨n, hn⟩ := t
  cases n with
  | zero => rfl
  | succ n => exact absurd hz (Nat.succ_ne_zero n)

theorem outsAt5_B (c : Dev nD) (t : Fin cfg5.N) (hz : ¬t.val = 0) :
    outsAt5 V c t.val t.isLt = resB5 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2 := by
  obtain ⟨n, hn⟩ := t
  cases n with
  | zero => exact absurd rfl hz
  | succ n => rfl

/-- The region's invariant before position `n`: before the first point the launch's; afterwards the two scratch rows at what
    the point before left, the other scoped buffers unopened, the generator register at some state. -/
def PhiS5 (c : Dev nD) : (n : ℕ) → n ≤ cfg5.N → sProp 𝕄
  | 0, _ => Pipeline.ΦA spec5 c
  | n + 1, hn => iprop(iprop(iprop(owns (c : Thread nD τ) sc5_0 fullShare ((outsAt5 V c n hn).2.1) ∗ owns (c : Thread nD τ) sc5_1 fullShare ((outsAt5 V c n hn).2.2))
      ∗ Pipeline.scopedRestBut (Ix := Unit) (Name := ℕ) (U := UR sig nD τ) (Lvl := ℕ) (Val := Elt F) spec5 c [cc5_scratch0, cc5_scratch1]) ∗ (∃ r, prngReg c r))

theorem PhiS5_zero (c : Dev nD) (n : ℕ) (h : n ≤ cfg5.N) (hz : n = 0) : PhiS5 V c n h = Pipeline.ΦA spec5 c := by
  subst hz; rfl
theorem PhiS5_succ (c : Dev nD) (n : ℕ) (hn : n < cfg5.N) :
    PhiS5 V c (n + 1) hn = iprop(iprop(iprop(owns (c : Thread nD τ) sc5_0 fullShare ((outsAt5 V c n hn).2.1) ∗ owns (c : Thread nD τ) sc5_1 fullShare ((outsAt5 V c n hn).2.2))
      ∗ Pipeline.scopedRestBut (Ix := Unit) (Name := ℕ) (U := UR sig nD τ) (Lvl := ℕ) (Val := Elt F) spec5 c [cc5_scratch0, cc5_scratch1]) ∗ (∃ r, prngReg c r)) := rfl
theorem PhiS5_pos (c : Dev nD) (n : ℕ) (h : n ≤ cfg5.N) (hz : n ≠ 0) :
    PhiS5 V c n h = iprop(iprop(iprop(owns (c : Thread nD τ) sc5_0 fullShare ((outsAt5 V c (n - 1) (by omega)).2.1) ∗ owns (c : Thread nD τ) sc5_1 fullShare ((outsAt5 V c (n - 1) (by omega)).2.2))
      ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

/-! ## The pipeline's proof data -/

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt).1.1
    | ⟨4, _⟩ => (outsAt5 V c t.val t.isLt).1.2.1
    | ⟨5, _⟩ => (outsAt5 V c t.val t.isLt).1.2.2
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt).1.1 := by dsimp only [dat5]
theorem after5_4 (c : Dev nD) (t : Fin cfg5.N) : (dat5 V c).after 4 t = (outsAt5 V c t.val t.isLt).1.2.1 := by dsimp only [dat5]
theorem after5_5 (c : Dev nD) (t : Fin cfg5.N) : (dat5 V c).after 5 t = (outsAt5 V c t.val t.isLt).1.2.2 := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

theorem leaves5_0 (c : Dev nD) (t : Fin cfg5.N) : ((dat5 V c).leavesExact 0 t : sProp 𝕄) = owns (c : Thread nD τ) (st5_0 t) fullShare ((dat5 V c).after 0 t) := by
  unfold Dat.leavesExact; rw [liveAt5_0 t]
theorem leaves5_1 (c : Dev nD) (t : Fin cfg5.N) : ((dat5 V c).leavesExact 1 t : sProp 𝕄) = owns (c : Thread nD τ) (st5_1 t) fullShare ((dat5 V c).after 1 t) := by
  unfold Dat.leavesExact; rw [liveAt5_1 t]
theorem leaves5_2 (c : Dev nD) (t : Fin cfg5.N) : ((dat5 V c).leavesExact 2 t : sProp 𝕄) = owns (c : Thread nD τ) (st5_2 t) fullShare ((dat5 V c).after 2 t) := by
  unfold Dat.leavesExact; rw [liveAt5_2 t]
theorem leaves5_3 (c : Dev nD) (t : Fin cfg5.N) : ((dat5 V c).leavesExact 3 t : sProp 𝕄) = owns (c : Thread nD τ) (st5_3 t) fullShare ((dat5 V c).after 3 t) := by
  unfold Dat.leavesExact; rw [liveAt5_3 t]
theorem leaves5_4 (c : Dev nD) (t : Fin cfg5.N) : ((dat5 V c).leavesExact 4 t : sProp 𝕄) = owns (c : Thread nD τ) (st5_4 t) fullShare ((dat5 V c).after 4 t) := by
  unfold Dat.leavesExact; rw [liveAt5_4 t]
theorem leaves5_5 (c : Dev nD) (t : Fin cfg5.N) : ((dat5 V c).leavesExact 5 t : sProp 𝕄) = owns (c : Thread nD τ) (st5_5 t) fullShare ((dat5 V c).after 5 t) := by
  unfold Dat.leavesExact; rw [liveAt5_5 t]

set_option maxHeartbeats 8000000 in
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  rw [leaves5_0, leaves5_1, leaves5_2, leaves5_3, leaves5_4, leaves5_5,
    after5_0, after5_1, after5_2, after5_3, after5_4, after5_5]
  by_cases hz : t.val = 0
  · rw [outsAt5_A V c t hz]
    unfold resA5; (try dsimp only)
    rw [PhiS5_castSucc V c t, PhiS5_zero V c _ _ hz, PhiA5_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun5_A c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover5_A_LS0 c _ _ _ _ _ _ _ _ _ _ _ _ _ _ _ _ _ _ _ _ _)
          · unfold owns; iexists _; isplitr
            swap; · iexact HS1
            ipureintro; exact View.read_writes_eq_canon _ _ _ (cover5_A_LS1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover5_A_L3 c _ _ _ _ _ _ _ _ _ _ _ _ _ _ _ _ _ _ _ _ _)
    isplitl [H4]
    · unfold owns; iexists _; isplitr
      swap; · iexact H4
      ipureintro; exact View.read_writes_eq_canon _ _ _ (cover5_A_L4 c _ _ _ _ _ _ _ _ _ _ _ _ _ _ _ _ _ _ _ _ _)
    · unfold owns; iexists _; isplitr
      swap; · iexact H5
      ipureintro; exact View.read_writes_eq_canon _ _ _ (cover5_A_L5 c _ _ _ _ _ _ _ _ _ _ _ _ _ _ _ _ _ _ _ _ _)
  · rw [outsAt5_B V c t hz]
    unfold resB5; (try dsimp only)
    rw [PhiS5_castSucc V c t, PhiS5_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun5_B c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover5_B_LS0 c _ _ _ _ _ _ _ _ _ _ _ _ _ _ _ _ _ _ _ _ _ _ _)
          · unfold owns; iexists _; isplitr
            swap; · iexact HS1
            ipureintro; exact View.read_writes_eq_canon _ _ _ (cover5_B_LS1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover5_B_L3 c _ _ _ _ _ _ _ _ _ _ _ _ _ _ _ _ _ _ _ _ _ _ _)
    isplitl [H4]
    · unfold owns; iexists _; isplitr
      swap; · iexact H4
      ipureintro; exact View.read_writes_eq_canon _ _ _ (cover5_B_L4 c _ _ _ _ _ _ _ _ _ _ _ _ _ _ _ _ _ _ _ _ _ _ _)
    · unfold owns; iexists _; isplitr
      swap; · iexact H5
      ipureintro; exact View.read_writes_eq_canon _ _ _ (cover5_B_L5 c _ _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : (Pipeline.ΦA spec5 c : sProp 𝕄) ⊢ (dat5 V c).Φ 0 := by
  rw [show (dat5 V c).Φ 0 = PhiS5 V c 0 (Nat.zero_le _) from rfl, PhiS5_zero V c 0 _ rfl]
  try exact Idealize.SL.BI.Entails.refl _

/-- After the last point the invariant gives the launch's back: the scratch rows' contents are forgotten. -/
theorem hout5 (c : Dev nD) : (dat5 V c).Φ (Fin.last cfg5.N) ⊢ (Pipeline.ΦA spec5 c : sProp 𝕄) := by
  have hN : cfg5.N = 10 := N_5
  rw [show (dat5 V c).Φ (Fin.last cfg5.N) = PhiS5 V c (Fin.last cfg5.N).val (Nat.le_of_lt_succ (Fin.last cfg5.N).isLt) from rfl,
    PhiS5_pos V c _ _ (by rw [Fin.val_last]; omega), PhiA5_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KI.R6.lean ====
/-
  Region 6 of @main (custom_call 6, the kernel `cc6__gcn_normalize_kernel`), at any float instance: at every grid point the
  body loads its input blocks whole, computes one value from them and stores it whole into the output block. Hence
  the output block after the body is one function of the input blocks (`out6_6`), each input block is left
  as found, and the pipeline's obligation on the body holds at every point.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's staging buffer holds its block at every point, fetched there or not (when it is not fetched
    its block index has not moved). -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's staging buffer holds its block at every point, fetched there or not (when it is not fetched
    its block index has not moved). -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's staging buffer holds its block at every point, fetched there or not (when it is not fetched
    its block index has not moved). -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's staging buffer holds its block at every point, fetched there or not (when it is not fetched
    its block index has not moved). -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's staging buffer holds its block at every point, fetched there or not (when it is not fetched
    its block index has not moved). -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's staging buffer holds its block at every point, fetched there or not (when it is not fetched
    its block index has not moved). -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: every load and the store take the whole block -/

abbrev r6_0 : Rect S10000x64 := Rect.unit (s := S10000x64) ![0, 0] S10000x64.size inb_S10000x64_S10000x64_0_0
abbrev r6_1 : Rect S10000x64 := Rect.unit (s := S10000x64) ![0, 0] S10000x64.size inb_S10000x64_S10000x64_0_0
abbrev r6_2 : Rect S1x64 := Rect.unit (s := S1x64) ![0, 0] S1x64.size inb_S1x64_S1x64_0_0
abbrev r6_3 : Rect S1x64 := Rect.unit (s := S1x64) ![0, 0] S1x64.size inb_S1x64_S1x64_0_0
abbrev r6_4 : Rect S1x64 := Rect.unit (s := S1x64) ![0, 0] S1x64.size inb_S1x64_S1x64_0_0
abbrev r6_5 : Rect S1x64 := Rect.unit (s := S1x64) ![0, 0] S1x64.size inb_S1x64_S1x64_0_0
abbrev r6_6 : Rect S10000x64 := Rect.unit (s := S10000x64) ![0, 0] S10000x64.size inb_S10000x64_S10000x64_0_0

/-- The output block after the body, as a function of the input blocks: the one store's value. -/
def out6_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r6_6, k6_pay1 (View.ld x0 r6_0) (View.ld x2 r6_2) (View.ld x3 r6_3) (View.ld x4 r6_4) (View.ld x5 r6_5) (View.ld x1 r6_1)⟩]

/-- The one store covers the block. -/
theorem cover6_6 (p0 : Vec F S10000x64 .f32) (y : S10000x64.Idx) :
    ∃ pc ∈ ([⟨r6_6, p0⟩] : List (View.Piece (Elt F) S10000x64 .f32)), y ∈ pc.1.set :=
  View.cover_of_tiled [⟨r6_6, p0⟩] S10000x64.size (by rfl) y

/-! ## The body's triple -/

set_option maxHeartbeats 4000000 in
/-- The body on whole staging memrefs, the inputs' at contents `x` and the output's at anything, runs to the
    continuation with the inputs' as they were and the output's at `out6_6` of them. -/
theorem sound_kernel6 (c : Dev nD) (E : Set ℕ) (i : grid6.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out6_6 x0 x1 x2 x3 x4 x5)) -∗ K ⟨⟩))
      ⊢ wp frame (wpE (defs₀ (F := F)) Variants.none c none) E (cc6__gcn_normalize_kernel i a0 ha0 a1 ha1 a2 ha2 a3 ha3 a4 ha4 a5 ha5 a6 ha6) K := by
  simp only [cc6__gcn_normalize_kernel_eq_skeleton]; unfold cc6__gcn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover6_6 _)

/-! ## The pipeline's proof data -/

/-- The arrays as the region finds them; after the body at point `t` each input's buffer at its block and the
    output's at `out6_6` of the input blocks; the invariant is the scoped rest and the generator register,
    untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => out6_6 (iblk6 V c 0 t) (iblk6 V c 1 t) (iblk6 V c 2 t) (iblk6 V c 3 t) (iblk6 V c 4 t) (iblk6 V c 5 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = out6_6 (iblk6 V c 0 t) (iblk6 V c 1 t) (iblk6 V c 2 t) (iblk6 V c 3 t) (iblk6 V c 4 t) (iblk6 V c 5 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel6 c Set.univ _ _ _ _ _ _ _ _ _ _ _ _ _ _ _ (iblk6 V c 0 t) (iblk6 V c 1 t) (iblk6 V c 2 t) (iblk6 V c 3 t) (iblk6 V c 4 t) (iblk6 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation6 (c : Dev nD) : BodyObligation (dat6 (F := F) V c) (defs₀ (F := F)) Variants.none () Set.univ := fun t => by
  rw [bigSep_W6, bigSep_W6]
  exact sound_body6 V c t

end

end Cert.KernelIdeal.Hand

end
-- ==== Proof.KI.R7.lean ====
/-
  Region 7 of @main (custom_call 7, `cc7__gcn_stats_kernel`), at any float instance. The body, at every grid point: at the first point
  only it clears two scratch rows; it then loads the two input blocks and the weights whole, stores the combined block whole,
  adds the block's column sums and column sums of squares to the two scratch rows, and copies the scratch rows whole to
  the two small outputs. The scratch rows are carried from point to point: what the outputs and the scratch hold after
  point `n` is defined by recursion on `n` (`outsAt7`), the first point from cleared rows and every later point from what
  the point before left; the region's invariant after point `n` holds the two scratch rows at those contents.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point is the only one that clears the scratch rows -/

/-- The body's one conditional, from the grid coordinates. -/
abbrev cond7 (i : grid7.Coords) : Prop := (Scalar.cmpi .ne (Scalar.extui (Scalar.cmpi .eq (BitVec.ofNat 32 (i 0).val) 0#32)) 0#32) = 1#1
/-- It holds at the first point only — decided over the grid. -/
theorem hcond7 : ∀ t : Fin cfg7.N, cond7 (grid7.coords t) ↔ t.val = 0 :=
  (by decide +kernel : ∀ t : Fin grid7.N, cond7 (grid7.coords t) ↔ t.val = 0)

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
theorem liveAt7_5 : ∀ t : Fin cfg7.N, cfg7.idle 5 (grid7.coords t) = false := by decide +kernel

abbrev sc7_0 : Memref sig .tc .vmem S1x64 .f32 := Memref.whole cc7_scratch0
abbrev sc7_1 : Memref sig .tc .vmem S1x64 .f32 := Memref.whole cc7_scratch1
abbrev hst7_0 (t : Fin cfg7.N) : (st7_0 t).IsWhole := hstage7_0 ((cfg7.slots t 0).cast nbuf7_0)
abbrev hst7_1 (t : Fin cfg7.N) : (st7_1 t).IsWhole := hstage7_1 ((cfg7.slots t 1).cast nbuf7_1)
abbrev hst7_2 (t : Fin cfg7.N) : (st7_2 t).IsWhole := hstage7_2 ((cfg7.slots t 2).cast nbuf7_2)
abbrev hst7_3 (t : Fin cfg7.N) : (st7_3 t).IsWhole := hstage7_3 ((cfg7.slots t 3).cast nbuf7_3)
abbrev hst7_4 (t : Fin cfg7.N) : (st7_4 t).IsWhole := hstage7_4 ((cfg7.slots t 4).cast nbuf7_4)
abbrev hst7_5 (t : Fin cfg7.N) : (st7_5 t).IsWhole := hstage7_5 ((cfg7.slots t 5).cast nbuf7_5)

/-- The region's invariant as the launch hands it over: the two scratch rows at some contents, the other scoped buffers
    unopened, the generator register at some state. -/
theorem PhiA7_eq (c : Dev nD) :
    (Pipeline.ΦA spec7 c : sProp 𝕄)
      = iprop(iprop(iprop((∃ d, owns (c : Thread nD τ) sc7_0 fullShare d) ∗ (∃ d, owns (c : Thread nD τ) sc7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [sc7_0, sc7_1, owns_whole]; try rfl

/-! ## The body's run, in its two cases: the stores as pieces, found by running it -/

set_option maxHeartbeats 8000000 in
/-- THE FIRST POINT (the conditional taken): the scratch rows found at anything. -/
noncomputable def kernelRun7_A (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ (∃ d, owns (c : Thread nD τ) s0 fullShare d) ∗ (∃ d, owns (c : Thread nD τ) s1 fullShare d)
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc7__gcn_stats_kernel i a0 ha0 a1 ha1 a2 ha2 a3 ha3 a4 ha4 a5 ha5 s0 hs0 s1 hs1) K } := by
  refine ⟨?_, ?_, ?_, ?_, ?_, fun E K => ?run⟩
  case run =>
    simp only [cc7__gcn_stats_kernel_eq_skeleton]; unfold cc7__gcn_stats_kernel_skel
    simp only [k7_part1_eq_skeleton]; unfold k7_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%e0, %g0, -, S0⟩, ⟨%e1, %g1, -, S1⟩, Hk⟩
    obtain rfl := ha0.eq_unread hf0; obtain rfl := ha1.eq_unread hf1; obtain rfl := ha2.eq_unread hf2
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

set_option maxHeartbeats 8000000 in
/-- EVERY LATER POINT (the conditional not taken): the scratch rows found at what the point before left, `p0` and `p1`. -/
noncomputable def kernelRun7_B (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) :
    Σ' (L3 : List (View.Piece (Elt F) S10000x64 .f32)) (L4 : List (View.Piece (Elt F) S1x64 .f32)) (L5 : List (View.Piece (Elt F) S1x64 .f32)) (LS0 : List (View.Piece (Elt F) S1x64 .f32)),
      { LS1 : List (View.Piece (Elt F) S1x64 .f32) //
        ∀ (E : Set ℕ) (K : PUnit → sProp 𝕄),
          iprop(owns (c : Thread nD τ) a0 fullShare x0 ∗ owns (c : Thread nD τ) a1 fullShare x1 ∗ owns (c : Thread nD τ) a2 fullShare x2
              ∗ (∃ d, owns (c : Thread nD τ) a3 fullShare d) ∗ (∃ d, owns (c : Thread nD τ) a4 fullShare d) ∗ (∃ d, owns (c : Thread nD τ) a5 fullShare d)
              ∗ owns (c : Thread nD τ) s0 fullShare p0 ∗ owns (c : Thread nD τ) s1 fullShare p1
              ∗ (iprop(owns (c : Thread nD τ) a0 fullShare x0 ∗ owns (c : Thread nD τ) a1 fullShare x1 ∗ owns (c : Thread nD τ) a2 fullShare x2
                  ∗ (∃ f, a3.view.loc (c : Thread nD τ) ↦[a3.view.set]{fullShare} a3.view.writes (Elt F) f L3) ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (∃ f, s0.view.loc (c : Thread nD τ) ↦[s0.view.set]{fullShare} s0.view.writes (Elt F) f LS0) ∗ (∃ f, s1.view.loc (c : Thread nD τ) ↦[s1.view.set]{fullShare} s1.view.writes (Elt F) f LS1)) -∗ K ⟨⟩))
            ⊢ wp frame (wpE (defs₀ (F := F)) Variants.none c none) E (cc7__gcn_stats_kernel i a0 ha0 a1 ha1 a2 ha2 a3 ha3 a4 ha4 a5 ha5 s0 hs0 s1 hs1) K } := by
  refine ⟨?_, ?_, ?_, ?_, ?_, fun E K => ?run⟩
  case run =>
    simp only [cc7__gcn_stats_kernel_eq_skeleton]; unfold cc7__gcn_stats_kernel_skel
    simp only [k7_part1_eq_skeleton]; unfold k7_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%g0, %hg0, S0⟩, ⟨%g1, %hg1, S1⟩, Hk⟩
    obtain rfl := ha0.eq_unread hf0; obtain rfl := ha1.eq_unread hf1; obtain rfl := ha2.eq_unread hf2
    obtain rfl := hs0.eq_unread hg0; obtain rfl := hs1.eq_unread hg1
    sl_exec (disch := first | exact hc)
    sl_step
    iapply Hk
    isplitl [H0]
    · iexists _; isplitr; · ipureintro; exact ha0.read_unread _
      iexact H0
    isplitl [H1]
    · iexists _; isplitr; · ipureintro; exact ha1.read_unread _
      iexact H1
    isplitl [H2]
    · iexists _; isplitr; · ipureintro; exact ha2.read_unread _
      iexact H2
    isplitl [H3]; · iexists _; iexact H3
    isplitl [H4]; · iexists _; iexact H4
    isplitl [H5]; · iexists _; iexact H5
    isplitl [S0]; · iexists _; iexact S0
    iexists _; iexact S1

/-! ## Each buffer's stores tile it -/

theorem cover7_A_L3 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S10000x64.Idx) :
    ∃ pc ∈ (kernelRun7_A c i a0 ha0 a1 ha1 a2 ha2 a3 ha3 a4 ha4 a5 ha5 s0 hs0 s1 hs1 hc x0 x1 x2).1, y ∈ pc.1.set :=
  View.cover_of_tiledL (kernelRun7_A c i a0 ha0 a1 ha1 a2 ha2 a3 ha3 a4 ha4 a5 ha5 s0 hs0 s1 hs1 hc x0 x1 x2).1 S10000x64.size (by sl_kernel_rfl) y
theorem cover7_A_L4 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S1x64.Idx) :
    ∃ pc ∈ (kernelRun7_A c i a0 ha0 a1 ha1 a2 ha2 a3 ha3 a4 ha4 a5 ha5 s0 hs0 s1 hs1 hc x0 x1 x2).2.1, y ∈ pc.1.set :=
  View.cover_of_tiledL (kernelRun7_A c i a0 ha0 a1 ha1 a2 ha2 a3 ha3 a4 ha4 a5 ha5 s0 hs0 s1 hs1 hc x0 x1 x2).2.1 S1x64.size (by sl_kernel_rfl) y
theorem cover7_A_L5 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S1x64.Idx) :
    ∃ pc ∈ (kernelRun7_A c i a0 ha0 a1 ha1 a2 ha2 a3 ha3 a4 ha4 a5 ha5 s0 hs0 s1 hs1 hc x0 x1 x2).2.2.1, y ∈ pc.1.set :=
  View.cover_of_tiledL (kernelRun7_A c i a0 ha0 a1 ha1 a2 ha2 a3 ha3 a4 ha4 a5 ha5 s0 hs0 s1 hs1 hc x0 x1 x2).2.2.1 S1x64.size (by sl_kernel_rfl) y
theorem cover7_A_LS0 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S1x64.Idx) :
    ∃ pc ∈ (kernelRun7_A c i a0 ha0 a1 ha1 a2 ha2 a3 ha3 a4 ha4 a5 ha5 s0 hs0 s1 hs1 hc x0 x1 x2).2.2.2.1, y ∈ pc.1.set :=
  View.cover_of_tiledL (kernelRun7_A c i a0 ha0 a1 ha1 a2 ha2 a3 ha3 a4 ha4 a5 ha5 s0 hs0 s1 hs1 hc x0 x1 x2).2.2.2.1 S1x64.size (by sl_kernel_rfl) y
theorem cover7_A_LS1 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) (y : S1x64.Idx) :
    ∃ pc ∈ (kernelRun7_A c i a0 ha0 a1 ha1 a2 ha2 a3 ha3 a4 ha4 a5 ha5 s0 hs0 s1 hs1 hc x0 x1 x2).2.2.2.2.1, y ∈ pc.1.set :=
  View.cover_of_tiledL (kernelRun7_A c i a0 ha0 a1 ha1 a2 ha2 a3 ha3 a4 ha4 a5 ha5 s0 hs0 s1 hs1 hc x0 x1 x2).2.2.2.2.1 S1x64.size (by sl_kernel_rfl) y
theorem cover7_B_L3 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S10000x64.Idx) :
    ∃ pc ∈ (kernelRun7_B c i a0 ha0 a1 ha1 a2 ha2 a3 ha3 a4 ha4 a5 ha5 s0 hs0 s1 hs1 hc x0 x1 x2 p0 p1).1, y ∈ pc.1.set :=
  View.cover_of_tiledL (kernelRun7_B c i a0 ha0 a1 ha1 a2 ha2 a3 ha3 a4 ha4 a5 ha5 s0 hs0 s1 hs1 hc x0 x1 x2 p0 p1).1 S10000x64.size (by sl_kernel_rfl) y
theorem cover7_B_L4 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S1x64.Idx) :
    ∃ pc ∈ (kernelRun7_B c i a0 ha0 a1 ha1 a2 ha2 a3 ha3 a4 ha4 a5 ha5 s0 hs0 s1 hs1 hc x0 x1 x2 p0 p1).2.1, y ∈ pc.1.set :=
  View.cover_of_tiledL (kernelRun7_B c i a0 ha0 a1 ha1 a2 ha2 a3 ha3 a4 ha4 a5 ha5 s0 hs0 s1 hs1 hc x0 x1 x2 p0 p1).2.1 S1x64.size (by sl_kernel_rfl) y
theorem cover7_B_L5 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S1x64.Idx) :
    ∃ pc ∈ (kernelRun7_B c i a0 ha0 a1 ha1 a2 ha2 a3 ha3 a4 ha4 a5 ha5 s0 hs0 s1 hs1 hc x0 x1 x2 p0 p1).2.2.1, y ∈ pc.1.set :=
  View.cover_of_tiledL (kernelRun7_B c i a0 ha0 a1 ha1 a2 ha2 a3 ha3 a4 ha4 a5 ha5 s0 hs0 s1 hs1 hc x0 x1 x2 p0 p1).2.2.1 S1x64.size (by sl_kernel_rfl) y
theorem cover7_B_LS0 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S1x64.Idx) :
    ∃ pc ∈ (kernelRun7_B c i a0 ha0 a1 ha1 a2 ha2 a3 ha3 a4 ha4 a5 ha5 s0 hs0 s1 hs1 hc x0 x1 x2 p0 p1).2.2.2.1, y ∈ pc.1.set :=
  View.cover_of_tiledL (kernelRun7_B c i a0 ha0 a1 ha1 a2 ha2 a3 ha3 a4 ha4 a5 ha5 s0 hs0 s1 hs1 hc x0 x1 x2 p0 p1).2.2.2.1 S1x64.size (by sl_kernel_rfl) y
theorem cover7_B_LS1 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) (y : S1x64.Idx) :
    ∃ pc ∈ (kernelRun7_B c i a0 ha0 a1 ha1 a2 ha2 a3 ha3 a4 ha4 a5 ha5 s0 hs0 s1 hs1 hc x0 x1 x2 p0 p1).2.2.2.2.1, y ∈ pc.1.set :=
  View.cover_of_tiledL (kernelRun7_B c i a0 ha0 a1 ha1 a2 ha2 a3 ha3 a4 ha4 a5 ha5 s0 hs0 s1 hs1 hc x0 x1 x2 p0 p1).2.2.2.2.1 S1x64.size (by sl_kernel_rfl) y

/-- What the first point leaves: the three outputs, then the two scratch rows. -/
def resA7 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) : (Vec F S10000x64 .f32 × Vec F S1x64 .f32 × Vec F S1x64 .f32) × (Vec F S1x64 .f32 × Vec F S1x64 .f32) :=
  ((View.canon (kernelRun7_A c i a0 ha0 a1 ha1 a2 ha2 a3 ha3 a4 ha4 a5 ha5 s0 hs0 s1 hs1 hc x0 x1 x2).1, View.canon (kernelRun7_A c i a0 ha0 a1 ha1 a2 ha2 a3 ha3 a4 ha4 a5 ha5 s0 hs0 s1 hs1 hc x0 x1 x2).2.1, View.canon (kernelRun7_A c i a0 ha0 a1 ha1 a2 ha2 a3 ha3 a4 ha4 a5 ha5 s0 hs0 s1 hs1 hc x0 x1 x2).2.2.1), (View.canon (kernelRun7_A c i a0 ha0 a1 ha1 a2 ha2 a3 ha3 a4 ha4 a5 ha5 s0 hs0 s1 hs1 hc x0 x1 x2).2.2.2.1, View.canon (kernelRun7_A c i a0 ha0 a1 ha1 a2 ha2 a3 ha3 a4 ha4 a5 ha5 s0 hs0 s1 hs1 hc x0 x1 x2).2.2.2.2.1))
/-- What a later point leaves, from the scratch rows `p0`, `p1` it finds. -/
def resB7 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) : (Vec F S10000x64 .f32 × Vec F S1x64 .f32 × Vec F S1x64 .f32) × (Vec F S1x64 .f32 × Vec F S1x64 .f32) :=
  ((View.canon (kernelRun7_B c i a0 ha0 a1 ha1 a2 ha2 a3 ha3 a4 ha4 a5 ha5 s0 hs0 s1 hs1 hc x0 x1 x2 p0 p1).1, View.canon (kernelRun7_B c i a0 ha0 a1 ha1 a2 ha2 a3 ha3 a4 ha4 a5 ha5 s0 hs0 s1 hs1 hc x0 x1 x2 p0 p1).2.1, View.canon (kernelRun7_B c i a0 ha0 a1 ha1 a2 ha2 a3 ha3 a4 ha4 a5 ha5 s0 hs0 s1 hs1 hc x0 x1 x2 p0 p1).2.2.1), (View.canon (kernelRun7_B c i a0 ha0 a1 ha1 a2 ha2 a3 ha3 a4 ha4 a5 ha5 s0 hs0 s1 hs1 hc x0 x1 x2 p0 p1).2.2.2.1, View.canon (kernelRun7_B c i a0 ha0 a1 ha1 a2 ha2 a3 ha3 a4 ha4 a5 ha5 s0 hs0 s1 hs1 hc x0 x1 x2 p0 p1).2.2.2.2.1))

section
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## What the outputs and the scratch rows hold after each point -/

/-- THE ACCUMULATION: after point 0 what the first case leaves; after point `n + 1` what the other case leaves from the
    scratch rows as point `n` left them. -/
def outsAt7 (c : Dev nD) : (n : ℕ) → n < cfg7.N → (Vec F S10000x64 .f32 × Vec F S1x64 .f32 × Vec F S1x64 .f32) × (Vec F S1x64 .f32 × Vec F S1x64 .f32)
  | 0, hn => resA7 c (grid7.coords ⟨0, hn⟩) (st7_0 ⟨0, hn⟩) (hst7_0 ⟨0, hn⟩) (st7_1 ⟨0, hn⟩) (hst7_1 ⟨0, hn⟩) (st7_2 ⟨0, hn⟩) (hst7_2 ⟨0, hn⟩) (st7_3 ⟨0, hn⟩) (hst7_3 ⟨0, hn⟩) (st7_4 ⟨0, hn⟩) (hst7_4 ⟨0, hn⟩) (st7_5 ⟨0, hn⟩) (hst7_5 ⟨0, hn⟩) sc7_0 (Memref.isWhole_whole _) sc7_1 (Memref.isWhole_whole _) ((hcond7 ⟨0, hn⟩).mpr rfl) (iblk7 V c 0 ⟨0, hn⟩) (iblk7 V c 1 ⟨0, hn⟩) (iblk7 V c 2 ⟨0, hn⟩)
  | n + 1, hn => resB7 c (grid7.coords ⟨n + 1, hn⟩) (st7_0 ⟨n + 1, hn⟩) (hst7_0 ⟨n + 1, hn⟩) (st7_1 ⟨n + 1, hn⟩) (hst7_1 ⟨n + 1, hn⟩) (st7_2 ⟨n + 1, hn⟩) (hst7_2 ⟨n + 1, hn⟩) (st7_3 ⟨n + 1, hn⟩) (hst7_3 ⟨n + 1, hn⟩) (st7_4 ⟨n + 1, hn⟩) (hst7_4 ⟨n + 1, hn⟩) (st7_5 ⟨n + 1, hn⟩) (hst7_5 ⟨n + 1, hn⟩) sc7_0 (Memref.isWhole_whole _) sc7_1 (Memref.isWhole_whole _) (fun h => Nat.succ_ne_zero n ((hcond7 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2.1 (outsAt7 c n (Nat.lt_of_succ_lt hn)).2.2

theorem outsAt7_A (c : Dev nD) (t : Fin cfg7.N) (hz : t.val = 0) :
    outsAt7 V c t.val t.isLt = resA7 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t) := by
  obtain ⟨n, hn⟩ := t
  cases n with
  | zero => rfl
  | succ n => exact absurd hz (Nat.succ_ne_zero n)

theorem outsAt7_B (c : Dev nD) (t : Fin cfg7.N) (hz : ¬t.val = 0) :
    outsAt7 V c t.val t.isLt = resB7 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2 := by
  obtain ⟨n, hn⟩ := t
  cases n with
  | zero => exact absurd rfl hz
  | succ n => rfl

/-- The region's invariant before position `n`: before the first point the launch's; afterwards the two scratch rows at what
    the point before left, the other scoped buffers unopened, the generator register at some state. -/
def PhiS7 (c : Dev nD) : (n : ℕ) → n ≤ cfg7.N → sProp 𝕄
  | 0, _ => Pipeline.ΦA spec7 c
  | n + 1, hn => iprop(iprop(iprop(owns (c : Thread nD τ) sc7_0 fullShare ((outsAt7 V c n hn).2.1) ∗ owns (c : Thread nD τ) sc7_1 fullShare ((outsAt7 V c n hn).2.2))
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl
theorem PhiS7_succ (c : Dev nD) (n : ℕ) (hn : n < cfg7.N) :
    PhiS7 V c (n + 1) hn = iprop(iprop(iprop(owns (c : Thread nD τ) sc7_0 fullShare ((outsAt7 V c n hn).2.1) ∗ owns (c : Thread nD τ) sc7_1 fullShare ((outsAt7 V c n hn).2.2))
      ∗ Pipeline.scopedRestBut (Ix := Unit) (Name := ℕ) (U := UR sig nD τ) (Lvl := ℕ) (Val := Elt F) spec7 c [cc7_scratch0, cc7_scratch1]) ∗ (∃ r, prngReg c r)) := rfl
theorem PhiS7_pos (c : Dev nD) (n : ℕ) (h : n ≤ cfg7.N) (hz : n ≠ 0) :
    PhiS7 V c n h = iprop(iprop(iprop(owns (c : Thread nD τ) sc7_0 fullShare ((outsAt7 V c (n - 1) (by omega)).2.1) ∗ owns (c : Thread nD τ) sc7_1 fullShare ((outsAt7 V c (n - 1) (by omega)).2.2))
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1.1
    | ⟨4, _⟩ => (outsAt7 V c t.val t.isLt).1.2.1
    | ⟨5, _⟩ => (outsAt7 V c t.val t.isLt).1.2.2
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem PhiS7_castSucc (c : Dev nD) (t : Fin cfg7.N) :
    (dat7 V c).Φ t.castSucc = PhiS7 V c t.val (Nat.le_of_lt t.isLt) := by
  dsimp only [dat7]; simp only [Fin.coe_castSucc]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1.1 := by dsimp only [dat7]
theorem after7_4 (c : Dev nD) (t : Fin cfg7.N) : (dat7 V c).after 4 t = (outsAt7 V c t.val t.isLt).1.2.1 := by dsimp only [dat7]
theorem after7_5 (c : Dev nD) (t : Fin cfg7.N) : (dat7 V c).after 5 t = (outsAt7 V c t.val t.isLt).1.2.2 := by dsimp only [dat7]
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

theorem leaves7_0 (c : Dev nD) (t : Fin cfg7.N) : ((dat7 V c).leavesExact 0 t : sProp 𝕄) = owns (c : Thread nD τ) (st7_0 t) fullShare ((dat7 V c).after 0 t) := by
  unfold Dat.leavesExact; rw [liveAt7_0 t]
theorem leaves7_1 (c : Dev nD) (t : Fin cfg7.N) : ((dat7 V c).leavesExact 1 t : sProp 𝕄) = owns (c : Thread nD τ) (st7_1 t) fullShare ((dat7 V c).after 1 t) := by
  unfold Dat.leavesExact; rw [liveAt7_1 t]
theorem leaves7_2 (c : Dev nD) (t : Fin cfg7.N) : ((dat7 V c).leavesExact 2 t : sProp 𝕄) = owns (c : Thread nD τ) (st7_2 t) fullShare ((dat7 V c).after 2 t) := by
  unfold Dat.leavesExact; rw [liveAt7_2 t]
theorem leaves7_3 (c : Dev nD) (t : Fin cfg7.N) : ((dat7 V c).leavesExact 3 t : sProp 𝕄) = owns (c : Thread nD τ) (st7_3 t) fullShare ((dat7 V c).after 3 t) := by
  unfold Dat.leavesExact; rw [liveAt7_3 t]
theorem leaves7_4 (c : Dev nD) (t : Fin cfg7.N) : ((dat7 V c).leavesExact 4 t : sProp 𝕄) = owns (c : Thread nD τ) (st7_4 t) fullShare ((dat7 V c).after 4 t) := by
  unfold Dat.leavesExact; rw [liveAt7_4 t]
theorem leaves7_5 (c : Dev nD) (t : Fin cfg7.N) : ((dat7 V c).leavesExact 5 t : sProp 𝕄) = owns (c : Thread nD τ) (st7_5 t) fullShare ((dat7 V c).after 5 t) := by
  unfold Dat.leavesExact; rw [liveAt7_5 t]

set_option maxHeartbeats 8000000 in
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  rw [leaves7_0, leaves7_1, leaves7_2, leaves7_3, leaves7_4, leaves7_5,
    after7_0, after7_1, after7_2, after7_3, after7_4, after7_5]
  by_cases hz : t.val = 0
  · rw [outsAt7_A V c t hz]
    unfold resA7; (try dsimp only)
    rw [PhiS7_castSucc V c t, PhiS7_zero V c _ _ hz, PhiA7_eq]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun7_A c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t)).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover7_A_LS0 c _ _ _ _ _ _ _ _ _ _ _ _ _ _ _ _ _ _ _ _ _)
          · unfold owns; iexists _; isplitr
            swap; · iexact HS1
            ipureintro; exact View.read_writes_eq_canon _ _ _ (cover7_A_LS1 c _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover7_A_L3 c _ _ _ _ _ _ _ _ _ _ _ _ _ _ _ _ _ _ _ _ _)
    isplitl [H4]
    · unfold owns; iexists _; isplitr
      swap; · iexact H4
      ipureintro; exact View.read_writes_eq_canon _ _ _ (cover7_A_L4 c _ _ _ _ _ _ _ _ _ _ _ _ _ _ _ _ _ _ _ _ _)
    · unfold owns; iexists _; isplitr
      swap; · iexact H5
      ipureintro; exact View.read_writes_eq_canon _ _ _ (cover7_A_L5 c _ _ _ _ _ _ _ _ _ _ _ _ _ _ _ _ _ _ _ _ _)
  · rw [outsAt7_B V c t hz]
    unfold resB7; (try dsimp only)
    rw [PhiS7_castSucc V c t, PhiS7_pos V c _ _ hz]
    iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
    iapply ((kernelRun7_B c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) _ _).2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact View.read_writes_eq_canon _ _ _ (cover7_B_LS0 c _ _ _ _ _ _ _ _ _ _ _ _ _ _ _ _ _ _ _ _ _ _ _)
          · unfold owns; iexists _; isplitr
            swap; · iexact HS1
            ipureintro; exact View.read_writes_eq_canon _ _ _ (cover7_B_LS1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_eq_canon _ _ _ (cover7_B_L3 c _ _ _ _ _ _ _ _ _ _ _ _ _ _ _ _ _ _ _ _ _ _ _)
    isplitl [H4]
    · unfold owns; iexists _; isplitr
      swap; · iexact H4
      ipureintro; exact View.read_writes_eq_canon _ _ _ (cover7_B_L4 c _ _ _ _ _ _ _ _ _ _ _ _ _ _ _ _ _ _ _ _ _ _ _)
    · unfold owns; iexists _; isplitr
      swap; · iexact H5
      ipureintro; exact View.read_writes_eq_canon _ _ _ (cover7_B_L5 c _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After the last point the invariant gives the launch's back: the scratch rows' contents are forgotten. -/
theorem hout7 (c : Dev nD) : (dat7 V c).Φ (Fin.last cfg7.N) ⊢ (Pipeline.ΦA spec7 c : sProp 𝕄) := by
  have hN : cfg7.N = 10 := N_7
  rw [show (dat7 V c).Φ (Fin.last cfg7.N) = PhiS7 V c (Fin.last cfg7.N).val (Nat.le_of_lt_succ (Fin.last cfg7.N).isLt) from rfl,
    PhiS7_pos V c _ _ (by rw [Fin.val_last]; omega), PhiA7_eq]
  iintro ⟨⟨⟨HS0, HS1⟩, Hrest⟩, Hg⟩
  isplitl [HS0 HS1 Hrest]
  · isplitl [HS0 HS1]
    · isplitl [HS0]
      · iexists _; iexact HS0
      · iexists _; iexact HS1
    iexact Hrest
  iexact Hg

end

end Cert.KernelIdeal.Hand

end
-- ==== Proof.KI.R8.lean ====
/-
  Region 8 of @main (custom_call 8, the kernel `cc8__gcn_normalize_kernel`), at any float instance: at every grid point the
  body loads its input blocks whole, computes one value from them and stores it whole into the output block. Hence
  the output block after the body is one function of the input blocks (`out8_6`), each input block is left
  as found, and the pipeline's obligation on the body holds at every point.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's staging buffer holds its block at every point, fetched there or not (when it is not fetched
    its block index has not moved). -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's staging buffer holds its block at every point, fetched there or not (when it is not fetched
    its block index has not moved). -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's staging buffer holds its block at every point, fetched there or not (when it is not fetched
    its block index has not moved). -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's staging buffer holds its block at every point, fetched there or not (when it is not fetched
    its block index has not moved). -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's staging buffer holds its block at every point, fetched there or not (when it is not fetched
    its block index has not moved). -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-- Input window 5's staging buffer holds its block at every point, fetched there or not (when it is not fetched
    its block index has not moved). -/
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: every load and the store take the whole block -/

abbrev r8_0 : Rect S10000x64 := Rect.unit (s := S10000x64) ![0, 0] S10000x64.size inb_S10000x64_S10000x64_0_0
abbrev r8_1 : Rect S10000x64 := Rect.unit (s := S10000x64) ![0, 0] S10000x64.size inb_S10000x64_S10000x64_0_0
abbrev r8_2 : Rect S1x64 := Rect.unit (s := S1x64) ![0, 0] S1x64.size inb_S1x64_S1x64_0_0
abbrev r8_3 : Rect S1x64 := Rect.unit (s := S1x64) ![0, 0] S1x64.size inb_S1x64_S1x64_0_0
abbrev r8_4 : Rect S1x64 := Rect.unit (s := S1x64) ![0, 0] S1x64.size inb_S1x64_S1x64_0_0
abbrev r8_5 : Rect S1x64 := Rect.unit (s := S1x64) ![0, 0] S1x64.size inb_S1x64_S1x64_0_0
abbrev r8_6 : Rect S10000x64 := Rect.unit (s := S10000x64) ![0, 0] S10000x64.size inb_S10000x64_S10000x64_0_0

/-- The output block after the body, as a function of the input blocks: the one store's value. -/
def out8_6 (x0 : Vec F S10000x64 .f32) (x1 : Vec F S10000x64 .f32) (x2 : Vec F S1x64 .f32) (x3 : Vec F S1x64 .f32) (x4 : Vec F S1x64 .f32) (x5 : Vec F S1x64 .f32) : Vec F S10000x64 .f32 :=
  View.canon [⟨r8_6, k8_pay1 (View.ld x0 r8_0) (View.ld x2 r8_2) (View.ld x3 r8_3) (View.ld x4 r8_4) (View.ld x5 r8_5) (View.ld x1 r8_1)⟩]

/-- The one store covers the block. -/
theorem cover8_6 (p0 : Vec F S10000x64 .f32) (y : S10000x64.Idx) :
    ∃ pc ∈ ([⟨r8_6, p0⟩] : List (View.Piece (Elt F) S10000x64 .f32)), y ∈ pc.1.set :=
  View.cover_of_tiled [⟨r8_6, p0⟩] S10000x64.size (by rfl) y

/-! ## The body's triple -/

set_option maxHeartbeats 4000000 in
/-- The body on whole staging memrefs, the inputs' at contents `x` and the output's at anything, runs to the
    continuation with the inputs' as they were and the output's at `out8_6` of them. -/
theorem sound_kernel8 (c : Dev nD) (E : Set ℕ) (i : grid8.Coords) (a0 : Memref sig .tc .vmem S10000x64 .f32) (ha0 : a0.IsWhole) (a1 : Memref sig .tc .vmem S10000x64 .f32) (ha1 : a1.IsWhole) (a2 : Memref sig .tc .vmem S1x64 .f32) (ha2 : a2.IsWhole) (a3 : Memref sig .tc .vmem S1x64 .f32) (ha3 : a3.IsWhole) (a4 : Memref sig .tc .vmem S1x64 .f32) (ha4 : a4.IsWhole) (a5 : Memref sig .tc .vmem S1x64 .f32) (ha5 : a5.IsWhole) (a6 : Memref sig .tc .vmem S10000x64 .f32) (ha6 : a6.IsWhole)
    (x0 : Vec F S10000x64 .f32) (x1 : Vec F S10000x64 .f32) (x2 : Vec F S1x64 .f32) (x3 : Vec F S1x64 .f32) (x4 : Vec F S1x64 .f32) (x5 : Vec F S1x64 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ (∃ d, owns (c : Thread nD τ) a6 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (out8_6 x0 x1 x2 x3 x4 x5)) -∗ K ⟨⟩))
      ⊢ wp frame (wpE (defs₀ (F := F)) Variants.none c none) E (cc8__gcn_normalize_kernel i a0 ha0 a1 ha1 a2 ha2 a3 ha3 a4 ha4 a5 ha5 a6 ha6) K := by
  simp only [cc8__gcn_normalize_kernel_eq_skeleton]; unfold cc8__gcn_normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover8_6 _)

/-! ## The pipeline's proof data -/

/-- The arrays as the region finds them; after the body at point `t` each input's buffer at its block and the
    output's at `out8_6` of the input blocks; the invariant is the scoped rest and the generator register,
    untouched; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => out8_6 (iblk8 V c 0 t) (iblk8 V c 1 t) (iblk8 V c 2 t) (iblk8 V c 3 t) (iblk8 V c 4 t) (iblk8 V c 5 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = out8_6 (iblk8 V c 0 t) (iblk8 V c 1 t) (iblk8 V c 2 t) (iblk8 V c 3 t) (iblk8 V c 4 t) (iblk8 V c 5 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d

/-! ## The body obligation, at a generic point -/

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel8 c Set.univ _ _ _ _ _ _ _ _ _ _ _ _ _ _ _ (iblk8 V c 0 t) (iblk8 V c 1 t) (iblk8 V c 2 t) (iblk8 V c 3 t) (iblk8 V c 4 t) (iblk8 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation8 (c : Dev nD) : BodyObligation (dat8 (F := F) V c) (defs₀ (F := F)) Variants.none () Set.univ := fun t => by
  rw [bigSep_W8, bigSep_W8]
  exact sound_body8 V c t

end

end Cert.KernelIdeal.Hand

end
-- ==== Proof.KI.R9.lean ====
/-
  Region 9 of @main (custom_call 9, the kernel `cc9__dense_linear_kernel`), at any float instance: at every grid point the
  body loads its input blocks whole, computes one value from them and stores it whole into the output block. Hence
  the output block after the body is one function of the input blocks (`out9_3`), each input block is left
  as found, and the pipeline's obligation on the body holds at every point.
-/
import proofs.«162064_j1357209666150_1_alg».proof.Proof.Gen.KernelIdeal.Launch
import proofs.«162064_j1357209666150_1_alg».proof.Proof.Gen.KernelIdeal.Skeleton
import proofs.«162064_j1357209666150_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's staging buffer holds its block at every point, fetched there or not (when it is not fetched
    its block index has not moved). -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's staging buffer holds its block at every point, fetched there or not (when it is not fetched
    its block index has not moved). -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's staging buffer holds its block at every point, fetched there or not (when it is not fetched
    its block index has not moved). -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the store take the whole block -/

abbrev r9_0 : Rect S10000x64 := Rect.unit (s := S10000x64) ![0, 0] S10000x64.size inb_S10000x64_S10000x64_0_0
abbrev r9_1 : Rect S64x64 := Rect.unit (s := S64x64) ![0, 0] S64x64.size inb_S64x64_S64x64_0_0
abbrev r9_2 : Rect S1x64 := Rect.unit (s := S1x64) ![0, 0] S1x64.size inb_S1x64_S1x64_0_0
abbrev r9_3 : Rect S10000x64 := Rect.unit (s := S10000x64) ![0, 0] S10000x64.size inb_S10000x64_S10000x64_0_0

/-- The output block after the body, as a function of the input blocks: the one store's value. -/
def out9_3 (x0 : Vec F S10000x64 .f32) (x1 : Vec F S64x64 .f32) (x2 : Vec F S1x64 .f32) : Vec F S10000x64 .f32 :=
  View.canon [⟨r9_3, k9_pay1 (View.ld x0 r9_0) (View.ld x1 r9_1) (View.ld x2 r9_2)⟩]

/-- The one store covers the block. -/
theorem cover9_3 (p0 : Vec F S10000x64 .f32) (y : S10000x64.Idx) :
    ∃ pc ∈ ([⟨r9_3, p0⟩] : List (View.Piece (Elt F) S10000x64 .f32)), y ∈ pc.1.set :=
  View.cover_of_tiled [⟨r9_3, p0⟩] S10000x64.size (by rfl) y

/-! ## The body's triple -/

set_option maxHeartbeats 4000000 in
/-- The body on whole staging memrefs, the inputs' at contents `x` and the output's at anything, runs to the
    continuation with the inputs' as they were and the output's at `out9_3` of them. -/
theorem sound_kernel9 (c : Dev nD) (E : Set ℕ) (i : grid9.Coords) (a0 : Memref sig .tc .vmem S10000x64 .f32) (ha0 : a0.IsWhole) (a1 : Memref sig .tc .vmem S64x64 .f32) (ha1 : a1.IsWhole) (a2 : Memref sig .tc .vmem S1x64 .f32) (ha2 : a2.IsWhole) (a3 : Memref sig .tc .vmem S10000x64 .f32) (ha3 : a3.IsWhole)
    (x0 : Vec F S10000x64 .f32) (x1 : Vec F S64x64 .f32) (x2 : Vec F S1x64 .f32) (K : PUnit → sProp 𝕄) :
    iprop(owns (c : Thread nD τ) a0 fullShare x0 ∗ owns (c : Thread nD τ) a1 fullShare x1 ∗ owns (c : Thread nD τ) a2 fullShare x2 ∗ (∃ d, owns (c : Thread nD τ) a3 fullShare d)
        ∗ (iprop(owns (c : Thread nD τ) a0 fullShare x0 ∗ owns (c : Thread nD τ) a1 fullShare x1 ∗ owns (c : Thread nD τ) a2 fullShare x2 ∗ owns (c : Thread nD τ) a3 fullShare (out9_3 x0 x1 x2)) -∗ K ⟨⟩))
      ⊢ wp frame (wpE (defs₀ (F := F)) Variants.none c none) E (cc9__dense_linear_kernel i a0 ha0 a1 ha1 a2 ha2 a3 ha3) K := by
  simp only [cc9__dense_linear_kernel_eq_skeleton]; unfold cc9__dense_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The arrays as the region finds them; after the body at point `t` each input's buffer at its block and the
    output's at `out9_3` of the input blocks; the invariant is the scoped rest and the generator register,
    untouched; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ _ _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation9 (c : Dev nD) : BodyObligation (dat9 (F := F) V c) (defs₀ (F := F)) Variants.none () Set.univ := fun t => by
  rw [bigSep_W9, bigSep_W9]
  exact sound_body9 V c t

end

end Cert.KernelIdeal.Hand

end
-- ==== Proof.KI.Chain.lean ====
/-
  The contents of core `c`'s unscoped buffers at every boundary between two items of @main: the launch contents, then
  each host stretch applied, then after a region its result arrays at what the pipeline's write-backs leave
  (`Dat.arrAt … N`) and every other buffer as the region found it. Every region's proof data is stated at the contents
  its region is entered from.
-/
import proofs.«162064_j1357209666150_1_alg».proof.Proof.Gen.KernelIdeal.Regions
import proofs.«162064_j1357209666150_1_alg».proof.Proof.KI.R0
import proofs.«162064_j1357209666150_1_alg».proof.Proof.KI.R1
import proofs.«162064_j1357209666150_1_alg».proof.Proof.KI.R2
import proofs.«162064_j1357209666150_1_alg».proof.Proof.KI.R3
import proofs.«162064_j1357209666150_1_alg».proof.Proof.KI.R4
import proofs.«162064_j1357209666150_1_alg».proof.Proof.KI.R5
import proofs.«162064_j1357209666150_1_alg».proof.Proof.KI.R6
import proofs.«162064_j1357209666150_1_alg».proof.Proof.KI.R7
import proofs.«162064_j1357209666150_1_alg».proof.Proof.KI.R8
import proofs.«162064_j1357209666150_1_alg».proof.Proof.KI.R9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev R (c : Dev nD) : sProp 𝕄 := iprop((∃ r, prngReg c r) ∗ ∃ W, owes (c : Thread nD τ) (0 : CellTallies nD τ sig Unit) W)
/-- A boundary's contents read at the TensorCore's references. -/
abbrev tcv (W : Dev nD → Valuation τ sig (Elt F)) : (c : Dev nD) → (b : Ref sig .tc) → Buf (Elt F) ((c : Thread nD τ).loc b) := fun c b => W c b

abbrev U5 (c : Dev nD) : Valuation τ sig (Elt F) := V5 m c
/-- Region 0's arrays after its run, every other buffer as it found it. -/
def X6 (c : Dev nD) : Valuation τ sig (Elt F) :=
  Pipeline.withArrays spec0 c (U5 m c) fun w => (dat0 (tcv (U5 m)) c).arrAt w cfg0.N
abbrev U6 (c : Dev nD) : Valuation τ sig (Elt F) := Function.update (U5 m c) main_v31 (X6 m c main_v31)
abbrev U7 (c : Dev nD) : Valuation τ sig (Elt F) := StableHlo.after hostOps1 (U6 m c)
/-- Region 1's arrays after its run, every other buffer as it found it. -/
def X8 (c : Dev nD) : Valuation τ sig (Elt F) :=
  Pipeline.withArrays spec1 c (U7 m c) fun w => (dat1 (tcv (U7 m)) c).arrAt w cfg1.N
abbrev U8 (c : Dev nD) : Valuation τ sig (Elt F) := Function.update (Function.update (Function.update (U7 m c) main_v53_0 (X8 m c main_v53_0)) main_v53_1 (X8 m c main_v53_1)) main_v53_2 (X8 m c main_v53_2)
abbrev U9 (c : Dev nD) : Valuation τ sig (Elt F) := StableHlo.after hostOps2 (U8 m c)
/-- Region 2's arrays after its run, every other buffer as it found it. -/
def X10 (c : Dev nD) : Valuation τ sig (Elt F) :=
  Pipeline.withArrays spec2 c (U9 m c) fun w => (dat2 (tcv (U9 m)) c).arrAt w cfg2.N
abbrev U10 (c : Dev nD) : Valuation τ sig (Elt F) := Function.update (U9 m c) main_v60 (X10 m c main_v60)
abbrev U11 (c : Dev nD) : Valuation τ sig (Elt F) := StableHlo.after hostOps3 (U10 m c)
/-- Region 3's arrays after its run, every other buffer as it found it. -/
def X12 (c : Dev nD) : Valuation τ sig (Elt F) :=
  Pipeline.withArrays spec3 c (U11 m c) fun w => (dat3 (tcv (U11 m)) c).arrAt w cfg3.N
abbrev U12 (c : Dev nD) : Valuation τ sig (Elt F) := Function.update (Function.update (Function.update (U11 m c) main_v82_0 (X12 m c main_v82_0)) main_v82_1 (X12 m c main_v82_1)) main_v82_2 (X12 m c main_v82_2)
abbrev U13 (c : Dev nD) : Valuation τ sig (Elt F) := StableHlo.after hostOps4 (U12 m c)
/-- Region 4's arrays after its run, every other buffer as it found it. -/
def X14 (c : Dev nD) : Valuation τ sig (Elt F) :=
  Pipeline.withArrays spec4 c (U13 m c) fun w => (dat4 (tcv (U13 m)) c).arrAt w cfg4.N
abbrev U14 (c : Dev nD) : Valuation τ sig (Elt F) := Function.update (U13 m c) main_v89 (X14 m c main_v89)
abbrev U15 (c : Dev nD) : Valuation τ sig (Elt F) := StableHlo.after hostOps5 (U14 m c)
/-- Region 5's arrays after its run, every other buffer as it found it. -/
def X16 (c : Dev nD) : Valuation τ sig (Elt F) :=
  Pipeline.withArrays spec5 c (U15 m c) fun w => (dat5 (tcv (U15 m)) c).arrAt w cfg5.N
abbrev U16 (c : Dev nD) : Valuation τ sig (Elt F) := Function.update (Function.update (Function.update (U15 m c) main_v111_0 (X16 m c main_v111_0)) main_v111_1 (X16 m c main_v111_1)) main_v111_2 (X16 m c main_v111_2)
abbrev U17 (c : Dev nD) : Valuation τ sig (Elt F) := StableHlo.after hostOps6 (U16 m c)
/-- Region 6's arrays after its run, every other buffer as it found it. -/
def X18 (c : Dev nD) : Valuation τ sig (Elt F) :=
  Pipeline.withArrays spec6 c (U17 m c) fun w => (dat6 (tcv (U17 m)) c).arrAt w cfg6.N
abbrev U18 (c : Dev nD) : Valuation τ sig (Elt F) := Function.update (U17 m c) main_v118 (X18 m c main_v118)
abbrev U19 (c : Dev nD) : Valuation τ sig (Elt F) := StableHlo.after hostOps7 (U18 m c)
/-- Region 7's arrays after its run, every other buffer as it found it. -/
def X20 (c : Dev nD) : Valuation τ sig (Elt F) :=
  Pipeline.withArrays spec7 c (U19 m c) fun w => (dat7 (tcv (U19 m)) c).arrAt w cfg7.N
abbrev U20 (c : Dev nD) : Valuation τ sig (Elt F) := Function.update (Function.update (Function.update (U19 m c) main_v140_0 (X20 m c main_v140_0)) main_v140_1 (X20 m c main_v140_1)) main_v140_2 (X20 m c main_v140_2)
abbrev U21 (c : Dev nD) : Valuation τ sig (Elt F) := StableHlo.after hostOps8 (U20 m c)
/-- Region 8's arrays after its run, every other buffer as it found it. -/
def X22 (c : Dev nD) : Valuation τ sig (Elt F) :=
  Pipeline.withArrays spec8 c (U21 m c) fun w => (dat8 (tcv (U21 m)) c).arrAt w cfg8.N
abbrev U22 (c : Dev nD) : Valuation τ sig (Elt F) := Function.update (U21 m c) main_v147 (X22 m c main_v147)
abbrev U23 (c : Dev nD) : Valuation τ sig (Elt F) := StableHlo.after hostOps9 (U22 m c)
/-- Region 9's arrays after its run, every other buffer as it found it. -/
def X24 (c : Dev nD) : Valuation τ sig (Elt F) :=
  Pipeline.withArrays spec9 c (U23 m c) fun w => (dat9 (tcv (U23 m)) c).arrAt w cfg9.N
abbrev U24 (c : Dev nD) : Valuation τ sig (Elt F) := Function.update (U23 m c) main_v149 (X24 m c main_v149)

/-- What each region leaves in the buffers it may change. -/
def outs : Outs (F := F) := fun J r c => match J with
  | 6 => X6 m c r
  | 8 => X8 m c r
  | 10 => X10 m c r
  | 12 => X12 m c r
  | 14 => X14 m c r
  | 16 => X16 m c r
  | 18 => X18 m c r
  | 20 => X20 m c r
  | 22 => X22 m c r
  | _ => X24 m c r

theorem eq5 (c : Dev nD) : V5 m c = U5 m c := rfl
theorem eq6 (c : Dev nD) : V6 m (outs m) c = U6 m c := rfl
theorem eq7 (c : Dev nD) : V7 m (outs m) c = U7 m c := rfl
theorem eq8 (c : Dev nD) : V8 m (outs m) c = U8 m c := rfl
theorem eq9 (c : Dev nD) : V9 m (outs m) c = U9 m c := rfl
theorem eq10 (c : Dev nD) : V10 m (outs m) c = U10 m c := rfl
theorem eq11 (c : Dev nD) : V11 m (outs m) c = U11 m c := rfl
theorem eq12 (c : Dev nD) : V12 m (outs m) c = U12 m c := rfl
theorem eq13 (c : Dev nD) : V13 m (outs m) c = U13 m c := rfl
theorem eq14 (c : Dev nD) : V14 m (outs m) c = U14 m c := rfl
theorem eq15 (c : Dev nD) : V15 m (outs m) c = U15 m c := rfl
theorem eq16 (c : Dev nD) : V16 m (outs m) c = U16 m c := rfl
theorem eq17 (c : Dev nD) : V17 m (outs m) c = U17 m c := rfl
theorem eq18 (c : Dev nD) : V18 m (outs m) c = U18 m c := rfl
theorem eq19 (c : Dev nD) : V19 m (outs m) c = U19 m c := rfl
theorem eq20 (c : Dev nD) : V20 m (outs m) c = U20 m c := rfl
theorem eq21 (c : Dev nD) : V21 m (outs m) c = U21 m c := rfl
theorem eq22 (c : Dev nD) : V22 m (outs m) c = U22 m c := rfl
theorem eq23 (c : Dev nD) : V23 m (outs m) c = U23 m c := rfl
theorem eq24 (c : Dev nD) : V24 m (outs m) c = U24 m c := rfl

/-- Every pipeline's proof data, each at its region's entry contents. -/
def pdats : (p : Fin 10) → (c : Dev nD) → Dat τ (Elt F) Unit ℕ (UR sig nD τ) ℕ (Pipeline.pin (pcfgs (F := F)) adm p) c
  | ⟨0, _⟩ => fun c => dat0 (tcv (U5 m)) c
  | ⟨1, _⟩ => fun c => dat1 (tcv (U7 m)) c
  | ⟨2, _⟩ => fun c => dat2 (tcv (U9 m)) c
  | ⟨3, _⟩ => fun c => dat3 (tcv (U11 m)) c
  | ⟨4, _⟩ => fun c => dat4 (tcv (U13 m)) c
  | ⟨5, _⟩ => fun c => dat5 (tcv (U15 m)) c
  | ⟨6, _⟩ => fun c => dat6 (tcv (U17 m)) c
  | ⟨7, _⟩ => fun c => dat7 (tcv (U19 m)) c
  | ⟨8, _⟩ => fun c => dat8 (tcv (U21 m)) c
  | ⟨9, _⟩ => fun c => dat9 (tcv (U23 m)) c

end Cert.KernelIdeal.Hand

end
-- ==== Proof.KI.Seg0.lean ====
/-
  Region 0 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U6_of (c : Dev nD) (b : Ref sig .tc) (h : b ∉ ([main_v31] : List (Ref sig .tc))) : U6 m c b = U5 m c b :=
  V6_of m (outs m) c b h

/-- The result buffer `main_v31` after the region holds what the pipeline leaves in it. -/
theorem U6_main_v31 (c : Dev nD) : U6 m c main_v31 = X6 m c main_v31 := by
  simp only [U6, Function.update_self]

set_option maxHeartbeats 4000000 in
theorem hF0 (c : Dev nD) (w : Fin cfg0.W) : (dat0 (tcv (U5 m)) c).arrAt w cfg0.N = tcv (U6 m) c (Pipeline.arrRef spec0 w) := by
  match w with
  | ⟨0, _⟩ => exact ((dat0 (tcv (U5 m)) c).arrAt_in 0 rfl _).trans ((A_eq0 (tcv (U5 m)) c 0).trans (U6_of m c _ (by decide)).symm)
  | ⟨1, _⟩ => exact ((dat0 (tcv (U5 m)) c).arrAt_in 1 rfl _).trans ((A_eq0 (tcv (U5 m)) c 1).trans (U6_of m c _ (by decide)).symm)
  | ⟨2, _⟩ => exact ((dat0 (tcv (U5 m)) c).arrAt_in 2 rfl _).trans ((A_eq0 (tcv (U5 m)) c 2).trans (U6_of m c _ (by decide)).symm)
  | ⟨3, _⟩ => exact ((Pipeline.withArrays_arr spec0 launch0.win.arr_inj c _ _ 3).symm.trans (U6_main_v31 m c).symm)

theorem hrest0 (c : Dev nD) : ∀ b, b ∉ Finset.univ.image (Pipeline.arrRef spec0) → tcv (U6 m) c b = tcv (U5 m) c b :=
  fun b hb => U6_of m c b (fun hmem => by

    exact hb (Finset.mem_image.mpr ⟨3, Finset.mem_univ _, (List.mem_singleton.mp hmem).symm⟩))

set_option backward.isDefEq.respectTransparency.types false in
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (U5 m)) c).loose
  hwaits := Pipeline.hwaits_of_owed_zero _ _ _ _ L lv 0 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := UR sig nD τ) (Lvl := ℕ) spec0 c (tcv (U5 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (tcv (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (tcv (U5 m) c) (tcv (U6 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U8_of (c : Dev nD) (b : Ref sig .tc) (h : b ∉ ([main_v53_0, main_v53_1, main_v53_2] : List (Ref sig .tc))) : U8 m c b = U7 m c b :=
  V8_of m (outs m) c b h

/-- The result buffer `main_v53_0` after the region holds what the pipeline leaves in it. -/
theorem U8_main_v53_0 (c : Dev nD) : U8 m c main_v53_0 = X8 m c main_v53_0 := by
  simp only [U8, Function.update_of_ne (StableHlo.devRef_ne_of_ne (by decide) : (Proc.devRef .tc main_v53_0 : DevRef τ sig) ≠ Proc.devRef .tc main_v53_1), Function.update_of_ne (StableHlo.devRef_ne_of_ne (by decide) : (Proc.devRef .tc main_v53_0 : DevRef τ sig) ≠ Proc.devRef .tc main_v53_2), Function.update_self]

/-- The result buffer `main_v53_1` after the region holds what the pipeline leaves in it. -/
theorem U8_main_v53_1 (c : Dev nD) : U8 m c main_v53_1 = X8 m c main_v53_1 := by
  simp only [U8, Function.update_of_ne (StableHlo.devRef_ne_of_ne (by decide) : (Proc.devRef .tc main_v53_1 : DevRef τ sig) ≠ Proc.devRef .tc main_v53_2), Function.update_self]

/-- The result buffer `main_v53_2` after the region holds what the pipeline leaves in it. -/
theorem U8_main_v53_2 (c : Dev nD) : U8 m c main_v53_2 = X8 m c main_v53_2 := by
  simp only [U8, Function.update_self]

set_option maxHeartbeats 4000000 in
theorem hF1 (c : Dev nD) (w : Fin cfg1.W) : (dat1 (tcv (U7 m)) c).arrAt w cfg1.N = tcv (U8 m) c (Pipeline.arrRef spec1 w) := by
  match w with
  | ⟨0, _⟩ => exact ((dat1 (tcv (U7 m)) c).arrAt_in 0 rfl _).trans ((A_eq1 (tcv (U7 m)) c 0).trans (U8_of m c _ (by decide)).symm)
  | ⟨1, _⟩ => exact ((dat1 (tcv (U7 m)) c).arrAt_in 1 rfl _).trans ((A_eq1 (tcv (U7 m)) c 1).trans (U8_of m c _ (by decide)).symm)
  | ⟨2, _⟩ => exact ((dat1 (tcv (U7 m)) c).arrAt_in 2 rfl _).trans ((A_eq1 (tcv (U7 m)) c 2).trans (U8_of m c _ (by decide)).symm)
  | ⟨3, _⟩ => exact ((Pipeline.withArrays_arr spec1 launch1.win.arr_inj c _ _ 3).symm.trans (U8_main_v53_0 m c).symm)
  | ⟨4, _⟩ => exact ((Pipeline.withArrays_arr spec1 launch1.win.arr_inj c _ _ 4).symm.trans (U8_main_v53_1 m c).symm)
  | ⟨5, _⟩ => exact ((Pipeline.withArrays_arr spec1 launch1.win.arr_inj c _ _ 5).symm.trans (U8_main_v53_2 m c).symm)

theorem hrest1 (c : Dev nD) : ∀ b, b ∉ Finset.univ.image (Pipeline.arrRef spec1) → tcv (U8 m) c b = tcv (U7 m) c b :=
  fun b hb => U8_of m c b (fun hmem => by
    rcases List.mem_cons.mp hmem with e | hmem
    · exact hb (Finset.mem_image.mpr ⟨3, Finset.mem_univ _, e.symm⟩)
    rcases List.mem_cons.mp hmem with e | hmem
    · exact hb (Finset.mem_image.mpr ⟨4, Finset.mem_univ _, e.symm⟩)
    exact hb (Finset.mem_image.mpr ⟨5, Finset.mem_univ _, (List.mem_singleton.mp hmem).symm⟩))

set_option backward.isDefEq.respectTransparency.types false in
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (U7 m)) c).loose
  hwaits := Pipeline.hwaits_of_owed_zero _ _ _ _ L lv 1 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := UR sig nD τ) (Lvl := ℕ) spec1 c (tcv (U7 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (tcv (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (tcv (U7 m)) c); unfold Pipeline.ΦA
    iintro ⟨Hp, -, Hr⟩
    isplitl [Hr]; · iexact Hr
    iexact Hp
  hout c := by
    rw [Pipeline.ownSems0_none]; refine BIBase.Entails.trans (hout1 (tcv (U7 m)) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (tcv (U7 m) c) (tcv (U8 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U10_of (c : Dev nD) (b : Ref sig .tc) (h : b ∉ ([main_v60] : List (Ref sig .tc))) : U10 m c b = U9 m c b :=
  V10_of m (outs m) c b h

/-- The result buffer `main_v60` after the region holds what the pipeline leaves in it. -/
theorem U10_main_v60 (c : Dev nD) : U10 m c main_v60 = X10 m c main_v60 := by
  simp only [U10, Function.update_self]

set_option maxHeartbeats 4000000 in
theorem hF2 (c : Dev nD) (w : Fin cfg2.W) : (dat2 (tcv (U9 m)) c).arrAt w cfg2.N = tcv (U10 m) c (Pipeline.arrRef spec2 w) := by
  match w with
  | ⟨0, _⟩ => exact ((dat2 (tcv (U9 m)) c).arrAt_in 0 rfl _).trans ((A_eq2 (tcv (U9 m)) c 0).trans (U10_of m c _ (by decide)).symm)
  | ⟨1, _⟩ => exact ((dat2 (tcv (U9 m)) c).arrAt_in 1 rfl _).trans ((A_eq2 (tcv (U9 m)) c 1).trans (U10_of m c _ (by decide)).symm)
  | ⟨2, _⟩ => exact ((dat2 (tcv (U9 m)) c).arrAt_in 2 rfl _).trans ((A_eq2 (tcv (U9 m)) c 2).trans (U10_of m c _ (by decide)).symm)
  | ⟨3, _⟩ => exact ((dat2 (tcv (U9 m)) c).arrAt_in 3 rfl _).trans ((A_eq2 (tcv (U9 m)) c 3).trans (U10_of m c _ (by decide)).symm)
  | ⟨4, _⟩ => exact ((dat2 (tcv (U9 m)) c).arrAt_in 4 rfl _).trans ((A_eq2 (tcv (U9 m)) c 4).trans (U10_of m c _ (by decide)).symm)
  | ⟨5, _⟩ => exact ((dat2 (tcv (U9 m)) c).arrAt_in 5 rfl _).trans ((A_eq2 (tcv (U9 m)) c 5).trans (U10_of m c _ (by decide)).symm)
  | ⟨6, _⟩ => exact ((Pipeline.withArrays_arr spec2 launch2.win.arr_inj c _ _ 6).symm.trans (U10_main_v60 m c).symm)

theorem hrest2 (c : Dev nD) : ∀ b, b ∉ Finset.univ.image (Pipeline.arrRef spec2) → tcv (U10 m) c b = tcv (U9 m) c b :=
  fun b hb => U10_of m c b (fun hmem => by

    exact hb (Finset.mem_image.mpr ⟨6, Finset.mem_univ _, (List.mem_singleton.mp hmem).symm⟩))

set_option backward.isDefEq.respectTransparency.types false in
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (U9 m)) c).loose
  hwaits := Pipeline.hwaits_of_owed_zero _ _ _ _ L lv 2 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := UR sig nD τ) (Lvl := ℕ) spec2 c (tcv (U9 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (tcv (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (tcv (U9 m) c) (tcv (U10 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U12_of (c : Dev nD) (b : Ref sig .tc) (h : b ∉ ([main_v82_0, main_v82_1, main_v82_2] : List (Ref sig .tc))) : U12 m c b = U11 m c b :=
  V12_of m (outs m) c b h

/-- The result buffer `main_v82_0` after the region holds what the pipeline leaves in it. -/
theorem U12_main_v82_0 (c : Dev nD) : U12 m c main_v82_0 = X12 m c main_v82_0 := by
  simp only [U12, Function.update_of_ne (StableHlo.devRef_ne_of_ne (by decide) : (Proc.devRef .tc main_v82_0 : DevRef τ sig) ≠ Proc.devRef .tc main_v82_1), Function.update_of_ne (StableHlo.devRef_ne_of_ne (by decide) : (Proc.devRef .tc main_v82_0 : DevRef τ sig) ≠ Proc.devRef .tc main_v82_2), Function.update_self]

/-- The result buffer `main_v82_1` after the region holds what the pipeline leaves in it. -/
theorem U12_main_v82_1 (c : Dev nD) : U12 m c main_v82_1 = X12 m c main_v82_1 := by
  simp only [U12, Function.update_of_ne (StableHlo.devRef_ne_of_ne (by decide) : (Proc.devRef .tc main_v82_1 : DevRef τ sig) ≠ Proc.devRef .tc main_v82_2), Function.update_self]

/-- The result buffer `main_v82_2` after the region holds what the pipeline leaves in it. -/
theorem U12_main_v82_2 (c : Dev nD) : U12 m c main_v82_2 = X12 m c main_v82_2 := by
  simp only [U12, Function.update_self]

set_option maxHeartbeats 4000000 in
theorem hF3 (c : Dev nD) (w : Fin cfg3.W) : (dat3 (tcv (U11 m)) c).arrAt w cfg3.N = tcv (U12 m) c (Pipeline.arrRef spec3 w) := by
  match w with
  | ⟨0, _⟩ => exact ((dat3 (tcv (U11 m)) c).arrAt_in 0 rfl _).trans ((A_eq3 (tcv (U11 m)) c 0).trans (U12_of m c _ (by decide)).symm)
  | ⟨1, _⟩ => exact ((dat3 (tcv (U11 m)) c).arrAt_in 1 rfl _).trans ((A_eq3 (tcv (U11 m)) c 1).trans (U12_of m c _ (by decide)).symm)
  | ⟨2, _⟩ => exact ((dat3 (tcv (U11 m)) c).arrAt_in 2 rfl _).trans ((A_eq3 (tcv (U11 m)) c 2).trans (U12_of m c _ (by decide)).symm)
  | ⟨3, _⟩ => exact ((Pipeline.withArrays_arr spec3 launch3.win.arr_inj c _ _ 3).symm.trans (U12_main_v82_0 m c).symm)
  | ⟨4, _⟩ => exact ((Pipeline.withArrays_arr spec3 launch3.win.arr_inj c _ _ 4).symm.trans (U12_main_v82_1 m c).symm)
  | ⟨5, _⟩ => exact ((Pipeline.withArrays_arr spec3 launch3.win.arr_inj c _ _ 5).symm.trans (U12_main_v82_2 m c).symm)

theorem hrest3 (c : Dev nD) : ∀ b, b ∉ Finset.univ.image (Pipeline.arrRef spec3) → tcv (U12 m) c b = tcv (U11 m) c b :=
  fun b hb => U12_of m c b (fun hmem => by
    rcases List.mem_cons.mp hmem with e | hmem
    · exact hb (Finset.mem_image.mpr ⟨3, Finset.mem_univ _, e.symm⟩)
    rcases List.mem_cons.mp hmem with e | hmem
    · exact hb (Finset.mem_image.mpr ⟨4, Finset.mem_univ _, e.symm⟩)
    exact hb (Finset.mem_image.mpr ⟨5, Finset.mem_univ _, (List.mem_singleton.mp hmem).symm⟩))

set_option backward.isDefEq.respectTransparency.types false in
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcv (U11 m)) c).loose
  hwaits := Pipeline.hwaits_of_owed_zero _ _ _ _ L lv 3 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := UR sig nD τ) (Lvl := ℕ) spec3 c (tcv (U11 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcv (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (tcv (U11 m)) c); unfold Pipeline.ΦA
    iintro ⟨Hp, -, Hr⟩
    isplitl [Hr]; · iexact Hr
    iexact Hp
  hout c := by
    rw [Pipeline.ownSems0_none]; refine BIBase.Entails.trans (hout3 (tcv (U11 m)) c) ?_; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcv (U11 m) c) (tcv (U12 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U14_of (c : Dev nD) (b : Ref sig .tc) (h : b ∉ ([main_v89] : List (Ref sig .tc))) : U14 m c b = U13 m c b :=
  V14_of m (outs m) c b h

/-- The result buffer `main_v89` after the region holds what the pipeline leaves in it. -/
theorem U14_main_v89 (c : Dev nD) : U14 m c main_v89 = X14 m c main_v89 := by
  simp only [U14, Function.update_self]

set_option maxHeartbeats 4000000 in
theorem hF4 (c : Dev nD) (w : Fin cfg4.W) : (dat4 (tcv (U13 m)) c).arrAt w cfg4.N = tcv (U14 m) c (Pipeline.arrRef spec4 w) := by
  match w with
  | ⟨0, _⟩ => exact ((dat4 (tcv (U13 m)) c).arrAt_in 0 rfl _).trans ((A_eq4 (tcv (U13 m)) c 0).trans (U14_of m c _ (by decide)).symm)
  | ⟨1, _⟩ => exact ((dat4 (tcv (U13 m)) c).arrAt_in 1 rfl _).trans ((A_eq4 (tcv (U13 m)) c 1).trans (U14_of m c _ (by decide)).symm)
  | ⟨2, _⟩ => exact ((dat4 (tcv (U13 m)) c).arrAt_in 2 rfl _).trans ((A_eq4 (tcv (U13 m)) c 2).trans (U14_of m c _ (by decide)).symm)
  | ⟨3, _⟩ => exact ((dat4 (tcv (U13 m)) c).arrAt_in 3 rfl _).trans ((A_eq4 (tcv (U13 m)) c 3).trans (U14_of m c _ (by decide)).symm)
  | ⟨4, _⟩ => exact ((dat4 (tcv (U13 m)) c).arrAt_in 4 rfl _).trans ((A_eq4 (tcv (U13 m)) c 4).trans (U14_of m c _ (by decide)).symm)
  | ⟨5, _⟩ => exact ((dat4 (tcv (U13 m)) c).arrAt_in 5 rfl _).trans ((A_eq4 (tcv (U13 m)) c 5).trans (U14_of m c _ (by decide)).symm)
  | ⟨6, _⟩ => exact ((Pipeline.withArrays_arr spec4 launch4.win.arr_inj c _ _ 6).symm.trans (U14_main_v89 m c).symm)

theorem hrest4 (c : Dev nD) : ∀ b, b ∉ Finset.univ.image (Pipeline.arrRef spec4) → tcv (U14 m) c b = tcv (U13 m) c b :=
  fun b hb => U14_of m c b (fun hmem => by

    exact hb (Finset.mem_image.mpr ⟨6, Finset.mem_univ _, (List.mem_singleton.mp hmem).symm⟩))

set_option backward.isDefEq.respectTransparency.types false in
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tcv (U13 m)) c).loose
  hwaits := Pipeline.hwaits_of_owed_zero _ _ _ _ L lv 4 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := UR sig nD τ) (Lvl := ℕ) spec4 c (tcv (U13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (tcv (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (tcv (U13 m) c) (tcv (U14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
/-
  Region 5 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U16_of (c : Dev nD) (b : Ref sig .tc) (h : b ∉ ([main_v111_0, main_v111_1, main_v111_2] : List (Ref sig .tc))) : U16 m c b = U15 m c b :=
  V16_of m (outs m) c b h

/-- The result buffer `main_v111_0` after the region holds what the pipeline leaves in it. -/
theorem U16_main_v111_0 (c : Dev nD) : U16 m c main_v111_0 = X16 m c main_v111_0 := by
  simp only [U16, Function.update_of_ne (StableHlo.devRef_ne_of_ne (by decide) : (Proc.devRef .tc main_v111_0 : DevRef τ sig) ≠ Proc.devRef .tc main_v111_1), Function.update_of_ne (StableHlo.devRef_ne_of_ne (by decide) : (Proc.devRef .tc main_v111_0 : DevRef τ sig) ≠ Proc.devRef .tc main_v111_2), Function.update_self]

/-- The result buffer `main_v111_1` after the region holds what the pipeline leaves in it. -/
theorem U16_main_v111_1 (c : Dev nD) : U16 m c main_v111_1 = X16 m c main_v111_1 := by
  simp only [U16, Function.update_of_ne (StableHlo.devRef_ne_of_ne (by decide) : (Proc.devRef .tc main_v111_1 : DevRef τ sig) ≠ Proc.devRef .tc main_v111_2), Function.update_self]

/-- The result buffer `main_v111_2` after the region holds what the pipeline leaves in it. -/
theorem U16_main_v111_2 (c : Dev nD) : U16 m c main_v111_2 = X16 m c main_v111_2 := by
  simp only [U16, Function.update_self]

set_option maxHeartbeats 4000000 in
theorem hF5 (c : Dev nD) (w : Fin cfg5.W) : (dat5 (tcv (U15 m)) c).arrAt w cfg5.N = tcv (U16 m) c (Pipeline.arrRef spec5 w) := by
  match w with
  | ⟨0, _⟩ => exact ((dat5 (tcv (U15 m)) c).arrAt_in 0 rfl _).trans ((A_eq5 (tcv (U15 m)) c 0).trans (U16_of m c _ (by decide)).symm)
  | ⟨1, _⟩ => exact ((dat5 (tcv (U15 m)) c).arrAt_in 1 rfl _).trans ((A_eq5 (tcv (U15 m)) c 1).trans (U16_of m c _ (by decide)).symm)
  | ⟨2, _⟩ => exact ((dat5 (tcv (U15 m)) c).arrAt_in 2 rfl _).trans ((A_eq5 (tcv (U15 m)) c 2).trans (U16_of m c _ (by decide)).symm)
  | ⟨3, _⟩ => exact ((Pipeline.withArrays_arr spec5 launch5.win.arr_inj c _ _ 3).symm.trans (U16_main_v111_0 m c).symm)
  | ⟨4, _⟩ => exact ((Pipeline.withArrays_arr spec5 launch5.win.arr_inj c _ _ 4).symm.trans (U16_main_v111_1 m c).symm)
  | ⟨5, _⟩ => exact ((Pipeline.withArrays_arr spec5 launch5.win.arr_inj c _ _ 5).symm.trans (U16_main_v111_2 m c).symm)

theorem hrest5 (c : Dev nD) : ∀ b, b ∉ Finset.univ.image (Pipeline.arrRef spec5) → tcv (U16 m) c b = tcv (U15 m) c b :=
  fun b hb => U16_of m c b (fun hmem => by
    rcases List.mem_cons.mp hmem with e | hmem
    · exact hb (Finset.mem_image.mpr ⟨3, Finset.mem_univ _, e.symm⟩)
    rcases List.mem_cons.mp hmem with e | hmem
    · exact hb (Finset.mem_image.mpr ⟨4, Finset.mem_univ _, e.symm⟩)
    exact hb (Finset.mem_image.mpr ⟨5, Finset.mem_univ _, (List.mem_singleton.mp hmem).symm⟩))

set_option backward.isDefEq.respectTransparency.types false in
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tcv (U15 m)) c).loose
  hwaits := Pipeline.hwaits_of_owed_zero _ _ _ _ L lv 5 fun _ _ => rfl
  pre c := iprop(StableHlo.held (c : Thread nD τ) (Pipeline.ucRefs τ sig) (U15 m c) ∗ R c)
  post c := iprop(StableHlo.held (c : Thread nD τ) (Pipeline.ucRefs τ sig) (U16 m c) ∗ R c)
  X c := iprop(∃ r, prngReg c r)
  Y c := iprop(∃ r, prngReg c r)
  Z c := Pipeline.unscopedRest (Ix := Unit) (Name := ℕ) (U := UR sig nD τ) (Lvl := ℕ) spec5 c (tcv (U15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (tcv (U15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (tcv (U15 m)) c); unfold Pipeline.ΦA
    iintro ⟨Hp, -, Hr⟩
    isplitl [Hr]; · iexact Hr
    iexact Hp
  hout c := by
    rw [Pipeline.ownSems0_none]; refine BIBase.Entails.trans (hout5 (tcv (U15 m)) c) ?_; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (tcv (U15 m) c) (tcv (U16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
/-
  Region 6 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U18_of (c : Dev nD) (b : Ref sig .tc) (h : b ∉ ([main_v118] : List (Ref sig .tc))) : U18 m c b = U17 m c b :=
  V18_of m (outs m) c b h

/-- The result buffer `main_v118` after the region holds what the pipeline leaves in it. -/
theorem U18_main_v118 (c : Dev nD) : U18 m c main_v118 = X18 m c main_v118 := by
  simp only [U18, Function.update_self]

set_option maxHeartbeats 4000000 in
theorem hF6 (c : Dev nD) (w : Fin cfg6.W) : (dat6 (tcv (U17 m)) c).arrAt w cfg6.N = tcv (U18 m) c (Pipeline.arrRef spec6 w) := by
  match w with
  | ⟨0, _⟩ => exact ((dat6 (tcv (U17 m)) c).arrAt_in 0 rfl _).trans ((A_eq6 (tcv (U17 m)) c 0).trans (U18_of m c _ (by decide)).symm)
  | ⟨1, _⟩ => exact ((dat6 (tcv (U17 m)) c).arrAt_in 1 rfl _).trans ((A_eq6 (tcv (U17 m)) c 1).trans (U18_of m c _ (by decide)).symm)
  | ⟨2, _⟩ => exact ((dat6 (tcv (U17 m)) c).arrAt_in 2 rfl _).trans ((A_eq6 (tcv (U17 m)) c 2).trans (U18_of m c _ (by decide)).symm)
  | ⟨3, _⟩ => exact ((dat6 (tcv (U17 m)) c).arrAt_in 3 rfl _).trans ((A_eq6 (tcv (U17 m)) c 3).trans (U18_of m c _ (by decide)).symm)
  | ⟨4, _⟩ => exact ((dat6 (tcv (U17 m)) c).arrAt_in 4 rfl _).trans ((A_eq6 (tcv (U17 m)) c 4).trans (U18_of m c _ (by decide)).symm)
  | ⟨5, _⟩ => exact ((dat6 (tcv (U17 m)) c).arrAt_in 5 rfl _).trans ((A_eq6 (tcv (U17 m)) c 5).trans (U18_of m c _ (by decide)).symm)
  | ⟨6, _⟩ => exact ((Pipeline.withArrays_arr spec6 launch6.win.arr_inj c _ _ 6).symm.trans (U18_main_v118 m c).symm)

theorem hrest6 (c : Dev nD) : ∀ b, b ∉ Finset.univ.image (Pipeline.arrRef spec6) → tcv (U18 m) c b = tcv (U17 m) c b :=
  fun b hb => U18_of m c b (fun hmem => by

    exact hb (Finset.mem_image.mpr ⟨6, Finset.mem_univ _, (List.mem_singleton.mp hmem).symm⟩))

set_option backward.isDefEq.respectTransparency.types false in
def reg6 : RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tcv (U17 m)) c).loose
  hwaits := Pipeline.hwaits_of_owed_zero _ _ _ _ L lv 6 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec6 c (tcv (U17 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (tcv (U17 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (tcv (U17 m) c) (tcv (U18 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
/-
  Region 7 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U20_of (c : Dev nD) (b : Ref sig .tc) (h : b ∉ ([main_v140_0, main_v140_1, main_v140_2] : List (Ref sig .tc))) : U20 m c b = U19 m c b :=
  V20_of m (outs m) c b h

/-- The result buffer `main_v140_0` after the region holds what the pipeline leaves in it. -/
theorem U20_main_v140_0 (c : Dev nD) : U20 m c main_v140_0 = X20 m c main_v140_0 := by
  simp only [U20, Function.update_of_ne (StableHlo.devRef_ne_of_ne (by decide) : (Proc.devRef .tc main_v140_0 : DevRef τ sig) ≠ Proc.devRef .tc main_v140_1), Function.update_of_ne (StableHlo.devRef_ne_of_ne (by decide) : (Proc.devRef .tc main_v140_0 : DevRef τ sig) ≠ Proc.devRef .tc main_v140_2), Function.update_self]

/-- The result buffer `main_v140_1` after the region holds what the pipeline leaves in it. -/
theorem U20_main_v140_1 (c : Dev nD) : U20 m c main_v140_1 = X20 m c main_v140_1 := by
  simp only [U20, Function.update_of_ne (StableHlo.devRef_ne_of_ne (by decide) : (Proc.devRef .tc main_v140_1 : DevRef τ sig) ≠ Proc.devRef .tc main_v140_2), Function.update_self]

/-- The result buffer `main_v140_2` after the region holds what the pipeline leaves in it. -/
theorem U20_main_v140_2 (c : Dev nD) : U20 m c main_v140_2 = X20 m c main_v140_2 := by
  simp only [U20, Function.update_self]

set_option maxHeartbeats 4000000 in
theorem hF7 (c : Dev nD) (w : Fin cfg7.W) : (dat7 (tcv (U19 m)) c).arrAt w cfg7.N = tcv (U20 m) c (Pipeline.arrRef spec7 w) := by
  match w with
  | ⟨0, _⟩ => exact ((dat7 (tcv (U19 m)) c).arrAt_in 0 rfl _).trans ((A_eq7 (tcv (U19 m)) c 0).trans (U20_of m c _ (by decide)).symm)
  | ⟨1, _⟩ => exact ((dat7 (tcv (U19 m)) c).arrAt_in 1 rfl _).trans ((A_eq7 (tcv (U19 m)) c 1).trans (U20_of m c _ (by decide)).symm)
  | ⟨2, _⟩ => exact ((dat7 (tcv (U19 m)) c).arrAt_in 2 rfl _).trans ((A_eq7 (tcv (U19 m)) c 2).trans (U20_of m c _ (by decide)).symm)
  | ⟨3, _⟩ => exact ((Pipeline.withArrays_arr spec7 launch7.win.arr_inj c _ _ 3).symm.trans (U20_main_v140_0 m c).symm)
  | ⟨4, _⟩ => exact ((Pipeline.withArrays_arr spec7 launch7.win.arr_inj c _ _ 4).symm.trans (U20_main_v140_1 m c).symm)
  | ⟨5, _⟩ => exact ((Pipeline.withArrays_arr spec7 launch7.win.arr_inj c _ _ 5).symm.trans (U20_main_v140_2 m c).symm)

theorem hrest7 (c : Dev nD) : ∀ b, b ∉ Finset.univ.image (Pipeline.arrRef spec7) → tcv (U20 m) c b = tcv (U19 m) c b :=
  fun b hb => U20_of m c b (fun hmem => by
    rcases List.mem_cons.mp hmem with e | hmem
    · exact hb (Finset.mem_image.mpr ⟨3, Finset.mem_univ _, e.symm⟩)
    rcases List.mem_cons.mp hmem with e | hmem
    · exact hb (Finset.mem_image.mpr ⟨4, Finset.mem_univ _, e.symm⟩)
    exact hb (Finset.mem_image.mpr ⟨5, Finset.mem_univ _, (List.mem_singleton.mp hmem).symm⟩))

set_option backward.isDefEq.respectTransparency.types false in
def reg7 : RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (tcv (U19 m)) c).loose
  hwaits := Pipeline.hwaits_of_owed_zero _ _ _ _ L lv 7 fun _ _ => rfl
  pre c := iprop(StableHlo.held (c : Thread nD τ) (Pipeline.ucRefs τ sig) (U19 m c) ∗ R c)
  post c := iprop(StableHlo.held (c : Thread nD τ) (Pipeline.ucRefs τ sig) (U20 m c) ∗ R c)
  X c := iprop(∃ r, prngReg c r)
  Y c := iprop(∃ r, prngReg c r)
  Z c := Pipeline.unscopedRest (Ix := Unit) (Name := ℕ) (U := UR sig nD τ) (Lvl := ℕ) spec7 c (tcv (U19 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (tcv (U19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (tcv (U19 m)) c); unfold Pipeline.ΦA
    iintro ⟨Hp, -, Hr⟩
    isplitl [Hr]; · iexact Hr
    iexact Hp
  hout c := by
    rw [Pipeline.ownSems0_none]; refine BIBase.Entails.trans (hout7 (tcv (U19 m)) c) ?_; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (tcv (U19 m) c) (tcv (U20 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
/-
  Region 8 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U22_of (c : Dev nD) (b : Ref sig .tc) (h : b ∉ ([main_v147] : List (Ref sig .tc))) : U22 m c b = U21 m c b :=
  V22_of m (outs m) c b h

/-- The result buffer `main_v147` after the region holds what the pipeline leaves in it. -/
theorem U22_main_v147 (c : Dev nD) : U22 m c main_v147 = X22 m c main_v147 := by
  simp only [U22, Function.update_self]

set_option maxHeartbeats 4000000 in
theorem hF8 (c : Dev nD) (w : Fin cfg8.W) : (dat8 (tcv (U21 m)) c).arrAt w cfg8.N = tcv (U22 m) c (Pipeline.arrRef spec8 w) := by
  match w with
  | ⟨0, _⟩ => exact ((dat8 (tcv (U21 m)) c).arrAt_in 0 rfl _).trans ((A_eq8 (tcv (U21 m)) c 0).trans (U22_of m c _ (by decide)).symm)
  | ⟨1, _⟩ => exact ((dat8 (tcv (U21 m)) c).arrAt_in 1 rfl _).trans ((A_eq8 (tcv (U21 m)) c 1).trans (U22_of m c _ (by decide)).symm)
  | ⟨2, _⟩ => exact ((dat8 (tcv (U21 m)) c).arrAt_in 2 rfl _).trans ((A_eq8 (tcv (U21 m)) c 2).trans (U22_of m c _ (by decide)).symm)
  | ⟨3, _⟩ => exact ((dat8 (tcv (U21 m)) c).arrAt_in 3 rfl _).trans ((A_eq8 (tcv (U21 m)) c 3).trans (U22_of m c _ (by decide)).symm)
  | ⟨4, _⟩ => exact ((dat8 (tcv (U21 m)) c).arrAt_in 4 rfl _).trans ((A_eq8 (tcv (U21 m)) c 4).trans (U22_of m c _ (by decide)).symm)
  | ⟨5, _⟩ => exact ((dat8 (tcv (U21 m)) c).arrAt_in 5 rfl _).trans ((A_eq8 (tcv (U21 m)) c 5).trans (U22_of m c _ (by decide)).symm)
  | ⟨6, _⟩ => exact ((Pipeline.withArrays_arr spec8 launch8.win.arr_inj c _ _ 6).symm.trans (U22_main_v147 m c).symm)

theorem hrest8 (c : Dev nD) : ∀ b, b ∉ Finset.univ.image (Pipeline.arrRef spec8) → tcv (U22 m) c b = tcv (U21 m) c b :=
  fun b hb => U22_of m c b (fun hmem => by

    exact hb (Finset.mem_image.mpr ⟨6, Finset.mem_univ _, (List.mem_singleton.mp hmem).symm⟩))

set_option backward.isDefEq.respectTransparency.types false in
def reg8 : RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (tcv (U21 m)) c).loose
  hwaits := Pipeline.hwaits_of_owed_zero _ _ _ _ L lv 8 fun _ _ => rfl
  pre c := iprop(StableHlo.held (c : Thread nD τ) (Pipeline.ucRefs τ sig) (U21 m c) ∗ R c)
  post c := iprop(StableHlo.held (c : Thread nD τ) (Pipeline.ucRefs τ sig) (U22 m c) ∗ R c)
  X c := iprop(∃ r, prngReg c r)
  Y c := iprop(∃ r, prngReg c r)
  Z c := Pipeline.unscopedRest (Ix := Unit) (Name := ℕ) (U := UR sig nD τ) (Lvl := ℕ) spec8 c (tcv (U21 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (tcv (U21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (tcv (U21 m) c) (tcv (U22 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
/-
  Region 9 of @main as a segment between two boundaries: entered with every unscoped buffer at the contents before it, it
  hands the pipeline its windows' arrays (split out of the unscoped buffers), lends the generator register and the scoped
  rest to the pipeline's invariant, and is left with the result arrays at what the write-backs leave and every other
  buffer as found.
-/
import proofs.«162064_j1357209666150_1_alg».proof.Proof.Gen.KernelIdeal.Regions
import proofs.«162064_j1357209666150_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- Outside the region's result buffers the contents after it are the contents before it. -/
theorem U24_of (c : Dev nD) (b : Ref sig .tc) (h : b ∉ ([main_v149] : List (Ref sig .tc))) : U24 m c b = U23 m c b :=
  V24_of m (outs m) c b h

/-- The result buffer `main_v149` after the region holds what the pipeline leaves in it. -/
theorem U24_main_v149 (c : Dev nD) : U24 m c main_v149 = X24 m c main_v149 := by
  simp only [U24, Function.update_self]

set_option maxHeartbeats 4000000 in
theorem hF9 (c : Dev nD) (w : Fin cfg9.W) : (dat9 (tcv (U23 m)) c).arrAt w cfg9.N = tcv (U24 m) c (Pipeline.arrRef spec9 w) := by
  match w with
  | ⟨0, _⟩ => exact ((dat9 (tcv (U23 m)) c).arrAt_in 0 rfl _).trans ((A_eq9 (tcv (U23 m)) c 0).trans (U24_of m c _ (by decide)).symm)
  | ⟨1, _⟩ => exact ((dat9 (tcv (U23 m)) c).arrAt_in 1 rfl _).trans ((A_eq9 (tcv (U23 m)) c 1).trans (U24_of m c _ (by decide)).symm)
  | ⟨2, _⟩ => exact ((dat9 (tcv (U23 m)) c).arrAt_in 2 rfl _).trans ((A_eq9 (tcv (U23 m)) c 2).trans (U24_of m c _ (by decide)).symm)
  | ⟨3, _⟩ => exact ((Pipeline.withArrays_arr spec9 launch9.win.arr_inj c _ _ 3).symm.trans (U24_main_v149 m c).symm)

theorem hrest9 (c : Dev nD) : ∀ b, b ∉ Finset.univ.image (Pipeline.arrRef spec9) → tcv (U24 m) c b = tcv (U23 m) c b :=
  fun b hb => U24_of m c b (fun hmem => by

    exact hb (Finset.mem_image.mpr ⟨3, Finset.mem_univ _, (List.mem_singleton.mp hmem).symm⟩))

set_option backward.isDefEq.respectTransparency.types false in
def reg9 : RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (tcv (U23 m)) c).loose
  hwaits := Pipeline.hwaits_of_owed_zero _ _ _ _ L lv 9 fun _ _ => rfl
  pre c := iprop(StableHlo.held (c : Thread nD τ) (Pipeline.ucRefs τ sig) (U23 m c) ∗ R c)
  post c := iprop(StableHlo.held (c : Thread nD τ) (Pipeline.ucRefs τ sig) (U24 m c) ∗ R c)
  X c := iprop(∃ r, prngReg c r)
  Y c := iprop(∃ r, prngReg c r)
  Z c := Pipeline.unscopedRest (Ix := Unit) (Name := ℕ) (U := UR sig nD τ) (Lvl := ℕ) spec9 c (tcv (U23 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (tcv (U23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (tcv (U23 m) c) (tcv (U24 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
/-
  The frame of the whole program, at any float instance: @main is host stretches and ten kernel regions in a row; with each
  region's segment record entered from the boundary contents before it and left at those after it, every weakly fair
  execution ends, faults nowhere, and leaves every argument array as launched (no stretch writes an argument and no
  region may change one).
-/
import proofs.«162064_j1357209666150_1_alg».proof.Proof.Gen.KernelIdeal.Regions
import proofs.«162064_j1357209666150_1_alg».proof.Proof.KI.Seg0
import proofs.«162064_j1357209666150_1_alg».proof.Proof.KI.Seg1
import proofs.«162064_j1357209666150_1_alg».proof.Proof.KI.Seg2
import proofs.«162064_j1357209666150_1_alg».proof.Proof.KI.Seg3
import proofs.«162064_j1357209666150_1_alg».proof.Proof.KI.Seg4
import proofs.«162064_j1357209666150_1_alg».proof.Proof.KI.Seg5
import proofs.«162064_j1357209666150_1_alg».proof.Proof.KI.Seg6
import proofs.«162064_j1357209666150_1_alg».proof.Proof.KI.Seg7
import proofs.«162064_j1357209666150_1_alg».proof.Proof.KI.Seg8
import proofs.«162064_j1357209666150_1_alg».proof.Proof.KI.Seg9
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

set_option maxHeartbeats 40000000 in
set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by iintro ⟨-, H⟩; iexact H)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)
    (reg8 m) (fun c => .rfl) (fun c => .rfl)
    (reg9 m) (fun c => .rfl) (fun c => .rfl)

end Cert.KernelIdeal.Hand

end
-- ==== Proof.RefFrame.lean ====
/-
  The reference program is a straight line of host operations: its run ends, faults nowhere and never writes an
  argument array. The frame claim is exactly that run.
-/
import proofs.«162064_j1357209666150_1_alg».proof.Defs
import proofs.«162064_j1357209666150_1_alg».proof.Proof.Gen.ReferenceIdeal
import proofs.«162064_j1357209666150_1_alg».proof.Proof.RefRunP

noncomputable section

open Idealize.ShloMosaic Idealize.ShloMosaic.TcCoe Idealize.SL.Sem

namespace Cert.Proof.RefFrame

/-- Every weakly fair execution of the reference ends with its argument arrays as launched. -/
theorem frame_ri [hR : Cert.ReferenceIdeal.Facts] [hP : Cert.Pre_finite_inputs.Facts] : Cert.frame_ReferenceIdeal := fun m ρ _ =>
  Cert.ReferenceIdeal.ValueP.run_args (F := Ideal) m ρ

end Cert.Proof.RefFrame

end
-- ==== Proof.KI.RunCond.lean ====
/-
  The whole program's run, given the ten regions' segment records, WITH the result buffer named: the statement and proof of
  the conditional frame, with one more conjunct — the result buffer ends at the last boundary's contents — read off the
  last valuation like the arguments.
-/
import proofs.«162064_j1357209666150_1_alg».proof.Proof.Gen.KernelIdeal.Regions

set_option maxRecDepth 1700

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ) (outs : Outs (F := F))

set_option backward.isDefEq.respectTransparency.types false in
/-- THE CONDITIONAL FRAME. For any user algebra, level assignment, launch dues and ghost resources, any rest states
    `E` the launch makes on every core at once (`hE0`) and that end owing nothing (`hE10`), any contents the regions
    leave (`outs`) and any proof data: GIVEN, per region K, a segment record entered from this module's thread state
    before it and left at the one after it (`RK`, `hpreK`, `hpostK`), every weakly fair execution of @main from memory `m`
    with zero counters terminates and every final memory holds each argument as launched (the post claims.py's frame
    claim states, at any `F`). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 10) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 11 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE10 : ∀ c : Dev nD, E 10 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V5 m c) ∗ E 0 c) ⊢ R0.pre c)
    (hpost0 : ∀ c : Dev nD, R0.post c ⊢ iprop(StableHlo.held (c : Thread nD τ) (Pipeline.ucRefs τ sig) (V6 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V7 m outs c) ∗ E 1 c) ⊢ R1.pre c)
    (hpost1 : ∀ c : Dev nD, R1.post c ⊢ iprop(StableHlo.held (c : Thread nD τ) (Pipeline.ucRefs τ sig) (V8 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V11 m outs c) ∗ E 3 c) ⊢ R3.pre c)
    (hpost3 : ∀ c : Dev nD, R3.post c ⊢ iprop(StableHlo.held (c : Thread nD τ) (Pipeline.ucRefs τ sig) (V12 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V13 m outs c) ∗ E 4 c) ⊢ R4.pre c)
    (hpost4 : ∀ c : Dev nD, R4.post c ⊢ iprop(StableHlo.held (c : Thread nD τ) (Pipeline.ucRefs τ sig) (V14 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V15 m outs c) ∗ E 5 c) ⊢ R5.pre c)
    (hpost5 : ∀ c : Dev nD, R5.post c ⊢ iprop(StableHlo.held (c : Thread nD τ) (Pipeline.ucRefs τ sig) (V16 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V17 m outs c) ∗ E 6 c) ⊢ R6.pre c)
    (hpost6 : ∀ c : Dev nD, R6.post c ⊢ iprop(StableHlo.held (c : Thread nD τ) (Pipeline.ucRefs τ sig) (V18 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V19 m outs c) ∗ E 7 c) ⊢ R7.pre c)
    (hpost7 : ∀ c : Dev nD, R7.post c ⊢ iprop(StableHlo.held (c : Thread nD τ) (Pipeline.ucRefs τ sig) (V20 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V21 m outs c) ∗ E 8 c) ⊢ R8.pre c)
    (hpost8 : ∀ c : Dev nD, R8.post c ⊢ iprop(StableHlo.held (c : Thread nD τ) (Pipeline.ucRefs τ sig) (V22 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V23 m outs c) ∗ E 9 c) ⊢ R9.pre c)
    (hpost9 : ∀ c : Dev nD, R9.post c ⊢ iprop(StableHlo.held (c : Thread nD τ) (Pipeline.ucRefs τ sig) (V24 m outs c) ∗ E 10 c)) :
    θ_run defs (onTc (τ := τ) (main (F := F))) ⟨m, fun _ => 0, ρ⟩ (fun r => ∀ c : Dev nD,
      r.2.mem ((c.tc : Thread nD τ).loc main_v149) = V24 m outs c main_v149
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9)
    (fun c Q => by
      rewrite [main_chain c, Seg.run_eq_chain,
        show (segs m outs 𝒱₀ L lv E ι pdats R0 R1 R2 R3 R4 R5 R6 R7 R8 R9 c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V24 m outs c))
    (hch := fun c => ⟨.rfl, .rfl, .rfl, .rfl, .rfl, hpre0 c, hpost0 c, hpre1 c, hpost1 c, hpre2 c, hpost2 c, hpre3 c, hpost3 c, hpre4 c, hpost4 c, hpre5 c, hpost5 c, hpre6 c, hpost6 c, hpre7 c, hpost7 c, hpre8 c, hpost8 c, hpre9 c, (hpost9 c).trans (sep_mono .rfl (hE10 c))⟩)
    (hinit := ?_) (QY := fun c s => s.mem ((c.tc : Thread nD τ).loc main_v149) = V24 m outs c main_v149 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V24 m outs c) s') $$ [Hh HSI]
    · isplitl [Hh] <;> iassumption
    icases Hr with ⟨%h, HSI⟩
    imodintro
    isplitr
    · ipureintro
      exact ⟨h (Proc.devRef .tc main_v149) (Finset.mem_filter.mpr ⟨StableHlo.devRef_mem_tcRefs main_v149, by decide⟩),
        (h (Proc.devRef .tc main_arg0) (Finset.mem_filter.mpr ⟨StableHlo.devRef_mem_tcRefs main_arg0, by decide⟩)).trans (V24_main_arg0 m outs c),
        (h (Proc.devRef .tc main_arg1) (Finset.mem_filter.mpr ⟨StableHlo.devRef_mem_tcRefs main_arg1, by decide⟩)).trans (V24_main_arg1 m outs c),
        (h (Proc.devRef .tc main_arg2) (Finset.mem_filter.mpr ⟨StableHlo.devRef_mem_tcRefs main_arg2, by decide⟩)).trans (V24_main_arg2 m outs c),
        (h (Proc.devRef .tc main_arg3) (Finset.mem_filter.mpr ⟨StableHlo.devRef_mem_tcRefs main_arg3, by decide⟩)).trans (V24_main_arg3 m outs c),
        (h (Proc.devRef .tc main_arg4) (Finset.mem_filter.mpr ⟨StableHlo.devRef_mem_tcRefs main_arg4, by decide⟩)).trans (V24_main_arg4 m outs c),
        (h (Proc.devRef .tc main_arg5) (Finset.mem_filter.mpr ⟨StableHlo.devRef_mem_tcRefs main_arg5, by decide⟩)).trans (V24_main_arg5 m outs c),
        (h (Proc.devRef .tc main_arg6) (Finset.mem_filter.mpr ⟨StableHlo.devRef_mem_tcRefs main_arg6, by decide⟩)).trans (V24_main_arg6 m outs c),
        (h (Proc.devRef .tc main_arg7) (Finset.mem_filter.mpr ⟨StableHlo.devRef_mem_tcRefs main_arg7, by decide⟩)).trans (V24_main_arg7 m outs c),
        (h (Proc.devRef .tc main_arg8) (Finset.mem_filter.mpr ⟨StableHlo.devRef_mem_tcRefs main_arg8, by decide⟩)).trans (V24_main_arg8 m outs c)⟩
    · iexact HSI

end Cert.KernelIdeal.Hand

end
-- ==== Proof.KI.Result.lean ====
/-
  The kernel program's run with its result named: every weakly fair execution ends with the result buffer at what the last
  region's write-backs leave in it (the last pipeline's output array after its ten points) and the arguments as launched.
-/
import proofs.«162064_j1357209666150_1_alg».proof.Proof.Gen.KernelIdeal.Regions
import proofs.«162064_j1357209666150_1_alg».proof.Proof.KI.Frame
import proofs.«162064_j1357209666150_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The last boundary's contents at the result buffer: the last region's output array after all its write-backs. -/
theorem U24_result (c : Dev nD) : U24 m c main_v149 = (dat9 (tcv (U23 m)) c).arrAt 3 cfg9.N :=
  (U24_main_v149 m c).trans (Pipeline.withArrays_arr spec9 launch9.win.arr_inj c _ _ 3)

set_option maxHeartbeats 40000000 in
set_option backward.isDefEq.respectTransparency.types false in
theorem run_result (ρ : Dev nD → PrngReg) :
    θ_run defs (onTc (τ := τ) (main (F := F))) ⟨m, fun _ => 0, ρ⟩ (fun r => ∀ c : Dev nD,
      r.2.mem ((c.tc : Thread nD τ).loc main_v149) = (dat9 (tcv (U23 m)) c).arrAt 3 cfg9.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (U24_result m c), (h c).2⟩)
  (run_cond m emb₁ () 𝒱₀ L lv (fun _ _ => rfl) ρ (outs m) (pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE10 := fun c => by iintro ⟨-, H⟩; iexact H)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)
    (reg6 m) (fun c => .rfl) (fun c => .rfl)
    (reg7 m) (fun c => .rfl) (fun c => .rfl)
    (reg8 m) (fun c => .rfl) (fun c => .rfl)
    (reg9 m) (fun c => .rfl) (fun c => .rfl))

end Cert.KernelIdeal.Hand

end
-- ==== Proof.RefRunAll.lean ====
/-
  The reference's run with EVERY buffer named: each TensorCore buffer ends at the fold of the 339 operations' results over
  the launch contents (the fold kept folded: nothing is composed into one term).
-/
import proofs.«162064_j1357209666150_1_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 135600000 in
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

set_option maxRecDepth 8192 in
set_option maxHeartbeats 135600000 in
/-- No operation writes the argument `main_arg0`: the fold leaves it at its launch contents. -/
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 8192 in
set_option maxHeartbeats 135600000 in
/-- No operation writes the argument `main_arg1`: the fold leaves it at its launch contents. -/
theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxRecDepth 8192 in
set_option maxHeartbeats 135600000 in
/-- No operation writes the argument `main_arg2`: the fold leaves it at its launch contents. -/
theorem after_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxRecDepth 8192 in
set_option maxHeartbeats 135600000 in
/-- No operation writes the argument `main_arg3`: the fold leaves it at its launch contents. -/
theorem after_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxRecDepth 8192 in
set_option maxHeartbeats 135600000 in
/-- No operation writes the argument `main_arg4`: the fold leaves it at its launch contents. -/
theorem after_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxRecDepth 8192 in
set_option maxHeartbeats 135600000 in
/-- No operation writes the argument `main_arg5`: the fold leaves it at its launch contents. -/
theorem after_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxRecDepth 8192 in
set_option maxHeartbeats 135600000 in
/-- No operation writes the argument `main_arg6`: the fold leaves it at its launch contents. -/
theorem after_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl

set_option maxRecDepth 8192 in
set_option maxHeartbeats 135600000 in
/-- No operation writes the argument `main_arg7`: the fold leaves it at its launch contents. -/
theorem after_arg7 (m : (ℓ : Loc nD τ sig) → Buf (Elt F) ℓ) (c : Dev nD) :
    after (ops (F := F)) (launchContents m c) (Proc.devRef .tc main_arg7) = m ((c.tc : Thread nD τ).loc main_arg7) := by
  after_results_simp <;> rfl

set_option maxRecDepth 8192 in
set_option maxHeartbeats 135600000 in
/-- No operation writes the argument `main_arg8`: the fold leaves it at its launch contents. -/
theorem after_arg8 (m : (ℓ : Loc nD τ sig) → Buf (Elt F) ℓ) (c : Dev nD) :
    after (ops (F := F)) (launchContents m c) (Proc.devRef .tc main_arg8) = m ((c.tc : Thread nD τ).loc main_arg8) := by
  after_results_simp <;> rfl

/-- The run with the result buffer at the fold (kept folded) and the arguments unchanged. -/
theorem run_res (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v266) = after (ops (F := F)) (launchContents m c) (Proc.devRef .tc main_v266)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v266, (h c main_arg0).trans (after_arg0 m c), (h c main_arg1).trans (after_arg1 m c), (h c main_arg2).trans (after_arg2 m c), (h c main_arg3).trans (after_arg3 m c), (h c main_arg4).trans (after_arg4 m c), (h c main_arg5).trans (after_arg5 m c), (h c main_arg6).trans (after_arg6 m c), (h c main_arg7).trans (after_arg7 m c), (h c main_arg8).trans (after_arg8 m c)⟩) (run_all m ρ)

end Cert.ReferenceIdeal.ValueP

end
-- ==== Proof.LibPlainDot.lean ====
/-
  A plain matrix product at the exact instance, read at an index. For the dimension numbers of `M×K` by `K×N` (contract the
  left operand's axis 1 with the right operand's axis 0, no batch axis), at any extents and element types, the block
  product into a zero accumulator and the host's `dot_general` are both, at row `p` and column `k`, the sum over
  `j : Fin K` of `lhs (p, j) * rhs (j, k)` on the extended reals. A printed dot record with these dimension numbers is
  `DotDims.plain M K N` by `rfl`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl

/-- The left operand's index at output index `(p, k)` and contraction coordinate `j` is `(p, j)`. -/
theorem plain_lhsIdx (p : Fin M) (k : Fin N) (q : (DotDims.plain M K N).contr.Idx) (j : Fin K)
    (hq : (q ⟨0, by rw [plain_contr_rank]; exact Nat.one_pos⟩).val = j.val) :
    (DotDims.plain M K N).lhsIdx (ix2 p k) q = ix2 p j := by
  funext a
  apply Fin.ext
  match a with
  | ⟨0, _⟩ => rfl
  | ⟨1, _⟩ => exact ((DotDims.plain M K N).lhsIdx_val_of_single (cl := 1) rfl (ix2 p k) q).trans hq

/-- The right operand's index at output index `(p, k)` and contraction coordinate `j` is `(j, k)`. -/
theorem plain_rhsIdx (p : Fin M) (k : Fin N) (q : (DotDims.plain M K N).contr.Idx) (j : Fin K)
    (hq : (q ⟨0, by rw [plain_contr_rank]; exact Nat.one_pos⟩).val = j.val) :
    (DotDims.plain M K N).rhsIdx (ix2 p k) q = ix2 j k := by
  funext a
  apply Fin.ext
  match a with
  | ⟨0, _⟩ => exact ((DotDims.plain M K N).rhsIdx_val_of_single (cr := 0) rfl (ix2 p k) q).trans hq
  | ⟨1, _⟩ => rfl

/-- A sum over the contraction index of a plain product is the sum over `Fin K`. -/
theorem plain_sum (lhs : FVec Ideal ⟨2, ![M, K]⟩ φ₁) (rhs : FVec Ideal ⟨2, ![K, N]⟩ φ₂) (p : Fin M) (k : Fin N) :
    (∑ q : (DotDims.plain M K N).contr.Idx, lhs ((DotDims.plain M K N).lhsIdx (ix2 p k) q) * rhs ((DotDims.plain M K N).rhsIdx (ix2 p k) q))
      = ∑ j : Fin K, lhs (ix2 p j) * rhs (ix2 j k) := by
  rw [← Equiv.sum_comp (contrEquiv1 (DotDims.plain M K N) K rfl rfl).symm]
  refine Finset.sum_congr rfl fun j _ => ?_
  have hq := contrEquiv1_symm_val (DotDims.plain M K N) K rfl rfl j
  rw [plain_lhsIdx p k _ j hq, plain_rhsIdx p k _ j hq]

/-- The block product into the zero accumulator, at `(p, k)`. -/
theorem matmul_plain_zero_apply (prec : Option ContractPrecision) (lhs : FVec Ideal ⟨2, ![M, K]⟩ φ₁) (rhs : FVec Ideal ⟨2, ![K, N]⟩ φ₂)
    (p : Fin M) (k : Fin N) :
    FloatOps.matmul (DotDims.plain M K N) prec lhs rhs (constant ⟨2, ![M, N]⟩ .f32 0x00000000#32) (ix2 p k)
      = ∑ j : Fin K, lhs (ix2 p j) * rhs (ix2 j k) :=
  (Ideal.matmul_constant_zero_apply (DotDims.plain M K N) prec lhs rhs (ix2 p k)).trans (plain_sum lhs rhs p k)

/-- The host's `dot_general`, at `(p, k)`, whatever its schedule. -/
theorem dotGeneral_plain_apply (prec : Option ContractPrecision) (sched : HostSchedule) (lhs : FVec Ideal ⟨2, ![M, K]⟩ φ₁) (rhs : FVec Ideal ⟨2, ![K, N]⟩ φ₂)
    (p : Fin M) (k : Fin N) :
    FloatOps.dotGeneral (DotDims.plain M K N) prec sched lhs rhs (ix2 p k) = ∑ j : Fin K, lhs (ix2 p j) * rhs (ix2 j k) :=
  (Ideal.dotGeneral_apply (DotDims.plain M K N) prec sched lhs rhs (ix2 p k)).trans (plain_sum lhs rhs p k)

end Cert.LibPlainDot

end
-- ==== Proof.Alg.Spec.lean ====
/-
  The whole-array functions the kernel's regions compute, on the extended reals, index by index (row `i 0`, column `i 1`).
  `denseG`: a dense projection `x · w + b` (`b` one row). `G0`: the same under the rectifier. `statsH`: one layer's
  pre-normalisation features `c3 · s + c4 · (s · w)` with `s = c1 · agg + c2 · x0`. `colSum`: the column sums of an array
  of 100000 rows, started from a zero word, as one row. `normG`: batch normalisation with a given mean row and variance row,
  the residual added, under the rectifier.
-/
import Idealize.ShloMosaic.PureOps.Ideal
import Idealize.ShloMosaic.Lib.ValueIdx

noncomputable section

namespace Cert.Alg

open Idealize.ShloMosaic Idealize.ShloMosaic.ValueIdx

abbrev E : Type := Elt Ideal .f32
abbrev SN64 : Shape := ⟨2, ![100000, 64]⟩
abbrev SN128 : Shape := ⟨2, ![100000, 128]⟩
abbrev S64x64' : Shape := ⟨2, ![64, 64]⟩
abbrev S128x64' : Shape := ⟨2, ![128, 64]⟩
abbrev S1x64' : Shape := ⟨2, ![1, 64]⟩
/-- The zero word, as the programs spell it. -/
abbrev z0 : E := Ideal.ofBits .f32 0x00000000#32

/-- A dense projection: row `r`, column `k` is `∑ j, x (r, j) * w (j, k) + b (0, k)`. -/
def denseG {K : Nat} (x : (⟨2, ![100000, K]⟩ : Shape).Idx → E) (w : (⟨2, ![K, 64]⟩ : Shape).Idx → E) (b : S1x64'.Idx → E) : SN64.Idx → E :=
  fun i => (∑ j : Fin K, x (ix2 (i 0) j) * w (ix2 j (i 1))) + b (ix2 (0 : Fin 1) (i 1))

/-- The first region: the dense projection under the rectifier. -/
def G0 (x : SN128.Idx → E) (w : S128x64'.Idx → E) (b : S1x64'.Idx → E) : SN64.Idx → E :=
  fun i => max (denseG x w b i) z0

/-- One layer's mixed features `s = c1 · agg + c2 · x0`. -/
def mixS (c1 c2 : E) (agg x0 : SN64.Idx → E) : SN64.Idx → E := fun i => c1 * agg i + c2 * x0 i

/-- One layer's pre-normalisation features `c3 · s + c4 · (s · w)`. -/
def statsH (c1 c2 c3 c4 : E) (agg x0 : SN64.Idx → E) (w : S64x64'.Idx → E) : SN64.Idx → E :=
  fun i => c3 * mixS c1 c2 agg x0 i + c4 * (∑ j : Fin 64, mixS c1 c2 agg x0 (ix2 (i 0) j) * w (ix2 j (i 1)))

/-- Column sums over the 100000 rows, as one row. -/
def colSum (h : SN64.Idx → E) : S1x64'.Idx → E := fun i => ∑ r : Fin 100000, h (ix2 r (i 1))

/-- Batch normalisation with mean row `mean` and variance row `var`, scale `gamma`, shift `beta`, residual `xin`, rectifier. -/
def normG (eps : E) (hpre xin : SN64.Idx → E) (mean var gamma beta : S1x64'.Idx → E) : SN64.Idx → E :=
  fun i => max ((((hpre i - mean (ix2 (0 : Fin 1) (i 1))) * Ideal.rsqrt (var (ix2 (0 : Fin 1) (i 1)) + eps)) * gamma (ix2 (0 : Fin 1) (i 1))
      + beta (ix2 (0 : Fin 1) (i 1))) + xin i) z0

end Cert.Alg

end
-- ==== Proof.KI.Val0.lean ====
/-
  The value of region 0's output array (the first dense projection under the rectifier), on the extended reals: after the
  region's ten grid points the array holds, at row `r` and column `k`, the larger of zero and the sum over `j` of the
  input array's entry `(r, j)` times the weight `(j, k)`, plus the bias row's entry `k`. Point `t` writes rows
  `10000·t … 10000·t + 9999`; the ten row blocks tile the array.
-/
import proofs.«162064_j1357209666150_1_alg».proof.Proof.KI.R0
import proofs.«162064_j1357209666150_1_alg».proof.Proof.LibPlainDot
import proofs.«162064_j1357209666150_1_alg».proof.Proof.Alg.Spec
import Idealize.ShloMosaic.Lib.ValueLayout
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

theorem hz0 : (![0, 0] : Fin 2 → Nat) = fun _ => 0 := funext fun a => by fin_cases a <;> rfl

/-- The payload at an index: row `p`, column `k` is the larger of the zero word and the sum over `j` of the input block's
    entry `(p, j)` times the weight `(j, k)`, plus the bias row's entry `k` (the casts to the narrower float format on the
    way into the product are the identity here). -/
theorem pay0_apply (x0 : Vec Ideal S10000x128 .f32) (x1 : Vec Ideal S128x64 .f32) (x2 : Vec Ideal S1x64 .f32) (p : Fin 10000) (k : Fin 64) :
    k0_pay1 (F := Ideal) x0 x1 x2 (ix2 p k) = max ((∑ j : Fin 128, x0 (ix2 p j) * x1 (ix2 j k)) + x2 (ix2 0 k)) Cert.Alg.z0 := by
  unfold k0_pay1
  refine (maximumf_apply _ _ _).trans ?_
  refine congrArg₂ max ?_ ?_
  · refine (addf_apply _ _ _).trans ?_
    refine congrArg₂ (· + ·) ?_ ?_
    · refine (Cert.LibPlainDot.matmul_plain_zero_apply (M := 10000) (K := 128) (N := 64) none _ _ p k).trans ?_
      refine Finset.sum_congr rfl fun j _ => ?_
      rfl
    · rw [shapeCast_self]
      exact broadcastTo_1b_ab_apply _ _ p k
  · rfl

/-- The output block as a function of the input blocks, at an index. -/
theorem out0_3_apply (x0 : Vec Ideal S10000x128 .f32) (x1 : Vec Ideal S128x64 .f32) (x2 : Vec Ideal S1x64 .f32) (p : Fin 10000) (k : Fin 64) :
    out0_3 (F := Ideal) x0 x1 x2 (ix2 p k) = max ((∑ j : Fin 128, x0 (ix2 p j) * x1 (ix2 j k)) + x2 (ix2 0 k)) Cert.Alg.z0 := by
  unfold out0_3
  rw [View.canon_unit_zero hz0]
  simp only [View.ld_unit_zero (S := S10000x128) hz0, View.ld_unit_zero (S := S128x64) hz0, View.ld_unit_zero (S := S1x64) hz0]
  exact pay0_apply x0 x1 x2 p k

/-- The printed index maps, decided over the grid: the row-tiled windows' block index is the point, the small windows' is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the rectified dense projection of the three input arrays as the region finds them. -/
theorem flushed0_eq (c : Dev nD) (t : Fin cfg0.N) :
    (dat0 (F := Ideal) V c).flushed 3 t = ((cfg0.win 3).blk t).view.read (Elt Ideal)
      (Cert.Alg.G0 (V c (Pipeline.arrRef spec0 0)) (V c (Pipeline.arrRef spec0 1)) (V c (Pipeline.arrRef spec0 2))) := by
  show (cfg0.win 3).cut (grid0.coords t) ((dat0 V c).after 3 t) = _
  rw [after0_3]
  obtain ⟨e00, e01, e10, e11, e20, e21, e30, e31⟩ := idx_facts0 t
  funext j
  obtain ⟨p, q, rfl⟩ : ∃ (p : Fin 10000) (q : Fin 64), j = ix2 p q := ⟨j 0, j 1, eq_ix2 j⟩
  refine (out0_3_apply _ _ _ p q).trans ?_
  change _ = Cert.Alg.G0 (V c (Pipeline.arrRef spec0 0)) (V c (Pipeline.arrRef spec0 1)) (V c (Pipeline.arrRef spec0 2))
    (((cfg0.win 3).blk t).view.emb (ix2 p q))
  unfold Cert.Alg.G0 Cert.Alg.denseG
  refine congrArg₂ max (congrArg₂ (· + ·) (Finset.sum_congr rfl fun j _ => congrArg₂ (· * ·) ?_ ?_) ?_) rfl
  · show V c (Pipeline.arrRef spec0 0) (((cfg0.win 0).blk t).view.emb (ix2 p j)) = _
    refine congrArg _ ?_
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * j.val = j.val; omega
  · show V c (Pipeline.arrRef spec0 1) (((cfg0.win 1).blk t).view.emb (ix2 j q)) = _
    refine congrArg _ ?_
    funext a; apply Fin.ext
    match a with
    | ⟨0, _⟩ => show win0_1.index t (0 : Fin 2) * 128 + 1 * j.val = j.val; omega
    | ⟨1, _⟩ => show win0_1.index t (1 : Fin 2) * 64 + 1 * q.val = win0_3.index t (1 : Fin 2) * 64 + 1 * q.val; omega
  · show V c (Pipeline.arrRef spec0 2) (((cfg0.win 2).blk t).view.emb (ix2 0 q)) = _
    refine congrArg _ ?_
    funext a; apply Fin.ext
    match a with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega

/-- An index of the array is in point `t`'s block iff each coordinate is in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v31).slice (win0_3.rect t)).set ↔ _
  rw [View.set_slice_whole, Rect.mem_set_unit]
  exact Iff.rfl

/-- The ten row blocks tile the array: row `r` is in the block of point `r / 10000`. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 10 := N_0
  have hlt : (i 0).val / 10000 < cfg0.N := by rw [hN]; omega
  obtain ⟨-, -, -, -, -, -, e30, e31⟩ := idx_facts0 ⟨(i 0).val / 10000, hlt⟩
  have e30' : win0_3.index ⟨(i 0).val / 10000, hlt⟩ (0 : Fin 2) = (i 0).val / 10000 := e30
  refine ⟨⟨(i 0).val / 10000, hlt⟩, flush0_3 _, ?_⟩
  rw [mem_blk0]
  intro a
  match a with
  | ⟨0, _⟩ => show win0_3.index ⟨(i 0).val / 10000, hlt⟩ (0 : Fin 2) * 10000 ≤ (i 0).val ∧ (i 0).val < win0_3.index ⟨(i 0).val / 10000, hlt⟩ (0 : Fin 2) * 10000 + 10000; omega
  | ⟨1, _⟩ => show win0_3.index ⟨(i 0).val / 10000, hlt⟩ (1 : Fin 2) * 64 ≤ (i 1).val ∧ (i 1).val < win0_3.index ⟨(i 0).val / 10000, hlt⟩ (1 : Fin 2) * 64 + 64; omega

/-- THE ARRAY after the region: the rectified dense projection of the three input arrays as the region finds them. -/
theorem final0 (c : Dev nD) : (dat0 (F := Ideal) V c).arrAt 3 cfg0.N
    = Cert.Alg.G0 (V c (Pipeline.arrRef spec0 0)) (V c (Pipeline.arrRef spec0 1)) (V c (Pipeline.arrRef spec0 2)) :=
  (dat0 (F := Ideal) V c).arrAt_eq_of_cover 3 _ (fun t _ => flushed0_eq V c t) cover0

end

end Cert.KernelIdeal.Hand

end
-- ==== Proof.KI.Pay9.lean ====
/-
  The last region's payload (the final dense projection) at an index, on the extended reals: row `p`, column `k` of the
  stored block is the sum over `j` of the input block's entry `(p, j)` times the weight `(j, k)`, plus the bias row's
  entry `k` (the casts to the narrower float format on the way into the product are the identity here).
-/
import proofs.«162064_j1357209666150_1_alg».proof.Proof.Gen.KernelIdeal.Skeleton
import proofs.«162064_j1357209666150_1_alg».proof.Proof.LibPlainDot
import Idealize.ShloMosaic.Lib.ValueLayout
import Idealize.ShloMosaic.Lib.Pipeline.Value

noncomputable section
namespace Cert.KernelIdeal.Hand
open Cert.KernelIdeal Cert.KernelIdeal.Gen Idealize.ShloMosaic Idealize.ShloMosaic.ValueIdx

theorem pay9_apply (x0 : Vec Ideal S10000x64 .f32) (x1 : Vec Ideal S64x64 .f32) (x2 : Vec Ideal S1x64 .f32) (p : Fin 10000) (k : Fin 64) :
    k9_pay1 (F := Ideal) x0 x1 x2 (ix2 p k) = (∑ j : Fin 64, x0 (ix2 p j) * x1 (ix2 j k)) + x2 (ix2 0 k) := by
  unfold k9_pay1
  refine congrArg₂ (· + ·) ?_ ?_
  · refine (Cert.LibPlainDot.matmul_plain_zero_apply (M := 10000) (K := 64) (N := 64) none _ _ p k).trans ?_
    refine Finset.sum_congr rfl fun j _ => ?_
    rw [shapeCast_self]
    rfl
  · rw [shapeCast_self]
    exact broadcastTo_1b_ab_apply _ _ p k

end Cert.KernelIdeal.Hand
end
-- ==== Proof.KI.Val9.lean ====
/-
  The value of region 9's output array (the final dense projection), on the extended reals: after the region's ten grid
  points the array holds, at row `r` and column `k`, the sum over `j` of the input array's entry `(r, j)` times the
  weight `(j, k)`, plus the bias row's entry `k`. Point `t` writes rows `10000·t … 10000·t + 9999`; the ten row blocks
  tile the array.
-/
import proofs.«162064_j1357209666150_1_alg».proof.Proof.KI.R9
import proofs.«162064_j1357209666150_1_alg».proof.Proof.KI.Pay9
import proofs.«162064_j1357209666150_1_alg».proof.Proof.Alg.Spec
import Idealize.ShloMosaic.Lib.ValueLayout
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

theorem hz9 : (![0, 0] : Fin 2 → Nat) = fun _ => 0 := funext fun a => by fin_cases a <;> rfl

/-- The output block as a function of the input blocks, at an index. -/
theorem out9_3_apply (x0 : Vec Ideal S10000x64 .f32) (x1 : Vec Ideal S64x64 .f32) (x2 : Vec Ideal S1x64 .f32) (p : Fin 10000) (k : Fin 64) :
    out9_3 (F := Ideal) x0 x1 x2 (ix2 p k) = (∑ j : Fin 64, x0 (ix2 p j) * x1 (ix2 j k)) + x2 (ix2 0 k) := by
  unfold out9_3
  rw [View.canon_unit_zero hz9]
  simp only [View.ld_unit_zero (S := S10000x64) hz9, View.ld_unit_zero (S := S64x64) hz9, View.ld_unit_zero (S := S1x64) hz9]
  exact pay9_apply x0 x1 x2 p k

/-- The printed index maps, decided over the grid: the row-tiled windows' block index is the point, the small windows' is zero. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- WHAT POINT `t` WRITES BACK is block `t` of the dense projection of the three input arrays as the region finds them. -/
theorem flushed9_eq (c : Dev nD) (t : Fin cfg9.N) :
    (dat9 (F := Ideal) V c).flushed 3 t = ((cfg9.win 3).blk t).view.read (Elt Ideal)
      (Cert.Alg.denseG (K := 64) (V c (Pipeline.arrRef spec9 0)) (V c (Pipeline.arrRef spec9 1)) (V c (Pipeline.arrRef spec9 2))) := by
  show (cfg9.win 3).cut (grid9.coords t) ((dat9 V c).after 3 t) = _
  rw [after9_3]
  obtain ⟨e00, e01, e10, e11, e20, e21, e30, e31⟩ := idx_facts9 t
  funext j
  obtain ⟨p, q, rfl⟩ : ∃ (p : Fin 10000) (q : Fin 64), j = ix2 p q := ⟨j 0, j 1, eq_ix2 j⟩
  refine (out9_3_apply _ _ _ p q).trans ?_
  change _ = Cert.Alg.denseG (K := 64) (V c (Pipeline.arrRef spec9 0)) (V c (Pipeline.arrRef spec9 1)) (V c (Pipeline.arrRef spec9 2))
    (((cfg9.win 3).blk t).view.emb (ix2 p q))
  unfold Cert.Alg.denseG
  refine congrArg₂ (· + ·) (Finset.sum_congr rfl fun j _ => congrArg₂ (· * ·) ?_ ?_) ?_
  · show V c (Pipeline.arrRef spec9 0) (((cfg9.win 0).blk t).view.emb (ix2 p j)) = _
    refine congrArg _ ?_
    funext a; apply Fin.ext
    match a with
    | ⟨0, _⟩ => show win9_0.index t (0 : Fin 2) * 10000 + 1 * p.val = win9_3.index t (0 : Fin 2) * 10000 + 1 * p.val; omega
    | ⟨1, _⟩ => show win9_0.index t (1 : Fin 2) * 64 + 1 * j.val = j.val; omega
  · show V c (Pipeline.arrRef spec9 1) (((cfg9.win 1).blk t).view.emb (ix2 j q)) = _
    refine congrArg _ ?_
    funext a; apply Fin.ext
    match a with
    | ⟨0, _⟩ => show win9_1.index t (0 : Fin 2) * 64 + 1 * j.val = j.val; omega
    | ⟨1, _⟩ => show win9_1.index t (1 : Fin 2) * 64 + 1 * q.val = win9_3.index t (1 : Fin 2) * 64 + 1 * q.val; omega
  · show V c (Pipeline.arrRef spec9 2) (((cfg9.win 2).blk t).view.emb (ix2 0 q)) = _
    refine congrArg _ ?_
    funext a; apply Fin.ext
    match a with
    | ⟨0, _⟩ => show win9_2.index t (0 : Fin 2) * 1 + 1 * 0 = 0; omega
    | ⟨1, _⟩ => show win9_2.index t (1 : Fin 2) * 64 + 1 * q.val = win9_3.index t (1 : Fin 2) * 64 + 1 * q.val; omega

/-- An index of the array is in point `t`'s block iff each coordinate is in the block's range on its axis. -/
theorem mem_blk9 (t : Fin cfg9.N) (i : S100000x64.Idx) :
    i ∈ ((cfg9.win 3).blk t).view.set ↔ ∀ a : Fin 2, win9_3.index t a * S10000x64.size a ≤ (i a).val ∧ (i a).val < win9_3.index t a * S10000x64.size a + S10000x64.size a := by
  show i ∈ ((View.whole main_v149).slice (win9_3.rect t)).set ↔ _
  rw [View.set_slice_whole, Rect.mem_set_unit]
  exact Iff.rfl

/-- The ten row blocks tile the array: row `r` is in the block of point `r / 10000`. -/
theorem cover9 (i : S100000x64.Idx) : ∃ t : Fin cfg9.N, (cfg9.win 3).flush t = true ∧ i ∈ ((cfg9.win 3).blk t).view.set := by
  have hi0 : (i 0).val < 100000 := (i 0).isLt
  have hi1 : (i 1).val < 64 := (i 1).isLt
  have hN : cfg9.N = 10 := N_9
  have hlt : (i 0).val / 10000 < cfg9.N := by rw [hN]; omega
  obtain ⟨-, -, -, -, -, -, e30, e31⟩ := idx_facts9 ⟨(i 0).val / 10000, hlt⟩
  have e30' : win9_3.index ⟨(i 0).val / 10000, hlt⟩ (0 : Fin 2) = (i 0).val / 10000 := e30
  refine ⟨⟨(i 0).val / 10000, hlt⟩, flush9_3 _, ?_⟩
  rw [mem_blk9]
  intro a
  match a with
  | ⟨0, _⟩ => show win9_3.index ⟨(i 0).val / 10000, hlt⟩ (0 : Fin 2) * 10000 ≤ (i 0).val ∧ (i 0).val < win9_3.index ⟨(i 0).val / 10000, hlt⟩ (0 : Fin 2) * 10000 + 10000; omega
  | ⟨1, _⟩ => show win9_3.index ⟨(i 0).val / 10000, hlt⟩ (1 : Fin 2) * 64 ≤ (i 1).val ∧ (i 1).val < win9_3.index ⟨(i 0).val / 10000, hlt⟩ (1 : Fin 2) * 64 + 64; omega

/-- THE ARRAY after the region: the dense projection of the three input arrays as the region finds them. -/
theorem final9 (c : Dev nD) : (dat9 (F := Ideal) V c).arrAt 3 cfg9.N
    = Cert.Alg.denseG (K := 64) (V c (Pipeline.arrRef spec9 0)) (V c (Pipeline.arrRef spec9 1)) (V c (Pipeline.arrRef spec9 2)) :=
  (dat9 (F := Ideal) V c).arrAt_eq_of_cover 3 _ (fun t _ => flushed9_eq V c t) cover9

end

end Cert.KernelIdeal.Hand

end
-- ==== Proof.KI.Pieces1.lean ====
/-
  Region 1: what each of the body's stores writes, read back as a value. At every point the big output block is the mixed
  and projected features of the two input blocks; the first scratch row is what it held (cleared rows at the first point)
  plus the block's column sums, the second likewise with the squares; the two small outputs are copies of the scratch rows.
-/
import proofs.«162064_j1357209666150_1_alg».proof.Proof.KI.R1
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hzz : (![0, 0] : Fin 2 → Nat) = fun _ => 0 := funext fun a => by fin_cases a <;> rfl

/-- A load of the whole buffer after stores the LAST of which wrote the whole buffer reads that last store's value. -/
theorem readCov_cons_whole {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

set_option maxHeartbeats 4000000 in
theorem canon1_A_L3 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) :
    View.canon (kernelRun1_A c i a0 ha0 a1 ha1 a2 ha2 a3 ha3 a4 ha4 a5 ha5 s0 hs0 s1 hs1 hc x0 x1 x2).1 = k1_pay4 x0 x1 x2 := by
  unfold kernelRun1_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_A_LS0 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) :
    View.canon (kernelRun1_A c i a0 ha0 a1 ha1 a2 ha2 a3 ha3 a4 ha4 a5 ha5 s0 hs0 s1 hs1 hc x0 x1 x2).2.2.2.1 = k1_pay5 x0 x1 x2 (k1_pay2 (F := F)) := by
  unfold kernelRun1_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_A_LS1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) :
    View.canon (kernelRun1_A c i a0 ha0 a1 ha1 a2 ha2 a3 ha3 a4 ha4 a5 ha5 s0 hs0 s1 hs1 hc x0 x1 x2).2.2.2.2.1 = k1_pay1 (k1_pay3 (F := F)) (k1_pay6 x0 x1 x2) := by
  unfold kernelRun1_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_A_L4 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) :
    View.canon (kernelRun1_A c i a0 ha0 a1 ha1 a2 ha2 a3 ha3 a4 ha4 a5 ha5 s0 hs0 s1 hs1 hc x0 x1 x2).2.1 = k1_pay5 x0 x1 x2 (k1_pay2 (F := F)) := by
  unfold kernelRun1_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_A_L5 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond1 i) (x0 : Vec F S10000x64 .f32) (x1 : Vec F S10000x64 .f32) (x2 : Vec F S64x64 .f32) :
    View.canon (kernelRun1_A c i a0 ha0 a1 ha1 a2 ha2 a3 ha3 a4 ha4 a5 ha5 s0 hs0 s1 hs1 hc x0 x1 x2).2.2.1 = k1_pay1 (k1_pay3 (F := F)) (k1_pay6 x0 x1 x2) := by
  unfold kernelRun1_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_B_L3 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) :
    View.canon (kernelRun1_B c i a0 ha0 a1 ha1 a2 ha2 a3 ha3 a4 ha4 a5 ha5 s0 hs0 s1 hs1 hc x0 x1 x2 p0 p1).1 = k1_pay4 x0 x1 x2 := by
  unfold kernelRun1_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_B_LS0 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) :
    View.canon (kernelRun1_B c i a0 ha0 a1 ha1 a2 ha2 a3 ha3 a4 ha4 a5 ha5 s0 hs0 s1 hs1 hc x0 x1 x2 p0 p1).2.2.2.1 = k1_pay5 x0 x1 x2 p0 := by
  unfold kernelRun1_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_B_LS1 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) :
    View.canon (kernelRun1_B c i a0 ha0 a1 ha1 a2 ha2 a3 ha3 a4 ha4 a5 ha5 s0 hs0 s1 hs1 hc x0 x1 x2 p0 p1).2.2.2.2.1 = k1_pay1 p1 (k1_pay6 x0 x1 x2) := by
  unfold kernelRun1_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_B_L4 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) :
    View.canon (kernelRun1_B c i a0 ha0 a1 ha1 a2 ha2 a3 ha3 a4 ha4 a5 ha5 s0 hs0 s1 hs1 hc x0 x1 x2 p0 p1).2.1 = k1_pay5 x0 x1 x2 p0 := by
  unfold kernelRun1_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon1_B_L5 (c : Dev nD) (i : grid1.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond1 i) (x0 : Vec F S10000x64 .f32) (x1 : Vec F S10000x64 .f32) (x2 : Vec F S64x64 .f32) (p0 p1 : Vec F S1x64 .f32) :
    View.canon (kernelRun1_B c i a0 ha0 a1 ha1 a2 ha2 a3 ha3 a4 ha4 a5 ha5 s0 hs0 s1 hs1 hc x0 x1 x2 p0 p1).2.2.1 = k1_pay1 p1 (k1_pay6 x0 x1 x2) := by
  unfold kernelRun1_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

end Cert.KernelIdeal.Hand

end
-- ==== Proof.KI.ValStats1.lean ====
/-
  Region 1: what the outputs and the two scratch rows hold after each grid point, as the body's arithmetic of the point's
  input blocks. The big output block is the mixed and projected features of the point's blocks. The first scratch row after
  the first point is the cleared row plus the block's column sums, after a later point what the point before left plus
  them; the second scratch row likewise with the squares; the two small outputs repeat the scratch rows.
-/
import proofs.«162064_j1357209666150_1_alg».proof.Proof.KI.Pieces1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

section
variable (V : (c : Dev nD) → (b : Ref sig .tc) → Buf (Elt F) ((c : Thread nD τ).loc b))

set_option maxHeartbeats 4000000 in
/-- At the first point. -/
theorem outs1_first (c : Dev nD) (t : Fin cfg1.N) (hz : t.val = 0) :
    outsAt1 V c t.val t.isLt
      = ((k1_pay4 (iblk1 V c 0 t) (iblk1 V c 1 t) (iblk1 V c 2 t), k1_pay5 (iblk1 V c 0 t) (iblk1 V c 1 t) (iblk1 V c 2 t) (k1_pay2 (F := F)), k1_pay1 (k1_pay3 (F := F)) (k1_pay6 (iblk1 V c 0 t) (iblk1 V c 1 t) (iblk1 V c 2 t))),
         (k1_pay5 (iblk1 V c 0 t) (iblk1 V c 1 t) (iblk1 V c 2 t) (k1_pay2 (F := F)), k1_pay1 (k1_pay3 (F := F)) (k1_pay6 (iblk1 V c 0 t) (iblk1 V c 1 t) (iblk1 V c 2 t)))) := by
  rw [outsAt1_A V c t hz]
  unfold resA1
  exact congrArg₂ Prod.mk (congrArg₂ Prod.mk (canon1_A_L3 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t)) (congrArg₂ Prod.mk (canon1_A_L4 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t)) (canon1_A_L5 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t))))
    (congrArg₂ Prod.mk (canon1_A_LS0 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t)) (canon1_A_LS1 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) ((hcond1 t).mpr hz) (iblk1 V c 0 t) (iblk1 V c 1 t) (iblk1 V c 2 t)))

set_option maxHeartbeats 4000000 in
/-- At a later point, from what the point before left in the scratch rows. -/
theorem outs1_later (c : Dev nD) (t : Fin cfg1.N) (hz : ¬t.val = 0) :
    outsAt1 V c t.val t.isLt
      = ((k1_pay4 (iblk1 V c 0 t) (iblk1 V c 1 t) (iblk1 V c 2 t), k1_pay5 (iblk1 V c 0 t) (iblk1 V c 1 t) (iblk1 V c 2 t) (outsAt1 V c (t.val - 1) (Nat.lt_of_le_of_lt (Nat.sub_le _ _) t.isLt)).2.1, k1_pay1 (outsAt1 V c (t.val - 1) (Nat.lt_of_le_of_lt (Nat.sub_le _ _) t.isLt)).2.2 (k1_pay6 (iblk1 V c 0 t) (iblk1 V c 1 t) (iblk1 V c 2 t))),
         (k1_pay5 (iblk1 V c 0 t) (iblk1 V c 1 t) (iblk1 V c 2 t) (outsAt1 V c (t.val - 1) (Nat.lt_of_le_of_lt (Nat.sub_le _ _) t.isLt)).2.1, k1_pay1 (outsAt1 V c (t.val - 1) (Nat.lt_of_le_of_lt (Nat.sub_le _ _) t.isLt)).2.2 (k1_pay6 (iblk1 V c 0 t) (iblk1 V c 1 t) (iblk1 V c 2 t)))) := by
  rw [outsAt1_B V c t hz]
  unfold resB1
  exact congrArg₂ Prod.mk (congrArg₂ Prod.mk (canon1_B_L3 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) (congrArg₂ Prod.mk (canon1_B_L4 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) (canon1_B_L5 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2)))
    (congrArg₂ Prod.mk (canon1_B_LS0 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) (canon1_B_LS1 c (grid1.coords t) (st1_0 t) (hst1_0 t) (st1_1 t) (hst1_1 t) (st1_2 t) (hst1_2 t) (st1_3 t) (hst1_3 t) (st1_4 t) (hst1_4 t) (st1_5 t) (hst1_5 t) sc1_0 (Memref.isWhole_whole _) sc1_1 (Memref.isWhole_whole _) (fun h => hz ((hcond1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2))

/-- The big output block after ANY point: the features of the point's blocks. -/
theorem after1_3_eq (c : Dev nD) (t : Fin cfg1.N) : (dat1 V c).after 3 t = k1_pay4 (iblk1 V c 0 t) (iblk1 V c 1 t) (iblk1 V c 2 t) := by
  rw [after1_3]
  by_cases hz : t.val = 0
  · rw [outs1_first V c t hz]
  · rw [outs1_later V c t hz]

/-- The small outputs repeat the scratch rows, at every point. -/
theorem after1_4_eq (c : Dev nD) (t : Fin cfg1.N) : (dat1 V c).after 4 t = (outsAt1 V c t.val t.isLt).2.1 := by
  rw [after1_4]
  by_cases hz : t.val = 0
  · rw [outs1_first V c t hz]
  · rw [outs1_later V c t hz]
theorem after1_5_eq (c : Dev nD) (t : Fin cfg1.N) : (dat1 V c).after 5 t = (outsAt1 V c t.val t.isLt).2.2 := by
  rw [after1_5]
  by_cases hz : t.val = 0
  · rw [outs1_first V c t hz]
  · rw [outs1_later V c t hz]

end

end Cert.KernelIdeal.Hand

end
-- ==== Proof.KI.PayStats1.lean ====
/-
  Region 1's arithmetic at an index, on the extended reals. With `s = c1 · agg + c2 · x0` the stored block is, at row `p`
  and column `k`, `c3 · s (p, k) + c4 · ∑ j, s (p, j) · w (j, k)`; the first scratch row gains the block's column sums,
  the second the column sums of its squares; cleared rows are zero.
-/
import proofs.«162064_j1357209666150_1_alg».proof.Proof.Gen.KernelIdeal.Skeleton
import proofs.«162064_j1357209666150_1_alg».proof.Proof.LibPlainDot
import Idealize.ShloMosaic.PureOps.Ideal.Laws
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The mixed features of one row block at `(p, j)`. -/
def mix1 (x0 x1 : Vec Ideal S10000x64 .f32) (p : Fin 10000) (j : Fin 64) : Ideal .f32 :=
  (Scalar.ofBits (F := Ideal) .f32 0x3F666666#32) * x0 (ix2 p j) + (Scalar.ofBits (F := Ideal) .f32 0x3DCCCCCD#32) * x1 (ix2 p j)

set_option maxHeartbeats 4000000 in
theorem pay4_1_apply (x0 x1 : Vec Ideal S10000x64 .f32) (x2 : Vec Ideal S64x64 .f32) (p : Fin 10000) (k : Fin 64) :
    k1_pay4 (F := Ideal) x0 x1 x2 (ix2 p k)
      = (Scalar.ofBits (F := Ideal) .f32 0x3F183370#32) * mix1 x0 x1 p k + (Scalar.ofBits (F := Ideal) .f32 0x3ECF991F#32) * ∑ j : Fin 64, mix1 x0 x1 p j * x2 (ix2 j k) := by
  unfold k1_pay4
  simp only [shapeCast_self]
  refine congrArg₂ (· + ·) rfl ?_
  refine congrArg ((Scalar.ofBits (F := Ideal) .f32 0x3ECF991F#32) * ·) ?_
  refine (Cert.LibPlainDot.matmul_plain_zero_apply (M := 10000) (K := 64) (N := 64) none _ _ p k).trans ?_
  exact Finset.sum_congr rfl fun j _ => rfl

/-- A column sum of a row block: the lane reduction over axis 0 read at column `k`. -/
theorem colsum1_apply (src : FVec Ideal S10000x64 .f32) (k : Fin 64) :
    multiReduction .add [0] S64 src 0x00000000#32 reduces_S10000x64_S64 (.inl rfl) rfl (ix1 k) = ∑ p : Fin 10000, src (ix2 p k) := by
  refine (Ideal.multiReduction_add_single src 0x00000000#32 reduces_S10000x64_S64 (.inl rfl) rfl (ix1 k)).trans ?_
  refine Finset.sum_congr rfl fun p _ => congrArg src ?_
  funext a
  match a with
  | ⟨0, _⟩ => rfl
  | ⟨1, _⟩ => rfl

theorem pay5_1_apply (x0 x1 : Vec Ideal S10000x64 .f32) (x2 : Vec Ideal S64x64 .f32) (q : Vec Ideal S1x64 .f32) (k : Fin 64) :
    k1_pay5 (F := Ideal) x0 x1 x2 q (ix2 (0 : Fin 1) k) = q (ix2 (0 : Fin 1) k) + ∑ p : Fin 10000, k1_pay4 (F := Ideal) x0 x1 x2 (ix2 p k) := by
  unfold k1_pay5
  simp only [shapeCast_self]
  refine congrArg₂ (· + ·) rfl ?_
  refine (shapeCast_a_1a_apply _ _ (0 : Fin 1) k).trans ?_
  exact colsum1_apply _ k

theorem pay1_1_apply (x0 x1 : Vec Ideal S10000x64 .f32) (x2 : Vec Ideal S64x64 .f32) (q : Vec Ideal S1x64 .f32) (k : Fin 64) :
    k1_pay1 (F := Ideal) q (k1_pay6 (F := Ideal) x0 x1 x2) (ix2 (0 : Fin 1) k)
      = q (ix2 (0 : Fin 1) k) + ∑ p : Fin 10000, k1_pay4 (F := Ideal) x0 x1 x2 (ix2 p k) * k1_pay4 (F := Ideal) x0 x1 x2 (ix2 p k) := by
  unfold k1_pay1 k1_pay6
  simp only [shapeCast_self]
  refine congrArg₂ (· + ·) rfl ?_
  refine (shapeCast_a_1a_apply _ _ (0 : Fin 1) k).trans ?_
  exact (colsum1_apply _ k).trans (Finset.sum_congr rfl fun p _ => rfl)

theorem pay2_1_apply (i : S1x64.Idx) : k1_pay2 (F := Ideal) i = Ideal.ofBits .f32 0x00000000#32 := by
  unfold k1_pay2; simp only [shapeCast_self]; rfl
theorem pay3_1_apply (i : S1x64.Idx) : k1_pay3 (F := Ideal) i = Ideal.ofBits .f32 0x00000000#32 := by
  unfold k1_pay3; simp only [shapeCast_self]; rfl

end Cert.KernelIdeal.Hand

end
-- ==== Proof.KI.AccStats1.lean ====
/-
  Region 1, on the extended reals: after point `n` the first scratch row holds, at column `k`, the zero word plus the sum
  over the points `t ≤ n` of the column sums of the features of point `t`'s blocks; the second scratch row the same with the
  squares. By induction on `n`: the first point starts from cleared rows, every later point adds its block's sums to what
  the point before left.
-/
import proofs.«162064_j1357209666150_1_alg».proof.Proof.KI.ValStats1
import proofs.«162064_j1357209666150_1_alg».proof.Proof.KI.PayStats1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

/-- The column sum, at column `k`, of the features of point `t`'s blocks. -/
def blockSum1 (c : Dev nD) (k : Fin 64) (t : Fin cfg1.N) : Ideal .f32 :=
  ∑ p : Fin 10000, k1_pay4 (F := Ideal) (iblk1 V c 0 t) (iblk1 V c 1 t) (iblk1 V c 2 t) (ix2 p k)
/-- The same of the squares. -/
def blockSq1 (c : Dev nD) (k : Fin 64) (t : Fin cfg1.N) : Ideal .f32 :=
  ∑ p : Fin 10000, k1_pay4 (F := Ideal) (iblk1 V c 0 t) (iblk1 V c 1 t) (iblk1 V c 2 t) (ix2 p k) * k1_pay4 (F := Ideal) (iblk1 V c 0 t) (iblk1 V c 1 t) (iblk1 V c 2 t) (ix2 p k)

theorem acc1_sum (c : Dev nD) (k : Fin 64) : ∀ (n : ℕ) (hn : n < cfg1.N),
    (outsAt1 V c n hn).2.1 (ix2 (0 : Fin 1) k) = Ideal.ofBits .f32 0x00000000#32 + ∑ t : Fin (n + 1), blockSum1 V c k ⟨t.val, by omega⟩
  | 0, hn => by
    rw [show outsAt1 V c 0 hn = outsAt1 V c (⟨0, hn⟩ : Fin cfg1.N).val (⟨0, hn⟩ : Fin cfg1.N).isLt from rfl, outs1_first V c ⟨0, hn⟩ rfl]
    refine (pay5_1_apply _ _ _ _ k).trans ?_
    rw [pay2_1_apply, Fin.sum_univ_one]
    rfl
  | n + 1, hn => by
    rw [show outsAt1 V c (n + 1) hn = outsAt1 V c (⟨n + 1, hn⟩ : Fin cfg1.N).val (⟨n + 1, hn⟩ : Fin cfg1.N).isLt from rfl,
      outs1_later V c ⟨n + 1, hn⟩ (Nat.succ_ne_zero n)]
    refine (pay5_1_apply _ _ _ _ k).trans ?_
    rw [show (outsAt1 V c ((⟨n + 1, hn⟩ : Fin cfg1.N).val - 1) (Nat.lt_of_le_of_lt (Nat.sub_le _ _) (⟨n + 1, hn⟩ : Fin cfg1.N).isLt)).2.1 (ix2 (0 : Fin 1) k)
        = (outsAt1 V c n (Nat.lt_of_succ_lt hn)).2.1 (ix2 (0 : Fin 1) k) from rfl,
      acc1_sum c k n (Nat.lt_of_succ_lt hn), Fin.sum_univ_castSucc (n := n + 1), add_assoc]
    rfl

theorem acc1_sq (c : Dev nD) (k : Fin 64) : ∀ (n : ℕ) (hn : n < cfg1.N),
    (outsAt1 V c n hn).2.2 (ix2 (0 : Fin 1) k) = Ideal.ofBits .f32 0x00000000#32 + ∑ t : Fin (n + 1), blockSq1 V c k ⟨t.val, by omega⟩
  | 0, hn => by
    rw [show outsAt1 V c 0 hn = outsAt1 V c (⟨0, hn⟩ : Fin cfg1.N).val (⟨0, hn⟩ : Fin cfg1.N).isLt from rfl, outs1_first V c ⟨0, hn⟩ rfl]
    refine (pay1_1_apply _ _ _ _ k).trans ?_
    rw [pay3_1_apply, Fin.sum_univ_one]
    rfl
  | n + 1, hn => by
    rw [show outsAt1 V c (n + 1) hn = outsAt1 V c (⟨n + 1, hn⟩ : Fin cfg1.N).val (⟨n + 1, hn⟩ : Fin cfg1.N).isLt from rfl,
      outs1_later V c ⟨n + 1, hn⟩ (Nat.succ_ne_zero n)]
    refine (pay1_1_apply _ _ _ _ k).trans ?_
    rw [show (outsAt1 V c ((⟨n + 1, hn⟩ : Fin cfg1.N).val - 1) (Nat.lt_of_le_of_lt (Nat.sub_le _ _) (⟨n + 1, hn⟩ : Fin cfg1.N).isLt)).2.2 (ix2 (0 : Fin 1) k)
        = (outsAt1 V c n (Nat.lt_of_succ_lt hn)).2.2 (ix2 (0 : Fin 1) k) from rfl,
      acc1_sq c k n (Nat.lt_of_succ_lt hn), Fin.sum_univ_castSucc (n := n + 1), add_assoc]
    rfl

end

end Cert.KernelIdeal.Hand

end
-- ==== Proof.KI.FinStats1.lean ====
/-
  Region 1: the three output arrays after the ten grid points, on the extended reals. The big output is the layer's
  pre-normalisation features of the three input arrays (point `t` writes rows `10000·t …`; the ten row blocks tile the array).
  The two one-row outputs are written back once, after the last point, and then hold the zero word plus the sum over the ten
  points of the point's block column sums (of the features, and of their squares).
-/
import proofs.«162064_j1357209666150_1_alg».proof.Proof.KI.AccStats1
import proofs.«162064_j1357209666150_1_alg».proof.Proof.Alg.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

set_option maxHeartbeats 4000000 in
/-- WHAT POINT `t` WRITES BACK into the big output is block `t` of the features of the three input arrays. -/
theorem flushed1_3_eq (c : Dev nD) (t : Fin cfg1.N) :
    (dat1 (F := Ideal) V c).flushed 3 t = ((cfg1.win 3).blk t).view.read (Elt Ideal) (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) := by
  show (cfg1.win 3).cut (grid1.coords t) ((dat1 V c).after 3 t) = _
  rw [after1_3_eq]
  obtain ⟨e00, e01, e10, e11, e20, e21, e30, e31, -⟩ := idx_facts1 t
  funext j
  obtain ⟨p, q, rfl⟩ : ∃ (p : Fin 10000) (q : Fin 64), j = ix2 p q := ⟨j 0, j 1, eq_ix2 j⟩
  refine (pay4_1_apply _ _ _ p q).trans ?_
  change _ = (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) (((cfg1.win 3).blk t).view.emb (ix2 p q))
  unfold Cert.Alg.statsH Cert.Alg.mixS mix1
  refine congrArg₂ (· + ·) (congrArg ((Scalar.ofBits (F := Ideal) .f32 0x3F183370#32) * ·) (congrArg₂ (· + ·) (congrArg ((Scalar.ofBits (F := Ideal) .f32 0x3F666666#32) * ·) ?_) (congrArg ((Scalar.ofBits (F := Ideal) .f32 0x3DCCCCCD#32) * ·) ?_)))
    (congrArg ((Scalar.ofBits (F := Ideal) .f32 0x3ECF991F#32) * ·) (Finset.sum_congr rfl fun j _ => congrArg₂ (· * ·) (congrArg₂ (· + ·) (congrArg ((Scalar.ofBits (F := Ideal) .f32 0x3F666666#32) * ·) ?_) (congrArg ((Scalar.ofBits (F := Ideal) .f32 0x3DCCCCCD#32) * ·) ?_)) ?_))
  · show V c (Pipeline.arrRef spec1 0) (((cfg1.win 0).blk t).view.emb (ix2 p q)) = _
    refine congrArg _ ?_
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * q.val = win1_3.index t (1 : Fin 2) * 64 + 1 * q.val; omega
  · show V c (Pipeline.arrRef spec1 1) (((cfg1.win 1).blk t).view.emb (ix2 p q)) = _
    refine congrArg _ ?_
    funext a; apply Fin.ext
    match a with
    | ⟨0, _⟩ => show win1_1.index t (0 : Fin 2) * 10000 + 1 * p.val = win1_3.index t (0 : Fin 2) * 10000 + 1 * p.val; omega
    | ⟨1, _⟩ => show win1_1.index t (1 : Fin 2) * 64 + 1 * q.val = win1_3.index t (1 : Fin 2) * 64 + 1 * q.val; omega
  · show V c (Pipeline.arrRef spec1 0) (((cfg1.win 0).blk t).view.emb (ix2 p j)) = _
    refine congrArg _ ?_
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * j.val = j.val; omega
  · show V c (Pipeline.arrRef spec1 1) (((cfg1.win 1).blk t).view.emb (ix2 p j)) = _
    refine congrArg _ ?_
    funext a; apply Fin.ext
    match a with
    | ⟨0, _⟩ => show win1_1.index t (0 : Fin 2) * 10000 + 1 * p.val = win1_3.index t (0 : Fin 2) * 10000 + 1 * p.val; omega
    | ⟨1, _⟩ => show win1_1.index t (1 : Fin 2) * 64 + 1 * j.val = j.val; omega
  · show V c (Pipeline.arrRef spec1 2) (((cfg1.win 2).blk t).view.emb (ix2 j q)) = _
    refine congrArg _ ?_
    funext a; apply Fin.ext
    match a with
    | ⟨0, _⟩ => show win1_2.index t (0 : Fin 2) * 64 + 1 * j.val = j.val; omega
    | ⟨1, _⟩ => show win1_2.index t (1 : Fin 2) * 64 + 1 * q.val = win1_3.index t (1 : Fin 2) * 64 + 1 * q.val; omega

theorem mem_blk1_3 (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole (Pipeline.arrRef spec1 3)).slice (win1_3.rect t)).set ↔ _
  rw [View.set_slice_whole, Rect.mem_set_unit]
  exact Iff.rfl

theorem cover1_3 (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  have hlt : (i 0).val / 10000 < cfg1.N := by rw [hN]; omega
  obtain ⟨-, -, -, -, -, -, e30, e31, -⟩ := idx_facts1 ⟨(i 0).val / 10000, hlt⟩
  have e30' : win1_3.index ⟨(i 0).val / 10000, hlt⟩ (0 : Fin 2) = (i 0).val / 10000 := e30
  refine ⟨⟨(i 0).val / 10000, hlt⟩, flush1_3 _, ?_⟩
  rw [mem_blk1_3]
  intro a
  match a with
  | ⟨0, _⟩ => show win1_3.index ⟨(i 0).val / 10000, hlt⟩ (0 : Fin 2) * 10000 ≤ (i 0).val ∧ (i 0).val < win1_3.index ⟨(i 0).val / 10000, hlt⟩ (0 : Fin 2) * 10000 + 10000; omega
  | ⟨1, _⟩ => show win1_3.index ⟨(i 0).val / 10000, hlt⟩ (1 : Fin 2) * 64 ≤ (i 1).val ∧ (i 1).val < win1_3.index ⟨(i 0).val / 10000, hlt⟩ (1 : Fin 2) * 64 + 64; omega

/-- THE BIG OUTPUT after the region. -/
theorem final1_3 (c : Dev nD) : (dat1 (F := Ideal) V c).arrAt 3 cfg1.N = (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) :=
  (dat1 (F := Ideal) V c).arrAt_eq_of_cover 3 _ (fun t _ => flushed1_3_eq V c t) cover1_3

end

end Cert.KernelIdeal.Hand

end
-- ==== Proof.LibBlockSum.lean ====
/-
  Block decomposition of a finite sum: a sum over `Fin (a * b)` is the sum over the `a` consecutive
  blocks of length `b` of the sums inside each block.  Stated in any additive commutative monoid, and
  once more at the literal sizes `8192 = 8 * 1024` with no cast in the statement.
-/
import Mathlib.Algebra.BigOperators.Fin
import Mathlib.Logic.Equiv.Fin.Basic

open scoped BigOperators

namespace Cert.Math

/-- The position `b * i + p` of entry `p` of block `i` lies below `a * b`. -/
theorem block_index_lt {a b : ℕ} (i : Fin a) (p : Fin b) : b * i.val + p.val < a * b := by
  have hi : i.val + 1 ≤ a := i.isLt
  have hp : p.val < b := p.isLt
  calc b * i.val + p.val < b * i.val + b := Nat.add_lt_add_left hp _
    _ = (i.val + 1) * b := by rw [Nat.succ_mul, Nat.mul_comm]
    _ ≤ a * b := Nat.mul_le_mul_right _ hi

/-- A sum over `Fin (a * b)` split into `a` consecutive blocks of length `b`: the pair `(i, p)`
    names position `b * i + p`, and the pairs enumerate every position exactly once. -/
theorem sum_fin_mul {M : Type*} [AddCommMonoid M] (a b : ℕ) (f : Fin (a * b) → M) :
    ∑ r, f r = ∑ i : Fin a, ∑ p : Fin b, f ⟨b * i.val + p.val, block_index_lt i p⟩ := by
  rw [← Equiv.sum_comp (finProdFinEquiv (m := a) (n := b)) f, Fintype.sum_prod_type]
  refine Finset.sum_congr rfl fun i _ => Finset.sum_congr rfl fun p _ => ?_
  congr 1
  apply Fin.ext
  show p.val + b * i.val = b * i.val + p.val
  exact Nat.add_comm _ _

/-- The same at `8192 = 8 * 1024`: eight blocks of 1024 consecutive positions. -/
theorem sum_blocks_8192 {M : Type*} [AddCommMonoid M] (f : Fin 8192 → M) :
    ∑ r : Fin 8192, f r
      = ∑ i : Fin 8, ∑ p : Fin 1024,
          f ⟨1024 * i.val + p.val, by have := i.isLt; have := p.isLt; omega⟩ :=
  sum_fin_mul 8 1024 f

end Cert.Math
-- ==== Proof.LibTenBlocks.lean ====
/-
  A sum over 100000 positions as ten blocks of 10000, and the left-nested sum of ten terms.

  Position r of `Fin 100000` is 10000 · t + p for exactly one block t below 10 and one offset p
  below 10000, so the sum over all positions is the sum over the blocks of the sums inside each
  block, in any additive commutative monoid. A sum of ten terms accumulated one after another
  from zero, ((((0 + s 0) + s 1) + …) + s 9), is the sum over `Fin 10`.
-/
import proofs.«162064_j1357209666150_1_alg».proof.Proof.LibBlockSum

open scoped BigOperators

namespace Cert.LibTenBlocks

/-- Ten blocks of ten thousand consecutive positions. -/
theorem sum_blocks_100000 {M : Type*} [AddCommMonoid M] (f : Fin 100000 → M) :
    ∑ r : Fin 100000, f r
      = ∑ t : Fin 10, ∑ p : Fin 10000,
          f ⟨10000 * t.val + p.val, by have := t.isLt; have := p.isLt; omega⟩ :=
  Cert.Math.sum_fin_mul 10 10000 f

/-- The left-nested sum of ten terms from zero is the sum over `Fin 10`. -/
theorem nested_ten {M : Type*} [AddCommMonoid M] (s : Fin 10 → M) :
    ((((((((((0 + s 0) + s 1) + s 2) + s 3) + s 4) + s 5) + s 6) + s 7) + s 8) + s 9) = ∑ t : Fin 10, s t := by
  simp only [Fin.sum_univ_succ, Fin.sum_univ_zero, zero_add, add_zero, add_assoc]
  rfl

/-- Both at once: the left-nested sum over the ten blocks of the block sums is the whole sum. -/
theorem nested_blocks_100000 {M : Type*} [AddCommMonoid M] (f : Fin 100000 → M) (b : Fin 10 → M)
    (hb : ∀ t : Fin 10, b t = ∑ p : Fin 10000,
        f ⟨10000 * t.val + p.val, by have := t.isLt; have := p.isLt; omega⟩) :
    ((((((((((0 + b 0) + b 1) + b 2) + b 3) + b 4) + b 5) + b 6) + b 7) + b 8) + b 9) = ∑ r : Fin 100000, f r := by
  rw [nested_ten b, sum_blocks_100000 f]
  exact Finset.sum_congr rfl fun t _ => hb t

end Cert.LibTenBlocks
-- ==== Proof.KI.FinSums1.lean ====
/-
  Region 1: the two one-row outputs after the ten grid points, on the extended reals. Each is written back once, after the
  last point, and then holds the zero word plus the sum over the ten points of the point's block column sums — of the
  features for the first, of their squares for the second.
-/
import proofs.«162064_j1357209666150_1_alg».proof.Proof.KI.FinStats1
import proofs.«162064_j1357209666150_1_alg».proof.Proof.LibTenBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

/-- The row the sum output ends with: the zero word plus the ten points' block sums. -/
def row1_4 (c : Dev nD) : S1x64.Idx → Ideal .f32 := fun i =>
  Ideal.ofBits .f32 0x00000000#32 + ∑ t : Fin 10, blockSum1 V c ⟨(i 1).val, (i 1).isLt⟩ ⟨t.val, by have h : cfg1.N = 10 := N_1; omega⟩

theorem mem_blk1_4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole (Pipeline.arrRef spec1 4)).slice (win1_4.rect t)).set ↔ _
  rw [View.set_slice_whole, Rect.mem_set_unit]
  exact Iff.rfl

set_option maxHeartbeats 4000000 in
/-- The one write-back of the sum output, after the last point, writes that row. -/
theorem flushed1_4_eq (c : Dev nD) (t : Fin cfg1.N) (hf : (cfg1.win 4).flush t = true) :
    (dat1 (F := Ideal) V c).flushed 4 t = ((cfg1.win 4).blk t).view.read (Elt Ideal) (row1_4 V c) := by
  have hN : cfg1.N = 10 := N_1
  have h9lt : 9 < cfg1.N := by rw [hN]; decide
  have htlt : t.val < 10 := lt_of_lt_of_eq t.isLt hN
  have h9 : t.val = 9 := by have h := (flush1_4 t).mp hf; omega
  show (cfg1.win 4).cut (grid1.coords t) ((dat1 V c).after 4 t) = _
  rw [after1_4_eq]
  obtain ⟨-, -, -, -, -, -, -, -, e40, e41, e50, e51⟩ := idx_facts1 t
  funext j
  obtain ⟨u, q, rfl⟩ : ∃ (u : Fin 1) (q : Fin 64), j = ix2 u q := ⟨j 0, j 1, eq_ix2 j⟩
  have hu : u = 0 := Fin.ext (by omega)
  subst hu
  have hemb : ((cfg1.win 4).blk t).view.emb (ix2 (0 : Fin 1) q) = ix2 (0 : Fin 1) q := by
    funext a; apply Fin.ext
    match a with
    | ⟨0, _⟩ => show win1_4.index t (0 : Fin 2) * 1 + 1 * 0 = 0; omega
    | ⟨1, _⟩ => show win1_4.index t (1 : Fin 2) * 64 + 1 * q.val = q.val; omega
  change _ = row1_4 V c (((cfg1.win 4).blk t).view.emb (ix2 (0 : Fin 1) q))
  rw [hemb]
  have ht : t = ⟨9, h9lt⟩ := Fin.ext h9
  subst ht
  exact acc1_sum V c q 9 h9lt

theorem cover1_4 (i : S1x64.Idx) : ∃ t : Fin cfg1.N, (cfg1.win 4).flush t = true ∧ i ∈ ((cfg1.win 4).blk t).view.set := by
  have hi0 : (i 0).val < 1 := (i 0).isLt
  have hi1 : (i 1).val < 64 := (i 1).isLt
  have hN : cfg1.N = 10 := N_1
  have hlt : 9 < cfg1.N := by omega
  obtain ⟨-, -, -, -, -, -, -, -, e40, e41, e50, e51⟩ := idx_facts1 ⟨9, hlt⟩
  refine ⟨⟨9, hlt⟩, (flush1_4 _).mpr rfl, ?_⟩
  rw [mem_blk1_4]
  intro a
  match a with
  | ⟨0, _⟩ => show win1_4.index ⟨9, hlt⟩ (0 : Fin 2) * 1 ≤ (i 0).val ∧ (i 0).val < win1_4.index ⟨9, hlt⟩ (0 : Fin 2) * 1 + 1; omega
  | ⟨1, _⟩ => show win1_4.index ⟨9, hlt⟩ (1 : Fin 2) * 64 ≤ (i 1).val ∧ (i 1).val < win1_4.index ⟨9, hlt⟩ (1 : Fin 2) * 64 + 64; omega

/-- THE SUM OUTPUT after the region. -/
theorem final1_4 (c : Dev nD) : (dat1 (F := Ideal) V c).arrAt 4 cfg1.N = row1_4 V c :=
  (dat1 (F := Ideal) V c).arrAt_eq_of_cover 4 _ (fun t hf => flushed1_4_eq V c t hf) cover1_4

/-- The row the sum-of-squares output ends with: the zero word plus the ten points' block sums. -/
def row1_5 (c : Dev nD) : S1x64.Idx → Ideal .f32 := fun i =>
  Ideal.ofBits .f32 0x00000000#32 + ∑ t : Fin 10, blockSq1 V c ⟨(i 1).val, (i 1).isLt⟩ ⟨t.val, by have h : cfg1.N = 10 := N_1; omega⟩

theorem mem_blk1_5 (t : Fin cfg1.N) (i : S1x64.Idx) :
    i ∈ ((cfg1.win 5).blk t).view.set ↔ ∀ a : Fin 2, win1_5.index t a * S1x64.size a ≤ (i a).val ∧ (i a).val < win1_5.index t a * S1x64.size a + S1x64.size a := by
  show i ∈ ((View.whole (Pipeline.arrRef spec1 5)).slice (win1_5.rect t)).set ↔ _
  rw [View.set_slice_whole, Rect.mem_set_unit]
  exact Iff.rfl

set_option maxHeartbeats 4000000 in
/-- The one write-back of the sum-of-squares output, after the last point, writes that row. -/
theorem flushed1_5_eq (c : Dev nD) (t : Fin cfg1.N) (hf : (cfg1.win 5).flush t = true) :
    (dat1 (F := Ideal) V c).flushed 5 t = ((cfg1.win 5).blk t).view.read (Elt Ideal) (row1_5 V c) := by
  have hN : cfg1.N = 10 := N_1
  have h9lt : 9 < cfg1.N := by rw [hN]; decide
  have htlt : t.val < 10 := lt_of_lt_of_eq t.isLt hN
  have h9 : t.val = 9 := by have h := (flush1_5 t).mp hf; omega
  show (cfg1.win 5).cut (grid1.coords t) ((dat1 V c).after 5 t) = _
  rw [after1_5_eq]
  obtain ⟨-, -, -, -, -, -, -, -, e40, e41, e50, e51⟩ := idx_facts1 t
  funext j
  obtain ⟨u, q, rfl⟩ : ∃ (u : Fin 1) (q : Fin 64), j = ix2 u q := ⟨j 0, j 1, eq_ix2 j⟩
  have hu : u = 0 := Fin.ext (by omega)
  subst hu
  have hemb : ((cfg1.win 5).blk t).view.emb (ix2 (0 : Fin 1) q) = ix2 (0 : Fin 1) q := by
    funext a; apply Fin.ext
    match a with
    | ⟨0, _⟩ => show win1_5.index t (0 : Fin 2) * 1 + 1 * 0 = 0; omega
    | ⟨1, _⟩ => show win1_5.index t (1 : Fin 2) * 64 + 1 * q.val = q.val; omega
  change _ = row1_5 V c (((cfg1.win 5).blk t).view.emb (ix2 (0 : Fin 1) q))
  rw [hemb]
  have ht : t = ⟨9, h9lt⟩ := Fin.ext h9
  subst ht
  exact acc1_sq V c q 9 h9lt

theorem cover1_5 (i : S1x64.Idx) : ∃ t : Fin cfg1.N, (cfg1.win 5).flush t = true ∧ i ∈ ((cfg1.win 5).blk t).view.set := by
  have hi0 : (i 0).val < 1 := (i 0).isLt
  have hi1 : (i 1).val < 64 := (i 1).isLt
  have hN : cfg1.N = 10 := N_1
  have hlt : 9 < cfg1.N := by omega
  obtain ⟨-, -, -, -, -, -, -, -, e40, e41, e50, e51⟩ := idx_facts1 ⟨9, hlt⟩
  refine ⟨⟨9, hlt⟩, (flush1_5 _).mpr rfl, ?_⟩
  rw [mem_blk1_5]
  intro a
  match a with
  | ⟨0, _⟩ => show win1_5.index ⟨9, hlt⟩ (0 : Fin 2) * 1 ≤ (i 0).val ∧ (i 0).val < win1_5.index ⟨9, hlt⟩ (0 : Fin 2) * 1 + 1; omega
  | ⟨1, _⟩ => show win1_5.index ⟨9, hlt⟩ (1 : Fin 2) * 64 ≤ (i 1).val ∧ (i 1).val < win1_5.index ⟨9, hlt⟩ (1 : Fin 2) * 64 + 64; omega

/-- THE SUM-OF-SQUARES OUTPUT after the region. -/
theorem final1_5 (c : Dev nD) : (dat1 (F := Ideal) V c).arrAt 5 cfg1.N = row1_5 V c :=
  (dat1 (F := Ideal) V c).arrAt_eq_of_cover 5 _ (fun t hf => flushed1_5_eq V c t hf) cover1_5

/-! ## The block sums are the column sums of the whole feature array -/

/-- The features of point `t`'s blocks at `(p, k)` are the whole feature array's entry at row `10000·t + p`. -/
theorem pay4_1_whole (c : Dev nD) (k : Fin 64) (t : Fin cfg1.N) (p : Fin 10000) :
    k1_pay4 (F := Ideal) (iblk1 V c 0 t) (iblk1 V c 1 t) (iblk1 V c 2 t) (ix2 p k) = (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) (ix2 (⟨10000 * t.val + p.val, by have h : cfg1.N = 10 := N_1; have := t.isLt; have := p.isLt; omega⟩ : Fin 100000) k) := by
  have hfl := congrFun (flushed1_3_eq V c t) (ix2 p k)
  have h1 : (dat1 (F := Ideal) V c).flushed 3 t (ix2 p k) = k1_pay4 (F := Ideal) (iblk1 V c 0 t) (iblk1 V c 1 t) (iblk1 V c 2 t) (ix2 p k) := by
    show (cfg1.win 3).cut (grid1.coords t) ((dat1 V c).after 3 t) (ix2 p k) = _
    rw [after1_3_eq]
    rfl
  rw [← h1, hfl]
  obtain ⟨-, -, -, -, -, -, e30, e31, -⟩ := idx_facts1 t
  show (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) (((cfg1.win 3).blk t).view.emb (ix2 p k)) = _
  refine congrArg _ ?_
  funext a; apply Fin.ext
  match a with
  | ⟨0, _⟩ => show win1_3.index t (0 : Fin 2) * 10000 + 1 * p.val = 10000 * t.val + p.val; omega
  | ⟨1, _⟩ => show win1_3.index t (1 : Fin 2) * 64 + 1 * k.val = k.val; omega

theorem row1_4_eq (c : Dev nD) : row1_4 V c = Cert.Alg.colSum (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) := by
  funext i
  obtain ⟨u, q, rfl⟩ : ∃ (u : Fin 1) (q : Fin 64), i = ix2 u q := ⟨i 0, i 1, eq_ix2 i⟩
  unfold row1_4 Cert.Alg.colSum
  rw [Ideal.ofBits_zero_f32, zero_add, Cert.LibTenBlocks.sum_blocks_100000 (fun r => (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) (ix2 r q))]
  refine Finset.sum_congr rfl fun t _ => ?_
  unfold blockSum1
  exact Finset.sum_congr rfl fun p _ => pay4_1_whole V c q ⟨t.val, by have h : cfg1.N = 10 := N_1; omega⟩ p

theorem row1_5_eq (c : Dev nD) : row1_5 V c = Cert.Alg.colSum (fun j => (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) j * (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) j) := by
  funext i
  obtain ⟨u, q, rfl⟩ : ∃ (u : Fin 1) (q : Fin 64), i = ix2 u q := ⟨i 0, i 1, eq_ix2 i⟩
  unfold row1_5 Cert.Alg.colSum
  rw [Ideal.ofBits_zero_f32, zero_add, Cert.LibTenBlocks.sum_blocks_100000 (fun r => (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) (ix2 r q) * (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) (ix2 r q))]
  refine Finset.sum_congr rfl fun t _ => ?_
  unfold blockSq1
  exact Finset.sum_congr rfl fun p _ => congrArg₂ (· * ·) (pay4_1_whole V c q ⟨t.val, by have h : cfg1.N = 10 := N_1; omega⟩ p) (pay4_1_whole V c q ⟨t.val, by have h : cfg1.N = 10 := N_1; omega⟩ p)

/-- THE SUM OUTPUT after the region: the column sums of the whole feature array. -/
theorem final1_4c (c : Dev nD) : (dat1 (F := Ideal) V c).arrAt 4 cfg1.N = Cert.Alg.colSum (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) :=
  (final1_4 V c).trans (row1_4_eq V c)
/-- THE SUM-OF-SQUARES OUTPUT after the region. -/
theorem final1_5c (c : Dev nD) : (dat1 (F := Ideal) V c).arrAt 5 cfg1.N = Cert.Alg.colSum (fun j => (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) j * (Cert.Alg.statsH (Scalar.ofBits (F := Ideal) .f32 0x3F666666#32) (Scalar.ofBits (F := Ideal) .f32 0x3DCCCCCD#32) (Scalar.ofBits (F := Ideal) .f32 0x3F183370#32) (Scalar.ofBits (F := Ideal) .f32 0x3ECF991F#32) (V c (Pipeline.arrRef spec1 0)) (V c (Pipeline.arrRef spec1 1)) (V c (Pipeline.arrRef spec1 2))) j) :=
  (final1_5 V c).trans (row1_5_eq V c)

end

end Cert.KernelIdeal.Hand

end
-- ==== Proof.LibFinite.lean ====
/-
  Real-valued extended reals, and the operations that keep them real.

  An extended real is REAL when it is neither of the two infinities. Sums, differences,
  products, maxima and finite sums of real numbers are real; so is a quotient by a real
  number other than zero, a real power of a real base, and the reciprocal square root of a
  positive real. An array operation that only moves entries (a gather, a slice, a transpose, a
  reshape, a broadcast, a concatenation) yields entries of its operands, so it keeps an
  all-real array all-real; an accumulating scatter, a sum along an axis and a matrix product
  add and multiply finitely many entries, so they do too. The float words whose exponent field
  is not all ones denote real numbers.
-/
import Idealize.ShloMosaic.PureOps.Ideal
import Idealize.ShloMosaic.PureOps.Ideal.Laws
import Idealize.ShloMosaic.Lib.ValueIdx
import Idealize.ShloMosaic.Lib.IdealHost

open scoped BigOperators

namespace Cert.Math

open Idealize.ShloMosaic

/-- An extended real that is a real number. -/
def IsReal (x : EReal) : Prop := ∃ r : ℝ, x = r

/-- A family of extended reals all of whose entries are real numbers. -/
def AllReal {ι : Sort*} (v : ι → EReal) : Prop := ∀ i, IsReal (v i)

theorem isReal_coe (r : ℝ) : IsReal (r : EReal) := ⟨r, rfl⟩
theorem isReal_zero : IsReal 0 := ⟨0, rfl⟩
theorem isReal_one : IsReal 1 := ⟨1, rfl⟩

/-- Real means: neither infinity. -/
theorem isReal_iff {x : EReal} : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

theorem IsReal.ne_bot {x : EReal} (h : IsReal x) : x ≠ ⊥ := (isReal_iff.mp h).1
theorem IsReal.ne_top {x : EReal} (h : IsReal x) : x ≠ ⊤ := (isReal_iff.mp h).2

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- A finite sum of real numbers is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The quotient of a real number by a real number other than zero is real. -/
theorem IsReal.div_coe {x : EReal} (hx : IsReal x) {c : ℝ} (hc : c ≠ 0) : IsReal (Ideal.div x (c : EReal)) := by
  rw [Ideal.div_coe hc]; exact hx.mul (isReal_coe _)

/-- A real power of a real base is real (Mathlib's `Real.rpow`, total). -/
theorem isReal_pow_coe (x y : ℝ) : IsReal (Ideal.pow (x : EReal) (y : EReal)) := ⟨Real.rpow x y, rfl⟩
theorem IsReal.pow {x y : EReal} (hx : IsReal x) (hy : IsReal y) : IsReal (Ideal.pow x y) := by
  obtain ⟨a, rfl⟩ := hx; obtain ⟨b, rfl⟩ := hy; exact isReal_pow_coe a b

/-- A real power of a positive base is a positive real. -/
theorem pow_coe_pos {x : ℝ} (hx : 0 < x) (y : ℝ) : ∃ r : ℝ, 0 < r ∧ Ideal.pow (x : EReal) (y : EReal) = r :=
  ⟨Real.rpow x y, Real.rpow_pos_of_pos hx y, rfl⟩

/-- The reciprocal square root of a positive real is a positive real. -/
theorem rsqrt_coe_pos {x : ℝ} (hx : 0 < x) : ∃ r : ℝ, 0 < r ∧ Ideal.rsqrt (x : EReal) = r := by
  refine ⟨(Real.sqrt x)⁻¹, inv_pos.mpr (Real.sqrt_pos.mpr hx), ?_⟩
  show (if x < 0 then (⊥ : EReal) else if x = 0 then ⊤ else ((Real.sqrt x)⁻¹ : ℝ)) = _
  rw [if_neg (not_lt.mpr hx.le), if_neg hx.ne']
theorem isReal_rsqrt_of_pos {x : EReal} (hx : IsReal x) (hpos : 0 < x) : IsReal (Ideal.rsqrt x) := by
  obtain ⟨a, rfl⟩ := hx
  obtain ⟨r, _, hr⟩ := rsqrt_coe_pos (EReal.coe_pos.mp hpos)
  exact ⟨r, hr⟩

/-- A real base at least one raised to a real power is a positive real. -/
theorem pow_pos_of_one_le {x y : EReal} (hx : IsReal x) (h1 : 1 ≤ x) (hy : IsReal y) :
    ∃ r : ℝ, 0 < r ∧ Ideal.pow x y = r := by
  obtain ⟨a, rfl⟩ := hx; obtain ⟨b, rfl⟩ := hy
  have ha : (1 : ℝ) ≤ a := by exact_mod_cast h1
  exact pow_coe_pos (lt_of_lt_of_le one_pos ha) b

/-! ## Float words that denote real numbers -/

/-- A float word whose exponent field is not all ones (neither an infinity nor a NaN pattern)
    denotes a real number. -/
theorem isReal_ieee (e m : Nat) {w : Nat} (b : BitVec w) (h : (b.extractLsb' m e).toNat ≠ 2 ^ e - 1) :
    IsReal (Ideal.ieee e m b) := by
  unfold Ideal.ieee
  simp only [if_neg h]
  split_ifs <;> exact ⟨_, rfl⟩

/-- At 32 bits: exponent field not 255. -/
theorem isReal_ofBits_f32 (b : BitVec 32) (h : (b.extractLsb' 23 8).toNat ≠ 255) : IsReal (Ideal.ofBits .f32 b) :=
  isReal_ieee 8 23 b h

/-- The word `0xBF800000` is minus one. -/
theorem ofBits_neg_one_f32 : Ideal.ofBits .f32 0xBF800000#32 = ((-1 : ℝ) : EReal) := by
  simp [Ideal.ofBits, Ideal.ieee, -EReal.coe_mul, -EReal.coe_neg]; norm_num
/-- The word `0xC0000000` is minus two. -/
theorem ofBits_neg_two_f32 : Ideal.ofBits .f32 0xC0000000#32 = ((-2 : ℝ) : EReal) := by
  simp [Ideal.ofBits, Ideal.ieee, -EReal.coe_mul, -EReal.coe_neg]; norm_num
/-- The word `0xBF000000` is minus one half. -/
theorem ofBits_neg_half_f32 : Ideal.ofBits .f32 0xBF000000#32 = ((-(1 / 2) : ℝ) : EReal) := by
  simp [Ideal.ofBits, Ideal.ieee, -EReal.coe_mul, -EReal.coe_neg]; norm_num
/-- The word `0x47435000` is fifty thousand. -/
theorem ofBits_50000_f32 : Ideal.ofBits .f32 0x47435000#32 = ((50000 : ℝ) : EReal) := by
  simp [Ideal.ofBits, Ideal.ieee, -EReal.coe_mul, -EReal.coe_neg]; norm_num
/-- The word `0x3727C5AC` (the float nearest 10⁻⁵) is a positive real: 10995116 · 2⁻⁴⁰. -/
theorem ofBits_eps_f32 : Ideal.ofBits .f32 0x3727C5AC#32 = (((10995116 : ℝ) * (2 : ℝ) ^ (-40 : ℤ) : ℝ) : EReal) := by
  simp [Ideal.ofBits, Ideal.ieee, -EReal.coe_mul, -EReal.coe_neg]
theorem ofBits_eps_f32_pos : ∃ r : ℝ, 0 < r ∧ Ideal.ofBits .f32 0x3727C5AC#32 = r :=
  ⟨_, by positivity, ofBits_eps_f32⟩

theorem isReal_ofBits_zero_f32 : IsReal (Ideal.ofBits .f32 0x00000000#32) := by
  rw [Ideal.ofBits_zero_f32]; exact isReal_zero
theorem isReal_ofBits_one_f32 : IsReal (Ideal.ofBits .f32 0x3F800000#32) := by
  rw [Ideal.ofBits_one_f32]; exact isReal_one
theorem isReal_ofBits_neg_one_f32 : IsReal (Ideal.ofBits .f32 0xBF800000#32) := ⟨_, ofBits_neg_one_f32⟩
theorem isReal_ofBits_neg_two_f32 : IsReal (Ideal.ofBits .f32 0xC0000000#32) := ⟨_, ofBits_neg_two_f32⟩
theorem isReal_ofBits_neg_half_f32 : IsReal (Ideal.ofBits .f32 0xBF000000#32) := ⟨_, ofBits_neg_half_f32⟩
theorem isReal_ofBits_50000_f32 : IsReal (Ideal.ofBits .f32 0x47435000#32) := ⟨_, ofBits_50000_f32⟩
theorem isReal_ofBits_eps_f32 : IsReal (Ideal.ofBits .f32 0x3727C5AC#32) := ⟨_, ofBits_eps_f32⟩

/-! ## Arrays: the operations of the data path keep an all-real array all-real -/

section Arrays
variable {s : Shape} {φ : FTy}

theorem allReal_mulf {a b : FVec Ideal s φ} (ha : AllReal a) (hb : AllReal b) : AllReal (mulf a b) :=
  fun i => (ha i).mul (hb i)
theorem allReal_addf {a b : FVec Ideal s φ} (ha : AllReal a) (hb : AllReal b) : AllReal (addf a b) :=
  fun i => (ha i).add (hb i)
theorem allReal_subf {a b : FVec Ideal s φ} (ha : AllReal a) (hb : AllReal b) : AllReal (subf a b) :=
  fun i => (ha i).sub (hb i)
theorem allReal_maximumf {a b : FVec Ideal s φ} (ha : AllReal a) (hb : AllReal b) : AllReal (maximumf a b) :=
  fun i => (ha i).max (hb i)
/-- A format change is the identity on extended reals. -/
theorem allReal_truncf {ψ : FTy} {a : FVec Ideal s φ} (h : ψ.bits < φ.bits) (ha : AllReal a) :
    AllReal (truncf ψ a h : FVec Ideal s ψ) := fun i => ha i
theorem allReal_extf {ψ : FTy} {a : FVec Ideal s φ} (h : φ.bits < ψ.bits) (ha : AllReal a) :
    AllReal (extf ψ a h : FVec Ideal s ψ) := fun i => ha i
/-- A splat of a word that denotes a real number. -/
theorem allReal_constant (b : BitVec φ.bits) (h : IsReal (Ideal.ofBits φ b)) :
    AllReal (constant (F := Ideal) s φ b) := fun _ => h
theorem allReal_broadcast {x : EReal} (h : IsReal x) : AllReal (broadcast s x) := fun _ => h
/-- A signed integer read as a float is that integer, a real number. -/
theorem allReal_sitofp {w : Nat} (x : IVec s w) : AllReal (sitofp φ x : FVec Ideal s φ) :=
  fun i => ⟨((x i).toInt : ℝ), rfl⟩
/-- A select takes each entry from one of its two operands. -/
theorem allReal_select (c : IVec s 1) {a b : s.Idx → EReal} (ha : AllReal a) (hb : AllReal b) :
    AllReal (select c a b) := fun i => by
  show IsReal (if c i = 1 then a i else b i)
  split_ifs
  · exact ha i
  · exact hb i

/-- The host's quotient by an array of real numbers other than zero. -/
theorem allReal_hostDivf {a b : FVec Ideal s φ} (ha : AllReal a) (hb : ∀ i, ∃ c : ℝ, c ≠ 0 ∧ b i = c) :
    AllReal (Host.divf a b) := fun i => by
  obtain ⟨c, hc, hbc⟩ := hb i
  show IsReal (Ideal.div (a i) (b i))
  rw [hbc]; exact (ha i).div_coe hc
/-- The host's power of real bases to real exponents. -/
theorem allReal_hostPowf {a b : FVec Ideal s φ} (ha : AllReal a) (hb : AllReal b) : AllReal (Host.powf a b) :=
  fun i => (ha i).pow (hb i)
/-- The host's reciprocal square root of positive reals. -/
theorem allReal_hostRsqrt {a : FVec Ideal s φ} (ha : AllReal a) (hpos : ∀ i, 0 < a i) : AllReal (Host.rsqrt a) :=
  fun i => isReal_rsqrt_of_pos (ha i) (hpos i)

end Arrays

section Layout
variable {s t : Shape}

theorem allReal_broadcastInDim (dims : Fin s.rank → Fin t.rank) (h : s.BroadcastsInDim t dims) {x : s.Idx → EReal}
    (hx : AllReal x) : AllReal (broadcastInDim t dims h x) := fun _ => hx _
theorem allReal_shapeCast {x : s.Idx → EReal} (h : s.ShapeCasts t) (hx : AllReal x) : AllReal (shapeCast t x h) :=
  fun _ => hx _
theorem allReal_extractStridedSlice (off : Fin s.rank → Nat) {x : s.Idx → EReal} (h : s.Slices off t) (hx : AllReal x) :
    AllReal (extractStridedSlice t off x h) := fun _ => hx _
theorem allReal_transpose (perm : List (Fin s.rank)) {x : s.Idx → EReal} (h : s.Transposes perm t) (hx : AllReal x) :
    AllReal (transpose t perm x h) := fun _ => hx _
/-- A gather reads entries of its operand, whatever the start indices. -/
theorem allReal_gather {si : Shape} {w : Nat} (d : GatherDims s si t) {x : s.Idx → EReal} (idx : IVec si w)
    (hx : AllReal x) : AllReal (Host.gather d x idx) := fun _ => hx _
/-- A concatenation reads entries of its pieces. -/
theorem allReal_concatenate (a : Fin t.rank) (xs : List ((s : Shape) × (s.Idx → EReal)))
    (h : Shape.Concatenates (xs.map (·.1)) t a) (hx : ∀ p ∈ xs, AllReal p.2) : AllReal (concatenate t a xs h) := by
  intro j
  unfold concatenate
  exact hx _ (List.getElem_mem _) _

end Layout

section Sums
variable {φ : FTy}

/-- An accumulating scatter adds to each operand entry finitely many update entries. -/
theorem allReal_scatterAdd {s si u : Shape} {w : Nat} (d : ScatterDims s si u) {x : FVec Ideal s φ} (idx : IVec si w)
    {upd : FVec Ideal u φ} (hx : AllReal x) (hu : AllReal upd) : AllReal (Host.scatterAdd d x idx upd) :=
  fun i => (hx i).add (isReal_sum _ _ fun j _ => hu j)
/-- The host's sum along axes adds to the initial value finitely many entries. -/
theorem allReal_hostReduceAdd {s t u : Shape} {axes : List (Fin s.rank)} {x : FVec Ideal s φ} {init : u.Idx → Ideal φ}
    (h : s.ReducesTo axes t) (hu : 0 < u.numel) (hx : AllReal x) (hi : AllReal init) :
    AllReal (Host.reduceAdd x init h hu) :=
  fun _ => (hi _).add (isReal_sum _ _ fun i _ => hx i)
/-- A matrix product onto an accumulator: finitely many products added to an entry. -/
theorem allReal_matmul {sl sr so : Shape} {φ₁ φ₂ : FTy} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (matmul d prec lhs rhs acc) :=
  fun j => (ha j).add (isReal_sum _ _ fun _ _ => (hl _).mul (hr _))
/-- The host's matrix product: the same onto zero. -/
theorem allReal_dotGeneral {sl sr so : Shape} {φ₁ φ₂ : FTy} (d : DotDims sl sr so) (prec : Option ContractPrecision)
    {lhs : FVec Ideal sl φ₁} {rhs : FVec Ideal sr φ₂} (hl : AllReal lhs) (hr : AllReal rhs) :
    AllReal (Host.dotGeneral d prec lhs rhs) :=
  fun _ => isReal_zero.add (isReal_sum _ _ fun _ _ => (hl _).mul (hr _))

end Sums

end Cert.Math
-- ==== Proof.LibReal.lean ====
/-
  The float words of this network denote real numbers.

  A 32-bit float word whose exponent field (bits 23 to 30) is not all ones denotes a real number:
  neither infinity and no junk value. Each literal word below has such an exponent field, which is
  checked by evaluating the field. The word `0x47C35000` is the real number 100000
  (= 12800000 · 2⁻⁷, sign 0, exponent field 143, significand field 0x435000), the count of the
  rows a column mean divides by; it is not zero, so a quotient of a real number by it is real.
-/
import proofs.«162064_j1357209666150_1_alg».proof.Proof.LibFinite

namespace Cert.LibReal

open Idealize.ShloMosaic Cert.Math

/-- The word `0x47C35000` is one hundred thousand. -/
theorem ofBits_100000_f32 : Ideal.ofBits .f32 0x47C35000#32 = ((100000 : ℝ) : EReal) := by
  simp [Ideal.ofBits, Ideal.ieee, -EReal.coe_mul, -EReal.coe_neg]; norm_num

theorem isReal_ofBits_100000_f32 : IsReal (Ideal.ofBits .f32 0x47C35000#32) := ⟨_, ofBits_100000_f32⟩

/-- A quotient of a real number by the word for one hundred thousand is a real number. -/
theorem IsReal.div_100000 {x : EReal} (hx : IsReal x) : IsReal (Ideal.div x (Ideal.ofBits .f32 0x47C35000#32)) := by
  rw [ofBits_100000_f32]; exact hx.div_coe (by norm_num)

theorem isReal_ofBits_3F666666 : IsReal (Ideal.ofBits .f32 0x3F666666#32) := isReal_ofBits_f32 _ (by decide)
theorem isReal_ofBits_3DCCCCCD : IsReal (Ideal.ofBits .f32 0x3DCCCCCD#32) := isReal_ofBits_f32 _ (by decide)
theorem isReal_ofBits_3DF1383B : IsReal (Ideal.ofBits .f32 0x3DF1383B#32) := isReal_ofBits_f32 _ (by decide)
theorem isReal_ofBits_3E1DD9AD : IsReal (Ideal.ofBits .f32 0x3E1DD9AD#32) := isReal_ofBits_f32 _ (by decide)
theorem isReal_ofBits_3E647FBE : IsReal (Ideal.ofBits .f32 0x3E647FBE#32) := isReal_ofBits_f32 _ (by decide)
theorem isReal_ofBits_3ECF991F : IsReal (Ideal.ofBits .f32 0x3ECF991F#32) := isReal_ofBits_f32 _ (by decide)
theorem isReal_ofBits_3F183370 : IsReal (Ideal.ofBits .f32 0x3F183370#32) := isReal_ofBits_f32 _ (by decide)
theorem isReal_ofBits_3F46E010 : IsReal (Ideal.ofBits .f32 0x3F46E010#32) := isReal_ofBits_f32 _ (by decide)
theorem isReal_ofBits_3F588995 : IsReal (Ideal.ofBits .f32 0x3F588995#32) := isReal_ofBits_f32 _ (by decide)
theorem isReal_ofBits_3F61D8F9 : IsReal (Ideal.ofBits .f32 0x3F61D8F9#32) := isReal_ofBits_f32 _ (by decide)

end Cert.LibReal
-- ==== Proof.LibVariance.lean ====
/-
  The two spellings of a variance agree on real data, and the variance is a real number that is
  not negative.

  For real numbers g i, i ranging over a finite type with n elements, with S = ∑ g i, Q = ∑ (g i)²
  and μ = S / n:
      ∑ (g i − μ)² = Q − 2 μ S + n μ²,
  hence  (∑ (g i − μ)²) / n = Q / n − 2 μ² + μ² = Q / n − μ · μ.
  On the extended reals a quotient by a real number other than zero is the product with its
  reciprocal, and sums, differences and products of real numbers are the real ones, so the identity
  carries over word for word once every entry is a real number. A mean of squares of real numbers
  is a real number that is not negative; adding a positive real gives a positive real, whose
  reciprocal square root is a real number.
-/
import Idealize.ShloMosaic.PureOps.Ideal
import Idealize.ShloMosaic.PureOps.Ideal.Laws

open scoped BigOperators

namespace Cert.LibVariance

open Idealize.ShloMosaic

/-- A finite sum of real numbers, read in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The identity on the real numbers: mean of squares minus squared mean is the mean of the
    squared deviations from the mean. -/
theorem real_var_eq {ι : Type*} [Fintype ι] (g : ι → ℝ) (n : ℝ) (hn : n ≠ 0)
    (hcard : (Fintype.card ι : ℝ) = n) :
    (∑ i, g i * g i) * (1 / n) - ((∑ i, g i) * (1 / n)) * ((∑ i, g i) * (1 / n))
      = (∑ i, (g i - (∑ j, g j) * (1 / n)) * (g i - (∑ j, g j) * (1 / n))) * (1 / n) := by
  generalize hμ : (∑ j, g j) * (1 / n) = μ
  have hexp : ∑ i, (g i - μ) * (g i - μ) = (∑ i, g i * g i) - 2 * μ * (∑ i, g i) + n * (μ * μ) := by
    have hterm : ∀ i, (g i - μ) * (g i - μ) = g i * g i - 2 * μ * g i + μ * μ := fun i => by ring
    simp only [hterm]
    rw [Finset.sum_add_distrib, Finset.sum_sub_distrib, ← Finset.mul_sum, Finset.sum_const, Finset.card_univ,
      nsmul_eq_mul, hcard]
  have hS : ∑ j, g j = μ * n := by rw [← hμ]; field_simp
  rw [hexp, hS]
  field_simp
  ring

/-- The mean of real entries is the real mean. -/
theorem mean_coe {ι : Type*} [Fintype ι] (g : ι → ℝ) (n : ℝ) (hn : n ≠ 0) :
    Ideal.div (∑ i, ((g i : ℝ) : EReal)) (n : EReal) = (((∑ i, g i) * (1 / n) : ℝ) : EReal) := by
  rw [Ideal.div_coe hn, coe_sum, ← EReal.coe_mul]

/-- The mean of the squares of real entries is the real one. -/
theorem mean_sq_coe {ι : Type*} [Fintype ι] (g : ι → ℝ) (n : ℝ) (hn : n ≠ 0) :
    Ideal.div (∑ i, ((g i : ℝ) : EReal) * ((g i : ℝ) : EReal)) (n : EReal)
      = (((∑ i, g i * g i) * (1 / n) : ℝ) : EReal) := by
  have h1 : ∀ i, ((g i : ℝ) : EReal) * ((g i : ℝ) : EReal) = ((g i * g i : ℝ) : EReal) :=
    fun i => (EReal.coe_mul _ _).symm
  simp only [h1]
  rw [Ideal.div_coe hn, coe_sum, ← EReal.coe_mul]

/-- The mean of the squared deviations of real entries from a real centre is the real one. -/
theorem mean_dev_coe {ι : Type*} [Fintype ι] (g : ι → ℝ) (c : ℝ) (n : ℝ) (hn : n ≠ 0) :
    Ideal.div (∑ i, (((g i : ℝ) : EReal) - (c : EReal)) * (((g i : ℝ) : EReal) - (c : EReal))) (n : EReal)
      = (((∑ i, (g i - c) * (g i - c)) * (1 / n) : ℝ) : EReal) := by
  have h1 : ∀ i, (((g i : ℝ) : EReal) - (c : EReal)) * (((g i : ℝ) : EReal) - (c : EReal))
      = (((g i - c) * (g i - c) : ℝ) : EReal) := fun i => by
    rw [← EReal.coe_sub, ← EReal.coe_mul]
  simp only [h1]
  rw [Ideal.div_coe hn, coe_sum, ← EReal.coe_mul]

/-- THE VARIANCE, two spellings: mean of squares minus squared mean, and mean of squared deviations
    from the mean, over a finite index type with n entries, every entry a real number. -/
theorem var_eq {ι : Type*} [Fintype ι] (h : ι → EReal) (hr : ∀ i, ∃ r : ℝ, h i = (r : EReal)) (n : ℝ) (hn : n ≠ 0)
    (hcard : (Fintype.card ι : ℝ) = n) :
    Ideal.div (∑ i, h i * h i) (n : EReal) - Ideal.div (∑ i, h i) (n : EReal) * Ideal.div (∑ i, h i) (n : EReal)
      = Ideal.div (∑ i, (h i - Ideal.div (∑ j, h j) (n : EReal)) * (h i - Ideal.div (∑ j, h j) (n : EReal)))
          (n : EReal) := by
  choose g hg using hr
  obtain rfl : h = fun i => ((g i : ℝ) : EReal) := funext hg
  rw [mean_coe g n hn, mean_sq_coe g n hn, mean_dev_coe g _ n hn, ← EReal.coe_mul, ← EReal.coe_sub]
  exact congrArg _ (real_var_eq g n hn hcard)

/-- The same with the zero word in front of each sum (a host float sum reads "initial value + ∑"). -/
theorem var_eq_zero_word {ι : Type*} [Fintype ι] (h : ι → EReal) (hr : ∀ i, ∃ r : ℝ, h i = (r : EReal)) (n : ℝ)
    (hn : n ≠ 0) (hcard : (Fintype.card ι : ℝ) = n) :
    Ideal.div (Ideal.ofBits .f32 0x00000000#32 + ∑ i, h i * h i) (n : EReal)
        - Ideal.div (Ideal.ofBits .f32 0x00000000#32 + ∑ i, h i) (n : EReal)
          * Ideal.div (Ideal.ofBits .f32 0x00000000#32 + ∑ i, h i) (n : EReal)
      = Ideal.div (Ideal.ofBits .f32 0x00000000#32
            + ∑ i, (h i - Ideal.div (Ideal.ofBits .f32 0x00000000#32 + ∑ j, h j) (n : EReal))
                * (h i - Ideal.div (Ideal.ofBits .f32 0x00000000#32 + ∑ j, h j) (n : EReal)))
          (n : EReal) := by
  rw [Ideal.ofBits_zero_f32]
  simp only [zero_add]
  exact var_eq h hr n hn hcard

/-- The same with a plain zero in front of each sum. -/
theorem var_eq_zero_add {ι : Type*} [Fintype ι] (h : ι → EReal) (hr : ∀ i, ∃ r : ℝ, h i = (r : EReal)) (n : ℝ)
    (hn : n ≠ 0) (hcard : (Fintype.card ι : ℝ) = n) :
    Ideal.div (0 + ∑ i, h i * h i) (n : EReal)
        - Ideal.div (0 + ∑ i, h i) (n : EReal) * Ideal.div (0 + ∑ i, h i) (n : EReal)
      = Ideal.div (0 + ∑ i, (h i - Ideal.div (0 + ∑ j, h j) (n : EReal))
                * (h i - Ideal.div (0 + ∑ j, h j) (n : EReal)))
          (n : EReal) := by
  simp only [zero_add]
  exact var_eq h hr n hn hcard

/-! ## The variance is a real number that is not negative -/

/-- The mean of real entries is a real number. -/
theorem mean_real {ι : Type*} [Fintype ι] (h : ι → EReal) (hr : ∀ i, ∃ r : ℝ, h i = (r : EReal)) (n : ℝ)
    (hn : n ≠ 0) : ∃ m : ℝ, Ideal.div (∑ i, h i) (n : EReal) = (m : EReal) := by
  choose g hg using hr
  obtain rfl : h = fun i => ((g i : ℝ) : EReal) := funext hg
  exact ⟨_, mean_coe g n hn⟩

/-- The mean of the squared deviations of real entries from a real centre, over a positive count,
    is a real number that is not negative. -/
theorem mean_dev_real {ι : Type*} [Fintype ι] (h : ι → EReal) (hr : ∀ i, ∃ r : ℝ, h i = (r : EReal)) (c : ℝ)
    (n : ℝ) (hn : 0 < n) :
    ∃ v : ℝ, 0 ≤ v ∧ Ideal.div (∑ i, (h i - (c : EReal)) * (h i - (c : EReal))) (n : EReal) = (v : EReal) := by
  choose g hg using hr
  obtain rfl : h = fun i => ((g i : ℝ) : EReal) := funext hg
  refine ⟨_, ?_, mean_dev_coe g c n hn.ne'⟩
  exact mul_nonneg (Finset.sum_nonneg fun i _ => mul_self_nonneg _) (by positivity)

/-- The variance in the deviation spelling is a real number that is not negative. -/
theorem var_real {ι : Type*} [Fintype ι] (h : ι → EReal) (hr : ∀ i, ∃ r : ℝ, h i = (r : EReal)) (n : ℝ)
    (hn : 0 < n) :
    ∃ v : ℝ, 0 ≤ v ∧
      Ideal.div (∑ i, (h i - Ideal.div (∑ j, h j) (n : EReal)) * (h i - Ideal.div (∑ j, h j) (n : EReal)))
        (n : EReal) = (v : EReal) := by
  obtain ⟨m, hm⟩ := mean_real h hr n hn.ne'
  rw [hm]
  exact mean_dev_real h hr m n hn

/-- The variance in the spelling "mean of squares minus squared mean" is the same real number. -/
theorem var_real' {ι : Type*} [Fintype ι] (h : ι → EReal) (hr : ∀ i, ∃ r : ℝ, h i = (r : EReal)) (n : ℝ)
    (hn : 0 < n) (hcard : (Fintype.card ι : ℝ) = n) :
    ∃ v : ℝ, 0 ≤ v ∧
      Ideal.div (∑ i, h i * h i) (n : EReal)
        - Ideal.div (∑ i, h i) (n : EReal) * Ideal.div (∑ i, h i) (n : EReal) = (v : EReal) := by
  rw [var_eq h hr n hn.ne' hcard]
  exact var_real h hr n hn

/-! ## The small positive constant, and the reciprocal square root -/

/-- The word `0x3727C5AC` (the float nearest 10⁻⁵) is the real number 10995116 · 2⁻⁴⁰. -/
theorem ofBits_eps_f32 :
    Ideal.ofBits .f32 0x3727C5AC#32 = (((10995116 : ℝ) * (2 : ℝ) ^ (-40 : ℤ) : ℝ) : EReal) := by
  simp [Ideal.ofBits, Ideal.ieee, -EReal.coe_mul, -EReal.coe_neg]

/-- That word is a positive real. -/
theorem ofBits_eps_f32_pos : ∃ e : ℝ, 0 < e ∧ Ideal.ofBits .f32 0x3727C5AC#32 = (e : EReal) :=
  ⟨_, by positivity, ofBits_eps_f32⟩

/-- The reciprocal square root of a positive real is a positive real. -/
theorem rsqrt_coe_pos {x : ℝ} (hx : 0 < x) : ∃ r : ℝ, 0 < r ∧ Ideal.rsqrt (x : EReal) = (r : EReal) := by
  refine ⟨(Real.sqrt x)⁻¹, inv_pos.mpr (Real.sqrt_pos.mpr hx), ?_⟩
  show (if x < 0 then (⊥ : EReal) else if x = 0 then ⊤ else ((Real.sqrt x)⁻¹ : ℝ)) = _
  rw [if_neg (not_lt.mpr hx.le), if_neg hx.ne']

/-- A real number that is not negative plus a positive real is a positive real. -/
theorem add_pos_real {v e : EReal} (hv : ∃ a : ℝ, 0 ≤ a ∧ v = (a : EReal)) (he : ∃ r : ℝ, 0 < r ∧ e = (r : EReal)) :
    ∃ p : ℝ, 0 < p ∧ v + e = (p : EReal) := by
  obtain ⟨a, ha, rfl⟩ := hv
  obtain ⟨r, hr, rfl⟩ := he
  exact ⟨a + r, by positivity, (EReal.coe_add a r).symm⟩

/-- The variance plus the small constant is a positive real, and its reciprocal square root is a
    positive real: the deviation spelling. -/
theorem rsqrt_var_eps_real {ι : Type*} [Fintype ι] (h : ι → EReal) (hr : ∀ i, ∃ r : ℝ, h i = (r : EReal)) (n : ℝ)
    (hn : 0 < n) :
    ∃ s : ℝ, 0 < s ∧
      Ideal.rsqrt
        (Ideal.div (∑ i, (h i - Ideal.div (∑ j, h j) (n : EReal)) * (h i - Ideal.div (∑ j, h j) (n : EReal)))
            (n : EReal) + Ideal.ofBits .f32 0x3727C5AC#32) = (s : EReal) := by
  obtain ⟨v, hv0, hv⟩ := var_real h hr n hn
  obtain ⟨p, hp, hpe⟩ := add_pos_real ⟨v, hv0, hv⟩ ofBits_eps_f32_pos
  rw [hpe]
  exact rsqrt_coe_pos hp

/-- The same for the spelling "mean of squares minus squared mean". -/
theorem rsqrt_var_eps_real' {ι : Type*} [Fintype ι] (h : ι → EReal) (hr : ∀ i, ∃ r : ℝ, h i = (r : EReal)) (n : ℝ)
    (hn : 0 < n) (hcard : (Fintype.card ι : ℝ) = n) :
    ∃ s : ℝ, 0 < s ∧
      Ideal.rsqrt
        (Ideal.div (∑ i, h i * h i) (n : EReal)
          - Ideal.div (∑ i, h i) (n : EReal) * Ideal.div (∑ i, h i) (n : EReal)
          + Ideal.ofBits .f32 0x3727C5AC#32) = (s : EReal) := by
  rw [var_eq h hr n hn.ne' hcard]
  exact rsqrt_var_eps_real h hr n hn

end Cert.LibVariance
-- ==== Proof.Alg.Layer.lean ====
/-
  One layer of the network on the extended reals: the row of column means, the row of column
  variances in the two spellings, and "every entry is a real number" through every operation.

  The count 100000 is the word `0x47C35000`. The row of means divides each column sum by it. The
  variance row is, in one spelling, the mean of the squares minus the squared mean, and in the other
  the mean of the squared deviations from the mean, its sums started from the zero word; the zero
  word is 0, so the means agree outright, and the two variance rows agree when every entry is a real
  number (the identity  ∑ (h − μ)² = ∑ h² − 2 μ ∑ h + n μ²  over a column of n = 100000 real entries).
  Sums, products, differences and maxima of real numbers are real; a quotient by 100000 is real; a
  variance of real numbers is a real number that is not negative, so adding the small positive
  constant gives a positive real, whose reciprocal square root is real. Hence a dense projection,
  the rectifier, the mixing of two arrays by real constants, a column sum, the mean and variance
  rows and the batch normalisation all keep an all-real array all-real.
-/
import proofs.«162064_j1357209666150_1_alg».proof.Proof.Alg.Spec
import proofs.«162064_j1357209666150_1_alg».proof.Proof.LibFinite
import proofs.«162064_j1357209666150_1_alg».proof.Proof.LibReal
import proofs.«162064_j1357209666150_1_alg».proof.Proof.LibVariance

open scoped BigOperators

noncomputable section

namespace Cert.Alg

open Idealize.ShloMosaic Idealize.ShloMosaic.ValueIdx Cert.Math

/-- The count of rows, as the programs spell it: the word for 100000. -/
abbrev n100k : E := Ideal.ofBits .f32 0x47C35000#32

/-- The small positive constant of the normalisation, as the programs spell it. -/
abbrev epsW : E := Ideal.ofBits .f32 0x3727C5AC#32

/-- The row of column means. -/
def meanRow (h : SN64.Idx → E) : S1x64'.Idx → E := fun i => Ideal.div (colSum h i) n100k

/-- The row of column variances, first spelling: the mean of the squares minus the squared mean. -/
def varRowK (h : SN64.Idx → E) : S1x64'.Idx → E :=
  fun i => Ideal.div (colSum (fun j => h j * h j) i) n100k - meanRow h i * meanRow h i

/-- The row of column means, its sum started from the zero word. -/
def meanRowR (h : SN64.Idx → E) : S1x64'.Idx → E :=
  fun i => Ideal.div (z0 + ∑ r : Fin 100000, h (ix2 r (i 1))) n100k

/-- The row of column variances, second spelling: the mean of the squared deviations from the mean,
    its sums started from the zero word. -/
def varRowR (h : SN64.Idx → E) : S1x64'.Idx → E :=
  fun i => Ideal.div (z0 + ∑ r : Fin 100000,
      (h (ix2 r (i 1)) - meanRowR h i) * (h (ix2 r (i 1)) - meanRowR h i)) n100k

/-- The count word is the real number 100000. -/
theorem n100k_eq : n100k = ((100000 : ℝ) : EReal) := Cert.LibReal.ofBits_100000_f32

/-- The zero word is 0. -/
theorem z0_eq : z0 = (0 : EReal) := Ideal.ofBits_zero_f32

/-- A column of 100000 entries has 100000 entries. -/
theorem card_col : (Fintype.card (Fin 100000) : ℝ) = 100000 := by
  rw [Fintype.card_fin]; norm_num

/-- The two rows of means agree: the zero word is 0. -/
theorem meanRow_eq (h : SN64.Idx → E) : meanRow h = meanRowR h := by
  funext i
  show Ideal.div (∑ r : Fin 100000, h (ix2 r (i 1))) n100k = Ideal.div (z0 + ∑ r : Fin 100000, h (ix2 r (i 1))) n100k
  rw [z0_eq, zero_add]

/-- The two rows of variances agree when every entry is a real number. -/
theorem varRow_eq (h : SN64.Idx → E) (hh : AllReal h) : varRowK h = varRowR h := by
  funext i
  have hcol : ∀ r : Fin 100000, ∃ a : ℝ, (fun r : Fin 100000 => h (ix2 r (i 1))) r = (a : EReal) := fun r => hh _
  have key := Cert.LibVariance.var_eq (fun r : Fin 100000 => h (ix2 r (i 1))) hcol 100000 (by norm_num) card_col
  show Ideal.div (∑ r : Fin 100000, h (ix2 r (i 1)) * h (ix2 r (i 1))) n100k
        - Ideal.div (∑ r : Fin 100000, h (ix2 r (i 1))) n100k * Ideal.div (∑ r : Fin 100000, h (ix2 r (i 1))) n100k
      = Ideal.div (z0 + ∑ r : Fin 100000,
          (h (ix2 r (i 1)) - Ideal.div (z0 + ∑ r : Fin 100000, h (ix2 r (i 1))) n100k)
            * (h (ix2 r (i 1)) - Ideal.div (z0 + ∑ r : Fin 100000, h (ix2 r (i 1))) n100k)) n100k
  rw [z0_eq, n100k_eq]
  simp only [zero_add]
  exact key

/-! ## Every entry is a real number, operation by operation -/

/-- A dense projection of all-real arrays is all-real. -/
theorem allReal_denseG {K : Nat} {x : (⟨2, ![100000, K]⟩ : Shape).Idx → E} {w : (⟨2, ![K, 64]⟩ : Shape).Idx → E}
    {b : S1x64'.Idx → E} (hx : AllReal x) (hw : AllReal w) (hb : AllReal b) : AllReal (denseG x w b) :=
  fun _ => (isReal_sum _ _ fun _ _ => (hx _).mul (hw _)).add (hb _)

/-- So is the projection under the rectifier. -/
theorem allReal_G0 {x : SN128.Idx → E} {w : S128x64'.Idx → E} {b : S1x64'.Idx → E} (hx : AllReal x) (hw : AllReal w)
    (hb : AllReal b) : AllReal (G0 x w b) :=
  fun i => (allReal_denseG hx hw hb i).max isReal_ofBits_zero_f32

/-- Mixing two all-real arrays by real constants. -/
theorem allReal_mixS {c1 c2 : E} {agg x0 : SN64.Idx → E} (h1 : IsReal c1) (h2 : IsReal c2) (ha : AllReal agg)
    (h0 : AllReal x0) : AllReal (mixS c1 c2 agg x0) :=
  fun i => (h1.mul (ha i)).add (h2.mul (h0 i))

/-- One layer's features before the normalisation. -/
theorem allReal_statsH {c1 c2 c3 c4 : E} {agg x0 : SN64.Idx → E} {w : S64x64'.Idx → E} (h1 : IsReal c1)
    (h2 : IsReal c2) (h3 : IsReal c3) (h4 : IsReal c4) (ha : AllReal agg) (h0 : AllReal x0) (hw : AllReal w) :
    AllReal (statsH c1 c2 c3 c4 agg x0 w) :=
  fun i => (h3.mul (allReal_mixS h1 h2 ha h0 i)).add
    (h4.mul (isReal_sum _ _ fun _ _ => (allReal_mixS h1 h2 ha h0 _).mul (hw _)))

/-- A column sum of an all-real array. -/
theorem allReal_colSum {h : SN64.Idx → E} (hh : AllReal h) : AllReal (colSum h) :=
  fun _ => isReal_sum _ _ fun _ _ => hh _

/-- The row of means of an all-real array. -/
theorem allReal_meanRow {h : SN64.Idx → E} (hh : AllReal h) : AllReal (meanRow h) :=
  fun i => Cert.LibReal.IsReal.div_100000 (allReal_colSum hh i)

/-- The row of variances (first spelling) of an all-real array. -/
theorem allReal_varRowK {h : SN64.Idx → E} (hh : AllReal h) : AllReal (varRowK h) :=
  fun i => (Cert.LibReal.IsReal.div_100000 (allReal_colSum (h := fun j => h j * h j) (fun j => (hh j).mul (hh j)) i)).sub
    ((allReal_meanRow hh i).mul (allReal_meanRow hh i))

/-- The variance row (first spelling) of an all-real array is not negative, entry by entry a real. -/
theorem varRowK_nonneg {h : SN64.Idx → E} (hh : AllReal h) (i : S1x64'.Idx) :
    ∃ v : ℝ, 0 ≤ v ∧ varRowK h i = (v : EReal) := by
  have hcol : ∀ r : Fin 100000, ∃ a : ℝ, (fun r : Fin 100000 => h (ix2 r (i 1))) r = (a : EReal) := fun r => hh _
  have key := Cert.LibVariance.var_real' (fun r : Fin 100000 => h (ix2 r (i 1))) hcol 100000 (by norm_num) card_col
  show ∃ v : ℝ, 0 ≤ v ∧ Ideal.div (∑ r : Fin 100000, h (ix2 r (i 1)) * h (ix2 r (i 1))) n100k
        - Ideal.div (∑ r : Fin 100000, h (ix2 r (i 1))) n100k * Ideal.div (∑ r : Fin 100000, h (ix2 r (i 1))) n100k
      = (v : EReal)
  rw [n100k_eq]
  exact key

/-- The reciprocal square root of (variance + the small constant) is a positive real. -/
theorem rsqrt_varRowK_eps {h : SN64.Idx → E} (hh : AllReal h) (i : S1x64'.Idx) :
    ∃ s : ℝ, 0 < s ∧ Ideal.rsqrt (varRowK h i + epsW) = (s : EReal) := by
  obtain ⟨p, hp, hpe⟩ := Cert.LibVariance.add_pos_real (varRowK_nonneg hh i) Cert.LibVariance.ofBits_eps_f32_pos
  rw [hpe]
  exact Cert.LibVariance.rsqrt_coe_pos hp

/-- The batch normalisation with the row of means and the row of variances of its own input keeps
    an all-real array all-real. -/
theorem allReal_normG (h xin : SN64.Idx → E) (gamma beta : S1x64'.Idx → E) (hh : AllReal h) (hx : AllReal xin)
    (hg : AllReal gamma) (hb : AllReal beta) :
    AllReal (normG (Ideal.ofBits .f32 0x3727C5AC#32) h xin (meanRow h) (varRowK h) gamma beta) := fun i => by
  obtain ⟨s, _, hs⟩ := rsqrt_varRowK_eps hh (ix2 (0 : Fin 1) (i 1))
  exact ((((((hh i).sub (allReal_meanRow hh _)).mul ⟨s, hs⟩).mul (hg _)).add (hb _)).add (hx i)).max
    isReal_ofBits_zero_f32

/-- With the second spelling of the two rows the normalisation is the same array. -/
theorem normG_ref (eps : E) (h xin : SN64.Idx → E) (gamma beta : S1x64'.Idx → E) (hh : AllReal h) :
    normG eps h xin (meanRow h) (varRowK h) gamma beta = normG eps h xin (meanRowR h) (varRowR h) gamma beta := by
  rw [meanRow_eq h, varRow_eq h hh]

end Cert.Alg

end
-- ==== Proof.KI.Host2.lean ====
/-
  The host stretch after the first statistics region, read back over the extended reals from any buffer
  contents `W` it starts from. The stretch divides the row of column sums and the row of column sums of squares by the
  count 100000 (the word `0x47C35000`, broadcast over the row), squares the first quotient and subtracts it from the
  second: it leaves the row of means  S1 / n  and the row of variances  S2 / n − (S1 / n) · (S1 / n). Every buffer
  the stretch does not write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

/-- The row of means the stretch leaves: each column sum divided by the count. -/
theorem host2_mean (W : Valuation τ sig (Elt Ideal)) :
    StableHlo.after hostOps2 W (Proc.devRef .tc main_v55) = fun i => Ideal.div (W main_v53_1 i) Cert.Alg.n100k := by
  after_results
  rfl

/-- The row of variances the stretch leaves: the mean of the squares minus the squared mean. -/
theorem host2_var (W : Valuation τ sig (Elt Ideal)) :
    StableHlo.after hostOps2 W (Proc.devRef .tc main_v59)
      = fun i => Ideal.div (W main_v53_2 i) Cert.Alg.n100k
          - Ideal.div (W main_v53_1 i) Cert.Alg.n100k * Ideal.div (W main_v53_1 i) Cert.Alg.n100k := by
  after_results
  rfl

/-- A buffer the stretch does not write keeps its contents. -/
theorem host2_keeps (W : Valuation τ sig (Elt Ideal)) (r : Ref sig .tc) (h : r ∉ (hostOps2_W : List (Ref sig .tc))) :
    StableHlo.after hostOps2 W (Proc.devRef .tc r) = W (Proc.devRef .tc r) :=
  StableHlo.after_of_writes_sub hostOps2 W hostOps2_writes h

end Cert.KernelIdeal.Hand

end
-- ==== Proof.KI.Val2.lean ====
/-
  The value of region 2's output array (batch normalisation with a given mean row and variance row, the residual added, under
  the rectifier), on the extended reals: after the region's ten grid points the array holds, at row `r` and column `k`, the
  larger of zero and `((h (r, k) - mean k) * rsqrt (var k + eps)) * gamma k + beta k + x (r, k)`, with `h` the features to
  normalise, `x` the residual and `eps` the constant the body adds to the variance. Point `t` writes rows
  `10000·t … 10000·t + 9999`; the ten row blocks tile the array.
-/
import proofs.«162064_j1357209666150_1_alg».proof.Proof.KI.R2
import proofs.«162064_j1357209666150_1_alg».proof.Proof.Alg.Spec
import Idealize.ShloMosaic.Lib.ValueLayout
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

theorem hz2 : (![0, 0] : Fin 2 → Nat) = fun _ => 0 := funext fun a => by fin_cases a <;> rfl

/-- The constant the body adds to the variance row. -/
abbrev eps2 : Cert.Alg.E := Ideal.ofBits .f32 0x3727C5AC#32

/-- The payload at an index: row `p`, column `k` is the larger of the zero word and the normalised entry
    `((x0 (p, k) - m k) * rsqrt (v k + eps)) * g k + b k` plus the residual's entry `(p, k)` (the shape casts are the identity,
    each row is read at its column whatever the row of the block). -/
theorem pay2_apply (x0 : Vec Ideal S10000x64 .f32) (m v g b : Vec Ideal S1x64 .f32) (xin : Vec Ideal S10000x64 .f32) (p : Fin 10000) (k : Fin 64) :
    k2_pay1 (F := Ideal) x0 m v g b xin (ix2 p k)
      = max ((((x0 (ix2 p k) - m (ix2 0 k)) * Ideal.rsqrt (v (ix2 0 k) + eps2)) * g (ix2 0 k) + b (ix2 0 k)) + xin (ix2 p k)) Cert.Alg.z0 := by
  unfold k2_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (mulf_apply _ _ _).trans ?_
      refine congrArg₂ (· * ·) ?_ ?_
      · refine (mulf_apply _ _ _).trans ?_
        refine congrArg₂ (· * ·) ?_ ?_
        · refine (subf_apply _ _ _).trans ?_
          refine congrArg₂ (· - ·) ?_ ?_
          · rw [shapeCast_self]
          · rw [shapeCast_self]
            exact broadcastTo_1b_ab_apply _ _ p k
        · refine (broadcastTo_1b_ab_apply _ _ p k).trans ?_
          rw [shapeCast_self]
          rfl
      · rw [shapeCast_self]
        exact broadcastTo_1b_ab_apply _ _ p k
    · rw [shapeCast_self]
      exact broadcastTo_1b_ab_apply _ _ p k
  · rw [shapeCast_self]

/-- The output block as a function of the input blocks, at an index (the body loads the residual block last). -/
theorem out2_6_apply (x0 x1 : Vec Ideal S10000x64 .f32) (x2 x3 x4 x5 : Vec Ideal S1x64 .f32) (p : Fin 10000) (k : Fin 64) :
    out2_6 (F := Ideal) x0 x1 x2 x3 x4 x5 (ix2 p k)
      = max ((((x0 (ix2 p k) - x2 (ix2 0 k)) * Ideal.rsqrt (x3 (ix2 0 k) + eps2)) * x4 (ix2 0 k) + x5 (ix2 0 k)) + x1 (ix2 p k)) Cert.Alg.z0 := by
  unfold out2_6
  rw [View.canon_unit_zero hz2]
  simp only [View.ld_unit_zero (S := S10000x64) hz2, View.ld_unit_zero (S := S1x64) hz2]
  exact pay2_apply x0 x2 x3 x4 x5 x1 p k

/-- The printed index maps, decided over the grid: the row-tiled windows' block index is the point, the rows' is zero. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 4000000 in
/-- WHAT POINT `t` WRITES BACK is block `t` of the normalised, residual-added, rectified array of the six input arrays as
    the region finds them. -/
theorem flushed2_eq (c : Dev nD) (t : Fin cfg2.N) :
    (dat2 (F := Ideal) V c).flushed 6 t = ((cfg2.win 6).blk t).view.read (Elt Ideal)
      (Cert.Alg.normG eps2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  obtain ⟨e00, e01, e10, e11, e20, e21, e30, e31, e40, e41, e50, e51, e60, e61⟩ := idx_facts2 t
  funext j
  obtain ⟨p, q, rfl⟩ : ∃ (p : Fin 10000) (q : Fin 64), j = ix2 p q := ⟨j 0, j 1, eq_ix2 j⟩
  refine (out2_6_apply _ _ _ _ _ _ p q).trans ?_
  change _ = Cert.Alg.normG eps2 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (((cfg2.win 6).blk t).view.emb (ix2 p q))
  unfold Cert.Alg.normG
  have h0 : ((cfg2.win 0).blk t).view.emb (ix2 p q) = ((cfg2.win 6).blk t).view.emb (ix2 p q) := by
    funext a; apply Fin.ext
    match a with
    | ⟨0, _⟩ => show win2_0.index t (0 : Fin 2) * 10000 + 1 * p.val = win2_6.index t (0 : Fin 2) * 10000 + 1 * p.val; omega
    | ⟨1, _⟩ => show win2_0.index t (1 : Fin 2) * 64 + 1 * q.val = win2_6.index t (1 : Fin 2) * 64 + 1 * q.val; omega
  have h1 : ((cfg2.win 1).blk t).view.emb (ix2 p q) = ((cfg2.win 6).blk t).view.emb (ix2 p q) := by
    funext a; apply Fin.ext
    match a with
    | ⟨0, _⟩ => show win2_1.index t (0 : Fin 2) * 10000 + 1 * p.val = win2_6.index t (0 : Fin 2) * 10000 + 1 * p.val; omega
    | ⟨1, _⟩ => show win2_1.index t (1 : Fin 2) * 64 + 1 * q.val = win2_6.index t (1 : Fin 2) * 64 + 1 * q.val; omega
  have h2 : ((cfg2.win 2).blk t).view.emb (ix2 0 q) = ix2 (0 : Fin 1) (((cfg2.win 6).blk t).view.emb (ix2 p q) 1) := by
    funext a; apply Fin.ext
    match a with
    | ⟨0, _⟩ => show win2_2.index t (0 : Fin 2) * 1 + 1 * 0 = 0; omega
    | ⟨1, _⟩ => show win2_2.index t (1 : Fin 2) * 64 + 1 * q.val = win2_6.index t (1 : Fin 2) * 64 + 1 * q.val; omega
  have h3 : ((cfg2.win 3).blk t).view.emb (ix2 0 q) = ix2 (0 : Fin 1) (((cfg2.win 6).blk t).view.emb (ix2 p q) 1) := by
    funext a; apply Fin.ext
    match a with
    | ⟨0, _⟩ => show win2_3.index t (0 : Fin 2) * 1 + 1 * 0 = 0; omega
    | ⟨1, _⟩ => show win2_3.index t (1 : Fin 2) * 64 + 1 * q.val = win2_6.index t (1 : Fin 2) * 64 + 1 * q.val; omega
  have h4 : ((cfg2.win 4).blk t).view.emb (ix2 0 q) = ix2 (0 : Fin 1) (((cfg2.win 6).blk t).view.emb (ix2 p q) 1) := by
    funext a; apply Fin.ext
    match a with
    | ⟨0, _⟩ => show win2_4.index t (0 : Fin 2) * 1 + 1 * 0 = 0; omega
    | ⟨1, _⟩ => show win2_4.index t (1 : Fin 2) * 64 + 1 * q.val = win2_6.index t (1 : Fin 2) * 64 + 1 * q.val; omega
  have h5 : ((cfg2.win 5).blk t).view.emb (ix2 0 q) = ix2 (0 : Fin 1) (((cfg2.win 6).blk t).view.emb (ix2 p q) 1) := by
    funext a; apply Fin.ext
    match a with
    | ⟨0, _⟩ => show win2_5.index t (0 : Fin 2) * 1 + 1 * 0 = 0; omega
    | ⟨1, _⟩ => show win2_5.index t (1 : Fin 2) * 64 + 1 * q.val = win2_6.index t (1 : Fin 2) * 64 + 1 * q.val; omega
  refine congrArg₂ max (congrArg₂ (· + ·) (congrArg₂ (· + ·) (congrArg₂ (· * ·) (congrArg₂ (· * ·) (congrArg₂ (· - ·) ?_ ?_) (congrArg Ideal.rsqrt (congrArg₂ (· + ·) ?_ rfl))) ?_) ?_) ?_) rfl
  · show V c (Pipeline.arrRef spec2 0) (((cfg2.win 0).blk t).view.emb (ix2 p q)) = _
    exact congrArg _ h0
  · show V c (Pipeline.arrRef spec2 2) (((cfg2.win 2).blk t).view.emb (ix2 0 q)) = _
    exact congrArg _ h2
  · show V c (Pipeline.arrRef spec2 3) (((cfg2.win 3).blk t).view.emb (ix2 0 q)) = _
    exact congrArg _ h3
  · show V c (Pipeline.arrRef spec2 4) (((cfg2.win 4).blk t).view.emb (ix2 0 q)) = _
    exact congrArg _ h4
  · show V c (Pipeline.arrRef spec2 5) (((cfg2.win 5).blk t).view.emb (ix2 0 q)) = _
    exact congrArg _ h5
  · show V c (Pipeline.arrRef spec2 1) (((cfg2.win 1).blk t).view.emb (ix2 p q)) = _
    exact congrArg _ h1

/-- An index of the array is in point `t`'s block iff each coordinate is in the block's range on its axis. -/
theorem mem_blk2 (t : Fin cfg2.N) (i : S100000x64.Idx) :
    i ∈ ((cfg2.win 6).blk t).view.set ↔ ∀ a : Fin 2, win2_6.index t a * S10000x64.size a ≤ (i a).val ∧ (i a).val < win2_6.index t a * S10000x64.size a + S10000x64.size a := by
  show i ∈ ((View.whole main_v60).slice (win2_6.rect t)).set ↔ _
  rw [View.set_slice_whole, Rect.mem_set_unit]
  exact Iff.rfl

/-- The ten row blocks tile the array: row `r` is in the block of point `r / 10000`. -/
theorem cover2 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 10 := N_2
  have hlt : (i 0).val / 10000 < cfg2.N := by rw [hN]; omega
  obtain ⟨-, -, -, -, -, -, -, -, -, -, -, -, e60, e61⟩ := idx_facts2 ⟨(i 0).val / 10000, hlt⟩
  have e60' : win2_6.index ⟨(i 0).val / 10000, hlt⟩ (0 : Fin 2) = (i 0).val / 10000 := e60
  refine ⟨⟨(i 0).val / 10000, hlt⟩, flush2_6 _, ?_⟩
  rw [mem_blk2]
  intro a
  match a with
  | ⟨0, _⟩ => show win2_6.index ⟨(i 0).val / 10000, hlt⟩ (0 : Fin 2) * 10000 ≤ (i 0).val ∧ (i 0).val < win2_6.index ⟨(i 0).val / 10000, hlt⟩ (0 : Fin 2) * 10000 + 10000; omega
  | ⟨1, _⟩ => show win2_6.index ⟨(i 0).val / 10000, hlt⟩ (1 : Fin 2) * 64 ≤ (i 1).val ∧ (i 1).val < win2_6.index ⟨(i 0).val / 10000, hlt⟩ (1 : Fin 2) * 64 + 64; omega

/-- THE ARRAY after the region: batch normalisation of the first input array with the given mean, variance, scale and shift
    rows, the second input array added, under the rectifier. -/
theorem final2 (c : Dev nD) : (dat2 (F := Ideal) V c).arrAt 6 cfg2.N
    = Cert.Alg.normG (Ideal.ofBits .f32 0x3727C5AC#32) (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) :=
  (dat2 (F := Ideal) V c).arrAt_eq_of_cover 6 _ (fun t _ => flushed2_eq V c t) cover2

end

end Cert.KernelIdeal.Hand

end
-- ==== Proof.KI.Layer1.lean ====
/-
  Layer 1 of the network, kernel side, read off the boundary contents. The first statistics region leaves the layer's
  pre-normalisation features `H` of the three arrays it finds, with the row of column sums of `H` and the row of column sums of
  its squares; the host stretch after it divides the two rows by the count of rows and leaves the row of means and the row
  of variances (mean of the squares minus the squared mean) of `H`; the normalise region then leaves, in its result buffer,
  the batch normalisation of `H` with those two rows, the layer's scale and shift rows, the layer's input added, under the
  rectifier. Every buffer none of the three items writes is left as it was.
-/
import proofs.«162064_j1357209666150_1_alg».proof.Proof.KI.Chain
import proofs.«162064_j1357209666150_1_alg».proof.Proof.KI.Seg1
import proofs.«162064_j1357209666150_1_alg».proof.Proof.KI.Seg2
import proofs.«162064_j1357209666150_1_alg».proof.Proof.KI.FinStats1
import proofs.«162064_j1357209666150_1_alg».proof.Proof.KI.FinSums1
import proofs.«162064_j1357209666150_1_alg».proof.Proof.KI.Host2
import proofs.«162064_j1357209666150_1_alg».proof.Proof.KI.Val2
import proofs.«162064_j1357209666150_1_alg».proof.Proof.Alg.Layer

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Layer 1's pre-normalisation features of the aggregated features, the initial features and the layer's weights as the
    first statistics region finds them. -/
abbrev H1 (c : Dev nD) : Cert.Alg.SN64.Idx → Cert.Alg.E :=
  Cert.Alg.statsH (Scalar.ofBits (F := Ideal) .f32 0x3F666666#32) (Scalar.ofBits (F := Ideal) .f32 0x3DCCCCCD#32)
    (Scalar.ofBits (F := Ideal) .f32 0x3F183370#32) (Scalar.ofBits (F := Ideal) .f32 0x3ECF991F#32)
    (U7 m c main_v44) (U7 m c main_v31) (U7 m c main_v46)

/-- The normalisation reads its six arrays only through their values. -/
theorem normG_congr1 {eps : Cert.Alg.E} {h h' x x' : Cert.Alg.SN64.Idx → Cert.Alg.E} {mu mu' va va' g g' b b' : Cert.Alg.S1x64'.Idx → Cert.Alg.E}
    (e0 : h = h') (e1 : x = x') (e2 : mu = mu') (e3 : va = va') (e4 : g = g') (e5 : b = b') :
    Cert.Alg.normG eps h x mu va g b = Cert.Alg.normG eps h' x' mu' va' g' b' := by
  rw [e0, e1, e2, e3, e4, e5]

/-! ## After the statistics region -/

/-- The features buffer holds `H`. -/
theorem U8_feat1 (c : Dev nD) : U8 m c main_v53_0 = H1 m c :=
  (U8_main_v53_0 m c).trans ((Pipeline.withArrays_arr spec1 launch1.win.arr_inj c _ _ 3).trans (final1_3 (tcv (U7 m)) c))

/-- The first row holds the column sums of `H`. -/
theorem U8_sum1 (c : Dev nD) : U8 m c main_v53_1 = Cert.Alg.colSum (H1 m c) :=
  (U8_main_v53_1 m c).trans ((Pipeline.withArrays_arr spec1 launch1.win.arr_inj c _ _ 4).trans (final1_4c (tcv (U7 m)) c))

/-- The second row holds the column sums of the squares of `H`. -/
theorem U8_sumsq1 (c : Dev nD) : U8 m c main_v53_2 = Cert.Alg.colSum (fun j => H1 m c j * H1 m c j) :=
  (U8_main_v53_2 m c).trans ((Pipeline.withArrays_arr spec1 launch1.win.arr_inj c _ _ 5).trans (final1_5c (tcv (U7 m)) c))

/-! ## After the host stretch -/

/-- The stretch does not write the features buffer. -/
theorem U9_feat1 (c : Dev nD) : U9 m c main_v53_0 = H1 m c :=
  (host2_keeps (U8 m c) main_v53_0 (by decide)).trans (U8_feat1 m c)

/-- A buffer neither the statistics region nor the stretch writes is as the statistics region found it. -/
theorem U9_keeps1 (c : Dev nD) (b : Ref sig .tc) (h9 : b ∉ (hostOps2_W : List (Ref sig .tc)))
    (h8 : b ∉ ([main_v53_0, main_v53_1, main_v53_2] : List (Ref sig .tc))) : U9 m c b = U7 m c b :=
  (host2_keeps (U8 m c) b h9).trans (U8_of m c b h8)

/-- The row of means of `H`. -/
theorem U9_mean1 (c : Dev nD) : U9 m c main_v55 = Cert.Alg.meanRow (H1 m c) := by
  refine (host2_mean (U8 m c)).trans ?_
  funext i
  exact congrArg (fun s => Ideal.div s Cert.Alg.n100k) (congrFun (U8_sum1 m c) i)

/-- The row of variances of `H`: the mean of the squares minus the squared mean. -/
theorem U9_var1 (c : Dev nD) : U9 m c main_v59 = Cert.Alg.varRowK (H1 m c) := by
  refine (host2_var (U8 m c)).trans ?_
  funext i
  have h1 := congrFun (U8_sum1 m c) i
  have h2 := congrFun (U8_sumsq1 m c) i
  exact congrArg₂ (· - ·) (congrArg (fun s => Ideal.div s Cert.Alg.n100k) h2)
    (congrArg₂ (· * ·) (congrArg (fun s => Ideal.div s Cert.Alg.n100k) h1) (congrArg (fun s => Ideal.div s Cert.Alg.n100k) h1))

/-! ## After the normalise region -/

/-- THE LAYER'S RESULT: the batch normalisation of `H` with its own row of means and row of variances, the layer's scale and
    shift rows, the layer's input added, under the rectifier. -/
theorem layer1_core (c : Dev nD) : U10 m c main_v60
    = Cert.Alg.normG (Ideal.ofBits .f32 0x3727C5AC#32) (H1 m c) (U7 m c main_v31) (Cert.Alg.meanRow (H1 m c)) (Cert.Alg.varRowK (H1 m c))
        (U7 m c main_v49) (U7 m c main_v52) :=
  (U10_main_v60 m c).trans ((Pipeline.withArrays_arr spec2 launch2.win.arr_inj c _ _ 6).trans ((final2 (tcv (U9 m)) c).trans
    (normG_congr1 (U9_feat1 m c) (U9_keeps1 m c main_v31 (by decide) (by decide)) (U9_mean1 m c) (U9_var1 m c)
      (U9_keeps1 m c main_v49 (by decide) (by decide)) (U9_keeps1 m c main_v52 (by decide) (by decide)))))

/-- A buffer none of the three items writes is left as it was. -/
theorem U10_keeps1 (c : Dev nD) (b : Ref sig .tc) (h10 : b ∉ ([main_v60] : List (Ref sig .tc))) (h9 : b ∉ (hostOps2_W : List (Ref sig .tc)))
    (h8 : b ∉ ([main_v53_0, main_v53_1, main_v53_2] : List (Ref sig .tc))) : U10 m c b = U7 m c b :=
  (U10_of m c b h10).trans (U9_keeps1 m c b h9 h8)

theorem U10_main_v31 (c : Dev nD) : U10 m c main_v31 = U7 m c main_v31 := U10_keeps1 m c _ (by decide) (by decide) (by decide)
theorem U10_main_v1 (c : Dev nD) : U10 m c main_v1 = U7 m c main_v1 := U10_keeps1 m c _ (by decide) (by decide) (by decide)
theorem U10_main_v3 (c : Dev nD) : U10 m c main_v3 = U7 m c main_v3 := U10_keeps1 m c _ (by decide) (by decide) (by decide)
theorem U10_main_v29 (c : Dev nD) : U10 m c main_v29 = U7 m c main_v29 := U10_keeps1 m c _ (by decide) (by decide) (by decide)
theorem U10_main_arg4 (c : Dev nD) : U10 m c main_arg4 = U7 m c main_arg4 := U10_keeps1 m c _ (by decide) (by decide) (by decide)
theorem U10_main_arg5 (c : Dev nD) : U10 m c main_arg5 = U7 m c main_arg5 := U10_keeps1 m c _ (by decide) (by decide) (by decide)
theorem U10_main_arg6 (c : Dev nD) : U10 m c main_arg6 = U7 m c main_arg6 := U10_keeps1 m c _ (by decide) (by decide) (by decide)
theorem U10_main_arg7 (c : Dev nD) : U10 m c main_arg7 = U7 m c main_arg7 := U10_keeps1 m c _ (by decide) (by decide) (by decide)
theorem U10_main_arg8 (c : Dev nD) : U10 m c main_arg8 = U7 m c main_arg8 := U10_keeps1 m c _ (by decide) (by decide) (by decide)

end Cert.KernelIdeal.Hand

end
-- ==== Proof.KI.Pieces3.lean ====
/-
  Region 3: what each of the body's stores writes, read back as a value. At every point the big output block is the mixed
  and projected features of the two input blocks; the first scratch row is what it held (cleared rows at the first point)
  plus the block's column sums, the second likewise with the squares; the two small outputs are copies of the scratch rows.
-/
import proofs.«162064_j1357209666150_1_alg».proof.Proof.KI.R3
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hzz : (![0, 0] : Fin 2 → Nat) = fun _ => 0 := funext fun a => by fin_cases a <;> rfl

/-- A load of the whole buffer after stores the LAST of which wrote the whole buffer reads that last store's value. -/
theorem readCov_cons_whole {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

set_option maxHeartbeats 4000000 in
theorem canon3_A_L3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) :
    View.canon (kernelRun3_A c i a0 ha0 a1 ha1 a2 ha2 a3 ha3 a4 ha4 a5 ha5 s0 hs0 s1 hs1 hc x0 x1 x2).1 = k3_pay4 x0 x1 x2 := by
  unfold kernelRun3_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_A_LS0 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) :
    View.canon (kernelRun3_A c i a0 ha0 a1 ha1 a2 ha2 a3 ha3 a4 ha4 a5 ha5 s0 hs0 s1 hs1 hc x0 x1 x2).2.2.2.1 = k3_pay5 x0 x1 x2 (k3_pay2 (F := F)) := by
  unfold kernelRun3_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_A_LS1 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) :
    View.canon (kernelRun3_A c i a0 ha0 a1 ha1 a2 ha2 a3 ha3 a4 ha4 a5 ha5 s0 hs0 s1 hs1 hc x0 x1 x2).2.2.2.2.1 = k3_pay1 (k3_pay3 (F := F)) (k3_pay6 x0 x1 x2) := by
  unfold kernelRun3_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_A_L4 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) :
    View.canon (kernelRun3_A c i a0 ha0 a1 ha1 a2 ha2 a3 ha3 a4 ha4 a5 ha5 s0 hs0 s1 hs1 hc x0 x1 x2).2.1 = k3_pay5 x0 x1 x2 (k3_pay2 (F := F)) := by
  unfold kernelRun3_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_A_L5 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond3 i) (x0 : Vec F S10000x64 .f32) (x1 : Vec F S10000x64 .f32) (x2 : Vec F S64x64 .f32) :
    View.canon (kernelRun3_A c i a0 ha0 a1 ha1 a2 ha2 a3 ha3 a4 ha4 a5 ha5 s0 hs0 s1 hs1 hc x0 x1 x2).2.2.1 = k3_pay1 (k3_pay3 (F := F)) (k3_pay6 x0 x1 x2) := by
  unfold kernelRun3_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_B_L3 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) :
    View.canon (kernelRun3_B c i a0 ha0 a1 ha1 a2 ha2 a3 ha3 a4 ha4 a5 ha5 s0 hs0 s1 hs1 hc x0 x1 x2 p0 p1).1 = k3_pay4 x0 x1 x2 := by
  unfold kernelRun3_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_B_LS0 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) :
    View.canon (kernelRun3_B c i a0 ha0 a1 ha1 a2 ha2 a3 ha3 a4 ha4 a5 ha5 s0 hs0 s1 hs1 hc x0 x1 x2 p0 p1).2.2.2.1 = k3_pay5 x0 x1 x2 p0 := by
  unfold kernelRun3_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_B_LS1 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) :
    View.canon (kernelRun3_B c i a0 ha0 a1 ha1 a2 ha2 a3 ha3 a4 ha4 a5 ha5 s0 hs0 s1 hs1 hc x0 x1 x2 p0 p1).2.2.2.2.1 = k3_pay1 p1 (k3_pay6 x0 x1 x2) := by
  unfold kernelRun3_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_B_L4 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) :
    View.canon (kernelRun3_B c i a0 ha0 a1 ha1 a2 ha2 a3 ha3 a4 ha4 a5 ha5 s0 hs0 s1 hs1 hc x0 x1 x2 p0 p1).2.1 = k3_pay5 x0 x1 x2 p0 := by
  unfold kernelRun3_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon3_B_L5 (c : Dev nD) (i : grid3.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond3 i) (x0 : Vec F S10000x64 .f32) (x1 : Vec F S10000x64 .f32) (x2 : Vec F S64x64 .f32) (p0 p1 : Vec F S1x64 .f32) :
    View.canon (kernelRun3_B c i a0 ha0 a1 ha1 a2 ha2 a3 ha3 a4 ha4 a5 ha5 s0 hs0 s1 hs1 hc x0 x1 x2 p0 p1).2.2.1 = k3_pay1 p1 (k3_pay6 x0 x1 x2) := by
  unfold kernelRun3_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

end Cert.KernelIdeal.Hand

end
-- ==== Proof.KI.ValStats3.lean ====
/-
  Region 3: what the outputs and the two scratch rows hold after each grid point, as the body's arithmetic of the point's
  input blocks. The big output block is the mixed and projected features of the point's blocks. The first scratch row after
  the first point is the cleared row plus the block's column sums, after a later point what the point before left plus
  them; the second scratch row likewise with the squares; the two small outputs repeat the scratch rows.
-/
import proofs.«162064_j1357209666150_1_alg».proof.Proof.KI.Pieces3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

section
variable (V : (c : Dev nD) → (b : Ref sig .tc) → Buf (Elt F) ((c : Thread nD τ).loc b))

set_option maxHeartbeats 4000000 in
/-- At the first point. -/
theorem outs3_first (c : Dev nD) (t : Fin cfg3.N) (hz : t.val = 0) :
    outsAt3 V c t.val t.isLt
      = ((k3_pay4 (iblk3 V c 0 t) (iblk3 V c 1 t) (iblk3 V c 2 t), k3_pay5 (iblk3 V c 0 t) (iblk3 V c 1 t) (iblk3 V c 2 t) (k3_pay2 (F := F)), k3_pay1 (k3_pay3 (F := F)) (k3_pay6 (iblk3 V c 0 t) (iblk3 V c 1 t) (iblk3 V c 2 t))),
         (k3_pay5 (iblk3 V c 0 t) (iblk3 V c 1 t) (iblk3 V c 2 t) (k3_pay2 (F := F)), k3_pay1 (k3_pay3 (F := F)) (k3_pay6 (iblk3 V c 0 t) (iblk3 V c 1 t) (iblk3 V c 2 t)))) := by
  rw [outsAt3_A V c t hz]
  unfold resA3
  exact congrArg₂ Prod.mk (congrArg₂ Prod.mk (canon3_A_L3 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t)) (congrArg₂ Prod.mk (canon3_A_L4 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t)) (canon3_A_L5 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t))))
    (congrArg₂ Prod.mk (canon3_A_LS0 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t)) (canon3_A_LS1 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) ((hcond3 t).mpr hz) (iblk3 V c 0 t) (iblk3 V c 1 t) (iblk3 V c 2 t)))

set_option maxHeartbeats 4000000 in
/-- At a later point, from what the point before left in the scratch rows. -/
theorem outs3_later (c : Dev nD) (t : Fin cfg3.N) (hz : ¬t.val = 0) :
    outsAt3 V c t.val t.isLt
      = ((k3_pay4 (iblk3 V c 0 t) (iblk3 V c 1 t) (iblk3 V c 2 t), k3_pay5 (iblk3 V c 0 t) (iblk3 V c 1 t) (iblk3 V c 2 t) (outsAt3 V c (t.val - 1) (Nat.lt_of_le_of_lt (Nat.sub_le _ _) t.isLt)).2.1, k3_pay1 (outsAt3 V c (t.val - 1) (Nat.lt_of_le_of_lt (Nat.sub_le _ _) t.isLt)).2.2 (k3_pay6 (iblk3 V c 0 t) (iblk3 V c 1 t) (iblk3 V c 2 t))),
         (k3_pay5 (iblk3 V c 0 t) (iblk3 V c 1 t) (iblk3 V c 2 t) (outsAt3 V c (t.val - 1) (Nat.lt_of_le_of_lt (Nat.sub_le _ _) t.isLt)).2.1, k3_pay1 (outsAt3 V c (t.val - 1) (Nat.lt_of_le_of_lt (Nat.sub_le _ _) t.isLt)).2.2 (k3_pay6 (iblk3 V c 0 t) (iblk3 V c 1 t) (iblk3 V c 2 t)))) := by
  rw [outsAt3_B V c t hz]
  unfold resB3
  exact congrArg₂ Prod.mk (congrArg₂ Prod.mk (canon3_B_L3 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) (congrArg₂ Prod.mk (canon3_B_L4 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) (canon3_B_L5 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2)))
    (congrArg₂ Prod.mk (canon3_B_LS0 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) (canon3_B_LS1 c (grid3.coords t) (st3_0 t) (hst3_0 t) (st3_1 t) (hst3_1 t) (st3_2 t) (hst3_2 t) (st3_3 t) (hst3_3 t) (st3_4 t) (hst3_4 t) (st3_5 t) (hst3_5 t) sc3_0 (Memref.isWhole_whole _) sc3_1 (Memref.isWhole_whole _) (fun h => hz ((hcond3 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2))

/-- The big output block after ANY point: the features of the point's blocks. -/
theorem after3_3_eq (c : Dev nD) (t : Fin cfg3.N) : (dat3 V c).after 3 t = k3_pay4 (iblk3 V c 0 t) (iblk3 V c 1 t) (iblk3 V c 2 t) := by
  rw [after3_3]
  by_cases hz : t.val = 0
  · rw [outs3_first V c t hz]
  · rw [outs3_later V c t hz]

/-- The small outputs repeat the scratch rows, at every point. -/
theorem after3_4_eq (c : Dev nD) (t : Fin cfg3.N) : (dat3 V c).after 4 t = (outsAt3 V c t.val t.isLt).2.1 := by
  rw [after3_4]
  by_cases hz : t.val = 0
  · rw [outs3_first V c t hz]
  · rw [outs3_later V c t hz]
theorem after3_5_eq (c : Dev nD) (t : Fin cfg3.N) : (dat3 V c).after 5 t = (outsAt3 V c t.val t.isLt).2.2 := by
  rw [after3_5]
  by_cases hz : t.val = 0
  · rw [outs3_first V c t hz]
  · rw [outs3_later V c t hz]

end

end Cert.KernelIdeal.Hand

end
-- ==== Proof.KI.PayStats3.lean ====
/-
  Region 3's arithmetic at an index, on the extended reals. With `s = c1 · agg + c2 · x0` the stored block is, at row `p`
  and column `k`, `c3 · s (p, k) + c4 · ∑ j, s (p, j) · w (j, k)`; the first scratch row gains the block's column sums,
  the second the column sums of its squares; cleared rows are zero.
-/
import proofs.«162064_j1357209666150_1_alg».proof.Proof.Gen.KernelIdeal.Skeleton
import proofs.«162064_j1357209666150_1_alg».proof.Proof.LibPlainDot
import Idealize.ShloMosaic.PureOps.Ideal.Laws
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The mixed features of one row block at `(p, j)`. -/
def mix3 (x0 x1 : Vec Ideal S10000x64 .f32) (p : Fin 10000) (j : Fin 64) : Ideal .f32 :=
  (Scalar.ofBits (F := Ideal) .f32 0x3F666666#32) * x0 (ix2 p j) + (Scalar.ofBits (F := Ideal) .f32 0x3DCCCCCD#32) * x1 (ix2 p j)

set_option maxHeartbeats 4000000 in
theorem pay4_3_apply (x0 x1 : Vec Ideal S10000x64 .f32) (x2 : Vec Ideal S64x64 .f32) (p : Fin 10000) (k : Fin 64) :
    k3_pay4 (F := Ideal) x0 x1 x2 (ix2 p k)
      = (Scalar.ofBits (F := Ideal) .f32 0x3F46E010#32) * mix3 x0 x1 p k + (Scalar.ofBits (F := Ideal) .f32 0x3E647FBE#32) * ∑ j : Fin 64, mix3 x0 x1 p j * x2 (ix2 j k) := by
  unfold k3_pay4
  simp only [shapeCast_self]
  refine congrArg₂ (· + ·) rfl ?_
  refine congrArg ((Scalar.ofBits (F := Ideal) .f32 0x3E647FBE#32) * ·) ?_
  refine (Cert.LibPlainDot.matmul_plain_zero_apply (M := 10000) (K := 64) (N := 64) none _ _ p k).trans ?_
  exact Finset.sum_congr rfl fun j _ => rfl

/-- A column sum of a row block: the lane reduction over axis 0 read at column `k`. -/
theorem colsum3_apply (src : FVec Ideal S10000x64 .f32) (k : Fin 64) :
    multiReduction .add [0] S64 src 0x00000000#32 reduces_S10000x64_S64 (.inl rfl) rfl (ix1 k) = ∑ p : Fin 10000, src (ix2 p k) := by
  refine (Ideal.multiReduction_add_single src 0x00000000#32 reduces_S10000x64_S64 (.inl rfl) rfl (ix1 k)).trans ?_
  refine Finset.sum_congr rfl fun p _ => congrArg src ?_
  funext a
  match a with
  | ⟨0, _⟩ => rfl
  | ⟨1, _⟩ => rfl

theorem pay5_3_apply (x0 x1 : Vec Ideal S10000x64 .f32) (x2 : Vec Ideal S64x64 .f32) (q : Vec Ideal S1x64 .f32) (k : Fin 64) :
    k3_pay5 (F := Ideal) x0 x1 x2 q (ix2 (0 : Fin 1) k) = q (ix2 (0 : Fin 1) k) + ∑ p : Fin 10000, k3_pay4 (F := Ideal) x0 x1 x2 (ix2 p k) := by
  unfold k3_pay5
  simp only [shapeCast_self]
  refine congrArg₂ (· + ·) rfl ?_
  refine (shapeCast_a_1a_apply _ _ (0 : Fin 1) k).trans ?_
  exact colsum3_apply _ k

theorem pay1_3_apply (x0 x1 : Vec Ideal S10000x64 .f32) (x2 : Vec Ideal S64x64 .f32) (q : Vec Ideal S1x64 .f32) (k : Fin 64) :
    k3_pay1 (F := Ideal) q (k3_pay6 (F := Ideal) x0 x1 x2) (ix2 (0 : Fin 1) k)
      = q (ix2 (0 : Fin 1) k) + ∑ p : Fin 10000, k3_pay4 (F := Ideal) x0 x1 x2 (ix2 p k) * k3_pay4 (F := Ideal) x0 x1 x2 (ix2 p k) := by
  unfold k3_pay1 k3_pay6
  simp only [shapeCast_self]
  refine congrArg₂ (· + ·) rfl ?_
  refine (shapeCast_a_1a_apply _ _ (0 : Fin 1) k).trans ?_
  exact (colsum3_apply _ k).trans (Finset.sum_congr rfl fun p _ => rfl)

theorem pay2_3_apply (i : S1x64.Idx) : k3_pay2 (F := Ideal) i = Ideal.ofBits .f32 0x00000000#32 := by
  unfold k3_pay2; simp only [shapeCast_self]; rfl
theorem pay3_3_apply (i : S1x64.Idx) : k3_pay3 (F := Ideal) i = Ideal.ofBits .f32 0x00000000#32 := by
  unfold k3_pay3; simp only [shapeCast_self]; rfl

end Cert.KernelIdeal.Hand

end
-- ==== Proof.KI.AccStats3.lean ====
/-
  Region 3, on the extended reals: after point `n` the first scratch row holds, at column `k`, the zero word plus the sum
  over the points `t ≤ n` of the column sums of the features of point `t`'s blocks; the second scratch row the same with the
  squares. By induction on `n`: the first point starts from cleared rows, every later point adds its block's sums to what
  the point before left.
-/
import proofs.«162064_j1357209666150_1_alg».proof.Proof.KI.ValStats3
import proofs.«162064_j1357209666150_1_alg».proof.Proof.KI.PayStats3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

/-- The column sum, at column `k`, of the features of point `t`'s blocks. -/
def blockSum3 (c : Dev nD) (k : Fin 64) (t : Fin cfg3.N) : Ideal .f32 :=
  ∑ p : Fin 10000, k3_pay4 (F := Ideal) (iblk3 V c 0 t) (iblk3 V c 1 t) (iblk3 V c 2 t) (ix2 p k)
/-- The same of the squares. -/
def blockSq3 (c : Dev nD) (k : Fin 64) (t : Fin cfg3.N) : Ideal .f32 :=
  ∑ p : Fin 10000, k3_pay4 (F := Ideal) (iblk3 V c 0 t) (iblk3 V c 1 t) (iblk3 V c 2 t) (ix2 p k) * k3_pay4 (F := Ideal) (iblk3 V c 0 t) (iblk3 V c 1 t) (iblk3 V c 2 t) (ix2 p k)

theorem acc3_sum (c : Dev nD) (k : Fin 64) : ∀ (n : ℕ) (hn : n < cfg3.N),
    (outsAt3 V c n hn).2.1 (ix2 (0 : Fin 1) k) = Ideal.ofBits .f32 0x00000000#32 + ∑ t : Fin (n + 1), blockSum3 V c k ⟨t.val, by omega⟩
  | 0, hn => by
    rw [show outsAt3 V c 0 hn = outsAt3 V c (⟨0, hn⟩ : Fin cfg3.N).val (⟨0, hn⟩ : Fin cfg3.N).isLt from rfl, outs3_first V c ⟨0, hn⟩ rfl]
    refine (pay5_3_apply _ _ _ _ k).trans ?_
    rw [pay2_3_apply, Fin.sum_univ_one]
    rfl
  | n + 1, hn => by
    rw [show outsAt3 V c (n + 1) hn = outsAt3 V c (⟨n + 1, hn⟩ : Fin cfg3.N).val (⟨n + 1, hn⟩ : Fin cfg3.N).isLt from rfl,
      outs3_later V c ⟨n + 1, hn⟩ (Nat.succ_ne_zero n)]
    refine (pay5_3_apply _ _ _ _ k).trans ?_
    rw [show (outsAt3 V c ((⟨n + 1, hn⟩ : Fin cfg3.N).val - 1) (Nat.lt_of_le_of_lt (Nat.sub_le _ _) (⟨n + 1, hn⟩ : Fin cfg3.N).isLt)).2.1 (ix2 (0 : Fin 1) k)
        = (outsAt3 V c n (Nat.lt_of_succ_lt hn)).2.1 (ix2 (0 : Fin 1) k) from rfl,
      acc3_sum c k n (Nat.lt_of_succ_lt hn), Fin.sum_univ_castSucc (n := n + 1), add_assoc]
    rfl

theorem acc3_sq (c : Dev nD) (k : Fin 64) : ∀ (n : ℕ) (hn : n < cfg3.N),
    (outsAt3 V c n hn).2.2 (ix2 (0 : Fin 1) k) = Ideal.ofBits .f32 0x00000000#32 + ∑ t : Fin (n + 1), blockSq3 V c k ⟨t.val, by omega⟩
  | 0, hn => by
    rw [show outsAt3 V c 0 hn = outsAt3 V c (⟨0, hn⟩ : Fin cfg3.N).val (⟨0, hn⟩ : Fin cfg3.N).isLt from rfl, outs3_first V c ⟨0, hn⟩ rfl]
    refine (pay1_3_apply _ _ _ _ k).trans ?_
    rw [pay3_3_apply, Fin.sum_univ_one]
    rfl
  | n + 1, hn => by
    rw [show outsAt3 V c (n + 1) hn = outsAt3 V c (⟨n + 1, hn⟩ : Fin cfg3.N).val (⟨n + 1, hn⟩ : Fin cfg3.N).isLt from rfl,
      outs3_later V c ⟨n + 1, hn⟩ (Nat.succ_ne_zero n)]
    refine (pay1_3_apply _ _ _ _ k).trans ?_
    rw [show (outsAt3 V c ((⟨n + 1, hn⟩ : Fin cfg3.N).val - 1) (Nat.lt_of_le_of_lt (Nat.sub_le _ _) (⟨n + 1, hn⟩ : Fin cfg3.N).isLt)).2.2 (ix2 (0 : Fin 1) k)
        = (outsAt3 V c n (Nat.lt_of_succ_lt hn)).2.2 (ix2 (0 : Fin 1) k) from rfl,
      acc3_sq c k n (Nat.lt_of_succ_lt hn), Fin.sum_univ_castSucc (n := n + 1), add_assoc]
    rfl

end

end Cert.KernelIdeal.Hand

end
-- ==== Proof.KI.FinStats3.lean ====
/-
  Region 3: the three output arrays after the ten grid points, on the extended reals. The big output is the layer's
  pre-normalisation features of the three input arrays (point `t` writes rows `10000·t …`; the ten row blocks tile the array).
  The two one-row outputs are written back once, after the last point, and then hold the zero word plus the sum over the ten
  points of the point's block column sums (of the features, and of their squares).
-/
import proofs.«162064_j1357209666150_1_alg».proof.Proof.KI.AccStats3
import proofs.«162064_j1357209666150_1_alg».proof.Proof.Alg.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

set_option maxHeartbeats 4000000 in
/-- WHAT POINT `t` WRITES BACK into the big output is block `t` of the features of the three input arrays. -/
theorem flushed3_3_eq (c : Dev nD) (t : Fin cfg3.N) :
    (dat3 (F := Ideal) V c).flushed 3 t = ((cfg3.win 3).blk t).view.read (Elt Ideal) (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) := by
  show (cfg3.win 3).cut (grid3.coords t) ((dat3 V c).after 3 t) = _
  rw [after3_3_eq]
  obtain ⟨e00, e01, e10, e11, e20, e21, e30, e31, -⟩ := idx_facts3 t
  funext j
  obtain ⟨p, q, rfl⟩ : ∃ (p : Fin 10000) (q : Fin 64), j = ix2 p q := ⟨j 0, j 1, eq_ix2 j⟩
  refine (pay4_3_apply _ _ _ p q).trans ?_
  change _ = (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) (((cfg3.win 3).blk t).view.emb (ix2 p q))
  unfold Cert.Alg.statsH Cert.Alg.mixS mix3
  refine congrArg₂ (· + ·) (congrArg ((Scalar.ofBits (F := Ideal) .f32 0x3F46E010#32) * ·) (congrArg₂ (· + ·) (congrArg ((Scalar.ofBits (F := Ideal) .f32 0x3F666666#32) * ·) ?_) (congrArg ((Scalar.ofBits (F := Ideal) .f32 0x3DCCCCCD#32) * ·) ?_)))
    (congrArg ((Scalar.ofBits (F := Ideal) .f32 0x3E647FBE#32) * ·) (Finset.sum_congr rfl fun j _ => congrArg₂ (· * ·) (congrArg₂ (· + ·) (congrArg ((Scalar.ofBits (F := Ideal) .f32 0x3F666666#32) * ·) ?_) (congrArg ((Scalar.ofBits (F := Ideal) .f32 0x3DCCCCCD#32) * ·) ?_)) ?_))
  · show V c (Pipeline.arrRef spec3 0) (((cfg3.win 0).blk t).view.emb (ix2 p q)) = _
    refine congrArg _ ?_
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * q.val = win3_3.index t (1 : Fin 2) * 64 + 1 * q.val; omega
  · show V c (Pipeline.arrRef spec3 1) (((cfg3.win 1).blk t).view.emb (ix2 p q)) = _
    refine congrArg _ ?_
    funext a; apply Fin.ext
    match a with
    | ⟨0, _⟩ => show win3_1.index t (0 : Fin 2) * 10000 + 1 * p.val = win3_3.index t (0 : Fin 2) * 10000 + 1 * p.val; omega
    | ⟨1, _⟩ => show win3_1.index t (1 : Fin 2) * 64 + 1 * q.val = win3_3.index t (1 : Fin 2) * 64 + 1 * q.val; omega
  · show V c (Pipeline.arrRef spec3 0) (((cfg3.win 0).blk t).view.emb (ix2 p j)) = _
    refine congrArg _ ?_
    funext a; apply Fin.ext
    match a with
    | ⟨0, _⟩ => show win3_0.index t (0 : Fin 2) * 10000 + 1 * p.val = win3_3.index t (0 : Fin 2) * 10000 + 1 * p.val; omega
    | ⟨1, _⟩ => show win3_0.index t (1 : Fin 2) * 64 + 1 * j.val = j.val; omega
  · show V c (Pipeline.arrRef spec3 1) (((cfg3.win 1).blk t).view.emb (ix2 p j)) = _
    refine congrArg _ ?_
    funext a; apply Fin.ext
    match a with
    | ⟨0, _⟩ => show win3_1.index t (0 : Fin 2) * 10000 + 1 * p.val = win3_3.index t (0 : Fin 2) * 10000 + 1 * p.val; omega
    | ⟨1, _⟩ => show win3_1.index t (1 : Fin 2) * 64 + 1 * j.val = j.val; omega
  · show V c (Pipeline.arrRef spec3 2) (((cfg3.win 2).blk t).view.emb (ix2 j q)) = _
    refine congrArg _ ?_
    funext a; apply Fin.ext
    match a with
    | ⟨0, _⟩ => show win3_2.index t (0 : Fin 2) * 64 + 1 * j.val = j.val; omega
    | ⟨1, _⟩ => show win3_2.index t (1 : Fin 2) * 64 + 1 * q.val = win3_3.index t (1 : Fin 2) * 64 + 1 * q.val; omega

theorem mem_blk3_3 (t : Fin cfg3.N) (i : S100000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole (Pipeline.arrRef spec3 3)).slice (win3_3.rect t)).set ↔ _
  rw [View.set_slice_whole, Rect.mem_set_unit]
  exact Iff.rfl

theorem cover3_3 (i : S100000x64.Idx) : ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 10 := N_3
  have hlt : (i 0).val / 10000 < cfg3.N := by rw [hN]; omega
  obtain ⟨-, -, -, -, -, -, e30, e31, -⟩ := idx_facts3 ⟨(i 0).val / 10000, hlt⟩
  have e30' : win3_3.index ⟨(i 0).val / 10000, hlt⟩ (0 : Fin 2) = (i 0).val / 10000 := e30
  refine ⟨⟨(i 0).val / 10000, hlt⟩, flush3_3 _, ?_⟩
  rw [mem_blk3_3]
  intro a
  match a with
  | ⟨0, _⟩ => show win3_3.index ⟨(i 0).val / 10000, hlt⟩ (0 : Fin 2) * 10000 ≤ (i 0).val ∧ (i 0).val < win3_3.index ⟨(i 0).val / 10000, hlt⟩ (0 : Fin 2) * 10000 + 10000; omega
  | ⟨1, _⟩ => show win3_3.index ⟨(i 0).val / 10000, hlt⟩ (1 : Fin 2) * 64 ≤ (i 1).val ∧ (i 1).val < win3_3.index ⟨(i 0).val / 10000, hlt⟩ (1 : Fin 2) * 64 + 64; omega

/-- THE BIG OUTPUT after the region. -/
theorem final3_3 (c : Dev nD) : (dat3 (F := Ideal) V c).arrAt 3 cfg3.N = (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) :=
  (dat3 (F := Ideal) V c).arrAt_eq_of_cover 3 _ (fun t _ => flushed3_3_eq V c t) cover3_3

end

end Cert.KernelIdeal.Hand

end
-- ==== Proof.KI.FinSums3.lean ====
/-
  Region 3: the two one-row outputs after the ten grid points, on the extended reals. Each is written back once, after the
  last point, and then holds the zero word plus the sum over the ten points of the point's block column sums — of the
  features for the first, of their squares for the second.
-/
import proofs.«162064_j1357209666150_1_alg».proof.Proof.KI.FinStats3
import proofs.«162064_j1357209666150_1_alg».proof.Proof.LibTenBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

/-- The row the sum output ends with: the zero word plus the ten points' block sums. -/
def row3_4 (c : Dev nD) : S1x64.Idx → Ideal .f32 := fun i =>
  Ideal.ofBits .f32 0x00000000#32 + ∑ t : Fin 10, blockSum3 V c ⟨(i 1).val, (i 1).isLt⟩ ⟨t.val, by have h : cfg3.N = 10 := N_3; omega⟩

theorem mem_blk3_4 (t : Fin cfg3.N) (i : S1x64.Idx) :
    i ∈ ((cfg3.win 4).blk t).view.set ↔ ∀ a : Fin 2, win3_4.index t a * S1x64.size a ≤ (i a).val ∧ (i a).val < win3_4.index t a * S1x64.size a + S1x64.size a := by
  show i ∈ ((View.whole (Pipeline.arrRef spec3 4)).slice (win3_4.rect t)).set ↔ _
  rw [View.set_slice_whole, Rect.mem_set_unit]
  exact Iff.rfl

set_option maxHeartbeats 4000000 in
/-- The one write-back of the sum output, after the last point, writes that row. -/
theorem flushed3_4_eq (c : Dev nD) (t : Fin cfg3.N) (hf : (cfg3.win 4).flush t = true) :
    (dat3 (F := Ideal) V c).flushed 4 t = ((cfg3.win 4).blk t).view.read (Elt Ideal) (row3_4 V c) := by
  have hN : cfg3.N = 10 := N_3
  have h9lt : 9 < cfg3.N := by rw [hN]; decide
  have htlt : t.val < 10 := lt_of_lt_of_eq t.isLt hN
  have h9 : t.val = 9 := by have h := (flush3_4 t).mp hf; omega
  show (cfg3.win 4).cut (grid3.coords t) ((dat3 V c).after 4 t) = _
  rw [after3_4_eq]
  obtain ⟨-, -, -, -, -, -, -, -, e40, e41, e50, e51⟩ := idx_facts3 t
  funext j
  obtain ⟨u, q, rfl⟩ : ∃ (u : Fin 1) (q : Fin 64), j = ix2 u q := ⟨j 0, j 1, eq_ix2 j⟩
  have hu : u = 0 := Fin.ext (by omega)
  subst hu
  have hemb : ((cfg3.win 4).blk t).view.emb (ix2 (0 : Fin 1) q) = ix2 (0 : Fin 1) q := by
    funext a; apply Fin.ext
    match a with
    | ⟨0, _⟩ => show win3_4.index t (0 : Fin 2) * 1 + 1 * 0 = 0; omega
    | ⟨1, _⟩ => show win3_4.index t (1 : Fin 2) * 64 + 1 * q.val = q.val; omega
  change _ = row3_4 V c (((cfg3.win 4).blk t).view.emb (ix2 (0 : Fin 1) q))
  rw [hemb]
  have ht : t = ⟨9, h9lt⟩ := Fin.ext h9
  subst ht
  exact acc3_sum V c q 9 h9lt

theorem cover3_4 (i : S1x64.Idx) : ∃ t : Fin cfg3.N, (cfg3.win 4).flush t = true ∧ i ∈ ((cfg3.win 4).blk t).view.set := by
  have hi0 : (i 0).val < 1 := (i 0).isLt
  have hi1 : (i 1).val < 64 := (i 1).isLt
  have hN : cfg3.N = 10 := N_3
  have hlt : 9 < cfg3.N := by omega
  obtain ⟨-, -, -, -, -, -, -, -, e40, e41, e50, e51⟩ := idx_facts3 ⟨9, hlt⟩
  refine ⟨⟨9, hlt⟩, (flush3_4 _).mpr rfl, ?_⟩
  rw [mem_blk3_4]
  intro a
  match a with
  | ⟨0, _⟩ => show win3_4.index ⟨9, hlt⟩ (0 : Fin 2) * 1 ≤ (i 0).val ∧ (i 0).val < win3_4.index ⟨9, hlt⟩ (0 : Fin 2) * 1 + 1; omega
  | ⟨1, _⟩ => show win3_4.index ⟨9, hlt⟩ (1 : Fin 2) * 64 ≤ (i 1).val ∧ (i 1).val < win3_4.index ⟨9, hlt⟩ (1 : Fin 2) * 64 + 64; omega

/-- THE SUM OUTPUT after the region. -/
theorem final3_4 (c : Dev nD) : (dat3 (F := Ideal) V c).arrAt 4 cfg3.N = row3_4 V c :=
  (dat3 (F := Ideal) V c).arrAt_eq_of_cover 4 _ (fun t hf => flushed3_4_eq V c t hf) cover3_4

/-- The row the sum-of-squares output ends with: the zero word plus the ten points' block sums. -/
def row3_5 (c : Dev nD) : S1x64.Idx → Ideal .f32 := fun i =>
  Ideal.ofBits .f32 0x00000000#32 + ∑ t : Fin 10, blockSq3 V c ⟨(i 1).val, (i 1).isLt⟩ ⟨t.val, by have h : cfg3.N = 10 := N_3; omega⟩

theorem mem_blk3_5 (t : Fin cfg3.N) (i : S1x64.Idx) :
    i ∈ ((cfg3.win 5).blk t).view.set ↔ ∀ a : Fin 2, win3_5.index t a * S1x64.size a ≤ (i a).val ∧ (i a).val < win3_5.index t a * S1x64.size a + S1x64.size a := by
  show i ∈ ((View.whole (Pipeline.arrRef spec3 5)).slice (win3_5.rect t)).set ↔ _
  rw [View.set_slice_whole, Rect.mem_set_unit]
  exact Iff.rfl

set_option maxHeartbeats 4000000 in
/-- The one write-back of the sum-of-squares output, after the last point, writes that row. -/
theorem flushed3_5_eq (c : Dev nD) (t : Fin cfg3.N) (hf : (cfg3.win 5).flush t = true) :
    (dat3 (F := Ideal) V c).flushed 5 t = ((cfg3.win 5).blk t).view.read (Elt Ideal) (row3_5 V c) := by
  have hN : cfg3.N = 10 := N_3
  have h9lt : 9 < cfg3.N := by rw [hN]; decide
  have htlt : t.val < 10 := lt_of_lt_of_eq t.isLt hN
  have h9 : t.val = 9 := by have h := (flush3_5 t).mp hf; omega
  show (cfg3.win 5).cut (grid3.coords t) ((dat3 V c).after 5 t) = _
  rw [after3_5_eq]
  obtain ⟨-, -, -, -, -, -, -, -, e40, e41, e50, e51⟩ := idx_facts3 t
  funext j
  obtain ⟨u, q, rfl⟩ : ∃ (u : Fin 1) (q : Fin 64), j = ix2 u q := ⟨j 0, j 1, eq_ix2 j⟩
  have hu : u = 0 := Fin.ext (by omega)
  subst hu
  have hemb : ((cfg3.win 5).blk t).view.emb (ix2 (0 : Fin 1) q) = ix2 (0 : Fin 1) q := by
    funext a; apply Fin.ext
    match a with
    | ⟨0, _⟩ => show win3_5.index t (0 : Fin 2) * 1 + 1 * 0 = 0; omega
    | ⟨1, _⟩ => show win3_5.index t (1 : Fin 2) * 64 + 1 * q.val = q.val; omega
  change _ = row3_5 V c (((cfg3.win 5).blk t).view.emb (ix2 (0 : Fin 1) q))
  rw [hemb]
  have ht : t = ⟨9, h9lt⟩ := Fin.ext h9
  subst ht
  exact acc3_sq V c q 9 h9lt

theorem cover3_5 (i : S1x64.Idx) : ∃ t : Fin cfg3.N, (cfg3.win 5).flush t = true ∧ i ∈ ((cfg3.win 5).blk t).view.set := by
  have hi0 : (i 0).val < 1 := (i 0).isLt
  have hi1 : (i 1).val < 64 := (i 1).isLt
  have hN : cfg3.N = 10 := N_3
  have hlt : 9 < cfg3.N := by omega
  obtain ⟨-, -, -, -, -, -, -, -, e40, e41, e50, e51⟩ := idx_facts3 ⟨9, hlt⟩
  refine ⟨⟨9, hlt⟩, (flush3_5 _).mpr rfl, ?_⟩
  rw [mem_blk3_5]
  intro a
  match a with
  | ⟨0, _⟩ => show win3_5.index ⟨9, hlt⟩ (0 : Fin 2) * 1 ≤ (i 0).val ∧ (i 0).val < win3_5.index ⟨9, hlt⟩ (0 : Fin 2) * 1 + 1; omega
  | ⟨1, _⟩ => show win3_5.index ⟨9, hlt⟩ (1 : Fin 2) * 64 ≤ (i 1).val ∧ (i 1).val < win3_5.index ⟨9, hlt⟩ (1 : Fin 2) * 64 + 64; omega

/-- THE SUM-OF-SQUARES OUTPUT after the region. -/
theorem final3_5 (c : Dev nD) : (dat3 (F := Ideal) V c).arrAt 5 cfg3.N = row3_5 V c :=
  (dat3 (F := Ideal) V c).arrAt_eq_of_cover 5 _ (fun t hf => flushed3_5_eq V c t hf) cover3_5

/-! ## The block sums are the column sums of the whole feature array -/

/-- The features of point `t`'s blocks at `(p, k)` are the whole feature array's entry at row `10000·t + p`. -/
theorem pay4_3_whole (c : Dev nD) (k : Fin 64) (t : Fin cfg3.N) (p : Fin 10000) :
    k3_pay4 (F := Ideal) (iblk3 V c 0 t) (iblk3 V c 1 t) (iblk3 V c 2 t) (ix2 p k) = (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) (ix2 (⟨10000 * t.val + p.val, by have h : cfg3.N = 10 := N_3; have := t.isLt; have := p.isLt; omega⟩ : Fin 100000) k) := by
  have hfl := congrFun (flushed3_3_eq V c t) (ix2 p k)
  have h1 : (dat3 (F := Ideal) V c).flushed 3 t (ix2 p k) = k3_pay4 (F := Ideal) (iblk3 V c 0 t) (iblk3 V c 1 t) (iblk3 V c 2 t) (ix2 p k) := by
    show (cfg3.win 3).cut (grid3.coords t) ((dat3 V c).after 3 t) (ix2 p k) = _
    rw [after3_3_eq]
    rfl
  rw [← h1, hfl]
  obtain ⟨-, -, -, -, -, -, e30, e31, -⟩ := idx_facts3 t
  show (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) (((cfg3.win 3).blk t).view.emb (ix2 p k)) = _
  refine congrArg _ ?_
  funext a; apply Fin.ext
  match a with
  | ⟨0, _⟩ => show win3_3.index t (0 : Fin 2) * 10000 + 1 * p.val = 10000 * t.val + p.val; omega
  | ⟨1, _⟩ => show win3_3.index t (1 : Fin 2) * 64 + 1 * k.val = k.val; omega

theorem row3_4_eq (c : Dev nD) : row3_4 V c = Cert.Alg.colSum (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) := by
  funext i
  obtain ⟨u, q, rfl⟩ : ∃ (u : Fin 1) (q : Fin 64), i = ix2 u q := ⟨i 0, i 1, eq_ix2 i⟩
  unfold row3_4 Cert.Alg.colSum
  rw [Ideal.ofBits_zero_f32, zero_add, Cert.LibTenBlocks.sum_blocks_100000 (fun r => (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) (ix2 r q))]
  refine Finset.sum_congr rfl fun t _ => ?_
  unfold blockSum3
  exact Finset.sum_congr rfl fun p _ => pay4_3_whole V c q ⟨t.val, by have h : cfg3.N = 10 := N_3; omega⟩ p

theorem row3_5_eq (c : Dev nD) : row3_5 V c = Cert.Alg.colSum (fun j => (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) j * (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) j) := by
  funext i
  obtain ⟨u, q, rfl⟩ : ∃ (u : Fin 1) (q : Fin 64), i = ix2 u q := ⟨i 0, i 1, eq_ix2 i⟩
  unfold row3_5 Cert.Alg.colSum
  rw [Ideal.ofBits_zero_f32, zero_add, Cert.LibTenBlocks.sum_blocks_100000 (fun r => (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) (ix2 r q) * (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) (ix2 r q))]
  refine Finset.sum_congr rfl fun t _ => ?_
  unfold blockSq3
  exact Finset.sum_congr rfl fun p _ => congrArg₂ (· * ·) (pay4_3_whole V c q ⟨t.val, by have h : cfg3.N = 10 := N_3; omega⟩ p) (pay4_3_whole V c q ⟨t.val, by have h : cfg3.N = 10 := N_3; omega⟩ p)

/-- THE SUM OUTPUT after the region: the column sums of the whole feature array. -/
theorem final3_4c (c : Dev nD) : (dat3 (F := Ideal) V c).arrAt 4 cfg3.N = Cert.Alg.colSum (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) :=
  (final3_4 V c).trans (row3_4_eq V c)
/-- THE SUM-OF-SQUARES OUTPUT after the region. -/
theorem final3_5c (c : Dev nD) : (dat3 (F := Ideal) V c).arrAt 5 cfg3.N = Cert.Alg.colSum (fun j => (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) j * (Cert.Alg.statsH (Scalar.ofBits (F := Ideal) .f32 0x3F666666#32) (Scalar.ofBits (F := Ideal) .f32 0x3DCCCCCD#32) (Scalar.ofBits (F := Ideal) .f32 0x3F46E010#32) (Scalar.ofBits (F := Ideal) .f32 0x3E647FBE#32) (V c (Pipeline.arrRef spec3 0)) (V c (Pipeline.arrRef spec3 1)) (V c (Pipeline.arrRef spec3 2))) j) :=
  (final3_5 V c).trans (row3_5_eq V c)

end

end Cert.KernelIdeal.Hand

end
-- ==== Proof.KI.Host4.lean ====
/-
  The host stretch after the second statistics region, read back over the extended reals from any buffer
  contents `W` it starts from. The stretch divides the row of column sums and the row of column sums of squares by the
  count 100000 (the word `0x47C35000`, broadcast over the row), squares the first quotient and subtracts it from the
  second: it leaves the row of means  S1 / n  and the row of variances  S2 / n − (S1 / n) · (S1 / n). Every buffer
  the stretch does not write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

/-- The row of means the stretch leaves: each column sum divided by the count. -/
theorem host4_mean (W : Valuation τ sig (Elt Ideal)) :
    StableHlo.after hostOps4 W (Proc.devRef .tc main_v84) = fun i => Ideal.div (W main_v82_1 i) Cert.Alg.n100k := by
  after_results
  rfl

/-- The row of variances the stretch leaves: the mean of the squares minus the squared mean. -/
theorem host4_var (W : Valuation τ sig (Elt Ideal)) :
    StableHlo.after hostOps4 W (Proc.devRef .tc main_v88)
      = fun i => Ideal.div (W main_v82_2 i) Cert.Alg.n100k
          - Ideal.div (W main_v82_1 i) Cert.Alg.n100k * Ideal.div (W main_v82_1 i) Cert.Alg.n100k := by
  after_results
  rfl

/-- A buffer the stretch does not write keeps its contents. -/
theorem host4_keeps (W : Valuation τ sig (Elt Ideal)) (r : Ref sig .tc) (h : r ∉ (hostOps4_W : List (Ref sig .tc))) :
    StableHlo.after hostOps4 W (Proc.devRef .tc r) = W (Proc.devRef .tc r) :=
  StableHlo.after_of_writes_sub hostOps4 W hostOps4_writes h

end Cert.KernelIdeal.Hand

end
-- ==== Proof.KI.Val4.lean ====
/-
  The value of region 4's output array (batch normalisation with a given mean row and variance row, the residual added, under
  the rectifier), on the extended reals: after the region's ten grid points the array holds, at row `r` and column `k`, the
  larger of zero and `((h (r, k) - mean k) * rsqrt (var k + eps)) * gamma k + beta k + x (r, k)`, with `h` the features to
  normalise, `x` the residual and `eps` the constant the body adds to the variance. Point `t` writes rows
  `10000·t … 10000·t + 9999`; the ten row blocks tile the array.
-/
import proofs.«162064_j1357209666150_1_alg».proof.Proof.KI.R4
import proofs.«162064_j1357209666150_1_alg».proof.Proof.Alg.Spec
import Idealize.ShloMosaic.Lib.ValueLayout
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

theorem hz4 : (![0, 0] : Fin 2 → Nat) = fun _ => 0 := funext fun a => by fin_cases a <;> rfl

/-- The constant the body adds to the variance row. -/
abbrev eps4 : Cert.Alg.E := Ideal.ofBits .f32 0x3727C5AC#32

/-- The payload at an index: row `p`, column `k` is the larger of the zero word and the normalised entry
    `((x0 (p, k) - m k) * rsqrt (v k + eps)) * g k + b k` plus the residual's entry `(p, k)` (the shape casts are the identity,
    each row is read at its column whatever the row of the block). -/
theorem pay4_apply (x0 : Vec Ideal S10000x64 .f32) (m v g b : Vec Ideal S1x64 .f32) (xin : Vec Ideal S10000x64 .f32) (p : Fin 10000) (k : Fin 64) :
    k4_pay1 (F := Ideal) x0 m v g b xin (ix2 p k)
      = max ((((x0 (ix2 p k) - m (ix2 0 k)) * Ideal.rsqrt (v (ix2 0 k) + eps4)) * g (ix2 0 k) + b (ix2 0 k)) + xin (ix2 p k)) Cert.Alg.z0 := by
  unfold k4_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (mulf_apply _ _ _).trans ?_
      refine congrArg₂ (· * ·) ?_ ?_
      · refine (mulf_apply _ _ _).trans ?_
        refine congrArg₂ (· * ·) ?_ ?_
        · refine (subf_apply _ _ _).trans ?_
          refine congrArg₂ (· - ·) ?_ ?_
          · rw [shapeCast_self]
          · rw [shapeCast_self]
            exact broadcastTo_1b_ab_apply _ _ p k
        · refine (broadcastTo_1b_ab_apply _ _ p k).trans ?_
          rw [shapeCast_self]
          rfl
      · rw [shapeCast_self]
        exact broadcastTo_1b_ab_apply _ _ p k
    · rw [shapeCast_self]
      exact broadcastTo_1b_ab_apply _ _ p k
  · rw [shapeCast_self]

/-- The output block as a function of the input blocks, at an index (the body loads the residual block last). -/
theorem out4_6_apply (x0 x1 : Vec Ideal S10000x64 .f32) (x2 x3 x4 x5 : Vec Ideal S1x64 .f32) (p : Fin 10000) (k : Fin 64) :
    out4_6 (F := Ideal) x0 x1 x2 x3 x4 x5 (ix2 p k)
      = max ((((x0 (ix2 p k) - x2 (ix2 0 k)) * Ideal.rsqrt (x3 (ix2 0 k) + eps4)) * x4 (ix2 0 k) + x5 (ix2 0 k)) + x1 (ix2 p k)) Cert.Alg.z0 := by
  unfold out4_6
  rw [View.canon_unit_zero hz4]
  simp only [View.ld_unit_zero (S := S10000x64) hz4, View.ld_unit_zero (S := S1x64) hz4]
  exact pay4_apply x0 x2 x3 x4 x5 x1 p k

/-- The printed index maps, decided over the grid: the row-tiled windows' block index is the point, the rows' is zero. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

set_option maxHeartbeats 4000000 in
/-- WHAT POINT `t` WRITES BACK is block `t` of the normalised, residual-added, rectified array of the six input arrays as
    the region finds them. -/
theorem flushed4_eq (c : Dev nD) (t : Fin cfg4.N) :
    (dat4 (F := Ideal) V c).flushed 6 t = ((cfg4.win 6).blk t).view.read (Elt Ideal)
      (Cert.Alg.normG eps4 (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  show (cfg4.win 6).cut (grid4.coords t) ((dat4 V c).after 6 t) = _
  rw [after4_6]
  obtain ⟨e00, e01, e10, e11, e20, e21, e30, e31, e40, e41, e50, e51, e60, e61⟩ := idx_facts4 t
  funext j
  obtain ⟨p, q, rfl⟩ : ∃ (p : Fin 10000) (q : Fin 64), j = ix2 p q := ⟨j 0, j 1, eq_ix2 j⟩
  refine (out4_6_apply _ _ _ _ _ _ p q).trans ?_
  change _ = Cert.Alg.normG eps4 (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (((cfg4.win 6).blk t).view.emb (ix2 p q))
  unfold Cert.Alg.normG
  have h0 : ((cfg4.win 0).blk t).view.emb (ix2 p q) = ((cfg4.win 6).blk t).view.emb (ix2 p q) := by
    funext a; apply Fin.ext
    match a with
    | ⟨0, _⟩ => show win4_0.index t (0 : Fin 2) * 10000 + 1 * p.val = win4_6.index t (0 : Fin 2) * 10000 + 1 * p.val; omega
    | ⟨1, _⟩ => show win4_0.index t (1 : Fin 2) * 64 + 1 * q.val = win4_6.index t (1 : Fin 2) * 64 + 1 * q.val; omega
  have h1 : ((cfg4.win 1).blk t).view.emb (ix2 p q) = ((cfg4.win 6).blk t).view.emb (ix2 p q) := by
    funext a; apply Fin.ext
    match a with
    | ⟨0, _⟩ => show win4_1.index t (0 : Fin 2) * 10000 + 1 * p.val = win4_6.index t (0 : Fin 2) * 10000 + 1 * p.val; omega
    | ⟨1, _⟩ => show win4_1.index t (1 : Fin 2) * 64 + 1 * q.val = win4_6.index t (1 : Fin 2) * 64 + 1 * q.val; omega
  have h2 : ((cfg4.win 2).blk t).view.emb (ix2 0 q) = ix2 (0 : Fin 1) (((cfg4.win 6).blk t).view.emb (ix2 p q) 1) := by
    funext a; apply Fin.ext
    match a with
    | ⟨0, _⟩ => show win4_2.index t (0 : Fin 2) * 1 + 1 * 0 = 0; omega
    | ⟨1, _⟩ => show win4_2.index t (1 : Fin 2) * 64 + 1 * q.val = win4_6.index t (1 : Fin 2) * 64 + 1 * q.val; omega
  have h3 : ((cfg4.win 3).blk t).view.emb (ix2 0 q) = ix2 (0 : Fin 1) (((cfg4.win 6).blk t).view.emb (ix2 p q) 1) := by
    funext a; apply Fin.ext
    match a with
    | ⟨0, _⟩ => show win4_3.index t (0 : Fin 2) * 1 + 1 * 0 = 0; omega
    | ⟨1, _⟩ => show win4_3.index t (1 : Fin 2) * 64 + 1 * q.val = win4_6.index t (1 : Fin 2) * 64 + 1 * q.val; omega
  have h4 : ((cfg4.win 4).blk t).view.emb (ix2 0 q) = ix2 (0 : Fin 1) (((cfg4.win 6).blk t).view.emb (ix2 p q) 1) := by
    funext a; apply Fin.ext
    match a with
    | ⟨0, _⟩ => show win4_4.index t (0 : Fin 2) * 1 + 1 * 0 = 0; omega
    | ⟨1, _⟩ => show win4_4.index t (1 : Fin 2) * 64 + 1 * q.val = win4_6.index t (1 : Fin 2) * 64 + 1 * q.val; omega
  have h5 : ((cfg4.win 5).blk t).view.emb (ix2 0 q) = ix2 (0 : Fin 1) (((cfg4.win 6).blk t).view.emb (ix2 p q) 1) := by
    funext a; apply Fin.ext
    match a with
    | ⟨0, _⟩ => show win4_5.index t (0 : Fin 2) * 1 + 1 * 0 = 0; omega
    | ⟨1, _⟩ => show win4_5.index t (1 : Fin 2) * 64 + 1 * q.val = win4_6.index t (1 : Fin 2) * 64 + 1 * q.val; omega
  refine congrArg₂ max (congrArg₂ (· + ·) (congrArg₂ (· + ·) (congrArg₂ (· * ·) (congrArg₂ (· * ·) (congrArg₂ (· - ·) ?_ ?_) (congrArg Ideal.rsqrt (congrArg₂ (· + ·) ?_ rfl))) ?_) ?_) ?_) rfl
  · show V c (Pipeline.arrRef spec4 0) (((cfg4.win 0).blk t).view.emb (ix2 p q)) = _
    exact congrArg _ h0
  · show V c (Pipeline.arrRef spec4 2) (((cfg4.win 2).blk t).view.emb (ix2 0 q)) = _
    exact congrArg _ h2
  · show V c (Pipeline.arrRef spec4 3) (((cfg4.win 3).blk t).view.emb (ix2 0 q)) = _
    exact congrArg _ h3
  · show V c (Pipeline.arrRef spec4 4) (((cfg4.win 4).blk t).view.emb (ix2 0 q)) = _
    exact congrArg _ h4
  · show V c (Pipeline.arrRef spec4 5) (((cfg4.win 5).blk t).view.emb (ix2 0 q)) = _
    exact congrArg _ h5
  · show V c (Pipeline.arrRef spec4 1) (((cfg4.win 1).blk t).view.emb (ix2 p q)) = _
    exact congrArg _ h1

/-- An index of the array is in point `t`'s block iff each coordinate is in the block's range on its axis. -/
theorem mem_blk4 (t : Fin cfg4.N) (i : S100000x64.Idx) :
    i ∈ ((cfg4.win 6).blk t).view.set ↔ ∀ a : Fin 2, win4_6.index t a * S10000x64.size a ≤ (i a).val ∧ (i a).val < win4_6.index t a * S10000x64.size a + S10000x64.size a := by
  show i ∈ ((View.whole main_v89).slice (win4_6.rect t)).set ↔ _
  rw [View.set_slice_whole, Rect.mem_set_unit]
  exact Iff.rfl

/-- The ten row blocks tile the array: row `r` is in the block of point `r / 10000`. -/
theorem cover4 (i : S100000x64.Idx) : ∃ t : Fin cfg4.N, (cfg4.win 6).flush t = true ∧ i ∈ ((cfg4.win 6).blk t).view.set := by
  have hi0 : (i 0).val < 100000 := (i 0).isLt
  have hi1 : (i 1).val < 64 := (i 1).isLt
  have hN : cfg4.N = 10 := N_4
  have hlt : (i 0).val / 10000 < cfg4.N := by rw [hN]; omega
  obtain ⟨-, -, -, -, -, -, -, -, -, -, -, -, e60, e61⟩ := idx_facts4 ⟨(i 0).val / 10000, hlt⟩
  have e60' : win4_6.index ⟨(i 0).val / 10000, hlt⟩ (0 : Fin 2) = (i 0).val / 10000 := e60
  refine ⟨⟨(i 0).val / 10000, hlt⟩, flush4_6 _, ?_⟩
  rw [mem_blk4]
  intro a
  match a with
  | ⟨0, _⟩ => show win4_6.index ⟨(i 0).val / 10000, hlt⟩ (0 : Fin 2) * 10000 ≤ (i 0).val ∧ (i 0).val < win4_6.index ⟨(i 0).val / 10000, hlt⟩ (0 : Fin 2) * 10000 + 10000; omega
  | ⟨1, _⟩ => show win4_6.index ⟨(i 0).val / 10000, hlt⟩ (1 : Fin 2) * 64 ≤ (i 1).val ∧ (i 1).val < win4_6.index ⟨(i 0).val / 10000, hlt⟩ (1 : Fin 2) * 64 + 64; omega

/-- THE ARRAY after the region: batch normalisation of the first input array with the given mean, variance, scale and shift
    rows, the second input array added, under the rectifier. -/
theorem final4 (c : Dev nD) : (dat4 (F := Ideal) V c).arrAt 6 cfg4.N
    = Cert.Alg.normG (Ideal.ofBits .f32 0x3727C5AC#32) (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5)) :=
  (dat4 (F := Ideal) V c).arrAt_eq_of_cover 6 _ (fun t _ => flushed4_eq V c t) cover4

end

end Cert.KernelIdeal.Hand

end
-- ==== Proof.KI.Layer2.lean ====
/-
  Layer 2 of the network, kernel side, read off the boundary contents. The second statistics region leaves the layer's
  pre-normalisation features `H` of the three arrays it finds, with the row of column sums of `H` and the row of column sums of
  its squares; the host stretch after it divides the two rows by the count of rows and leaves the row of means and the row
  of variances (mean of the squares minus the squared mean) of `H`; the normalise region then leaves, in its result buffer,
  the batch normalisation of `H` with those two rows, the layer's scale and shift rows, the layer's input added, under the
  rectifier. Every buffer none of the three items writes is left as it was.
-/
import proofs.«162064_j1357209666150_1_alg».proof.Proof.KI.Chain
import proofs.«162064_j1357209666150_1_alg».proof.Proof.KI.Seg3
import proofs.«162064_j1357209666150_1_alg».proof.Proof.KI.Seg4
import proofs.«162064_j1357209666150_1_alg».proof.Proof.KI.FinStats3
import proofs.«162064_j1357209666150_1_alg».proof.Proof.KI.FinSums3
import proofs.«162064_j1357209666150_1_alg».proof.Proof.KI.Host4
import proofs.«162064_j1357209666150_1_alg».proof.Proof.KI.Val4
import proofs.«162064_j1357209666150_1_alg».proof.Proof.Alg.Layer

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Layer 2's pre-normalisation features of the aggregated features, the initial features and the layer's weights as the
    second statistics region finds them. -/
abbrev H2 (c : Dev nD) : Cert.Alg.SN64.Idx → Cert.Alg.E :=
  Cert.Alg.statsH (Scalar.ofBits (F := Ideal) .f32 0x3F666666#32) (Scalar.ofBits (F := Ideal) .f32 0x3DCCCCCD#32)
    (Scalar.ofBits (F := Ideal) .f32 0x3F46E010#32) (Scalar.ofBits (F := Ideal) .f32 0x3E647FBE#32)
    (U11 m c main_v73) (U11 m c main_v31) (U11 m c main_v75)

/-- The normalisation reads its six arrays only through their values. -/
theorem normG_congr2 {eps : Cert.Alg.E} {h h' x x' : Cert.Alg.SN64.Idx → Cert.Alg.E} {mu mu' va va' g g' b b' : Cert.Alg.S1x64'.Idx → Cert.Alg.E}
    (e0 : h = h') (e1 : x = x') (e2 : mu = mu') (e3 : va = va') (e4 : g = g') (e5 : b = b') :
    Cert.Alg.normG eps h x mu va g b = Cert.Alg.normG eps h' x' mu' va' g' b' := by
  rw [e0, e1, e2, e3, e4, e5]

/-! ## After the statistics region -/

/-- The features buffer holds `H`. -/
theorem U12_feat2 (c : Dev nD) : U12 m c main_v82_0 = H2 m c :=
  (U12_main_v82_0 m c).trans ((Pipeline.withArrays_arr spec3 launch3.win.arr_inj c _ _ 3).trans (final3_3 (tcv (U11 m)) c))

/-- The first row holds the column sums of `H`. -/
theorem U12_sum2 (c : Dev nD) : U12 m c main_v82_1 = Cert.Alg.colSum (H2 m c) :=
  (U12_main_v82_1 m c).trans ((Pipeline.withArrays_arr spec3 launch3.win.arr_inj c _ _ 4).trans (final3_4c (tcv (U11 m)) c))

/-- The second row holds the column sums of the squares of `H`. -/
theorem U12_sumsq2 (c : Dev nD) : U12 m c main_v82_2 = Cert.Alg.colSum (fun j => H2 m c j * H2 m c j) :=
  (U12_main_v82_2 m c).trans ((Pipeline.withArrays_arr spec3 launch3.win.arr_inj c _ _ 5).trans (final3_5c (tcv (U11 m)) c))

/-! ## After the host stretch -/

/-- The stretch does not write the features buffer. -/
theorem U13_feat2 (c : Dev nD) : U13 m c main_v82_0 = H2 m c :=
  (host4_keeps (U12 m c) main_v82_0 (by decide)).trans (U12_feat2 m c)

/-- A buffer neither the statistics region nor the stretch writes is as the statistics region found it. -/
theorem U13_keeps2 (c : Dev nD) (b : Ref sig .tc) (h9 : b ∉ (hostOps4_W : List (Ref sig .tc)))
    (h8 : b ∉ ([main_v82_0, main_v82_1, main_v82_2] : List (Ref sig .tc))) : U13 m c b = U11 m c b :=
  (host4_keeps (U12 m c) b h9).trans (U12_of m c b h8)

/-- The row of means of `H`. -/
theorem U13_mean2 (c : Dev nD) : U13 m c main_v84 = Cert.Alg.meanRow (H2 m c) := by
  refine (host4_mean (U12 m c)).trans ?_
  funext i
  exact congrArg (fun s => Ideal.div s Cert.Alg.n100k) (congrFun (U12_sum2 m c) i)

/-- The row of variances of `H`: the mean of the squares minus the squared mean. -/
theorem U13_var2 (c : Dev nD) : U13 m c main_v88 = Cert.Alg.varRowK (H2 m c) := by
  refine (host4_var (U12 m c)).trans ?_
  funext i
  have h1 := congrFun (U12_sum2 m c) i
  have h2 := congrFun (U12_sumsq2 m c) i
  exact congrArg₂ (· - ·) (congrArg (fun s => Ideal.div s Cert.Alg.n100k) h2)
    (congrArg₂ (· * ·) (congrArg (fun s => Ideal.div s Cert.Alg.n100k) h1) (congrArg (fun s => Ideal.div s Cert.Alg.n100k) h1))

/-! ## After the normalise region -/

/-- THE LAYER'S RESULT: the batch normalisation of `H` with its own row of means and row of variances, the layer's scale and
    shift rows, the layer's input added, under the rectifier. -/
theorem layer2_core (c : Dev nD) : U14 m c main_v89
    = Cert.Alg.normG (Ideal.ofBits .f32 0x3727C5AC#32) (H2 m c) (U11 m c main_v60) (Cert.Alg.meanRow (H2 m c)) (Cert.Alg.varRowK (H2 m c))
        (U11 m c main_v78) (U11 m c main_v81) :=
  (U14_main_v89 m c).trans ((Pipeline.withArrays_arr spec4 launch4.win.arr_inj c _ _ 6).trans ((final4 (tcv (U13 m)) c).trans
    (normG_congr2 (U13_feat2 m c) (U13_keeps2 m c main_v60 (by decide) (by decide)) (U13_mean2 m c) (U13_var2 m c)
      (U13_keeps2 m c main_v78 (by decide) (by decide)) (U13_keeps2 m c main_v81 (by decide) (by decide)))))

/-- A buffer none of the three items writes is left as it was. -/
theorem U14_keeps2 (c : Dev nD) (b : Ref sig .tc) (h10 : b ∉ ([main_v89] : List (Ref sig .tc))) (h9 : b ∉ (hostOps4_W : List (Ref sig .tc)))
    (h8 : b ∉ ([main_v82_0, main_v82_1, main_v82_2] : List (Ref sig .tc))) : U14 m c b = U11 m c b :=
  (U14_of m c b h10).trans (U13_keeps2 m c b h9 h8)

theorem U14_main_v31 (c : Dev nD) : U14 m c main_v31 = U11 m c main_v31 := U14_keeps2 m c _ (by decide) (by decide) (by decide)
theorem U14_main_v1 (c : Dev nD) : U14 m c main_v1 = U11 m c main_v1 := U14_keeps2 m c _ (by decide) (by decide) (by decide)
theorem U14_main_v3 (c : Dev nD) : U14 m c main_v3 = U11 m c main_v3 := U14_keeps2 m c _ (by decide) (by decide) (by decide)
theorem U14_main_v29 (c : Dev nD) : U14 m c main_v29 = U11 m c main_v29 := U14_keeps2 m c _ (by decide) (by decide) (by decide)
theorem U14_main_arg4 (c : Dev nD) : U14 m c main_arg4 = U11 m c main_arg4 := U14_keeps2 m c _ (by decide) (by decide) (by decide)
theorem U14_main_arg5 (c : Dev nD) : U14 m c main_arg5 = U11 m c main_arg5 := U14_keeps2 m c _ (by decide) (by decide) (by decide)
theorem U14_main_arg6 (c : Dev nD) : U14 m c main_arg6 = U11 m c main_arg6 := U14_keeps2 m c _ (by decide) (by decide) (by decide)
theorem U14_main_arg7 (c : Dev nD) : U14 m c main_arg7 = U11 m c main_arg7 := U14_keeps2 m c _ (by decide) (by decide) (by decide)
theorem U14_main_arg8 (c : Dev nD) : U14 m c main_arg8 = U11 m c main_arg8 := U14_keeps2 m c _ (by decide) (by decide) (by decide)

end Cert.KernelIdeal.Hand

end
-- ==== Proof.KI.Pieces5.lean ====
/-
  Region 5: what each of the body's stores writes, read back as a value. At every point the big output block is the mixed
  and projected features of the two input blocks; the first scratch row is what it held (cleared rows at the first point)
  plus the block's column sums, the second likewise with the squares; the two small outputs are copies of the scratch rows.
-/
import proofs.«162064_j1357209666150_1_alg».proof.Proof.KI.R5
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hzz : (![0, 0] : Fin 2 → Nat) = fun _ => 0 := funext fun a => by fin_cases a <;> rfl

/-- A load of the whole buffer after stores the LAST of which wrote the whole buffer reads that last store's value. -/
theorem readCov_cons_whole {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

set_option maxHeartbeats 4000000 in
theorem canon5_A_L3 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) :
    View.canon (kernelRun5_A c i a0 ha0 a1 ha1 a2 ha2 a3 ha3 a4 ha4 a5 ha5 s0 hs0 s1 hs1 hc x0 x1 x2).1 = k5_pay4 x0 x1 x2 := by
  unfold kernelRun5_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_A_LS0 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) :
    View.canon (kernelRun5_A c i a0 ha0 a1 ha1 a2 ha2 a3 ha3 a4 ha4 a5 ha5 s0 hs0 s1 hs1 hc x0 x1 x2).2.2.2.1 = k5_pay5 x0 x1 x2 (k5_pay2 (F := F)) := by
  unfold kernelRun5_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_A_LS1 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) :
    View.canon (kernelRun5_A c i a0 ha0 a1 ha1 a2 ha2 a3 ha3 a4 ha4 a5 ha5 s0 hs0 s1 hs1 hc x0 x1 x2).2.2.2.2.1 = k5_pay1 (k5_pay3 (F := F)) (k5_pay6 x0 x1 x2) := by
  unfold kernelRun5_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_A_L4 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) :
    View.canon (kernelRun5_A c i a0 ha0 a1 ha1 a2 ha2 a3 ha3 a4 ha4 a5 ha5 s0 hs0 s1 hs1 hc x0 x1 x2).2.1 = k5_pay5 x0 x1 x2 (k5_pay2 (F := F)) := by
  unfold kernelRun5_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_A_L5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond5 i) (x0 : Vec F S10000x64 .f32) (x1 : Vec F S10000x64 .f32) (x2 : Vec F S64x64 .f32) :
    View.canon (kernelRun5_A c i a0 ha0 a1 ha1 a2 ha2 a3 ha3 a4 ha4 a5 ha5 s0 hs0 s1 hs1 hc x0 x1 x2).2.2.1 = k5_pay1 (k5_pay3 (F := F)) (k5_pay6 x0 x1 x2) := by
  unfold kernelRun5_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_B_L3 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) :
    View.canon (kernelRun5_B c i a0 ha0 a1 ha1 a2 ha2 a3 ha3 a4 ha4 a5 ha5 s0 hs0 s1 hs1 hc x0 x1 x2 p0 p1).1 = k5_pay4 x0 x1 x2 := by
  unfold kernelRun5_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_B_LS0 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) :
    View.canon (kernelRun5_B c i a0 ha0 a1 ha1 a2 ha2 a3 ha3 a4 ha4 a5 ha5 s0 hs0 s1 hs1 hc x0 x1 x2 p0 p1).2.2.2.1 = k5_pay5 x0 x1 x2 p0 := by
  unfold kernelRun5_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_B_LS1 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) :
    View.canon (kernelRun5_B c i a0 ha0 a1 ha1 a2 ha2 a3 ha3 a4 ha4 a5 ha5 s0 hs0 s1 hs1 hc x0 x1 x2 p0 p1).2.2.2.2.1 = k5_pay1 p1 (k5_pay6 x0 x1 x2) := by
  unfold kernelRun5_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_B_L4 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) :
    View.canon (kernelRun5_B c i a0 ha0 a1 ha1 a2 ha2 a3 ha3 a4 ha4 a5 ha5 s0 hs0 s1 hs1 hc x0 x1 x2 p0 p1).2.1 = k5_pay5 x0 x1 x2 p0 := by
  unfold kernelRun5_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon5_B_L5 (c : Dev nD) (i : grid5.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond5 i) (x0 : Vec F S10000x64 .f32) (x1 : Vec F S10000x64 .f32) (x2 : Vec F S64x64 .f32) (p0 p1 : Vec F S1x64 .f32) :
    View.canon (kernelRun5_B c i a0 ha0 a1 ha1 a2 ha2 a3 ha3 a4 ha4 a5 ha5 s0 hs0 s1 hs1 hc x0 x1 x2 p0 p1).2.2.1 = k5_pay1 p1 (k5_pay6 x0 x1 x2) := by
  unfold kernelRun5_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

end Cert.KernelIdeal.Hand

end
-- ==== Proof.KI.ValStats5.lean ====
/-
  Region 5: what the outputs and the two scratch rows hold after each grid point, as the body's arithmetic of the point's
  input blocks. The big output block is the mixed and projected features of the point's blocks. The first scratch row after
  the first point is the cleared row plus the block's column sums, after a later point what the point before left plus
  them; the second scratch row likewise with the squares; the two small outputs repeat the scratch rows.
-/
import proofs.«162064_j1357209666150_1_alg».proof.Proof.KI.Pieces5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

section
variable (V : (c : Dev nD) → (b : Ref sig .tc) → Buf (Elt F) ((c : Thread nD τ).loc b))

set_option maxHeartbeats 4000000 in
/-- At the first point. -/
theorem outs5_first (c : Dev nD) (t : Fin cfg5.N) (hz : t.val = 0) :
    outsAt5 V c t.val t.isLt
      = ((k5_pay4 (iblk5 V c 0 t) (iblk5 V c 1 t) (iblk5 V c 2 t), k5_pay5 (iblk5 V c 0 t) (iblk5 V c 1 t) (iblk5 V c 2 t) (k5_pay2 (F := F)), k5_pay1 (k5_pay3 (F := F)) (k5_pay6 (iblk5 V c 0 t) (iblk5 V c 1 t) (iblk5 V c 2 t))),
         (k5_pay5 (iblk5 V c 0 t) (iblk5 V c 1 t) (iblk5 V c 2 t) (k5_pay2 (F := F)), k5_pay1 (k5_pay3 (F := F)) (k5_pay6 (iblk5 V c 0 t) (iblk5 V c 1 t) (iblk5 V c 2 t)))) := by
  rw [outsAt5_A V c t hz]
  unfold resA5
  exact congrArg₂ Prod.mk (congrArg₂ Prod.mk (canon5_A_L3 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t)) (congrArg₂ Prod.mk (canon5_A_L4 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t)) (canon5_A_L5 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t))))
    (congrArg₂ Prod.mk (canon5_A_LS0 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t)) (canon5_A_LS1 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) ((hcond5 t).mpr hz) (iblk5 V c 0 t) (iblk5 V c 1 t) (iblk5 V c 2 t)))

set_option maxHeartbeats 4000000 in
/-- At a later point, from what the point before left in the scratch rows. -/
theorem outs5_later (c : Dev nD) (t : Fin cfg5.N) (hz : ¬t.val = 0) :
    outsAt5 V c t.val t.isLt
      = ((k5_pay4 (iblk5 V c 0 t) (iblk5 V c 1 t) (iblk5 V c 2 t), k5_pay5 (iblk5 V c 0 t) (iblk5 V c 1 t) (iblk5 V c 2 t) (outsAt5 V c (t.val - 1) (Nat.lt_of_le_of_lt (Nat.sub_le _ _) t.isLt)).2.1, k5_pay1 (outsAt5 V c (t.val - 1) (Nat.lt_of_le_of_lt (Nat.sub_le _ _) t.isLt)).2.2 (k5_pay6 (iblk5 V c 0 t) (iblk5 V c 1 t) (iblk5 V c 2 t))),
         (k5_pay5 (iblk5 V c 0 t) (iblk5 V c 1 t) (iblk5 V c 2 t) (outsAt5 V c (t.val - 1) (Nat.lt_of_le_of_lt (Nat.sub_le _ _) t.isLt)).2.1, k5_pay1 (outsAt5 V c (t.val - 1) (Nat.lt_of_le_of_lt (Nat.sub_le _ _) t.isLt)).2.2 (k5_pay6 (iblk5 V c 0 t) (iblk5 V c 1 t) (iblk5 V c 2 t)))) := by
  rw [outsAt5_B V c t hz]
  unfold resB5
  exact congrArg₂ Prod.mk (congrArg₂ Prod.mk (canon5_B_L3 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2) (congrArg₂ Prod.mk (canon5_B_L4 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2) (canon5_B_L5 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2)))
    (congrArg₂ Prod.mk (canon5_B_LS0 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2) (canon5_B_LS1 c (grid5.coords t) (st5_0 t) (hst5_0 t) (st5_1 t) (hst5_1 t) (st5_2 t) (hst5_2 t) (st5_3 t) (hst5_3 t) (st5_4 t) (hst5_4 t) (st5_5 t) (hst5_5 t) sc5_0 (Memref.isWhole_whole _) sc5_1 (Memref.isWhole_whole _) (fun h => hz ((hcond5 t).mp h)) (iblk5 V c 0 t) (iblk5 V c 1 t) (iblk5 V c 2 t) (outsAt5 V c (t.val - 1) (Nat.lt_of_le_of_lt (Nat.sub_le _ _) t.isLt)).2.1 (outsAt5 V c (t.val - 1) (Nat.lt_of_le_of_lt (Nat.sub_le _ _) t.isLt)).2.2))

/-- The big output block after ANY point: the features of the point's blocks. -/
theorem after5_3_eq (c : Dev nD) (t : Fin cfg5.N) : (dat5 V c).after 3 t = k5_pay4 (iblk5 V c 0 t) (iblk5 V c 1 t) (iblk5 V c 2 t) := by
  rw [after5_3]
  by_cases hz : t.val = 0
  · rw [outs5_first V c t hz]
  · rw [outs5_later V c t hz]

/-- The small outputs repeat the scratch rows, at every point. -/
theorem after5_4_eq (c : Dev nD) (t : Fin cfg5.N) : (dat5 V c).after 4 t = (outsAt5 V c t.val t.isLt).2.1 := by
  rw [after5_4]
  by_cases hz : t.val = 0
  · rw [outs5_first V c t hz]
  · rw [outs5_later V c t hz]
theorem after5_5_eq (c : Dev nD) (t : Fin cfg5.N) : (dat5 V c).after 5 t = (outsAt5 V c t.val t.isLt).2.2 := by
  rw [after5_5]
  by_cases hz : t.val = 0
  · rw [outs5_first V c t hz]
  · rw [outs5_later V c t hz]

end

end Cert.KernelIdeal.Hand

end
-- ==== Proof.KI.PayStats5.lean ====
/-
  Region 5's arithmetic at an index, on the extended reals. With `s = c1 · agg + c2 · x0` the stored block is, at row `p`
  and column `k`, `c3 · s (p, k) + c4 · ∑ j, s (p, j) · w (j, k)`; the first scratch row gains the block's column sums,
  the second the column sums of its squares; cleared rows are zero.
-/
import proofs.«162064_j1357209666150_1_alg».proof.Proof.Gen.KernelIdeal.Skeleton
import proofs.«162064_j1357209666150_1_alg».proof.Proof.LibPlainDot
import Idealize.ShloMosaic.PureOps.Ideal.Laws
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The mixed features of one row block at `(p, j)`. -/
def mix5 (x0 x1 : Vec Ideal S10000x64 .f32) (p : Fin 10000) (j : Fin 64) : Ideal .f32 :=
  (Scalar.ofBits (F := Ideal) .f32 0x3F666666#32) * x0 (ix2 p j) + (Scalar.ofBits (F := Ideal) .f32 0x3DCCCCCD#32) * x1 (ix2 p j)

set_option maxHeartbeats 4000000 in
theorem pay4_5_apply (x0 x1 : Vec Ideal S10000x64 .f32) (x2 : Vec Ideal S64x64 .f32) (p : Fin 10000) (k : Fin 64) :
    k5_pay4 (F := Ideal) x0 x1 x2 (ix2 p k)
      = (Scalar.ofBits (F := Ideal) .f32 0x3F588995#32) * mix5 x0 x1 p k + (Scalar.ofBits (F := Ideal) .f32 0x3E1DD9AD#32) * ∑ j : Fin 64, mix5 x0 x1 p j * x2 (ix2 j k) := by
  unfold k5_pay4
  simp only [shapeCast_self]
  refine congrArg₂ (· + ·) rfl ?_
  refine congrArg ((Scalar.ofBits (F := Ideal) .f32 0x3E1DD9AD#32) * ·) ?_
  refine (Cert.LibPlainDot.matmul_plain_zero_apply (M := 10000) (K := 64) (N := 64) none _ _ p k).trans ?_
  exact Finset.sum_congr rfl fun j _ => rfl

/-- A column sum of a row block: the lane reduction over axis 0 read at column `k`. -/
theorem colsum5_apply (src : FVec Ideal S10000x64 .f32) (k : Fin 64) :
    multiReduction .add [0] S64 src 0x00000000#32 reduces_S10000x64_S64 (.inl rfl) rfl (ix1 k) = ∑ p : Fin 10000, src (ix2 p k) := by
  refine (Ideal.multiReduction_add_single src 0x00000000#32 reduces_S10000x64_S64 (.inl rfl) rfl (ix1 k)).trans ?_
  refine Finset.sum_congr rfl fun p _ => congrArg src ?_
  funext a
  match a with
  | ⟨0, _⟩ => rfl
  | ⟨1, _⟩ => rfl

theorem pay5_5_apply (x0 x1 : Vec Ideal S10000x64 .f32) (x2 : Vec Ideal S64x64 .f32) (q : Vec Ideal S1x64 .f32) (k : Fin 64) :
    k5_pay5 (F := Ideal) x0 x1 x2 q (ix2 (0 : Fin 1) k) = q (ix2 (0 : Fin 1) k) + ∑ p : Fin 10000, k5_pay4 (F := Ideal) x0 x1 x2 (ix2 p k) := by
  unfold k5_pay5
  simp only [shapeCast_self]
  refine congrArg₂ (· + ·) rfl ?_
  refine (shapeCast_a_1a_apply _ _ (0 : Fin 1) k).trans ?_
  exact colsum5_apply _ k

theorem pay1_5_apply (x0 x1 : Vec Ideal S10000x64 .f32) (x2 : Vec Ideal S64x64 .f32) (q : Vec Ideal S1x64 .f32) (k : Fin 64) :
    k5_pay1 (F := Ideal) q (k5_pay6 (F := Ideal) x0 x1 x2) (ix2 (0 : Fin 1) k)
      = q (ix2 (0 : Fin 1) k) + ∑ p : Fin 10000, k5_pay4 (F := Ideal) x0 x1 x2 (ix2 p k) * k5_pay4 (F := Ideal) x0 x1 x2 (ix2 p k) := by
  unfold k5_pay1 k5_pay6
  simp only [shapeCast_self]
  refine congrArg₂ (· + ·) rfl ?_
  refine (shapeCast_a_1a_apply _ _ (0 : Fin 1) k).trans ?_
  exact (colsum5_apply _ k).trans (Finset.sum_congr rfl fun p _ => rfl)

theorem pay2_5_apply (i : S1x64.Idx) : k5_pay2 (F := Ideal) i = Ideal.ofBits .f32 0x00000000#32 := by
  unfold k5_pay2; simp only [shapeCast_self]; rfl
theorem pay3_5_apply (i : S1x64.Idx) : k5_pay3 (F := Ideal) i = Ideal.ofBits .f32 0x00000000#32 := by
  unfold k5_pay3; simp only [shapeCast_self]; rfl

end Cert.KernelIdeal.Hand

end
-- ==== Proof.KI.AccStats5.lean ====
/-
  Region 5, on the extended reals: after point `n` the first scratch row holds, at column `k`, the zero word plus the sum
  over the points `t ≤ n` of the column sums of the features of point `t`'s blocks; the second scratch row the same with the
  squares. By induction on `n`: the first point starts from cleared rows, every later point adds its block's sums to what
  the point before left.
-/
import proofs.«162064_j1357209666150_1_alg».proof.Proof.KI.ValStats5
import proofs.«162064_j1357209666150_1_alg».proof.Proof.KI.PayStats5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

/-- The column sum, at column `k`, of the features of point `t`'s blocks. -/
def blockSum5 (c : Dev nD) (k : Fin 64) (t : Fin cfg5.N) : Ideal .f32 :=
  ∑ p : Fin 10000, k5_pay4 (F := Ideal) (iblk5 V c 0 t) (iblk5 V c 1 t) (iblk5 V c 2 t) (ix2 p k)
/-- The same of the squares. -/
def blockSq5 (c : Dev nD) (k : Fin 64) (t : Fin cfg5.N) : Ideal .f32 :=
  ∑ p : Fin 10000, k5_pay4 (F := Ideal) (iblk5 V c 0 t) (iblk5 V c 1 t) (iblk5 V c 2 t) (ix2 p k) * k5_pay4 (F := Ideal) (iblk5 V c 0 t) (iblk5 V c 1 t) (iblk5 V c 2 t) (ix2 p k)

theorem acc5_sum (c : Dev nD) (k : Fin 64) : ∀ (n : ℕ) (hn : n < cfg5.N),
    (outsAt5 V c n hn).2.1 (ix2 (0 : Fin 1) k) = Ideal.ofBits .f32 0x00000000#32 + ∑ t : Fin (n + 1), blockSum5 V c k ⟨t.val, by omega⟩
  | 0, hn => by
    rw [show outsAt5 V c 0 hn = outsAt5 V c (⟨0, hn⟩ : Fin cfg5.N).val (⟨0, hn⟩ : Fin cfg5.N).isLt from rfl, outs5_first V c ⟨0, hn⟩ rfl]
    refine (pay5_5_apply _ _ _ _ k).trans ?_
    rw [pay2_5_apply, Fin.sum_univ_one]
    rfl
  | n + 1, hn => by
    rw [show outsAt5 V c (n + 1) hn = outsAt5 V c (⟨n + 1, hn⟩ : Fin cfg5.N).val (⟨n + 1, hn⟩ : Fin cfg5.N).isLt from rfl,
      outs5_later V c ⟨n + 1, hn⟩ (Nat.succ_ne_zero n)]
    refine (pay5_5_apply _ _ _ _ k).trans ?_
    rw [show (outsAt5 V c ((⟨n + 1, hn⟩ : Fin cfg5.N).val - 1) (Nat.lt_of_le_of_lt (Nat.sub_le _ _) (⟨n + 1, hn⟩ : Fin cfg5.N).isLt)).2.1 (ix2 (0 : Fin 1) k)
        = (outsAt5 V c n (Nat.lt_of_succ_lt hn)).2.1 (ix2 (0 : Fin 1) k) from rfl,
      acc5_sum c k n (Nat.lt_of_succ_lt hn), Fin.sum_univ_castSucc (n := n + 1), add_assoc]
    rfl

theorem acc5_sq (c : Dev nD) (k : Fin 64) : ∀ (n : ℕ) (hn : n < cfg5.N),
    (outsAt5 V c n hn).2.2 (ix2 (0 : Fin 1) k) = Ideal.ofBits .f32 0x00000000#32 + ∑ t : Fin (n + 1), blockSq5 V c k ⟨t.val, by omega⟩
  | 0, hn => by
    rw [show outsAt5 V c 0 hn = outsAt5 V c (⟨0, hn⟩ : Fin cfg5.N).val (⟨0, hn⟩ : Fin cfg5.N).isLt from rfl, outs5_first V c ⟨0, hn⟩ rfl]
    refine (pay1_5_apply _ _ _ _ k).trans ?_
    rw [pay3_5_apply, Fin.sum_univ_one]
    rfl
  | n + 1, hn => by
    rw [show outsAt5 V c (n + 1) hn = outsAt5 V c (⟨n + 1, hn⟩ : Fin cfg5.N).val (⟨n + 1, hn⟩ : Fin cfg5.N).isLt from rfl,
      outs5_later V c ⟨n + 1, hn⟩ (Nat.succ_ne_zero n)]
    refine (pay1_5_apply _ _ _ _ k).trans ?_
    rw [show (outsAt5 V c ((⟨n + 1, hn⟩ : Fin cfg5.N).val - 1) (Nat.lt_of_le_of_lt (Nat.sub_le _ _) (⟨n + 1, hn⟩ : Fin cfg5.N).isLt)).2.2 (ix2 (0 : Fin 1) k)
        = (outsAt5 V c n (Nat.lt_of_succ_lt hn)).2.2 (ix2 (0 : Fin 1) k) from rfl,
      acc5_sq c k n (Nat.lt_of_succ_lt hn), Fin.sum_univ_castSucc (n := n + 1), add_assoc]
    rfl

end

end Cert.KernelIdeal.Hand

end
-- ==== Proof.KI.FinStats5.lean ====
/-
  Region 5: the three output arrays after the ten grid points, on the extended reals. The big output is the layer's
  pre-normalisation features of the three input arrays (point `t` writes rows `10000·t …`; the ten row blocks tile the array).
  The two one-row outputs are written back once, after the last point, and then hold the zero word plus the sum over the ten
  points of the point's block column sums (of the features, and of their squares).
-/
import proofs.«162064_j1357209666150_1_alg».proof.Proof.KI.AccStats5
import proofs.«162064_j1357209666150_1_alg».proof.Proof.Alg.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

set_option maxHeartbeats 4000000 in
/-- WHAT POINT `t` WRITES BACK into the big output is block `t` of the features of the three input arrays. -/
theorem flushed5_3_eq (c : Dev nD) (t : Fin cfg5.N) :
    (dat5 (F := Ideal) V c).flushed 3 t = ((cfg5.win 3).blk t).view.read (Elt Ideal) (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) := by
  show (cfg5.win 3).cut (grid5.coords t) ((dat5 V c).after 3 t) = _
  rw [after5_3_eq]
  obtain ⟨e00, e01, e10, e11, e20, e21, e30, e31, -⟩ := idx_facts5 t
  funext j
  obtain ⟨p, q, rfl⟩ : ∃ (p : Fin 10000) (q : Fin 64), j = ix2 p q := ⟨j 0, j 1, eq_ix2 j⟩
  refine (pay4_5_apply _ _ _ p q).trans ?_
  change _ = (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) (((cfg5.win 3).blk t).view.emb (ix2 p q))
  unfold Cert.Alg.statsH Cert.Alg.mixS mix5
  refine congrArg₂ (· + ·) (congrArg ((Scalar.ofBits (F := Ideal) .f32 0x3F588995#32) * ·) (congrArg₂ (· + ·) (congrArg ((Scalar.ofBits (F := Ideal) .f32 0x3F666666#32) * ·) ?_) (congrArg ((Scalar.ofBits (F := Ideal) .f32 0x3DCCCCCD#32) * ·) ?_)))
    (congrArg ((Scalar.ofBits (F := Ideal) .f32 0x3E1DD9AD#32) * ·) (Finset.sum_congr rfl fun j _ => congrArg₂ (· * ·) (congrArg₂ (· + ·) (congrArg ((Scalar.ofBits (F := Ideal) .f32 0x3F666666#32) * ·) ?_) (congrArg ((Scalar.ofBits (F := Ideal) .f32 0x3DCCCCCD#32) * ·) ?_)) ?_))
  · show V c (Pipeline.arrRef spec5 0) (((cfg5.win 0).blk t).view.emb (ix2 p q)) = _
    refine congrArg _ ?_
    funext a; apply Fin.ext
    match a with
    | ⟨0, _⟩ => show win5_0.index t (0 : Fin 2) * 10000 + 1 * p.val = win5_3.index t (0 : Fin 2) * 10000 + 1 * p.val; omega
    | ⟨1, _⟩ => show win5_0.index t (1 : Fin 2) * 64 + 1 * q.val = win5_3.index t (1 : Fin 2) * 64 + 1 * q.val; omega
  · show V c (Pipeline.arrRef spec5 1) (((cfg5.win 1).blk t).view.emb (ix2 p q)) = _
    refine congrArg _ ?_
    funext a; apply Fin.ext
    match a with
    | ⟨0, _⟩ => show win5_1.index t (0 : Fin 2) * 10000 + 1 * p.val = win5_3.index t (0 : Fin 2) * 10000 + 1 * p.val; omega
    | ⟨1, _⟩ => show win5_1.index t (1 : Fin 2) * 64 + 1 * q.val = win5_3.index t (1 : Fin 2) * 64 + 1 * q.val; omega
  · show V c (Pipeline.arrRef spec5 0) (((cfg5.win 0).blk t).view.emb (ix2 p j)) = _
    refine congrArg _ ?_
    funext a; apply Fin.ext
    match a with
    | ⟨0, _⟩ => show win5_0.index t (0 : Fin 2) * 10000 + 1 * p.val = win5_3.index t (0 : Fin 2) * 10000 + 1 * p.val; omega
    | ⟨1, _⟩ => show win5_0.index t (1 : Fin 2) * 64 + 1 * j.val = j.val; omega
  · show V c (Pipeline.arrRef spec5 1) (((cfg5.win 1).blk t).view.emb (ix2 p j)) = _
    refine congrArg _ ?_
    funext a; apply Fin.ext
    match a with
    | ⟨0, _⟩ => show win5_1.index t (0 : Fin 2) * 10000 + 1 * p.val = win5_3.index t (0 : Fin 2) * 10000 + 1 * p.val; omega
    | ⟨1, _⟩ => show win5_1.index t (1 : Fin 2) * 64 + 1 * j.val = j.val; omega
  · show V c (Pipeline.arrRef spec5 2) (((cfg5.win 2).blk t).view.emb (ix2 j q)) = _
    refine congrArg _ ?_
    funext a; apply Fin.ext
    match a with
    | ⟨0, _⟩ => show win5_2.index t (0 : Fin 2) * 64 + 1 * j.val = j.val; omega
    | ⟨1, _⟩ => show win5_2.index t (1 : Fin 2) * 64 + 1 * q.val = win5_3.index t (1 : Fin 2) * 64 + 1 * q.val; omega

theorem mem_blk5_3 (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole (Pipeline.arrRef spec5 3)).slice (win5_3.rect t)).set ↔ _
  rw [View.set_slice_whole, Rect.mem_set_unit]
  exact Iff.rfl

theorem cover5_3 (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : cfg5.N = 10 := N_5
  have hlt : (i 0).val / 10000 < cfg5.N := by rw [hN]; omega
  obtain ⟨-, -, -, -, -, -, e30, e31, -⟩ := idx_facts5 ⟨(i 0).val / 10000, hlt⟩
  have e30' : win5_3.index ⟨(i 0).val / 10000, hlt⟩ (0 : Fin 2) = (i 0).val / 10000 := e30
  refine ⟨⟨(i 0).val / 10000, hlt⟩, flush5_3 _, ?_⟩
  rw [mem_blk5_3]
  intro a
  match a with
  | ⟨0, _⟩ => show win5_3.index ⟨(i 0).val / 10000, hlt⟩ (0 : Fin 2) * 10000 ≤ (i 0).val ∧ (i 0).val < win5_3.index ⟨(i 0).val / 10000, hlt⟩ (0 : Fin 2) * 10000 + 10000; omega
  | ⟨1, _⟩ => show win5_3.index ⟨(i 0).val / 10000, hlt⟩ (1 : Fin 2) * 64 ≤ (i 1).val ∧ (i 1).val < win5_3.index ⟨(i 0).val / 10000, hlt⟩ (1 : Fin 2) * 64 + 64; omega

/-- THE BIG OUTPUT after the region. -/
theorem final5_3 (c : Dev nD) : (dat5 (F := Ideal) V c).arrAt 3 cfg5.N = (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) :=
  (dat5 (F := Ideal) V c).arrAt_eq_of_cover 3 _ (fun t _ => flushed5_3_eq V c t) cover5_3

end

end Cert.KernelIdeal.Hand

end
-- ==== Proof.KI.FinSums5.lean ====
/-
  Region 5: the two one-row outputs after the ten grid points, on the extended reals. Each is written back once, after the
  last point, and then holds the zero word plus the sum over the ten points of the point's block column sums — of the
  features for the first, of their squares for the second.
-/
import proofs.«162064_j1357209666150_1_alg».proof.Proof.KI.FinStats5
import proofs.«162064_j1357209666150_1_alg».proof.Proof.LibTenBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

/-- The row the sum output ends with: the zero word plus the ten points' block sums. -/
def row5_4 (c : Dev nD) : S1x64.Idx → Ideal .f32 := fun i =>
  Ideal.ofBits .f32 0x00000000#32 + ∑ t : Fin 10, blockSum5 V c ⟨(i 1).val, (i 1).isLt⟩ ⟨t.val, by have h : cfg5.N = 10 := N_5; omega⟩

theorem mem_blk5_4 (t : Fin cfg5.N) (i : S1x64.Idx) :
    i ∈ ((cfg5.win 4).blk t).view.set ↔ ∀ a : Fin 2, win5_4.index t a * S1x64.size a ≤ (i a).val ∧ (i a).val < win5_4.index t a * S1x64.size a + S1x64.size a := by
  show i ∈ ((View.whole (Pipeline.arrRef spec5 4)).slice (win5_4.rect t)).set ↔ _
  rw [View.set_slice_whole, Rect.mem_set_unit]
  exact Iff.rfl

set_option maxHeartbeats 4000000 in
/-- The one write-back of the sum output, after the last point, writes that row. -/
theorem flushed5_4_eq (c : Dev nD) (t : Fin cfg5.N) (hf : (cfg5.win 4).flush t = true) :
    (dat5 (F := Ideal) V c).flushed 4 t = ((cfg5.win 4).blk t).view.read (Elt Ideal) (row5_4 V c) := by
  have hN : cfg5.N = 10 := N_5
  have h9lt : 9 < cfg5.N := by rw [hN]; decide
  have htlt : t.val < 10 := lt_of_lt_of_eq t.isLt hN
  have h9 : t.val = 9 := by have h := (flush5_4 t).mp hf; omega
  show (cfg5.win 4).cut (grid5.coords t) ((dat5 V c).after 4 t) = _
  rw [after5_4_eq]
  obtain ⟨-, -, -, -, -, -, -, -, e40, e41, e50, e51⟩ := idx_facts5 t
  funext j
  obtain ⟨u, q, rfl⟩ : ∃ (u : Fin 1) (q : Fin 64), j = ix2 u q := ⟨j 0, j 1, eq_ix2 j⟩
  have hu : u = 0 := Fin.ext (by omega)
  subst hu
  have hemb : ((cfg5.win 4).blk t).view.emb (ix2 (0 : Fin 1) q) = ix2 (0 : Fin 1) q := by
    funext a; apply Fin.ext
    match a with
    | ⟨0, _⟩ => show win5_4.index t (0 : Fin 2) * 1 + 1 * 0 = 0; omega
    | ⟨1, _⟩ => show win5_4.index t (1 : Fin 2) * 64 + 1 * q.val = q.val; omega
  change _ = row5_4 V c (((cfg5.win 4).blk t).view.emb (ix2 (0 : Fin 1) q))
  rw [hemb]
  have ht : t = ⟨9, h9lt⟩ := Fin.ext h9
  subst ht
  exact acc5_sum V c q 9 h9lt

theorem cover5_4 (i : S1x64.Idx) : ∃ t : Fin cfg5.N, (cfg5.win 4).flush t = true ∧ i ∈ ((cfg5.win 4).blk t).view.set := by
  have hi0 : (i 0).val < 1 := (i 0).isLt
  have hi1 : (i 1).val < 64 := (i 1).isLt
  have hN : cfg5.N = 10 := N_5
  have hlt : 9 < cfg5.N := by omega
  obtain ⟨-, -, -, -, -, -, -, -, e40, e41, e50, e51⟩ := idx_facts5 ⟨9, hlt⟩
  refine ⟨⟨9, hlt⟩, (flush5_4 _).mpr rfl, ?_⟩
  rw [mem_blk5_4]
  intro a
  match a with
  | ⟨0, _⟩ => show win5_4.index ⟨9, hlt⟩ (0 : Fin 2) * 1 ≤ (i 0).val ∧ (i 0).val < win5_4.index ⟨9, hlt⟩ (0 : Fin 2) * 1 + 1; omega
  | ⟨1, _⟩ => show win5_4.index ⟨9, hlt⟩ (1 : Fin 2) * 64 ≤ (i 1).val ∧ (i 1).val < win5_4.index ⟨9, hlt⟩ (1 : Fin 2) * 64 + 64; omega

/-- THE SUM OUTPUT after the region. -/
theorem final5_4 (c : Dev nD) : (dat5 (F := Ideal) V c).arrAt 4 cfg5.N = row5_4 V c :=
  (dat5 (F := Ideal) V c).arrAt_eq_of_cover 4 _ (fun t hf => flushed5_4_eq V c t hf) cover5_4

/-- The row the sum-of-squares output ends with: the zero word plus the ten points' block sums. -/
def row5_5 (c : Dev nD) : S1x64.Idx → Ideal .f32 := fun i =>
  Ideal.ofBits .f32 0x00000000#32 + ∑ t : Fin 10, blockSq5 V c ⟨(i 1).val, (i 1).isLt⟩ ⟨t.val, by have h : cfg5.N = 10 := N_5; omega⟩

theorem mem_blk5_5 (t : Fin cfg5.N) (i : S1x64.Idx) :
    i ∈ ((cfg5.win 5).blk t).view.set ↔ ∀ a : Fin 2, win5_5.index t a * S1x64.size a ≤ (i a).val ∧ (i a).val < win5_5.index t a * S1x64.size a + S1x64.size a := by
  show i ∈ ((View.whole (Pipeline.arrRef spec5 5)).slice (win5_5.rect t)).set ↔ _
  rw [View.set_slice_whole, Rect.mem_set_unit]
  exact Iff.rfl

set_option maxHeartbeats 4000000 in
/-- The one write-back of the sum-of-squares output, after the last point, writes that row. -/
theorem flushed5_5_eq (c : Dev nD) (t : Fin cfg5.N) (hf : (cfg5.win 5).flush t = true) :
    (dat5 (F := Ideal) V c).flushed 5 t = ((cfg5.win 5).blk t).view.read (Elt Ideal) (row5_5 V c) := by
  have hN : cfg5.N = 10 := N_5
  have h9lt : 9 < cfg5.N := by rw [hN]; decide
  have htlt : t.val < 10 := lt_of_lt_of_eq t.isLt hN
  have h9 : t.val = 9 := by have h := (flush5_5 t).mp hf; omega
  show (cfg5.win 5).cut (grid5.coords t) ((dat5 V c).after 5 t) = _
  rw [after5_5_eq]
  obtain ⟨-, -, -, -, -, -, -, -, e40, e41, e50, e51⟩ := idx_facts5 t
  funext j
  obtain ⟨u, q, rfl⟩ : ∃ (u : Fin 1) (q : Fin 64), j = ix2 u q := ⟨j 0, j 1, eq_ix2 j⟩
  have hu : u = 0 := Fin.ext (by omega)
  subst hu
  have hemb : ((cfg5.win 5).blk t).view.emb (ix2 (0 : Fin 1) q) = ix2 (0 : Fin 1) q := by
    funext a; apply Fin.ext
    match a with
    | ⟨0, _⟩ => show win5_5.index t (0 : Fin 2) * 1 + 1 * 0 = 0; omega
    | ⟨1, _⟩ => show win5_5.index t (1 : Fin 2) * 64 + 1 * q.val = q.val; omega
  change _ = row5_5 V c (((cfg5.win 5).blk t).view.emb (ix2 (0 : Fin 1) q))
  rw [hemb]
  have ht : t = ⟨9, h9lt⟩ := Fin.ext h9
  subst ht
  exact acc5_sq V c q 9 h9lt

theorem cover5_5 (i : S1x64.Idx) : ∃ t : Fin cfg5.N, (cfg5.win 5).flush t = true ∧ i ∈ ((cfg5.win 5).blk t).view.set := by
  have hi0 : (i 0).val < 1 := (i 0).isLt
  have hi1 : (i 1).val < 64 := (i 1).isLt
  have hN : cfg5.N = 10 := N_5
  have hlt : 9 < cfg5.N := by omega
  obtain ⟨-, -, -, -, -, -, -, -, e40, e41, e50, e51⟩ := idx_facts5 ⟨9, hlt⟩
  refine ⟨⟨9, hlt⟩, (flush5_5 _).mpr rfl, ?_⟩
  rw [mem_blk5_5]
  intro a
  match a with
  | ⟨0, _⟩ => show win5_5.index ⟨9, hlt⟩ (0 : Fin 2) * 1 ≤ (i 0).val ∧ (i 0).val < win5_5.index ⟨9, hlt⟩ (0 : Fin 2) * 1 + 1; omega
  | ⟨1, _⟩ => show win5_5.index ⟨9, hlt⟩ (1 : Fin 2) * 64 ≤ (i 1).val ∧ (i 1).val < win5_5.index ⟨9, hlt⟩ (1 : Fin 2) * 64 + 64; omega

/-- THE SUM-OF-SQUARES OUTPUT after the region. -/
theorem final5_5 (c : Dev nD) : (dat5 (F := Ideal) V c).arrAt 5 cfg5.N = row5_5 V c :=
  (dat5 (F := Ideal) V c).arrAt_eq_of_cover 5 _ (fun t hf => flushed5_5_eq V c t hf) cover5_5

/-! ## The block sums are the column sums of the whole feature array -/

/-- The features of point `t`'s blocks at `(p, k)` are the whole feature array's entry at row `10000·t + p`. -/
theorem pay4_5_whole (c : Dev nD) (k : Fin 64) (t : Fin cfg5.N) (p : Fin 10000) :
    k5_pay4 (F := Ideal) (iblk5 V c 0 t) (iblk5 V c 1 t) (iblk5 V c 2 t) (ix2 p k) = (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) (ix2 (⟨10000 * t.val + p.val, by have h : cfg5.N = 10 := N_5; have := t.isLt; have := p.isLt; omega⟩ : Fin 100000) k) := by
  have hfl := congrFun (flushed5_3_eq V c t) (ix2 p k)
  have h1 : (dat5 (F := Ideal) V c).flushed 3 t (ix2 p k) = k5_pay4 (F := Ideal) (iblk5 V c 0 t) (iblk5 V c 1 t) (iblk5 V c 2 t) (ix2 p k) := by
    show (cfg5.win 3).cut (grid5.coords t) ((dat5 V c).after 3 t) (ix2 p k) = _
    rw [after5_3_eq]
    rfl
  rw [← h1, hfl]
  obtain ⟨-, -, -, -, -, -, e30, e31, -⟩ := idx_facts5 t
  show (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) (((cfg5.win 3).blk t).view.emb (ix2 p k)) = _
  refine congrArg _ ?_
  funext a; apply Fin.ext
  match a with
  | ⟨0, _⟩ => show win5_3.index t (0 : Fin 2) * 10000 + 1 * p.val = 10000 * t.val + p.val; omega
  | ⟨1, _⟩ => show win5_3.index t (1 : Fin 2) * 64 + 1 * k.val = k.val; omega

theorem row5_4_eq (c : Dev nD) : row5_4 V c = Cert.Alg.colSum (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) := by
  funext i
  obtain ⟨u, q, rfl⟩ : ∃ (u : Fin 1) (q : Fin 64), i = ix2 u q := ⟨i 0, i 1, eq_ix2 i⟩
  unfold row5_4 Cert.Alg.colSum
  rw [Ideal.ofBits_zero_f32, zero_add, Cert.LibTenBlocks.sum_blocks_100000 (fun r => (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) (ix2 r q))]
  refine Finset.sum_congr rfl fun t _ => ?_
  unfold blockSum5
  exact Finset.sum_congr rfl fun p _ => pay4_5_whole V c q ⟨t.val, by have h : cfg5.N = 10 := N_5; omega⟩ p

theorem row5_5_eq (c : Dev nD) : row5_5 V c = Cert.Alg.colSum (fun j => (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) j * (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) j) := by
  funext i
  obtain ⟨u, q, rfl⟩ : ∃ (u : Fin 1) (q : Fin 64), i = ix2 u q := ⟨i 0, i 1, eq_ix2 i⟩
  unfold row5_5 Cert.Alg.colSum
  rw [Ideal.ofBits_zero_f32, zero_add, Cert.LibTenBlocks.sum_blocks_100000 (fun r => (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) (ix2 r q) * (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) (ix2 r q))]
  refine Finset.sum_congr rfl fun t _ => ?_
  unfold blockSq5
  exact Finset.sum_congr rfl fun p _ => congrArg₂ (· * ·) (pay4_5_whole V c q ⟨t.val, by have h : cfg5.N = 10 := N_5; omega⟩ p) (pay4_5_whole V c q ⟨t.val, by have h : cfg5.N = 10 := N_5; omega⟩ p)

/-- THE SUM OUTPUT after the region: the column sums of the whole feature array. -/
theorem final5_4c (c : Dev nD) : (dat5 (F := Ideal) V c).arrAt 4 cfg5.N = Cert.Alg.colSum (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) :=
  (final5_4 V c).trans (row5_4_eq V c)
/-- THE SUM-OF-SQUARES OUTPUT after the region. -/
theorem final5_5c (c : Dev nD) : (dat5 (F := Ideal) V c).arrAt 5 cfg5.N = Cert.Alg.colSum (fun j => (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) j * (Cert.Alg.statsH (Scalar.ofBits (F := Ideal) .f32 0x3F666666#32) (Scalar.ofBits (F := Ideal) .f32 0x3DCCCCCD#32) (Scalar.ofBits (F := Ideal) .f32 0x3F588995#32) (Scalar.ofBits (F := Ideal) .f32 0x3E1DD9AD#32) (V c (Pipeline.arrRef spec5 0)) (V c (Pipeline.arrRef spec5 1)) (V c (Pipeline.arrRef spec5 2))) j) :=
  (final5_5 V c).trans (row5_5_eq V c)

end

end Cert.KernelIdeal.Hand

end
-- ==== Proof.KI.Host6.lean ====
/-
  The host stretch after the third statistics region, read back over the extended reals from any buffer
  contents `W` it starts from. The stretch divides the row of column sums and the row of column sums of squares by the
  count 100000 (the word `0x47C35000`, broadcast over the row), squares the first quotient and subtracts it from the
  second: it leaves the row of means  S1 / n  and the row of variances  S2 / n − (S1 / n) · (S1 / n). Every buffer
  the stretch does not write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

/-- The row of means the stretch leaves: each column sum divided by the count. -/
theorem host6_mean (W : Valuation τ sig (Elt Ideal)) :
    StableHlo.after hostOps6 W (Proc.devRef .tc main_v113) = fun i => Ideal.div (W main_v111_1 i) Cert.Alg.n100k := by
  after_results
  rfl

/-- The row of variances the stretch leaves: the mean of the squares minus the squared mean. -/
theorem host6_var (W : Valuation τ sig (Elt Ideal)) :
    StableHlo.after hostOps6 W (Proc.devRef .tc main_v117)
      = fun i => Ideal.div (W main_v111_2 i) Cert.Alg.n100k
          - Ideal.div (W main_v111_1 i) Cert.Alg.n100k * Ideal.div (W main_v111_1 i) Cert.Alg.n100k := by
  after_results
  rfl

/-- A buffer the stretch does not write keeps its contents. -/
theorem host6_keeps (W : Valuation τ sig (Elt Ideal)) (r : Ref sig .tc) (h : r ∉ (hostOps6_W : List (Ref sig .tc))) :
    StableHlo.after hostOps6 W (Proc.devRef .tc r) = W (Proc.devRef .tc r) :=
  StableHlo.after_of_writes_sub hostOps6 W hostOps6_writes h

end Cert.KernelIdeal.Hand

end
-- ==== Proof.KI.Val6.lean ====
/-
  The value of region 6's output array (batch normalisation with a given mean row and variance row, the residual added, under
  the rectifier), on the extended reals: after the region's ten grid points the array holds, at row `r` and column `k`, the
  larger of zero and `((h (r, k) - mean k) * rsqrt (var k + eps)) * gamma k + beta k + x (r, k)`, with `h` the features to
  normalise, `x` the residual and `eps` the constant the body adds to the variance. Point `t` writes rows
  `10000·t … 10000·t + 9999`; the ten row blocks tile the array.
-/
import proofs.«162064_j1357209666150_1_alg».proof.Proof.KI.R6
import proofs.«162064_j1357209666150_1_alg».proof.Proof.Alg.Spec
import Idealize.ShloMosaic.Lib.ValueLayout
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

theorem hz6 : (![0, 0] : Fin 2 → Nat) = fun _ => 0 := funext fun a => by fin_cases a <;> rfl

/-- The constant the body adds to the variance row. -/
abbrev eps6 : Cert.Alg.E := Ideal.ofBits .f32 0x3727C5AC#32

/-- The payload at an index: row `p`, column `k` is the larger of the zero word and the normalised entry
    `((x0 (p, k) - m k) * rsqrt (v k + eps)) * g k + b k` plus the residual's entry `(p, k)` (the shape casts are the identity,
    each row is read at its column whatever the row of the block). -/
theorem pay6_apply (x0 : Vec Ideal S10000x64 .f32) (m v g b : Vec Ideal S1x64 .f32) (xin : Vec Ideal S10000x64 .f32) (p : Fin 10000) (k : Fin 64) :
    k6_pay1 (F := Ideal) x0 m v g b xin (ix2 p k)
      = max ((((x0 (ix2 p k) - m (ix2 0 k)) * Ideal.rsqrt (v (ix2 0 k) + eps6)) * g (ix2 0 k) + b (ix2 0 k)) + xin (ix2 p k)) Cert.Alg.z0 := by
  unfold k6_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (mulf_apply _ _ _).trans ?_
      refine congrArg₂ (· * ·) ?_ ?_
      · refine (mulf_apply _ _ _).trans ?_
        refine congrArg₂ (· * ·) ?_ ?_
        · refine (subf_apply _ _ _).trans ?_
          refine congrArg₂ (· - ·) ?_ ?_
          · rw [shapeCast_self]
          · rw [shapeCast_self]
            exact broadcastTo_1b_ab_apply _ _ p k
        · refine (broadcastTo_1b_ab_apply _ _ p k).trans ?_
          rw [shapeCast_self]
          rfl
      · rw [shapeCast_self]
        exact broadcastTo_1b_ab_apply _ _ p k
    · rw [shapeCast_self]
      exact broadcastTo_1b_ab_apply _ _ p k
  · rw [shapeCast_self]

/-- The output block as a function of the input blocks, at an index (the body loads the residual block last). -/
theorem out6_6_apply (x0 x1 : Vec Ideal S10000x64 .f32) (x2 x3 x4 x5 : Vec Ideal S1x64 .f32) (p : Fin 10000) (k : Fin 64) :
    out6_6 (F := Ideal) x0 x1 x2 x3 x4 x5 (ix2 p k)
      = max ((((x0 (ix2 p k) - x2 (ix2 0 k)) * Ideal.rsqrt (x3 (ix2 0 k) + eps6)) * x4 (ix2 0 k) + x5 (ix2 0 k)) + x1 (ix2 p k)) Cert.Alg.z0 := by
  unfold out6_6
  rw [View.canon_unit_zero hz6]
  simp only [View.ld_unit_zero (S := S10000x64) hz6, View.ld_unit_zero (S := S1x64) hz6]
  exact pay6_apply x0 x2 x3 x4 x5 x1 p k

/-- The printed index maps, decided over the grid: the row-tiled windows' block index is the point, the rows' is zero. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

set_option maxHeartbeats 4000000 in
/-- WHAT POINT `t` WRITES BACK is block `t` of the normalised, residual-added, rectified array of the six input arrays as
    the region finds them. -/
theorem flushed6_eq (c : Dev nD) (t : Fin cfg6.N) :
    (dat6 (F := Ideal) V c).flushed 6 t = ((cfg6.win 6).blk t).view.read (Elt Ideal)
      (Cert.Alg.normG eps6 (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5))) := by
  show (cfg6.win 6).cut (grid6.coords t) ((dat6 V c).after 6 t) = _
  rw [after6_6]
  obtain ⟨e00, e01, e10, e11, e20, e21, e30, e31, e40, e41, e50, e51, e60, e61⟩ := idx_facts6 t
  funext j
  obtain ⟨p, q, rfl⟩ : ∃ (p : Fin 10000) (q : Fin 64), j = ix2 p q := ⟨j 0, j 1, eq_ix2 j⟩
  refine (out6_6_apply _ _ _ _ _ _ p q).trans ?_
  change _ = Cert.Alg.normG eps6 (V c (Pipeline.arrRef spec6 0)) (V c (Pipeline.arrRef spec6 1)) (V c (Pipeline.arrRef spec6 2))
    (V c (Pipeline.arrRef spec6 3)) (V c (Pipeline.arrRef spec6 4)) (V c (Pipeline.arrRef spec6 5))
    (((cfg6.win 6).blk t).view.emb (ix2 p q))
  unfold Cert.Alg.normG
  have h0 : ((cfg6.win 0).blk t).view.emb (ix2 p q) = ((cfg6.win 6).blk t).view.emb (ix2 p q) := by
    funext a; apply Fin.ext
    match a with
    | ⟨0, _⟩ => show win6_0.index t (0 : Fin 2) * 10000 + 1 * p.val = win6_6.index t (0 : Fin 2) * 10000 + 1 * p.val; omega
    | ⟨1, _⟩ => show win6_0.index t (1 : Fin 2) * 64 + 1 * q.val = win6_6.index t (1 : Fin 2) * 64 + 1 * q.val; omega
  have h1 : ((cfg6.win 1).blk t).view.emb (ix2 p q) = ((cfg6.win 6).blk t).view.emb (ix2 p q) := by
    funext a; apply Fin.ext
    match a with
    | ⟨0, _⟩ => show win6_1.index t (0 : Fin 2) * 10000 + 1 * p.val = win6_6.index t (0 : Fin 2) * 10000 + 1 * p.val; omega
    | ⟨1, _⟩ => show win6_1.index t (1 : Fin 2) * 64 + 1 * q.val = win6_6.index t (1 : Fin 2) * 64 + 1 * q.val; omega
  have h2 : ((cfg6.win 2).blk t).view.emb (ix2 0 q) = ix2 (0 : Fin 1) (((cfg6.win 6).blk t).view.emb (ix2 p q) 1) := by
    funext a; apply Fin.ext
    match a with
    | ⟨0, _⟩ => show win6_2.index t (0 : Fin 2) * 1 + 1 * 0 = 0; omega
    | ⟨1, _⟩ => show win6_2.index t (1 : Fin 2) * 64 + 1 * q.val = win6_6.index t (1 : Fin 2) * 64 + 1 * q.val; omega
  have h3 : ((cfg6.win 3).blk t).view.emb (ix2 0 q) = ix2 (0 : Fin 1) (((cfg6.win 6).blk t).view.emb (ix2 p q) 1) := by
    funext a; apply Fin.ext
    match a with
    | ⟨0, _⟩ => show win6_3.index t (0 : Fin 2) * 1 + 1 * 0 = 0; omega
    | ⟨1, _⟩ => show win6_3.index t (1 : Fin 2) * 64 + 1 * q.val = win6_6.index t (1 : Fin 2) * 64 + 1 * q.val; omega
  have h4 : ((cfg6.win 4).blk t).view.emb (ix2 0 q) = ix2 (0 : Fin 1) (((cfg6.win 6).blk t).view.emb (ix2 p q) 1) := by
    funext a; apply Fin.ext
    match a with
    | ⟨0, _⟩ => show win6_4.index t (0 : Fin 2) * 1 + 1 * 0 = 0; omega
    | ⟨1, _⟩ => show win6_4.index t (1 : Fin 2) * 64 + 1 * q.val = win6_6.index t (1 : Fin 2) * 64 + 1 * q.val; omega
  have h5 : ((cfg6.win 5).blk t).view.emb (ix2 0 q) = ix2 (0 : Fin 1) (((cfg6.win 6).blk t).view.emb (ix2 p q) 1) := by
    funext a; apply Fin.ext
    match a with
    | ⟨0, _⟩ => show win6_5.index t (0 : Fin 2) * 1 + 1 * 0 = 0; omega
    | ⟨1, _⟩ => show win6_5.index t (1 : Fin 2) * 64 + 1 * q.val = win6_6.index t (1 : Fin 2) * 64 + 1 * q.val; omega
  refine congrArg₂ max (congrArg₂ (· + ·) (congrArg₂ (· + ·) (congrArg₂ (· * ·) (congrArg₂ (· * ·) (congrArg₂ (· - ·) ?_ ?_) (congrArg Ideal.rsqrt (congrArg₂ (· + ·) ?_ rfl))) ?_) ?_) ?_) rfl
  · show V c (Pipeline.arrRef spec6 0) (((cfg6.win 0).blk t).view.emb (ix2 p q)) = _
    exact congrArg _ h0
  · show V c (Pipeline.arrRef spec6 2) (((cfg6.win 2).blk t).view.emb (ix2 0 q)) = _
    exact congrArg _ h2
  · show V c (Pipeline.arrRef spec6 3) (((cfg6.win 3).blk t).view.emb (ix2 0 q)) = _
    exact congrArg _ h3
  · show V c (Pipeline.arrRef spec6 4) (((cfg6.win 4).blk t).view.emb (ix2 0 q)) = _
    exact congrArg _ h4
  · show V c (Pipeline.arrRef spec6 5) (((cfg6.win 5).blk t).view.emb (ix2 0 q)) = _
    exact congrArg _ h5
  · show V c (Pipeline.arrRef spec6 1) (((cfg6.win 1).blk t).view.emb (ix2 p q)) = _
    exact congrArg _ h1

/-- An index of the array is in point `t`'s block iff each coordinate is in the block's range on its axis. -/
theorem mem_blk6 (t : Fin cfg6.N) (i : S100000x64.Idx) :
    i ∈ ((cfg6.win 6).blk t).view.set ↔ ∀ a : Fin 2, win6_6.index t a * S10000x64.size a ≤ (i a).val ∧ (i a).val < win6_6.index t a * S10000x64.size a + S10000x64.size a := by
  show i ∈ ((View.whole main_v118).slice (win6_6.rect t)).set ↔ _
  rw [View.set_slice_whole, Rect.mem_set_unit]
  exact Iff.rfl

/-- The ten row blocks tile the array: row `r` is in the block of point `r / 10000`. -/
theorem cover6 (i : S100000x64.Idx) : ∃ t : Fin cfg6.N, (cfg6.win 6).flush t = true ∧ i ∈ ((cfg6.win 6).blk t).view.set := by
  have hi0 : (i 0).val < 100000 := (i 0).isLt
  have hi1 : (i 1).val < 64 := (i 1).isLt
  have hN : cfg6.N = 10 := N_6
  have hlt : (i 0).val / 10000 < cfg6.N := by rw [hN]; omega
  obtain ⟨-, -, -, -, -, -, -, -, -, -, -, -, e60, e61⟩ := idx_facts6 ⟨(i 0).val / 10000, hlt⟩
  have e60' : win6_6.index ⟨(i 0).val / 10000, hlt⟩ (0 : Fin 2) = (i 0).val / 10000 := e60
  refine ⟨⟨(i 0).val / 10000, hlt⟩, flush6_6 _, ?_⟩
  rw [mem_blk6]
  intro a
  match a with
  | ⟨0, _⟩ => show win6_6.index ⟨(i 0).val / 10000, hlt⟩ (0 : Fin 2) * 10000 ≤ (i 0).val ∧ (i 0).val < win6_6.index ⟨(i 0).val / 10000, hlt⟩ (0 : Fin 2) * 10000 + 10000; omega
  | ⟨1, _⟩ => show win6_6.index ⟨(i 0).val / 10000, hlt⟩ (1 : Fin 2) * 64 ≤ (i 1).val ∧ (i 1).val < win6_6.index ⟨(i 0).val / 10000, hlt⟩ (1 : Fin 2) * 64 + 64; omega

/-- THE ARRAY after the region: batch normalisation of the first input array with the given mean, variance, scale and shift
    rows, the second input array added, under the rectifier. -/
theorem final6 (c : Dev nD) : (dat6 (F := Ideal) V c).arrAt 6 cfg6.N
    = Cert.Alg.normG (Ideal.ofBits .f32 0x3727C5AC#32) (V c (Pipeline.arrRef spec6 0)) (V c (Pipeline.arrRef spec6 1)) (V c (Pipeline.arrRef spec6 2))
        (V c (Pipeline.arrRef spec6 3)) (V c (Pipeline.arrRef spec6 4)) (V c (Pipeline.arrRef spec6 5)) :=
  (dat6 (F := Ideal) V c).arrAt_eq_of_cover 6 _ (fun t _ => flushed6_eq V c t) cover6

end

end Cert.KernelIdeal.Hand

end
-- ==== Proof.KI.Layer3.lean ====
/-
  Layer 3 of the network, kernel side, read off the boundary contents. The third statistics region leaves the layer's
  pre-normalisation features `H` of the three arrays it finds, with the row of column sums of `H` and the row of column sums of
  its squares; the host stretch after it divides the two rows by the count of rows and leaves the row of means and the row
  of variances (mean of the squares minus the squared mean) of `H`; the normalise region then leaves, in its result buffer,
  the batch normalisation of `H` with those two rows, the layer's scale and shift rows, the layer's input added, under the
  rectifier. Every buffer none of the three items writes is left as it was.
-/
import proofs.«162064_j1357209666150_1_alg».proof.Proof.KI.Chain
import proofs.«162064_j1357209666150_1_alg».proof.Proof.KI.Seg5
import proofs.«162064_j1357209666150_1_alg».proof.Proof.KI.Seg6
import proofs.«162064_j1357209666150_1_alg».proof.Proof.KI.FinStats5
import proofs.«162064_j1357209666150_1_alg».proof.Proof.KI.FinSums5
import proofs.«162064_j1357209666150_1_alg».proof.Proof.KI.Host6
import proofs.«162064_j1357209666150_1_alg».proof.Proof.KI.Val6
import proofs.«162064_j1357209666150_1_alg».proof.Proof.Alg.Layer

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Layer 3's pre-normalisation features of the aggregated features, the initial features and the layer's weights as the
    third statistics region finds them. -/
abbrev H3 (c : Dev nD) : Cert.Alg.SN64.Idx → Cert.Alg.E :=
  Cert.Alg.statsH (Scalar.ofBits (F := Ideal) .f32 0x3F666666#32) (Scalar.ofBits (F := Ideal) .f32 0x3DCCCCCD#32)
    (Scalar.ofBits (F := Ideal) .f32 0x3F588995#32) (Scalar.ofBits (F := Ideal) .f32 0x3E1DD9AD#32)
    (U15 m c main_v102) (U15 m c main_v31) (U15 m c main_v104)

/-- The normalisation reads its six arrays only through their values. -/
theorem normG_congr3 {eps : Cert.Alg.E} {h h' x x' : Cert.Alg.SN64.Idx → Cert.Alg.E} {mu mu' va va' g g' b b' : Cert.Alg.S1x64'.Idx → Cert.Alg.E}
    (e0 : h = h') (e1 : x = x') (e2 : mu = mu') (e3 : va = va') (e4 : g = g') (e5 : b = b') :
    Cert.Alg.normG eps h x mu va g b = Cert.Alg.normG eps h' x' mu' va' g' b' := by
  rw [e0, e1, e2, e3, e4, e5]

/-! ## After the statistics region -/

/-- The features buffer holds `H`. -/
theorem U16_feat3 (c : Dev nD) : U16 m c main_v111_0 = H3 m c :=
  (U16_main_v111_0 m c).trans ((Pipeline.withArrays_arr spec5 launch5.win.arr_inj c _ _ 3).trans (final5_3 (tcv (U15 m)) c))

/-- The first row holds the column sums of `H`. -/
theorem U16_sum3 (c : Dev nD) : U16 m c main_v111_1 = Cert.Alg.colSum (H3 m c) :=
  (U16_main_v111_1 m c).trans ((Pipeline.withArrays_arr spec5 launch5.win.arr_inj c _ _ 4).trans (final5_4c (tcv (U15 m)) c))

/-- The second row holds the column sums of the squares of `H`. -/
theorem U16_sumsq3 (c : Dev nD) : U16 m c main_v111_2 = Cert.Alg.colSum (fun j => H3 m c j * H3 m c j) :=
  (U16_main_v111_2 m c).trans ((Pipeline.withArrays_arr spec5 launch5.win.arr_inj c _ _ 5).trans (final5_5c (tcv (U15 m)) c))

/-! ## After the host stretch -/

/-- The stretch does not write the features buffer. -/
theorem U17_feat3 (c : Dev nD) : U17 m c main_v111_0 = H3 m c :=
  (host6_keeps (U16 m c) main_v111_0 (by decide)).trans (U16_feat3 m c)

/-- A buffer neither the statistics region nor the stretch writes is as the statistics region found it. -/
theorem U17_keeps3 (c : Dev nD) (b : Ref sig .tc) (h9 : b ∉ (hostOps6_W : List (Ref sig .tc)))
    (h8 : b ∉ ([main_v111_0, main_v111_1, main_v111_2] : List (Ref sig .tc))) : U17 m c b = U15 m c b :=
  (host6_keeps (U16 m c) b h9).trans (U16_of m c b h8)

/-- The row of means of `H`. -/
theorem U17_mean3 (c : Dev nD) : U17 m c main_v113 = Cert.Alg.meanRow (H3 m c) := by
  refine (host6_mean (U16 m c)).trans ?_
  funext i
  exact congrArg (fun s => Ideal.div s Cert.Alg.n100k) (congrFun (U16_sum3 m c) i)

/-- The row of variances of `H`: the mean of the squares minus the squared mean. -/
theorem U17_var3 (c : Dev nD) : U17 m c main_v117 = Cert.Alg.varRowK (H3 m c) := by
  refine (host6_var (U16 m c)).trans ?_
  funext i
  have h1 := congrFun (U16_sum3 m c) i
  have h2 := congrFun (U16_sumsq3 m c) i
  exact congrArg₂ (· - ·) (congrArg (fun s => Ideal.div s Cert.Alg.n100k) h2)
    (congrArg₂ (· * ·) (congrArg (fun s => Ideal.div s Cert.Alg.n100k) h1) (congrArg (fun s => Ideal.div s Cert.Alg.n100k) h1))

/-! ## After the normalise region -/

/-- THE LAYER'S RESULT: the batch normalisation of `H` with its own row of means and row of variances, the layer's scale and
    shift rows, the layer's input added, under the rectifier. -/
theorem layer3_core (c : Dev nD) : U18 m c main_v118
    = Cert.Alg.normG (Ideal.ofBits .f32 0x3727C5AC#32) (H3 m c) (U15 m c main_v89) (Cert.Alg.meanRow (H3 m c)) (Cert.Alg.varRowK (H3 m c))
        (U15 m c main_v107) (U15 m c main_v110) :=
  (U18_main_v118 m c).trans ((Pipeline.withArrays_arr spec6 launch6.win.arr_inj c _ _ 6).trans ((final6 (tcv (U17 m)) c).trans
    (normG_congr3 (U17_feat3 m c) (U17_keeps3 m c main_v89 (by decide) (by decide)) (U17_mean3 m c) (U17_var3 m c)
      (U17_keeps3 m c main_v107 (by decide) (by decide)) (U17_keeps3 m c main_v110 (by decide) (by decide)))))

/-- A buffer none of the three items writes is left as it was. -/
theorem U18_keeps3 (c : Dev nD) (b : Ref sig .tc) (h10 : b ∉ ([main_v118] : List (Ref sig .tc))) (h9 : b ∉ (hostOps6_W : List (Ref sig .tc)))
    (h8 : b ∉ ([main_v111_0, main_v111_1, main_v111_2] : List (Ref sig .tc))) : U18 m c b = U15 m c b :=
  (U18_of m c b h10).trans (U17_keeps3 m c b h9 h8)

theorem U18_main_v31 (c : Dev nD) : U18 m c main_v31 = U15 m c main_v31 := U18_keeps3 m c _ (by decide) (by decide) (by decide)
theorem U18_main_v1 (c : Dev nD) : U18 m c main_v1 = U15 m c main_v1 := U18_keeps3 m c _ (by decide) (by decide) (by decide)
theorem U18_main_v3 (c : Dev nD) : U18 m c main_v3 = U15 m c main_v3 := U18_keeps3 m c _ (by decide) (by decide) (by decide)
theorem U18_main_v29 (c : Dev nD) : U18 m c main_v29 = U15 m c main_v29 := U18_keeps3 m c _ (by decide) (by decide) (by decide)
theorem U18_main_arg4 (c : Dev nD) : U18 m c main_arg4 = U15 m c main_arg4 := U18_keeps3 m c _ (by decide) (by decide) (by decide)
theorem U18_main_arg5 (c : Dev nD) : U18 m c main_arg5 = U15 m c main_arg5 := U18_keeps3 m c _ (by decide) (by decide) (by decide)
theorem U18_main_arg6 (c : Dev nD) : U18 m c main_arg6 = U15 m c main_arg6 := U18_keeps3 m c _ (by decide) (by decide) (by decide)
theorem U18_main_arg7 (c : Dev nD) : U18 m c main_arg7 = U15 m c main_arg7 := U18_keeps3 m c _ (by decide) (by decide) (by decide)
theorem U18_main_arg8 (c : Dev nD) : U18 m c main_arg8 = U15 m c main_arg8 := U18_keeps3 m c _ (by decide) (by decide) (by decide)

end Cert.KernelIdeal.Hand

end
-- ==== Proof.KI.Pieces7.lean ====
/-
  Region 7: what each of the body's stores writes, read back as a value. At every point the big output block is the mixed
  and projected features of the two input blocks; the first scratch row is what it held (cleared rows at the first point)
  plus the block's column sums, the second likewise with the squares; the two small outputs are copies of the scratch rows.
-/
import proofs.«162064_j1357209666150_1_alg».proof.Proof.KI.R7
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

theorem hzz : (![0, 0] : Fin 2 → Nat) = fun _ => 0 := funext fun a => by fin_cases a <;> rfl

/-- A load of the whole buffer after stores the LAST of which wrote the whole buffer reads that last store's value. -/
theorem readCov_cons_whole {S : Shape} {e : EltTy} {κ : Kind} {sp : Space} (v : View sig κ sp S e) {off : Fin S.rank → Nat} (h : off = fun _ => 0)
    (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

set_option maxHeartbeats 4000000 in
theorem canon7_A_L3 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) :
    View.canon (kernelRun7_A c i a0 ha0 a1 ha1 a2 ha2 a3 ha3 a4 ha4 a5 ha5 s0 hs0 s1 hs1 hc x0 x1 x2).1 = k7_pay4 x0 x1 x2 := by
  unfold kernelRun7_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_A_LS0 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) :
    View.canon (kernelRun7_A c i a0 ha0 a1 ha1 a2 ha2 a3 ha3 a4 ha4 a5 ha5 s0 hs0 s1 hs1 hc x0 x1 x2).2.2.2.1 = k7_pay5 x0 x1 x2 (k7_pay2 (F := F)) := by
  unfold kernelRun7_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_A_LS1 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) :
    View.canon (kernelRun7_A c i a0 ha0 a1 ha1 a2 ha2 a3 ha3 a4 ha4 a5 ha5 s0 hs0 s1 hs1 hc x0 x1 x2).2.2.2.2.1 = k7_pay1 (k7_pay3 (F := F)) (k7_pay6 x0 x1 x2) := by
  unfold kernelRun7_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_A_L4 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) :
    View.canon (kernelRun7_A c i a0 ha0 a1 ha1 a2 ha2 a3 ha3 a4 ha4 a5 ha5 s0 hs0 s1 hs1 hc x0 x1 x2).2.1 = k7_pay5 x0 x1 x2 (k7_pay2 (F := F)) := by
  unfold kernelRun7_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_A_L5 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : cond7 i) (x0 : Vec F S10000x64 .f32) (x1 : Vec F S10000x64 .f32) (x2 : Vec F S64x64 .f32) :
    View.canon (kernelRun7_A c i a0 ha0 a1 ha1 a2 ha2 a3 ha3 a4 ha4 a5 ha5 s0 hs0 s1 hs1 hc x0 x1 x2).2.2.1 = k7_pay1 (k7_pay3 (F := F)) (k7_pay6 x0 x1 x2) := by
  unfold kernelRun7_A
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_B_L3 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) :
    View.canon (kernelRun7_B c i a0 ha0 a1 ha1 a2 ha2 a3 ha3 a4 ha4 a5 ha5 s0 hs0 s1 hs1 hc x0 x1 x2 p0 p1).1 = k7_pay4 x0 x1 x2 := by
  unfold kernelRun7_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_B_LS0 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) :
    View.canon (kernelRun7_B c i a0 ha0 a1 ha1 a2 ha2 a3 ha3 a4 ha4 a5 ha5 s0 hs0 s1 hs1 hc x0 x1 x2 p0 p1).2.2.2.1 = k7_pay5 x0 x1 x2 p0 := by
  unfold kernelRun7_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_B_LS1 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) :
    View.canon (kernelRun7_B c i a0 ha0 a1 ha1 a2 ha2 a3 ha3 a4 ha4 a5 ha5 s0 hs0 s1 hs1 hc x0 x1 x2 p0 p1).2.2.2.2.1 = k7_pay1 p1 (k7_pay6 x0 x1 x2) := by
  unfold kernelRun7_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_B_L4 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) :
    View.canon (kernelRun7_B c i a0 ha0 a1 ha1 a2 ha2 a3 ha3 a4 ha4 a5 ha5 s0 hs0 s1 hs1 hc x0 x1 x2 p0 p1).2.1 = k7_pay5 x0 x1 x2 p0 := by
  unfold kernelRun7_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

set_option maxHeartbeats 4000000 in
theorem canon7_B_L5 (c : Dev nD) (i : grid7.Coords) (a0 : Memref sig .tc .vmem S10000x64 .f32) (ha0 : a0.IsWhole) (a1 : Memref sig .tc .vmem S10000x64 .f32) (ha1 : a1.IsWhole) (a2 : Memref sig .tc .vmem S64x64 .f32) (ha2 : a2.IsWhole) (a3 : Memref sig .tc .vmem S10000x64 .f32) (ha3 : a3.IsWhole) (a4 : Memref sig .tc .vmem S1x64 .f32) (ha4 : a4.IsWhole) (a5 : Memref sig .tc .vmem S1x64 .f32) (ha5 : a5.IsWhole) (s0 : Memref sig .tc .vmem S1x64 .f32) (hs0 : s0.IsWhole) (s1 : Memref sig .tc .vmem S1x64 .f32) (hs1 : s1.IsWhole) (hc : ¬cond7 i) (x0 : Vec F S10000x64 .f32) (x1 : Vec F S10000x64 .f32) (x2 : Vec F S64x64 .f32) (p0 p1 : Vec F S1x64 .f32) :
    View.canon (kernelRun7_B c i a0 ha0 a1 ha1 a2 ha2 a3 ha3 a4 ha4 a5 ha5 s0 hs0 s1 hs1 hc x0 x1 x2 p0 p1).2.2.1 = k7_pay1 p1 (k7_pay6 x0 x1 x2) := by
  unfold kernelRun7_B
  dsimp only
  sl_unfold_words
  simp only [View.canon_cons_unit_zero (S := S1x64) hzz, View.canon_cons_unit_zero (S := S10000x64) hzz, View.canon_unit_zero (S := S1x64) hzz, View.canon_unit_zero (S := S10000x64) hzz, View.readCov_unit_zero (S := S1x64) _ hzz, readCov_cons_whole (S := S1x64) _ hzz, View.readAt_eq_ld, ha0.read_unread, ha1.read_unread, ha2.read_unread, hs0.read_unread, hs1.read_unread,
    View.ld_unit_zero (S := S10000x64) hzz, View.ld_unit_zero (S := S64x64) hzz, View.ld_unit_zero (S := S1x64) hzz]

end Cert.KernelIdeal.Hand

end
-- ==== Proof.KI.ValStats7.lean ====
/-
  Region 7: what the outputs and the two scratch rows hold after each grid point, as the body's arithmetic of the point's
  input blocks. The big output block is the mixed and projected features of the point's blocks. The first scratch row after
  the first point is the cleared row plus the block's column sums, after a later point what the point before left plus
  them; the second scratch row likewise with the squares; the two small outputs repeat the scratch rows.
-/
import proofs.«162064_j1357209666150_1_alg».proof.Proof.KI.Pieces7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

section
variable (V : (c : Dev nD) → (b : Ref sig .tc) → Buf (Elt F) ((c : Thread nD τ).loc b))

set_option maxHeartbeats 4000000 in
/-- At the first point. -/
theorem outs7_first (c : Dev nD) (t : Fin cfg7.N) (hz : t.val = 0) :
    outsAt7 V c t.val t.isLt
      = ((k7_pay4 (iblk7 V c 0 t) (iblk7 V c 1 t) (iblk7 V c 2 t), k7_pay5 (iblk7 V c 0 t) (iblk7 V c 1 t) (iblk7 V c 2 t) (k7_pay2 (F := F)), k7_pay1 (k7_pay3 (F := F)) (k7_pay6 (iblk7 V c 0 t) (iblk7 V c 1 t) (iblk7 V c 2 t))),
         (k7_pay5 (iblk7 V c 0 t) (iblk7 V c 1 t) (iblk7 V c 2 t) (k7_pay2 (F := F)), k7_pay1 (k7_pay3 (F := F)) (k7_pay6 (iblk7 V c 0 t) (iblk7 V c 1 t) (iblk7 V c 2 t)))) := by
  rw [outsAt7_A V c t hz]
  unfold resA7
  exact congrArg₂ Prod.mk (congrArg₂ Prod.mk (canon7_A_L3 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t)) (congrArg₂ Prod.mk (canon7_A_L4 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t)) (canon7_A_L5 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t))))
    (congrArg₂ Prod.mk (canon7_A_LS0 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t)) (canon7_A_LS1 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) ((hcond7 t).mpr hz) (iblk7 V c 0 t) (iblk7 V c 1 t) (iblk7 V c 2 t)))

set_option maxHeartbeats 4000000 in
/-- At a later point, from what the point before left in the scratch rows. -/
theorem outs7_later (c : Dev nD) (t : Fin cfg7.N) (hz : ¬t.val = 0) :
    outsAt7 V c t.val t.isLt
      = ((k7_pay4 (iblk7 V c 0 t) (iblk7 V c 1 t) (iblk7 V c 2 t), k7_pay5 (iblk7 V c 0 t) (iblk7 V c 1 t) (iblk7 V c 2 t) (outsAt7 V c (t.val - 1) (Nat.lt_of_le_of_lt (Nat.sub_le _ _) t.isLt)).2.1, k7_pay1 (outsAt7 V c (t.val - 1) (Nat.lt_of_le_of_lt (Nat.sub_le _ _) t.isLt)).2.2 (k7_pay6 (iblk7 V c 0 t) (iblk7 V c 1 t) (iblk7 V c 2 t))),
         (k7_pay5 (iblk7 V c 0 t) (iblk7 V c 1 t) (iblk7 V c 2 t) (outsAt7 V c (t.val - 1) (Nat.lt_of_le_of_lt (Nat.sub_le _ _) t.isLt)).2.1, k7_pay1 (outsAt7 V c (t.val - 1) (Nat.lt_of_le_of_lt (Nat.sub_le _ _) t.isLt)).2.2 (k7_pay6 (iblk7 V c 0 t) (iblk7 V c 1 t) (iblk7 V c 2 t)))) := by
  rw [outsAt7_B V c t hz]
  unfold resB7
  exact congrArg₂ Prod.mk (congrArg₂ Prod.mk (canon7_B_L3 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2) (congrArg₂ Prod.mk (canon7_B_L4 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2) (canon7_B_L5 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2)))
    (congrArg₂ Prod.mk (canon7_B_LS0 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2) (canon7_B_LS1 c (grid7.coords t) (st7_0 t) (hst7_0 t) (st7_1 t) (hst7_1 t) (st7_2 t) (hst7_2 t) (st7_3 t) (hst7_3 t) (st7_4 t) (hst7_4 t) (st7_5 t) (hst7_5 t) sc7_0 (Memref.isWhole_whole _) sc7_1 (Memref.isWhole_whole _) (fun h => hz ((hcond7 t).mp h)) (iblk7 V c 0 t) (iblk7 V c 1 t) (iblk7 V c 2 t) (outsAt7 V c (t.val - 1) (Nat.lt_of_le_of_lt (Nat.sub_le _ _) t.isLt)).2.1 (outsAt7 V c (t.val - 1) (Nat.lt_of_le_of_lt (Nat.sub_le _ _) t.isLt)).2.2))

/-- The big output block after ANY point: the features of the point's blocks. -/
theorem after7_3_eq (c : Dev nD) (t : Fin cfg7.N) : (dat7 V c).after 3 t = k7_pay4 (iblk7 V c 0 t) (iblk7 V c 1 t) (iblk7 V c 2 t) := by
  rw [after7_3]
  by_cases hz : t.val = 0
  · rw [outs7_first V c t hz]
  · rw [outs7_later V c t hz]

/-- The small outputs repeat the scratch rows, at every point. -/
theorem after7_4_eq (c : Dev nD) (t : Fin cfg7.N) : (dat7 V c).after 4 t = (outsAt7 V c t.val t.isLt).2.1 := by
  rw [after7_4]
  by_cases hz : t.val = 0
  · rw [outs7_first V c t hz]
  · rw [outs7_later V c t hz]
theorem after7_5_eq (c : Dev nD) (t : Fin cfg7.N) : (dat7 V c).after 5 t = (outsAt7 V c t.val t.isLt).2.2 := by
  rw [after7_5]
  by_cases hz : t.val = 0
  · rw [outs7_first V c t hz]
  · rw [outs7_later V c t hz]

end

end Cert.KernelIdeal.Hand

end
-- ==== Proof.KI.PayStats7.lean ====
/-
  Region 7's arithmetic at an index, on the extended reals. With `s = c1 · agg + c2 · x0` the stored block is, at row `p`
  and column `k`, `c3 · s (p, k) + c4 · ∑ j, s (p, j) · w (j, k)`; the first scratch row gains the block's column sums,
  the second the column sums of its squares; cleared rows are zero.
-/
import proofs.«162064_j1357209666150_1_alg».proof.Proof.Gen.KernelIdeal.Skeleton
import proofs.«162064_j1357209666150_1_alg».proof.Proof.LibPlainDot
import Idealize.ShloMosaic.PureOps.Ideal.Laws
import Idealize.ShloMosaic.Lib.ValueLayout
import Idealize.ShloMosaic.Lib.Pipeline.Value

noncomputable section

namespace Cert.KernelIdeal.Hand

open Cert.KernelIdeal Cert.KernelIdeal.Gen Idealize.ShloMosaic Idealize.ShloMosaic.ValueIdx

/-- The mixed features of one row block at `(p, j)`. -/
def mix7 (x0 x1 : Vec Ideal S10000x64 .f32) (p : Fin 10000) (j : Fin 64) : Ideal .f32 :=
  (Scalar.ofBits (F := Ideal) .f32 0x3F666666#32) * x0 (ix2 p j) + (Scalar.ofBits (F := Ideal) .f32 0x3DCCCCCD#32) * x1 (ix2 p j)

set_option maxHeartbeats 4000000 in
theorem pay4_7_apply (x0 x1 : Vec Ideal S10000x64 .f32) (x2 : Vec Ideal S64x64 .f32) (p : Fin 10000) (k : Fin 64) :
    k7_pay4 (F := Ideal) x0 x1 x2 (ix2 p k)
      = (Scalar.ofBits (F := Ideal) .f32 0x3F61D8F9#32) * mix7 x0 x1 p k + (Scalar.ofBits (F := Ideal) .f32 0x3DF1383B#32) * ∑ j : Fin 64, mix7 x0 x1 p j * x2 (ix2 j k) := by
  unfold k7_pay4
  simp only [shapeCast_self]
  refine congrArg₂ (· + ·) rfl ?_
  refine congrArg ((Scalar.ofBits (F := Ideal) .f32 0x3DF1383B#32) * ·) ?_
  refine (Cert.LibPlainDot.matmul_plain_zero_apply (M := 10000) (K := 64) (N := 64) none _ _ p k).trans ?_
  exact Finset.sum_congr rfl fun j _ => rfl

/-- A column sum of a row block: the lane reduction over axis 0 read at column `k`. -/
theorem colsum7_apply (src : FVec Ideal S10000x64 .f32) (k : Fin 64) :
    multiReduction .add [0] S64 src 0x00000000#32 reduces_S10000x64_S64 (.inl rfl) rfl (ix1 k) = ∑ p : Fin 10000, src (ix2 p k) := by
  refine (Ideal.multiReduction_add_single src 0x00000000#32 reduces_S10000x64_S64 (.inl rfl) rfl (ix1 k)).trans ?_
  refine Finset.sum_congr rfl fun p _ => congrArg src ?_
  funext a
  match a with
  | ⟨0, _⟩ => rfl
  | ⟨1, _⟩ => rfl

theorem pay5_7_apply (x0 x1 : Vec Ideal S10000x64 .f32) (x2 : Vec Ideal S64x64 .f32) (q : Vec Ideal S1x64 .f32) (k : Fin 64) :
    k7_pay5 (F := Ideal) x0 x1 x2 q (ix2 (0 : Fin 1) k) = q (ix2 (0 : Fin 1) k) + ∑ p : Fin 10000, k7_pay4 (F := Ideal) x0 x1 x2 (ix2 p k) := by
  unfold k7_pay5
  simp only [shapeCast_self]
  refine congrArg₂ (· + ·) rfl ?_
  refine (shapeCast_a_1a_apply _ _ (0 : Fin 1) k).trans ?_
  exact colsum7_apply _ k

theorem pay1_7_apply (x0 x1 : Vec Ideal S10000x64 .f32) (x2 : Vec Ideal S64x64 .f32) (q : Vec Ideal S1x64 .f32) (k : Fin 64) :
    k7_pay1 (F := Ideal) q (k7_pay6 (F := Ideal) x0 x1 x2) (ix2 (0 : Fin 1) k)
      = q (ix2 (0 : Fin 1) k) + ∑ p : Fin 10000, k7_pay4 (F := Ideal) x0 x1 x2 (ix2 p k) * k7_pay4 (F := Ideal) x0 x1 x2 (ix2 p k) := by
  unfold k7_pay1 k7_pay6
  simp only [shapeCast_self]
  refine congrArg₂ (· + ·) rfl ?_
  refine (shapeCast_a_1a_apply _ _ (0 : Fin 1) k).trans ?_
  exact (colsum7_apply _ k).trans (Finset.sum_congr rfl fun p _ => rfl)

theorem pay2_7_apply (i : S1x64.Idx) : k7_pay2 (F := Ideal) i = Ideal.ofBits .f32 0x00000000#32 := by
  unfold k7_pay2; simp only [shapeCast_self]; rfl
theorem pay3_7_apply (i : S1x64.Idx) : k7_pay3 (F := Ideal) i = Ideal.ofBits .f32 0x00000000#32 := by
  unfold k7_pay3; simp only [shapeCast_self]; rfl

end Cert.KernelIdeal.Hand

end
-- ==== Proof.KI.AccStats7.lean ====
/-
  Region 7, on the extended reals: after point `n` the first scratch row holds, at column `k`, the zero word plus the sum
  over the points `t ≤ n` of the column sums of the features of point `t`'s blocks; the second scratch row the same with the
  squares. By induction on `n`: the first point starts from cleared rows, every later point adds its block's sums to what
  the point before left.
-/
import proofs.«162064_j1357209666150_1_alg».proof.Proof.KI.ValStats7
import proofs.«162064_j1357209666150_1_alg».proof.Proof.KI.PayStats7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

/-- The column sum, at column `k`, of the features of point `t`'s blocks. -/
def blockSum7 (c : Dev nD) (k : Fin 64) (t : Fin cfg7.N) : Ideal .f32 :=
  ∑ p : Fin 10000, k7_pay4 (F := Ideal) (iblk7 V c 0 t) (iblk7 V c 1 t) (iblk7 V c 2 t) (ix2 p k)
/-- The same of the squares. -/
def blockSq7 (c : Dev nD) (k : Fin 64) (t : Fin cfg7.N) : Ideal .f32 :=
  ∑ p : Fin 10000, k7_pay4 (F := Ideal) (iblk7 V c 0 t) (iblk7 V c 1 t) (iblk7 V c 2 t) (ix2 p k) * k7_pay4 (F := Ideal) (iblk7 V c 0 t) (iblk7 V c 1 t) (iblk7 V c 2 t) (ix2 p k)

theorem acc7_sum (c : Dev nD) (k : Fin 64) : ∀ (n : ℕ) (hn : n < cfg7.N),
    (outsAt7 V c n hn).2.1 (ix2 (0 : Fin 1) k) = Ideal.ofBits .f32 0x00000000#32 + ∑ t : Fin (n + 1), blockSum7 V c k ⟨t.val, by omega⟩
  | 0, hn => by
    rw [show outsAt7 V c 0 hn = outsAt7 V c (⟨0, hn⟩ : Fin cfg7.N).val (⟨0, hn⟩ : Fin cfg7.N).isLt from rfl, outs7_first V c ⟨0, hn⟩ rfl]
    refine (pay5_7_apply _ _ _ _ k).trans ?_
    rw [pay2_7_apply, Fin.sum_univ_one]
    rfl
  | n + 1, hn => by
    rw [show outsAt7 V c (n + 1) hn = outsAt7 V c (⟨n + 1, hn⟩ : Fin cfg7.N).val (⟨n + 1, hn⟩ : Fin cfg7.N).isLt from rfl,
      outs7_later V c ⟨n + 1, hn⟩ (Nat.succ_ne_zero n)]
    refine (pay5_7_apply _ _ _ _ k).trans ?_
    rw [show (outsAt7 V c ((⟨n + 1, hn⟩ : Fin cfg7.N).val - 1) (Nat.lt_of_le_of_lt (Nat.sub_le _ _) (⟨n + 1, hn⟩ : Fin cfg7.N).isLt)).2.1 (ix2 (0 : Fin 1) k)
        = (outsAt7 V c n (Nat.lt_of_succ_lt hn)).2.1 (ix2 (0 : Fin 1) k) from rfl,
      acc7_sum c k n (Nat.lt_of_succ_lt hn), Fin.sum_univ_castSucc (n := n + 1), add_assoc]
    rfl

theorem acc7_sq (c : Dev nD) (k : Fin 64) : ∀ (n : ℕ) (hn : n < cfg7.N),
    (outsAt7 V c n hn).2.2 (ix2 (0 : Fin 1) k) = Ideal.ofBits .f32 0x00000000#32 + ∑ t : Fin (n + 1), blockSq7 V c k ⟨t.val, by omega⟩
  | 0, hn => by
    rw [show outsAt7 V c 0 hn = outsAt7 V c (⟨0, hn⟩ : Fin cfg7.N).val (⟨0, hn⟩ : Fin cfg7.N).isLt from rfl, outs7_first V c ⟨0, hn⟩ rfl]
    refine (pay1_7_apply _ _ _ _ k).trans ?_
    rw [pay3_7_apply, Fin.sum_univ_one]
    rfl
  | n + 1, hn => by
    rw [show outsAt7 V c (n + 1) hn = outsAt7 V c (⟨n + 1, hn⟩ : Fin cfg7.N).val (⟨n + 1, hn⟩ : Fin cfg7.N).isLt from rfl,
      outs7_later V c ⟨n + 1, hn⟩ (Nat.succ_ne_zero n)]
    refine (pay1_7_apply _ _ _ _ k).trans ?_
    rw [show (outsAt7 V c ((⟨n + 1, hn⟩ : Fin cfg7.N).val - 1) (Nat.lt_of_le_of_lt (Nat.sub_le _ _) (⟨n + 1, hn⟩ : Fin cfg7.N).isLt)).2.2 (ix2 (0 : Fin 1) k)
        = (outsAt7 V c n (Nat.lt_of_succ_lt hn)).2.2 (ix2 (0 : Fin 1) k) from rfl,
      acc7_sq c k n (Nat.lt_of_succ_lt hn), Fin.sum_univ_castSucc (n := n + 1), add_assoc]
    rfl

end

end Cert.KernelIdeal.Hand

end
-- ==== Proof.KI.FinStats7.lean ====
/-
  Region 7: the three output arrays after the ten grid points, on the extended reals. The big output is the layer's
  pre-normalisation features of the three input arrays (point `t` writes rows `10000·t …`; the ten row blocks tile the array).
  The two one-row outputs are written back once, after the last point, and then hold the zero word plus the sum over the ten
  points of the point's block column sums (of the features, and of their squares).
-/
import proofs.«162064_j1357209666150_1_alg».proof.Proof.KI.AccStats7
import proofs.«162064_j1357209666150_1_alg».proof.Proof.Alg.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

set_option maxHeartbeats 4000000 in
/-- WHAT POINT `t` WRITES BACK into the big output is block `t` of the features of the three input arrays. -/
theorem flushed7_3_eq (c : Dev nD) (t : Fin cfg7.N) :
    (dat7 (F := Ideal) V c).flushed 3 t = ((cfg7.win 3).blk t).view.read (Elt Ideal) (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) := by
  show (cfg7.win 3).cut (grid7.coords t) ((dat7 V c).after 3 t) = _
  rw [after7_3_eq]
  obtain ⟨e00, e01, e10, e11, e20, e21, e30, e31, -⟩ := idx_facts7 t
  funext j
  obtain ⟨p, q, rfl⟩ : ∃ (p : Fin 10000) (q : Fin 64), j = ix2 p q := ⟨j 0, j 1, eq_ix2 j⟩
  refine (pay4_7_apply _ _ _ p q).trans ?_
  change _ = (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) (((cfg7.win 3).blk t).view.emb (ix2 p q))
  unfold Cert.Alg.statsH Cert.Alg.mixS mix7
  refine congrArg₂ (· + ·) (congrArg ((Scalar.ofBits (F := Ideal) .f32 0x3F61D8F9#32) * ·) (congrArg₂ (· + ·) (congrArg ((Scalar.ofBits (F := Ideal) .f32 0x3F666666#32) * ·) ?_) (congrArg ((Scalar.ofBits (F := Ideal) .f32 0x3DCCCCCD#32) * ·) ?_)))
    (congrArg ((Scalar.ofBits (F := Ideal) .f32 0x3DF1383B#32) * ·) (Finset.sum_congr rfl fun j _ => congrArg₂ (· * ·) (congrArg₂ (· + ·) (congrArg ((Scalar.ofBits (F := Ideal) .f32 0x3F666666#32) * ·) ?_) (congrArg ((Scalar.ofBits (F := Ideal) .f32 0x3DCCCCCD#32) * ·) ?_)) ?_))
  · show V c (Pipeline.arrRef spec7 0) (((cfg7.win 0).blk t).view.emb (ix2 p q)) = _
    refine congrArg _ ?_
    funext a; apply Fin.ext
    match a with
    | ⟨0, _⟩ => show win7_0.index t (0 : Fin 2) * 10000 + 1 * p.val = win7_3.index t (0 : Fin 2) * 10000 + 1 * p.val; omega
    | ⟨1, _⟩ => show win7_0.index t (1 : Fin 2) * 64 + 1 * q.val = win7_3.index t (1 : Fin 2) * 64 + 1 * q.val; omega
  · show V c (Pipeline.arrRef spec7 1) (((cfg7.win 1).blk t).view.emb (ix2 p q)) = _
    refine congrArg _ ?_
    funext a; apply Fin.ext
    match a with
    | ⟨0, _⟩ => show win7_1.index t (0 : Fin 2) * 10000 + 1 * p.val = win7_3.index t (0 : Fin 2) * 10000 + 1 * p.val; omega
    | ⟨1, _⟩ => show win7_1.index t (1 : Fin 2) * 64 + 1 * q.val = win7_3.index t (1 : Fin 2) * 64 + 1 * q.val; omega
  · show V c (Pipeline.arrRef spec7 0) (((cfg7.win 0).blk t).view.emb (ix2 p j)) = _
    refine congrArg _ ?_
    funext a; apply Fin.ext
    match a with
    | ⟨0, _⟩ => show win7_0.index t (0 : Fin 2) * 10000 + 1 * p.val = win7_3.index t (0 : Fin 2) * 10000 + 1 * p.val; omega
    | ⟨1, _⟩ => show win7_0.index t (1 : Fin 2) * 64 + 1 * j.val = j.val; omega
  · show V c (Pipeline.arrRef spec7 1) (((cfg7.win 1).blk t).view.emb (ix2 p j)) = _
    refine congrArg _ ?_
    funext a; apply Fin.ext
    match a with
    | ⟨0, _⟩ => show win7_1.index t (0 : Fin 2) * 10000 + 1 * p.val = win7_3.index t (0 : Fin 2) * 10000 + 1 * p.val; omega
    | ⟨1, _⟩ => show win7_1.index t (1 : Fin 2) * 64 + 1 * j.val = j.val; omega
  · show V c (Pipeline.arrRef spec7 2) (((cfg7.win 2).blk t).view.emb (ix2 j q)) = _
    refine congrArg _ ?_
    funext a; apply Fin.ext
    match a with
    | ⟨0, _⟩ => show win7_2.index t (0 : Fin 2) * 64 + 1 * j.val = j.val; omega
    | ⟨1, _⟩ => show win7_2.index t (1 : Fin 2) * 64 + 1 * q.val = win7_3.index t (1 : Fin 2) * 64 + 1 * q.val; omega

theorem mem_blk7_3 (t : Fin cfg7.N) (i : S100000x64.Idx) :
    i ∈ ((cfg7.win 3).blk t).view.set ↔ ∀ a : Fin 2, win7_3.index t a * S10000x64.size a ≤ (i a).val ∧ (i a).val < win7_3.index t a * S10000x64.size a + S10000x64.size a := by
  show i ∈ ((View.whole (Pipeline.arrRef spec7 3)).slice (win7_3.rect t)).set ↔ _
  rw [View.set_slice_whole, Rect.mem_set_unit]
  exact Iff.rfl

theorem cover7_3 (i : S100000x64.Idx) : ∃ t : Fin cfg7.N, (cfg7.win 3).flush t = true ∧ i ∈ ((cfg7.win 3).blk t).view.set := by
  have hi0 : (i 0).val < 100000 := (i 0).isLt
  have hi1 : (i 1).val < 64 := (i 1).isLt
  have hN : cfg7.N = 10 := N_7
  have hlt : (i 0).val / 10000 < cfg7.N := by rw [hN]; omega
  obtain ⟨-, -, -, -, -, -, e30, e31, -⟩ := idx_facts7 ⟨(i 0).val / 10000, hlt⟩
  have e30' : win7_3.index ⟨(i 0).val / 10000, hlt⟩ (0 : Fin 2) = (i 0).val / 10000 := e30
  refine ⟨⟨(i 0).val / 10000, hlt⟩, flush7_3 _, ?_⟩
  rw [mem_blk7_3]
  intro a
  match a with
  | ⟨0, _⟩ => show win7_3.index ⟨(i 0).val / 10000, hlt⟩ (0 : Fin 2) * 10000 ≤ (i 0).val ∧ (i 0).val < win7_3.index ⟨(i 0).val / 10000, hlt⟩ (0 : Fin 2) * 10000 + 10000; omega
  | ⟨1, _⟩ => show win7_3.index ⟨(i 0).val / 10000, hlt⟩ (1 : Fin 2) * 64 ≤ (i 1).val ∧ (i 1).val < win7_3.index ⟨(i 0).val / 10000, hlt⟩ (1 : Fin 2) * 64 + 64; omega

/-- THE BIG OUTPUT after the region. -/
theorem final7_3 (c : Dev nD) : (dat7 (F := Ideal) V c).arrAt 3 cfg7.N = (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) :=
  (dat7 (F := Ideal) V c).arrAt_eq_of_cover 3 _ (fun t _ => flushed7_3_eq V c t) cover7_3

end

end Cert.KernelIdeal.Hand

end
-- ==== Proof.KI.FinSums7.lean ====
/-
  Region 7: the two one-row outputs after the ten grid points, on the extended reals. Each is written back once, after the
  last point, and then holds the zero word plus the sum over the ten points of the point's block column sums — of the
  features for the first, of their squares for the second.
-/
import proofs.«162064_j1357209666150_1_alg».proof.Proof.KI.FinStats7
import proofs.«162064_j1357209666150_1_alg».proof.Proof.LibTenBlocks
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

open Idealize.ShloMosaic.ValueIdx

section
variable (V : (c : Dev nD) → (b : Ref sig .tc) → Buf (Elt Ideal) ((c : Thread nD τ).loc b))

/-- The row the sum output ends with: the zero word plus the ten points' block sums. -/
def row7_4 (c : Dev nD) : S1x64.Idx → Ideal .f32 := fun i =>
  Ideal.ofBits .f32 0x00000000#32 + ∑ t : Fin 10, blockSum7 V c ⟨(i 1).val, (i 1).isLt⟩ ⟨t.val, by have h : cfg7.N = 10 := N_7; omega⟩

theorem mem_blk7_4 (t : Fin cfg7.N) (i : S1x64.Idx) :
    i ∈ ((cfg7.win 4).blk t).view.set ↔ ∀ a : Fin 2, win7_4.index t a * S1x64.size a ≤ (i a).val ∧ (i a).val < win7_4.index t a * S1x64.size a + S1x64.size a := by
  show i ∈ ((View.whole (Pipeline.arrRef spec7 4)).slice (win7_4.rect t)).set ↔ _
  rw [View.set_slice_whole, Rect.mem_set_unit]
  exact Iff.rfl

set_option maxHeartbeats 4000000 in
/-- The one write-back of the sum output, after the last point, writes that row. -/
theorem flushed7_4_eq (c : Dev nD) (t : Fin cfg7.N) (hf : (cfg7.win 4).flush t = true) :
    (dat7 (F := Ideal) V c).flushed 4 t = ((cfg7.win 4).blk t).view.read (Elt Ideal) (row7_4 V c) := by
  have hN : cfg7.N = 10 := N_7
  have h9lt : 9 < cfg7.N := by rw [hN]; decide
  have htlt : t.val < 10 := lt_of_lt_of_eq t.isLt hN
  have h9 : t.val = 9 := by have h := (flush7_4 t).mp hf; omega
  show (cfg7.win 4).cut (grid7.coords t) ((dat7 V c).after 4 t) = _
  rw [after7_4_eq]
  obtain ⟨-, -, -, -, -, -, -, -, e40, e41, e50, e51⟩ := idx_facts7 t
  funext j
  obtain ⟨u, q, rfl⟩ : ∃ (u : Fin 1) (q : Fin 64), j = ix2 u q := ⟨j 0, j 1, eq_ix2 j⟩
  have hu : u = 0 := Fin.ext (by omega)
  subst hu
  have hemb : ((cfg7.win 4).blk t).view.emb (ix2 (0 : Fin 1) q) = ix2 (0 : Fin 1) q := by
    funext a; apply Fin.ext
    match a with
    | ⟨0, _⟩ => show win7_4.index t (0 : Fin 2) * 1 + 1 * 0 = 0; omega
    | ⟨1, _⟩ => show win7_4.index t (1 : Fin 2) * 64 + 1 * q.val = q.val; omega
  change _ = row7_4 V c (((cfg7.win 4).blk t).view.emb (ix2 (0 : Fin 1) q))
  rw [hemb]
  have ht : t = ⟨9, h9lt⟩ := Fin.ext h9
  subst ht
  exact acc7_sum V c q 9 h9lt

theorem cover7_4 (i : S1x64.Idx) : ∃ t : Fin cfg7.N, (cfg7.win 4).flush t = true ∧ i ∈ ((cfg7.win 4).blk t).view.set := by
  have hi0 : (i 0).val < 1 := (i 0).isLt
  have hi1 : (i 1).val < 64 := (i 1).isLt
  have hN : cfg7.N = 10 := N_7
  have hlt : 9 < cfg7.N := by omega
  obtain ⟨-, -, -, -, -, -, -, -, e40, e41, e50, e51⟩ := idx_facts7 ⟨9, hlt⟩
  refine ⟨⟨9, hlt⟩, (flush7_4 _).mpr rfl, ?_⟩
  rw [mem_blk7_4]
  intro a
  match a with
  | ⟨0, _⟩ => show win7_4.index ⟨9, hlt⟩ (0 : Fin 2) * 1 ≤ (i 0).val ∧ (i 0).val < win7_4.index ⟨9, hlt⟩ (0 : Fin 2) * 1 + 1; omega
  | ⟨1, _⟩ => show win7_4.index ⟨9, hlt⟩ (1 : Fin 2) * 64 ≤ (i 1).val ∧ (i 1).val < win7_4.index ⟨9, hlt⟩ (1 : Fin 2) * 64 + 64; omega

/-- THE SUM OUTPUT after the region. -/
theorem final7_4 (c : Dev nD) : (dat7 (F := Ideal) V c).arrAt 4 cfg7.N = row7_4 V c :=
  (dat7 (F := Ideal) V c).arrAt_eq_of_cover 4 _ (fun t hf => flushed7_4_eq V c t hf) cover7_4

/-- The row the sum-of-squares output ends with: the zero word plus the ten points' block sums. -/
def row7_5 (c : Dev nD) : S1x64.Idx → Ideal .f32 := fun i =>
  Ideal.ofBits .f32 0x00000000#32 + ∑ t : Fin 10, blockSq7 V c ⟨(i 1).val, (i 1).isLt⟩ ⟨t.val, by have h : cfg7.N = 10 := N_7; omega⟩

theorem mem_blk7_5 (t : Fin cfg7.N) (i : S1x64.Idx) :
    i ∈ ((cfg7.win 5).blk t).view.set ↔ ∀ a : Fin 2, win7_5.index t a * S1x64.size a ≤ (i a).val ∧ (i a).val < win7_5.index t a * S1x64.size a + S1x64.size a := by
  show i ∈ ((View.whole (Pipeline.arrRef spec7 5)).slice (win7_5.rect t)).set ↔ _
  rw [View.set_slice_whole, Rect.mem_set_unit]
  exact Iff.rfl

set_option maxHeartbeats 4000000 in
/-- The one write-back of the sum-of-squares output, after the last point, writes that row. -/
theorem flushed7_5_eq (c : Dev nD) (t : Fin cfg7.N) (hf : (cfg7.win 5).flush t = true) :
    (dat7 (F := Ideal) V c).flushed 5 t = ((cfg7.win 5).blk t).view.read (Elt Ideal) (row7_5 V c) := by
  have hN : cfg7.N = 10 := N_7
  have h9lt : 9 < cfg7.N := by rw [hN]; decide
  have htlt : t.val < 10 := lt_of_lt_of_eq t.isLt hN
  have h9 : t.val = 9 := by have h := (flush7_5 t).mp hf; omega
  show (cfg7.win 5).cut (grid7.coords t) ((dat7 V c).after 5 t) = _
  rw [after7_5_eq]
  obtain ⟨-, -, -, -, -, -, -, -, e40, e41, e50, e51⟩ := idx_facts7 t
  funext j
  obtain ⟨u, q, rfl⟩ : ∃ (u : Fin 1) (q : Fin 64), j = ix2 u q := ⟨j 0, j 1, eq_ix2 j⟩
  have hu : u = 0 := Fin.ext (by omega)
  subst hu
  have hemb : ((cfg7.win 5).blk t).view.emb (ix2 (0 : Fin 1) q) = ix2 (0 : Fin 1) q := by
    funext a; apply Fin.ext
    match a with
    | ⟨0, _⟩ => show win7_5.index t (0 : Fin 2) * 1 + 1 * 0 = 0; omega
    | ⟨1, _⟩ => show win7_5.index t (1 : Fin 2) * 64 + 1 * q.val = q.val; omega
  change _ = row7_5 V c (((cfg7.win 5).blk t).view.emb (ix2 (0 : Fin 1) q))
  rw [hemb]
  have ht : t = ⟨9, h9lt⟩ := Fin.ext h9
  subst ht
  exact acc7_sq V c q 9 h9lt

theorem cover7_5 (i : S1x64.Idx) : ∃ t : Fin cfg7.N, (cfg7.win 5).flush t = true ∧ i ∈ ((cfg7.win 5).blk t).view.set := by
  have hi0 : (i 0).val < 1 := (i 0).isLt
  have hi1 : (i 1).val < 64 := (i 1).isLt
  have hN : cfg7.N = 10 := N_7
  have hlt : 9 < cfg7.N := by omega
  obtain ⟨-, -, -, -, -, -, -, -, e40, e41, e50, e51⟩ := idx_facts7 ⟨9, hlt⟩
  refine ⟨⟨9, hlt⟩, (flush7_5 _).mpr rfl, ?_⟩
  rw [mem_blk7_5]
  intro a
  match a with
  | ⟨0, _⟩ => show win7_5.index ⟨9, hlt⟩ (0 : Fin 2) * 1 ≤ (i 0).val ∧ (i 0).val < win7_5.index ⟨9, hlt⟩ (0 : Fin 2) * 1 + 1; omega
  | ⟨1, _⟩ => show win7_5.index ⟨9, hlt⟩ (1 : Fin 2) * 64 ≤ (i 1).val ∧ (i 1).val < win7_5.index ⟨9, hlt⟩ (1 : Fin 2) * 64 + 64; omega

/-- THE SUM-OF-SQUARES OUTPUT after the region. -/
theorem final7_5 (c : Dev nD) : (dat7 (F := Ideal) V c).arrAt 5 cfg7.N = row7_5 V c :=
  (dat7 (F := Ideal) V c).arrAt_eq_of_cover 5 _ (fun t hf => flushed7_5_eq V c t hf) cover7_5

/-! ## The block sums are the column sums of the whole feature array -/

/-- The features of point `t`'s blocks at `(p, k)` are the whole feature array's entry at row `10000·t + p`. -/
theorem pay4_7_whole (c : Dev nD) (k : Fin 64) (t : Fin cfg7.N) (p : Fin 10000) :
    k7_pay4 (F := Ideal) (iblk7 V c 0 t) (iblk7 V c 1 t) (iblk7 V c 2 t) (ix2 p k) = (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) (ix2 (⟨10000 * t.val + p.val, by have h : cfg7.N = 10 := N_7; have := t.isLt; have := p.isLt; omega⟩ : Fin 100000) k) := by
  have hfl := congrFun (flushed7_3_eq V c t) (ix2 p k)
  have h1 : (dat7 (F := Ideal) V c).flushed 3 t (ix2 p k) = k7_pay4 (F := Ideal) (iblk7 V c 0 t) (iblk7 V c 1 t) (iblk7 V c 2 t) (ix2 p k) := by
    show (cfg7.win 3).cut (grid7.coords t) ((dat7 V c).after 3 t) (ix2 p k) = _
    rw [after7_3_eq]
    rfl
  rw [← h1, hfl]
  obtain ⟨-, -, -, -, -, -, e30, e31, -⟩ := idx_facts7 t
  show (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) (((cfg7.win 3).blk t).view.emb (ix2 p k)) = _
  refine congrArg _ ?_
  funext a; apply Fin.ext
  match a with
  | ⟨0, _⟩ => show win7_3.index t (0 : Fin 2) * 10000 + 1 * p.val = 10000 * t.val + p.val; omega
  | ⟨1, _⟩ => show win7_3.index t (1 : Fin 2) * 64 + 1 * k.val = k.val; omega

theorem row7_4_eq (c : Dev nD) : row7_4 V c = Cert.Alg.colSum (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) := by
  funext i
  obtain ⟨u, q, rfl⟩ : ∃ (u : Fin 1) (q : Fin 64), i = ix2 u q := ⟨i 0, i 1, eq_ix2 i⟩
  unfold row7_4 Cert.Alg.colSum
  rw [Ideal.ofBits_zero_f32, zero_add, Cert.LibTenBlocks.sum_blocks_100000 (fun r => (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) (ix2 r q))]
  refine Finset.sum_congr rfl fun t _ => ?_
  unfold blockSum7
  exact Finset.sum_congr rfl fun p _ => pay4_7_whole V c q ⟨t.val, by have h : cfg7.N = 10 := N_7; omega⟩ p

theorem row7_5_eq (c : Dev nD) : row7_5 V c = Cert.Alg.colSum (fun j => (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) j * (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) j) := by
  funext i
  obtain ⟨u, q, rfl⟩ : ∃ (u : Fin 1) (q : Fin 64), i = ix2 u q := ⟨i 0, i 1, eq_ix2 i⟩
  unfold row7_5 Cert.Alg.colSum
  rw [Ideal.ofBits_zero_f32, zero_add, Cert.LibTenBlocks.sum_blocks_100000 (fun r => (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) (ix2 r q) * (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) (ix2 r q))]
  refine Finset.sum_congr rfl fun t _ => ?_
  unfold blockSq7
  exact Finset.sum_congr rfl fun p _ => congrArg₂ (· * ·) (pay4_7_whole V c q ⟨t.val, by have h : cfg7.N = 10 := N_7; omega⟩ p) (pay4_7_whole V c q ⟨t.val, by have h : cfg7.N = 10 := N_7; omega⟩ p)

/-- THE SUM OUTPUT after the region: the column sums of the whole feature array. -/
theorem final7_4c (c : Dev nD) : (dat7 (F := Ideal) V c).arrAt 4 cfg7.N = Cert.Alg.colSum (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) :=
  (final7_4 V c).trans (row7_4_eq V c)
/-- THE SUM-OF-SQUARES OUTPUT after the region. -/
theorem final7_5c (c : Dev nD) : (dat7 (F := Ideal) V c).arrAt 5 cfg7.N = Cert.Alg.colSum (fun j => (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) j * (Cert.Alg.statsH (Scalar.ofBits (F := Ideal) .f32 0x3F666666#32) (Scalar.ofBits (F := Ideal) .f32 0x3DCCCCCD#32) (Scalar.ofBits (F := Ideal) .f32 0x3F61D8F9#32) (Scalar.ofBits (F := Ideal) .f32 0x3DF1383B#32) (V c (Pipeline.arrRef spec7 0)) (V c (Pipeline.arrRef spec7 1)) (V c (Pipeline.arrRef spec7 2))) j) :=
  (final7_5 V c).trans (row7_5_eq V c)

end

end Cert.KernelIdeal.Hand

end
-- ==== Proof.KI.Host8.lean ====
/-
  The host stretch after the fourth statistics region, read back over the extended reals from any buffer
  contents `W` it starts from. The stretch divides the row of column sums and the row of column sums of squares by the
  count 100000 (the word `0x47C35000`, broadcast over the row), squares the first quotient and subtracts it from the
  second: it leaves the row of means  S1 / n  and the row of variances  S2 / n − (S1 / n) · (S1 / n). Every buffer
  the stretch does not write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

/-- The row of means the stretch leaves: each column sum divided by the count. -/
theorem host8_mean (W : Valuation τ sig (Elt Ideal)) :
    StableHlo.after hostOps8 W (Proc.devRef .tc main_v142) = fun i => Ideal.div (W main_v140_1 i) Cert.Alg.n100k := by
  after_results
  rfl

/-- The row of variances the stretch leaves: the mean of the squares minus the squared mean. -/
theorem host8_var (W : Valuation τ sig (Elt Ideal)) :
    StableHlo.after hostOps8 W (Proc.devRef .tc main_v146)
      = fun i => Ideal.div (W main_v140_2 i) Cert.Alg.n100k
          - Ideal.div (W main_v140_1 i) Cert.Alg.n100k * Ideal.div (W main_v140_1 i) Cert.Alg.n100k := by
  after_results
  rfl

/-- A buffer the stretch does not write keeps its contents. -/
theorem host8_keeps (W : Valuation τ sig (Elt Ideal)) (r : Ref sig .tc) (h : r ∉ (hostOps8_W : List (Ref sig .tc))) :
    StableHlo.after hostOps8 W (Proc.devRef .tc r) = W (Proc.devRef .tc r) :=
  StableHlo.after_of_writes_sub hostOps8 W hostOps8_writes h

end Cert.KernelIdeal.Hand

end
-- ==== Proof.KI.Val8.lean ====
/-
  The value of region 8's output array (batch normalisation with a given mean row and variance row, the residual added, under
  the rectifier), on the extended reals: after the region's ten grid points the array holds, at row `r` and column `k`, the
  larger of zero and `((h (r, k) - mean k) * rsqrt (var k + eps)) * gamma k + beta k + x (r, k)`, with `h` the features to
  normalise, `x` the residual and `eps` the constant the body adds to the variance. Point `t` writes rows
  `10000·t … 10000·t + 9999`; the ten row blocks tile the array.
-/
import proofs.«162064_j1357209666150_1_alg».proof.Proof.KI.R8
import proofs.«162064_j1357209666150_1_alg».proof.Proof.Alg.Spec
import Idealize.ShloMosaic.Lib.ValueLayout
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

section
variable (V : (c : Dev nD) → (b : Ref sig .tc) → Buf (Elt Ideal) ((c : Thread nD τ).loc b))

theorem hz8 : (![0, 0] : Fin 2 → Nat) = fun _ => 0 := funext fun a => by fin_cases a <;> rfl

/-- The constant the body adds to the variance row. -/
abbrev eps8 : Cert.Alg.E := Ideal.ofBits .f32 0x3727C5AC#32

/-- The payload at an index: row `p`, column `k` is the larger of the zero word and the normalised entry
    `((x0 (p, k) - m k) * rsqrt (v k + eps)) * g k + b k` plus the residual's entry `(p, k)` (the shape casts are the identity,
    each row is read at its column whatever the row of the block). -/
theorem pay8_apply (x0 : Vec Ideal S10000x64 .f32) (m v g b : Vec Ideal S1x64 .f32) (xin : Vec Ideal S10000x64 .f32) (p : Fin 10000) (k : Fin 64) :
    k8_pay1 (F := Ideal) x0 m v g b xin (ix2 p k)
      = max ((((x0 (ix2 p k) - m (ix2 0 k)) * Ideal.rsqrt (v (ix2 0 k) + eps8)) * g (ix2 0 k) + b (ix2 0 k)) + xin (ix2 p k)) Cert.Alg.z0 := by
  unfold k8_pay1
  refine (maximumf_apply _ _ _).trans ?_
  refine congrArg₂ max ?_ rfl
  refine (addf_apply _ _ _).trans ?_
  refine congrArg₂ (· + ·) ?_ ?_
  · refine (addf_apply _ _ _).trans ?_
    refine congrArg₂ (· + ·) ?_ ?_
    · refine (mulf_apply _ _ _).trans ?_
      refine congrArg₂ (· * ·) ?_ ?_
      · refine (mulf_apply _ _ _).trans ?_
        refine congrArg₂ (· * ·) ?_ ?_
        · refine (subf_apply _ _ _).trans ?_
          refine congrArg₂ (· - ·) ?_ ?_
          · rw [shapeCast_self]
          · rw [shapeCast_self]
            exact broadcastTo_1b_ab_apply _ _ p k
        · refine (broadcastTo_1b_ab_apply _ _ p k).trans ?_
          rw [shapeCast_self]
          rfl
      · rw [shapeCast_self]
        exact broadcastTo_1b_ab_apply _ _ p k
    · rw [shapeCast_self]
      exact broadcastTo_1b_ab_apply _ _ p k
  · rw [shapeCast_self]

/-- The output block as a function of the input blocks, at an index (the body loads the residual block last). -/
theorem out8_6_apply (x0 x1 : Vec Ideal S10000x64 .f32) (x2 x3 x4 x5 : Vec Ideal S1x64 .f32) (p : Fin 10000) (k : Fin 64) :
    out8_6 (F := Ideal) x0 x1 x2 x3 x4 x5 (ix2 p k)
      = max ((((x0 (ix2 p k) - x2 (ix2 0 k)) * Ideal.rsqrt (x3 (ix2 0 k) + eps8)) * x4 (ix2 0 k) + x5 (ix2 0 k)) + x1 (ix2 p k)) Cert.Alg.z0 := by
  unfold out8_6
  rw [View.canon_unit_zero hz8]
  simp only [View.ld_unit_zero (S := S10000x64) hz8, View.ld_unit_zero (S := S1x64) hz8]
  exact pay8_apply x0 x2 x3 x4 x5 x1 p k

/-- The printed index maps, decided over the grid: the row-tiled windows' block index is the point, the rows' is zero. -/
theorem idx_facts8 : ∀ t : Fin cfg8.N, win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

set_option maxHeartbeats 4000000 in
/-- WHAT POINT `t` WRITES BACK is block `t` of the normalised, residual-added, rectified array of the six input arrays as
    the region finds them. -/
theorem flushed8_eq (c : Dev nD) (t : Fin cfg8.N) :
    (dat8 (F := Ideal) V c).flushed 6 t = ((cfg8.win 6).blk t).view.read (Elt Ideal)
      (Cert.Alg.normG eps8 (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5))) := by
  show (cfg8.win 6).cut (grid8.coords t) ((dat8 V c).after 6 t) = _
  rw [after8_6]
  obtain ⟨e00, e01, e10, e11, e20, e21, e30, e31, e40, e41, e50, e51, e60, e61⟩ := idx_facts8 t
  funext j
  obtain ⟨p, q, rfl⟩ : ∃ (p : Fin 10000) (q : Fin 64), j = ix2 p q := ⟨j 0, j 1, eq_ix2 j⟩
  refine (out8_6_apply _ _ _ _ _ _ p q).trans ?_
  change _ = Cert.Alg.normG eps8 (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))
    (((cfg8.win 6).blk t).view.emb (ix2 p q))
  unfold Cert.Alg.normG
  have h0 : ((cfg8.win 0).blk t).view.emb (ix2 p q) = ((cfg8.win 6).blk t).view.emb (ix2 p q) := by
    funext a; apply Fin.ext
    match a with
    | ⟨0, _⟩ => show win8_0.index t (0 : Fin 2) * 10000 + 1 * p.val = win8_6.index t (0 : Fin 2) * 10000 + 1 * p.val; omega
    | ⟨1, _⟩ => show win8_0.index t (1 : Fin 2) * 64 + 1 * q.val = win8_6.index t (1 : Fin 2) * 64 + 1 * q.val; omega
  have h1 : ((cfg8.win 1).blk t).view.emb (ix2 p q) = ((cfg8.win 6).blk t).view.emb (ix2 p q) := by
    funext a; apply Fin.ext
    match a with
    | ⟨0, _⟩ => show win8_1.index t (0 : Fin 2) * 10000 + 1 * p.val = win8_6.index t (0 : Fin 2) * 10000 + 1 * p.val; omega
    | ⟨1, _⟩ => show win8_1.index t (1 : Fin 2) * 64 + 1 * q.val = win8_6.index t (1 : Fin 2) * 64 + 1 * q.val; omega
  have h2 : ((cfg8.win 2).blk t).view.emb (ix2 0 q) = ix2 (0 : Fin 1) (((cfg8.win 6).blk t).view.emb (ix2 p q) 1) := by
    funext a; apply Fin.ext
    match a with
    | ⟨0, _⟩ => show win8_2.index t (0 : Fin 2) * 1 + 1 * 0 = 0; omega
    | ⟨1, _⟩ => show win8_2.index t (1 : Fin 2) * 64 + 1 * q.val = win8_6.index t (1 : Fin 2) * 64 + 1 * q.val; omega
  have h3 : ((cfg8.win 3).blk t).view.emb (ix2 0 q) = ix2 (0 : Fin 1) (((cfg8.win 6).blk t).view.emb (ix2 p q) 1) := by
    funext a; apply Fin.ext
    match a with
    | ⟨0, _⟩ => show win8_3.index t (0 : Fin 2) * 1 + 1 * 0 = 0; omega
    | ⟨1, _⟩ => show win8_3.index t (1 : Fin 2) * 64 + 1 * q.val = win8_6.index t (1 : Fin 2) * 64 + 1 * q.val; omega
  have h4 : ((cfg8.win 4).blk t).view.emb (ix2 0 q) = ix2 (0 : Fin 1) (((cfg8.win 6).blk t).view.emb (ix2 p q) 1) := by
    funext a; apply Fin.ext
    match a with
    | ⟨0, _⟩ => show win8_4.index t (0 : Fin 2) * 1 + 1 * 0 = 0; omega
    | ⟨1, _⟩ => show win8_4.index t (1 : Fin 2) * 64 + 1 * q.val = win8_6.index t (1 : Fin 2) * 64 + 1 * q.val; omega
  have h5 : ((cfg8.win 5).blk t).view.emb (ix2 0 q) = ix2 (0 : Fin 1) (((cfg8.win 6).blk t).view.emb (ix2 p q) 1) := by
    funext a; apply Fin.ext
    match a with
    | ⟨0, _⟩ => show win8_5.index t (0 : Fin 2) * 1 + 1 * 0 = 0; omega
    | ⟨1, _⟩ => show win8_5.index t (1 : Fin 2) * 64 + 1 * q.val = win8_6.index t (1 : Fin 2) * 64 + 1 * q.val; omega
  refine congrArg₂ max (congrArg₂ (· + ·) (congrArg₂ (· + ·) (congrArg₂ (· * ·) (congrArg₂ (· * ·) (congrArg₂ (· - ·) ?_ ?_) (congrArg Ideal.rsqrt (congrArg₂ (· + ·) ?_ rfl))) ?_) ?_) ?_) rfl
  · show V c (Pipeline.arrRef spec8 0) (((cfg8.win 0).blk t).view.emb (ix2 p q)) = _
    exact congrArg _ h0
  · show V c (Pipeline.arrRef spec8 2) (((cfg8.win 2).blk t).view.emb (ix2 0 q)) = _
    exact congrArg _ h2
  · show V c (Pipeline.arrRef spec8 3) (((cfg8.win 3).blk t).view.emb (ix2 0 q)) = _
    exact congrArg _ h3
  · show V c (Pipeline.arrRef spec8 4) (((cfg8.win 4).blk t).view.emb (ix2 0 q)) = _
    exact congrArg _ h4
  · show V c (Pipeline.arrRef spec8 5) (((cfg8.win 5).blk t).view.emb (ix2 0 q)) = _
    exact congrArg _ h5
  · show V c (Pipeline.arrRef spec8 1) (((cfg8.win 1).blk t).view.emb (ix2 p q)) = _
    exact congrArg _ h1

/-- An index of the array is in point `t`'s block iff each coordinate is in the block's range on its axis. -/
theorem mem_blk8 (t : Fin cfg8.N) (i : S100000x64.Idx) :
    i ∈ ((cfg8.win 6).blk t).view.set ↔ ∀ a : Fin 2, win8_6.index t a * S10000x64.size a ≤ (i a).val ∧ (i a).val < win8_6.index t a * S10000x64.size a + S10000x64.size a := by
  show i ∈ ((View.whole main_v147).slice (win8_6.rect t)).set ↔ _
  rw [View.set_slice_whole, Rect.mem_set_unit]
  exact Iff.rfl

/-- The ten row blocks tile the array: row `r` is in the block of point `r / 10000`. -/
theorem cover8 (i : S100000x64.Idx) : ∃ t : Fin cfg8.N, (cfg8.win 6).flush t = true ∧ i ∈ ((cfg8.win 6).blk t).view.set := by
  have hi0 : (i 0).val < 100000 := (i 0).isLt
  have hi1 : (i 1).val < 64 := (i 1).isLt
  have hN : cfg8.N = 10 := N_8
  have hlt : (i 0).val / 10000 < cfg8.N := by rw [hN]; omega
  obtain ⟨-, -, -, -, -, -, -, -, -, -, -, -, e60, e61⟩ := idx_facts8 ⟨(i 0).val / 10000, hlt⟩
  have e60' : win8_6.index ⟨(i 0).val / 10000, hlt⟩ (0 : Fin 2) = (i 0).val / 10000 := e60
  refine ⟨⟨(i 0).val / 10000, hlt⟩, flush8_6 _, ?_⟩
  rw [mem_blk8]
  intro a
  match a with
  | ⟨0, _⟩ => show win8_6.index ⟨(i 0).val / 10000, hlt⟩ (0 : Fin 2) * 10000 ≤ (i 0).val ∧ (i 0).val < win8_6.index ⟨(i 0).val / 10000, hlt⟩ (0 : Fin 2) * 10000 + 10000; omega
  | ⟨1, _⟩ => show win8_6.index ⟨(i 0).val / 10000, hlt⟩ (1 : Fin 2) * 64 ≤ (i 1).val ∧ (i 1).val < win8_6.index ⟨(i 0).val / 10000, hlt⟩ (1 : Fin 2) * 64 + 64; omega

/-- THE ARRAY after the region: batch normalisation of the first input array with the given mean, variance, scale and shift
    rows, the second input array added, under the rectifier. -/
theorem final8 (c : Dev nD) : (dat8 (F := Ideal) V c).arrAt 6 cfg8.N
    = Cert.Alg.normG (Ideal.ofBits .f32 0x3727C5AC#32) (V c (Pipeline.arrRef spec8 0)) (V c (Pipeline.arrRef spec8 1)) (V c (Pipeline.arrRef spec8 2))
        (V c (Pipeline.arrRef spec8 3)) (V c (Pipeline.arrRef spec8 4)) (V c (Pipeline.arrRef spec8 5)) :=
  (dat8 (F := Ideal) V c).arrAt_eq_of_cover 6 _ (fun t _ => flushed8_eq V c t) cover8

end

end Cert.KernelIdeal.Hand

end
-- ==== Proof.KI.Layer4.lean ====
/-
  Layer 4 of the network, kernel side, read off the boundary contents. The fourth statistics region leaves the layer's
  pre-normalisation features `H` of the three arrays it finds, with the row of column sums of `H` and the row of column sums of
  its squares; the host stretch after it divides the two rows by the count of rows and leaves the row of means and the row
  of variances (mean of the squares minus the squared mean) of `H`; the normalise region then leaves, in its result buffer,
  the batch normalisation of `H` with those two rows, the layer's scale and shift rows, the layer's input added, under the
  rectifier. Every buffer none of the three items writes is left as it was.
-/
import proofs.«162064_j1357209666150_1_alg».proof.Proof.KI.Chain
import proofs.«162064_j1357209666150_1_alg».proof.Proof.KI.Seg7
import proofs.«162064_j1357209666150_1_alg».proof.Proof.KI.Seg8
import proofs.«162064_j1357209666150_1_alg».proof.Proof.KI.FinStats7
import proofs.«162064_j1357209666150_1_alg».proof.Proof.KI.FinSums7
import proofs.«162064_j1357209666150_1_alg».proof.Proof.KI.Host8
import proofs.«162064_j1357209666150_1_alg».proof.Proof.KI.Val8
import proofs.«162064_j1357209666150_1_alg».proof.Proof.Alg.Layer

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Layer 4's pre-normalisation features of the aggregated features, the initial features and the layer's weights as the
    fourth statistics region finds them. -/
abbrev H4 (c : Dev nD) : Cert.Alg.SN64.Idx → Cert.Alg.E :=
  Cert.Alg.statsH (Scalar.ofBits (F := Ideal) .f32 0x3F666666#32) (Scalar.ofBits (F := Ideal) .f32 0x3DCCCCCD#32)
    (Scalar.ofBits (F := Ideal) .f32 0x3F61D8F9#32) (Scalar.ofBits (F := Ideal) .f32 0x3DF1383B#32)
    (U19 m c main_v131) (U19 m c main_v31) (U19 m c main_v133)

/-- The normalisation reads its six arrays only through their values. -/
theorem normG_congr4 {eps : Cert.Alg.E} {h h' x x' : Cert.Alg.SN64.Idx → Cert.Alg.E} {mu mu' va va' g g' b b' : Cert.Alg.S1x64'.Idx → Cert.Alg.E}
    (e0 : h = h') (e1 : x = x') (e2 : mu = mu') (e3 : va = va') (e4 : g = g') (e5 : b = b') :
    Cert.Alg.normG eps h x mu va g b = Cert.Alg.normG eps h' x' mu' va' g' b' := by
  rw [e0, e1, e2, e3, e4, e5]

/-! ## After the statistics region -/

/-- The features buffer holds `H`. -/
theorem U20_feat4 (c : Dev nD) : U20 m c main_v140_0 = H4 m c :=
  (U20_main_v140_0 m c).trans ((Pipeline.withArrays_arr spec7 launch7.win.arr_inj c _ _ 3).trans (final7_3 (tcv (U19 m)) c))

/-- The first row holds the column sums of `H`. -/
theorem U20_sum4 (c : Dev nD) : U20 m c main_v140_1 = Cert.Alg.colSum (H4 m c) :=
  (U20_main_v140_1 m c).trans ((Pipeline.withArrays_arr spec7 launch7.win.arr_inj c _ _ 4).trans (final7_4c (tcv (U19 m)) c))

/-- The second row holds the column sums of the squares of `H`. -/
theorem U20_sumsq4 (c : Dev nD) : U20 m c main_v140_2 = Cert.Alg.colSum (fun j => H4 m c j * H4 m c j) :=
  (U20_main_v140_2 m c).trans ((Pipeline.withArrays_arr spec7 launch7.win.arr_inj c _ _ 5).trans (final7_5c (tcv (U19 m)) c))

/-! ## After the host stretch -/

/-- The stretch does not write the features buffer. -/
theorem U21_feat4 (c : Dev nD) : U21 m c main_v140_0 = H4 m c :=
  (host8_keeps (U20 m c) main_v140_0 (by decide)).trans (U20_feat4 m c)

/-- A buffer neither the statistics region nor the stretch writes is as the statistics region found it. -/
theorem U21_keeps4 (c : Dev nD) (b : Ref sig .tc) (h9 : b ∉ (hostOps8_W : List (Ref sig .tc)))
    (h8 : b ∉ ([main_v140_0, main_v140_1, main_v140_2] : List (Ref sig .tc))) : U21 m c b = U19 m c b :=
  (host8_keeps (U20 m c) b h9).trans (U20_of m c b h8)

/-- The row of means of `H`. -/
theorem U21_mean4 (c : Dev nD) : U21 m c main_v142 = Cert.Alg.meanRow (H4 m c) := by
  refine (host8_mean (U20 m c)).trans ?_
  funext i
  exact congrArg (fun s => Ideal.div s Cert.Alg.n100k) (congrFun (U20_sum4 m c) i)

/-- The row of variances of `H`: the mean of the squares minus the squared mean. -/
theorem U21_var4 (c : Dev nD) : U21 m c main_v146 = Cert.Alg.varRowK (H4 m c) := by
  refine (host8_var (U20 m c)).trans ?_
  funext i
  have h1 := congrFun (U20_sum4 m c) i
  have h2 := congrFun (U20_sumsq4 m c) i
  exact congrArg₂ (· - ·) (congrArg (fun s => Ideal.div s Cert.Alg.n100k) h2)
    (congrArg₂ (· * ·) (congrArg (fun s => Ideal.div s Cert.Alg.n100k) h1) (congrArg (fun s => Ideal.div s Cert.Alg.n100k) h1))

/-! ## After the normalise region -/

/-- THE LAYER'S RESULT: the batch normalisation of `H` with its own row of means and row of variances, the layer's scale and
    shift rows, the layer's input added, under the rectifier. -/
theorem layer4_core (c : Dev nD) : U22 m c main_v147
    = Cert.Alg.normG (Ideal.ofBits .f32 0x3727C5AC#32) (H4 m c) (U19 m c main_v118) (Cert.Alg.meanRow (H4 m c)) (Cert.Alg.varRowK (H4 m c))
        (U19 m c main_v136) (U19 m c main_v139) :=
  (U22_main_v147 m c).trans ((Pipeline.withArrays_arr spec8 launch8.win.arr_inj c _ _ 6).trans ((final8 (tcv (U21 m)) c).trans
    (normG_congr4 (U21_feat4 m c) (U21_keeps4 m c main_v118 (by decide) (by decide)) (U21_mean4 m c) (U21_var4 m c)
      (U21_keeps4 m c main_v136 (by decide) (by decide)) (U21_keeps4 m c main_v139 (by decide) (by decide)))))

/-- A buffer none of the three items writes is left as it was. -/
theorem U22_keeps4 (c : Dev nD) (b : Ref sig .tc) (h10 : b ∉ ([main_v147] : List (Ref sig .tc))) (h9 : b ∉ (hostOps8_W : List (Ref sig .tc)))
    (h8 : b ∉ ([main_v140_0, main_v140_1, main_v140_2] : List (Ref sig .tc))) : U22 m c b = U19 m c b :=
  (U22_of m c b h10).trans (U21_keeps4 m c b h9 h8)

theorem U22_main_v31 (c : Dev nD) : U22 m c main_v31 = U19 m c main_v31 := U22_keeps4 m c _ (by decide) (by decide) (by decide)
theorem U22_main_v1 (c : Dev nD) : U22 m c main_v1 = U19 m c main_v1 := U22_keeps4 m c _ (by decide) (by decide) (by decide)
theorem U22_main_v3 (c : Dev nD) : U22 m c main_v3 = U19 m c main_v3 := U22_keeps4 m c _ (by decide) (by decide) (by decide)
theorem U22_main_v29 (c : Dev nD) : U22 m c main_v29 = U19 m c main_v29 := U22_keeps4 m c _ (by decide) (by decide) (by decide)
theorem U22_main_arg4 (c : Dev nD) : U22 m c main_arg4 = U19 m c main_arg4 := U22_keeps4 m c _ (by decide) (by decide) (by decide)
theorem U22_main_arg5 (c : Dev nD) : U22 m c main_arg5 = U19 m c main_arg5 := U22_keeps4 m c _ (by decide) (by decide) (by decide)
theorem U22_main_arg6 (c : Dev nD) : U22 m c main_arg6 = U19 m c main_arg6 := U22_keeps4 m c _ (by decide) (by decide) (by decide)
theorem U22_main_arg7 (c : Dev nD) : U22 m c main_arg7 = U19 m c main_arg7 := U22_keeps4 m c _ (by decide) (by decide) (by decide)
theorem U22_main_arg8 (c : Dev nD) : U22 m c main_arg8 = U19 m c main_arg8 := U22_keeps4 m c _ (by decide) (by decide) (by decide)

end Cert.KernelIdeal.Hand

end
-- ==== Proof.KI.Host0.lean ====
/-
  The prologue's five host stretches run one after the other, read back from any buffer contents `W` they start
  from, at the one buffer the first region reads of them that is a plain copy of an argument: the row `main_v30`,
  the reshape of the vector of 64 entries `main_arg3`. None of the five stretches writes `main_arg3`, and the reshape
  is the last operation of the fifth, so entry (0, k) of the row is entry k of the vector as it was at the start.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

/-- None of the prologue's stretches writes the vector `main_arg3`. -/
theorem host0_arg3 (W : Valuation τ sig (Elt Ideal)) :
    StableHlo.after hostOps0_3 (StableHlo.after hostOps0_2 (StableHlo.after hostOps0_1 (StableHlo.after hostOps0 W)))
        (Proc.devRef .tc main_arg3) = W main_arg3 :=
  (StableHlo.after_of_writes_sub hostOps0_3 _ hostOps0_3_writes (by decide)).trans
    ((StableHlo.after_of_writes_sub hostOps0_2 _ hostOps0_2_writes (by decide)).trans
      ((StableHlo.after_of_writes_sub hostOps0_1 _ hostOps0_1_writes (by decide)).trans
        (StableHlo.after_of_writes_sub hostOps0 W hostOps0_writes (by decide))))

/-- The row the prologue leaves in `main_v30`: entry (0, k) is entry k of `main_arg3`. -/
theorem host0_row (W : Valuation τ sig (Elt Ideal)) :
    StableHlo.after hostOps0_4 (StableHlo.after hostOps0_3 (StableHlo.after hostOps0_2
        (StableHlo.after hostOps0_1 (StableHlo.after hostOps0 W)))) (Proc.devRef .tc main_v30)
      = fun i => W main_arg3 (ix1 (i 1)) := by
  generalize hV : StableHlo.after hostOps0_3 (StableHlo.after hostOps0_2
      (StableHlo.after hostOps0_1 (StableHlo.after hostOps0 W))) = V4
  have hA : V4 (Proc.devRef .tc main_arg3) = W main_arg3 := hV ▸ host0_arg3 W
  after_results
  refine funext fun (i : S1x64.Idx) => ?_
  have h0 : (i 0).val < 1 := (i 0).isLt
  show shapeCast S1x64 (V4 main_arg3) shapeCasts_S64_S1x64 i = _
  rw [hA]
  refine shapeCast_apply _ _ i (ix1 (i 1)) ?_
  rw [Shape.rowMajor_val_one, Shape.rowMajor_val_two]
  show (i 1).val = (i 0).val * 64 + (i 1).val
  omega

end Cert.KernelIdeal.Hand

end
-- ==== Proof.KI.HostAgg.lean ====
/-
  One layer's sparse aggregation as the host stretches compute it, as one function of the four arrays it reads: the
  edges' target rows `row` and source rows `col` (one million 32-bit integers each), the edges' weights `ew`, and the
  features `x` (100000 rows of 64). A negative source row is wrapped by adding 100000; the source rows' features are
  gathered, each multiplied by its edge's weight (the weight broadcast along the 64 columns), and the products are
  scatter-added into an all-zero array of 100000 rows of 64 at the target rows. The four layers' stretches compute this
  same function, each of its own features.
-/
import proofs.«162064_j1357209666150_1_alg».proof.Proof.Gen.KernelIdeal.Launch
import Idealize.ShloMosaic.PureOps.Ideal

noncomputable section

namespace Cert.KernelIdeal.Hand

open Cert.KernelIdeal Cert.KernelIdeal.Gen
open Idealize.ShloMosaic

/-- The aggregation: gather the source rows of `x`, weight them, scatter-add them at the target rows from zero. -/
def agg (row col : IVec S1000000 32) (ew : FVec Ideal S1000000 .f32) (x : FVec Ideal S100000x64 .f32) :
    FVec Ideal S100000x64 .f32 :=
  Host.scatterAdd (F := Ideal) scatter_S100000x64_S1000000x1_S1000000x64_1_0_0_1
    (broadcastInDim S100000x64 ![] bcast_S_S100000x64 (constant (F := Ideal) S_ FTy.f32 0x00000000#32))
    (broadcastInDim S1000000x1 ![0] bcast_S1000000_S1000000x1_0 row)
    (mulf
      (Host.gather gather_S100000x64_S1000000x1_S1000000x64_1_0_n_n_0_1_164 x
        (broadcastInDim S1000000x1 ![0] bcast_S1000000_S1000000x1_0
          (select
            (cmpi CmpIPredicate.slt col (broadcastInDim S1000000 ![] bcast_S_S1000000 (constantI S_ 32 0#32)))
            (addi col (broadcastInDim S1000000 ![] bcast_S_S1000000 (constantI S_ 32 100000#32)))
            col)))
      (broadcastInDim S1000000x64 ![0, 1] bcast_S1000000x1_S1000000x64_0_1
        (broadcastInDim S1000000x1 ![0] bcast_S1000000_S1000000x1_0 ew)))

end Cert.KernelIdeal.Hand

end
-- ==== Proof.KI.Host1.lean ====
/-
  The host stretch before the first statistics region, read back from any buffer contents `W` it starts from. The
  stretch computes the layer's sparse aggregation of the features `main_v31` (the function `agg` of the edges' target
  rows `main_v1`, source rows `main_v3`, weights `main_v29` and the features), and cuts the layer's parameters out of the
  stacked arguments: block 0 of `main_arg4` as a 64 × 64 array, row 0 of `main_arg5` and row 0 of `main_arg6` each
  as a row of 64. A slice read at an index is the argument at the index shifted by the slice's offset; a reshape
  read at an index is its operand at the index with the same row-major position. Every buffer the stretch does not
  write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal
import proofs.«162064_j1357209666150_1_alg».proof.Proof.KI.HostAgg

set_option maxRecDepth 16384

noncomputable section

namespace Cert.KernelIdeal.Hand

open Cert.KernelIdeal Cert.KernelIdeal.Gen
open Idealize.ShloMosaic Idealize.ShloMosaic.TcCoe Idealize.ShloMosaic.ValueIdx

set_option maxHeartbeats 4000000 in
/-- The aggregation the stretch leaves in `main_v44`. -/
theorem host1_agg (W : Valuation τ sig (Elt Ideal)) :
    StableHlo.after hostOps1 W (Proc.devRef .tc main_v44) = agg (W main_v1) (W main_v3) (W main_v29) (W main_v31) := by
  after_results_simp
  rfl

/-- The layer's 64 × 64 parameter array: entry (j, k) is entry (0, j, k) of `main_arg4`. -/
theorem host1_mat (W : Valuation τ sig (Elt Ideal)) :
    StableHlo.after hostOps1 W (Proc.devRef .tc main_v46) = fun i => W main_arg4 (ix3 0 (i 0) (i 1)) := by
  after_results
  refine funext fun (i : S64x64.Idx) => ?_
  show shapeCast S64x64 (extractStridedSlice S1x64x64 ![0, 0, 0] (W main_arg4) slices_S4x64x64_S1x64x64_0_0_0)
      shapeCasts_S1x64x64_S64x64 i = _
  refine (shapeCast_apply _ _ i (ix3 (0 : Fin 1) (i 0) (i 1)) ?_).trans ?_
  · rw [Shape.rowMajor_val_three, Shape.rowMajor_val_two]
    show (0 * 64 + (i 0).val) * 64 + (i 1).val = (i 0).val * 64 + (i 1).val
    omega
  · exact extractStridedSlice_apply _ _ _ _ (ix3 (0 : Fin 4) (i 0) (i 1)) (fun a => match a with
      | ⟨0, _⟩ => by show (0 : Nat) = 0 + 0; rfl
      | ⟨1, _⟩ => by show (i 0).val = 0 + (i 0).val; omega
      | ⟨2, _⟩ => by show (i 1).val = 0 + (i 1).val; omega)

/-- Row 0 of a stacked 4 × 64 argument, cut out as a [1, 64] slice, flattened to 64 entries and reshaped to a row again:
    entry (0, k) is entry (0, k) of the argument. -/
theorem row1_apply (A : S4x64.Idx → Elt Ideal .f32) (i : S1x64.Idx) :
    shapeCast S1x64 (fun j => shapeCast S64 (extractStridedSlice S1x64 ![0, 0] A slices_S4x64_S1x64_0_0)
      shapeCasts_S1x64_S64 j) shapeCasts_S64_S1x64 i = A (ix2 0 (i 1)) := by
  have h0 : (i 0).val < 1 := (i 0).isLt
  refine (shapeCast_apply _ _ i (ix1 (i 1)) ?_).trans ?_
  · rw [Shape.rowMajor_val_one, Shape.rowMajor_val_two]
    show (i 1).val = (i 0).val * 64 + (i 1).val
    omega
  refine (shapeCast_apply _ _ (ix1 (i 1)) (ix2 (0 : Fin 1) (i 1)) ?_).trans ?_
  · rw [Shape.rowMajor_val_two, Shape.rowMajor_val_one]
    show 0 * 64 + (i 1).val = (i 1).val
    omega
  · exact extractStridedSlice_apply _ _ _ _ (ix2 (0 : Fin 4) (i 1)) (fun a => match a with
      | ⟨0, _⟩ => by show (0 : Nat) = 0 + 0; rfl
      | ⟨1, _⟩ => by show (i 1).val = 0 + (i 1).val; omega)

/-- The layer's row of `main_arg5`: entry (0, k) is entry (0, k) of `main_arg5`. -/
theorem host1_row5 (W : Valuation τ sig (Elt Ideal)) :
    StableHlo.after hostOps1 W (Proc.devRef .tc main_v49) = fun i => W main_arg5 (ix2 0 (i 1)) := by
  after_results
  exact funext fun (i : S1x64.Idx) => row1_apply (W main_arg5) i

/-- The layer's row of `main_arg6`: entry (0, k) is entry (0, k) of `main_arg6`. -/
theorem host1_row6 (W : Valuation τ sig (Elt Ideal)) :
    StableHlo.after hostOps1 W (Proc.devRef .tc main_v52) = fun i => W main_arg6 (ix2 0 (i 1)) := by
  after_results
  exact funext fun (i : S1x64.Idx) => row1_apply (W main_arg6) i

/-- A buffer the stretch does not write keeps its contents. -/
theorem host1_keeps (W : Valuation τ sig (Elt Ideal)) (r : Ref sig .tc) (h : r ∉ (hostOps1_W : List (Ref sig .tc))) :
    StableHlo.after hostOps1 W (Proc.devRef .tc r) = W (Proc.devRef .tc r) :=
  StableHlo.after_of_writes_sub hostOps1 W hostOps1_writes h

end Cert.KernelIdeal.Hand

end
-- ==== Proof.KI.Host3.lean ====
/-
  The host stretch before the second statistics region, read back from any buffer contents `W` it starts from. The
  stretch computes the layer's sparse aggregation of the features `main_v60` (the function `agg` of the edges' target
  rows `main_v1`, source rows `main_v3`, weights `main_v29` and the features), and cuts the layer's parameters out of the
  stacked arguments: block 1 of `main_arg4` as a 64 × 64 array, row 1 of `main_arg5` and row 1 of `main_arg6` each
  as a row of 64. A slice read at an index is the argument at the index shifted by the slice's offset; a reshape
  read at an index is its operand at the index with the same row-major position. Every buffer the stretch does not
  write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal
import proofs.«162064_j1357209666150_1_alg».proof.Proof.KI.HostAgg

set_option maxRecDepth 16384

noncomputable section

namespace Cert.KernelIdeal.Hand

open Cert.KernelIdeal Cert.KernelIdeal.Gen
open Idealize.ShloMosaic Idealize.ShloMosaic.TcCoe Idealize.ShloMosaic.ValueIdx

set_option maxHeartbeats 4000000 in
/-- The aggregation the stretch leaves in `main_v73`. -/
theorem host3_agg (W : Valuation τ sig (Elt Ideal)) :
    StableHlo.after hostOps3 W (Proc.devRef .tc main_v73) = agg (W main_v1) (W main_v3) (W main_v29) (W main_v60) := by
  after_results_simp
  rfl

/-- The layer's 64 × 64 parameter array: entry (j, k) is entry (1, j, k) of `main_arg4`. -/
theorem host3_mat (W : Valuation τ sig (Elt Ideal)) :
    StableHlo.after hostOps3 W (Proc.devRef .tc main_v75) = fun i => W main_arg4 (ix3 1 (i 0) (i 1)) := by
  after_results
  refine funext fun (i : S64x64.Idx) => ?_
  show shapeCast S64x64 (extractStridedSlice S1x64x64 ![1, 0, 0] (W main_arg4) slices_S4x64x64_S1x64x64_1_0_0)
      shapeCasts_S1x64x64_S64x64 i = _
  refine (shapeCast_apply _ _ i (ix3 (0 : Fin 1) (i 0) (i 1)) ?_).trans ?_
  · rw [Shape.rowMajor_val_three, Shape.rowMajor_val_two]
    show (0 * 64 + (i 0).val) * 64 + (i 1).val = (i 0).val * 64 + (i 1).val
    omega
  · exact extractStridedSlice_apply _ _ _ _ (ix3 (1 : Fin 4) (i 0) (i 1)) (fun a => match a with
      | ⟨0, _⟩ => by show (1 : Nat) = 1 + 0; rfl
      | ⟨1, _⟩ => by show (i 0).val = 0 + (i 0).val; omega
      | ⟨2, _⟩ => by show (i 1).val = 0 + (i 1).val; omega)

/-- Row 1 of a stacked 4 × 64 argument, cut out as a [1, 64] slice, flattened to 64 entries and reshaped to a row again:
    entry (0, k) is entry (1, k) of the argument. -/
theorem row3_apply (A : S4x64.Idx → Elt Ideal .f32) (i : S1x64.Idx) :
    shapeCast S1x64 (fun j => shapeCast S64 (extractStridedSlice S1x64 ![1, 0] A slices_S4x64_S1x64_1_0)
      shapeCasts_S1x64_S64 j) shapeCasts_S64_S1x64 i = A (ix2 1 (i 1)) := by
  have h0 : (i 0).val < 1 := (i 0).isLt
  refine (shapeCast_apply _ _ i (ix1 (i 1)) ?_).trans ?_
  · rw [Shape.rowMajor_val_one, Shape.rowMajor_val_two]
    show (i 1).val = (i 0).val * 64 + (i 1).val
    omega
  refine (shapeCast_apply _ _ (ix1 (i 1)) (ix2 (0 : Fin 1) (i 1)) ?_).trans ?_
  · rw [Shape.rowMajor_val_two, Shape.rowMajor_val_one]
    show 0 * 64 + (i 1).val = (i 1).val
    omega
  · exact extractStridedSlice_apply _ _ _ _ (ix2 (1 : Fin 4) (i 1)) (fun a => match a with
      | ⟨0, _⟩ => by show (1 : Nat) = 1 + 0; rfl
      | ⟨1, _⟩ => by show (i 1).val = 0 + (i 1).val; omega)

/-- The layer's row of `main_arg5`: entry (0, k) is entry (1, k) of `main_arg5`. -/
theorem host3_row5 (W : Valuation τ sig (Elt Ideal)) :
    StableHlo.after hostOps3 W (Proc.devRef .tc main_v78) = fun i => W main_arg5 (ix2 1 (i 1)) := by
  after_results
  exact funext fun (i : S1x64.Idx) => row3_apply (W main_arg5) i

/-- The layer's row of `main_arg6`: entry (0, k) is entry (1, k) of `main_arg6`. -/
theorem host3_row6 (W : Valuation τ sig (Elt Ideal)) :
    StableHlo.after hostOps3 W (Proc.devRef .tc main_v81) = fun i => W main_arg6 (ix2 1 (i 1)) := by
  after_results
  exact funext fun (i : S1x64.Idx) => row3_apply (W main_arg6) i

/-- A buffer the stretch does not write keeps its contents. -/
theorem host3_keeps (W : Valuation τ sig (Elt Ideal)) (r : Ref sig .tc) (h : r ∉ (hostOps3_W : List (Ref sig .tc))) :
    StableHlo.after hostOps3 W (Proc.devRef .tc r) = W (Proc.devRef .tc r) :=
  StableHlo.after_of_writes_sub hostOps3 W hostOps3_writes h

end Cert.KernelIdeal.Hand

end
-- ==== Proof.KI.Host5.lean ====
/-
  The host stretch before the third statistics region, read back from any buffer contents `W` it starts from. The
  stretch computes the layer's sparse aggregation of the features `main_v89` (the function `agg` of the edges' target
  rows `main_v1`, source rows `main_v3`, weights `main_v29` and the features), and cuts the layer's parameters out of the
  stacked arguments: block 2 of `main_arg4` as a 64 × 64 array, row 2 of `main_arg5` and row 2 of `main_arg6` each
  as a row of 64. A slice read at an index is the argument at the index shifted by the slice's offset; a reshape
  read at an index is its operand at the index with the same row-major position. Every buffer the stretch does not
  write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal
import proofs.«162064_j1357209666150_1_alg».proof.Proof.KI.HostAgg

set_option maxRecDepth 16384

noncomputable section

namespace Cert.KernelIdeal.Hand

open Cert.KernelIdeal Cert.KernelIdeal.Gen
open Idealize.ShloMosaic Idealize.ShloMosaic.TcCoe Idealize.ShloMosaic.ValueIdx

set_option maxHeartbeats 4000000 in
/-- The aggregation the stretch leaves in `main_v102`. -/
theorem host5_agg (W : Valuation τ sig (Elt Ideal)) :
    StableHlo.after hostOps5 W (Proc.devRef .tc main_v102) = agg (W main_v1) (W main_v3) (W main_v29) (W main_v89) := by
  after_results_simp
  rfl

/-- The layer's 64 × 64 parameter array: entry (j, k) is entry (2, j, k) of `main_arg4`. -/
theorem host5_mat (W : Valuation τ sig (Elt Ideal)) :
    StableHlo.after hostOps5 W (Proc.devRef .tc main_v104) = fun i => W main_arg4 (ix3 2 (i 0) (i 1)) := by
  after_results
  refine funext fun (i : S64x64.Idx) => ?_
  show shapeCast S64x64 (extractStridedSlice S1x64x64 ![2, 0, 0] (W main_arg4) slices_S4x64x64_S1x64x64_2_0_0)
      shapeCasts_S1x64x64_S64x64 i = _
  refine (shapeCast_apply _ _ i (ix3 (0 : Fin 1) (i 0) (i 1)) ?_).trans ?_
  · rw [Shape.rowMajor_val_three, Shape.rowMajor_val_two]
    show (0 * 64 + (i 0).val) * 64 + (i 1).val = (i 0).val * 64 + (i 1).val
    omega
  · exact extractStridedSlice_apply _ _ _ _ (ix3 (2 : Fin 4) (i 0) (i 1)) (fun a => match a with
      | ⟨0, _⟩ => by show (2 : Nat) = 2 + 0; rfl
      | ⟨1, _⟩ => by show (i 0).val = 0 + (i 0).val; omega
      | ⟨2, _⟩ => by show (i 1).val = 0 + (i 1).val; omega)

/-- Row 2 of a stacked 4 × 64 argument, cut out as a [1, 64] slice, flattened to 64 entries and reshaped to a row again:
    entry (0, k) is entry (2, k) of the argument. -/
theorem row5_apply (A : S4x64.Idx → Elt Ideal .f32) (i : S1x64.Idx) :
    shapeCast S1x64 (fun j => shapeCast S64 (extractStridedSlice S1x64 ![2, 0] A slices_S4x64_S1x64_2_0)
      shapeCasts_S1x64_S64 j) shapeCasts_S64_S1x64 i = A (ix2 2 (i 1)) := by
  have h0 : (i 0).val < 1 := (i 0).isLt
  refine (shapeCast_apply _ _ i (ix1 (i 1)) ?_).trans ?_
  · rw [Shape.rowMajor_val_one, Shape.rowMajor_val_two]
    show (i 1).val = (i 0).val * 64 + (i 1).val
    omega
  refine (shapeCast_apply _ _ (ix1 (i 1)) (ix2 (0 : Fin 1) (i 1)) ?_).trans ?_
  · rw [Shape.rowMajor_val_two, Shape.rowMajor_val_one]
    show 0 * 64 + (i 1).val = (i 1).val
    omega
  · exact extractStridedSlice_apply _ _ _ _ (ix2 (2 : Fin 4) (i 1)) (fun a => match a with
      | ⟨0, _⟩ => by show (2 : Nat) = 2 + 0; rfl
      | ⟨1, _⟩ => by show (i 1).val = 0 + (i 1).val; omega)

/-- The layer's row of `main_arg5`: entry (0, k) is entry (2, k) of `main_arg5`. -/
theorem host5_row5 (W : Valuation τ sig (Elt Ideal)) :
    StableHlo.after hostOps5 W (Proc.devRef .tc main_v107) = fun i => W main_arg5 (ix2 2 (i 1)) := by
  after_results
  exact funext fun (i : S1x64.Idx) => row5_apply (W main_arg5) i

/-- The layer's row of `main_arg6`: entry (0, k) is entry (2, k) of `main_arg6`. -/
theorem host5_row6 (W : Valuation τ sig (Elt Ideal)) :
    StableHlo.after hostOps5 W (Proc.devRef .tc main_v110) = fun i => W main_arg6 (ix2 2 (i 1)) := by
  after_results
  exact funext fun (i : S1x64.Idx) => row5_apply (W main_arg6) i

/-- A buffer the stretch does not write keeps its contents. -/
theorem host5_keeps (W : Valuation τ sig (Elt Ideal)) (r : Ref sig .tc) (h : r ∉ (hostOps5_W : List (Ref sig .tc))) :
    StableHlo.after hostOps5 W (Proc.devRef .tc r) = W (Proc.devRef .tc r) :=
  StableHlo.after_of_writes_sub hostOps5 W hostOps5_writes h

end Cert.KernelIdeal.Hand

end
-- ==== Proof.KI.Host7.lean ====
/-
  The host stretch before the fourth statistics region, read back from any buffer contents `W` it starts from. The
  stretch computes the layer's sparse aggregation of the features `main_v118` (the function `agg` of the edges' target
  rows `main_v1`, source rows `main_v3`, weights `main_v29` and the features), and cuts the layer's parameters out of the
  stacked arguments: block 3 of `main_arg4` as a 64 × 64 array, row 3 of `main_arg5` and row 3 of `main_arg6` each
  as a row of 64. A slice read at an index is the argument at the index shifted by the slice's offset; a reshape
  read at an index is its operand at the index with the same row-major position. Every buffer the stretch does not
  write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal
import proofs.«162064_j1357209666150_1_alg».proof.Proof.KI.HostAgg

set_option maxRecDepth 16384

noncomputable section

namespace Cert.KernelIdeal.Hand

open Cert.KernelIdeal Cert.KernelIdeal.Gen
open Idealize.ShloMosaic Idealize.ShloMosaic.TcCoe Idealize.ShloMosaic.ValueIdx

set_option maxHeartbeats 4000000 in
/-- The aggregation the stretch leaves in `main_v131`. -/
theorem host7_agg (W : Valuation τ sig (Elt Ideal)) :
    StableHlo.after hostOps7 W (Proc.devRef .tc main_v131) = agg (W main_v1) (W main_v3) (W main_v29) (W main_v118) := by
  after_results_simp
  rfl

/-- The layer's 64 × 64 parameter array: entry (j, k) is entry (3, j, k) of `main_arg4`. -/
theorem host7_mat (W : Valuation τ sig (Elt Ideal)) :
    StableHlo.after hostOps7 W (Proc.devRef .tc main_v133) = fun i => W main_arg4 (ix3 3 (i 0) (i 1)) := by
  after_results
  refine funext fun (i : S64x64.Idx) => ?_
  show shapeCast S64x64 (extractStridedSlice S1x64x64 ![3, 0, 0] (W main_arg4) slices_S4x64x64_S1x64x64_3_0_0)
      shapeCasts_S1x64x64_S64x64 i = _
  refine (shapeCast_apply _ _ i (ix3 (0 : Fin 1) (i 0) (i 1)) ?_).trans ?_
  · rw [Shape.rowMajor_val_three, Shape.rowMajor_val_two]
    show (0 * 64 + (i 0).val) * 64 + (i 1).val = (i 0).val * 64 + (i 1).val
    omega
  · exact extractStridedSlice_apply _ _ _ _ (ix3 (3 : Fin 4) (i 0) (i 1)) (fun a => match a with
      | ⟨0, _⟩ => by show (3 : Nat) = 3 + 0; rfl
      | ⟨1, _⟩ => by show (i 0).val = 0 + (i 0).val; omega
      | ⟨2, _⟩ => by show (i 1).val = 0 + (i 1).val; omega)

/-- Row 3 of a stacked 4 × 64 argument, cut out as a [1, 64] slice, flattened to 64 entries and reshaped to a row again:
    entry (0, k) is entry (3, k) of the argument. -/
theorem row7_apply (A : S4x64.Idx → Elt Ideal .f32) (i : S1x64.Idx) :
    shapeCast S1x64 (fun j => shapeCast S64 (extractStridedSlice S1x64 ![3, 0] A slices_S4x64_S1x64_3_0)
      shapeCasts_S1x64_S64 j) shapeCasts_S64_S1x64 i = A (ix2 3 (i 1)) := by
  have h0 : (i 0).val < 1 := (i 0).isLt
  refine (shapeCast_apply _ _ i (ix1 (i 1)) ?_).trans ?_
  · rw [Shape.rowMajor_val_one, Shape.rowMajor_val_two]
    show (i 1).val = (i 0).val * 64 + (i 1).val
    omega
  refine (shapeCast_apply _ _ (ix1 (i 1)) (ix2 (0 : Fin 1) (i 1)) ?_).trans ?_
  · rw [Shape.rowMajor_val_two, Shape.rowMajor_val_one]
    show 0 * 64 + (i 1).val = (i 1).val
    omega
  · exact extractStridedSlice_apply _ _ _ _ (ix2 (3 : Fin 4) (i 1)) (fun a => match a with
      | ⟨0, _⟩ => by show (3 : Nat) = 3 + 0; rfl
      | ⟨1, _⟩ => by show (i 1).val = 0 + (i 1).val; omega)

/-- The layer's row of `main_arg5`: entry (0, k) is entry (3, k) of `main_arg5`. -/
theorem host7_row5 (W : Valuation τ sig (Elt Ideal)) :
    StableHlo.after hostOps7 W (Proc.devRef .tc main_v136) = fun i => W main_arg5 (ix2 3 (i 1)) := by
  after_results
  exact funext fun (i : S1x64.Idx) => row7_apply (W main_arg5) i

/-- The layer's row of `main_arg6`: entry (0, k) is entry (3, k) of `main_arg6`. -/
theorem host7_row6 (W : Valuation τ sig (Elt Ideal)) :
    StableHlo.after hostOps7 W (Proc.devRef .tc main_v139) = fun i => W main_arg6 (ix2 3 (i 1)) := by
  after_results
  exact funext fun (i : S1x64.Idx) => row7_apply (W main_arg6) i

/-- A buffer the stretch does not write keeps its contents. -/
theorem host7_keeps (W : Valuation τ sig (Elt Ideal)) (r : Ref sig .tc) (h : r ∉ (hostOps7_W : List (Ref sig .tc))) :
    StableHlo.after hostOps7 W (Proc.devRef .tc r) = W (Proc.devRef .tc r) :=
  StableHlo.after_of_writes_sub hostOps7 W hostOps7_writes h

end Cert.KernelIdeal.Hand

end
-- ==== Proof.KI.Host9.lean ====
/-
  The last host stretch, read back from any buffer contents `W` it starts from: one reshape of the vector of 64
  entries `main_arg8` to a row. Entry (0, k) of the row it leaves is entry k of the vector. Every buffer the stretch
  does not write keeps its contents.
-/
import proofs.«162064_j1357209666150_1_alg».proof.Proof.Gen.KernelIdeal.Regions
import proofs.«162064_j1357209666150_1_alg».proof.Proof.Alg.Layer
import Idealize.ShloMosaic.Lib.ValueIdx
import Idealize.ShloMosaic.Lib.ValueLayout
import Idealize.ShloMosaic.Lib.Pipeline.Value
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

/-- The row the stretch leaves: entry (0, k) is entry k of the vector. -/
theorem host9_row (W : Valuation τ sig (Elt Ideal)) :
    StableHlo.after hostOps9 W (Proc.devRef .tc main_v148) = fun i => W main_arg8 (ix1 (i 1)) := by
  after_results
  refine funext fun (i : S1x64.Idx) => ?_
  have h0 : (i 0).val < 1 := (i 0).isLt
  show shapeCast S1x64 (W main_arg8) shapeCasts_S64_S1x64 i = _
  refine shapeCast_apply _ _ i (ix1 (i 1)) ?_
  rw [Shape.rowMajor_val_one, Shape.rowMajor_val_two]
  show (i 1).val = (i 0).val * 64 + (i 1).val
  omega

/-- A buffer the stretch does not write keeps its contents. -/
theorem host9_keeps (W : Valuation τ sig (Elt Ideal)) (r : Ref sig .tc) (h : r ∉ (hostOps9_W : List (Ref sig .tc))) :
    StableHlo.after hostOps9 W (Proc.devRef .tc r) = W (Proc.devRef .tc r) :=
  StableHlo.after_of_writes_sub hostOps9 W hostOps9_writes h

end Cert.KernelIdeal.Hand

end
-- ==== Proof.Alg.Net.lean ====
/-
  One layer of the network as a function of whole arrays, in the kernel's form (variance `E[h²] − (E h)²` from the two
  column-sum rows) and in the reference's form (variance `E[(h − E h)²]`, sums started from the zero word): the two are the
  same array when the layer's pre-normalisation features are real numbers, and the layer's output is then real again.
-/
import proofs.«162064_j1357209666150_1_alg».proof.Proof.Alg.Layer

noncomputable section

namespace Cert.Alg

open Idealize.ShloMosaic Idealize.ShloMosaic.ValueIdx Cert.Math

/-- The two mixing constants every layer shares (0.9 and 0.1 as the programs spell them). -/
abbrev c1w : E := Ideal.ofBits .f32 0x3F666666#32
abbrev c2w : E := Ideal.ofBits .f32 0x3DCCCCCD#32

/-- One layer, the kernel's way. -/
def layerK (c3 c4 : E) (agg x x0 : SN64.Idx → E) (w : S64x64'.Idx → E) (gamma beta : S1x64'.Idx → E) : SN64.Idx → E :=
  normG epsW (statsH c1w c2w c3 c4 agg x0 w) x (meanRow (statsH c1w c2w c3 c4 agg x0 w)) (varRowK (statsH c1w c2w c3 c4 agg x0 w)) gamma beta

/-- One layer, the reference's way. -/
def layerR (c3 c4 : E) (agg x x0 : SN64.Idx → E) (w : S64x64'.Idx → E) (gamma beta : S1x64'.Idx → E) : SN64.Idx → E :=
  normG epsW (statsH c1w c2w c3 c4 agg x0 w) x (meanRowR (statsH c1w c2w c3 c4 agg x0 w)) (varRowR (statsH c1w c2w c3 c4 agg x0 w)) gamma beta

theorem layerK_eq_layerR (c3 c4 : E) (agg x x0 : SN64.Idx → E) (w : S64x64'.Idx → E) (gamma beta : S1x64'.Idx → E)
    (hh : AllReal (statsH c1w c2w c3 c4 agg x0 w)) : layerK c3 c4 agg x x0 w gamma beta = layerR c3 c4 agg x x0 w gamma beta :=
  normG_ref epsW _ x gamma beta hh

theorem allReal_layerK {c3 c4 : E} {agg x x0 : SN64.Idx → E} {w : S64x64'.Idx → E} {gamma beta : S1x64'.Idx → E}
    (h3 : IsReal c3) (h4 : IsReal c4) (ha : AllReal agg) (hx : AllReal x) (h0 : AllReal x0) (hw : AllReal w)
    (hg : AllReal gamma) (hb : AllReal beta) : AllReal (layerK c3 c4 agg x x0 w gamma beta) :=
  allReal_normG _ x gamma beta (allReal_statsH Cert.LibReal.isReal_ofBits_3F666666 Cert.LibReal.isReal_ofBits_3DCCCCCD h3 h4 ha h0 hw) hx hg hb

/-! ## The whole network, as a function of the argument arrays and of the sparse aggregation -/

abbrev S4x64x64' : Shape := ⟨3, ![4, 64, 64]⟩
abbrev S4x64' : Shape := ⟨2, ![4, 64]⟩
abbrev S64' : Shape := ⟨1, ![64]⟩

/-- Layer `l`'s weights, scale row and shift row out of the stacked parameters. -/
def wOf (a4 : S4x64x64'.Idx → E) (l : Fin 4) : S64x64'.Idx → E := fun i => a4 (ix3 l (i 0) (i 1))
def rowOf (a : S4x64'.Idx → E) (l : Fin 4) : S1x64'.Idx → E := fun i => a (ix2 l (i 1))
/-- A bias vector as one row. -/
def row1 (a : S64'.Idx → E) : S1x64'.Idx → E := fun i => a (ix1 (i 1))

/-- The per-layer constants `1 − β_l` and `β_l` as the programs spell them. -/
abbrev c3_1 : E := Ideal.ofBits .f32 0x3F183370#32
abbrev c4_1 : E := Ideal.ofBits .f32 0x3ECF991F#32
abbrev c3_2 : E := Ideal.ofBits .f32 0x3F46E010#32
abbrev c4_2 : E := Ideal.ofBits .f32 0x3E647FBE#32
abbrev c3_3 : E := Ideal.ofBits .f32 0x3F588995#32
abbrev c4_3 : E := Ideal.ofBits .f32 0x3E1DD9AD#32
abbrev c3_4 : E := Ideal.ofBits .f32 0x3F61D8F9#32
abbrev c4_4 : E := Ideal.ofBits .f32 0x3DF1383B#32

/-- The network with each layer the kernel's way; `aggf` is the sparse aggregation (the same host chain in both programs). -/
def netK (aggf : (SN64.Idx → E) → (SN64.Idx → E)) (a0 : SN128.Idx → E) (a2 : S128x64'.Idx → E) (a3 : S64'.Idx → E)
    (a4 : S4x64x64'.Idx → E) (a5 a6 : S4x64'.Idx → E) (a7 : S64x64'.Idx → E) (a8 : S64'.Idx → E) : SN64.Idx → E :=
  let x1 := G0 a0 a2 (row1 a3)
  let x2 := layerK c3_1 c4_1 (aggf x1) x1 x1 (wOf a4 0) (rowOf a5 0) (rowOf a6 0)
  let x3 := layerK c3_2 c4_2 (aggf x2) x2 x1 (wOf a4 1) (rowOf a5 1) (rowOf a6 1)
  let x4 := layerK c3_3 c4_3 (aggf x3) x3 x1 (wOf a4 2) (rowOf a5 2) (rowOf a6 2)
  let x5 := layerK c3_4 c4_4 (aggf x4) x4 x1 (wOf a4 3) (rowOf a5 3) (rowOf a6 3)
  denseG x5 a7 (row1 a8)

/-- The network with each layer the reference's way. -/
def netR (aggf : (SN64.Idx → E) → (SN64.Idx → E)) (a0 : SN128.Idx → E) (a2 : S128x64'.Idx → E) (a3 : S64'.Idx → E)
    (a4 : S4x64x64'.Idx → E) (a5 a6 : S4x64'.Idx → E) (a7 : S64x64'.Idx → E) (a8 : S64'.Idx → E) : SN64.Idx → E :=
  let x1 := G0 a0 a2 (row1 a3)
  let x2 := layerR c3_1 c4_1 (aggf x1) x1 x1 (wOf a4 0) (rowOf a5 0) (rowOf a6 0)
  let x3 := layerR c3_2 c4_2 (aggf x2) x2 x1 (wOf a4 1) (rowOf a5 1) (rowOf a6 1)
  let x4 := layerR c3_3 c4_3 (aggf x3) x3 x1 (wOf a4 2) (rowOf a5 2) (rowOf a6 2)
  let x5 := layerR c3_4 c4_4 (aggf x4) x4 x1 (wOf a4 3) (rowOf a5 3) (rowOf a6 3)
  denseG x5 a7 (row1 a8)

theorem allReal_wOf {a4 : S4x64x64'.Idx → E} (h : AllReal a4) (l : Fin 4) : AllReal (wOf a4 l) := fun _ => h _
theorem allReal_rowOf {a : S4x64'.Idx → E} (h : AllReal a) (l : Fin 4) : AllReal (rowOf a l) := fun _ => h _
theorem allReal_row1 {a : S64'.Idx → E} (h : AllReal a) : AllReal (row1 a) := fun _ => h _

/-- On real arguments, with an aggregation that keeps entries real, the two forms of the network are one array. -/
theorem netK_eq_netR (aggf : (SN64.Idx → E) → (SN64.Idx → E)) (hagg : ∀ x, AllReal x → AllReal (aggf x))
    (a0 : SN128.Idx → E) (a2 : S128x64'.Idx → E) (a3 : S64'.Idx → E) (a4 : S4x64x64'.Idx → E) (a5 a6 : S4x64'.Idx → E)
    (a7 : S64x64'.Idx → E) (a8 : S64'.Idx → E)
    (h0 : AllReal a0) (h2 : AllReal a2) (h3 : AllReal a3) (h4 : AllReal a4) (h5 : AllReal a5) (h6 : AllReal a6) :
    netK aggf a0 a2 a3 a4 a5 a6 a7 a8 = netR aggf a0 a2 a3 a4 a5 a6 a7 a8 := by
  have hx1 : AllReal (G0 a0 a2 (row1 a3)) := allReal_G0 h0 h2 (allReal_row1 h3)
  have r1 := Cert.LibReal.isReal_ofBits_3F183370; have r2 := Cert.LibReal.isReal_ofBits_3ECF991F
  have r3 := Cert.LibReal.isReal_ofBits_3F46E010; have r4 := Cert.LibReal.isReal_ofBits_3E647FBE
  have r5 := Cert.LibReal.isReal_ofBits_3F588995; have r6 := Cert.LibReal.isReal_ofBits_3E1DD9AD
  have r7 := Cert.LibReal.isReal_ofBits_3F61D8F9; have r8 := Cert.LibReal.isReal_ofBits_3DF1383B
  have q1 := Cert.LibReal.isReal_ofBits_3F666666; have q2 := Cert.LibReal.isReal_ofBits_3DCCCCCD
  unfold netK netR
  dsimp only
  have e2 := layerK_eq_layerR c3_1 c4_1 (aggf (G0 a0 a2 (row1 a3))) (G0 a0 a2 (row1 a3)) (G0 a0 a2 (row1 a3)) (wOf a4 0) (rowOf a5 0) (rowOf a6 0)
    (allReal_statsH q1 q2 r1 r2 (hagg _ hx1) hx1 (allReal_wOf h4 0))
  have hx2 : AllReal (layerK c3_1 c4_1 (aggf (G0 a0 a2 (row1 a3))) (G0 a0 a2 (row1 a3)) (G0 a0 a2 (row1 a3)) (wOf a4 0) (rowOf a5 0) (rowOf a6 0)) :=
    allReal_layerK r1 r2 (hagg _ hx1) hx1 hx1 (allReal_wOf h4 0) (allReal_rowOf h5 0) (allReal_rowOf h6 0)
  rw [← e2]
  generalize layerK c3_1 c4_1 (aggf (G0 a0 a2 (row1 a3))) (G0 a0 a2 (row1 a3)) (G0 a0 a2 (row1 a3)) (wOf a4 0) (rowOf a5 0) (rowOf a6 0) = x2 at hx2 ⊢
  have e3 := layerK_eq_layerR c3_2 c4_2 (aggf x2) x2 (G0 a0 a2 (row1 a3)) (wOf a4 1) (rowOf a5 1) (rowOf a6 1)
    (allReal_statsH q1 q2 r3 r4 (hagg _ hx2) hx1 (allReal_wOf h4 1))
  have hx3 : AllReal (layerK c3_2 c4_2 (aggf x2) x2 (G0 a0 a2 (row1 a3)) (wOf a4 1) (rowOf a5 1) (rowOf a6 1)) :=
    allReal_layerK r3 r4 (hagg _ hx2) hx2 hx1 (allReal_wOf h4 1) (allReal_rowOf h5 1) (allReal_rowOf h6 1)
  rw [← e3]
  generalize layerK c3_2 c4_2 (aggf x2) x2 (G0 a0 a2 (row1 a3)) (wOf a4 1) (rowOf a5 1) (rowOf a6 1) = x3 at hx3 ⊢
  have e4 := layerK_eq_layerR c3_3 c4_3 (aggf x3) x3 (G0 a0 a2 (row1 a3)) (wOf a4 2) (rowOf a5 2) (rowOf a6 2)
    (allReal_statsH q1 q2 r5 r6 (hagg _ hx3) hx1 (allReal_wOf h4 2))
  have hx4 : AllReal (layerK c3_3 c4_3 (aggf x3) x3 (G0 a0 a2 (row1 a3)) (wOf a4 2) (rowOf a5 2) (rowOf a6 2)) :=
    allReal_layerK r5 r6 (hagg _ hx3) hx3 hx1 (allReal_wOf h4 2) (allReal_rowOf h5 2) (allReal_rowOf h6 2)
  rw [← e4]
  generalize layerK c3_3 c4_3 (aggf x3) x3 (G0 a0 a2 (row1 a3)) (wOf a4 2) (rowOf a5 2) (rowOf a6 2) = x4 at hx4 ⊢
  have e5 := layerK_eq_layerR c3_4 c4_4 (aggf x4) x4 (G0 a0 a2 (row1 a3)) (wOf a4 3) (rowOf a5 3) (rowOf a6 3)
    (allReal_statsH q1 q2 r7 r8 (hagg _ hx4) hx1 (allReal_wOf h4 3))
  rw [← e5]

end Cert.Alg

end
-- ==== Proof.KI.KNet.lean ====
/-
  The kernel program's result as a function of the launch contents: the first region's output is the rectified dense
  projection of the arguments; each layer's two regions and two host stretches turn the layer's input array into the next
  (the kernel's form of a layer, over the sparse aggregation the host stretch computes from the edge arrays of the prologue);
  the last region's output is the dense projection of the last layer's output. The edge arrays, the first layer's input
  and the arguments are written by no later item, so every boundary finds them as the first region left them.
-/
import proofs.«162064_j1357209666150_1_alg».proof.Proof.Gen.KernelIdeal.Regions
import proofs.«162064_j1357209666150_1_alg».proof.Proof.KI.Result
import proofs.«162064_j1357209666150_1_alg».proof.Proof.KI.Val0
import proofs.«162064_j1357209666150_1_alg».proof.Proof.KI.Val9
import proofs.«162064_j1357209666150_1_alg».proof.Proof.KI.Layer1
import proofs.«162064_j1357209666150_1_alg».proof.Proof.KI.Layer2
import proofs.«162064_j1357209666150_1_alg».proof.Proof.KI.Layer3
import proofs.«162064_j1357209666150_1_alg».proof.Proof.KI.Layer4
import proofs.«162064_j1357209666150_1_alg».proof.Proof.KI.Host0
import proofs.«162064_j1357209666150_1_alg».proof.Proof.KI.Host1
import proofs.«162064_j1357209666150_1_alg».proof.Proof.KI.Host3
import proofs.«162064_j1357209666150_1_alg».proof.Proof.KI.Host5
import proofs.«162064_j1357209666150_1_alg».proof.Proof.KI.Host7
import proofs.«162064_j1357209666150_1_alg».proof.Proof.KI.Host9
import proofs.«162064_j1357209666150_1_alg».proof.Proof.Alg.Net

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx Cert.Alg

/-! ## Congruences over plain arrays: each function reads its arrays only through their values -/

/-- The kernel form of a layer, in the spelling the regions' value lemmas leave. -/
theorem layerK_spelling (w3 w4 : BitVec 32) (ag x x0 : SN64.Idx → E) (w : S64x64'.Idx → E) (g b : S1x64'.Idx → E) :
    normG (Ideal.ofBits .f32 0x3727C5AC#32)
      (statsH (Scalar.ofBits (F := Ideal) .f32 0x3F666666#32) (Scalar.ofBits (F := Ideal) .f32 0x3DCCCCCD#32) (Scalar.ofBits (F := Ideal) .f32 w3) (Scalar.ofBits (F := Ideal) .f32 w4) ag x0 w) x
      (meanRow (statsH (Scalar.ofBits (F := Ideal) .f32 0x3F666666#32) (Scalar.ofBits (F := Ideal) .f32 0x3DCCCCCD#32) (Scalar.ofBits (F := Ideal) .f32 w3) (Scalar.ofBits (F := Ideal) .f32 w4) ag x0 w))
      (varRowK (statsH (Scalar.ofBits (F := Ideal) .f32 0x3F666666#32) (Scalar.ofBits (F := Ideal) .f32 0x3DCCCCCD#32) (Scalar.ofBits (F := Ideal) .f32 w3) (Scalar.ofBits (F := Ideal) .f32 w4) ag x0 w)) g b
      = layerK (Ideal.ofBits .f32 w3) (Ideal.ofBits .f32 w4) ag x x0 w g b := rfl

/-- The same with each of the six arrays replaced by an equal one. -/
theorem kn_layerK (w3 w4 : BitVec 32) {ag ag' x x' x0 x0' : SN64.Idx → E} {w w' : S64x64'.Idx → E} {g g' b b' : S1x64'.Idx → E}
    (ea : ag = ag') (ex : x = x') (e0 : x0 = x0') (ew : w = w') (eg : g = g') (eb : b = b') :
    normG (Ideal.ofBits .f32 0x3727C5AC#32)
      (statsH (Scalar.ofBits (F := Ideal) .f32 0x3F666666#32) (Scalar.ofBits (F := Ideal) .f32 0x3DCCCCCD#32) (Scalar.ofBits (F := Ideal) .f32 w3) (Scalar.ofBits (F := Ideal) .f32 w4) ag x0 w) x
      (meanRow (statsH (Scalar.ofBits (F := Ideal) .f32 0x3F666666#32) (Scalar.ofBits (F := Ideal) .f32 0x3DCCCCCD#32) (Scalar.ofBits (F := Ideal) .f32 w3) (Scalar.ofBits (F := Ideal) .f32 w4) ag x0 w))
      (varRowK (statsH (Scalar.ofBits (F := Ideal) .f32 0x3F666666#32) (Scalar.ofBits (F := Ideal) .f32 0x3DCCCCCD#32) (Scalar.ofBits (F := Ideal) .f32 w3) (Scalar.ofBits (F := Ideal) .f32 w4) ag x0 w)) g b
      = layerK (Ideal.ofBits .f32 w3) (Ideal.ofBits .f32 w4) ag' x' x0' w' g' b' := by
  subst ea ex e0 ew eg eb
  exact layerK_spelling w3 w4 ag x x0 w g b

theorem kn_layerK_args {c3 c4 : E} {ag ag' x x' x0 x0' : SN64.Idx → E} {w w' : S64x64'.Idx → E} {g g' b b' : S1x64'.Idx → E}
    (ea : ag = ag') (ex : x = x') (e0 : x0 = x0') (ew : w = w') (eg : g = g') (eb : b = b') :
    layerK c3 c4 ag x x0 w g b = layerK c3 c4 ag' x' x0' w' g' b' := by
  subst ea ex e0 ew eg eb; rfl

theorem kn_agg {r r' cl cl' : IVec S1000000 32} {e e' : FVec Ideal S1000000 .f32} {x x' : FVec Ideal S100000x64 .f32}
    (er : r = r') (ec : cl = cl') (ee : e = e') (ex : x = x') : agg r cl e x = agg r' cl' e' x' := by
  subst er ec ee ex; rfl

theorem kn_G0 {x x' : SN128.Idx → E} {w w' : S128x64'.Idx → E} {b b' : S1x64'.Idx → E}
    (ex : x = x') (ew : w = w') (eb : b = b') : G0 x w b = G0 x' w' b' := by
  subst ex ew eb; rfl

theorem kn_denseG {x x' : SN64.Idx → E} {w w' : S64x64'.Idx → E} {b b' : S1x64'.Idx → E}
    (ex : x = x') (ew : w = w') (eb : b = b') : denseG (K := 64) x w b = denseG (K := 64) x' w' b' := by
  subst ex ew eb; rfl

variable (m : (ℓ : Loc nD τ sig) → Buf (Elt Ideal) ℓ)

/-- The sparse aggregation over the edge arrays the prologue leaves. -/
abbrev kagg (c : Dev nD) : (SN64.Idx → E) → (SN64.Idx → E) := fun x => agg (U6 m c main_v1) (U6 m c main_v3) (U6 m c main_v29) x

/-! ## The four layers, each over the contents before its first stretch -/

/-- Layer 1: the next layer's input from this one's, over the contents before the layer's first stretch. -/
theorem klayer1 (c : Dev nD) : U10 m c main_v60
    = layerK c3_1 c4_1 (agg (U6 m c main_v1) (U6 m c main_v3) (U6 m c main_v29) (U6 m c main_v31)) (U6 m c main_v31) (U6 m c main_v31)
        (wOf (U6 m c main_arg4) 0) (rowOf (U6 m c main_arg5) 0) (rowOf (U6 m c main_arg6) 0) :=
  (layer1_core m c).trans (kn_layerK 0x3F183370#32 0x3ECF991F#32
    (host1_agg (U6 m c)) (host1_keeps (U6 m c) main_v31 (by decide)) (host1_keeps (U6 m c) main_v31 (by decide))
    (host1_mat (U6 m c)) (host1_row5 (U6 m c)) (host1_row6 (U6 m c)))

theorem k10_main_v31 (c : Dev nD) : U10 m c main_v31 = U6 m c main_v31 := (U10_main_v31 m c).trans (host1_keeps (U6 m c) main_v31 (by decide))
theorem k10_main_v1 (c : Dev nD) : U10 m c main_v1 = U6 m c main_v1 := (U10_main_v1 m c).trans (host1_keeps (U6 m c) main_v1 (by decide))
theorem k10_main_v3 (c : Dev nD) : U10 m c main_v3 = U6 m c main_v3 := (U10_main_v3 m c).trans (host1_keeps (U6 m c) main_v3 (by decide))
theorem k10_main_v29 (c : Dev nD) : U10 m c main_v29 = U6 m c main_v29 := (U10_main_v29 m c).trans (host1_keeps (U6 m c) main_v29 (by decide))
theorem k10_main_arg4 (c : Dev nD) : U10 m c main_arg4 = U6 m c main_arg4 := (U10_main_arg4 m c).trans (host1_keeps (U6 m c) main_arg4 (by decide))
theorem k10_main_arg5 (c : Dev nD) : U10 m c main_arg5 = U6 m c main_arg5 := (U10_main_arg5 m c).trans (host1_keeps (U6 m c) main_arg5 (by decide))
theorem k10_main_arg6 (c : Dev nD) : U10 m c main_arg6 = U6 m c main_arg6 := (U10_main_arg6 m c).trans (host1_keeps (U6 m c) main_arg6 (by decide))
theorem k10_main_arg7 (c : Dev nD) : U10 m c main_arg7 = U6 m c main_arg7 := (U10_main_arg7 m c).trans (host1_keeps (U6 m c) main_arg7 (by decide))
theorem k10_main_arg8 (c : Dev nD) : U10 m c main_arg8 = U6 m c main_arg8 := (U10_main_arg8 m c).trans (host1_keeps (U6 m c) main_arg8 (by decide))

/-- Layer 2: the next layer's input from this one's, over the contents before the layer's first stretch. -/
theorem klayer2 (c : Dev nD) : U14 m c main_v89
    = layerK c3_2 c4_2 (agg (U10 m c main_v1) (U10 m c main_v3) (U10 m c main_v29) (U10 m c main_v60)) (U10 m c main_v60) (U10 m c main_v31)
        (wOf (U10 m c main_arg4) 1) (rowOf (U10 m c main_arg5) 1) (rowOf (U10 m c main_arg6) 1) :=
  (layer2_core m c).trans (kn_layerK 0x3F46E010#32 0x3E647FBE#32
    (host3_agg (U10 m c)) (host3_keeps (U10 m c) main_v60 (by decide)) (host3_keeps (U10 m c) main_v31 (by decide))
    (host3_mat (U10 m c)) (host3_row5 (U10 m c)) (host3_row6 (U10 m c)))

theorem k14_main_v31 (c : Dev nD) : U14 m c main_v31 = U10 m c main_v31 := (U14_main_v31 m c).trans (host3_keeps (U10 m c) main_v31 (by decide))
theorem k14_main_v1 (c : Dev nD) : U14 m c main_v1 = U10 m c main_v1 := (U14_main_v1 m c).trans (host3_keeps (U10 m c) main_v1 (by decide))
theorem k14_main_v3 (c : Dev nD) : U14 m c main_v3 = U10 m c main_v3 := (U14_main_v3 m c).trans (host3_keeps (U10 m c) main_v3 (by decide))
theorem k14_main_v29 (c : Dev nD) : U14 m c main_v29 = U10 m c main_v29 := (U14_main_v29 m c).trans (host3_keeps (U10 m c) main_v29 (by decide))
theorem k14_main_arg4 (c : Dev nD) : U14 m c main_arg4 = U10 m c main_arg4 := (U14_main_arg4 m c).trans (host3_keeps (U10 m c) main_arg4 (by decide))
theorem k14_main_arg5 (c : Dev nD) : U14 m c main_arg5 = U10 m c main_arg5 := (U14_main_arg5 m c).trans (host3_keeps (U10 m c) main_arg5 (by decide))
theorem k14_main_arg6 (c : Dev nD) : U14 m c main_arg6 = U10 m c main_arg6 := (U14_main_arg6 m c).trans (host3_keeps (U10 m c) main_arg6 (by decide))
theorem k14_main_arg7 (c : Dev nD) : U14 m c main_arg7 = U10 m c main_arg7 := (U14_main_arg7 m c).trans (host3_keeps (U10 m c) main_arg7 (by decide))
theorem k14_main_arg8 (c : Dev nD) : U14 m c main_arg8 = U10 m c main_arg8 := (U14_main_arg8 m c).trans (host3_keeps (U10 m c) main_arg8 (by decide))

/-- Layer 3: the next layer's input from this one's, over the contents before the layer's first stretch. -/
theorem klayer3 (c : Dev nD) : U18 m c main_v118
    = layerK c3_3 c4_3 (agg (U14 m c main_v1) (U14 m c main_v3) (U14 m c main_v29) (U14 m c main_v89)) (U14 m c main_v89) (U14 m c main_v31)
        (wOf (U14 m c main_arg4) 2) (rowOf (U14 m c main_arg5) 2) (rowOf (U14 m c main_arg6) 2) :=
  (layer3_core m c).trans (kn_layerK 0x3F588995#32 0x3E1DD9AD#32
    (host5_agg (U14 m c)) (host5_keeps (U14 m c) main_v89 (by decide)) (host5_keeps (U14 m c) main_v31 (by decide))
    (host5_mat (U14 m c)) (host5_row5 (U14 m c)) (host5_row6 (U14 m c)))

theorem k18_main_v31 (c : Dev nD) : U18 m c main_v31 = U14 m c main_v31 := (U18_main_v31 m c).trans (host5_keeps (U14 m c) main_v31 (by decide))
theorem k18_main_v1 (c : Dev nD) : U18 m c main_v1 = U14 m c main_v1 := (U18_main_v1 m c).trans (host5_keeps (U14 m c) main_v1 (by decide))
theorem k18_main_v3 (c : Dev nD) : U18 m c main_v3 = U14 m c main_v3 := (U18_main_v3 m c).trans (host5_keeps (U14 m c) main_v3 (by decide))
theorem k18_main_v29 (c : Dev nD) : U18 m c main_v29 = U14 m c main_v29 := (U18_main_v29 m c).trans (host5_keeps (U14 m c) main_v29 (by decide))
theorem k18_main_arg4 (c : Dev nD) : U18 m c main_arg4 = U14 m c main_arg4 := (U18_main_arg4 m c).trans (host5_keeps (U14 m c) main_arg4 (by decide))
theorem k18_main_arg5 (c : Dev nD) : U18 m c main_arg5 = U14 m c main_arg5 := (U18_main_arg5 m c).trans (host5_keeps (U14 m c) main_arg5 (by decide))
theorem k18_main_arg6 (c : Dev nD) : U18 m c main_arg6 = U14 m c main_arg6 := (U18_main_arg6 m c).trans (host5_keeps (U14 m c) main_arg6 (by decide))
theorem k18_main_arg7 (c : Dev nD) : U18 m c main_arg7 = U14 m c main_arg7 := (U18_main_arg7 m c).trans (host5_keeps (U14 m c) main_arg7 (by decide))
theorem k18_main_arg8 (c : Dev nD) : U18 m c main_arg8 = U14 m c main_arg8 := (U18_main_arg8 m c).trans (host5_keeps (U14 m c) main_arg8 (by decide))

/-- Layer 4: the next layer's input from this one's, over the contents before the layer's first stretch. -/
theorem klayer4 (c : Dev nD) : U22 m c main_v147
    = layerK c3_4 c4_4 (agg (U18 m c main_v1) (U18 m c main_v3) (U18 m c main_v29) (U18 m c main_v118)) (U18 m c main_v118) (U18 m c main_v31)
        (wOf (U18 m c main_arg4) 3) (rowOf (U18 m c main_arg5) 3) (rowOf (U18 m c main_arg6) 3) :=
  (layer4_core m c).trans (kn_layerK 0x3F61D8F9#32 0x3DF1383B#32
    (host7_agg (U18 m c)) (host7_keeps (U18 m c) main_v118 (by decide)) (host7_keeps (U18 m c) main_v31 (by decide))
    (host7_mat (U18 m c)) (host7_row5 (U18 m c)) (host7_row6 (U18 m c)))

theorem k22_main_v31 (c : Dev nD) : U22 m c main_v31 = U18 m c main_v31 := (U22_main_v31 m c).trans (host7_keeps (U18 m c) main_v31 (by decide))
theorem k22_main_v1 (c : Dev nD) : U22 m c main_v1 = U18 m c main_v1 := (U22_main_v1 m c).trans (host7_keeps (U18 m c) main_v1 (by decide))
theorem k22_main_v3 (c : Dev nD) : U22 m c main_v3 = U18 m c main_v3 := (U22_main_v3 m c).trans (host7_keeps (U18 m c) main_v3 (by decide))
theorem k22_main_v29 (c : Dev nD) : U22 m c main_v29 = U18 m c main_v29 := (U22_main_v29 m c).trans (host7_keeps (U18 m c) main_v29 (by decide))
theorem k22_main_arg4 (c : Dev nD) : U22 m c main_arg4 = U18 m c main_arg4 := (U22_main_arg4 m c).trans (host7_keeps (U18 m c) main_arg4 (by decide))
theorem k22_main_arg5 (c : Dev nD) : U22 m c main_arg5 = U18 m c main_arg5 := (U22_main_arg5 m c).trans (host7_keeps (U18 m c) main_arg5 (by decide))
theorem k22_main_arg6 (c : Dev nD) : U22 m c main_arg6 = U18 m c main_arg6 := (U22_main_arg6 m c).trans (host7_keeps (U18 m c) main_arg6 (by decide))
theorem k22_main_arg7 (c : Dev nD) : U22 m c main_arg7 = U18 m c main_arg7 := (U22_main_arg7 m c).trans (host7_keeps (U18 m c) main_arg7 (by decide))
theorem k22_main_arg8 (c : Dev nD) : U22 m c main_arg8 = U18 m c main_arg8 := (U22_main_arg8 m c).trans (host7_keeps (U18 m c) main_arg8 (by decide))

/-! ## Every kept buffer back to the first region's exit -/

theorem k10to6_main_v31 (c : Dev nD) : U10 m c main_v31 = U6 m c main_v31 := k10_main_v31 m c
theorem k14to6_main_v31 (c : Dev nD) : U14 m c main_v31 = U6 m c main_v31 := (k14_main_v31 m c).trans (k10to6_main_v31 m c)
theorem k18to6_main_v31 (c : Dev nD) : U18 m c main_v31 = U6 m c main_v31 := (k18_main_v31 m c).trans (k14to6_main_v31 m c)
theorem k22to6_main_v31 (c : Dev nD) : U22 m c main_v31 = U6 m c main_v31 := (k22_main_v31 m c).trans (k18to6_main_v31 m c)
theorem k10to6_main_v1 (c : Dev nD) : U10 m c main_v1 = U6 m c main_v1 := k10_main_v1 m c
theorem k14to6_main_v1 (c : Dev nD) : U14 m c main_v1 = U6 m c main_v1 := (k14_main_v1 m c).trans (k10to6_main_v1 m c)
theorem k18to6_main_v1 (c : Dev nD) : U18 m c main_v1 = U6 m c main_v1 := (k18_main_v1 m c).trans (k14to6_main_v1 m c)
theorem k22to6_main_v1 (c : Dev nD) : U22 m c main_v1 = U6 m c main_v1 := (k22_main_v1 m c).trans (k18to6_main_v1 m c)
theorem k10to6_main_v3 (c : Dev nD) : U10 m c main_v3 = U6 m c main_v3 := k10_main_v3 m c
theorem k14to6_main_v3 (c : Dev nD) : U14 m c main_v3 = U6 m c main_v3 := (k14_main_v3 m c).trans (k10to6_main_v3 m c)
theorem k18to6_main_v3 (c : Dev nD) : U18 m c main_v3 = U6 m c main_v3 := (k18_main_v3 m c).trans (k14to6_main_v3 m c)
theorem k22to6_main_v3 (c : Dev nD) : U22 m c main_v3 = U6 m c main_v3 := (k22_main_v3 m c).trans (k18to6_main_v3 m c)
theorem k10to6_main_v29 (c : Dev nD) : U10 m c main_v29 = U6 m c main_v29 := k10_main_v29 m c
theorem k14to6_main_v29 (c : Dev nD) : U14 m c main_v29 = U6 m c main_v29 := (k14_main_v29 m c).trans (k10to6_main_v29 m c)
theorem k18to6_main_v29 (c : Dev nD) : U18 m c main_v29 = U6 m c main_v29 := (k18_main_v29 m c).trans (k14to6_main_v29 m c)
theorem k22to6_main_v29 (c : Dev nD) : U22 m c main_v29 = U6 m c main_v29 := (k22_main_v29 m c).trans (k18to6_main_v29 m c)
theorem k10to6_main_arg4 (c : Dev nD) : U10 m c main_arg4 = U6 m c main_arg4 := k10_main_arg4 m c
theorem k14to6_main_arg4 (c : Dev nD) : U14 m c main_arg4 = U6 m c main_arg4 := (k14_main_arg4 m c).trans (k10to6_main_arg4 m c)
theorem k18to6_main_arg4 (c : Dev nD) : U18 m c main_arg4 = U6 m c main_arg4 := (k18_main_arg4 m c).trans (k14to6_main_arg4 m c)
theorem k22to6_main_arg4 (c : Dev nD) : U22 m c main_arg4 = U6 m c main_arg4 := (k22_main_arg4 m c).trans (k18to6_main_arg4 m c)
theorem k10to6_main_arg5 (c : Dev nD) : U10 m c main_arg5 = U6 m c main_arg5 := k10_main_arg5 m c
theorem k14to6_main_arg5 (c : Dev nD) : U14 m c main_arg5 = U6 m c main_arg5 := (k14_main_arg5 m c).trans (k10to6_main_arg5 m c)
theorem k18to6_main_arg5 (c : Dev nD) : U18 m c main_arg5 = U6 m c main_arg5 := (k18_main_arg5 m c).trans (k14to6_main_arg5 m c)
theorem k22to6_main_arg5 (c : Dev nD) : U22 m c main_arg5 = U6 m c main_arg5 := (k22_main_arg5 m c).trans (k18to6_main_arg5 m c)
theorem k10to6_main_arg6 (c : Dev nD) : U10 m c main_arg6 = U6 m c main_arg6 := k10_main_arg6 m c
theorem k14to6_main_arg6 (c : Dev nD) : U14 m c main_arg6 = U6 m c main_arg6 := (k14_main_arg6 m c).trans (k10to6_main_arg6 m c)
theorem k18to6_main_arg6 (c : Dev nD) : U18 m c main_arg6 = U6 m c main_arg6 := (k18_main_arg6 m c).trans (k14to6_main_arg6 m c)
theorem k22to6_main_arg6 (c : Dev nD) : U22 m c main_arg6 = U6 m c main_arg6 := (k22_main_arg6 m c).trans (k18to6_main_arg6 m c)
theorem k10to6_main_arg7 (c : Dev nD) : U10 m c main_arg7 = U6 m c main_arg7 := k10_main_arg7 m c
theorem k14to6_main_arg7 (c : Dev nD) : U14 m c main_arg7 = U6 m c main_arg7 := (k14_main_arg7 m c).trans (k10to6_main_arg7 m c)
theorem k18to6_main_arg7 (c : Dev nD) : U18 m c main_arg7 = U6 m c main_arg7 := (k18_main_arg7 m c).trans (k14to6_main_arg7 m c)
theorem k22to6_main_arg7 (c : Dev nD) : U22 m c main_arg7 = U6 m c main_arg7 := (k22_main_arg7 m c).trans (k18to6_main_arg7 m c)
theorem k10to6_main_arg8 (c : Dev nD) : U10 m c main_arg8 = U6 m c main_arg8 := k10_main_arg8 m c
theorem k14to6_main_arg8 (c : Dev nD) : U14 m c main_arg8 = U6 m c main_arg8 := (k14_main_arg8 m c).trans (k10to6_main_arg8 m c)
theorem k18to6_main_arg8 (c : Dev nD) : U18 m c main_arg8 = U6 m c main_arg8 := (k18_main_arg8 m c).trans (k14to6_main_arg8 m c)
theorem k22to6_main_arg8 (c : Dev nD) : U22 m c main_arg8 = U6 m c main_arg8 := (k22_main_arg8 m c).trans (k18to6_main_arg8 m c)

/-! ## The first region -/

theorem k5_main_arg0 (c : Dev nD) : U5 m c main_arg0 = (m ((c.tc : Thread nD τ).loc main_arg0)) :=
  (V5_of m c main_arg0 (by decide)).trans ((V4_of m c main_arg0 (by decide)).trans ((V3_of m c main_arg0 (by decide)).trans ((V2_of m c main_arg0 (by decide)).trans (V1_of m c main_arg0 (by decide)))))
theorem k5_main_arg2 (c : Dev nD) : U5 m c main_arg2 = (m ((c.tc : Thread nD τ).loc main_arg2)) :=
  (V5_of m c main_arg2 (by decide)).trans ((V4_of m c main_arg2 (by decide)).trans ((V3_of m c main_arg2 (by decide)).trans ((V2_of m c main_arg2 (by decide)).trans (V1_of m c main_arg2 (by decide)))))
theorem k5_row (c : Dev nD) : U5 m c main_v30 = row1 (m ((c.tc : Thread nD τ).loc main_arg3)) := host0_row (V0 m c)

/-- The first region's output: the rectified dense projection of the arguments. -/
theorem kx1 (c : Dev nD) : U6 m c main_v31 = G0 (m ((c.tc : Thread nD τ).loc main_arg0)) (m ((c.tc : Thread nD τ).loc main_arg2)) (row1 (m ((c.tc : Thread nD τ).loc main_arg3))) :=
  (U6_main_v31 m c).trans ((Pipeline.withArrays_arr spec0 launch0.win.arr_inj c _ _ 3).trans ((final0 (tcv (U5 m)) c).trans
    (kn_G0 (k5_main_arg0 m c) (k5_main_arg2 m c) (k5_row m c))))

/-- An argument array at the first region's exit is its launch contents. -/
theorem k6_arg (c : Dev nD) (b : Ref sig .tc) (h6 : b ∉ ([main_v31] : List (Ref sig .tc))) (h5 : b ∉ hostOps0_4_W) (h4 : b ∉ hostOps0_3_W) (h3 : b ∉ hostOps0_2_W)
    (h2 : b ∉ hostOps0_1_W) (h1 : b ∉ hostOps0_W) : U6 m c b = m ((c.tc : Thread nD τ).loc b) :=
  (U6_of m c b h6).trans ((V5_of m c b h5).trans ((V4_of m c b h4).trans ((V3_of m c b h3).trans ((V2_of m c b h2).trans (V1_of m c b h1)))))

theorem k6_main_arg4 (c : Dev nD) : U6 m c main_arg4 = (m ((c.tc : Thread nD τ).loc main_arg4)) := k6_arg m c main_arg4 (by decide) (by decide) (by decide) (by decide) (by decide) (by decide)
theorem k6_main_arg5 (c : Dev nD) : U6 m c main_arg5 = (m ((c.tc : Thread nD τ).loc main_arg5)) := k6_arg m c main_arg5 (by decide) (by decide) (by decide) (by decide) (by decide) (by decide)
theorem k6_main_arg6 (c : Dev nD) : U6 m c main_arg6 = (m ((c.tc : Thread nD τ).loc main_arg6)) := k6_arg m c main_arg6 (by decide) (by decide) (by decide) (by decide) (by decide) (by decide)
theorem k6_main_arg7 (c : Dev nD) : U6 m c main_arg7 = (m ((c.tc : Thread nD τ).loc main_arg7)) := k6_arg m c main_arg7 (by decide) (by decide) (by decide) (by decide) (by decide) (by decide)
theorem k6_main_arg8 (c : Dev nD) : U6 m c main_arg8 = (m ((c.tc : Thread nD τ).loc main_arg8)) := k6_arg m c main_arg8 (by decide) (by decide) (by decide) (by decide) (by decide) (by decide)

/-! ## The layers' results as functions of the launch contents -/

/-- The first stage's result and the four layers' results, the kernel's way, of the argument arrays. -/
abbrev KX1 (c : Dev nD) : SN64.Idx → E := G0 (m ((c.tc : Thread nD τ).loc main_arg0)) (m ((c.tc : Thread nD τ).loc main_arg2)) (row1 (m ((c.tc : Thread nD τ).loc main_arg3)))
abbrev KX2 (c : Dev nD) : SN64.Idx → E :=
  layerK c3_1 c4_1 (kagg m c (KX1 m c)) (KX1 m c) (KX1 m c) (wOf (m ((c.tc : Thread nD τ).loc main_arg4)) 0) (rowOf (m ((c.tc : Thread nD τ).loc main_arg5)) 0) (rowOf (m ((c.tc : Thread nD τ).loc main_arg6)) 0)
abbrev KX3 (c : Dev nD) : SN64.Idx → E :=
  layerK c3_2 c4_2 (kagg m c (KX2 m c)) (KX2 m c) (KX1 m c) (wOf (m ((c.tc : Thread nD τ).loc main_arg4)) 1) (rowOf (m ((c.tc : Thread nD τ).loc main_arg5)) 1) (rowOf (m ((c.tc : Thread nD τ).loc main_arg6)) 1)
abbrev KX4 (c : Dev nD) : SN64.Idx → E :=
  layerK c3_3 c4_3 (kagg m c (KX3 m c)) (KX3 m c) (KX1 m c) (wOf (m ((c.tc : Thread nD τ).loc main_arg4)) 2) (rowOf (m ((c.tc : Thread nD τ).loc main_arg5)) 2) (rowOf (m ((c.tc : Thread nD τ).loc main_arg6)) 2)
abbrev KX5 (c : Dev nD) : SN64.Idx → E :=
  layerK c3_4 c4_4 (kagg m c (KX4 m c)) (KX4 m c) (KX1 m c) (wOf (m ((c.tc : Thread nD τ).loc main_arg4)) 3) (rowOf (m ((c.tc : Thread nD τ).loc main_arg5)) 3) (rowOf (m ((c.tc : Thread nD τ).loc main_arg6)) 3)

theorem kE1 (c : Dev nD) : U6 m c main_v31 = KX1 m c := kx1 m c

theorem kE2 (c : Dev nD) : U10 m c main_v60 = KX2 m c :=
  (klayer1 m c).trans (kn_layerK_args (congrArg (kagg m c) (kE1 m c)) (kE1 m c) (kE1 m c)
    (congrArg (fun a => wOf a 0) (k6_main_arg4 m c)) (congrArg (fun a => rowOf a 0) (k6_main_arg5 m c)) (congrArg (fun a => rowOf a 0) (k6_main_arg6 m c)))

theorem kE3 (c : Dev nD) : U14 m c main_v89 = KX3 m c :=
  (klayer2 m c).trans (kn_layerK_args
    (kn_agg (k10to6_main_v1 m c) (k10to6_main_v3 m c) (k10to6_main_v29 m c) (kE2 m c)) (kE2 m c) ((k10to6_main_v31 m c).trans (kE1 m c))
    (congrArg (fun a => wOf a 1) ((k10to6_main_arg4 m c).trans (k6_main_arg4 m c)))
    (congrArg (fun a => rowOf a 1) ((k10to6_main_arg5 m c).trans (k6_main_arg5 m c)))
    (congrArg (fun a => rowOf a 1) ((k10to6_main_arg6 m c).trans (k6_main_arg6 m c))))

theorem kE4 (c : Dev nD) : U18 m c main_v118 = KX4 m c :=
  (klayer3 m c).trans (kn_layerK_args
    (kn_agg (k14to6_main_v1 m c) (k14to6_main_v3 m c) (k14to6_main_v29 m c) (kE3 m c)) (kE3 m c) ((k14to6_main_v31 m c).trans (kE1 m c))
    (congrArg (fun a => wOf a 2) ((k14to6_main_arg4 m c).trans (k6_main_arg4 m c)))
    (congrArg (fun a => rowOf a 2) ((k14to6_main_arg5 m c).trans (k6_main_arg5 m c)))
    (congrArg (fun a => rowOf a 2) ((k14to6_main_arg6 m c).trans (k6_main_arg6 m c))))

theorem kE5 (c : Dev nD) : U22 m c main_v147 = KX5 m c :=
  (klayer4 m c).trans (kn_layerK_args
    (kn_agg (k18to6_main_v1 m c) (k18to6_main_v3 m c) (k18to6_main_v29 m c) (kE4 m c)) (kE4 m c) ((k18to6_main_v31 m c).trans (kE1 m c))
    (congrArg (fun a => wOf a 3) ((k18to6_main_arg4 m c).trans (k6_main_arg4 m c)))
    (congrArg (fun a => rowOf a 3) ((k18to6_main_arg5 m c).trans (k6_main_arg5 m c)))
    (congrArg (fun a => rowOf a 3) ((k18to6_main_arg6 m c).trans (k6_main_arg6 m c))))

/-- The network function is the final projection of the fourth layer's result. -/
theorem netK_KX (c : Dev nD) : netK (kagg m c) (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
    = denseG (K := 64) (KX5 m c) (m ((c.tc : Thread nD τ).loc main_arg7)) (row1 (m ((c.tc : Thread nD τ).loc main_arg8))) := rfl

/-- THE KERNEL'S RESULT as a function of the launch contents. -/
theorem kernel_value (c : Dev nD) : (dat9 (tcv (U23 m)) c).arrAt 3 cfg9.N
    = netK (kagg m c) (m ((c.tc : Thread nD τ).loc main_arg0)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) :=
  (final9 (tcv (U23 m)) c).trans ((kn_denseG
      ((host9_keeps (U22 m c) main_v147 (by decide)).trans (kE5 m c))
      ((host9_keeps (U22 m c) main_arg7 (by decide)).trans ((k22to6_main_arg7 m c).trans (k6_main_arg7 m c)))
      ((host9_row (U22 m c)).trans (congrArg row1 ((k22to6_main_arg8 m c).trans (k6_main_arg8 m c))))).trans
    (netK_KX m c).symm)

end Cert.KernelIdeal.Hand

end
-- ==== Proof.KI.AggReal.lean ====
/-
  Every entry of the edge weights the prologue computes, and of a layer's aggregation of all-real features, is a real
  number, whatever the integer edge indices are.

  The aggregation gathers rows of the features, multiplies each by its edge's weight and scatter-adds the products into
  an all-zero array: sums of finitely many products of reals added to 0.

  The prologue's five host stretches compute the weights from the edge indices alone. The degree array is a
  scatter-add of ones into zeros, so its entries are reals. The guarded degree takes the degree where the degree is
  above 0 and the word for 1 elsewhere, so its entries are positive reals, and the reciprocal square root of a positive
  real is a real. The scaled array takes that root or the word for 0. An edge's weight is the product of two gathered
  entries of the scaled array. Each stretch is read back from any buffer contents `W` it starts from, and the five
  readings are chained.
-/
import proofs.«162064_j1357209666150_1_alg».proof.Proof.Gen.KernelIdeal.Regions
import proofs.«162064_j1357209666150_1_alg».proof.Proof.KI.HostAgg
import proofs.«162064_j1357209666150_1_alg».proof.Proof.LibFinite
import Idealize.ShloMosaic.Lib.ValueIdx
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx Cert.Math

/-- The aggregation of all-real features by all-real weights is all-real. -/
theorem agg_real (row col : IVec S1000000 32) (ew : FVec Ideal S1000000 .f32) (x : FVec Ideal S100000x64 .f32)
    (hew : AllReal ew) (hx : AllReal x) : AllReal (agg row col ew x) := by
  unfold agg
  exact allReal_scatterAdd _ _ (allReal_broadcastInDim _ _ (allReal_constant _ isReal_ofBits_zero_f32))
    (allReal_mulf (allReal_gather _ _ hx) (allReal_broadcastInDim _ _ (allReal_broadcastInDim _ _ hew)))

/-! ## The prologue, stretch by stretch -/

set_option maxHeartbeats 4000000 in
/-- After the first stretch the degree array is all-real: ones scatter-added into zeros. -/
theorem pro0_deg_real (W : Valuation τ sig (Elt Ideal)) : AllReal (StableHlo.after hostOps0 W (Proc.devRef .tc main_v7)) := by
  after_results_simp
  exact allReal_scatterAdd _ _ (allReal_broadcastInDim _ _ (allReal_constant _ isReal_ofBits_zero_f32))
    (allReal_broadcastInDim _ _ (allReal_constant _ isReal_ofBits_one_f32))

set_option maxHeartbeats 4000000 in
/-- After the first stretch the guard is the comparison of the degree array against zeros. -/
theorem pro0_guard (W : Valuation τ sig (Elt Ideal)) :
    StableHlo.after hostOps0 W (Proc.devRef .tc main_v11)
      = cmpf .ogt (StableHlo.after hostOps0 W (Proc.devRef .tc main_v7))
          (broadcastInDim S100000 ![] bcast_S_S100000 (constant (F := Ideal) S_ .f32 0x00000000#32)) := by
  after_results_simp

set_option maxHeartbeats 4000000 in
/-- After the first stretch the scalar the guarded degree falls back to is the word for 1. -/
theorem pro0_one (W : Valuation τ sig (Elt Ideal)) :
    StableHlo.after hostOps0 W (Proc.devRef .tc main_cst_3) = constant (F := Ideal) S_ .f32 0x3F800000#32 := by
  after_results_simp

/-- The second stretch: the guarded degree is the degree where the guard is 1 and the fallback scalar elsewhere. -/
theorem pro1_safe (W : Valuation τ sig (Elt Ideal)) :
    StableHlo.after hostOps0_1 W (Proc.devRef .tc main_v12)
      = select (W main_v11) (W main_v7) (broadcastInDim S100000 ![] bcast_S_S100000 (W main_cst_3)) := by
  after_results
  rfl

/-- The third stretch: the reciprocal square root of the guarded degree. -/
theorem pro2_rsqrt (W : Valuation τ sig (Elt Ideal)) :
    StableHlo.after hostOps0_2 W (Proc.devRef .tc main_v13)
      = (Host.rsqrt (W main_v12 : FVec Ideal S100000 .f32) : FVec Ideal S100000 .f32) := by
  after_results

/-- The third stretch also sets the scalar the scaled array falls back to: the word for 0. -/
theorem pro2_zero (W : Valuation τ sig (Elt Ideal)) :
    StableHlo.after hostOps0_2 W (Proc.devRef .tc main_cst_4) = constant (F := Ideal) S_ .f32 0x00000000#32 := by
  after_results

/-- The fourth stretch: the scaled array is the root where its guard is 1 and the fallback scalar elsewhere. -/
theorem pro3_scaled (W : Valuation τ sig (Elt Ideal)) :
    StableHlo.after hostOps0_3 W (Proc.devRef .tc main_v14)
      = select (W main_v9) (W main_v13) (broadcastInDim S100000 ![] bcast_S_S100000 (W main_cst_4)) := by
  after_results
  rfl

set_option maxHeartbeats 4000000 in
/-- The fifth stretch: an edge's weight is a product of two gathered entries of the scaled array. -/
theorem pro4_ew_real (W : Valuation τ sig (Elt Ideal)) (h : AllReal (W main_v14)) :
    AllReal (StableHlo.after hostOps0_4 W (Proc.devRef .tc main_v29)) := by
  after_results_simp
  exact allReal_mulf (allReal_gather _ _ h) (allReal_gather _ _ h)

/-! ## The chain -/

/-- A one-bit comparison "above 0" that is 1 says its left operand is above 0. -/
theorem pos_of_cmp_ogt_zero {x : EReal} (h : Ideal.cmp .ogt x (Ideal.ofBits .f32 0x00000000#32) = 1#1) : 0 < x := by
  rw [Ideal.ofBits_zero_f32] at h
  have hb : decide ((0 : EReal) < x) = true := by
    cases hd : decide ((0 : EReal) < x)
    · rw [show Ideal.cmp .ogt x 0 = BitVec.ofBool (decide ((0 : EReal) < x)) from rfl, hd] at h
      exact absurd h (by decide)
    · rfl
  exact of_decide_eq_true hb

/-- An array guarded against its entries that are not above 0 — the entry where it is above 0, the word for 1
    elsewhere — has positive entries. -/
theorem select_guard_pos {s : Shape} (d z one : FVec Ideal s .f32) (hz : ∀ i, z i = Ideal.ofBits .f32 0x00000000#32)
    (hone : ∀ i, one i = Ideal.ofBits .f32 0x3F800000#32) (i : s.Idx) : 0 < select (cmpf .ogt d z) d one i := by
  show (0 : EReal) < (if Ideal.cmp .ogt (d i) (z i) = 1 then d i else one i)
  split_ifs with hc
  · rw [hz] at hc; exact pos_of_cmp_ogt_zero hc
  · rw [hone, Ideal.ofBits_one_f32]; exact zero_lt_one

/-- The prologue's five stretches, run from any buffer contents, leave all-real edge weights. -/
theorem ew_real_of (W : Valuation τ sig (Elt Ideal)) :
    AllReal (StableHlo.after hostOps0_4 (StableHlo.after hostOps0_3 (StableHlo.after hostOps0_2
      (StableHlo.after hostOps0_1 (StableHlo.after hostOps0 W)))) (Proc.devRef .tc main_v29)) := by
  refine pro4_ew_real _ ?_
  rw [pro3_scaled]
  refine allReal_select _ ?_ (allReal_broadcastInDim _ _ ?_)
  · -- the root of the guarded degree
    rw [pro2_rsqrt, pro1_safe, pro0_guard, pro0_one]
    have hone : AllReal (broadcastInDim S100000 ![] bcast_S_S100000 (constant (F := Ideal) S_ .f32 0x3F800000#32)) :=
      allReal_broadcastInDim _ _ (allReal_constant _ isReal_ofBits_one_f32)
    exact allReal_hostRsqrt (allReal_select _ (pro0_deg_real W) hone) fun i =>
      select_guard_pos _ _ _ (fun _ => rfl) (fun _ => rfl) i
  · rw [pro2_zero]
    exact allReal_constant _ isReal_ofBits_zero_f32

/-- On every core the edge weights the prologue leaves in `main_v29` are all-real. -/
theorem ew_real (m : (ℓ : Loc nD τ sig) → Buf (Elt Ideal) ℓ) (c : Dev nD) : AllReal (V5 m c main_v29) :=
  ew_real_of (V0 m c)

end Cert.KernelIdeal.Hand

end
-- ==== Proof.Alg.RefStage0.lean ====
/-
  The reference's first stage, read back from its run.

  After the reference's operations have run, its buffer `%34` holds the dense projection of the
  input array by the first weight array, plus the first bias (a row of 64 entries, repeated down
  the 100000 rows), under the rectifier: at row `p` and column `k`,
      max ((∑ j : Fin 128, x (p, j) · w (j, k)) + b k) 0.
  The run's fold of operation results at that buffer is first rewritten to one array-level term of
  the three argument arrays (each operation's result at its own buffer is its function's value, and
  an argument array is never written); that term is then read at an index: a plain matrix product at
  (p, k) is the sum over the contracted axis, a broadcast along a new leading axis reads the row's
  entry at column k, and a broadcast of a scalar reads the scalar.
-/
import proofs.«162064_j1357209666150_1_alg».proof.Proof.RefRunP
import proofs.«162064_j1357209666150_1_alg».proof.Proof.Alg.Spec
import proofs.«162064_j1357209666150_1_alg».proof.Proof.LibPlainDot
import Idealize.ShloMosaic.Lib.ValueIdx
import Idealize.ShloMosaic.Lib.Pipeline.Value

noncomputable section

namespace Cert.Alg

open Cert.ReferenceIdeal Cert.ReferenceIdeal.Gen Idealize.ShloMosaic Idealize.ShloMosaic.TcCoe Idealize.SL.Sem
  Idealize.ShloMosaic.StableHlo Idealize.ShloMosaic.ValueIdx

/-- The first stage's array-level term, read at row `p` and column `k`: the product row by column, plus
    the bias at column `k`, under the rectifier. -/
theorem stage0_term_eq (x : FVec Ideal S100000x128 .f32) (w : FVec Ideal S128x64 .f32) (b0 : FVec Ideal S64 .f32) :
    (maximumf (addf (Host.dotGeneral dot_S100000x128_S128x64_S100000x64_1_0_0_1_n_n none x w)
        (broadcastInDim S100000x64 ![0, 1] bcast_S1x64_S100000x64_0_1 (broadcastInDim S1x64 ![1] bcast_S64_S1x64_1 b0)))
      (broadcastInDim S100000x64 ![] bcast_S_S100000x64 (constant S_ .f32 0x00000000#32)) : FVec Ideal S100000x64 .f32)
      = G0 x w (fun i => b0 (ix1 (i 1))) := by
  funext i
  obtain ⟨p, k, rfl⟩ : ∃ (p : Fin 100000) (k : Fin 64), i = ix2 p k := ⟨i 0, i 1, eq_ix2 i⟩
  rw [maximumf_apply, addf_apply]
  refine congrArg₂ max (congrArg₂ (· + ·) ?_ ?_) ?_
  · exact Cert.LibPlainDot.dotGeneral_plain_apply none .single x w p k
  · refine (broadcastInDim_apply _ _ _ (ix2 p k) (ix2 (0 : Fin 1) k) ?_).trans
      (broadcastInDim_apply _ _ b0 (ix2 (0 : Fin 1) k) (ix1 k) ?_)
    · intro a; fin_cases a <;> rfl
    · intro a; fin_cases a; rfl
  · rfl

set_option maxRecDepth 8192 in
set_option maxHeartbeats 135600000 in
/-- The reference's buffer `%34` after the run, as one array-level term of the argument arrays. -/
theorem ref_x1_term (m : (ℓ : Loc nD τ sig) → Buf (Elt Ideal) ℓ) (c : Dev nD) :
    after (Cert.ReferenceIdeal.ValueP.ops (F := Ideal)) (launchContents m c) (Proc.devRef .tc main_v34)
      = (maximumf (addf (Host.dotGeneral (F := Ideal) (φ₁ := .f32) (φ₂ := .f32) dot_S100000x128_S128x64_S100000x64_1_0_0_1_n_n none
            (m ((c.tc : Thread nD τ).loc main_arg0)) (m ((c.tc : Thread nD τ).loc main_arg2)))
          (broadcastInDim S100000x64 ![0, 1] bcast_S1x64_S100000x64_0_1
            (broadcastInDim S1x64 ![1] bcast_S64_S1x64_1 (m ((c.tc : Thread nD τ).loc main_arg3)))))
        (broadcastInDim S100000x64 ![] bcast_S_S100000x64 (constant S_ .f32 0x00000000#32)) : FVec Ideal S100000x64 .f32) := by
  after_results_simp <;> rfl

/-- THE FIRST STAGE: the reference's buffer `%34` after the run is the dense projection of the
    argument arrays under the rectifier. -/
theorem ref_x1 (m : (ℓ : Loc nD τ sig) → Buf (Elt Ideal) ℓ) (c : Dev nD) :
    after (Cert.ReferenceIdeal.ValueP.ops (F := Ideal)) (launchContents m c) (Proc.devRef .tc main_v34)
      = G0 (m ((c.tc : Thread nD τ).loc main_arg0)) (m ((c.tc : Thread nD τ).loc main_arg2))
          (fun i => m ((c.tc : Thread nD τ).loc main_arg3) (ix1 (i 1))) :=
  (ref_x1_term m c).trans (stage0_term_eq _ _ _)

end Cert.Alg

end
-- ==== Proof.Alg.RefNet.lean ====
/-
  The reference program's 339 host operations cut in seven runs — the prologue (edge indices and edge weights), the first
  dense projection under the rectifier, the four layers, the final dense projection — and the run of the whole list as
  the seven runs one after the other. Every operation writes one buffer and no buffer is written twice, so a run leaves
  every buffer it does not write as it was. The first and the last run are read as whole-array functions of the buffers they
  start from; with each layer's run read as the reference's layer function of the buffers it starts from (taken here as
  hypotheses), the result buffer after all 339 operations is the network function of the nine argument arrays.
-/
import proofs.«162064_j1357209666150_1_alg».proof.Proof.RefRunP
import proofs.«162064_j1357209666150_1_alg».proof.Proof.Alg.Net
import proofs.«162064_j1357209666150_1_alg».proof.Proof.Alg.RefStage0
import proofs.«162064_j1357209666150_1_alg».proof.Proof.LibPlainDot
import Idealize.ShloMosaic.Lib.Pipeline.Frame
import Idealize.ShloMosaic.Lib.ValueIdx
import Idealize.ShloMosaic.Lib.Pipeline.Value

noncomputable section

namespace Cert.ReferenceIdeal.ValueP

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-! ## The cut -/

/-- The operations from index `a` on, `n` of them. -/
abbrev chunk (a n : Nat) : List (HloOp τ sig (Elt F)) := (ops.drop a).take n

/-- The prologue: the edge index vectors and the edge weights. -/
abbrev cP : List (HloOp τ sig (Elt F)) := chunk 0 44
/-- The first dense projection under the rectifier. -/
abbrev cD0 : List (HloOp τ sig (Elt F)) := chunk 44 7
/-- The four layers. -/
abbrev cL1 : List (HloOp τ sig (Elt F)) := chunk 51 71
abbrev cL2 : List (HloOp τ sig (Elt F)) := chunk 122 71
abbrev cL3 : List (HloOp τ sig (Elt F)) := chunk 193 71
abbrev cL4 : List (HloOp τ sig (Elt F)) := chunk 264 71
/-- The final dense projection. -/
abbrev cD9 : List (HloOp τ sig (Elt F)) := chunk 335 4

theorem ops_length : (ops : List (HloOp τ sig (Elt F))).length = 339 := rfl

/-- A list of 339 entries is its seven runs in a row. -/
theorem cut7 {α : Type} (l : List α) (hl : l.length = 339) :
    l = (l.drop 0).take 44 ++ (l.drop 44).take 7 ++ (l.drop 51).take 71 ++ (l.drop 122).take 71 ++ (l.drop 193).take 71
      ++ (l.drop 264).take 71 ++ (l.drop 335).take 4 := by
  have h : ∀ a n b : Nat, a + n = b → (l.drop a).take n ++ l.drop b = l.drop a := fun a n b hb => by
    subst hb
    have e : l.drop (a + n) = (l.drop a).drop n := by simp [List.drop_drop, Nat.add_comm]
    rw [e]; exact List.take_append_drop n _
  have e : (l.drop 335).take 4 = l.drop 335 := List.take_of_length_le (by rw [List.length_drop]; omega)
  rw [e]
  simp only [List.append_assoc]
  rw [h 264 71 335 rfl, h 193 71 264 rfl, h 122 71 193 rfl, h 51 71 122 rfl, h 44 7 51 rfl, h 0 44 44 rfl]
  rfl

theorem ops_cut : (ops : List (HloOp τ sig (Elt F))) = cP ++ cD0 ++ cL1 ++ cL2 ++ cL3 ++ cL4 ++ cD9 :=
  cut7 ops ops_length

/-- The whole list run from `W` is the seven runs one after the other. -/
theorem after_ops (W : Valuation τ sig (Elt F)) :
    after ops W = after cD9 (after cL4 (after cL3 (after cL2 (after cL1 (after cD0 (after cP W)))))) := by
  have h := congrArg (fun l => after l W) (ops_cut (F := F))
  simp only [StableHlo.after_append] at h
  exact h

/-! ## What each operation writes -/

/-- The buffer each of the 339 operations writes, in order: no buffer twice. -/
abbrev wrAll : List (Ref sig .tc) :=
  [main_v0, main_v1, main_v2, main_v3, main_cst, main_v4, main_cst_0, main_v5, main_v6, main_v7, main_cst_1, main_v8, main_v9, main_cst_2, main_v10, main_v11, main_cst_3, main_call0_v0, main_call0_v1, main_v12, main_v13, main_cst_4, main_call1_v0, main_call1_v1, main_v14, main_c, main_v15, main_v16, main_c_5, main_v17, main_v18, main_v19, main_v20, main_v21, main_c_6, main_v22, main_v23, main_c_7, main_v24, main_v25, main_v26, main_v27, main_v28, main_v29, main_v30, main_v31, main_v32, main_v33, main_call2_cst, main_call2_v0, main_v34, main_c_8, main_v35, main_v36, main_c_9, main_v37, main_v38, main_v39, main_v40, main_v41, main_v42, main_v43, main_v44, main_cst_10, main_v45, main_v46, main_v47, main_cst_11, main_v48, main_v49, main_cst_12, main_v50, main_v51, main_v52, main_cst_13, main_v53, main_v54, main_v55, main_v56, main_v57, main_cst_14, main_v58, main_v59, main_v60, main_cst_15, main_v61, main_cst_16, main_v62, main_v63, main_v64, main_v65, main_v66, main_v67, main_cst_17, main_v68, main_cst_18, main_v69, main_v70, main_v71, main_v72, main_v73, main_cst_19, main_v74, main_v75, main_v76, main_v77, main_v78, main_v79, main_v80, main_v81, main_v82, main_v83, main_v84, main_v85, main_v86, main_v87, main_v88, main_v89, main_v90, main_call3_cst, main_call3_v0, main_v91, main_c_20, main_v92, main_v93, main_c_21, main_v94, main_v95, main_v96, main_v97, main_v98, main_v99, main_v100, main_v101, main_cst_22, main_v102, main_v103, main_v104, main_cst_23, main_v105, main_v106, main_cst_24, main_v107, main_v108, main_v109, main_cst_25, main_v110, main_v111, main_v112, main_v113, main_v114, main_cst_26, main_v115, main_v116, main_v117, main_cst_27, main_v118, main_cst_28, main_v119, main_v120, main_v121, main_v122, main_v123, main_v124, main_cst_29, main_v125, main_cst_30, main_v126, main_v127, main_v128, main_v129, main_v130, main_cst_31, main_v131, main_v132, main_v133, main_v134, main_v135, main_v136, main_v137, main_v138, main_v139, main_v140, main_v141, main_v142, main_v143, main_v144, main_v145, main_v146, main_v147, main_call4_cst, main_call4_v0, main_v148, main_c_32, main_v149, main_v150, main_c_33, main_v151, main_v152, main_v153, main_v154, main_v155, main_v156, main_v157, main_v158, main_cst_34, main_v159, main_v160, main_v161, main_cst_35, main_v162, main_v163, main_cst_36, main_v164, main_v165, main_v166, main_cst_37, main_v167, main_v168, main_v169, main_v170, main_v171, main_cst_38, main_v172, main_v173, main_v174, main_cst_39, main_v175, main_cst_40, main_v176, main_v177, main_v178, main_v179, main_v180, main_v181, main_cst_41, main_v182, main_cst_42, main_v183, main_v184, main_v185, main_v186, main_v187, main_cst_43, main_v188, main_v189, main_v190, main_v191, main_v192, main_v193, main_v194, main_v195, main_v196, main_v197, main_v198, main_v199, main_v200, main_v201, main_v202, main_v203, main_v204, main_call5_cst, main_call5_v0, main_v205, main_c_44, main_v206, main_v207, main_c_45, main_v208, main_v209, main_v210, main_v211, main_v212, main_v213, main_v214, main_v215, main_cst_46, main_v216, main_v217, main_v218, main_cst_47, main_v219, main_v220, main_cst_48, main_v221, main_v222, main_v223, main_cst_49, main_v224, main_v225, main_v226, main_v227, main_v228, main_cst_50, main_v229, main_v230, main_v231, main_cst_51, main_v232, main_cst_52, main_v233, main_v234, main_v235, main_v236, main_v237, main_v238, main_cst_53, main_v239, main_cst_54, main_v240, main_v241, main_v242, main_v243, main_v244, main_cst_55, main_v245, main_v246, main_v247, main_v248, main_v249, main_v250, main_v251, main_v252, main_v253, main_v254, main_v255, main_v256, main_v257, main_v258, main_v259, main_v260, main_v261, main_call6_cst, main_call6_v0, main_v262, main_v263, main_v264, main_v265, main_v266]

set_option maxRecDepth 16384 in
set_option maxHeartbeats 40000000 in
theorem ops_writes : (ops : List (HloOp τ sig (Elt F))).map (·.writes)
    = wrAll.map fun r => ({Proc.devRef .tc r} : Finset (DevRef τ sig)) := rfl

/-- A run whose operations write exactly the buffers of a list leaves every buffer outside the list as it was. -/
theorem keep_of_writes {l : List (HloOp τ sig (Elt F))} {wl : List (Ref sig .tc)}
    (h : l.map (·.writes) = wl.map fun r => ({Proc.devRef .tc r} : Finset (DevRef τ sig)))
    (V : Valuation τ sig (Elt F)) {r : Ref sig .tc} (hr : r ∉ wl) :
    after l V (Proc.devRef .tc r) = V (Proc.devRef .tc r) :=
  after_of_forall_not_mem l V fun op hop hb => by
    have hm : op.writes ∈ l.map (·.writes) := List.mem_map.mpr ⟨op, hop, rfl⟩
    rw [h] at hm
    obtain ⟨r', hr', he⟩ := List.mem_map.mp hm
    rw [← he, Finset.mem_singleton] at hb
    exact hr (Proc.devRef_injective _ hb ▸ hr')

theorem chunk_writes (a n : Nat) : (chunk (F := F) a n).map (·.writes)
    = ((wrAll.drop a).take n).map fun r => ({Proc.devRef .tc r} : Finset (DevRef τ sig)) := by
  show ((ops.drop a).take n).map _ = _
  rw [List.map_take, List.map_drop, ops_writes, ← List.map_drop, ← List.map_take]

/-- THE KEEPS: a run of the cut leaves every buffer it does not write as it was. -/
theorem keep_chunk (a n : Nat) (W : Valuation τ sig (Elt F)) (r : Ref sig .tc) (hr : r ∉ (wrAll.drop a).take n) :
    after (chunk a n) W (Proc.devRef .tc r) = W (Proc.devRef .tc r) :=
  keep_of_writes (chunk_writes a n) W hr

/-! ## The first and the last run, read -/

theorem cD0_eq : (cD0 : List (HloOp τ sig (Elt F))) =
  [ binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v31 (broadcastInDim S1x64 ![1] bcast_S64_S1x64_1 : (⟨S64, .f32⟩ : BufTy).Contents (Elt F) → (⟨S1x64, .f32⟩ : BufTy).Contents (Elt F)),
    unary main_v31 main_v32 (broadcastInDim S100000x64 ![0, 1] bcast_S1x64_S100000x64_0_1 : (⟨S1x64, .f32⟩ : BufTy).Contents (Elt F) → (⟨S100000x64, .f32⟩ : BufTy).Contents (Elt F)),
    binary main_v30 main_v32 main_v33 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v33) (TRef.of (T := ⟨S100000x64, .f32⟩) main_call2_v0) (TRef.of (T := ⟨S100000x64, .f32⟩) main_v34) maximumf ] := rfl

theorem cD9_eq : (cD9 : List (HloOp τ sig (Elt F))) =
  [ binary main_v262 main_arg7 main_v263 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v264 (broadcastInDim S1x64 ![1] bcast_S64_S1x64_1 : (⟨S64, .f32⟩ : BufTy).Contents (Elt F) → (⟨S1x64, .f32⟩ : BufTy).Contents (Elt F)),
    unary main_v264 main_v265 (broadcastInDim S100000x64 ![0, 1] bcast_S1x64_S100000x64_0_1 : (⟨S1x64, .f32⟩ : BufTy).Contents (Elt F) → (⟨S100000x64, .f32⟩ : BufTy).Contents (Elt F)),
    binary main_v263 main_v265 main_v266 (addf : (⟨S100000x64, .f32⟩ : BufTy).Contents (Elt F) → (⟨S100000x64, .f32⟩ : BufTy).Contents (Elt F) → (⟨S100000x64, .f32⟩ : BufTy).Contents (Elt F)) ] := rfl

/-- The final run's array-level term, read at row `p` and column `k`: the product row by column plus the bias at column `k`. -/
theorem dense9_term_eq (x : FVec Ideal S100000x64 .f32) (w : FVec Ideal S64x64 .f32) (b0 : FVec Ideal S64 .f32) :
    (addf (Host.dotGeneral dot_S100000x64_S64x64_S100000x64_1_0_0_1_n_n none x w)
        (broadcastInDim S100000x64 ![0, 1] bcast_S1x64_S100000x64_0_1 (broadcastInDim S1x64 ![1] bcast_S64_S1x64_1 b0)) : FVec Ideal S100000x64 .f32)
      = Cert.Alg.denseG (K := 64) x w (Cert.Alg.row1 b0) := by
  funext i
  obtain ⟨p, k, rfl⟩ : ∃ (p : Fin 100000) (k : Fin 64), i = ix2 p k := ⟨i 0, i 1, eq_ix2 i⟩
  rw [addf_apply]
  refine congrArg₂ (· + ·) ?_ ?_
  · exact Cert.LibPlainDot.dotGeneral_plain_apply none .single x w p k
  · refine (broadcastInDim_apply _ _ _ (ix2 p k) (ix2 (0 : Fin 1) k) ?_).trans
      (broadcastInDim_apply _ _ b0 (ix2 (0 : Fin 1) k) (ix1 k) ?_)
    · intro a; fin_cases a <;> rfl
    · intro a; fin_cases a; rfl

/-- THE FIRST DENSE RUN from any contents `W`: its result buffer holds the projection of `W`'s input array by `W`'s first weight
    array plus `W`'s first bias as a row, under the rectifier. -/
theorem refD0 (W : Valuation τ sig (Elt Ideal)) :
    after cD0 W (Proc.devRef .tc main_v34)
      = Cert.Alg.G0 (W (Proc.devRef .tc main_arg0)) (W (Proc.devRef .tc main_arg2)) (Cert.Alg.row1 (W (Proc.devRef .tc main_arg3))) := by
  rw [cD0_eq]
  refine Eq.trans ?_ (Cert.Alg.stage0_term_eq (W (Proc.devRef .tc main_arg0)) (W (Proc.devRef .tc main_arg2)) (W (Proc.devRef .tc main_arg3)))
  after_results <;> rfl

/-- THE FINAL DENSE RUN from any contents `W`: its result buffer holds the projection of `W`'s last layer result by `W`'s last
    weight array plus `W`'s last bias as a row. -/
theorem refD9 (W : Valuation τ sig (Elt Ideal)) :
    after cD9 W (Proc.devRef .tc main_v266)
      = Cert.Alg.denseG (K := 64) (W (Proc.devRef .tc main_v262)) (W (Proc.devRef .tc main_arg7)) (Cert.Alg.row1 (W (Proc.devRef .tc main_arg8))) := by
  rw [cD9_eq]
  refine Eq.trans ?_ (dense9_term_eq (W (Proc.devRef .tc main_v262)) (W (Proc.devRef .tc main_arg7)) (W (Proc.devRef .tc main_arg8)))
  after_results <;> rfl

/-! ## The seven runs composed -/

section Compose

-- the sparse aggregation as a function of the two edge index vectors, the edge weights and the features (read elsewhere)
variable (aggR : (⟨S1000000, .i32⟩ : BufTy).Contents (Elt Ideal) → (⟨S1000000, .i32⟩ : BufTy).Contents (Elt Ideal)
    → (⟨S1000000, .f32⟩ : BufTy).Contents (Elt Ideal) → (Cert.Alg.SN64.Idx → Cert.Alg.E) → (Cert.Alg.SN64.Idx → Cert.Alg.E))
variable (W0 : Valuation τ sig (Elt Ideal))

/-- Layer 1's run, from any contents `W`, leaves in its result buffer the reference's layer function of `W`'s aggregation of
    the layer's input, the layer's input, the first stage's result and the layer's weights, scale row and shift row. -/
abbrev L1Reads : Prop := ∀ W : Valuation τ sig (Elt Ideal), after cL1 W (Proc.devRef .tc main_v91)
    = Cert.Alg.layerR Cert.Alg.c3_1 Cert.Alg.c4_1 (aggR (W (Proc.devRef .tc main_v1)) (W (Proc.devRef .tc main_v3)) (W (Proc.devRef .tc main_v29)) (W (Proc.devRef .tc main_v34)))
        (W (Proc.devRef .tc main_v34)) (W (Proc.devRef .tc main_v34)) (Cert.Alg.wOf (W (Proc.devRef .tc main_arg4)) 0) (Cert.Alg.rowOf (W (Proc.devRef .tc main_arg5)) 0) (Cert.Alg.rowOf (W (Proc.devRef .tc main_arg6)) 0)
/-- Layer 2's run, from any contents `W`, leaves in its result buffer the reference's layer function of `W`'s aggregation of
    the layer's input, the layer's input, the first stage's result and the layer's weights, scale row and shift row. -/
abbrev L2Reads : Prop := ∀ W : Valuation τ sig (Elt Ideal), after cL2 W (Proc.devRef .tc main_v148)
    = Cert.Alg.layerR Cert.Alg.c3_2 Cert.Alg.c4_2 (aggR (W (Proc.devRef .tc main_v1)) (W (Proc.devRef .tc main_v3)) (W (Proc.devRef .tc main_v29)) (W (Proc.devRef .tc main_v91)))
        (W (Proc.devRef .tc main_v91)) (W (Proc.devRef .tc main_v34)) (Cert.Alg.wOf (W (Proc.devRef .tc main_arg4)) 1) (Cert.Alg.rowOf (W (Proc.devRef .tc main_arg5)) 1) (Cert.Alg.rowOf (W (Proc.devRef .tc main_arg6)) 1)
/-- Layer 3's run, from any contents `W`, leaves in its result buffer the reference's layer function of `W`'s aggregation of
    the layer's input, the layer's input, the first stage's result and the layer's weights, scale row and shift row. -/
abbrev L3Reads : Prop := ∀ W : Valuation τ sig (Elt Ideal), after cL3 W (Proc.devRef .tc main_v205)
    = Cert.Alg.layerR Cert.Alg.c3_3 Cert.Alg.c4_3 (aggR (W (Proc.devRef .tc main_v1)) (W (Proc.devRef .tc main_v3)) (W (Proc.devRef .tc main_v29)) (W (Proc.devRef .tc main_v148)))
        (W (Proc.devRef .tc main_v148)) (W (Proc.devRef .tc main_v34)) (Cert.Alg.wOf (W (Proc.devRef .tc main_arg4)) 2) (Cert.Alg.rowOf (W (Proc.devRef .tc main_arg5)) 2) (Cert.Alg.rowOf (W (Proc.devRef .tc main_arg6)) 2)
/-- Layer 4's run, from any contents `W`, leaves in its result buffer the reference's layer function of `W`'s aggregation of
    the layer's input, the layer's input, the first stage's result and the layer's weights, scale row and shift row. -/
abbrev L4Reads : Prop := ∀ W : Valuation τ sig (Elt Ideal), after cL4 W (Proc.devRef .tc main_v262)
    = Cert.Alg.layerR Cert.Alg.c3_4 Cert.Alg.c4_4 (aggR (W (Proc.devRef .tc main_v1)) (W (Proc.devRef .tc main_v3)) (W (Proc.devRef .tc main_v29)) (W (Proc.devRef .tc main_v205)))
        (W (Proc.devRef .tc main_v205)) (W (Proc.devRef .tc main_v34)) (Cert.Alg.wOf (W (Proc.devRef .tc main_arg4)) 3) (Cert.Alg.rowOf (W (Proc.devRef .tc main_arg5)) 3) (Cert.Alg.rowOf (W (Proc.devRef .tc main_arg6)) 3)

/-- The contents after the prologue, the first dense run, and each layer's run. -/
abbrev R1 : Valuation τ sig (Elt Ideal) := after cP W0
abbrev R2 : Valuation τ sig (Elt Ideal) := after cD0 (R1 W0)
abbrev R3 : Valuation τ sig (Elt Ideal) := after cL1 (R2 W0)
abbrev R4 : Valuation τ sig (Elt Ideal) := after cL2 (R3 W0)
abbrev R5 : Valuation τ sig (Elt Ideal) := after cL3 (R4 W0)
abbrev R6 : Valuation τ sig (Elt Ideal) := after cL4 (R5 W0)

/-! The buffers the later runs read and no run in between writes: the argument arrays (from the start), the edge index vectors
    and edge weights (from the prologue), the first stage's result (from the first dense run). -/
theorem R1_main_arg0 : R1 W0 (Proc.devRef .tc main_arg0) = W0 (Proc.devRef .tc main_arg0) := keep_chunk 0 44 W0 main_arg0 (by decide)
theorem R1_main_arg2 : R1 W0 (Proc.devRef .tc main_arg2) = W0 (Proc.devRef .tc main_arg2) := keep_chunk 0 44 W0 main_arg2 (by decide)
theorem R1_main_arg3 : R1 W0 (Proc.devRef .tc main_arg3) = W0 (Proc.devRef .tc main_arg3) := keep_chunk 0 44 W0 main_arg3 (by decide)
theorem R1_main_arg4 : R1 W0 (Proc.devRef .tc main_arg4) = W0 (Proc.devRef .tc main_arg4) := keep_chunk 0 44 W0 main_arg4 (by decide)
theorem R1_main_arg5 : R1 W0 (Proc.devRef .tc main_arg5) = W0 (Proc.devRef .tc main_arg5) := keep_chunk 0 44 W0 main_arg5 (by decide)
theorem R1_main_arg6 : R1 W0 (Proc.devRef .tc main_arg6) = W0 (Proc.devRef .tc main_arg6) := keep_chunk 0 44 W0 main_arg6 (by decide)
theorem R1_main_arg7 : R1 W0 (Proc.devRef .tc main_arg7) = W0 (Proc.devRef .tc main_arg7) := keep_chunk 0 44 W0 main_arg7 (by decide)
theorem R1_main_arg8 : R1 W0 (Proc.devRef .tc main_arg8) = W0 (Proc.devRef .tc main_arg8) := keep_chunk 0 44 W0 main_arg8 (by decide)
theorem R2_main_v1 : R2 W0 (Proc.devRef .tc main_v1) = R1 W0 (Proc.devRef .tc main_v1) := (keep_chunk 44 7 (R1 W0) main_v1 (by decide))
theorem R2_main_v3 : R2 W0 (Proc.devRef .tc main_v3) = R1 W0 (Proc.devRef .tc main_v3) := (keep_chunk 44 7 (R1 W0) main_v3 (by decide))
theorem R2_main_v29 : R2 W0 (Proc.devRef .tc main_v29) = R1 W0 (Proc.devRef .tc main_v29) := (keep_chunk 44 7 (R1 W0) main_v29 (by decide))
theorem R2_main_arg4 : R2 W0 (Proc.devRef .tc main_arg4) = W0 (Proc.devRef .tc main_arg4) := (keep_chunk 44 7 (R1 W0) main_arg4 (by decide)).trans (R1_main_arg4 W0)
theorem R2_main_arg5 : R2 W0 (Proc.devRef .tc main_arg5) = W0 (Proc.devRef .tc main_arg5) := (keep_chunk 44 7 (R1 W0) main_arg5 (by decide)).trans (R1_main_arg5 W0)
theorem R2_main_arg6 : R2 W0 (Proc.devRef .tc main_arg6) = W0 (Proc.devRef .tc main_arg6) := (keep_chunk 44 7 (R1 W0) main_arg6 (by decide)).trans (R1_main_arg6 W0)
theorem R2_main_arg7 : R2 W0 (Proc.devRef .tc main_arg7) = W0 (Proc.devRef .tc main_arg7) := (keep_chunk 44 7 (R1 W0) main_arg7 (by decide)).trans (R1_main_arg7 W0)
theorem R2_main_arg8 : R2 W0 (Proc.devRef .tc main_arg8) = W0 (Proc.devRef .tc main_arg8) := (keep_chunk 44 7 (R1 W0) main_arg8 (by decide)).trans (R1_main_arg8 W0)
theorem R3_main_v1 : R3 W0 (Proc.devRef .tc main_v1) = R1 W0 (Proc.devRef .tc main_v1) := (keep_chunk 51 71 (R2 W0) main_v1 (by decide)).trans (R2_main_v1 W0)
theorem R3_main_v3 : R3 W0 (Proc.devRef .tc main_v3) = R1 W0 (Proc.devRef .tc main_v3) := (keep_chunk 51 71 (R2 W0) main_v3 (by decide)).trans (R2_main_v3 W0)
theorem R3_main_v29 : R3 W0 (Proc.devRef .tc main_v29) = R1 W0 (Proc.devRef .tc main_v29) := (keep_chunk 51 71 (R2 W0) main_v29 (by decide)).trans (R2_main_v29 W0)
theorem R3_main_arg4 : R3 W0 (Proc.devRef .tc main_arg4) = W0 (Proc.devRef .tc main_arg4) := (keep_chunk 51 71 (R2 W0) main_arg4 (by decide)).trans (R2_main_arg4 W0)
theorem R3_main_arg5 : R3 W0 (Proc.devRef .tc main_arg5) = W0 (Proc.devRef .tc main_arg5) := (keep_chunk 51 71 (R2 W0) main_arg5 (by decide)).trans (R2_main_arg5 W0)
theorem R3_main_arg6 : R3 W0 (Proc.devRef .tc main_arg6) = W0 (Proc.devRef .tc main_arg6) := (keep_chunk 51 71 (R2 W0) main_arg6 (by decide)).trans (R2_main_arg6 W0)
theorem R3_main_arg7 : R3 W0 (Proc.devRef .tc main_arg7) = W0 (Proc.devRef .tc main_arg7) := (keep_chunk 51 71 (R2 W0) main_arg7 (by decide)).trans (R2_main_arg7 W0)
theorem R3_main_arg8 : R3 W0 (Proc.devRef .tc main_arg8) = W0 (Proc.devRef .tc main_arg8) := (keep_chunk 51 71 (R2 W0) main_arg8 (by decide)).trans (R2_main_arg8 W0)
theorem R3_main_v34 : R3 W0 (Proc.devRef .tc main_v34) = R2 W0 (Proc.devRef .tc main_v34) := (keep_chunk 51 71 (R2 W0) main_v34 (by decide))
theorem R4_main_v1 : R4 W0 (Proc.devRef .tc main_v1) = R1 W0 (Proc.devRef .tc main_v1) := (keep_chunk 122 71 (R3 W0) main_v1 (by decide)).trans (R3_main_v1 W0)
theorem R4_main_v3 : R4 W0 (Proc.devRef .tc main_v3) = R1 W0 (Proc.devRef .tc main_v3) := (keep_chunk 122 71 (R3 W0) main_v3 (by decide)).trans (R3_main_v3 W0)
theorem R4_main_v29 : R4 W0 (Proc.devRef .tc main_v29) = R1 W0 (Proc.devRef .tc main_v29) := (keep_chunk 122 71 (R3 W0) main_v29 (by decide)).trans (R3_main_v29 W0)
theorem R4_main_arg4 : R4 W0 (Proc.devRef .tc main_arg4) = W0 (Proc.devRef .tc main_arg4) := (keep_chunk 122 71 (R3 W0) main_arg4 (by decide)).trans (R3_main_arg4 W0)
theorem R4_main_arg5 : R4 W0 (Proc.devRef .tc main_arg5) = W0 (Proc.devRef .tc main_arg5) := (keep_chunk 122 71 (R3 W0) main_arg5 (by decide)).trans (R3_main_arg5 W0)
theorem R4_main_arg6 : R4 W0 (Proc.devRef .tc main_arg6) = W0 (Proc.devRef .tc main_arg6) := (keep_chunk 122 71 (R3 W0) main_arg6 (by decide)).trans (R3_main_arg6 W0)
theorem R4_main_arg7 : R4 W0 (Proc.devRef .tc main_arg7) = W0 (Proc.devRef .tc main_arg7) := (keep_chunk 122 71 (R3 W0) main_arg7 (by decide)).trans (R3_main_arg7 W0)
theorem R4_main_arg8 : R4 W0 (Proc.devRef .tc main_arg8) = W0 (Proc.devRef .tc main_arg8) := (keep_chunk 122 71 (R3 W0) main_arg8 (by decide)).trans (R3_main_arg8 W0)
theorem R4_main_v34 : R4 W0 (Proc.devRef .tc main_v34) = R2 W0 (Proc.devRef .tc main_v34) := (keep_chunk 122 71 (R3 W0) main_v34 (by decide)).trans (R3_main_v34 W0)
theorem R5_main_v1 : R5 W0 (Proc.devRef .tc main_v1) = R1 W0 (Proc.devRef .tc main_v1) := (keep_chunk 193 71 (R4 W0) main_v1 (by decide)).trans (R4_main_v1 W0)
theorem R5_main_v3 : R5 W0 (Proc.devRef .tc main_v3) = R1 W0 (Proc.devRef .tc main_v3) := (keep_chunk 193 71 (R4 W0) main_v3 (by decide)).trans (R4_main_v3 W0)
theorem R5_main_v29 : R5 W0 (Proc.devRef .tc main_v29) = R1 W0 (Proc.devRef .tc main_v29) := (keep_chunk 193 71 (R4 W0) main_v29 (by decide)).trans (R4_main_v29 W0)
theorem R5_main_arg4 : R5 W0 (Proc.devRef .tc main_arg4) = W0 (Proc.devRef .tc main_arg4) := (keep_chunk 193 71 (R4 W0) main_arg4 (by decide)).trans (R4_main_arg4 W0)
theorem R5_main_arg5 : R5 W0 (Proc.devRef .tc main_arg5) = W0 (Proc.devRef .tc main_arg5) := (keep_chunk 193 71 (R4 W0) main_arg5 (by decide)).trans (R4_main_arg5 W0)
theorem R5_main_arg6 : R5 W0 (Proc.devRef .tc main_arg6) = W0 (Proc.devRef .tc main_arg6) := (keep_chunk 193 71 (R4 W0) main_arg6 (by decide)).trans (R4_main_arg6 W0)
theorem R5_main_arg7 : R5 W0 (Proc.devRef .tc main_arg7) = W0 (Proc.devRef .tc main_arg7) := (keep_chunk 193 71 (R4 W0) main_arg7 (by decide)).trans (R4_main_arg7 W0)
theorem R5_main_arg8 : R5 W0 (Proc.devRef .tc main_arg8) = W0 (Proc.devRef .tc main_arg8) := (keep_chunk 193 71 (R4 W0) main_arg8 (by decide)).trans (R4_main_arg8 W0)
theorem R5_main_v34 : R5 W0 (Proc.devRef .tc main_v34) = R2 W0 (Proc.devRef .tc main_v34) := (keep_chunk 193 71 (R4 W0) main_v34 (by decide)).trans (R4_main_v34 W0)
theorem R6_main_v1 : R6 W0 (Proc.devRef .tc main_v1) = R1 W0 (Proc.devRef .tc main_v1) := (keep_chunk 264 71 (R5 W0) main_v1 (by decide)).trans (R5_main_v1 W0)
theorem R6_main_v3 : R6 W0 (Proc.devRef .tc main_v3) = R1 W0 (Proc.devRef .tc main_v3) := (keep_chunk 264 71 (R5 W0) main_v3 (by decide)).trans (R5_main_v3 W0)
theorem R6_main_v29 : R6 W0 (Proc.devRef .tc main_v29) = R1 W0 (Proc.devRef .tc main_v29) := (keep_chunk 264 71 (R5 W0) main_v29 (by decide)).trans (R5_main_v29 W0)
theorem R6_main_arg4 : R6 W0 (Proc.devRef .tc main_arg4) = W0 (Proc.devRef .tc main_arg4) := (keep_chunk 264 71 (R5 W0) main_arg4 (by decide)).trans (R5_main_arg4 W0)
theorem R6_main_arg5 : R6 W0 (Proc.devRef .tc main_arg5) = W0 (Proc.devRef .tc main_arg5) := (keep_chunk 264 71 (R5 W0) main_arg5 (by decide)).trans (R5_main_arg5 W0)
theorem R6_main_arg6 : R6 W0 (Proc.devRef .tc main_arg6) = W0 (Proc.devRef .tc main_arg6) := (keep_chunk 264 71 (R5 W0) main_arg6 (by decide)).trans (R5_main_arg6 W0)
theorem R6_main_arg7 : R6 W0 (Proc.devRef .tc main_arg7) = W0 (Proc.devRef .tc main_arg7) := (keep_chunk 264 71 (R5 W0) main_arg7 (by decide)).trans (R5_main_arg7 W0)
theorem R6_main_arg8 : R6 W0 (Proc.devRef .tc main_arg8) = W0 (Proc.devRef .tc main_arg8) := (keep_chunk 264 71 (R5 W0) main_arg8 (by decide)).trans (R5_main_arg8 W0)
theorem R6_main_v34 : R6 W0 (Proc.devRef .tc main_v34) = R2 W0 (Proc.devRef .tc main_v34) := (keep_chunk 264 71 (R5 W0) main_v34 (by decide)).trans (R5_main_v34 W0)

/-- The aggregation with the prologue's edge index vectors and edge weights. -/
abbrev AG (x : Cert.Alg.SN64.Idx → Cert.Alg.E) : Cert.Alg.SN64.Idx → Cert.Alg.E :=
  aggR (R1 W0 (Proc.devRef .tc main_v1)) (R1 W0 (Proc.devRef .tc main_v3)) (R1 W0 (Proc.devRef .tc main_v29)) x
/-- The first stage's result and the four layers' results as functions of the argument arrays. -/
abbrev X1 : Cert.Alg.SN64.Idx → Cert.Alg.E :=
  Cert.Alg.G0 (W0 (Proc.devRef .tc main_arg0)) (W0 (Proc.devRef .tc main_arg2)) (Cert.Alg.row1 (W0 (Proc.devRef .tc main_arg3)))
abbrev X2 : Cert.Alg.SN64.Idx → Cert.Alg.E :=
  Cert.Alg.layerR Cert.Alg.c3_1 Cert.Alg.c4_1 (AG aggR W0 (X1 W0)) (X1 W0) (X1 W0) (Cert.Alg.wOf (W0 (Proc.devRef .tc main_arg4)) 0) (Cert.Alg.rowOf (W0 (Proc.devRef .tc main_arg5)) 0) (Cert.Alg.rowOf (W0 (Proc.devRef .tc main_arg6)) 0)
abbrev X3 : Cert.Alg.SN64.Idx → Cert.Alg.E :=
  Cert.Alg.layerR Cert.Alg.c3_2 Cert.Alg.c4_2 (AG aggR W0 (X2 aggR W0)) (X2 aggR W0) (X1 W0) (Cert.Alg.wOf (W0 (Proc.devRef .tc main_arg4)) 1) (Cert.Alg.rowOf (W0 (Proc.devRef .tc main_arg5)) 1) (Cert.Alg.rowOf (W0 (Proc.devRef .tc main_arg6)) 1)
abbrev X4 : Cert.Alg.SN64.Idx → Cert.Alg.E :=
  Cert.Alg.layerR Cert.Alg.c3_3 Cert.Alg.c4_3 (AG aggR W0 (X3 aggR W0)) (X3 aggR W0) (X1 W0) (Cert.Alg.wOf (W0 (Proc.devRef .tc main_arg4)) 2) (Cert.Alg.rowOf (W0 (Proc.devRef .tc main_arg5)) 2) (Cert.Alg.rowOf (W0 (Proc.devRef .tc main_arg6)) 2)
abbrev X5 : Cert.Alg.SN64.Idx → Cert.Alg.E :=
  Cert.Alg.layerR Cert.Alg.c3_4 Cert.Alg.c4_4 (AG aggR W0 (X4 aggR W0)) (X4 aggR W0) (X1 W0) (Cert.Alg.wOf (W0 (Proc.devRef .tc main_arg4)) 3) (Cert.Alg.rowOf (W0 (Proc.devRef .tc main_arg5)) 3) (Cert.Alg.rowOf (W0 (Proc.devRef .tc main_arg6)) 3)

theorem E2 : R2 W0 (Proc.devRef .tc main_v34) = X1 W0 := by
  refine (refD0 (R1 W0)).trans ?_
  rw [R1_main_arg0 W0, R1_main_arg2 W0, R1_main_arg3 W0]

theorem E3 (h1 : L1Reads aggR) : R3 W0 (Proc.devRef .tc main_v91) = X2 aggR W0 := by
  refine (h1 (R2 W0)).trans ?_
  rw [R2_main_v1 W0, R2_main_v3 W0, R2_main_v29 W0, E2 W0, R2_main_arg4 W0, R2_main_arg5 W0, R2_main_arg6 W0]

theorem E4 (h1 : L1Reads aggR) (h2 : L2Reads aggR) : R4 W0 (Proc.devRef .tc main_v148) = X3 aggR W0 := by
  refine (h2 (R3 W0)).trans ?_
  rw [R3_main_v1 W0, R3_main_v3 W0, R3_main_v29 W0, E3 aggR W0 h1, R3_main_v34 W0, E2 W0, R3_main_arg4 W0, R3_main_arg5 W0, R3_main_arg6 W0]

theorem E5 (h1 : L1Reads aggR) (h2 : L2Reads aggR) (h3 : L3Reads aggR) : R5 W0 (Proc.devRef .tc main_v205) = X4 aggR W0 := by
  refine (h3 (R4 W0)).trans ?_
  rw [R4_main_v1 W0, R4_main_v3 W0, R4_main_v29 W0, E4 aggR W0 h1 h2, R4_main_v34 W0, E2 W0, R4_main_arg4 W0, R4_main_arg5 W0, R4_main_arg6 W0]

theorem E6 (h1 : L1Reads aggR) (h2 : L2Reads aggR) (h3 : L3Reads aggR) (h4 : L4Reads aggR) : R6 W0 (Proc.devRef .tc main_v262) = X5 aggR W0 := by
  refine (h4 (R5 W0)).trans ?_
  rw [R5_main_v1 W0, R5_main_v3 W0, R5_main_v29 W0, E5 aggR W0 h1 h2 h3, R5_main_v34 W0, E2 W0, R5_main_arg4 W0, R5_main_arg5 W0, R5_main_arg6 W0]

/-- THE REFERENCE'S RESULT from any start contents `W0`: the network function, each layer the reference's way, of the nine
    argument arrays, with the aggregation at the prologue's edge index vectors and edge weights. -/
theorem ref_value_of (h1 : L1Reads aggR) (h2 : L2Reads aggR) (h3 : L3Reads aggR) (h4 : L4Reads aggR) :
    after ops W0 (Proc.devRef .tc main_v266)
      = Cert.Alg.netR (fun x => aggR (after cP W0 (Proc.devRef .tc main_v1)) (after cP W0 (Proc.devRef .tc main_v3)) (after cP W0 (Proc.devRef .tc main_v29)) x)
          (W0 (Proc.devRef .tc main_arg0)) (W0 (Proc.devRef .tc main_arg2)) (W0 (Proc.devRef .tc main_arg3)) (W0 (Proc.devRef .tc main_arg4)) (W0 (Proc.devRef .tc main_arg5)) (W0 (Proc.devRef .tc main_arg6))
          (W0 (Proc.devRef .tc main_arg7)) (W0 (Proc.devRef .tc main_arg8)) := by
  rw [after_ops]
  refine (refD9 (R6 W0)).trans ?_
  rw [E6 aggR W0 h1 h2 h3 h4, R6_main_arg7 W0, R6_main_arg8 W0]
  rfl

/-- The same from the launch contents of device `c`. -/
theorem ref_value (h1 : L1Reads aggR) (h2 : L2Reads aggR) (h3 : L3Reads aggR) (h4 : L4Reads aggR)
    (m' : (ℓ : Loc nD τ sig) → Buf (Elt Ideal) ℓ) (c : Dev nD) :
    after ops (launchContents m' c) (Proc.devRef .tc main_v266)
      = Cert.Alg.netR (fun x => aggR (after cP (launchContents m' c) (Proc.devRef .tc main_v1)) (after cP (launchContents m' c) (Proc.devRef .tc main_v3)) (after cP (launchContents m' c) (Proc.devRef .tc main_v29)) x)
          (m' ((c.tc : Thread nD τ).loc main_arg0)) (m' ((c.tc : Thread nD τ).loc main_arg2)) (m' ((c.tc : Thread nD τ).loc main_arg3))
          (m' ((c.tc : Thread nD τ).loc main_arg4)) (m' ((c.tc : Thread nD τ).loc main_arg5)) (m' ((c.tc : Thread nD τ).loc main_arg6))
          (m' ((c.tc : Thread nD τ).loc main_arg7)) (m' ((c.tc : Thread nD τ).loc main_arg8)) :=
  ref_value_of aggR (launchContents m' c) h1 h2 h3 h4

end Compose

end Cert.ReferenceIdeal.ValueP

end
-- ==== Proof.Alg.RefNet2.lean ====
/-
  The buffers the reference's prologue leaves — the two edge index vectors and the edge weights — are written by no later
  operation: after all 339 operations they hold what the prologue left.
-/
import proofs.«162064_j1357209666150_1_alg».proof.Proof.Alg.RefNet

noncomputable section

namespace Cert.ReferenceIdeal.ValueP

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-- A buffer none of the six runs after the prologue writes holds, after the whole list, what the prologue left. -/
theorem ops_keep (W0 : Valuation τ sig (Elt F)) (r : Ref sig .tc)
    (h2 : r ∉ (wrAll.drop 44).take 7) (h3 : r ∉ (wrAll.drop 51).take 71) (h4 : r ∉ (wrAll.drop 122).take 71)
    (h5 : r ∉ (wrAll.drop 193).take 71) (h6 : r ∉ (wrAll.drop 264).take 71) (h7 : r ∉ (wrAll.drop 335).take 4) :
    after ops W0 (Proc.devRef .tc r) = after cP W0 (Proc.devRef .tc r) :=
  (congrFun (after_ops W0) (Proc.devRef .tc r)).trans
    ((keep_chunk 335 4 _ r h7).trans ((keep_chunk 264 71 _ r h6).trans ((keep_chunk 193 71 _ r h5).trans
      ((keep_chunk 122 71 _ r h4).trans ((keep_chunk 51 71 _ r h3).trans (keep_chunk 44 7 _ r h2))))))

theorem ops_main_v1 (W0 : Valuation τ sig (Elt F)) : after ops W0 (Proc.devRef .tc main_v1) = after cP W0 (Proc.devRef .tc main_v1) :=
  ops_keep W0 main_v1 (by decide) (by decide) (by decide) (by decide) (by decide) (by decide)
theorem ops_main_v3 (W0 : Valuation τ sig (Elt F)) : after ops W0 (Proc.devRef .tc main_v3) = after cP W0 (Proc.devRef .tc main_v3) :=
  ops_keep W0 main_v3 (by decide) (by decide) (by decide) (by decide) (by decide) (by decide)
theorem ops_main_v29 (W0 : Valuation τ sig (Elt F)) : after ops W0 (Proc.devRef .tc main_v29) = after cP W0 (Proc.devRef .tc main_v29) :=
  ops_keep W0 main_v29 (by decide) (by decide) (by decide) (by decide) (by decide) (by decide)

end Cert.ReferenceIdeal.ValueP

end
-- ==== Proof.Alg.RefLayerLib.lean ====
/-
  One layer of the reference as functions of whole arrays, and their reading index by index.

  The reference computes a layer with operations on whole arrays: the sparse aggregation (gather the
  rows named by the column indices, scale by the edge weights, add into the rows named by the row
  indices), the mix  s = c1 · agg + c2 · x0, the features  h = c3 · s + c4 · (s · w)  with w one of
  four stacked 64 × 64 arrays, the row of column means  (0 + Σ_rows h) / 100000, the row of column
  variances  (0 + Σ_rows (h − mean)²) / 100000, and the normalisation
  ((h − mean) · rsqrt(var + eps)) · gamma + beta + x  under the rectifier. Read at row p and column k:
  a scalar repeated over an array is the scalar; a row repeated down the rows is its entry at k; a
  plain matrix product is the sum over the contracted axis; a sum down the rows started from a word
  is that word plus the sum over the 100000 rows; a slice of a stacked array followed by dropping
  its unit axis reads the stacked array at that block. Put together, the whole-array layer is the
  layer of `Cert.Alg` in the spelling whose sums start from the zero word.
-/
import proofs.«162064_j1357209666150_1_alg».proof.Proof.Gen.ReferenceIdeal
import proofs.«162064_j1357209666150_1_alg».proof.Proof.Alg.Net
import proofs.«162064_j1357209666150_1_alg».proof.Proof.LibPlainDot
import Idealize.ShloMosaic.Lib.StableHlo.Run
import Idealize.ShloMosaic.Lib.ValueIdx
import Idealize.ShloMosaic.Lib.Pipeline.Value
import Idealize.ShloMosaic.Lib.ValueLayout

noncomputable section

namespace Cert.RefLayer

open Cert.ReferenceIdeal Cert.ReferenceIdeal.Gen Idealize.ShloMosaic Idealize.ShloMosaic.TcCoe Idealize.SL.Sem
  Idealize.ShloMosaic.StableHlo Idealize.ShloMosaic.ValueIdx Cert.Alg

/-- The contents after two lists of operations in a row. -/
theorem after_app {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A scalar word repeated over the 100000 × 64 array. -/
abbrev bcW (w : BitVec 32) : FVec Ideal S100000x64 .f32 :=
  broadcastInDim S100000x64 ![] bcast_S_S100000x64 (constant S_ .f32 w)

/-- A scalar word repeated over a row of 64 entries. -/
abbrev bcRow (w : BitVec 32) : FVec Ideal S64 .f32 := broadcastInDim S64 ![] bcast_S_S64 (constant S_ .f32 w)

/-- A row of 64 entries repeated down the 100000 rows. -/
abbrev rowsOf (r : FVec Ideal S64 .f32) : FVec Ideal S100000x64 .f32 :=
  broadcastInDim S100000x64 ![0, 1] bcast_S1x64_S100000x64_0_1 (broadcastInDim S1x64 ![1] bcast_S64_S1x64_1 r)

/-- The sparse aggregation, kept at the level of whole arrays: gather the rows of `x` named by the
    column indices (a negative index moved up by 100000 first), scale each gathered row by its edge
    weight, and add the scaled rows into the zero array at the rows named by the row indices. -/
def aggR (row col : IVec S1000000 32) (ew : FVec Ideal S1000000 .f32) (x : FVec Ideal S100000x64 .f32) :
    FVec Ideal S100000x64 .f32 :=
  Host.scatterAdd scatter_S100000x64_S1000000x1_S1000000x64_1_0_0_1 (bcW 0x00000000#32)
    (broadcastInDim S1000000x1 ![0] bcast_S1000000_S1000000x1_0 row)
    (mulf (Host.gather gather_S100000x64_S1000000x1_S1000000x64_1_0_n_n_0_1_164 x
        (broadcastInDim S1000000x1 ![0] bcast_S1000000_S1000000x1_0
          (select (cmpi .slt col (broadcastInDim S1000000 ![] bcast_S_S1000000 (constantI S_ 32 0#32)))
            (addi col (broadcastInDim S1000000 ![] bcast_S_S1000000 (constantI S_ 32 100000#32))) col)))
      (broadcastInDim S1000000x64 ![0, 1] bcast_S1000000x1_S1000000x64_0_1
        (broadcastInDim S1000000x1 ![0] bcast_S1000000_S1000000x1_0 ew)))

/-- The mixed features, as whole arrays. -/
def sV (agg x0 : FVec Ideal S100000x64 .f32) : FVec Ideal S100000x64 .f32 :=
  addf (mulf (bcW 0x3F666666#32) agg) (mulf (bcW 0x3DCCCCCD#32) x0)

/-- One of the four stacked 64 × 64 weight arrays: the slice at the given offsets, its unit axis dropped. -/
def wSlice (off : Fin 3 → Nat) (h : S4x64x64.Slices off S1x64x64) (w4 : FVec Ideal S4x64x64 .f32) : FVec Ideal S64x64 .f32 :=
  shapeCast S64x64 (extractStridedSlice S1x64x64 off w4 h) shapeCasts_S1x64x64_S64x64

/-- One of the four stacked rows of 64 entries: the slice at the given offsets, its unit axis dropped. -/
def rowSl (off : Fin 2 → Nat) (h : S4x64.Slices off S1x64) (g4 : FVec Ideal S4x64 .f32) : FVec Ideal S64 .f32 :=
  shapeCast S64 (extractStridedSlice S1x64 off g4 h) shapeCasts_S1x64_S64

/-- The features before the normalisation, as whole arrays, with the layer's two constants `w3`, `w4`. -/
def hV (w3 w4 : BitVec 32) (s : FVec Ideal S100000x64 .f32) (wm : FVec Ideal S64x64 .f32) : FVec Ideal S100000x64 .f32 :=
  addf (mulf (bcW w3) s)
    (mulf (bcW w4)
      (Host.dotGeneral (F := Ideal) (φ₁ := .f32) (φ₂ := .f32) dot_S100000x64_S64x64_S100000x64_1_0_0_1_n_n none s wm))

/-- The row of column means, as the host computes it. -/
def muV (h : FVec Ideal S100000x64 .f32) : FVec Ideal S64 .f32 :=
  Host.divf (Host.reduceAdd h (constant S_ .f32 0x00000000#32) reducesTo_S100000x64_S64_d0 h_S_) (bcRow 0x47C35000#32)

/-- The deviations from the column means. -/
def devV (h : FVec Ideal S100000x64 .f32) : FVec Ideal S100000x64 .f32 := subf h (rowsOf (muV h))

/-- The row of column variances, as the host computes it. -/
def varV (h : FVec Ideal S100000x64 .f32) : FVec Ideal S64 .f32 :=
  Host.divf (Host.reduceAdd (mulf (devV h) (devV h)) (constant S_ .f32 0x00000000#32) reducesTo_S100000x64_S64_d0 h_S_)
    (bcRow 0x47C35000#32)

/-- The normalised features with scale, shift and residual, before the rectifier. -/
def preV (h x : FVec Ideal S100000x64 .f32) (g b : FVec Ideal S64 .f32) : FVec Ideal S100000x64 .f32 :=
  addf (addf (mulf (mulf (devV h) (rowsOf (Host.rsqrt (addf (varV h) (bcRow 0x3727C5AC#32))))) (rowsOf g)) (rowsOf b)) x

/-- The same under the rectifier. -/
def outV (h x : FVec Ideal S100000x64 .f32) (g b : FVec Ideal S64 .f32) : FVec Ideal S100000x64 .f32 :=
  maximumf (preV h x g b) (bcW 0x00000000#32)

/-! ## The whole-array functions read at an index -/

/-- A row repeated down the rows, read at row `p` and column `k`, is the row's entry at `k`. -/
theorem rowsOf_apply (r : FVec Ideal S64 .f32) (p : Fin 100000) (k : Fin 64) : rowsOf r (ix2 p k) = r (ix1 k) := by
  refine (broadcastInDim_apply _ _ _ (ix2 p k) (ix2 (0 : Fin 1) k) ?_).trans
    (broadcastInDim_apply _ _ r (ix2 (0 : Fin 1) k) (ix1 k) ?_)
  · intro a; fin_cases a <;> rfl
  · intro a; fin_cases a; rfl

/-- The mixed features are `c1 · agg + c2 · x0` entry by entry. -/
theorem sV_eq (agg x0 : FVec Ideal S100000x64 .f32) : sV agg x0 = mixS c1w c2w agg x0 := funext fun _ => rfl

/-- Block `l` of the stacked weight arrays. -/
theorem wSlice_eq (l : Fin 4) (h : S4x64x64.Slices ![l.val, 0, 0] S1x64x64) (w4 : FVec Ideal S4x64x64 .f32) :
    wSlice ![l.val, 0, 0] h w4 = wOf w4 l := by
  funext i
  obtain ⟨j, k, rfl⟩ : ∃ (j : Fin 64) (k : Fin 64), i = ix2 j k := ⟨i 0, i 1, eq_ix2 i⟩
  unfold wSlice wOf
  rw [shapeCast_1ab_ab_apply]
  exact extractStridedSlice_apply _ w4 _ (ix3 (0 : Fin 1) j k) (ix3 l j k) fun a =>
    match a with
    | ⟨0, _⟩ => rfl
    | ⟨1, _⟩ => (Nat.zero_add _).symm
    | ⟨2, _⟩ => (Nat.zero_add _).symm

/-- Row `l` of the stacked rows, as the one row of a 1 × 64 array. -/
theorem rowSl_apply (l : Fin 4) (h : S4x64.Slices ![l.val, 0] S1x64) (g4 : FVec Ideal S4x64 .f32) (k : Fin 64) :
    rowSl ![l.val, 0] h g4 (ix1 k) = g4 (ix2 l k) := by
  unfold rowSl
  rw [shapeCast_1a_a_apply]
  exact extractStridedSlice_apply _ g4 _ (ix2 (0 : Fin 1) k) (ix2 l k) fun a =>
    match a with
    | ⟨0, _⟩ => rfl
    | ⟨1, _⟩ => (Nat.zero_add _).symm

theorem rowSl_eq (l : Fin 4) (h : S4x64.Slices ![l.val, 0] S1x64) (g4 : FVec Ideal S4x64 .f32) :
    (fun i : S1x64'.Idx => rowSl ![l.val, 0] h g4 (ix1 (i 1))) = rowOf g4 l :=
  funext fun i => rowSl_apply l h g4 (i 1)

/-- The features before the normalisation are `c3 · s + c4 · (s · w)` entry by entry. -/
theorem hV_sV_eq (w3 w4 : BitVec 32) (agg x0 : FVec Ideal S100000x64 .f32) (wm : FVec Ideal S64x64 .f32) :
    hV w3 w4 (sV agg x0) wm = statsH c1w c2w (Ideal.ofBits .f32 w3) (Ideal.ofBits .f32 w4) agg x0 wm := by
  rw [sV_eq]
  funext i
  obtain ⟨p, k, rfl⟩ : ∃ (p : Fin 100000) (k : Fin 64), i = ix2 p k := ⟨i 0, i 1, eq_ix2 i⟩
  unfold hV statsH
  rw [addf_apply]
  refine congrArg₂ (· + ·) rfl (congrArg₂ (· * ·) rfl ?_)
  exact Cert.LibPlainDot.dotGeneral_plain_apply none .single _ wm p k

/-- The source index over column `k` with row `r` is `(r, k)`. -/
theorem lift_col (hR : S100000x64.Reduces [0] S64) (k : Fin 64) (r : Fin 100000) : hR.lift (ix1 k) r = ix2 r k := by
  funext c
  apply Fin.ext
  match c with
  | ⟨0, _⟩ => rfl
  | ⟨1, _⟩ => rfl

/-- The host's sum down the rows from the zero word, read at column `k`. -/
theorem colReduce_apply (h : FVec Ideal S100000x64 .f32) (k : Fin 64) :
    Host.reduceAdd h (constant S_ .f32 0x00000000#32) reducesTo_S100000x64_S64_d0 h_S_ (ix1 k)
      = z0 + ∑ r : Fin 100000, h (ix2 r k) := by
  have hR : S100000x64.Reduces [0] S64 := by decide
  refine (Ideal.hostReduceAdd_single reducesTo_S100000x64_S64_d0 hR h _ (ix1 k)).trans ?_
  refine congrArg₂ (· + ·) rfl ?_
  exact Finset.sum_congr rfl fun r _ => congrArg h (lift_col hR k r)

/-- The host's row of column means, read at column `k`. -/
theorem muV_apply (h : FVec Ideal S100000x64 .f32) (k : Fin 64) :
    muV h (ix1 k) = Ideal.div (z0 + ∑ r : Fin 100000, h (ix2 r k)) n100k := by
  unfold muV Host.divf
  show Ideal.div _ _ = _
  rw [colReduce_apply]
  rfl

/-- The deviation from the column mean at row `p`, column `k`. -/
theorem devV_apply (h : FVec Ideal S100000x64 .f32) (p : Fin 100000) (k : Fin 64) :
    devV h (ix2 p k) = h (ix2 p k) - muV h (ix1 k) := by
  unfold devV
  rw [subf_apply, rowsOf_apply]

/-- The host's row of column variances, read at column `k`. -/
theorem varV_apply (h : FVec Ideal S100000x64 .f32) (k : Fin 64) :
    varV h (ix1 k)
      = Ideal.div (z0 + ∑ r : Fin 100000, (h (ix2 r k) - muV h (ix1 k)) * (h (ix2 r k) - muV h (ix1 k))) n100k := by
  unfold varV Host.divf
  show Ideal.div _ _ = _
  rw [colReduce_apply]
  refine congrArg (fun t => Ideal.div (z0 + t) n100k) ?_
  exact Finset.sum_congr rfl fun r _ => by rw [mulf_apply, devV_apply]

/-- The host's two rows are the row of means and the row of variances whose sums start from the zero word. -/
theorem meanRowR_apply (h : FVec Ideal S100000x64 .f32) (k : Fin 64) : meanRowR h (ix2 (0 : Fin 1) k) = muV h (ix1 k) :=
  (muV_apply h k).symm
theorem varRowR_apply (h : FVec Ideal S100000x64 .f32) (k : Fin 64) : varRowR h (ix2 (0 : Fin 1) k) = varV h (ix1 k) := by
  rw [varV_apply, ← meanRowR_apply]
  rfl

/-- The normalisation as whole arrays is the batch normalisation with the row of means and the row of
    variances of its own input. -/
theorem outV_eq (h x : FVec Ideal S100000x64 .f32) (g b : FVec Ideal S64 .f32) :
    outV h x g b
      = normG epsW h x (meanRowR h) (varRowR h) (fun i => g (ix1 (i 1))) (fun i => b (ix1 (i 1))) := by
  funext i
  obtain ⟨p, k, rfl⟩ : ∃ (p : Fin 100000) (k : Fin 64), i = ix2 p k := ⟨i 0, i 1, eq_ix2 i⟩
  unfold outV preV normG
  rw [maximumf_apply, addf_apply, addf_apply, mulf_apply, mulf_apply, devV_apply, rowsOf_apply, rowsOf_apply, rowsOf_apply]
  show max ((((h (ix2 p k) - muV h (ix1 k)) * Ideal.rsqrt (varV h (ix1 k) + Ideal.ofBits .f32 0x3727C5AC#32)) * g (ix1 k)
      + b (ix1 k)) + x (ix2 p k)) z0 = _
  rw [← meanRowR_apply, ← varRowR_apply]

/-- ONE LAYER: the whole-array layer with constants `w3`, `w4`, weights `wm`, scale row `g` and shift
    row `b` is the layer of `Cert.Alg` whose sums start from the zero word. -/
theorem layerV_eq (w3 w4 : BitVec 32) (agg x x0 : FVec Ideal S100000x64 .f32) (wm : FVec Ideal S64x64 .f32)
    (g b : FVec Ideal S64 .f32) :
    outV (hV w3 w4 (sV agg x0) wm) x g b
      = layerR (Ideal.ofBits .f32 w3) (Ideal.ofBits .f32 w4) agg x x0 wm (fun i => g (ix1 (i 1))) (fun i => b (ix1 (i 1))) := by
  rw [outV_eq, hV_sV_eq]
  rfl

end Cert.RefLayer

end
-- ==== Proof.Alg.RefLayer1.lean ====
/-
  The reference's layer 1, read back from its operations.

  The layer is a stretch of 71 consecutive operations of the reference's list. From ANY contents of the
  buffers before the stretch, the result buffer after it holds the layer of `Cert.Alg` (the spelling
  whose sums start from the zero word) applied to what those contents hold at the stretch's inputs: the
  aggregation of the layer's input array, the input array itself as the residual, the first stage's
  output as the second mixed term, and block 0 of the stacked weights, scales and shifts. The
  stretch is read in two pieces: its first 68 operations up to the sum with the residual, as one term
  of whole-array functions, and its last three (the rectifier), from any contents.
-/
import proofs.«162064_j1357209666150_1_alg».proof.Proof.RefRunP
import proofs.«162064_j1357209666150_1_alg».proof.Proof.Alg.RefLayerLib

noncomputable section

namespace Cert.RefLayer

open Cert.ReferenceIdeal Cert.ReferenceIdeal.Gen Idealize.ShloMosaic Idealize.ShloMosaic.TcCoe Idealize.SL.Sem
  Idealize.ShloMosaic.StableHlo Idealize.ShloMosaic.ValueIdx Cert.Alg

variable {F : FTy → Type} [FloatOps F]

set_option maxHeartbeats 20000000 in
/-- The layer's first 68 operations, in order, as the printed list has them. -/
abbrev cL1a : List (HloOp τ sig (Elt F)) :=
  [ nullary main_c_8 (constantI S_ 32 0#32),
    unary main_c_8 main_v35 (broadcastInDim S1000000 ![] bcast_S_S1000000 : (⟨S_, .i32⟩ : BufTy).Contents (Elt F) → (⟨S1000000, .i32⟩ : BufTy).Contents (Elt F)),
    binary main_v3 main_v35 main_v36 (cmpi .slt : (⟨S1000000, .i32⟩ : BufTy).Contents (Elt F) → (⟨S1000000, .i32⟩ : BufTy).Contents (Elt F) → (⟨S1000000, .i1⟩ : BufTy).Contents (Elt F)),
    nullary main_c_9 (constantI S_ 32 100000#32),
    unary main_c_9 main_v37 (broadcastInDim S1000000 ![] bcast_S_S1000000 : (⟨S_, .i32⟩ : BufTy).Contents (Elt F) → (⟨S1000000, .i32⟩ : BufTy).Contents (Elt F)),
    binary main_v3 main_v37 main_v38 (addi : (⟨S1000000, .i32⟩ : BufTy).Contents (Elt F) → (⟨S1000000, .i32⟩ : BufTy).Contents (Elt F) → (⟨S1000000, .i32⟩ : BufTy).Contents (Elt F)),
    ternary main_v36 main_v38 main_v3 main_v39 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v39 main_v40 (broadcastInDim S1000000x1 ![0] bcast_S1000000_S1000000x1_0 : (⟨S1000000, .i32⟩ : BufTy).Contents (Elt F) → (⟨S1000000x1, .i32⟩ : BufTy).Contents (Elt F)),
    binary main_v34 main_v40 main_v41 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v29 main_v42 (broadcastInDim S1000000x1 ![0] bcast_S1000000_S1000000x1_0 : (⟨S1000000, .f32⟩ : BufTy).Contents (Elt F) → (⟨S1000000x1, .f32⟩ : BufTy).Contents (Elt F)),
    unary main_v42 main_v43 (broadcastInDim S1000000x64 ![0, 1] bcast_S1000000x1_S1000000x64_0_1 : (⟨S1000000x1, .f32⟩ : BufTy).Contents (Elt F) → (⟨S1000000x64, .f32⟩ : BufTy).Contents (Elt F)),
    binary main_v41 main_v43 main_v44 (mulf : (⟨S1000000x64, .f32⟩ : BufTy).Contents (Elt F) → (⟨S1000000x64, .f32⟩ : BufTy).Contents (Elt F) → (⟨S1000000x64, .f32⟩ : BufTy).Contents (Elt F)),
    nullary main_cst_10 (constant S_ .f32 0x00000000#32),
    unary main_cst_10 main_v45 (broadcastInDim S100000x64 ![] bcast_S_S100000x64 : (⟨S_, .f32⟩ : BufTy).Contents (Elt F) → (⟨S100000x64, .f32⟩ : BufTy).Contents (Elt F)),
    unary main_v1 main_v46 (broadcastInDim S1000000x1 ![0] bcast_S1000000_S1000000x1_0 : (⟨S1000000, .i32⟩ : BufTy).Contents (Elt F) → (⟨S1000000x1, .i32⟩ : BufTy).Contents (Elt F)),
    ternary main_v45 main_v46 main_v44 main_v47 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_11 (constant S_ .f32 0x3F666666#32),
    unary main_cst_11 main_v48 (broadcastInDim S100000x64 ![] bcast_S_S100000x64 : (⟨S_, .f32⟩ : BufTy).Contents (Elt F) → (⟨S100000x64, .f32⟩ : BufTy).Contents (Elt F)),
    binary main_v48 main_v47 main_v49 (mulf : (⟨S100000x64, .f32⟩ : BufTy).Contents (Elt F) → (⟨S100000x64, .f32⟩ : BufTy).Contents (Elt F) → (⟨S100000x64, .f32⟩ : BufTy).Contents (Elt F)),
    nullary main_cst_12 (constant S_ .f32 0x3DCCCCCD#32),
    unary main_cst_12 main_v50 (broadcastInDim S100000x64 ![] bcast_S_S100000x64 : (⟨S_, .f32⟩ : BufTy).Contents (Elt F) → (⟨S100000x64, .f32⟩ : BufTy).Contents (Elt F)),
    binary main_v50 main_v34 main_v51 (mulf : (⟨S100000x64, .f32⟩ : BufTy).Contents (Elt F) → (⟨S100000x64, .f32⟩ : BufTy).Contents (Elt F) → (⟨S100000x64, .f32⟩ : BufTy).Contents (Elt F)),
    binary main_v49 main_v51 main_v52 (addf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3F183370#32),
    unary main_cst_13 main_v53 (broadcastInDim S100000x64 ![] bcast_S_S100000x64 : (⟨S_, .f32⟩ : BufTy).Contents (Elt F) → (⟨S100000x64, .f32⟩ : BufTy).Contents (Elt F)),
    binary main_v53 main_v52 main_v54 (mulf : (⟨S100000x64, .f32⟩ : BufTy).Contents (Elt F) → (⟨S100000x64, .f32⟩ : BufTy).Contents (Elt F) → (⟨S100000x64, .f32⟩ : BufTy).Contents (Elt F)),
    unary main_arg4 main_v55 ((extractStridedSlice S1x64x64 ![0, 0, 0] · slices_S4x64x64_S1x64x64_0_0_0) : (⟨S4x64x64, .f32⟩ : BufTy).Contents (Elt F) → (⟨S1x64x64, .f32⟩ : BufTy).Contents (Elt F)),
    reshape main_v55 main_v56 rfl shapeCasts_S1x64x64_S64x64,
    binary main_v52 main_v56 main_v57 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_14 (constant S_ .f32 0x3ECF991F#32),
    unary main_cst_14 main_v58 (broadcastInDim S100000x64 ![] bcast_S_S100000x64 : (⟨S_, .f32⟩ : BufTy).Contents (Elt F) → (⟨S100000x64, .f32⟩ : BufTy).Contents (Elt F)),
    binary main_v58 main_v57 main_v59 (mulf : (⟨S100000x64, .f32⟩ : BufTy).Contents (Elt F) → (⟨S100000x64, .f32⟩ : BufTy).Contents (Elt F) → (⟨S100000x64, .f32⟩ : BufTy).Contents (Elt F)),
    binary main_v54 main_v59 main_v60 (addf : (⟨S100000x64, .f32⟩ : BufTy).Contents (Elt F) → (⟨S100000x64, .f32⟩ : BufTy).Contents (Elt F) → (⟨S100000x64, .f32⟩ : BufTy).Contents (Elt F)),
    nullary main_cst_15 (constant S_ .f32 0x00000000#32),
    binary main_v60 main_cst_15 main_v61 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_16 (constant S_ .f32 0x47C35000#32),
    unary main_cst_16 main_v62 (broadcastInDim S64 ![] bcast_S_S64 : (⟨S_, .f32⟩ : BufTy).Contents (Elt F) → (⟨S64, .f32⟩ : BufTy).Contents (Elt F)),
    binary main_v61 main_v62 main_v63 (Host.divf : (⟨S64, .f32⟩ : BufTy).Contents (Elt F) → (⟨S64, .f32⟩ : BufTy).Contents (Elt F) → (⟨S64, .f32⟩ : BufTy).Contents (Elt F)),
    unary main_v63 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v60 main_v65 main_v66 (subf : (⟨S100000x64, .f32⟩ : BufTy).Contents (Elt F) → (⟨S100000x64, .f32⟩ : BufTy).Contents (Elt F) → (⟨S100000x64, .f32⟩ : BufTy).Contents (Elt F)),
    binary main_v66 main_v66 main_v67 (mulf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v67 main_cst_17 main_v68 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v69 (broadcastInDim S64 ![] bcast_S_S64 : (⟨S_, .f32⟩ : BufTy).Contents (Elt F) → (⟨S64, .f32⟩ : BufTy).Contents (Elt F)),
    binary main_v68 main_v69 main_v70 (Host.divf : (⟨S64, .f32⟩ : BufTy).Contents (Elt F) → (⟨S64, .f32⟩ : BufTy).Contents (Elt F) → (⟨S64, .f32⟩ : BufTy).Contents (Elt F)),
    unary main_v63 main_v71 (broadcastInDim S1x64 ![1] bcast_S64_S1x64_1 : (⟨S64, .f32⟩ : BufTy).Contents (Elt F) → (⟨S1x64, .f32⟩ : BufTy).Contents (Elt F)),
    unary main_v71 main_v72 (broadcastInDim S100000x64 ![0, 1] bcast_S1x64_S100000x64_0_1 : (⟨S1x64, .f32⟩ : BufTy).Contents (Elt F) → (⟨S100000x64, .f32⟩ : BufTy).Contents (Elt F)),
    binary main_v60 main_v72 main_v73 (subf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x3727C5AC#32),
    unary main_cst_19 main_v74 (broadcastInDim S64 ![] bcast_S_S64 : (⟨S_, .f32⟩ : BufTy).Contents (Elt F) → (⟨S64, .f32⟩ : BufTy).Contents (Elt F)),
    binary main_v70 main_v74 main_v75 (addf : (⟨S64, .f32⟩ : BufTy).Contents (Elt F) → (⟨S64, .f32⟩ : BufTy).Contents (Elt F) → (⟨S64, .f32⟩ : BufTy).Contents (Elt F)),
    unary main_v75 main_v76 (Host.rsqrt : (⟨S64, .f32⟩ : BufTy).Contents (Elt F) → (⟨S64, .f32⟩ : BufTy).Contents (Elt F)),
    unary main_v76 main_v77 (broadcastInDim S1x64 ![1] bcast_S64_S1x64_1 : (⟨S64, .f32⟩ : BufTy).Contents (Elt F) → (⟨S1x64, .f32⟩ : BufTy).Contents (Elt F)),
    unary main_v77 main_v78 (broadcastInDim S100000x64 ![0, 1] bcast_S1x64_S100000x64_0_1 : (⟨S1x64, .f32⟩ : BufTy).Contents (Elt F) → (⟨S100000x64, .f32⟩ : BufTy).Contents (Elt F)),
    binary main_v73 main_v78 main_v79 (mulf : (⟨S100000x64, .f32⟩ : BufTy).Contents (Elt F) → (⟨S100000x64, .f32⟩ : BufTy).Contents (Elt F) → (⟨S100000x64, .f32⟩ : BufTy).Contents (Elt F)),
    unary main_arg5 main_v80 ((extractStridedSlice S1x64 ![0, 0] · slices_S4x64_S1x64_0_0) : (⟨S4x64, .f32⟩ : BufTy).Contents (Elt F) → (⟨S1x64, .f32⟩ : BufTy).Contents (Elt F)),
    reshape main_v80 main_v81 rfl shapeCasts_S1x64_S64,
    unary main_v81 main_v82 (broadcastInDim S1x64 ![1] bcast_S64_S1x64_1 : (⟨S64, .f32⟩ : BufTy).Contents (Elt F) → (⟨S1x64, .f32⟩ : BufTy).Contents (Elt F)),
    unary main_v82 main_v83 (broadcastInDim S100000x64 ![0, 1] bcast_S1x64_S100000x64_0_1 : (⟨S1x64, .f32⟩ : BufTy).Contents (Elt F) → (⟨S100000x64, .f32⟩ : BufTy).Contents (Elt F)),
    binary main_v79 main_v83 main_v84 (mulf : (⟨S100000x64, .f32⟩ : BufTy).Contents (Elt F) → (⟨S100000x64, .f32⟩ : BufTy).Contents (Elt F) → (⟨S100000x64, .f32⟩ : BufTy).Contents (Elt F)),
    unary main_arg6 main_v85 ((extractStridedSlice S1x64 ![0, 0] · slices_S4x64_S1x64_0_0) : (⟨S4x64, .f32⟩ : BufTy).Contents (Elt F) → (⟨S1x64, .f32⟩ : BufTy).Contents (Elt F)),
    reshape main_v85 main_v86 rfl shapeCasts_S1x64_S64,
    unary main_v86 main_v87 (broadcastInDim S1x64 ![1] bcast_S64_S1x64_1 : (⟨S64, .f32⟩ : BufTy).Contents (Elt F) → (⟨S1x64, .f32⟩ : BufTy).Contents (Elt F)),
    unary main_v87 main_v88 (broadcastInDim S100000x64 ![0, 1] bcast_S1x64_S100000x64_0_1 : (⟨S1x64, .f32⟩ : BufTy).Contents (Elt F) → (⟨S100000x64, .f32⟩ : BufTy).Contents (Elt F)),
    binary main_v84 main_v88 main_v89 (addf : (⟨S100000x64, .f32⟩ : BufTy).Contents (Elt F) → (⟨S100000x64, .f32⟩ : BufTy).Contents (Elt F) → (⟨S100000x64, .f32⟩ : BufTy).Contents (Elt F)),
    binary main_v89 main_v34 main_v90 (addf : (⟨S100000x64, .f32⟩ : BufTy).Contents (Elt F) → (⟨S100000x64, .f32⟩ : BufTy).Contents (Elt F) → (⟨S100000x64, .f32⟩ : BufTy).Contents (Elt F)) ]

/-- The layer's last three operations: the rectifier. -/
abbrev cL1b : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v90) (TRef.of (T := ⟨S100000x64, .f32⟩) main_call3_v0) (TRef.of (T := ⟨S100000x64, .f32⟩) main_v91) maximumf ]

/-- The layer's 71 operations. -/
abbrev cL1 : List (HloOp τ sig (Elt F)) := cL1a ++ cL1b

set_option maxRecDepth 8192 in
/-- They are the reference's own operations 51 to 121 (counting from 0). -/
theorem cL1_eq : (cL1 : List (HloOp τ sig (Elt F))) = (Cert.ReferenceIdeal.ValueP.ops.drop 51).take 71 := rfl

set_option maxRecDepth 8192 in
set_option maxHeartbeats 20000000 in
/-- The rectifier, from any contents. -/
theorem tailL1 (V : Valuation τ sig (Elt Ideal)) :
    after (cL1b (F := Ideal)) V (Proc.devRef .tc main_v91)
      = maximumf (V (Proc.devRef .tc main_v90)) (bcW 0x00000000#32) := by
  after_results_simp <;> rfl

set_option maxRecDepth 8192 in
set_option maxHeartbeats 135600000 in
/-- The layer before the rectifier, from any contents, as one term of whole-array functions. -/
theorem preL1 (W : Valuation τ sig (Elt Ideal)) :
    after (cL1a (F := Ideal)) W (Proc.devRef .tc main_v90)
      = preV (hV 0x3F183370#32 0x3ECF991F#32 (sV (aggR (W (Proc.devRef .tc main_v1)) (W (Proc.devRef .tc main_v3)) (W (Proc.devRef .tc main_v29)) (W (Proc.devRef .tc main_v34))) (W (Proc.devRef .tc main_v34)))
            (wSlice ![0, 0, 0] slices_S4x64x64_S1x64x64_0_0_0 (W (Proc.devRef .tc main_arg4))))
          (W (Proc.devRef .tc main_v34)) (rowSl ![0, 0] slices_S4x64_S1x64_0_0 (W (Proc.devRef .tc main_arg5)))
          (rowSl ![0, 0] slices_S4x64_S1x64_0_0 (W (Proc.devRef .tc main_arg6))) := by
  after_results_simp <;> rfl

/-- LAYER 1 of the reference, from any contents `W` of the buffers before it. -/
theorem refL1 (W : Valuation τ sig (Elt Ideal)) :
    after (cL1 (F := Ideal)) W (Proc.devRef .tc main_v91)
      = layerR c3_1 c4_1 (aggR (W (Proc.devRef .tc main_v1)) (W (Proc.devRef .tc main_v3)) (W (Proc.devRef .tc main_v29)) (W (Proc.devRef .tc main_v34))) (W (Proc.devRef .tc main_v34)) (W (Proc.devRef .tc main_v34))
          (wOf (W (Proc.devRef .tc main_arg4)) 0) (rowOf (W (Proc.devRef .tc main_arg5)) 0) (rowOf (W (Proc.devRef .tc main_arg6)) 0) := by
  have hw : wSlice ![0, 0, 0] slices_S4x64x64_S1x64x64_0_0_0 (W (Proc.devRef .tc main_arg4)) = wOf (W (Proc.devRef .tc main_arg4)) 0 :=
    wSlice_eq (0 : Fin 4) _ _
  have hg : (fun i : S1x64'.Idx => rowSl ![0, 0] slices_S4x64_S1x64_0_0 (W (Proc.devRef .tc main_arg5)) (ix1 (i 1)))
      = rowOf (W (Proc.devRef .tc main_arg5)) 0 := rowSl_eq (0 : Fin 4) _ _
  have hb : (fun i : S1x64'.Idx => rowSl ![0, 0] slices_S4x64_S1x64_0_0 (W (Proc.devRef .tc main_arg6)) (ix1 (i 1)))
      = rowOf (W (Proc.devRef .tc main_arg6)) 0 := rowSl_eq (0 : Fin 4) _ _
  refine ((congrFun (after_app _ _ W) _).trans ((tailL1 _).trans
    (congrArg (fun t => maximumf t (bcW 0x00000000#32)) (preL1 W)))).trans ?_
  refine (layerV_eq _ _ _ _ _ _ _ _).trans ?_
  rw [hw, hg, hb]

/-- The same, stated on the stretch cut out of the reference's list. -/
theorem refL1' (W : Valuation τ sig (Elt Ideal)) :
    after ((Cert.ReferenceIdeal.ValueP.ops (F := Ideal)).drop 51 |>.take 71) W (Proc.devRef .tc main_v91)
      = layerR c3_1 c4_1 (aggR (W (Proc.devRef .tc main_v1)) (W (Proc.devRef .tc main_v3)) (W (Proc.devRef .tc main_v29)) (W (Proc.devRef .tc main_v34))) (W (Proc.devRef .tc main_v34)) (W (Proc.devRef .tc main_v34))
          (wOf (W (Proc.devRef .tc main_arg4)) 0) (rowOf (W (Proc.devRef .tc main_arg5)) 0) (rowOf (W (Proc.devRef .tc main_arg6)) 0) :=
  cL1_eq (F := Ideal) ▸ refL1 W

end Cert.RefLayer

end
-- ==== Proof.Alg.RefLayer2.lean ====
/-
  The reference's layer 2, read back from its operations.

  The layer is a stretch of 71 consecutive operations of the reference's list. From ANY contents of the
  buffers before the stretch, the result buffer after it holds the layer of `Cert.Alg` (the spelling
  whose sums start from the zero word) applied to what those contents hold at the stretch's inputs: the
  aggregation of the layer's input array, the input array itself as the residual, the first stage's
  output as the second mixed term, and block 1 of the stacked weights, scales and shifts. The
  stretch is read in two pieces: its first 68 operations up to the sum with the residual, as one term
  of whole-array functions, and its last three (the rectifier), from any contents.
-/
import proofs.«162064_j1357209666150_1_alg».proof.Proof.RefRunP
import proofs.«162064_j1357209666150_1_alg».proof.Proof.Alg.RefLayerLib

noncomputable section

namespace Cert.RefLayer

open Cert.ReferenceIdeal Cert.ReferenceIdeal.Gen Idealize.ShloMosaic Idealize.ShloMosaic.TcCoe Idealize.SL.Sem
  Idealize.ShloMosaic.StableHlo Idealize.ShloMosaic.ValueIdx Cert.Alg

variable {F : FTy → Type} [FloatOps F]

set_option maxHeartbeats 20000000 in
/-- The layer's first 68 operations, in order, as the printed list has them. -/
abbrev cL2a : List (HloOp τ sig (Elt F)) :=
  [ nullary main_c_20 (constantI S_ 32 0#32),
    unary main_c_20 main_v92 (broadcastInDim S1000000 ![] bcast_S_S1000000 : (⟨S_, .i32⟩ : BufTy).Contents (Elt F) → (⟨S1000000, .i32⟩ : BufTy).Contents (Elt F)),
    binary main_v3 main_v92 main_v93 (cmpi .slt : (⟨S1000000, .i32⟩ : BufTy).Contents (Elt F) → (⟨S1000000, .i32⟩ : BufTy).Contents (Elt F) → (⟨S1000000, .i1⟩ : BufTy).Contents (Elt F)),
    nullary main_c_21 (constantI S_ 32 100000#32),
    unary main_c_21 main_v94 (broadcastInDim S1000000 ![] bcast_S_S1000000 : (⟨S_, .i32⟩ : BufTy).Contents (Elt F) → (⟨S1000000, .i32⟩ : BufTy).Contents (Elt F)),
    binary main_v3 main_v94 main_v95 (addi : (⟨S1000000, .i32⟩ : BufTy).Contents (Elt F) → (⟨S1000000, .i32⟩ : BufTy).Contents (Elt F) → (⟨S1000000, .i32⟩ : BufTy).Contents (Elt F)),
    ternary main_v93 main_v95 main_v3 main_v96 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v96 main_v97 (broadcastInDim S1000000x1 ![0] bcast_S1000000_S1000000x1_0 : (⟨S1000000, .i32⟩ : BufTy).Contents (Elt F) → (⟨S1000000x1, .i32⟩ : BufTy).Contents (Elt F)),
    binary main_v91 main_v97 main_v98 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v29 main_v99 (broadcastInDim S1000000x1 ![0] bcast_S1000000_S1000000x1_0 : (⟨S1000000, .f32⟩ : BufTy).Contents (Elt F) → (⟨S1000000x1, .f32⟩ : BufTy).Contents (Elt F)),
    unary main_v99 main_v100 (broadcastInDim S1000000x64 ![0, 1] bcast_S1000000x1_S1000000x64_0_1 : (⟨S1000000x1, .f32⟩ : BufTy).Contents (Elt F) → (⟨S1000000x64, .f32⟩ : BufTy).Contents (Elt F)),
    binary main_v98 main_v100 main_v101 (mulf : (⟨S1000000x64, .f32⟩ : BufTy).Contents (Elt F) → (⟨S1000000x64, .f32⟩ : BufTy).Contents (Elt F) → (⟨S1000000x64, .f32⟩ : BufTy).Contents (Elt F)),
    nullary main_cst_22 (constant S_ .f32 0x00000000#32),
    unary main_cst_22 main_v102 (broadcastInDim S100000x64 ![] bcast_S_S100000x64 : (⟨S_, .f32⟩ : BufTy).Contents (Elt F) → (⟨S100000x64, .f32⟩ : BufTy).Contents (Elt F)),
    unary main_v1 main_v103 (broadcastInDim S1000000x1 ![0] bcast_S1000000_S1000000x1_0 : (⟨S1000000, .i32⟩ : BufTy).Contents (Elt F) → (⟨S1000000x1, .i32⟩ : BufTy).Contents (Elt F)),
    ternary main_v102 main_v103 main_v101 main_v104 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_23 (constant S_ .f32 0x3F666666#32),
    unary main_cst_23 main_v105 (broadcastInDim S100000x64 ![] bcast_S_S100000x64 : (⟨S_, .f32⟩ : BufTy).Contents (Elt F) → (⟨S100000x64, .f32⟩ : BufTy).Contents (Elt F)),
    binary main_v105 main_v104 main_v106 (mulf : (⟨S100000x64, .f32⟩ : BufTy).Contents (Elt F) → (⟨S100000x64, .f32⟩ : BufTy).Contents (Elt F) → (⟨S100000x64, .f32⟩ : BufTy).Contents (Elt F)),
    nullary main_cst_24 (constant S_ .f32 0x3DCCCCCD#32),
    unary main_cst_24 main_v107 (broadcastInDim S100000x64 ![] bcast_S_S100000x64 : (⟨S_, .f32⟩ : BufTy).Contents (Elt F) → (⟨S100000x64, .f32⟩ : BufTy).Contents (Elt F)),
    binary main_v107 main_v34 main_v108 (mulf : (⟨S100000x64, .f32⟩ : BufTy).Contents (Elt F) → (⟨S100000x64, .f32⟩ : BufTy).Contents (Elt F) → (⟨S100000x64, .f32⟩ : BufTy).Contents (Elt F)),
    binary main_v106 main_v108 main_v109 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x3F46E010#32),
    unary main_cst_25 main_v110 (broadcastInDim S100000x64 ![] bcast_S_S100000x64 : (⟨S_, .f32⟩ : BufTy).Contents (Elt F) → (⟨S100000x64, .f32⟩ : BufTy).Contents (Elt F)),
    binary main_v110 main_v109 main_v111 (mulf : (⟨S100000x64, .f32⟩ : BufTy).Contents (Elt F) → (⟨S100000x64, .f32⟩ : BufTy).Contents (Elt F) → (⟨S100000x64, .f32⟩ : BufTy).Contents (Elt F)),
    unary main_arg4 main_v112 ((extractStridedSlice S1x64x64 ![1, 0, 0] · slices_S4x64x64_S1x64x64_1_0_0) : (⟨S4x64x64, .f32⟩ : BufTy).Contents (Elt F) → (⟨S1x64x64, .f32⟩ : BufTy).Contents (Elt F)),
    reshape main_v112 main_v113 rfl shapeCasts_S1x64x64_S64x64,
    binary main_v109 main_v113 main_v114 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_26 (constant S_ .f32 0x3E647FBE#32),
    unary main_cst_26 main_v115 (broadcastInDim S100000x64 ![] bcast_S_S100000x64 : (⟨S_, .f32⟩ : BufTy).Contents (Elt F) → (⟨S100000x64, .f32⟩ : BufTy).Contents (Elt F)),
    binary main_v115 main_v114 main_v116 (mulf : (⟨S100000x64, .f32⟩ : BufTy).Contents (Elt F) → (⟨S100000x64, .f32⟩ : BufTy).Contents (Elt F) → (⟨S100000x64, .f32⟩ : BufTy).Contents (Elt F)),
    binary main_v111 main_v116 main_v117 (addf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v117 main_cst_27 main_v118 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v119 (broadcastInDim S64 ![] bcast_S_S64 : (⟨S_, .f32⟩ : BufTy).Contents (Elt F) → (⟨S64, .f32⟩ : BufTy).Contents (Elt F)),
    binary main_v118 main_v119 main_v120 (Host.divf : (⟨S64, .f32⟩ : BufTy).Contents (Elt F) → (⟨S64, .f32⟩ : BufTy).Contents (Elt F) → (⟨S64, .f32⟩ : BufTy).Contents (Elt F)),
    unary main_v120 main_v121 (broadcastInDim S1x64 ![1] bcast_S64_S1x64_1 : (⟨S64, .f32⟩ : BufTy).Contents (Elt F) → (⟨S1x64, .f32⟩ : BufTy).Contents (Elt F)),
    unary main_v121 main_v122 (broadcastInDim S100000x64 ![0, 1] bcast_S1x64_S100000x64_0_1 : (⟨S1x64, .f32⟩ : BufTy).Contents (Elt F) → (⟨S100000x64, .f32⟩ : BufTy).Contents (Elt F)),
    binary main_v117 main_v122 main_v123 (subf : (⟨S100000x64, .f32⟩ : BufTy).Contents (Elt F) → (⟨S100000x64, .f32⟩ : BufTy).Contents (Elt F) → (⟨S100000x64, .f32⟩ : BufTy).Contents (Elt F)),
    binary main_v123 main_v123 main_v124 (mulf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x00000000#32),
    binary main_v124 main_cst_29 main_v125 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_30 (constant S_ .f32 0x47C35000#32),
    unary main_cst_30 main_v126 (broadcastInDim S64 ![] bcast_S_S64 : (⟨S_, .f32⟩ : BufTy).Contents (Elt F) → (⟨S64, .f32⟩ : BufTy).Contents (Elt F)),
    binary main_v125 main_v126 main_v127 (Host.divf : (⟨S64, .f32⟩ : BufTy).Contents (Elt F) → (⟨S64, .f32⟩ : BufTy).Contents (Elt F) → (⟨S64, .f32⟩ : BufTy).Contents (Elt F)),
    unary main_v120 main_v128 (broadcastInDim S1x64 ![1] bcast_S64_S1x64_1 : (⟨S64, .f32⟩ : BufTy).Contents (Elt F) → (⟨S1x64, .f32⟩ : BufTy).Contents (Elt F)),
    unary main_v128 main_v129 (broadcastInDim S100000x64 ![0, 1] bcast_S1x64_S100000x64_0_1 : (⟨S1x64, .f32⟩ : BufTy).Contents (Elt F) → (⟨S100000x64, .f32⟩ : BufTy).Contents (Elt F)),
    binary main_v117 main_v129 main_v130 (subf : (⟨S100000x64, .f32⟩ : BufTy).Contents (Elt F) → (⟨S100000x64, .f32⟩ : BufTy).Contents (Elt F) → (⟨S100000x64, .f32⟩ : BufTy).Contents (Elt F)),
    nullary main_cst_31 (constant S_ .f32 0x3727C5AC#32),
    unary main_cst_31 main_v131 (broadcastInDim S64 ![] bcast_S_S64 : (⟨S_, .f32⟩ : BufTy).Contents (Elt F) → (⟨S64, .f32⟩ : BufTy).Contents (Elt F)),
    binary main_v127 main_v131 main_v132 (addf : (⟨S64, .f32⟩ : BufTy).Contents (Elt F) → (⟨S64, .f32⟩ : BufTy).Contents (Elt F) → (⟨S64, .f32⟩ : BufTy).Contents (Elt F)),
    unary main_v132 main_v133 (Host.rsqrt : (⟨S64, .f32⟩ : BufTy).Contents (Elt F) → (⟨S64, .f32⟩ : BufTy).Contents (Elt F)),
    unary main_v133 main_v134 (broadcastInDim S1x64 ![1] bcast_S64_S1x64_1 : (⟨S64, .f32⟩ : BufTy).Contents (Elt F) → (⟨S1x64, .f32⟩ : BufTy).Contents (Elt F)),
    unary main_v134 main_v135 (broadcastInDim S100000x64 ![0, 1] bcast_S1x64_S100000x64_0_1 : (⟨S1x64, .f32⟩ : BufTy).Contents (Elt F) → (⟨S100000x64, .f32⟩ : BufTy).Contents (Elt F)),
    binary main_v130 main_v135 main_v136 (mulf : (⟨S100000x64, .f32⟩ : BufTy).Contents (Elt F) → (⟨S100000x64, .f32⟩ : BufTy).Contents (Elt F) → (⟨S100000x64, .f32⟩ : BufTy).Contents (Elt F)),
    unary main_arg5 main_v137 ((extractStridedSlice S1x64 ![1, 0] · slices_S4x64_S1x64_1_0) : (⟨S4x64, .f32⟩ : BufTy).Contents (Elt F) → (⟨S1x64, .f32⟩ : BufTy).Contents (Elt F)),
    reshape main_v137 main_v138 rfl shapeCasts_S1x64_S64,
    unary main_v138 main_v139 (broadcastInDim S1x64 ![1] bcast_S64_S1x64_1 : (⟨S64, .f32⟩ : BufTy).Contents (Elt F) → (⟨S1x64, .f32⟩ : BufTy).Contents (Elt F)),
    unary main_v139 main_v140 (broadcastInDim S100000x64 ![0, 1] bcast_S1x64_S100000x64_0_1 : (⟨S1x64, .f32⟩ : BufTy).Contents (Elt F) → (⟨S100000x64, .f32⟩ : BufTy).Contents (Elt F)),
    binary main_v136 main_v140 main_v141 (mulf : (⟨S100000x64, .f32⟩ : BufTy).Contents (Elt F) → (⟨S100000x64, .f32⟩ : BufTy).Contents (Elt F) → (⟨S100000x64, .f32⟩ : BufTy).Contents (Elt F)),
    unary main_arg6 main_v142 ((extractStridedSlice S1x64 ![1, 0] · slices_S4x64_S1x64_1_0) : (⟨S4x64, .f32⟩ : BufTy).Contents (Elt F) → (⟨S1x64, .f32⟩ : BufTy).Contents (Elt F)),
    reshape main_v142 main_v143 rfl shapeCasts_S1x64_S64,
    unary main_v143 main_v144 (broadcastInDim S1x64 ![1] bcast_S64_S1x64_1 : (⟨S64, .f32⟩ : BufTy).Contents (Elt F) → (⟨S1x64, .f32⟩ : BufTy).Contents (Elt F)),
    unary main_v144 main_v145 (broadcastInDim S100000x64 ![0, 1] bcast_S1x64_S100000x64_0_1 : (⟨S1x64, .f32⟩ : BufTy).Contents (Elt F) → (⟨S100000x64, .f32⟩ : BufTy).Contents (Elt F)),
    binary main_v141 main_v145 main_v146 (addf : (⟨S100000x64, .f32⟩ : BufTy).Contents (Elt F) → (⟨S100000x64, .f32⟩ : BufTy).Contents (Elt F) → (⟨S100000x64, .f32⟩ : BufTy).Contents (Elt F)),
    binary main_v146 main_v91 main_v147 (addf : (⟨S100000x64, .f32⟩ : BufTy).Contents (Elt F) → (⟨S100000x64, .f32⟩ : BufTy).Contents (Elt F) → (⟨S100000x64, .f32⟩ : BufTy).Contents (Elt F)) ]

/-- The layer's last three operations: the rectifier. -/
abbrev cL2b : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v147) (TRef.of (T := ⟨S100000x64, .f32⟩) main_call4_v0) (TRef.of (T := ⟨S100000x64, .f32⟩) main_v148) maximumf ]

/-- The layer's 71 operations. -/
abbrev cL2 : List (HloOp τ sig (Elt F)) := cL2a ++ cL2b

set_option maxRecDepth 8192 in
/-- They are the reference's own operations 122 to 192 (counting from 0). -/
theorem cL2_eq : (cL2 : List (HloOp τ sig (Elt F))) = (Cert.ReferenceIdeal.ValueP.ops.drop 122).take 71 := rfl

set_option maxRecDepth 8192 in
set_option maxHeartbeats 20000000 in
/-- The rectifier, from any contents. -/
theorem tailL2 (V : Valuation τ sig (Elt Ideal)) :
    after (cL2b (F := Ideal)) V (Proc.devRef .tc main_v148)
      = maximumf (V (Proc.devRef .tc main_v147)) (bcW 0x00000000#32) := by
  after_results_simp <;> rfl

set_option maxRecDepth 8192 in
set_option maxHeartbeats 135600000 in
/-- The layer before the rectifier, from any contents, as one term of whole-array functions. -/
theorem preL2 (W : Valuation τ sig (Elt Ideal)) :
    after (cL2a (F := Ideal)) W (Proc.devRef .tc main_v147)
      = preV (hV 0x3F46E010#32 0x3E647FBE#32 (sV (aggR (W (Proc.devRef .tc main_v1)) (W (Proc.devRef .tc main_v3)) (W (Proc.devRef .tc main_v29)) (W (Proc.devRef .tc main_v91))) (W (Proc.devRef .tc main_v34)))
            (wSlice ![1, 0, 0] slices_S4x64x64_S1x64x64_1_0_0 (W (Proc.devRef .tc main_arg4))))
          (W (Proc.devRef .tc main_v91)) (rowSl ![1, 0] slices_S4x64_S1x64_1_0 (W (Proc.devRef .tc main_arg5)))
          (rowSl ![1, 0] slices_S4x64_S1x64_1_0 (W (Proc.devRef .tc main_arg6))) := by
  after_results_simp <;> rfl

/-- LAYER 2 of the reference, from any contents `W` of the buffers before it. -/
theorem refL2 (W : Valuation τ sig (Elt Ideal)) :
    after (cL2 (F := Ideal)) W (Proc.devRef .tc main_v148)
      = layerR c3_2 c4_2 (aggR (W (Proc.devRef .tc main_v1)) (W (Proc.devRef .tc main_v3)) (W (Proc.devRef .tc main_v29)) (W (Proc.devRef .tc main_v91))) (W (Proc.devRef .tc main_v91)) (W (Proc.devRef .tc main_v34))
          (wOf (W (Proc.devRef .tc main_arg4)) 1) (rowOf (W (Proc.devRef .tc main_arg5)) 1) (rowOf (W (Proc.devRef .tc main_arg6)) 1) := by
  have hw : wSlice ![1, 0, 0] slices_S4x64x64_S1x64x64_1_0_0 (W (Proc.devRef .tc main_arg4)) = wOf (W (Proc.devRef .tc main_arg4)) 1 :=
    wSlice_eq (1 : Fin 4) _ _
  have hg : (fun i : S1x64'.Idx => rowSl ![1, 0] slices_S4x64_S1x64_1_0 (W (Proc.devRef .tc main_arg5)) (ix1 (i 1)))
      = rowOf (W (Proc.devRef .tc main_arg5)) 1 := rowSl_eq (1 : Fin 4) _ _
  have hb : (fun i : S1x64'.Idx => rowSl ![1, 0] slices_S4x64_S1x64_1_0 (W (Proc.devRef .tc main_arg6)) (ix1 (i 1)))
      = rowOf (W (Proc.devRef .tc main_arg6)) 1 := rowSl_eq (1 : Fin 4) _ _
  refine ((congrFun (after_app _ _ W) _).trans ((tailL2 _).trans
    (congrArg (fun t => maximumf t (bcW 0x00000000#32)) (preL2 W)))).trans ?_
  refine (layerV_eq _ _ _ _ _ _ _ _).trans ?_
  rw [hw, hg, hb]

/-- The same, stated on the stretch cut out of the reference's list. -/
theorem refL2' (W : Valuation τ sig (Elt Ideal)) :
    after ((Cert.ReferenceIdeal.ValueP.ops (F := Ideal)).drop 122 |>.take 71) W (Proc.devRef .tc main_v148)
      = layerR c3_2 c4_2 (aggR (W (Proc.devRef .tc main_v1)) (W (Proc.devRef .tc main_v3)) (W (Proc.devRef .tc main_v29)) (W (Proc.devRef .tc main_v91))) (W (Proc.devRef .tc main_v91)) (W (Proc.devRef .tc main_v34))
          (wOf (W (Proc.devRef .tc main_arg4)) 1) (rowOf (W (Proc.devRef .tc main_arg5)) 1) (rowOf (W (Proc.devRef .tc main_arg6)) 1) :=
  cL2_eq (F := Ideal) ▸ refL2 W

end Cert.RefLayer

end
-- ==== Proof.Alg.RefLayer3.lean ====
/-
  The reference's layer 3, read back from its operations.

  The layer is a stretch of 71 consecutive operations of the reference's list. From ANY contents of the
  buffers before the stretch, the result buffer after it holds the layer of `Cert.Alg` (the spelling
  whose sums start from the zero word) applied to what those contents hold at the stretch's inputs: the
  aggregation of the layer's input array, the input array itself as the residual, the first stage's
  output as the second mixed term, and block 2 of the stacked weights, scales and shifts. The
  stretch is read in two pieces: its first 68 operations up to the sum with the residual, as one term
  of whole-array functions, and its last three (the rectifier), from any contents.
-/
import proofs.«162064_j1357209666150_1_alg».proof.Proof.RefRunP
import proofs.«162064_j1357209666150_1_alg».proof.Proof.Alg.RefLayerLib

noncomputable section

namespace Cert.RefLayer

open Cert.ReferenceIdeal Cert.ReferenceIdeal.Gen Idealize.ShloMosaic Idealize.ShloMosaic.TcCoe Idealize.SL.Sem
  Idealize.ShloMosaic.StableHlo Idealize.ShloMosaic.ValueIdx Cert.Alg

variable {F : FTy → Type} [FloatOps F]

set_option maxHeartbeats 20000000 in
/-- The layer's first 68 operations, in order, as the printed list has them. -/
abbrev cL3a : List (HloOp τ sig (Elt F)) :=
  [ nullary main_c_32 (constantI S_ 32 0#32),
    unary main_c_32 main_v149 (broadcastInDim S1000000 ![] bcast_S_S1000000 : (⟨S_, .i32⟩ : BufTy).Contents (Elt F) → (⟨S1000000, .i32⟩ : BufTy).Contents (Elt F)),
    binary main_v3 main_v149 main_v150 (cmpi .slt : (⟨S1000000, .i32⟩ : BufTy).Contents (Elt F) → (⟨S1000000, .i32⟩ : BufTy).Contents (Elt F) → (⟨S1000000, .i1⟩ : BufTy).Contents (Elt F)),
    nullary main_c_33 (constantI S_ 32 100000#32),
    unary main_c_33 main_v151 (broadcastInDim S1000000 ![] bcast_S_S1000000 : (⟨S_, .i32⟩ : BufTy).Contents (Elt F) → (⟨S1000000, .i32⟩ : BufTy).Contents (Elt F)),
    binary main_v3 main_v151 main_v152 (addi : (⟨S1000000, .i32⟩ : BufTy).Contents (Elt F) → (⟨S1000000, .i32⟩ : BufTy).Contents (Elt F) → (⟨S1000000, .i32⟩ : BufTy).Contents (Elt F)),
    ternary main_v150 main_v152 main_v3 main_v153 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v153 main_v154 (broadcastInDim S1000000x1 ![0] bcast_S1000000_S1000000x1_0 : (⟨S1000000, .i32⟩ : BufTy).Contents (Elt F) → (⟨S1000000x1, .i32⟩ : BufTy).Contents (Elt F)),
    binary main_v148 main_v154 main_v155 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v29 main_v156 (broadcastInDim S1000000x1 ![0] bcast_S1000000_S1000000x1_0 : (⟨S1000000, .f32⟩ : BufTy).Contents (Elt F) → (⟨S1000000x1, .f32⟩ : BufTy).Contents (Elt F)),
    unary main_v156 main_v157 (broadcastInDim S1000000x64 ![0, 1] bcast_S1000000x1_S1000000x64_0_1 : (⟨S1000000x1, .f32⟩ : BufTy).Contents (Elt F) → (⟨S1000000x64, .f32⟩ : BufTy).Contents (Elt F)),
    binary main_v155 main_v157 main_v158 (mulf : (⟨S1000000x64, .f32⟩ : BufTy).Contents (Elt F) → (⟨S1000000x64, .f32⟩ : BufTy).Contents (Elt F) → (⟨S1000000x64, .f32⟩ : BufTy).Contents (Elt F)),
    nullary main_cst_34 (constant S_ .f32 0x00000000#32),
    unary main_cst_34 main_v159 (broadcastInDim S100000x64 ![] bcast_S_S100000x64 : (⟨S_, .f32⟩ : BufTy).Contents (Elt F) → (⟨S100000x64, .f32⟩ : BufTy).Contents (Elt F)),
    unary main_v1 main_v160 (broadcastInDim S1000000x1 ![0] bcast_S1000000_S1000000x1_0 : (⟨S1000000, .i32⟩ : BufTy).Contents (Elt F) → (⟨S1000000x1, .i32⟩ : BufTy).Contents (Elt F)),
    ternary main_v159 main_v160 main_v158 main_v161 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_35 (constant S_ .f32 0x3F666666#32),
    unary main_cst_35 main_v162 (broadcastInDim S100000x64 ![] bcast_S_S100000x64 : (⟨S_, .f32⟩ : BufTy).Contents (Elt F) → (⟨S100000x64, .f32⟩ : BufTy).Contents (Elt F)),
    binary main_v162 main_v161 main_v163 (mulf : (⟨S100000x64, .f32⟩ : BufTy).Contents (Elt F) → (⟨S100000x64, .f32⟩ : BufTy).Contents (Elt F) → (⟨S100000x64, .f32⟩ : BufTy).Contents (Elt F)),
    nullary main_cst_36 (constant S_ .f32 0x3DCCCCCD#32),
    unary main_cst_36 main_v164 (broadcastInDim S100000x64 ![] bcast_S_S100000x64 : (⟨S_, .f32⟩ : BufTy).Contents (Elt F) → (⟨S100000x64, .f32⟩ : BufTy).Contents (Elt F)),
    binary main_v164 main_v34 main_v165 (mulf : (⟨S100000x64, .f32⟩ : BufTy).Contents (Elt F) → (⟨S100000x64, .f32⟩ : BufTy).Contents (Elt F) → (⟨S100000x64, .f32⟩ : BufTy).Contents (Elt F)),
    binary main_v163 main_v165 main_v166 (addf : (⟨S100000x64, .f32⟩ : BufTy).Contents (Elt F) → (⟨S100000x64, .f32⟩ : BufTy).Contents (Elt F) → (⟨S100000x64, .f32⟩ : BufTy).Contents (Elt F)),
    nullary main_cst_37 (constant S_ .f32 0x3F588995#32),
    unary main_cst_37 main_v167 (broadcastInDim S100000x64 ![] bcast_S_S100000x64 : (⟨S_, .f32⟩ : BufTy).Contents (Elt F) → (⟨S100000x64, .f32⟩ : BufTy).Contents (Elt F)),
    binary main_v167 main_v166 main_v168 (mulf : (⟨S100000x64, .f32⟩ : BufTy).Contents (Elt F) → (⟨S100000x64, .f32⟩ : BufTy).Contents (Elt F) → (⟨S100000x64, .f32⟩ : BufTy).Contents (Elt F)),
    unary main_arg4 main_v169 ((extractStridedSlice S1x64x64 ![2, 0, 0] · slices_S4x64x64_S1x64x64_2_0_0) : (⟨S4x64x64, .f32⟩ : BufTy).Contents (Elt F) → (⟨S1x64x64, .f32⟩ : BufTy).Contents (Elt F)),
    reshape main_v169 main_v170 rfl shapeCasts_S1x64x64_S64x64,
    binary main_v166 main_v170 main_v171 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_38 (constant S_ .f32 0x3E1DD9AD#32),
    unary main_cst_38 main_v172 (broadcastInDim S100000x64 ![] bcast_S_S100000x64 : (⟨S_, .f32⟩ : BufTy).Contents (Elt F) → (⟨S100000x64, .f32⟩ : BufTy).Contents (Elt F)),
    binary main_v172 main_v171 main_v173 (mulf : (⟨S100000x64, .f32⟩ : BufTy).Contents (Elt F) → (⟨S100000x64, .f32⟩ : BufTy).Contents (Elt F) → (⟨S100000x64, .f32⟩ : BufTy).Contents (Elt F)),
    binary main_v168 main_v173 main_v174 (addf : (⟨S100000x64, .f32⟩ : BufTy).Contents (Elt F) → (⟨S100000x64, .f32⟩ : BufTy).Contents (Elt F) → (⟨S100000x64, .f32⟩ : BufTy).Contents (Elt F)),
    nullary main_cst_39 (constant S_ .f32 0x00000000#32),
    binary main_v174 main_cst_39 main_v175 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_40 (constant S_ .f32 0x47C35000#32),
    unary main_cst_40 main_v176 (broadcastInDim S64 ![] bcast_S_S64 : (⟨S_, .f32⟩ : BufTy).Contents (Elt F) → (⟨S64, .f32⟩ : BufTy).Contents (Elt F)),
    binary main_v175 main_v176 main_v177 (Host.divf : (⟨S64, .f32⟩ : BufTy).Contents (Elt F) → (⟨S64, .f32⟩ : BufTy).Contents (Elt F) → (⟨S64, .f32⟩ : BufTy).Contents (Elt F)),
    unary main_v177 main_v178 (broadcastInDim S1x64 ![1] bcast_S64_S1x64_1 : (⟨S64, .f32⟩ : BufTy).Contents (Elt F) → (⟨S1x64, .f32⟩ : BufTy).Contents (Elt F)),
    unary main_v178 main_v179 (broadcastInDim S100000x64 ![0, 1] bcast_S1x64_S100000x64_0_1 : (⟨S1x64, .f32⟩ : BufTy).Contents (Elt F) → (⟨S100000x64, .f32⟩ : BufTy).Contents (Elt F)),
    binary main_v174 main_v179 main_v180 (subf : (⟨S100000x64, .f32⟩ : BufTy).Contents (Elt F) → (⟨S100000x64, .f32⟩ : BufTy).Contents (Elt F) → (⟨S100000x64, .f32⟩ : BufTy).Contents (Elt F)),
    binary main_v180 main_v180 main_v181 (mulf : (⟨S100000x64, .f32⟩ : BufTy).Contents (Elt F) → (⟨S100000x64, .f32⟩ : BufTy).Contents (Elt F) → (⟨S100000x64, .f32⟩ : BufTy).Contents (Elt F)),
    nullary main_cst_41 (constant S_ .f32 0x00000000#32),
    binary main_v181 main_cst_41 main_v182 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_42 (constant S_ .f32 0x47C35000#32),
    unary main_cst_42 main_v183 (broadcastInDim S64 ![] bcast_S_S64 : (⟨S_, .f32⟩ : BufTy).Contents (Elt F) → (⟨S64, .f32⟩ : BufTy).Contents (Elt F)),
    binary main_v182 main_v183 main_v184 (Host.divf : (⟨S64, .f32⟩ : BufTy).Contents (Elt F) → (⟨S64, .f32⟩ : BufTy).Contents (Elt F) → (⟨S64, .f32⟩ : BufTy).Contents (Elt F)),
    unary main_v177 main_v185 (broadcastInDim S1x64 ![1] bcast_S64_S1x64_1 : (⟨S64, .f32⟩ : BufTy).Contents (Elt F) → (⟨S1x64, .f32⟩ : BufTy).Contents (Elt F)),
    unary main_v185 main_v186 (broadcastInDim S100000x64 ![0, 1] bcast_S1x64_S100000x64_0_1 : (⟨S1x64, .f32⟩ : BufTy).Contents (Elt F) → (⟨S100000x64, .f32⟩ : BufTy).Contents (Elt F)),
    binary main_v174 main_v186 main_v187 (subf : (⟨S100000x64, .f32⟩ : BufTy).Contents (Elt F) → (⟨S100000x64, .f32⟩ : BufTy).Contents (Elt F) → (⟨S100000x64, .f32⟩ : BufTy).Contents (Elt F)),
    nullary main_cst_43 (constant S_ .f32 0x3727C5AC#32),
    unary main_cst_43 main_v188 (broadcastInDim S64 ![] bcast_S_S64 : (⟨S_, .f32⟩ : BufTy).Contents (Elt F) → (⟨S64, .f32⟩ : BufTy).Contents (Elt F)),
    binary main_v184 main_v188 main_v189 (addf : (⟨S64, .f32⟩ : BufTy).Contents (Elt F) → (⟨S64, .f32⟩ : BufTy).Contents (Elt F) → (⟨S64, .f32⟩ : BufTy).Contents (Elt F)),
    unary main_v189 main_v190 (Host.rsqrt : (⟨S64, .f32⟩ : BufTy).Contents (Elt F) → (⟨S64, .f32⟩ : BufTy).Contents (Elt F)),
    unary main_v190 main_v191 (broadcastInDim S1x64 ![1] bcast_S64_S1x64_1 : (⟨S64, .f32⟩ : BufTy).Contents (Elt F) → (⟨S1x64, .f32⟩ : BufTy).Contents (Elt F)),
    unary main_v191 main_v192 (broadcastInDim S100000x64 ![0, 1] bcast_S1x64_S100000x64_0_1 : (⟨S1x64, .f32⟩ : BufTy).Contents (Elt F) → (⟨S100000x64, .f32⟩ : BufTy).Contents (Elt F)),
    binary main_v187 main_v192 main_v193 (mulf : (⟨S100000x64, .f32⟩ : BufTy).Contents (Elt F) → (⟨S100000x64, .f32⟩ : BufTy).Contents (Elt F) → (⟨S100000x64, .f32⟩ : BufTy).Contents (Elt F)),
    unary main_arg5 main_v194 ((extractStridedSlice S1x64 ![2, 0] · slices_S4x64_S1x64_2_0) : (⟨S4x64, .f32⟩ : BufTy).Contents (Elt F) → (⟨S1x64, .f32⟩ : BufTy).Contents (Elt F)),
    reshape main_v194 main_v195 rfl shapeCasts_S1x64_S64,
    unary main_v195 main_v196 (broadcastInDim S1x64 ![1] bcast_S64_S1x64_1 : (⟨S64, .f32⟩ : BufTy).Contents (Elt F) → (⟨S1x64, .f32⟩ : BufTy).Contents (Elt F)),
    unary main_v196 main_v197 (broadcastInDim S100000x64 ![0, 1] bcast_S1x64_S100000x64_0_1 : (⟨S1x64, .f32⟩ : BufTy).Contents (Elt F) → (⟨S100000x64, .f32⟩ : BufTy).Contents (Elt F)),
    binary main_v193 main_v197 main_v198 (mulf : (⟨S100000x64, .f32⟩ : BufTy).Contents (Elt F) → (⟨S100000x64, .f32⟩ : BufTy).Contents (Elt F) → (⟨S100000x64, .f32⟩ : BufTy).Contents (Elt F)),
    unary main_arg6 main_v199 ((extractStridedSlice S1x64 ![2, 0] · slices_S4x64_S1x64_2_0) : (⟨S4x64, .f32⟩ : BufTy).Contents (Elt F) → (⟨S1x64, .f32⟩ : BufTy).Contents (Elt F)),
    reshape main_v199 main_v200 rfl shapeCasts_S1x64_S64,
    unary main_v200 main_v201 (broadcastInDim S1x64 ![1] bcast_S64_S1x64_1 : (⟨S64, .f32⟩ : BufTy).Contents (Elt F) → (⟨S1x64, .f32⟩ : BufTy).Contents (Elt F)),
    unary main_v201 main_v202 (broadcastInDim S100000x64 ![0, 1] bcast_S1x64_S100000x64_0_1 : (⟨S1x64, .f32⟩ : BufTy).Contents (Elt F) → (⟨S100000x64, .f32⟩ : BufTy).Contents (Elt F)),
    binary main_v198 main_v202 main_v203 (addf : (⟨S100000x64, .f32⟩ : BufTy).Contents (Elt F) → (⟨S100000x64, .f32⟩ : BufTy).Contents (Elt F) → (⟨S100000x64, .f32⟩ : BufTy).Contents (Elt F)),
    binary main_v203 main_v148 main_v204 (addf : (⟨S100000x64, .f32⟩ : BufTy).Contents (Elt F) → (⟨S100000x64, .f32⟩ : BufTy).Contents (Elt F) → (⟨S100000x64, .f32⟩ : BufTy).Contents (Elt F)) ]

/-- The layer's last three operations: the rectifier. -/
abbrev cL3b : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v204) (TRef.of (T := ⟨S100000x64, .f32⟩) main_call5_v0) (TRef.of (T := ⟨S100000x64, .f32⟩) main_v205) maximumf ]

/-- The layer's 71 operations. -/
abbrev cL3 : List (HloOp τ sig (Elt F)) := cL3a ++ cL3b

set_option maxRecDepth 8192 in
/-- They are the reference's own operations 193 to 263 (counting from 0). -/
theorem cL3_eq : (cL3 : List (HloOp τ sig (Elt F))) = (Cert.ReferenceIdeal.ValueP.ops.drop 193).take 71 := rfl

set_option maxRecDepth 8192 in
set_option maxHeartbeats 20000000 in
/-- The rectifier, from any contents. -/
theorem tailL3 (V : Valuation τ sig (Elt Ideal)) :
    after (cL3b (F := Ideal)) V (Proc.devRef .tc main_v205)
      = maximumf (V (Proc.devRef .tc main_v204)) (bcW 0x00000000#32) := by
  after_results_simp <;> rfl

set_option maxRecDepth 8192 in
set_option maxHeartbeats 135600000 in
/-- The layer before the rectifier, from any contents, as one term of whole-array functions. -/
theorem preL3 (W : Valuation τ sig (Elt Ideal)) :
    after (cL3a (F := Ideal)) W (Proc.devRef .tc main_v204)
      = preV (hV 0x3F588995#32 0x3E1DD9AD#32 (sV (aggR (W (Proc.devRef .tc main_v1)) (W (Proc.devRef .tc main_v3)) (W (Proc.devRef .tc main_v29)) (W (Proc.devRef .tc main_v148))) (W (Proc.devRef .tc main_v34)))
            (wSlice ![2, 0, 0] slices_S4x64x64_S1x64x64_2_0_0 (W (Proc.devRef .tc main_arg4))))
          (W (Proc.devRef .tc main_v148)) (rowSl ![2, 0] slices_S4x64_S1x64_2_0 (W (Proc.devRef .tc main_arg5)))
          (rowSl ![2, 0] slices_S4x64_S1x64_2_0 (W (Proc.devRef .tc main_arg6))) := by
  after_results_simp <;> rfl

/-- LAYER 3 of the reference, from any contents `W` of the buffers before it. -/
theorem refL3 (W : Valuation τ sig (Elt Ideal)) :
    after (cL3 (F := Ideal)) W (Proc.devRef .tc main_v205)
      = layerR c3_3 c4_3 (aggR (W (Proc.devRef .tc main_v1)) (W (Proc.devRef .tc main_v3)) (W (Proc.devRef .tc main_v29)) (W (Proc.devRef .tc main_v148))) (W (Proc.devRef .tc main_v148)) (W (Proc.devRef .tc main_v34))
          (wOf (W (Proc.devRef .tc main_arg4)) 2) (rowOf (W (Proc.devRef .tc main_arg5)) 2) (rowOf (W (Proc.devRef .tc main_arg6)) 2) := by
  have hw : wSlice ![2, 0, 0] slices_S4x64x64_S1x64x64_2_0_0 (W (Proc.devRef .tc main_arg4)) = wOf (W (Proc.devRef .tc main_arg4)) 2 :=
    wSlice_eq (2 : Fin 4) _ _
  have hg : (fun i : S1x64'.Idx => rowSl ![2, 0] slices_S4x64_S1x64_2_0 (W (Proc.devRef .tc main_arg5)) (ix1 (i 1)))
      = rowOf (W (Proc.devRef .tc main_arg5)) 2 := rowSl_eq (2 : Fin 4) _ _
  have hb : (fun i : S1x64'.Idx => rowSl ![2, 0] slices_S4x64_S1x64_2_0 (W (Proc.devRef .tc main_arg6)) (ix1 (i 1)))
      = rowOf (W (Proc.devRef .tc main_arg6)) 2 := rowSl_eq (2 : Fin 4) _ _
  refine ((congrFun (after_app _ _ W) _).trans ((tailL3 _).trans
    (congrArg (fun t => maximumf t (bcW 0x00000000#32)) (preL3 W)))).trans ?_
  refine (layerV_eq _ _ _ _ _ _ _ _).trans ?_
  rw [hw, hg, hb]

/-- The same, stated on the stretch cut out of the reference's list. -/
theorem refL3' (W : Valuation τ sig (Elt Ideal)) :
    after ((Cert.ReferenceIdeal.ValueP.ops (F := Ideal)).drop 193 |>.take 71) W (Proc.devRef .tc main_v205)
      = layerR c3_3 c4_3 (aggR (W (Proc.devRef .tc main_v1)) (W (Proc.devRef .tc main_v3)) (W (Proc.devRef .tc main_v29)) (W (Proc.devRef .tc main_v148))) (W (Proc.devRef .tc main_v148)) (W (Proc.devRef .tc main_v34))
          (wOf (W (Proc.devRef .tc main_arg4)) 2) (rowOf (W (Proc.devRef .tc main_arg5)) 2) (rowOf (W (Proc.devRef .tc main_arg6)) 2) :=
  cL3_eq (F := Ideal) ▸ refL3 W

end Cert.RefLayer

end
-- ==== Proof.Alg.RefLayer4.lean ====
/-
  The reference's layer 4, read back from its operations.

  The layer is a stretch of 71 consecutive operations of the reference's list. From ANY contents of the
  buffers before the stretch, the result buffer after it holds the layer of `Cert.Alg` (the spelling
  whose sums start from the zero word) applied to what those contents hold at the stretch's inputs: the
  aggregation of the layer's input array, the input array itself as the residual, the first stage's
  output as the second mixed term, and block 3 of the stacked weights, scales and shifts. The
  stretch is read in two pieces: its first 68 operations up to the sum with the residual, as one term
  of whole-array functions, and its last three (the rectifier), from any contents.
-/
import proofs.«162064_j1357209666150_1_alg».proof.Proof.RefRunP
import proofs.«162064_j1357209666150_1_alg».proof.Proof.Alg.RefLayerLib

noncomputable section

namespace Cert.RefLayer

open Cert.ReferenceIdeal Cert.ReferenceIdeal.Gen Idealize.ShloMosaic Idealize.ShloMosaic.TcCoe Idealize.SL.Sem
  Idealize.ShloMosaic.StableHlo Idealize.ShloMosaic.ValueIdx Cert.Alg

variable {F : FTy → Type} [FloatOps F]

set_option maxHeartbeats 20000000 in
/-- The layer's first 68 operations, in order, as the printed list has them. -/
abbrev cL4a : List (HloOp τ sig (Elt F)) :=
  [ nullary main_c_44 (constantI S_ 32 0#32),
    unary main_c_44 main_v206 (broadcastInDim S1000000 ![] bcast_S_S1000000 : (⟨S_, .i32⟩ : BufTy).Contents (Elt F) → (⟨S1000000, .i32⟩ : BufTy).Contents (Elt F)),
    binary main_v3 main_v206 main_v207 (cmpi .slt : (⟨S1000000, .i32⟩ : BufTy).Contents (Elt F) → (⟨S1000000, .i32⟩ : BufTy).Contents (Elt F) → (⟨S1000000, .i1⟩ : BufTy).Contents (Elt F)),
    nullary main_c_45 (constantI S_ 32 100000#32),
    unary main_c_45 main_v208 (broadcastInDim S1000000 ![] bcast_S_S1000000 : (⟨S_, .i32⟩ : BufTy).Contents (Elt F) → (⟨S1000000, .i32⟩ : BufTy).Contents (Elt F)),
    binary main_v3 main_v208 main_v209 (addi : (⟨S1000000, .i32⟩ : BufTy).Contents (Elt F) → (⟨S1000000, .i32⟩ : BufTy).Contents (Elt F) → (⟨S1000000, .i32⟩ : BufTy).Contents (Elt F)),
    ternary main_v207 main_v209 main_v3 main_v210 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v210 main_v211 (broadcastInDim S1000000x1 ![0] bcast_S1000000_S1000000x1_0 : (⟨S1000000, .i32⟩ : BufTy).Contents (Elt F) → (⟨S1000000x1, .i32⟩ : BufTy).Contents (Elt F)),
    binary main_v205 main_v211 main_v212 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    unary main_v29 main_v213 (broadcastInDim S1000000x1 ![0] bcast_S1000000_S1000000x1_0 : (⟨S1000000, .f32⟩ : BufTy).Contents (Elt F) → (⟨S1000000x1, .f32⟩ : BufTy).Contents (Elt F)),
    unary main_v213 main_v214 (broadcastInDim S1000000x64 ![0, 1] bcast_S1000000x1_S1000000x64_0_1 : (⟨S1000000x1, .f32⟩ : BufTy).Contents (Elt F) → (⟨S1000000x64, .f32⟩ : BufTy).Contents (Elt F)),
    binary main_v212 main_v214 main_v215 (mulf : (⟨S1000000x64, .f32⟩ : BufTy).Contents (Elt F) → (⟨S1000000x64, .f32⟩ : BufTy).Contents (Elt F) → (⟨S1000000x64, .f32⟩ : BufTy).Contents (Elt F)),
    nullary main_cst_46 (constant S_ .f32 0x00000000#32),
    unary main_cst_46 main_v216 (broadcastInDim S100000x64 ![] bcast_S_S100000x64 : (⟨S_, .f32⟩ : BufTy).Contents (Elt F) → (⟨S100000x64, .f32⟩ : BufTy).Contents (Elt F)),
    unary main_v1 main_v217 (broadcastInDim S1000000x1 ![0] bcast_S1000000_S1000000x1_0 : (⟨S1000000, .i32⟩ : BufTy).Contents (Elt F) → (⟨S1000000x1, .i32⟩ : BufTy).Contents (Elt F)),
    ternary main_v216 main_v217 main_v215 main_v218 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    nullary main_cst_47 (constant S_ .f32 0x3F666666#32),
    unary main_cst_47 main_v219 (broadcastInDim S100000x64 ![] bcast_S_S100000x64 : (⟨S_, .f32⟩ : BufTy).Contents (Elt F) → (⟨S100000x64, .f32⟩ : BufTy).Contents (Elt F)),
    binary main_v219 main_v218 main_v220 (mulf : (⟨S100000x64, .f32⟩ : BufTy).Contents (Elt F) → (⟨S100000x64, .f32⟩ : BufTy).Contents (Elt F) → (⟨S100000x64, .f32⟩ : BufTy).Contents (Elt F)),
    nullary main_cst_48 (constant S_ .f32 0x3DCCCCCD#32),
    unary main_cst_48 main_v221 (broadcastInDim S100000x64 ![] bcast_S_S100000x64 : (⟨S_, .f32⟩ : BufTy).Contents (Elt F) → (⟨S100000x64, .f32⟩ : BufTy).Contents (Elt F)),
    binary main_v221 main_v34 main_v222 (mulf : (⟨S100000x64, .f32⟩ : BufTy).Contents (Elt F) → (⟨S100000x64, .f32⟩ : BufTy).Contents (Elt F) → (⟨S100000x64, .f32⟩ : BufTy).Contents (Elt F)),
    binary main_v220 main_v222 main_v223 (addf : (⟨S100000x64, .f32⟩ : BufTy).Contents (Elt F) → (⟨S100000x64, .f32⟩ : BufTy).Contents (Elt F) → (⟨S100000x64, .f32⟩ : BufTy).Contents (Elt F)),
    nullary main_cst_49 (constant S_ .f32 0x3F61D8F9#32),
    unary main_cst_49 main_v224 (broadcastInDim S100000x64 ![] bcast_S_S100000x64 : (⟨S_, .f32⟩ : BufTy).Contents (Elt F) → (⟨S100000x64, .f32⟩ : BufTy).Contents (Elt F)),
    binary main_v224 main_v223 main_v225 (mulf : (⟨S100000x64, .f32⟩ : BufTy).Contents (Elt F) → (⟨S100000x64, .f32⟩ : BufTy).Contents (Elt F) → (⟨S100000x64, .f32⟩ : BufTy).Contents (Elt F)),
    unary main_arg4 main_v226 ((extractStridedSlice S1x64x64 ![3, 0, 0] · slices_S4x64x64_S1x64x64_3_0_0) : (⟨S4x64x64, .f32⟩ : BufTy).Contents (Elt F) → (⟨S1x64x64, .f32⟩ : BufTy).Contents (Elt F)),
    reshape main_v226 main_v227 rfl shapeCasts_S1x64x64_S64x64,
    binary main_v223 main_v227 main_v228 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_cst_50 (constant S_ .f32 0x3DF1383B#32),
    unary main_cst_50 main_v229 (broadcastInDim S100000x64 ![] bcast_S_S100000x64 : (⟨S_, .f32⟩ : BufTy).Contents (Elt F) → (⟨S100000x64, .f32⟩ : BufTy).Contents (Elt F)),
    binary main_v229 main_v228 main_v230 (mulf : (⟨S100000x64, .f32⟩ : BufTy).Contents (Elt F) → (⟨S100000x64, .f32⟩ : BufTy).Contents (Elt F) → (⟨S100000x64, .f32⟩ : BufTy).Contents (Elt F)),
    binary main_v225 main_v230 main_v231 (addf : (⟨S100000x64, .f32⟩ : BufTy).Contents (Elt F) → (⟨S100000x64, .f32⟩ : BufTy).Contents (Elt F) → (⟨S100000x64, .f32⟩ : BufTy).Contents (Elt F)),
    nullary main_cst_51 (constant S_ .f32 0x00000000#32),
    binary main_v231 main_cst_51 main_v232 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_52 (constant S_ .f32 0x47C35000#32),
    unary main_cst_52 main_v233 (broadcastInDim S64 ![] bcast_S_S64 : (⟨S_, .f32⟩ : BufTy).Contents (Elt F) → (⟨S64, .f32⟩ : BufTy).Contents (Elt F)),
    binary main_v232 main_v233 main_v234 (Host.divf : (⟨S64, .f32⟩ : BufTy).Contents (Elt F) → (⟨S64, .f32⟩ : BufTy).Contents (Elt F) → (⟨S64, .f32⟩ : BufTy).Contents (Elt F)),
    unary main_v234 main_v235 (broadcastInDim S1x64 ![1] bcast_S64_S1x64_1 : (⟨S64, .f32⟩ : BufTy).Contents (Elt F) → (⟨S1x64, .f32⟩ : BufTy).Contents (Elt F)),
    unary main_v235 main_v236 (broadcastInDim S100000x64 ![0, 1] bcast_S1x64_S100000x64_0_1 : (⟨S1x64, .f32⟩ : BufTy).Contents (Elt F) → (⟨S100000x64, .f32⟩ : BufTy).Contents (Elt F)),
    binary main_v231 main_v236 main_v237 (subf : (⟨S100000x64, .f32⟩ : BufTy).Contents (Elt F) → (⟨S100000x64, .f32⟩ : BufTy).Contents (Elt F) → (⟨S100000x64, .f32⟩ : BufTy).Contents (Elt F)),
    binary main_v237 main_v237 main_v238 (mulf : (⟨S100000x64, .f32⟩ : BufTy).Contents (Elt F) → (⟨S100000x64, .f32⟩ : BufTy).Contents (Elt F) → (⟨S100000x64, .f32⟩ : BufTy).Contents (Elt F)),
    nullary main_cst_53 (constant S_ .f32 0x00000000#32),
    binary main_v238 main_cst_53 main_v239 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_54 (constant S_ .f32 0x47C35000#32),
    unary main_cst_54 main_v240 (broadcastInDim S64 ![] bcast_S_S64 : (⟨S_, .f32⟩ : BufTy).Contents (Elt F) → (⟨S64, .f32⟩ : BufTy).Contents (Elt F)),
    binary main_v239 main_v240 main_v241 (Host.divf : (⟨S64, .f32⟩ : BufTy).Contents (Elt F) → (⟨S64, .f32⟩ : BufTy).Contents (Elt F) → (⟨S64, .f32⟩ : BufTy).Contents (Elt F)),
    unary main_v234 main_v242 (broadcastInDim S1x64 ![1] bcast_S64_S1x64_1 : (⟨S64, .f32⟩ : BufTy).Contents (Elt F) → (⟨S1x64, .f32⟩ : BufTy).Contents (Elt F)),
    unary main_v242 main_v243 (broadcastInDim S100000x64 ![0, 1] bcast_S1x64_S100000x64_0_1 : (⟨S1x64, .f32⟩ : BufTy).Contents (Elt F) → (⟨S100000x64, .f32⟩ : BufTy).Contents (Elt F)),
    binary main_v231 main_v243 main_v244 (subf : (⟨S100000x64, .f32⟩ : BufTy).Contents (Elt F) → (⟨S100000x64, .f32⟩ : BufTy).Contents (Elt F) → (⟨S100000x64, .f32⟩ : BufTy).Contents (Elt F)),
    nullary main_cst_55 (constant S_ .f32 0x3727C5AC#32),
    unary main_cst_55 main_v245 (broadcastInDim S64 ![] bcast_S_S64 : (⟨S_, .f32⟩ : BufTy).Contents (Elt F) → (⟨S64, .f32⟩ : BufTy).Contents (Elt F)),
    binary main_v241 main_v245 main_v246 (addf : (⟨S64, .f32⟩ : BufTy).Contents (Elt F) → (⟨S64, .f32⟩ : BufTy).Contents (Elt F) → (⟨S64, .f32⟩ : BufTy).Contents (Elt F)),
    unary main_v246 main_v247 (Host.rsqrt : (⟨S64, .f32⟩ : BufTy).Contents (Elt F) → (⟨S64, .f32⟩ : BufTy).Contents (Elt F)),
    unary main_v247 main_v248 (broadcastInDim S1x64 ![1] bcast_S64_S1x64_1 : (⟨S64, .f32⟩ : BufTy).Contents (Elt F) → (⟨S1x64, .f32⟩ : BufTy).Contents (Elt F)),
    unary main_v248 main_v249 (broadcastInDim S100000x64 ![0, 1] bcast_S1x64_S100000x64_0_1 : (⟨S1x64, .f32⟩ : BufTy).Contents (Elt F) → (⟨S100000x64, .f32⟩ : BufTy).Contents (Elt F)),
    binary main_v244 main_v249 main_v250 (mulf : (⟨S100000x64, .f32⟩ : BufTy).Contents (Elt F) → (⟨S100000x64, .f32⟩ : BufTy).Contents (Elt F) → (⟨S100000x64, .f32⟩ : BufTy).Contents (Elt F)),
    unary main_arg5 main_v251 ((extractStridedSlice S1x64 ![3, 0] · slices_S4x64_S1x64_3_0) : (⟨S4x64, .f32⟩ : BufTy).Contents (Elt F) → (⟨S1x64, .f32⟩ : BufTy).Contents (Elt F)),
    reshape main_v251 main_v252 rfl shapeCasts_S1x64_S64,
    unary main_v252 main_v253 (broadcastInDim S1x64 ![1] bcast_S64_S1x64_1 : (⟨S64, .f32⟩ : BufTy).Contents (Elt F) → (⟨S1x64, .f32⟩ : BufTy).Contents (Elt F)),
    unary main_v253 main_v254 (broadcastInDim S100000x64 ![0, 1] bcast_S1x64_S100000x64_0_1 : (⟨S1x64, .f32⟩ : BufTy).Contents (Elt F) → (⟨S100000x64, .f32⟩ : BufTy).Contents (Elt F)),
    binary main_v250 main_v254 main_v255 (mulf : (⟨S100000x64, .f32⟩ : BufTy).Contents (Elt F) → (⟨S100000x64, .f32⟩ : BufTy).Contents (Elt F) → (⟨S100000x64, .f32⟩ : BufTy).Contents (Elt F)),
    unary main_arg6 main_v256 ((extractStridedSlice S1x64 ![3, 0] · slices_S4x64_S1x64_3_0) : (⟨S4x64, .f32⟩ : BufTy).Contents (Elt F) → (⟨S1x64, .f32⟩ : BufTy).Contents (Elt F)),
    reshape main_v256 main_v257 rfl shapeCasts_S1x64_S64,
    unary main_v257 main_v258 (broadcastInDim S1x64 ![1] bcast_S64_S1x64_1 : (⟨S64, .f32⟩ : BufTy).Contents (Elt F) → (⟨S1x64, .f32⟩ : BufTy).Contents (Elt F)),
    unary main_v258 main_v259 (broadcastInDim S100000x64 ![0, 1] bcast_S1x64_S100000x64_0_1 : (⟨S1x64, .f32⟩ : BufTy).Contents (Elt F) → (⟨S100000x64, .f32⟩ : BufTy).Contents (Elt F)),
    binary main_v255 main_v259 main_v260 (addf : (⟨S100000x64, .f32⟩ : BufTy).Contents (Elt F) → (⟨S100000x64, .f32⟩ : BufTy).Contents (Elt F) → (⟨S100000x64, .f32⟩ : BufTy).Contents (Elt F)),
    binary main_v260 main_v205 main_v261 (addf : (⟨S100000x64, .f32⟩ : BufTy).Contents (Elt F) → (⟨S100000x64, .f32⟩ : BufTy).Contents (Elt F) → (⟨S100000x64, .f32⟩ : BufTy).Contents (Elt F)) ]

/-- The layer's last three operations: the rectifier. -/
abbrev cL4b : List (HloOp τ sig (Elt F)) :=
  [ TRef.nullary (TRef.of (T := ⟨S_, .f32⟩) main_call6_cst) (constant S_ .f32 0x00000000#32),
    TRef.unary (TRef.of (T := ⟨S_, .f32⟩) main_call6_cst) (TRef.of (T := ⟨S100000x64, .f32⟩) main_call6_v0) (broadcastInDim S100000x64 ![] bcast_S_S100000x64),
    TRef.binary (TRef.of (T := ⟨S100000x64, .f32⟩) main_v261) (TRef.of (T := ⟨S100000x64, .f32⟩) main_call6_v0) (TRef.of (T := ⟨S100000x64, .f32⟩) main_v262) maximumf ]

/-- The layer's 71 operations. -/
abbrev cL4 : List (HloOp τ sig (Elt F)) := cL4a ++ cL4b

set_option maxRecDepth 8192 in
/-- They are the reference's own operations 264 to 334 (counting from 0). -/
theorem cL4_eq : (cL4 : List (HloOp τ sig (Elt F))) = (Cert.ReferenceIdeal.ValueP.ops.drop 264).take 71 := rfl

set_option maxRecDepth 8192 in
set_option maxHeartbeats 20000000 in
/-- The rectifier, from any contents. -/
theorem tailL4 (V : Valuation τ sig (Elt Ideal)) :
    after (cL4b (F := Ideal)) V (Proc.devRef .tc main_v262)
      = maximumf (V (Proc.devRef .tc main_v261)) (bcW 0x00000000#32) := by
  after_results_simp <;> rfl

set_option maxRecDepth 8192 in
set_option maxHeartbeats 135600000 in
/-- The layer before the rectifier, from any contents, as one term of whole-array functions. -/
theorem preL4 (W : Valuation τ sig (Elt Ideal)) :
    after (cL4a (F := Ideal)) W (Proc.devRef .tc main_v261)
      = preV (hV 0x3F61D8F9#32 0x3DF1383B#32 (sV (aggR (W (Proc.devRef .tc main_v1)) (W (Proc.devRef .tc main_v3)) (W (Proc.devRef .tc main_v29)) (W (Proc.devRef .tc main_v205))) (W (Proc.devRef .tc main_v34)))
            (wSlice ![3, 0, 0] slices_S4x64x64_S1x64x64_3_0_0 (W (Proc.devRef .tc main_arg4))))
          (W (Proc.devRef .tc main_v205)) (rowSl ![3, 0] slices_S4x64_S1x64_3_0 (W (Proc.devRef .tc main_arg5)))
          (rowSl ![3, 0] slices_S4x64_S1x64_3_0 (W (Proc.devRef .tc main_arg6))) := by
  after_results_simp <;> rfl

/-- LAYER 4 of the reference, from any contents `W` of the buffers before it. -/
theorem refL4 (W : Valuation τ sig (Elt Ideal)) :
    after (cL4 (F := Ideal)) W (Proc.devRef .tc main_v262)
      = layerR c3_4 c4_4 (aggR (W (Proc.devRef .tc main_v1)) (W (Proc.devRef .tc main_v3)) (W (Proc.devRef .tc main_v29)) (W (Proc.devRef .tc main_v205))) (W (Proc.devRef .tc main_v205)) (W (Proc.devRef .tc main_v34))
          (wOf (W (Proc.devRef .tc main_arg4)) 3) (rowOf (W (Proc.devRef .tc main_arg5)) 3) (rowOf (W (Proc.devRef .tc main_arg6)) 3) := by
  have hw : wSlice ![3, 0, 0] slices_S4x64x64_S1x64x64_3_0_0 (W (Proc.devRef .tc main_arg4)) = wOf (W (Proc.devRef .tc main_arg4)) 3 :=
    wSlice_eq (3 : Fin 4) _ _
  have hg : (fun i : S1x64'.Idx => rowSl ![3, 0] slices_S4x64_S1x64_3_0 (W (Proc.devRef .tc main_arg5)) (ix1 (i 1)))
      = rowOf (W (Proc.devRef .tc main_arg5)) 3 := rowSl_eq (3 : Fin 4) _ _
  have hb : (fun i : S1x64'.Idx => rowSl ![3, 0] slices_S4x64_S1x64_3_0 (W (Proc.devRef .tc main_arg6)) (ix1 (i 1)))
      = rowOf (W (Proc.devRef .tc main_arg6)) 3 := rowSl_eq (3 : Fin 4) _ _
  refine ((congrFun (after_app _ _ W) _).trans ((tailL4 _).trans
    (congrArg (fun t => maximumf t (bcW 0x00000000#32)) (preL4 W)))).trans ?_
  refine (layerV_eq _ _ _ _ _ _ _ _).trans ?_
  rw [hw, hg, hb]

/-- The same, stated on the stretch cut out of the reference's list. -/
theorem refL4' (W : Valuation τ sig (Elt Ideal)) :
    after ((Cert.ReferenceIdeal.ValueP.ops (F := Ideal)).drop 264 |>.take 71) W (Proc.devRef .tc main_v262)
      = layerR c3_4 c4_4 (aggR (W (Proc.devRef .tc main_v1)) (W (Proc.devRef .tc main_v3)) (W (Proc.devRef .tc main_v29)) (W (Proc.devRef .tc main_v205))) (W (Proc.devRef .tc main_v205)) (W (Proc.devRef .tc main_v34))
          (wOf (W (Proc.devRef .tc main_arg4)) 3) (rowOf (W (Proc.devRef .tc main_arg5)) 3) (rowOf (W (Proc.devRef .tc main_arg6)) 3) :=
  cL4_eq (F := Ideal) ▸ refL4 W

end Cert.RefLayer

end
-- ==== Proof.Alg.Prologue.lean ====
/-
  The two programs start with the same operations on the edge-index argument, so when the reference's launch memory
  holds the kernel's edge-index argument, what the kernel's prologue leaves in three buffers is what the reference's
  run leaves in its buffers of the same names: the edges' target rows `main_v1` and source rows `main_v3` (the two rows
  of the argument, each as a vector of a million entries), and the edge weights `main_v29` (the product of the two
  gathered entries of the degrees' guarded reciprocal square roots). Both sides are read back as terms of the argument;
  the two programs' shape facts and gather / scatter records are separate constants with the same fields, so the two
  terms are the same.
-/
import proofs.«162064_j1357209666150_1_alg».proof.Proof.Gen.KernelIdeal.Regions
import proofs.«162064_j1357209666150_1_alg».proof.Proof.RefRunP
import Idealize.ShloMosaic.PureOps.Ideal

set_option maxRecDepth 16384

noncomputable section

namespace Cert.Alg

open Idealize.ShloMosaic Idealize.ShloMosaic.TcCoe

set_option maxHeartbeats 16000000 in
/-- The edges' target rows: row 0 of the edge-index argument. -/
theorem prologue_row
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.KernelIdeal.Gen.V5 m c Cert.KernelIdeal.main_v1
      = StableHlo.after (Cert.ReferenceIdeal.ValueP.ops (F := Ideal)) (StableHlo.launchContents m' c)
          (Proc.devRef .tc Cert.ReferenceIdeal.main_v1) := by
  have e : StableHlo.launchContents m' c (Proc.devRef .tc Cert.ReferenceIdeal.main_arg1)
      = Cert.KernelIdeal.Gen.V0 m c (Proc.devRef .tc Cert.KernelIdeal.main_arg1) := hag
  after_results_simp
  rw [e]
  rfl

set_option maxHeartbeats 16000000 in
/-- The edges' source rows: row 1 of the edge-index argument. -/
theorem prologue_col
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.KernelIdeal.Gen.V5 m c Cert.KernelIdeal.main_v3
      = StableHlo.after (Cert.ReferenceIdeal.ValueP.ops (F := Ideal)) (StableHlo.launchContents m' c)
          (Proc.devRef .tc Cert.ReferenceIdeal.main_v3) := by
  have e : StableHlo.launchContents m' c (Proc.devRef .tc Cert.ReferenceIdeal.main_arg1)
      = Cert.KernelIdeal.Gen.V0 m c (Proc.devRef .tc Cert.KernelIdeal.main_arg1) := hag
  after_results_simp
  rw [e]
  rfl

set_option maxHeartbeats 16000000 in
/-- The edge weights. -/
theorem prologue_ew
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.KernelIdeal.Gen.V5 m c Cert.KernelIdeal.main_v29
      = StableHlo.after (Cert.ReferenceIdeal.ValueP.ops (F := Ideal)) (StableHlo.launchContents m' c)
          (Proc.devRef .tc Cert.ReferenceIdeal.main_v29) := by
  have e : StableHlo.launchContents m' c (Proc.devRef .tc Cert.ReferenceIdeal.main_arg1)
      = Cert.KernelIdeal.Gen.V0 m c (Proc.devRef .tc Cert.KernelIdeal.main_arg1) := hag
  after_results_simp
  rw [e]
  rfl

end Cert.Alg

end
-- ==== Proof.Alg.AggEq.lean ====
/-
  The kernel's and the reference's sparse aggregation are one function. Each program spells it as the same composed
  term — gather the source rows (a negative index moved up by 100000), scale each by its edge's weight, scatter-add into
  zeros at the target rows — over its own printed shape names and gather / scatter records, and the two programs'
  names and records have the same fields.
-/
import proofs.«162064_j1357209666150_1_alg».proof.Proof.KI.HostAgg
import proofs.«162064_j1357209666150_1_alg».proof.Proof.Alg.RefLayerLib

set_option maxRecDepth 16384

noncomputable section

namespace Cert.Alg

open Idealize.ShloMosaic

/-- The kernel's aggregation is the reference's. -/
theorem agg_eq_aggR (row col : IVec Cert.KernelIdeal.S1000000 32) (ew : FVec Ideal Cert.KernelIdeal.S1000000 .f32)
    (x : FVec Ideal Cert.KernelIdeal.S100000x64 .f32) :
    Cert.KernelIdeal.Hand.agg row col ew x = Cert.RefLayer.aggR row col ew x := by
  unfold Cert.KernelIdeal.Hand.agg Cert.RefLayer.aggR
  rfl

end Cert.Alg

end
-- ==== Proof.Alg.PreReal.lean ====
/-
  What the precondition says of the argument arrays: every entry of every floating-point argument is a real number.

  The precondition is the conjunction, over the eight floating-point arguments, of "every entry x has |x| < +∞": each
  conjunct is a reduction by `and`, over all axes and started from 1, of the entry-by-entry comparison of max x (−x)
  against the word `0x7F800000`, and the precondition states that the conjunction is 1. The word `0x7F800000` is +∞.
  A conjunction of one-bit words is 1 only if both words are; a reduction by `and` into one word that is 1 met a 1 at
  every entry; and on the extended reals max x (−x) < +∞ fails at x = +∞ and at x = −∞ (where −x = +∞), so it leaves x a
  real number.
-/
import proofs.«162064_j1357209666150_1_alg».proof.Defs
import proofs.«162064_j1357209666150_1_alg».proof.Proof.Gen.Pre_finite_inputs
import proofs.«162064_j1357209666150_1_alg».proof.Proof.LibFinite
import Idealize.ShloMosaic.Lib.ReduceAll
import Idealize.ShloMosaic.Lib.ValueIdx

set_option maxRecDepth 16384

noncomputable section

namespace Cert.Alg

open Idealize.ShloMosaic Cert.Math

/-- The shape with no axes has one index. -/
instance subsingleton_scalar_idx : Subsingleton Cert.Pre_finite_inputs.S_.Idx := ⟨fun a b => funext fun d => d.elim0⟩

/-- The word `0x7F800000` is +∞. -/
theorem ofBits_inf_f32 : Ideal.ofBits .f32 0x7F800000#32 = (⊤ : EReal) := by
  simp [Ideal.ofBits, Ideal.ieee]

/-- A one-bit word made from a truth value is 1 only if the truth value is true. -/
theorem eq_true_of_ofBool_eq_one {b : Bool} (h : BitVec.ofBool b = 1#1) : b = true := by
  cases b
  · exact absurd h (by decide)
  · rfl

/-- An extended real with max x (−x) below +∞ is a real number. -/
theorem isReal_of_abs_lt_inf (x : EReal)
    (h : Ideal.cmp .olt (max x (-x)) (Ideal.ofBits .f32 0x7F800000#32) = 1#1) : IsReal x := by
  rw [ofBits_inf_f32] at h
  have h' : max x (-x) < ⊤ := of_decide_eq_true (eq_true_of_ofBool_eq_one h)
  induction x using EReal.rec with
  | bot => simp at h'
  | coe r => exact ⟨r, rfl⟩
  | top => simp at h'

/-- One conjunct of the precondition: if the reduction by `and` of "max x (−x) < +∞" over all of an array is 1, every
    entry of the array is a real number. -/
theorem allReal_of_all_lt_inf {s : Shape} {axes : List (Fin s.rank)} (x : FVec Ideal s .f32)
    (hb : Cert.Pre_finite_inputs.S_.BroadcastsInDim s (![] : Fin 0 → Fin s.rank))
    (h : s.ReducesTo axes Cert.Pre_finite_inputs.S_) (hu : 0 < Cert.Pre_finite_inputs.S_.numel)
    (init : IVec Cert.Pre_finite_inputs.S_ 1)
    (e : Host.reduce IntOp.andi
        (cmpf .olt (Host.absf x) (broadcastInDim s ![] hb (constant Cert.Pre_finite_inputs.S_ .f32 0x7F800000#32)))
        init h hu ValueIdx.ix0 = 1#1) : AllReal x :=
  fun i => isReal_of_abs_lt_inf (x i) (Host.reduce_andi_all _ init h hu _ e i)

/-- Under the precondition every entry of every floating-point argument array is a real number, on every device. -/
theorem pre_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg2))
      ∧ AllReal (m ((c.tc : Thread Cert.KernelIdeal.nD Cert.KernelIdeal.τ).loc Cert.KernelIdeal.main_arg3))
      ∧ AllReal (m ((c.tc : Thread Cert.KernelIdeal.nD Cert.KernelIdeal.τ).loc Cert.KernelIdeal.main_arg4))
      ∧ AllReal (m ((c.tc : Thread Cert.KernelIdeal.nD Cert.KernelIdeal.τ).loc Cert.KernelIdeal.main_arg5))
      ∧ AllReal (m ((c.tc : Thread Cert.KernelIdeal.nD Cert.KernelIdeal.τ).loc Cert.KernelIdeal.main_arg6))
      ∧ AllReal (m ((c.tc : Thread Cert.KernelIdeal.nD Cert.KernelIdeal.τ).loc Cert.KernelIdeal.main_arg7))
      ∧ AllReal (m ((c.tc : Thread Cert.KernelIdeal.nD Cert.KernelIdeal.τ).loc Cert.KernelIdeal.main_arg8)) := by
  have e := congrFun (hpre c) ValueIdx.ix0
  unfold Cert.Pre_finite_inputs.fn Cert.Pre_finite_inputs.fn_part1 Cert.Pre_finite_inputs.fn_part2 at e
  simp only [andi, IntOp.andi_eq_one] at e
  obtain ⟨⟨⟨⟨⟨⟨⟨h0, h2⟩, h3⟩, h4⟩, h5⟩, h6⟩, h7⟩, h8⟩ := e
  exact ⟨allReal_of_all_lt_inf _ _ _ _ _ h0, allReal_of_all_lt_inf _ _ _ _ _ h2, allReal_of_all_lt_inf _ _ _ _ _ h3,
    allReal_of_all_lt_inf _ _ _ _ _ h4, allReal_of_all_lt_inf _ _ _ _ _ h5, allReal_of_all_lt_inf _ _ _ _ _ h6,
    allReal_of_all_lt_inf _ _ _ _ _ h7, allReal_of_all_lt_inf _ _ _ _ _ h8⟩

end Cert.Alg

end
-- ==== Proof.Alg.Final.lean ====
/-
  The two programs' results are one array. The kernel's result is the network in the kernel's form over the sparse
  aggregation its prologue's edge arrays define; the reference's is the network in the reference's form over the aggregation
  its own prologue defines. The arguments agree, the two prologues are the same operations of the same edge-index argument,
  the two aggregations are the same chain of host operations, every float argument is real by the precondition, the edge
  weights are real (the reciprocal square root is only taken of a positive degree), the aggregation keeps entries real, and on
  real entries the two forms of the network agree (the variance identity, layer by layer).
-/
import proofs.«162064_j1357209666150_1_alg».proof.Defs
import proofs.«162064_j1357209666150_1_alg».proof.Proof.KI.KNet
import proofs.«162064_j1357209666150_1_alg».proof.Proof.KI.AggReal
import proofs.«162064_j1357209666150_1_alg».proof.Proof.Alg.RefNet
import proofs.«162064_j1357209666150_1_alg».proof.Proof.Alg.RefNet2
import proofs.«162064_j1357209666150_1_alg».proof.Proof.Alg.RefLayer1
import proofs.«162064_j1357209666150_1_alg».proof.Proof.Alg.RefLayer2
import proofs.«162064_j1357209666150_1_alg».proof.Proof.Alg.RefLayer3
import proofs.«162064_j1357209666150_1_alg».proof.Proof.Alg.RefLayer4
import proofs.«162064_j1357209666150_1_alg».proof.Proof.Alg.Prologue
import proofs.«162064_j1357209666150_1_alg».proof.Proof.Alg.AggEq
import proofs.«162064_j1357209666150_1_alg».proof.Proof.Alg.PreReal
import proofs.«162064_j1357209666150_1_alg».proof.Proof.Alg.Net

noncomputable section

namespace Cert.Alg

open Idealize.ShloMosaic Idealize.ShloMosaic.TcCoe Idealize.SL.Sem Cert.Math

set_option maxHeartbeats 4000000 in
theorem value_eq [hKI : Cert.KernelIdeal.Facts] [hR : Cert.ReferenceIdeal.Facts] [hP : Cert.Pre_finite_inputs.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (c : Dev Cert.KernelIdeal.nD) :
    StableHlo.after (Cert.ReferenceIdeal.ValueP.ops (F := Ideal)) (StableHlo.launchContents m' c) (Proc.devRef .tc Cert.ReferenceIdeal.main_v266)
      = (Cert.KernelIdeal.Hand.dat9 (Cert.KernelIdeal.Hand.tcv (Cert.KernelIdeal.Hand.U23 m)) c).arrAt 3 Cert.KernelIdeal.cfg9.N := by
  obtain ⟨g0, g1, g2, g3, g4, g5, g6, g7, g8⟩ := hagree c
  obtain ⟨r0, r2, r3, r4, r5, r6, r7, r8⟩ := pre_real m hpre c
  have kv := Cert.KernelIdeal.Hand.kernel_value m c
  have rv := Cert.ReferenceIdeal.ValueP.ref_value Cert.RefLayer.aggR (fun W => Cert.RefLayer.refL1' W) (fun W => Cert.RefLayer.refL2' W)
    (fun W => Cert.RefLayer.refL3' W) (fun W => Cert.RefLayer.refL4' W) m' c
  have hrow : StableHlo.after (Cert.ReferenceIdeal.ValueP.cP (F := Ideal)) (StableHlo.launchContents m' c) (Proc.devRef .tc Cert.ReferenceIdeal.main_v1)
      = Cert.KernelIdeal.Hand.U6 m c Cert.KernelIdeal.main_v1 :=
    (Cert.ReferenceIdeal.ValueP.ops_main_v1 _).symm.trans ((prologue_row m m' c g1).symm.trans (Cert.KernelIdeal.Hand.U6_of m c Cert.KernelIdeal.main_v1 (by decide)).symm)
  have hcol : StableHlo.after (Cert.ReferenceIdeal.ValueP.cP (F := Ideal)) (StableHlo.launchContents m' c) (Proc.devRef .tc Cert.ReferenceIdeal.main_v3)
      = Cert.KernelIdeal.Hand.U6 m c Cert.KernelIdeal.main_v3 :=
    (Cert.ReferenceIdeal.ValueP.ops_main_v3 _).symm.trans ((prologue_col m m' c g1).symm.trans (Cert.KernelIdeal.Hand.U6_of m c Cert.KernelIdeal.main_v3 (by decide)).symm)
  have hew : StableHlo.after (Cert.ReferenceIdeal.ValueP.cP (F := Ideal)) (StableHlo.launchContents m' c) (Proc.devRef .tc Cert.ReferenceIdeal.main_v29)
      = Cert.KernelIdeal.Hand.U6 m c Cert.KernelIdeal.main_v29 :=
    (Cert.ReferenceIdeal.ValueP.ops_main_v29 _).symm.trans ((prologue_ew m m' c g1).symm.trans (Cert.KernelIdeal.Hand.U6_of m c Cert.KernelIdeal.main_v29 (by decide)).symm)
  have hreal : AllReal (Cert.KernelIdeal.Hand.U6 m c Cert.KernelIdeal.main_v29) :=
    (Cert.KernelIdeal.Hand.U6_of m c Cert.KernelIdeal.main_v29 (by decide)).symm ▸ Cert.KernelIdeal.Hand.ew_real m c
  rw [kv, rv, hrow, hcol, hew, g0, g2, g3, g4, g5, g6, g7, g8]
  try unfold Cert.KernelIdeal.Hand.kagg
  revert hreal
  generalize Cert.KernelIdeal.Hand.U6 m c Cert.KernelIdeal.main_v1 = rowK
  generalize Cert.KernelIdeal.Hand.U6 m c Cert.KernelIdeal.main_v3 = colK
  generalize Cert.KernelIdeal.Hand.U6 m c Cert.KernelIdeal.main_v29 = ewK
  intro hreal
  have hfun : (fun x => Cert.RefLayer.aggR rowK colK ewK x) = (fun x => Cert.KernelIdeal.Hand.agg rowK colK ewK x) :=
    funext fun x => (agg_eq_aggR rowK colK ewK x).symm
  rw [hfun]
  exact (netK_eq_netR (fun x => Cert.KernelIdeal.Hand.agg rowK colK ewK x) (fun x hx => Cert.KernelIdeal.Hand.agg_real rowK colK ewK x hreal hx)
    _ _ _ _ _ _ _ _ r0 r2 r3 r4 r5 r6).symm

end Cert.Alg

end
-- ==== Proof.lean ====
/-
  The certificate of kernel j1357209666150/1 against its jnp reference: a four-layer GCNII network with batch
  normalisation on 100000 nodes — two dense projections, and per layer one kernel that mixes the aggregated features with the
  initial ones, multiplies by the layer's weights and accumulates the column sums and sums of squares over ten row tiles,
  and one kernel that normalises, adds the residual and applies the rectifier; the edge gather and scatter stay on the host.

  Proved here: the three frame claims. Each of the two kernel programs is ten pallas_call regions among host stretches;
  every region's segment record is proved from its kernel's own run (six regions whose body is one whole-block store of a
  value of the input blocks, four whose body carries two scratch rows from grid point to grid point), and the host side is
  the generated conditional frame. The reference is a straight line of 339 host operations. `preserves` is `True`: the
  ideal pass rewrote nothing.

  `algebraic`: both runs are stated with their results named — the kernel's last output array after its write-backs, the
  reference's fold of its operations read at the result buffer. Each is then read back as ONE function of the argument arrays
  (the network with every layer in the kernel's form, resp. the reference's form, over the sparse aggregation the prologue's edge
  arrays define): the kernel's region by region (each region's output array is a whole-array function of its input arrays;
  the statistics regions' one-row outputs are column sums accumulated over the ten row tiles) and stretch by stretch, the
  reference's stage by stage over its operation list cut in seven. The two prologues are the same operations of the same
  edge-index argument and the two aggregations the same chain of host operations. On real entries — which the precondition
  gives for the arguments and which every operation of the network preserves (the reciprocal square root is only taken of a
  positive degree, resp. of a variance plus a positive constant) — the kernel's variance E[h²] − (E h)² is the reference's
  E[(h − E h)²], so the two forms of the network are one array.
-/
import proofs.«162064_j1357209666150_1_alg».proof.Defs
import proofs.«162064_j1357209666150_1_alg».proof.Proof.Gen.Kernel
import proofs.«162064_j1357209666150_1_alg».proof.Proof.Gen.KernelIdeal
import proofs.«162064_j1357209666150_1_alg».proof.Proof.Gen.ReferenceIdeal
import proofs.«162064_j1357209666150_1_alg».proof.Proof.Gen.Pre_finite_inputs
import proofs.«162064_j1357209666150_1_alg».proof.Proof.KB.Frame
import proofs.«162064_j1357209666150_1_alg».proof.Proof.KI.Frame
import proofs.«162064_j1357209666150_1_alg».proof.Proof.RefFrame
import proofs.«162064_j1357209666150_1_alg».proof.Proof.KI.Result
import proofs.«162064_j1357209666150_1_alg».proof.Proof.RefRunAll
import proofs.«162064_j1357209666150_1_alg».proof.Proof.Alg.Final
import Idealize.ShloMosaic.Adequacy
import Idealize.ShloMosaic.Init

noncomputable section

namespace Cert.Proof

open Idealize.ShloMosaic Idealize.SL.Sem

theorem frame_k [hK : Cert.Kernel.Facts] [hP : Cert.Pre_finite_inputs.Facts] : Cert.frame_Kernel :=
  fun m ρ _ => Cert.Kernel.Hand.frame m ρ
theorem frame_ki [hK : Cert.KernelIdeal.Facts] [hP : Cert.Pre_finite_inputs.Facts] : Cert.frame_KernelIdeal :=
  fun m ρ _ => Cert.KernelIdeal.Hand.frame m ρ

theorem preserves : Cert.preserves_Kernel_KernelIdeal := trivial

/-- Both programs run, each with its result named, and the two results are one array (`Cert.Alg.value_eq`). -/
theorem algebraic [hKI : Cert.KernelIdeal.Facts] [hR : Cert.ReferenceIdeal.Facts] [hP : Cert.Pre_finite_inputs.Facts] :
    Cert.algebraic_KernelIdeal_ReferenceIdeal := by
  intro m ρ m' ρ' hpre hagree
  refine ⟨fun c => (Cert.KernelIdeal.Hand.dat9 (Cert.KernelIdeal.Hand.tcv (Cert.KernelIdeal.Hand.U23 m)) c).arrAt 3 Cert.KernelIdeal.cfg9.N,
    Cert.KernelIdeal.Hand.run_result (F := Ideal) m ρ, ?_⟩
  refine (θ_run Cert.ReferenceIdeal.defs _ _).mono (fun r h c => ⟨(h c).1.trans ?_, (h c).2⟩)
    (Cert.ReferenceIdeal.ValueP.run_res (F := Ideal) m' ρ')
  exact Cert.Alg.value_eq m m' hpre hagree c

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, preserves, algebraic⟩

end Cert.Proof

end
